-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x128 : Shape := ⟨3, ![32, 16384, 128]⟩
abbrev S16384x128 : Shape := ⟨2, ![16384, 128]⟩
abbrev S_ : Shape := ⟨0, ![]⟩

class Facts : Prop where
  bcast_S_S32x16384x128 : S_.BroadcastsInDim S32x16384x128 (![] : Fin 0 → Fin S32x16384x128.rank)
  reducesTo_S32x16384x128_S_d0_1_2 : S32x16384x128.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S32x16384x128 .f32) (main_arg1 : FVec F S16384x128 .f32) : IVec S_ 1 :=
  let main_v0 : FVec F S32x16384x128 .f32 := Host.absf main_arg0
  let main_cst : FVec F S_ .f32 := constant S_ .f32 0x7F800000#32
  let main_v1 : FVec F S32x16384x128 .f32 := broadcastInDim S32x16384x128 ![] bcast_S_S32x16384x128 main_cst
  let main_v2 : IVec S32x16384x128 1 := cmpf .olt main_v0 main_v1
  let main_c : IVec S_ 1 := constantI S_ 1 1#1
  let main_v3 : IVec S_ 1 := (fun x v => Host.reduce IntOp.andi x v reducesTo_S32x16384x128_S_d0_1_2 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S32x16384x128 : Shape := ⟨3, ![32, 16384, 128]⟩
abbrev S16384x128 : Shape := ⟨2, ![16384, 128]⟩
abbrev S4096x128 : Shape := ⟨2, ![4096, 128]⟩
abbrev S_ : Shape := ⟨0, ![]⟩
abbrev S1x4096x128 : Shape := ⟨3, ![1, 4096, 128]⟩
abbrev S256x128 : Shape := ⟨2, ![256, 128]⟩
abbrev S1x256x128 : Shape := ⟨3, ![1, 256, 128]⟩

abbrev nBuf : Table → Nat
  | .hbm => 4
  | .local .tc .vmem => 16
  | .local .scVector .vmem => 2
  | _ => 0

abbrev bufTy : (tb : Table) → Fin (nBuf tb) → BufTy
  | .hbm, ⟨0, _⟩ => ⟨S32x16384x128, .f32⟩
  | .hbm, ⟨1, _⟩ => ⟨S16384x128, .f32⟩
  | .hbm, ⟨2, _⟩ => ⟨S32x16384x128, .f32⟩
  | .hbm, ⟨3, _⟩ => ⟨S32x16384x128, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S4096x128, .f32⟩
  | .local .tc .vmem, ⟨5, _⟩ => ⟨S4096x128, .f32⟩
  | .local .tc .vmem, ⟨6, _⟩ => ⟨S4096x128, .f32⟩
  | .local .tc .vmem, ⟨7, _⟩ => ⟨S4096x128, .f32⟩
  | .local .tc .vmem, ⟨8, _⟩ => ⟨S4096x128, .f32⟩
  | .local .tc .vmem, ⟨9, _⟩ => ⟨S4096x128, .f32⟩
  | .local .tc .vmem, ⟨10, _⟩ => ⟨S4096x128, .f32⟩
  | .local .tc .vmem, ⟨11, _⟩ => ⟨S4096x128, .f32⟩
  | .local .tc .vmem, ⟨12, _⟩ => ⟨S4096x128, .f32⟩
  | .local .tc .vmem, ⟨13, _⟩ => ⟨S4096x128, .f32⟩
  | .local .tc .vmem, ⟨14, _⟩ => ⟨S4096x128, .f32⟩
  | .local .tc .vmem, ⟨15, _⟩ => ⟨S4096x128, .f32⟩
  | .local .scVector .vmem, ⟨0, _⟩ => ⟨S256x128, .f32⟩
  | .local .scVector .vmem, ⟨1, _⟩ => ⟨S256x128, .f32⟩
  | _, _ => ⟨S32x16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | ⟨33, _⟩ => false
  | ⟨34, _⟩ => false
  | ⟨35, _⟩ => false
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v1_scv : Ref sig .scVector := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc1_scratch0 : Ref sig .scVector := ⟨.vmem, 0, rfl⟩
abbrev cc1_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32_18 : BitVec 32 := 0#32
  let c7_i32 : BitVec 32 := 7#32
  let v16 : BitVec 32 := Scalar.addi c0_i32_18 c7_i32
  let c1_i32 : BitVec 32 := 1#32
  ⟨c0_i32_18, v16, c1_i32⟩
def k0_cond1 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32 : BitVec 32 := 16#32
  let v33 : BitVec 32 := Scalar.muli arg50 c16_i32
  let c0_i32_42 : BitVec 32 := 0#32
  let v34 : BitVec 32 := Scalar.addi v33 c0_i32_42
  let c112_i32 : BitVec 32 := 112#32
  let v35 : BitVec 1 := Scalar.cmpi .slt v34 c112_i32
  let v36 : BitVec 32 := Scalar.extui v35
  let c0_i32_43 : BitVec 32 := 0#32
  let v37 : BitVec 1 := Scalar.cmpi .ne v36 c0_i32_43
  v37

def k0_off1 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32 : BitVec 32 := 16#32
  let v33 : BitVec 32 := Scalar.muli arg50 c16_i32
  let c0_i32_42 : BitVec 32 := 0#32
  let v34 : BitVec 32 := Scalar.addi v33 c0_i32_42
  let c0_i32_174 : BitVec 32 := 0#32
  let v226 : BitVec 1 := Scalar.cmpi .sgt v34 c0_i32_174
  let v227 : BitVec 32 := Scalar.extui v226
  let c0_i32_175 : BitVec 32 := 0#32
  let v228 : BitVec 1 := Scalar.cmpi .slt v34 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v34 c4_i32_173
  let c0_i32_178 : BitVec 32 := 0#32
  let v238 : BitVec 1 := Scalar.cmpi .ne v237 c0_i32_178
  let v239 : BitVec 1 := Scalar.andi v236 v238
  let v225 : BitVec 32 := Scalar.divsi v34 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v34 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond2 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32 : BitVec 32 := 16#32
  let v33 : BitVec 32 := Scalar.muli arg50 c16_i32
  let c0_i32_42 : BitVec 32 := 0#32
  let v34 : BitVec 32 := Scalar.addi v33 c0_i32_42
  let c8_i32 : BitVec 32 := 8#32
  let v38 : BitVec 1 := Scalar.cmpi .sge v34 c8_i32
  let v39 : BitVec 32 := Scalar.extui v38
  let c0_i32_44 : BitVec 32 := 0#32
  let v40 : BitVec 1 := Scalar.cmpi .ne v39 c0_i32_44
  v40

def k0_off2 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32 : BitVec 32 := 16#32
  let v33 : BitVec 32 := Scalar.muli arg50 c16_i32
  let c0_i32_42 : BitVec 32 := 0#32
  let v34 : BitVec 32 := Scalar.addi v33 c0_i32_42
  let c8_i32_173 : BitVec 32 := 8#32
  let v225 : BitVec 32 := Scalar.subi v34 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond3 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32 : BitVec 32 := 16#32
  let v33 : BitVec 32 := Scalar.muli arg50 c16_i32
  let c0_i32_42 : BitVec 32 := 0#32
  let v34 : BitVec 32 := Scalar.addi v33 c0_i32_42
  let c8_i32_45 : BitVec 32 := 8#32
  let v41 : BitVec 32 := Scalar.addi v34 c8_i32_45
  let c112_i32_46 : BitVec 32 := 112#32
  let v42 : BitVec 1 := Scalar.cmpi .slt v41 c112_i32_46
  let v43 : BitVec 32 := Scalar.extui v42
  let c0_i32_47 : BitVec 32 := 0#32
  let v44 : BitVec 1 := Scalar.cmpi .ne v43 c0_i32_47
  v44

def k0_off3 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32 : BitVec 32 := 16#32
  let v33 : BitVec 32 := Scalar.muli arg50 c16_i32
  let c0_i32_42 : BitVec 32 := 0#32
  let v34 : BitVec 32 := Scalar.addi v33 c0_i32_42
  let c8_i32_173 : BitVec 32 := 8#32
  let v225 : BitVec 32 := Scalar.addi v34 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond4 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_48 : BitVec 32 := 16#32
  let v45 : BitVec 32 := Scalar.muli arg50 c16_i32_48
  let c1_i32_49 : BitVec 32 := 1#32
  let v46 : BitVec 32 := Scalar.addi v45 c1_i32_49
  let c112_i32_50 : BitVec 32 := 112#32
  let v47 : BitVec 1 := Scalar.cmpi .slt v46 c112_i32_50
  let v48 : BitVec 32 := Scalar.extui v47
  let c0_i32_51 : BitVec 32 := 0#32
  let v49 : BitVec 1 := Scalar.cmpi .ne v48 c0_i32_51
  v49

def k0_off4 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_48 : BitVec 32 := 16#32
  let v45 : BitVec 32 := Scalar.muli arg50 c16_i32_48
  let c1_i32_49 : BitVec 32 := 1#32
  let v46 : BitVec 32 := Scalar.addi v45 c1_i32_49
  let c0_i32_174 : BitVec 32 := 0#32
  let v226 : BitVec 1 := Scalar.cmpi .sgt v46 c0_i32_174
  let v227 : BitVec 32 := Scalar.extui v226
  let c0_i32_175 : BitVec 32 := 0#32
  let v228 : BitVec 1 := Scalar.cmpi .slt v46 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v46 c4_i32_173
  let c0_i32_178 : BitVec 32 := 0#32
  let v238 : BitVec 1 := Scalar.cmpi .ne v237 c0_i32_178
  let v239 : BitVec 1 := Scalar.andi v236 v238
  let v225 : BitVec 32 := Scalar.divsi v46 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v46 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond5 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_48 : BitVec 32 := 16#32
  let v45 : BitVec 32 := Scalar.muli arg50 c16_i32_48
  let c1_i32_49 : BitVec 32 := 1#32
  let v46 : BitVec 32 := Scalar.addi v45 c1_i32_49
  let c8_i32_52 : BitVec 32 := 8#32
  let v50 : BitVec 1 := Scalar.cmpi .sge v46 c8_i32_52
  let v51 : BitVec 32 := Scalar.extui v50
  let c0_i32_53 : BitVec 32 := 0#32
  let v52 : BitVec 1 := Scalar.cmpi .ne v51 c0_i32_53
  v52

def k0_off5 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_48 : BitVec 32 := 16#32
  let v45 : BitVec 32 := Scalar.muli arg50 c16_i32_48
  let c1_i32_49 : BitVec 32 := 1#32
  let v46 : BitVec 32 := Scalar.addi v45 c1_i32_49
  let c8_i32_173 : BitVec 32 := 8#32
  let v225 : BitVec 32 := Scalar.subi v46 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond6 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_48 : BitVec 32 := 16#32
  let v45 : BitVec 32 := Scalar.muli arg50 c16_i32_48
  let c1_i32_49 : BitVec 32 := 1#32
  let v46 : BitVec 32 := Scalar.addi v45 c1_i32_49
  let c8_i32_54 : BitVec 32 := 8#32
  let v53 : BitVec 32 := Scalar.addi v46 c8_i32_54
  let c112_i32_55 : BitVec 32 := 112#32
  let v54 : BitVec 1 := Scalar.cmpi .slt v53 c112_i32_55
  let v55 : BitVec 32 := Scalar.extui v54
  let c0_i32_56 : BitVec 32 := 0#32
  let v56 : BitVec 1 := Scalar.cmpi .ne v55 c0_i32_56
  v56

def k0_off6 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_48 : BitVec 32 := 16#32
  let v45 : BitVec 32 := Scalar.muli arg50 c16_i32_48
  let c1_i32_49 : BitVec 32 := 1#32
  let v46 : BitVec 32 := Scalar.addi v45 c1_i32_49
  let c8_i32_173 : BitVec 32 := 8#32
  let v225 : BitVec 32 := Scalar.addi v46 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond7 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_57 : BitVec 32 := 16#32
  let v57 : BitVec 32 := Scalar.muli arg50 c16_i32_57
  let c2_i32 : BitVec 32 := 2#32
  let v58 : BitVec 32 := Scalar.addi v57 c2_i32
  let c112_i32_58 : BitVec 32 := 112#32
  let v59 : BitVec 1 := Scalar.cmpi .slt v58 c112_i32_58
  let v60 : BitVec 32 := Scalar.extui v59
  let c0_i32_59 : BitVec 32 := 0#32
  let v61 : BitVec 1 := Scalar.cmpi .ne v60 c0_i32_59
  v61

def k0_off7 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_57 : BitVec 32 := 16#32
  let v57 : BitVec 32 := Scalar.muli arg50 c16_i32_57
  let c2_i32 : BitVec 32 := 2#32
  let v58 : BitVec 32 := Scalar.addi v57 c2_i32
  let c0_i32_174 : BitVec 32 := 0#32
  let v226 : BitVec 1 := Scalar.cmpi .sgt v58 c0_i32_174
  let v227 : BitVec 32 := Scalar.extui v226
  let c0_i32_175 : BitVec 32 := 0#32
  let v228 : BitVec 1 := Scalar.cmpi .slt v58 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v58 c4_i32_173
  let c0_i32_178 : BitVec 32 := 0#32
  let v238 : BitVec 1 := Scalar.cmpi .ne v237 c0_i32_178
  let v239 : BitVec 1 := Scalar.andi v236 v238
  let v225 : BitVec 32 := Scalar.divsi v58 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v58 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond8 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_57 : BitVec 32 := 16#32
  let v57 : BitVec 32 := Scalar.muli arg50 c16_i32_57
  let c2_i32 : BitVec 32 := 2#32
  let v58 : BitVec 32 := Scalar.addi v57 c2_i32
  let c8_i32_60 : BitVec 32 := 8#32
  let v62 : BitVec 1 := Scalar.cmpi .sge v58 c8_i32_60
  let v63 : BitVec 32 := Scalar.extui v62
  let c0_i32_61 : BitVec 32 := 0#32
  let v64 : BitVec 1 := Scalar.cmpi .ne v63 c0_i32_61
  v64

def k0_off8 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_57 : BitVec 32 := 16#32
  let v57 : BitVec 32 := Scalar.muli arg50 c16_i32_57
  let c2_i32 : BitVec 32 := 2#32
  let v58 : BitVec 32 := Scalar.addi v57 c2_i32
  let c8_i32_173 : BitVec 32 := 8#32
  let v225 : BitVec 32 := Scalar.subi v58 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond9 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_57 : BitVec 32 := 16#32
  let v57 : BitVec 32 := Scalar.muli arg50 c16_i32_57
  let c2_i32 : BitVec 32 := 2#32
  let v58 : BitVec 32 := Scalar.addi v57 c2_i32
  let c8_i32_62 : BitVec 32 := 8#32
  let v65 : BitVec 32 := Scalar.addi v58 c8_i32_62
  let c112_i32_63 : BitVec 32 := 112#32
  let v66 : BitVec 1 := Scalar.cmpi .slt v65 c112_i32_63
  let v67 : BitVec 32 := Scalar.extui v66
  let c0_i32_64 : BitVec 32 := 0#32
  let v68 : BitVec 1 := Scalar.cmpi .ne v67 c0_i32_64
  v68

def k0_off9 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_57 : BitVec 32 := 16#32
  let v57 : BitVec 32 := Scalar.muli arg50 c16_i32_57
  let c2_i32 : BitVec 32 := 2#32
  let v58 : BitVec 32 := Scalar.addi v57 c2_i32
  let c8_i32_173 : BitVec 32 := 8#32
  let v225 : BitVec 32 := Scalar.addi v58 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond10 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_65 : BitVec 32 := 16#32
  let v69 : BitVec 32 := Scalar.muli arg50 c16_i32_65
  let c3_i32 : BitVec 32 := 3#32
  let v70 : BitVec 32 := Scalar.addi v69 c3_i32
  let c112_i32_66 : BitVec 32 := 112#32
  let v71 : BitVec 1 := Scalar.cmpi .slt v70 c112_i32_66
  let v72 : BitVec 32 := Scalar.extui v71
  let c0_i32_67 : BitVec 32 := 0#32
  let v73 : BitVec 1 := Scalar.cmpi .ne v72 c0_i32_67
  v73

def k0_off10 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_65 : BitVec 32 := 16#32
  let v69 : BitVec 32 := Scalar.muli arg50 c16_i32_65
  let c3_i32 : BitVec 32 := 3#32
  let v70 : BitVec 32 := Scalar.addi v69 c3_i32
  let c0_i32_174 : BitVec 32 := 0#32
  let v226 : BitVec 1 := Scalar.cmpi .sgt v70 c0_i32_174
  let v227 : BitVec 32 := Scalar.extui v226
  let c0_i32_175 : BitVec 32 := 0#32
  let v228 : BitVec 1 := Scalar.cmpi .slt v70 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v70 c4_i32_173
  let c0_i32_178 : BitVec 32 := 0#32
  let v238 : BitVec 1 := Scalar.cmpi .ne v237 c0_i32_178
  let v239 : BitVec 1 := Scalar.andi v236 v238
  let v225 : BitVec 32 := Scalar.divsi v70 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v70 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond11 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_65 : BitVec 32 := 16#32
  let v69 : BitVec 32 := Scalar.muli arg50 c16_i32_65
  let c3_i32 : BitVec 32 := 3#32
  let v70 : BitVec 32 := Scalar.addi v69 c3_i32
  let c8_i32_68 : BitVec 32 := 8#32
  let v74 : BitVec 1 := Scalar.cmpi .sge v70 c8_i32_68
  let v75 : BitVec 32 := Scalar.extui v74
  let c0_i32_69 : BitVec 32 := 0#32
  let v76 : BitVec 1 := Scalar.cmpi .ne v75 c0_i32_69
  v76

def k0_off11 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_65 : BitVec 32 := 16#32
  let v69 : BitVec 32 := Scalar.muli arg50 c16_i32_65
  let c3_i32 : BitVec 32 := 3#32
  let v70 : BitVec 32 := Scalar.addi v69 c3_i32
  let c8_i32_173 : BitVec 32 := 8#32
  let v225 : BitVec 32 := Scalar.subi v70 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond12 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_65 : BitVec 32 := 16#32
  let v69 : BitVec 32 := Scalar.muli arg50 c16_i32_65
  let c3_i32 : BitVec 32 := 3#32
  let v70 : BitVec 32 := Scalar.addi v69 c3_i32
  let c8_i32_70 : BitVec 32 := 8#32
  let v77 : BitVec 32 := Scalar.addi v70 c8_i32_70
  let c112_i32_71 : BitVec 32 := 112#32
  let v78 : BitVec 1 := Scalar.cmpi .slt v77 c112_i32_71
  let v79 : BitVec 32 := Scalar.extui v78
  let c0_i32_72 : BitVec 32 := 0#32
  let v80 : BitVec 1 := Scalar.cmpi .ne v79 c0_i32_72
  v80

def k0_off12 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_65 : BitVec 32 := 16#32
  let v69 : BitVec 32 := Scalar.muli arg50 c16_i32_65
  let c3_i32 : BitVec 32 := 3#32
  let v70 : BitVec 32 := Scalar.addi v69 c3_i32
  let c8_i32_173 : BitVec 32 := 8#32
  let v225 : BitVec 32 := Scalar.addi v70 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond13 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_73 : BitVec 32 := 16#32
  let v81 : BitVec 32 := Scalar.muli arg50 c16_i32_73
  let c4_i32_74 : BitVec 32 := 4#32
  let v82 : BitVec 32 := Scalar.addi v81 c4_i32_74
  let c112_i32_75 : BitVec 32 := 112#32
  let v83 : BitVec 1 := Scalar.cmpi .slt v82 c112_i32_75
  let v84 : BitVec 32 := Scalar.extui v83
  let c0_i32_76 : BitVec 32 := 0#32
  let v85 : BitVec 1 := Scalar.cmpi .ne v84 c0_i32_76
  v85

def k0_off13 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_73 : BitVec 32 := 16#32
  let v81 : BitVec 32 := Scalar.muli arg50 c16_i32_73
  let c4_i32_74 : BitVec 32 := 4#32
  let v82 : BitVec 32 := Scalar.addi v81 c4_i32_74
  let c0_i32_174 : BitVec 32 := 0#32
  let v226 : BitVec 1 := Scalar.cmpi .sgt v82 c0_i32_174
  let v227 : BitVec 32 := Scalar.extui v226
  let c0_i32_175 : BitVec 32 := 0#32
  let v228 : BitVec 1 := Scalar.cmpi .slt v82 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v82 c4_i32_173
  let c0_i32_178 : BitVec 32 := 0#32
  let v238 : BitVec 1 := Scalar.cmpi .ne v237 c0_i32_178
  let v239 : BitVec 1 := Scalar.andi v236 v238
  let v225 : BitVec 32 := Scalar.divsi v82 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v82 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond14 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_73 : BitVec 32 := 16#32
  let v81 : BitVec 32 := Scalar.muli arg50 c16_i32_73
  let c4_i32_74 : BitVec 32 := 4#32
  let v82 : BitVec 32 := Scalar.addi v81 c4_i32_74
  let c8_i32_77 : BitVec 32 := 8#32
  let v86 : BitVec 1 := Scalar.cmpi .sge v82 c8_i32_77
  let v87 : BitVec 32 := Scalar.extui v86
  let c0_i32_78 : BitVec 32 := 0#32
  let v88 : BitVec 1 := Scalar.cmpi .ne v87 c0_i32_78
  v88

def k0_off14 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_73 : BitVec 32 := 16#32
  let v81 : BitVec 32 := Scalar.muli arg50 c16_i32_73
  let c4_i32_74 : BitVec 32 := 4#32
  let v82 : BitVec 32 := Scalar.addi v81 c4_i32_74
  let c8_i32_173 : BitVec 32 := 8#32
  let v225 : BitVec 32 := Scalar.subi v82 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond15 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_73 : BitVec 32 := 16#32
  let v81 : BitVec 32 := Scalar.muli arg50 c16_i32_73
  let c4_i32_74 : BitVec 32 := 4#32
  let v82 : BitVec 32 := Scalar.addi v81 c4_i32_74
  let c8_i32_79 : BitVec 32 := 8#32
  let v89 : BitVec 32 := Scalar.addi v82 c8_i32_79
  let c112_i32_80 : BitVec 32 := 112#32
  let v90 : BitVec 1 := Scalar.cmpi .slt v89 c112_i32_80
  let v91 : BitVec 32 := Scalar.extui v90
  let c0_i32_81 : BitVec 32 := 0#32
  let v92 : BitVec 1 := Scalar.cmpi .ne v91 c0_i32_81
  v92

def k0_off15 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_73 : BitVec 32 := 16#32
  let v81 : BitVec 32 := Scalar.muli arg50 c16_i32_73
  let c4_i32_74 : BitVec 32 := 4#32
  let v82 : BitVec 32 := Scalar.addi v81 c4_i32_74
  let c8_i32_173 : BitVec 32 := 8#32
  let v225 : BitVec 32 := Scalar.addi v82 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond16 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_82 : BitVec 32 := 16#32
  let v93 : BitVec 32 := Scalar.muli arg50 c16_i32_82
  let c5_i32_83 : BitVec 32 := 5#32
  let v94 : BitVec 32 := Scalar.addi v93 c5_i32_83
  let c112_i32_84 : BitVec 32 := 112#32
  let v95 : BitVec 1 := Scalar.cmpi .slt v94 c112_i32_84
  let v96 : BitVec 32 := Scalar.extui v95
  let c0_i32_85 : BitVec 32 := 0#32
  let v97 : BitVec 1 := Scalar.cmpi .ne v96 c0_i32_85
  v97

def k0_off16 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_82 : BitVec 32 := 16#32
  let v93 : BitVec 32 := Scalar.muli arg50 c16_i32_82
  let c5_i32_83 : BitVec 32 := 5#32
  let v94 : BitVec 32 := Scalar.addi v93 c5_i32_83
  let c0_i32_174 : BitVec 32 := 0#32
  let v226 : BitVec 1 := Scalar.cmpi .sgt v94 c0_i32_174
  let v227 : BitVec 32 := Scalar.extui v226
  let c0_i32_175 : BitVec 32 := 0#32
  let v228 : BitVec 1 := Scalar.cmpi .slt v94 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v94 c4_i32_173
  let c0_i32_178 : BitVec 32 := 0#32
  let v238 : BitVec 1 := Scalar.cmpi .ne v237 c0_i32_178
  let v239 : BitVec 1 := Scalar.andi v236 v238
  let v225 : BitVec 32 := Scalar.divsi v94 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v94 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond17 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_82 : BitVec 32 := 16#32
  let v93 : BitVec 32 := Scalar.muli arg50 c16_i32_82
  let c5_i32_83 : BitVec 32 := 5#32
  let v94 : BitVec 32 := Scalar.addi v93 c5_i32_83
  let c8_i32_86 : BitVec 32 := 8#32
  let v98 : BitVec 1 := Scalar.cmpi .sge v94 c8_i32_86
  let v99 : BitVec 32 := Scalar.extui v98
  let c0_i32_87 : BitVec 32 := 0#32
  let v100 : BitVec 1 := Scalar.cmpi .ne v99 c0_i32_87
  v100

def k0_off17 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_82 : BitVec 32 := 16#32
  let v93 : BitVec 32 := Scalar.muli arg50 c16_i32_82
  let c5_i32_83 : BitVec 32 := 5#32
  let v94 : BitVec 32 := Scalar.addi v93 c5_i32_83
  let c8_i32_173 : BitVec 32 := 8#32
  let v225 : BitVec 32 := Scalar.subi v94 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond18 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_82 : BitVec 32 := 16#32
  let v93 : BitVec 32 := Scalar.muli arg50 c16_i32_82
  let c5_i32_83 : BitVec 32 := 5#32
  let v94 : BitVec 32 := Scalar.addi v93 c5_i32_83
  let c8_i32_88 : BitVec 32 := 8#32
  let v101 : BitVec 32 := Scalar.addi v94 c8_i32_88
  let c112_i32_89 : BitVec 32 := 112#32
  let v102 : BitVec 1 := Scalar.cmpi .slt v101 c112_i32_89
  let v103 : BitVec 32 := Scalar.extui v102
  let c0_i32_90 : BitVec 32 := 0#32
  let v104 : BitVec 1 := Scalar.cmpi .ne v103 c0_i32_90
  v104

def k0_off18 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_82 : BitVec 32 := 16#32
  let v93 : BitVec 32 := Scalar.muli arg50 c16_i32_82
  let c5_i32_83 : BitVec 32 := 5#32
  let v94 : BitVec 32 := Scalar.addi v93 c5_i32_83
  let c8_i32_173 : BitVec 32 := 8#32
  let v225 : BitVec 32 := Scalar.addi v94 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond19 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_91 : BitVec 32 := 16#32
  let v105 : BitVec 32 := Scalar.muli arg50 c16_i32_91
  let c6_i32 : BitVec 32 := 6#32
  let v106 : BitVec 32 := Scalar.addi v105 c6_i32
  let c112_i32_92 : BitVec 32 := 112#32
  let v107 : BitVec 1 := Scalar.cmpi .slt v106 c112_i32_92
  let v108 : BitVec 32 := Scalar.extui v107
  let c0_i32_93 : BitVec 32 := 0#32
  let v109 : BitVec 1 := Scalar.cmpi .ne v108 c0_i32_93
  v109

def k0_off19 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_91 : BitVec 32 := 16#32
  let v105 : BitVec 32 := Scalar.muli arg50 c16_i32_91
  let c6_i32 : BitVec 32 := 6#32
  let v106 : BitVec 32 := Scalar.addi v105 c6_i32
  let c0_i32_174 : BitVec 32 := 0#32
  let v226 : BitVec 1 := Scalar.cmpi .sgt v106 c0_i32_174
  let v227 : BitVec 32 := Scalar.extui v226
  let c0_i32_175 : BitVec 32 := 0#32
  let v228 : BitVec 1 := Scalar.cmpi .slt v106 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v106 c4_i32_173
  let c0_i32_178 : BitVec 32 := 0#32
  let v238 : BitVec 1 := Scalar.cmpi .ne v237 c0_i32_178
  let v239 : BitVec 1 := Scalar.andi v236 v238
  let v225 : BitVec 32 := Scalar.divsi v106 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v106 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond20 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_91 : BitVec 32 := 16#32
  let v105 : BitVec 32 := Scalar.muli arg50 c16_i32_91
  let c6_i32 : BitVec 32 := 6#32
  let v106 : BitVec 32 := Scalar.addi v105 c6_i32
  let c8_i32_94 : BitVec 32 := 8#32
  let v110 : BitVec 1 := Scalar.cmpi .sge v106 c8_i32_94
  let v111 : BitVec 32 := Scalar.extui v110
  let c0_i32_95 : BitVec 32 := 0#32
  let v112 : BitVec 1 := Scalar.cmpi .ne v111 c0_i32_95
  v112

def k0_off20 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_91 : BitVec 32 := 16#32
  let v105 : BitVec 32 := Scalar.muli arg50 c16_i32_91
  let c6_i32 : BitVec 32 := 6#32
  let v106 : BitVec 32 := Scalar.addi v105 c6_i32
  let c8_i32_173 : BitVec 32 := 8#32
  let v225 : BitVec 32 := Scalar.subi v106 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond21 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_91 : BitVec 32 := 16#32
  let v105 : BitVec 32 := Scalar.muli arg50 c16_i32_91
  let c6_i32 : BitVec 32 := 6#32
  let v106 : BitVec 32 := Scalar.addi v105 c6_i32
  let c8_i32_96 : BitVec 32 := 8#32
  let v113 : BitVec 32 := Scalar.addi v106 c8_i32_96
  let c112_i32_97 : BitVec 32 := 112#32
  let v114 : BitVec 1 := Scalar.cmpi .slt v113 c112_i32_97
  let v115 : BitVec 32 := Scalar.extui v114
  let c0_i32_98 : BitVec 32 := 0#32
  let v116 : BitVec 1 := Scalar.cmpi .ne v115 c0_i32_98
  v116

def k0_off21 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_91 : BitVec 32 := 16#32
  let v105 : BitVec 32 := Scalar.muli arg50 c16_i32_91
  let c6_i32 : BitVec 32 := 6#32
  let v106 : BitVec 32 := Scalar.addi v105 c6_i32
  let c8_i32_173 : BitVec 32 := 8#32
  let v225 : BitVec 32 := Scalar.addi v106 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond22 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_99 : BitVec 32 := 16#32
  let v117 : BitVec 32 := Scalar.muli arg50 c16_i32_99
  let c7_i32_100 : BitVec 32 := 7#32
  let v118 : BitVec 32 := Scalar.addi v117 c7_i32_100
  let c112_i32_101 : BitVec 32 := 112#32
  let v119 : BitVec 1 := Scalar.cmpi .slt v118 c112_i32_101
  let v120 : BitVec 32 := Scalar.extui v119
  let c0_i32_102 : BitVec 32 := 0#32
  let v121 : BitVec 1 := Scalar.cmpi .ne v120 c0_i32_102
  v121

def k0_off22 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_99 : BitVec 32 := 16#32
  let v117 : BitVec 32 := Scalar.muli arg50 c16_i32_99
  let c7_i32_100 : BitVec 32 := 7#32
  let v118 : BitVec 32 := Scalar.addi v117 c7_i32_100
  let c0_i32_174 : BitVec 32 := 0#32
  let v226 : BitVec 1 := Scalar.cmpi .sgt v118 c0_i32_174
  let v227 : BitVec 32 := Scalar.extui v226
  let c0_i32_175 : BitVec 32 := 0#32
  let v228 : BitVec 1 := Scalar.cmpi .slt v118 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v118 c4_i32_173
  let c0_i32_178 : BitVec 32 := 0#32
  let v238 : BitVec 1 := Scalar.cmpi .ne v237 c0_i32_178
  let v239 : BitVec 1 := Scalar.andi v236 v238
  let v225 : BitVec 32 := Scalar.divsi v118 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v118 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond23 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_99 : BitVec 32 := 16#32
  let v117 : BitVec 32 := Scalar.muli arg50 c16_i32_99
  let c7_i32_100 : BitVec 32 := 7#32
  let v118 : BitVec 32 := Scalar.addi v117 c7_i32_100
  let c8_i32_103 : BitVec 32 := 8#32
  let v122 : BitVec 1 := Scalar.cmpi .sge v118 c8_i32_103
  let v123 : BitVec 32 := Scalar.extui v122
  let c0_i32_104 : BitVec 32 := 0#32
  let v124 : BitVec 1 := Scalar.cmpi .ne v123 c0_i32_104
  v124

def k0_off23 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_99 : BitVec 32 := 16#32
  let v117 : BitVec 32 := Scalar.muli arg50 c16_i32_99
  let c7_i32_100 : BitVec 32 := 7#32
  let v118 : BitVec 32 := Scalar.addi v117 c7_i32_100
  let c8_i32_173 : BitVec 32 := 8#32
  let v225 : BitVec 32 := Scalar.subi v118 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond24 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_99 : BitVec 32 := 16#32
  let v117 : BitVec 32 := Scalar.muli arg50 c16_i32_99
  let c7_i32_100 : BitVec 32 := 7#32
  let v118 : BitVec 32 := Scalar.addi v117 c7_i32_100
  let c8_i32_105 : BitVec 32 := 8#32
  let v125 : BitVec 32 := Scalar.addi v118 c8_i32_105
  let c112_i32_106 : BitVec 32 := 112#32
  let v126 : BitVec 1 := Scalar.cmpi .slt v125 c112_i32_106
  let v127 : BitVec 32 := Scalar.extui v126
  let c0_i32_107 : BitVec 32 := 0#32
  let v128 : BitVec 1 := Scalar.cmpi .ne v127 c0_i32_107
  v128

def k0_off24 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_99 : BitVec 32 := 16#32
  let v117 : BitVec 32 := Scalar.muli arg50 c16_i32_99
  let c7_i32_100 : BitVec 32 := 7#32
  let v118 : BitVec 32 := Scalar.addi v117 c7_i32_100
  let c8_i32_173 : BitVec 32 := 8#32
  let v225 : BitVec 32 := Scalar.addi v118 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond25 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_108 : BitVec 32 := 16#32
  let v129 : BitVec 32 := Scalar.muli arg50 c16_i32_108
  let c8_i32_109 : BitVec 32 := 8#32
  let v130 : BitVec 32 := Scalar.addi v129 c8_i32_109
  let c112_i32_110 : BitVec 32 := 112#32
  let v131 : BitVec 1 := Scalar.cmpi .slt v130 c112_i32_110
  let v132 : BitVec 32 := Scalar.extui v131
  let c0_i32_111 : BitVec 32 := 0#32
  let v133 : BitVec 1 := Scalar.cmpi .ne v132 c0_i32_111
  v133

def k0_off25 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_108 : BitVec 32 := 16#32
  let v129 : BitVec 32 := Scalar.muli arg50 c16_i32_108
  let c8_i32_109 : BitVec 32 := 8#32
  let v130 : BitVec 32 := Scalar.addi v129 c8_i32_109
  let c0_i32_174 : BitVec 32 := 0#32
  let v226 : BitVec 1 := Scalar.cmpi .sgt v130 c0_i32_174
  let v227 : BitVec 32 := Scalar.extui v226
  let c0_i32_175 : BitVec 32 := 0#32
  let v228 : BitVec 1 := Scalar.cmpi .slt v130 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v130 c4_i32_173
  let c0_i32_178 : BitVec 32 := 0#32
  let v238 : BitVec 1 := Scalar.cmpi .ne v237 c0_i32_178
  let v239 : BitVec 1 := Scalar.andi v236 v238
  let v225 : BitVec 32 := Scalar.divsi v130 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v130 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond26 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_108 : BitVec 32 := 16#32
  let v129 : BitVec 32 := Scalar.muli arg50 c16_i32_108
  let c8_i32_109 : BitVec 32 := 8#32
  let v130 : BitVec 32 := Scalar.addi v129 c8_i32_109
  let c8_i32_112 : BitVec 32 := 8#32
  let v134 : BitVec 1 := Scalar.cmpi .sge v130 c8_i32_112
  let v135 : BitVec 32 := Scalar.extui v134
  let c0_i32_113 : BitVec 32 := 0#32
  let v136 : BitVec 1 := Scalar.cmpi .ne v135 c0_i32_113
  v136

def k0_off26 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_108 : BitVec 32 := 16#32
  let v129 : BitVec 32 := Scalar.muli arg50 c16_i32_108
  let c8_i32_109 : BitVec 32 := 8#32
  let v130 : BitVec 32 := Scalar.addi v129 c8_i32_109
  let c8_i32_173 : BitVec 32 := 8#32
  let v225 : BitVec 32 := Scalar.subi v130 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond27 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_108 : BitVec 32 := 16#32
  let v129 : BitVec 32 := Scalar.muli arg50 c16_i32_108
  let c8_i32_109 : BitVec 32 := 8#32
  let v130 : BitVec 32 := Scalar.addi v129 c8_i32_109
  let c8_i32_114 : BitVec 32 := 8#32
  let v137 : BitVec 32 := Scalar.addi v130 c8_i32_114
  let c112_i32_115 : BitVec 32 := 112#32
  let v138 : BitVec 1 := Scalar.cmpi .slt v137 c112_i32_115
  let v139 : BitVec 32 := Scalar.extui v138
  let c0_i32_116 : BitVec 32 := 0#32
  let v140 : BitVec 1 := Scalar.cmpi .ne v139 c0_i32_116
  v140

def k0_off27 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_108 : BitVec 32 := 16#32
  let v129 : BitVec 32 := Scalar.muli arg50 c16_i32_108
  let c8_i32_109 : BitVec 32 := 8#32
  let v130 : BitVec 32 := Scalar.addi v129 c8_i32_109
  let c8_i32_173 : BitVec 32 := 8#32
  let v225 : BitVec 32 := Scalar.addi v130 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond28 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_117 : BitVec 32 := 16#32
  let v141 : BitVec 32 := Scalar.muli arg50 c16_i32_117
  let c9_i32 : BitVec 32 := 9#32
  let v142 : BitVec 32 := Scalar.addi v141 c9_i32
  let c112_i32_118 : BitVec 32 := 112#32
  let v143 : BitVec 1 := Scalar.cmpi .slt v142 c112_i32_118
  let v144 : BitVec 32 := Scalar.extui v143
  let c0_i32_119 : BitVec 32 := 0#32
  let v145 : BitVec 1 := Scalar.cmpi .ne v144 c0_i32_119
  v145

def k0_off28 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_117 : BitVec 32 := 16#32
  let v141 : BitVec 32 := Scalar.muli arg50 c16_i32_117
  let c9_i32 : BitVec 32 := 9#32
  let v142 : BitVec 32 := Scalar.addi v141 c9_i32
  let c0_i32_174 : BitVec 32 := 0#32
  let v226 : BitVec 1 := Scalar.cmpi .sgt v142 c0_i32_174
  let v227 : BitVec 32 := Scalar.extui v226
  let c0_i32_175 : BitVec 32 := 0#32
  let v228 : BitVec 1 := Scalar.cmpi .slt v142 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v142 c4_i32_173
  let c0_i32_178 : BitVec 32 := 0#32
  let v238 : BitVec 1 := Scalar.cmpi .ne v237 c0_i32_178
  let v239 : BitVec 1 := Scalar.andi v236 v238
  let v225 : BitVec 32 := Scalar.divsi v142 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v142 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond29 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_117 : BitVec 32 := 16#32
  let v141 : BitVec 32 := Scalar.muli arg50 c16_i32_117
  let c9_i32 : BitVec 32 := 9#32
  let v142 : BitVec 32 := Scalar.addi v141 c9_i32
  let c8_i32_120 : BitVec 32 := 8#32
  let v146 : BitVec 1 := Scalar.cmpi .sge v142 c8_i32_120
  let v147 : BitVec 32 := Scalar.extui v146
  let c0_i32_121 : BitVec 32 := 0#32
  let v148 : BitVec 1 := Scalar.cmpi .ne v147 c0_i32_121
  v148

def k0_off29 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_117 : BitVec 32 := 16#32
  let v141 : BitVec 32 := Scalar.muli arg50 c16_i32_117
  let c9_i32 : BitVec 32 := 9#32
  let v142 : BitVec 32 := Scalar.addi v141 c9_i32
  let c8_i32_173 : BitVec 32 := 8#32
  let v225 : BitVec 32 := Scalar.subi v142 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond30 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_117 : BitVec 32 := 16#32
  let v141 : BitVec 32 := Scalar.muli arg50 c16_i32_117
  let c9_i32 : BitVec 32 := 9#32
  let v142 : BitVec 32 := Scalar.addi v141 c9_i32
  let c8_i32_122 : BitVec 32 := 8#32
  let v149 : BitVec 32 := Scalar.addi v142 c8_i32_122
  let c112_i32_123 : BitVec 32 := 112#32
  let v150 : BitVec 1 := Scalar.cmpi .slt v149 c112_i32_123
  let v151 : BitVec 32 := Scalar.extui v150
  let c0_i32_124 : BitVec 32 := 0#32
  let v152 : BitVec 1 := Scalar.cmpi .ne v151 c0_i32_124
  v152

def k0_off30 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_117 : BitVec 32 := 16#32
  let v141 : BitVec 32 := Scalar.muli arg50 c16_i32_117
  let c9_i32 : BitVec 32 := 9#32
  let v142 : BitVec 32 := Scalar.addi v141 c9_i32
  let c8_i32_173 : BitVec 32 := 8#32
  let v225 : BitVec 32 := Scalar.addi v142 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond31 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_125 : BitVec 32 := 16#32
  let v153 : BitVec 32 := Scalar.muli arg50 c16_i32_125
  let c10_i32 : BitVec 32 := 10#32
  let v154 : BitVec 32 := Scalar.addi v153 c10_i32
  let c112_i32_126 : BitVec 32 := 112#32
  let v155 : BitVec 1 := Scalar.cmpi .slt v154 c112_i32_126
  let v156 : BitVec 32 := Scalar.extui v155
  let c0_i32_127 : BitVec 32 := 0#32
  let v157 : BitVec 1 := Scalar.cmpi .ne v156 c0_i32_127
  v157

def k0_off31 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_125 : BitVec 32 := 16#32
  let v153 : BitVec 32 := Scalar.muli arg50 c16_i32_125
  let c10_i32 : BitVec 32 := 10#32
  let v154 : BitVec 32 := Scalar.addi v153 c10_i32
  let c0_i32_174 : BitVec 32 := 0#32
  let v226 : BitVec 1 := Scalar.cmpi .sgt v154 c0_i32_174
  let v227 : BitVec 32 := Scalar.extui v226
  let c0_i32_175 : BitVec 32 := 0#32
  let v228 : BitVec 1 := Scalar.cmpi .slt v154 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v154 c4_i32_173
  let c0_i32_178 : BitVec 32 := 0#32
  let v238 : BitVec 1 := Scalar.cmpi .ne v237 c0_i32_178
  let v239 : BitVec 1 := Scalar.andi v236 v238
  let v225 : BitVec 32 := Scalar.divsi v154 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v154 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond32 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_125 : BitVec 32 := 16#32
  let v153 : BitVec 32 := Scalar.muli arg50 c16_i32_125
  let c10_i32 : BitVec 32 := 10#32
  let v154 : BitVec 32 := Scalar.addi v153 c10_i32
  let c8_i32_128 : BitVec 32 := 8#32
  let v158 : BitVec 1 := Scalar.cmpi .sge v154 c8_i32_128
  let v159 : BitVec 32 := Scalar.extui v158
  let c0_i32_129 : BitVec 32 := 0#32
  let v160 : BitVec 1 := Scalar.cmpi .ne v159 c0_i32_129
  v160

def k0_off32 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_125 : BitVec 32 := 16#32
  let v153 : BitVec 32 := Scalar.muli arg50 c16_i32_125
  let c10_i32 : BitVec 32 := 10#32
  let v154 : BitVec 32 := Scalar.addi v153 c10_i32
  let c8_i32_173 : BitVec 32 := 8#32
  let v225 : BitVec 32 := Scalar.subi v154 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond33 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_125 : BitVec 32 := 16#32
  let v153 : BitVec 32 := Scalar.muli arg50 c16_i32_125
  let c10_i32 : BitVec 32 := 10#32
  let v154 : BitVec 32 := Scalar.addi v153 c10_i32
  let c8_i32_130 : BitVec 32 := 8#32
  let v161 : BitVec 32 := Scalar.addi v154 c8_i32_130
  let c112_i32_131 : BitVec 32 := 112#32
  let v162 : BitVec 1 := Scalar.cmpi .slt v161 c112_i32_131
  let v163 : BitVec 32 := Scalar.extui v162
  let c0_i32_132 : BitVec 32 := 0#32
  let v164 : BitVec 1 := Scalar.cmpi .ne v163 c0_i32_132
  v164

def k0_off33 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_125 : BitVec 32 := 16#32
  let v153 : BitVec 32 := Scalar.muli arg50 c16_i32_125
  let c10_i32 : BitVec 32 := 10#32
  let v154 : BitVec 32 := Scalar.addi v153 c10_i32
  let c8_i32_173 : BitVec 32 := 8#32
  let v225 : BitVec 32 := Scalar.addi v154 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond34 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_133 : BitVec 32 := 16#32
  let v165 : BitVec 32 := Scalar.muli arg50 c16_i32_133
  let c11_i32 : BitVec 32 := 11#32
  let v166 : BitVec 32 := Scalar.addi v165 c11_i32
  let c112_i32_134 : BitVec 32 := 112#32
  let v167 : BitVec 1 := Scalar.cmpi .slt v166 c112_i32_134
  let v168 : BitVec 32 := Scalar.extui v167
  let c0_i32_135 : BitVec 32 := 0#32
  let v169 : BitVec 1 := Scalar.cmpi .ne v168 c0_i32_135
  v169

def k0_off34 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_133 : BitVec 32 := 16#32
  let v165 : BitVec 32 := Scalar.muli arg50 c16_i32_133
  let c11_i32 : BitVec 32 := 11#32
  let v166 : BitVec 32 := Scalar.addi v165 c11_i32
  let c0_i32_174 : BitVec 32 := 0#32
  let v226 : BitVec 1 := Scalar.cmpi .sgt v166 c0_i32_174
  let v227 : BitVec 32 := Scalar.extui v226
  let c0_i32_175 : BitVec 32 := 0#32
  let v228 : BitVec 1 := Scalar.cmpi .slt v166 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v166 c4_i32_173
  let c0_i32_178 : BitVec 32 := 0#32
  let v238 : BitVec 1 := Scalar.cmpi .ne v237 c0_i32_178
  let v239 : BitVec 1 := Scalar.andi v236 v238
  let v225 : BitVec 32 := Scalar.divsi v166 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v166 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond35 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_133 : BitVec 32 := 16#32
  let v165 : BitVec 32 := Scalar.muli arg50 c16_i32_133
  let c11_i32 : BitVec 32 := 11#32
  let v166 : BitVec 32 := Scalar.addi v165 c11_i32
  let c8_i32_136 : BitVec 32 := 8#32
  let v170 : BitVec 1 := Scalar.cmpi .sge v166 c8_i32_136
  let v171 : BitVec 32 := Scalar.extui v170
  let c0_i32_137 : BitVec 32 := 0#32
  let v172 : BitVec 1 := Scalar.cmpi .ne v171 c0_i32_137
  v172

def k0_off35 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_133 : BitVec 32 := 16#32
  let v165 : BitVec 32 := Scalar.muli arg50 c16_i32_133
  let c11_i32 : BitVec 32 := 11#32
  let v166 : BitVec 32 := Scalar.addi v165 c11_i32
  let c8_i32_173 : BitVec 32 := 8#32
  let v225 : BitVec 32 := Scalar.subi v166 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond36 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_133 : BitVec 32 := 16#32
  let v165 : BitVec 32 := Scalar.muli arg50 c16_i32_133
  let c11_i32 : BitVec 32 := 11#32
  let v166 : BitVec 32 := Scalar.addi v165 c11_i32
  let c8_i32_138 : BitVec 32 := 8#32
  let v173 : BitVec 32 := Scalar.addi v166 c8_i32_138
  let c112_i32_139 : BitVec 32 := 112#32
  let v174 : BitVec 1 := Scalar.cmpi .slt v173 c112_i32_139
  let v175 : BitVec 32 := Scalar.extui v174
  let c0_i32_140 : BitVec 32 := 0#32
  let v176 : BitVec 1 := Scalar.cmpi .ne v175 c0_i32_140
  v176

def k0_off36 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_133 : BitVec 32 := 16#32
  let v165 : BitVec 32 := Scalar.muli arg50 c16_i32_133
  let c11_i32 : BitVec 32 := 11#32
  let v166 : BitVec 32 := Scalar.addi v165 c11_i32
  let c8_i32_173 : BitVec 32 := 8#32
  let v225 : BitVec 32 := Scalar.addi v166 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond37 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_141 : BitVec 32 := 16#32
  let v177 : BitVec 32 := Scalar.muli arg50 c16_i32_141
  let c12_i32 : BitVec 32 := 12#32
  let v178 : BitVec 32 := Scalar.addi v177 c12_i32
  let c112_i32_142 : BitVec 32 := 112#32
  let v179 : BitVec 1 := Scalar.cmpi .slt v178 c112_i32_142
  let v180 : BitVec 32 := Scalar.extui v179
  let c0_i32_143 : BitVec 32 := 0#32
  let v181 : BitVec 1 := Scalar.cmpi .ne v180 c0_i32_143
  v181

def k0_off37 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_141 : BitVec 32 := 16#32
  let v177 : BitVec 32 := Scalar.muli arg50 c16_i32_141
  let c12_i32 : BitVec 32 := 12#32
  let v178 : BitVec 32 := Scalar.addi v177 c12_i32
  let c0_i32_174 : BitVec 32 := 0#32
  let v226 : BitVec 1 := Scalar.cmpi .sgt v178 c0_i32_174
  let v227 : BitVec 32 := Scalar.extui v226
  let c0_i32_175 : BitVec 32 := 0#32
  let v228 : BitVec 1 := Scalar.cmpi .slt v178 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v178 c4_i32_173
  let c0_i32_178 : BitVec 32 := 0#32
  let v238 : BitVec 1 := Scalar.cmpi .ne v237 c0_i32_178
  let v239 : BitVec 1 := Scalar.andi v236 v238
  let v225 : BitVec 32 := Scalar.divsi v178 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v178 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond38 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_141 : BitVec 32 := 16#32
  let v177 : BitVec 32 := Scalar.muli arg50 c16_i32_141
  let c12_i32 : BitVec 32 := 12#32
  let v178 : BitVec 32 := Scalar.addi v177 c12_i32
  let c8_i32_144 : BitVec 32 := 8#32
  let v182 : BitVec 1 := Scalar.cmpi .sge v178 c8_i32_144
  let v183 : BitVec 32 := Scalar.extui v182
  let c0_i32_145 : BitVec 32 := 0#32
  let v184 : BitVec 1 := Scalar.cmpi .ne v183 c0_i32_145
  v184

def k0_off38 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_141 : BitVec 32 := 16#32
  let v177 : BitVec 32 := Scalar.muli arg50 c16_i32_141
  let c12_i32 : BitVec 32 := 12#32
  let v178 : BitVec 32 := Scalar.addi v177 c12_i32
  let c8_i32_173 : BitVec 32 := 8#32
  let v225 : BitVec 32 := Scalar.subi v178 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond39 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_141 : BitVec 32 := 16#32
  let v177 : BitVec 32 := Scalar.muli arg50 c16_i32_141
  let c12_i32 : BitVec 32 := 12#32
  let v178 : BitVec 32 := Scalar.addi v177 c12_i32
  let c8_i32_146 : BitVec 32 := 8#32
  let v185 : BitVec 32 := Scalar.addi v178 c8_i32_146
  let c112_i32_147 : BitVec 32 := 112#32
  let v186 : BitVec 1 := Scalar.cmpi .slt v185 c112_i32_147
  let v187 : BitVec 32 := Scalar.extui v186
  let c0_i32_148 : BitVec 32 := 0#32
  let v188 : BitVec 1 := Scalar.cmpi .ne v187 c0_i32_148
  v188

def k0_off39 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_141 : BitVec 32 := 16#32
  let v177 : BitVec 32 := Scalar.muli arg50 c16_i32_141
  let c12_i32 : BitVec 32 := 12#32
  let v178 : BitVec 32 := Scalar.addi v177 c12_i32
  let c8_i32_173 : BitVec 32 := 8#32
  let v225 : BitVec 32 := Scalar.addi v178 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond40 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_149 : BitVec 32 := 16#32
  let v189 : BitVec 32 := Scalar.muli arg50 c16_i32_149
  let c13_i32 : BitVec 32 := 13#32
  let v190 : BitVec 32 := Scalar.addi v189 c13_i32
  let c112_i32_150 : BitVec 32 := 112#32
  let v191 : BitVec 1 := Scalar.cmpi .slt v190 c112_i32_150
  let v192 : BitVec 32 := Scalar.extui v191
  let c0_i32_151 : BitVec 32 := 0#32
  let v193 : BitVec 1 := Scalar.cmpi .ne v192 c0_i32_151
  v193

def k0_off40 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_149 : BitVec 32 := 16#32
  let v189 : BitVec 32 := Scalar.muli arg50 c16_i32_149
  let c13_i32 : BitVec 32 := 13#32
  let v190 : BitVec 32 := Scalar.addi v189 c13_i32
  let c0_i32_174 : BitVec 32 := 0#32
  let v226 : BitVec 1 := Scalar.cmpi .sgt v190 c0_i32_174
  let v227 : BitVec 32 := Scalar.extui v226
  let c0_i32_175 : BitVec 32 := 0#32
  let v228 : BitVec 1 := Scalar.cmpi .slt v190 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v190 c4_i32_173
  let c0_i32_178 : BitVec 32 := 0#32
  let v238 : BitVec 1 := Scalar.cmpi .ne v237 c0_i32_178
  let v239 : BitVec 1 := Scalar.andi v236 v238
  let v225 : BitVec 32 := Scalar.divsi v190 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v190 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond41 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_149 : BitVec 32 := 16#32
  let v189 : BitVec 32 := Scalar.muli arg50 c16_i32_149
  let c13_i32 : BitVec 32 := 13#32
  let v190 : BitVec 32 := Scalar.addi v189 c13_i32
  let c8_i32_152 : BitVec 32 := 8#32
  let v194 : BitVec 1 := Scalar.cmpi .sge v190 c8_i32_152
  let v195 : BitVec 32 := Scalar.extui v194
  let c0_i32_153 : BitVec 32 := 0#32
  let v196 : BitVec 1 := Scalar.cmpi .ne v195 c0_i32_153
  v196

def k0_off41 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_149 : BitVec 32 := 16#32
  let v189 : BitVec 32 := Scalar.muli arg50 c16_i32_149
  let c13_i32 : BitVec 32 := 13#32
  let v190 : BitVec 32 := Scalar.addi v189 c13_i32
  let c8_i32_173 : BitVec 32 := 8#32
  let v225 : BitVec 32 := Scalar.subi v190 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond42 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_149 : BitVec 32 := 16#32
  let v189 : BitVec 32 := Scalar.muli arg50 c16_i32_149
  let c13_i32 : BitVec 32 := 13#32
  let v190 : BitVec 32 := Scalar.addi v189 c13_i32
  let c8_i32_154 : BitVec 32 := 8#32
  let v197 : BitVec 32 := Scalar.addi v190 c8_i32_154
  let c112_i32_155 : BitVec 32 := 112#32
  let v198 : BitVec 1 := Scalar.cmpi .slt v197 c112_i32_155
  let v199 : BitVec 32 := Scalar.extui v198
  let c0_i32_156 : BitVec 32 := 0#32
  let v200 : BitVec 1 := Scalar.cmpi .ne v199 c0_i32_156
  v200

def k0_off42 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_149 : BitVec 32 := 16#32
  let v189 : BitVec 32 := Scalar.muli arg50 c16_i32_149
  let c13_i32 : BitVec 32 := 13#32
  let v190 : BitVec 32 := Scalar.addi v189 c13_i32
  let c8_i32_173 : BitVec 32 := 8#32
  let v225 : BitVec 32 := Scalar.addi v190 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond43 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_157 : BitVec 32 := 16#32
  let v201 : BitVec 32 := Scalar.muli arg50 c16_i32_157
  let c14_i32 : BitVec 32 := 14#32
  let v202 : BitVec 32 := Scalar.addi v201 c14_i32
  let c112_i32_158 : BitVec 32 := 112#32
  let v203 : BitVec 1 := Scalar.cmpi .slt v202 c112_i32_158
  let v204 : BitVec 32 := Scalar.extui v203
  let c0_i32_159 : BitVec 32 := 0#32
  let v205 : BitVec 1 := Scalar.cmpi .ne v204 c0_i32_159
  v205

def k0_off43 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_157 : BitVec 32 := 16#32
  let v201 : BitVec 32 := Scalar.muli arg50 c16_i32_157
  let c14_i32 : BitVec 32 := 14#32
  let v202 : BitVec 32 := Scalar.addi v201 c14_i32
  let c0_i32_174 : BitVec 32 := 0#32
  let v226 : BitVec 1 := Scalar.cmpi .sgt v202 c0_i32_174
  let v227 : BitVec 32 := Scalar.extui v226
  let c0_i32_175 : BitVec 32 := 0#32
  let v228 : BitVec 1 := Scalar.cmpi .slt v202 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v202 c4_i32_173
  let c0_i32_178 : BitVec 32 := 0#32
  let v238 : BitVec 1 := Scalar.cmpi .ne v237 c0_i32_178
  let v239 : BitVec 1 := Scalar.andi v236 v238
  let v225 : BitVec 32 := Scalar.divsi v202 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v202 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond44 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_157 : BitVec 32 := 16#32
  let v201 : BitVec 32 := Scalar.muli arg50 c16_i32_157
  let c14_i32 : BitVec 32 := 14#32
  let v202 : BitVec 32 := Scalar.addi v201 c14_i32
  let c8_i32_160 : BitVec 32 := 8#32
  let v206 : BitVec 1 := Scalar.cmpi .sge v202 c8_i32_160
  let v207 : BitVec 32 := Scalar.extui v206
  let c0_i32_161 : BitVec 32 := 0#32
  let v208 : BitVec 1 := Scalar.cmpi .ne v207 c0_i32_161
  v208

def k0_off44 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_157 : BitVec 32 := 16#32
  let v201 : BitVec 32 := Scalar.muli arg50 c16_i32_157
  let c14_i32 : BitVec 32 := 14#32
  let v202 : BitVec 32 := Scalar.addi v201 c14_i32
  let c8_i32_173 : BitVec 32 := 8#32
  let v225 : BitVec 32 := Scalar.subi v202 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond45 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_157 : BitVec 32 := 16#32
  let v201 : BitVec 32 := Scalar.muli arg50 c16_i32_157
  let c14_i32 : BitVec 32 := 14#32
  let v202 : BitVec 32 := Scalar.addi v201 c14_i32
  let c8_i32_162 : BitVec 32 := 8#32
  let v209 : BitVec 32 := Scalar.addi v202 c8_i32_162
  let c112_i32_163 : BitVec 32 := 112#32
  let v210 : BitVec 1 := Scalar.cmpi .slt v209 c112_i32_163
  let v211 : BitVec 32 := Scalar.extui v210
  let c0_i32_164 : BitVec 32 := 0#32
  let v212 : BitVec 1 := Scalar.cmpi .ne v211 c0_i32_164
  v212

def k0_off45 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_157 : BitVec 32 := 16#32
  let v201 : BitVec 32 := Scalar.muli arg50 c16_i32_157
  let c14_i32 : BitVec 32 := 14#32
  let v202 : BitVec 32 := Scalar.addi v201 c14_i32
  let c8_i32_173 : BitVec 32 := 8#32
  let v225 : BitVec 32 := Scalar.addi v202 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond46 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_165 : BitVec 32 := 16#32
  let v213 : BitVec 32 := Scalar.muli arg50 c16_i32_165
  let c15_i32 : BitVec 32 := 15#32
  let v214 : BitVec 32 := Scalar.addi v213 c15_i32
  let c112_i32_166 : BitVec 32 := 112#32
  let v215 : BitVec 1 := Scalar.cmpi .slt v214 c112_i32_166
  let v216 : BitVec 32 := Scalar.extui v215
  let c0_i32_167 : BitVec 32 := 0#32
  let v217 : BitVec 1 := Scalar.cmpi .ne v216 c0_i32_167
  v217

def k0_off46 (k0_t1 : Fin k0_t1_loop.trips) : Fin 3 → Nat :=
  let c4_i32_180 : BitVec 32 := 4#32
  let c0_i32_18 : BitVec 32 := 0#32
  let c1_i32 : BitVec 32 := 1#32
  let arg50 : BitVec 32 := Scf.iv c0_i32_18 c1_i32 k0_t1
  let c16_i32_165 : BitVec 32 := 16#32
  let v213 : BitVec 32 := Scalar.muli arg50 c16_i32_165
  let c15_i32 : BitVec 32 := 15#32
  let v214 : BitVec 32 := Scalar.addi v213 c15_i32
  let c0_i32_174 : BitVec 32 := 0#32
  let v226 : BitVec 1 := Scalar.cmpi .sgt v214 c0_i32_174
  let v227 : BitVec 32 := Scalar.extui v226
  let c0_i32_175 : BitVec 32 := 0#32
  let v228 : BitVec 1 := Scalar.cmpi .slt v214 c0_i32_175
  let v229 : BitVec 32 := Scalar.extui v228
  let v230 : BitVec 32 := Scalar.subi v227 v229
  let c4_i32_173 : BitVec 32 := 4#32
  let c0_i32_176 : BitVec 32 := 0#32
  let v231 : BitVec 1 := Scalar.cmpi .sgt c4_i32_173 c0_i32_176
  let v232 : BitVec 32 := Scalar.extui v231
  let c0_i32_177 : BitVec 32 := 0#32
  let v233 : BitVec 1 := Scalar.cmpi .slt c4_i32_173 c0_i32_177
  let v234 : BitVec 32 := Scalar.extui v233
  let v235 : BitVec 32 := Scalar.subi v232 v234
  let v236 : BitVec 1 := Scalar.cmpi .ne v230 v235
  let v237 : BitVec 32 := Scalar.remsi v214 c4_i32_173
  let c0_i32_178 : BitVec 32 := 0#32
  let v238 : BitVec 1 := Scalar.cmpi .ne v237 c0_i32_178
  let v239 : BitVec 1 := Scalar.andi v236 v238
  let v225 : BitVec 32 := Scalar.divsi v214 c4_i32_173
  let c1_i32_179 : BitVec 32 := 1#32
  let v240 : BitVec 32 := Scalar.subi v225 c1_i32_179
  let v241 : BitVec 32 := Scalar.select v239 v240 v225
  let v242 : BitVec 32 := Scalar.addi c4_i32_180 v241
  let c4_i32_181 : BitVec 32 := 4#32
  let c0_i32_182 : BitVec 32 := 0#32
  let v243 : BitVec 1 := Scalar.cmpi .eq c4_i32_181 c0_i32_182
  let c1_i32_183 : BitVec 32 := 1#32
  let v244 : BitVec 32 := Scalar.select v243 c1_i32_183 c4_i32_181
  let v245 : BitVec 32 := Scalar.remsi v214 v244
  let c0_i32_185 : BitVec 32 := 0#32
  let v247 : BitVec 1 := Scalar.cmpi .slt v245 c0_i32_185
  let c0_i32_186 : BitVec 32 := 0#32
  let v248 : BitVec 1 := Scalar.cmpi .slt v244 c0_i32_186
  let v249 : BitVec 1 := Scalar.xori v247 v248
  let c0_i32_184 : BitVec 32 := 0#32
  let v246 : BitVec 1 := Scalar.cmpi .ne v245 c0_i32_184
  let v250 : BitVec 1 := Scalar.andi v249 v246
  let v251 : BitVec 32 := Scalar.addi v245 v244
  let v252 : BitVec 32 := Scalar.select v250 v251 v245
  let c4096_i32_187 : BitVec 32 := 4096#32
  let v253 : BitVec 32 := Scalar.muli v252 c4096_i32_187
  let c0_i32_188 : BitVec 32 := 0#32
  ![v242.toNat, v253.toNat, 0]
def k0_cond47 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_165 : BitVec 32 := 16#32
  let v213 : BitVec 32 := Scalar.muli arg50 c16_i32_165
  let c15_i32 : BitVec 32 := 15#32
  let v214 : BitVec 32 := Scalar.addi v213 c15_i32
  let c8_i32_168 : BitVec 32 := 8#32
  let v218 : BitVec 1 := Scalar.cmpi .sge v214 c8_i32_168
  let v219 : BitVec 32 := Scalar.extui v218
  let c0_i32_169 : BitVec 32 := 0#32
  let v220 : BitVec 1 := Scalar.cmpi .ne v219 c0_i32_169
  v220

def k0_off47 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_165 : BitVec 32 := 16#32
  let v213 : BitVec 32 := Scalar.muli arg50 c16_i32_165
  let c15_i32 : BitVec 32 := 15#32
  let v214 : BitVec 32 := Scalar.addi v213 c15_i32
  let c8_i32_173 : BitVec 32 := 8#32
  let v225 : BitVec 32 := Scalar.subi v214 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
def k0_cond48 (k0_t1 : Fin k0_t1_loop.trips) : BitVec 1 :=
  let c0_i32_18 : BitVec 32 := 0#32
  let c1_i32 : BitVec 32 := 1#32
  let arg50 : BitVec 32 := Scf.iv c0_i32_18 c1_i32 k0_t1
  let c16_i32_165 : BitVec 32 := 16#32
  let v213 : BitVec 32 := Scalar.muli arg50 c16_i32_165
  let c15_i32 : BitVec 32 := 15#32
  let v214 : BitVec 32 := Scalar.addi v213 c15_i32
  let c8_i32_170 : BitVec 32 := 8#32
  let v221 : BitVec 32 := Scalar.addi v214 c8_i32_170
  let c112_i32_171 : BitVec 32 := 112#32
  let v222 : BitVec 1 := Scalar.cmpi .slt v221 c112_i32_171
  let v223 : BitVec 32 := Scalar.extui v222
  let c0_i32_172 : BitVec 32 := 0#32
  let v224 : BitVec 1 := Scalar.cmpi .ne v223 c0_i32_172
  v224

def k0_off48 (k0_t1 : Fin k0_t1_loop.trips) : Fin 3 → Nat :=
  let c4_i32_181 : BitVec 32 := 4#32
  let c0_i32_18 : BitVec 32 := 0#32
  let c1_i32 : BitVec 32 := 1#32
  let arg50 : BitVec 32 := Scf.iv c0_i32_18 c1_i32 k0_t1
  let c16_i32_165 : BitVec 32 := 16#32
  let v213 : BitVec 32 := Scalar.muli arg50 c16_i32_165
  let c15_i32 : BitVec 32 := 15#32
  let v214 : BitVec 32 := Scalar.addi v213 c15_i32
  let c8_i32_173 : BitVec 32 := 8#32
  let v225 : BitVec 32 := Scalar.addi v214 c8_i32_173
  let c0_i32_175 : BitVec 32 := 0#32
  let v227 : BitVec 1 := Scalar.cmpi .sgt v225 c0_i32_175
  let v228 : BitVec 32 := Scalar.extui v227
  let c0_i32_176 : BitVec 32 := 0#32
  let v229 : BitVec 1 := Scalar.cmpi .slt v225 c0_i32_176
  let v230 : BitVec 32 := Scalar.extui v229
  let v231 : BitVec 32 := Scalar.subi v228 v230
  let c4_i32_174 : BitVec 32 := 4#32
  let c0_i32_177 : BitVec 32 := 0#32
  let v232 : BitVec 1 := Scalar.cmpi .sgt c4_i32_174 c0_i32_177
  let v233 : BitVec 32 := Scalar.extui v232
  let c0_i32_178 : BitVec 32 := 0#32
  let v234 : BitVec 1 := Scalar.cmpi .slt c4_i32_174 c0_i32_178
  let v235 : BitVec 32 := Scalar.extui v234
  let v236 : BitVec 32 := Scalar.subi v233 v235
  let v237 : BitVec 1 := Scalar.cmpi .ne v231 v236
  let v238 : BitVec 32 := Scalar.remsi v225 c4_i32_174
  let c0_i32_179 : BitVec 32 := 0#32
  let v239 : BitVec 1 := Scalar.cmpi .ne v238 c0_i32_179
  let v240 : BitVec 1 := Scalar.andi v237 v239
  let v226 : BitVec 32 := Scalar.divsi v225 c4_i32_174
  let c1_i32_180 : BitVec 32 := 1#32
  let v241 : BitVec 32 := Scalar.subi v226 c1_i32_180
  let v242 : BitVec 32 := Scalar.select v240 v241 v226
  let v243 : BitVec 32 := Scalar.addi c4_i32_181 v242
  let c4_i32_182 : BitVec 32 := 4#32
  let c0_i32_183 : BitVec 32 := 0#32
  let v244 : BitVec 1 := Scalar.cmpi .eq c4_i32_182 c0_i32_183
  let c1_i32_184 : BitVec 32 := 1#32
  let v245 : BitVec 32 := Scalar.select v244 c1_i32_184 c4_i32_182
  let v246 : BitVec 32 := Scalar.remsi v225 v245
  let c0_i32_186 : BitVec 32 := 0#32
  let v248 : BitVec 1 := Scalar.cmpi .slt v246 c0_i32_186
  let c0_i32_187 : BitVec 32 := 0#32
  let v249 : BitVec 1 := Scalar.cmpi .slt v245 c0_i32_187
  let v250 : BitVec 1 := Scalar.xori v248 v249
  let c0_i32_185 : BitVec 32 := 0#32
  let v247 : BitVec 1 := Scalar.cmpi .ne v246 c0_i32_185
  let v251 : BitVec 1 := Scalar.andi v250 v247
  let v252 : BitVec 32 := Scalar.addi v246 v245
  let v253 : BitVec 32 := Scalar.select v251 v252 v246
  let c4096_i32_188 : BitVec 32 := 4096#32
  let v254 : BitVec 32 := Scalar.muli v253 c4096_i32_188
  let c0_i32_189 : BitVec 32 := 0#32
  ![v243.toNat, v254.toNat, 0]
abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_11 : BitVec 32 := 0#32
  let v31 : BitVec 1 := Scalar.cmpi .eq v18 c0_i32_11
  let v32 : BitVec 32 := Scalar.extui v31
  let c0_i32_12 : BitVec 32 := 0#32
  let v33 : BitVec 1 := Scalar.cmpi .ne v32 c0_i32_12
  v33

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_10 : BitVec 32 := 0#32
  let v30 : BitVec 32 := Scalar.addi v29 c0_i32_10
  let c0_i32_21 : BitVec 32 := 0#32
  ![v30.toNat, 0]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_13 : BitVec 32 := 0#32
  let v34 : BitVec 1 := Scalar.cmpi .ne v18 c0_i32_13
  let v35 : BitVec 32 := Scalar.extui v34
  let c0_i32_14 : BitVec 32 := 0#32
  let v36 : BitVec 1 := Scalar.cmpi .ne v35 c0_i32_14
  v36

def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_10 : BitVec 32 := 0#32
  let v30 : BitVec 32 := Scalar.addi v29 c0_i32_10
  let c0_i32_21 : BitVec 32 := 0#32
  ![v18.toNat, v30.toNat, 0]
@[reducible] def k1_t1_loop : Scf.Loop 32 :=
  let c0_i32_16 : BitVec 32 := 0#32
  let c4_i32 : BitVec 32 := 4#32
  let v37 : BitVec 32 := Scalar.addi c0_i32_16 c4_i32
  let c1_i32_17 : BitVec 32 := 1#32
  ⟨c0_i32_16, v37, c1_i32_17⟩
def k1_off3 (i : grid1.Coords) (k1_t1 : Fin k1_t1_loop.trips) (c0_i32_22 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_16 : BitVec 32 := 0#32
  let c1_i32_17 : BitVec 32 := 1#32
  let arg12 : BitVec 32 := Scf.iv c0_i32_16 c1_i32_17 k1_t1
  let c2_i32_21 : BitVec 32 := 2#32
  let v43 : BitVec 32 := Scalar.muli arg12 c2_i32_21
  let v44 : BitVec 32 := Scalar.addi v43 c0_i32_22
  let c256_i32 : BitVec 32 := 256#32
  let v45 : BitVec 32 := Scalar.muli v44 c256_i32
  let v46 : BitVec 32 := Scalar.addi v29 v45
  let c0_i32_23 : BitVec 32 := 0#32
  ![v18.toNat, v46.toNat, 0]
def k1_cond3 (k1_t1 : Fin k1_t1_loop.trips) : BitVec 1 :=
  let c0_i32_16 : BitVec 32 := 0#32
  let c1_i32_17 : BitVec 32 := 1#32
  let arg12 : BitVec 32 := Scf.iv c0_i32_16 c1_i32_17 k1_t1
  let c2_i32_21 : BitVec 32 := 2#32
  let v43 : BitVec 32 := Scalar.muli arg12 c2_i32_21
  let c0_i32_22 : BitVec 32 := 0#32
  let v44 : BitVec 32 := Scalar.addi v43 c0_i32_22
  let c1_i32_28 : BitVec 32 := 1#32
  let v57 : BitVec 1 := Scalar.cmpi .sge v44 c1_i32_28
  let v58 : BitVec 32 := Scalar.extui v57
  let c0_i32_29 : BitVec 32 := 0#32
  let v59 : BitVec 1 := Scalar.cmpi .ne v58 c0_i32_29
  v59

def k1_off4 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_16 : BitVec 32 := 0#32
  let c1_i32_17 : BitVec 32 := 1#32
  let arg12 : BitVec 32 := Scf.iv c0_i32_16 c1_i32_17 k1_t1
  let c2_i32_21 : BitVec 32 := 2#32
  let v43 : BitVec 32 := Scalar.muli arg12 c2_i32_21
  let c0_i32_22 : BitVec 32 := 0#32
  let v44 : BitVec 32 := Scalar.addi v43 c0_i32_22
  let c1_i32_46 : BitVec 32 := 1#32
  let v85 : BitVec 32 := Scalar.subi v44 c1_i32_46
  let c256_i32_47 : BitVec 32 := 256#32
  let v86 : BitVec 32 := Scalar.muli v85 c256_i32_47
  let v87 : BitVec 32 := Scalar.addi v29 v86
  let c0_i32_48 : BitVec 32 := 0#32
  ![v18.toNat, v87.toNat, 0]
def k1_cond4 (k1_t1 : Fin k1_t1_loop.trips) : BitVec 1 :=
  let c0_i32_16 : BitVec 32 := 0#32
  let c1_i32_17 : BitVec 32 := 1#32
  let arg12 : BitVec 32 := Scf.iv c0_i32_16 c1_i32_17 k1_t1
  let c2_i32_21 : BitVec 32 := 2#32
  let v43 : BitVec 32 := Scalar.muli arg12 c2_i32_21
  let c0_i32_22 : BitVec 32 := 0#32
  let v44 : BitVec 32 := Scalar.addi v43 c0_i32_22
  let c1_i32_30 : BitVec 32 := 1#32
  let v60 : BitVec 32 := Scalar.addi v44 c1_i32_30
  let c8_i32_31 : BitVec 32 := 8#32
  let v61 : BitVec 1 := Scalar.cmpi .slt v60 c8_i32_31
  let v62 : BitVec 32 := Scalar.extui v61
  let c0_i32_32 : BitVec 32 := 0#32
  let v63 : BitVec 1 := Scalar.cmpi .ne v62 c0_i32_32
  v63

def k1_cond5 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_48 : BitVec 32 := 0#32
  let v88 : BitVec 1 := Scalar.cmpi .eq v18 c0_i32_48
  let v89 : BitVec 32 := Scalar.extui v88
  let c0_i32_49 : BitVec 32 := 0#32
  let v90 : BitVec 1 := Scalar.cmpi .ne v89 c0_i32_49
  v90

def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_16 : BitVec 32 := 0#32
  let c1_i32_17 : BitVec 32 := 1#32
  let arg12 : BitVec 32 := Scf.iv c0_i32_16 c1_i32_17 k1_t1
  let c2_i32_21 : BitVec 32 := 2#32
  let v43 : BitVec 32 := Scalar.muli arg12 c2_i32_21
  let c0_i32_22 : BitVec 32 := 0#32
  let v44 : BitVec 32 := Scalar.addi v43 c0_i32_22
  let c1_i32_46 : BitVec 32 := 1#32
  let v85 : BitVec 32 := Scalar.addi v44 c1_i32_46
  let c256_i32_47 : BitVec 32 := 256#32
  let v86 : BitVec 32 := Scalar.muli v85 c256_i32_47
  let v87 : BitVec 32 := Scalar.addi v29 v86
  let c0_i32_52 : BitVec 32 := 0#32
  ![v87.toNat, 0]
def k1_cond6 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_50 : BitVec 32 := 0#32
  let v91 : BitVec 1 := Scalar.cmpi .ne v18 c0_i32_50
  let v92 : BitVec 32 := Scalar.extui v91
  let c0_i32_51 : BitVec 32 := 0#32
  let v93 : BitVec 1 := Scalar.cmpi .ne v92 c0_i32_51
  v93

def k1_off6 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_16 : BitVec 32 := 0#32
  let c1_i32_17 : BitVec 32 := 1#32
  let arg12 : BitVec 32 := Scf.iv c0_i32_16 c1_i32_17 k1_t1
  let c2_i32_21 : BitVec 32 := 2#32
  let v43 : BitVec 32 := Scalar.muli arg12 c2_i32_21
  let c0_i32_22 : BitVec 32 := 0#32
  let v44 : BitVec 32 := Scalar.addi v43 c0_i32_22
  let c1_i32_46 : BitVec 32 := 1#32
  let v85 : BitVec 32 := Scalar.addi v44 c1_i32_46
  let c256_i32_47 : BitVec 32 := 256#32
  let v86 : BitVec 32 := Scalar.muli v85 c256_i32_47
  let v87 : BitVec 32 := Scalar.addi v29 v86
  let c0_i32_52 : BitVec 32 := 0#32
  ![v18.toNat, v87.toNat, 0]
def k1_cond7 (k1_t1 : Fin k1_t1_loop.trips) : BitVec 1 :=
  let c0_i32_16 : BitVec 32 := 0#32
  let c1_i32_17 : BitVec 32 := 1#32
  let arg12 : BitVec 32 := Scf.iv c0_i32_16 c1_i32_17 k1_t1
  let c2_i32_33 : BitVec 32 := 2#32
  let v64 : BitVec 32 := Scalar.muli arg12 c2_i32_33
  let c1_i32_34 : BitVec 32 := 1#32
  let v65 : BitVec 32 := Scalar.addi v64 c1_i32_34
  let c1_i32_41 : BitVec 32 := 1#32
  let v78 : BitVec 1 := Scalar.cmpi .sge v65 c1_i32_41
  let v79 : BitVec 32 := Scalar.extui v78
  let c0_i32_42 : BitVec 32 := 0#32
  let v80 : BitVec 1 := Scalar.cmpi .ne v79 c0_i32_42
  v80

def k1_off7 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_16 : BitVec 32 := 0#32
  let c1_i32_17 : BitVec 32 := 1#32
  let arg12 : BitVec 32 := Scf.iv c0_i32_16 c1_i32_17 k1_t1
  let c2_i32_33 : BitVec 32 := 2#32
  let v64 : BitVec 32 := Scalar.muli arg12 c2_i32_33
  let c1_i32_34 : BitVec 32 := 1#32
  let v65 : BitVec 32 := Scalar.addi v64 c1_i32_34
  let c1_i32_46 : BitVec 32 := 1#32
  let v85 : BitVec 32 := Scalar.subi v65 c1_i32_46
  let c256_i32_47 : BitVec 32 := 256#32
  let v86 : BitVec 32 := Scalar.muli v85 c256_i32_47
  let v87 : BitVec 32 := Scalar.addi v29 v86
  let c0_i32_48 : BitVec 32 := 0#32
  ![v18.toNat, v87.toNat, 0]
def k1_cond8 (k1_t1 : Fin k1_t1_loop.trips) : BitVec 1 :=
  let c0_i32_16 : BitVec 32 := 0#32
  let c1_i32_17 : BitVec 32 := 1#32
  let arg12 : BitVec 32 := Scf.iv c0_i32_16 c1_i32_17 k1_t1
  let c2_i32_33 : BitVec 32 := 2#32
  let v64 : BitVec 32 := Scalar.muli arg12 c2_i32_33
  let c1_i32_34 : BitVec 32 := 1#32
  let v65 : BitVec 32 := Scalar.addi v64 c1_i32_34
  let c1_i32_43 : BitVec 32 := 1#32
  let v81 : BitVec 32 := Scalar.addi v65 c1_i32_43
  let c8_i32_44 : BitVec 32 := 8#32
  let v82 : BitVec 1 := Scalar.cmpi .slt v81 c8_i32_44
  let v83 : BitVec 32 := Scalar.extui v82
  let c0_i32_45 : BitVec 32 := 0#32
  let v84 : BitVec 1 := Scalar.cmpi .ne v83 c0_i32_45
  v84

def k1_cond9 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_48 : BitVec 32 := 0#32
  let v88 : BitVec 1 := Scalar.cmpi .eq v18 c0_i32_48
  let v89 : BitVec 32 := Scalar.extui v88
  let c0_i32_49 : BitVec 32 := 0#32
  let v90 : BitVec 1 := Scalar.cmpi .ne v89 c0_i32_49
  v90

def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_16 : BitVec 32 := 0#32
  let c1_i32_17 : BitVec 32 := 1#32
  let arg12 : BitVec 32 := Scf.iv c0_i32_16 c1_i32_17 k1_t1
  let c2_i32_33 : BitVec 32 := 2#32
  let v64 : BitVec 32 := Scalar.muli arg12 c2_i32_33
  let c1_i32_34 : BitVec 32 := 1#32
  let v65 : BitVec 32 := Scalar.addi v64 c1_i32_34
  let c1_i32_46 : BitVec 32 := 1#32
  let v85 : BitVec 32 := Scalar.addi v65 c1_i32_46
  let c256_i32_47 : BitVec 32 := 256#32
  let v86 : BitVec 32 := Scalar.muli v85 c256_i32_47
  let v87 : BitVec 32 := Scalar.addi v29 v86
  let c0_i32_52 : BitVec 32 := 0#32
  ![v87.toNat, 0]
def k1_cond10 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_50 : BitVec 32 := 0#32
  let v91 : BitVec 1 := Scalar.cmpi .ne v18 c0_i32_50
  let v92 : BitVec 32 := Scalar.extui v91
  let c0_i32_51 : BitVec 32 := 0#32
  let v93 : BitVec 1 := Scalar.cmpi .ne v92 c0_i32_51
  v93

def k1_off9 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c0_i32_16 : BitVec 32 := 0#32
  let c1_i32_17 : BitVec 32 := 1#32
  let arg12 : BitVec 32 := Scf.iv c0_i32_16 c1_i32_17 k1_t1
  let c2_i32_33 : BitVec 32 := 2#32
  let v64 : BitVec 32 := Scalar.muli arg12 c2_i32_33
  let c1_i32_34 : BitVec 32 := 1#32
  let v65 : BitVec 32 := Scalar.addi v64 c1_i32_34
  let c1_i32_46 : BitVec 32 := 1#32
  let v85 : BitVec 32 := Scalar.addi v65 c1_i32_46
  let c256_i32_47 : BitVec 32 := 256#32
  let v86 : BitVec 32 := Scalar.muli v85 c256_i32_47
  let v87 : BitVec 32 := Scalar.addi v29 v86
  let c0_i32_52 : BitVec 32 := 0#32
  ![v18.toNat, v87.toNat, 0]
def k1_off10 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c1792_i32 : BitVec 32 := 1792#32
  let v38 : BitVec 32 := Scalar.addi v29 c1792_i32
  let c0_i32_19 : BitVec 32 := 0#32
  ![v18.toNat, v38.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S32x16384x128_S1x4096x128_4_0_0 : ∀ a, (![4, 0, 0] : Fin 3 → Nat) a + S1x4096x128.size a ≤ S32x16384x128.size a
  squeezes_S1x4096x128_S4096x128 : S1x4096x128.Squeezes S4096x128
  inb_S32x16384x128_S1x4096x128_4_4096_0 : ∀ a, (![4, 4096, 0] : Fin 3 → Nat) a + S1x4096x128.size a ≤ S32x16384x128.size a
  inb_S32x16384x128_S1x4096x128_4_8192_0 : ∀ a, (![4, 8192, 0] : Fin 3 → Nat) a + S1x4096x128.size a ≤ S32x16384x128.size a
  inb_S32x16384x128_S1x4096x128_4_12288_0 : ∀ a, (![4, 12288, 0] : Fin 3 → Nat) a + S1x4096x128.size a ≤ S32x16384x128.size a
  inb_S32x16384x128_S1x4096x128_5_0_0 : ∀ a, (![5, 0, 0] : Fin 3 → Nat) a + S1x4096x128.size a ≤ S32x16384x128.size a
  inb_S32x16384x128_S1x4096x128_5_4096_0 : ∀ a, (![5, 4096, 0] : Fin 3 → Nat) a + S1x4096x128.size a ≤ S32x16384x128.size a
  inb_S32x16384x128_S1x4096x128_5_8192_0 : ∀ a, (![5, 8192, 0] : Fin 3 → Nat) a + S1x4096x128.size a ≤ S32x16384x128.size a
  inb_S32x16384x128_S1x4096x128_5_12288_0 : ∀ a, (![5, 12288, 0] : Fin 3 → Nat) a + S1x4096x128.size a ≤ S32x16384x128.size a
  inb_S32x16384x128_S1x4096x128_30_0_0 : ∀ a, (![30, 0, 0] : Fin 3 → Nat) a + S1x4096x128.size a ≤ S32x16384x128.size a
  inb_S32x16384x128_S1x4096x128_30_4096_0 : ∀ a, (![30, 4096, 0] : Fin 3 → Nat) a + S1x4096x128.size a ≤ S32x16384x128.size a
  inb_S32x16384x128_S1x4096x128_30_8192_0 : ∀ a, (![30, 8192, 0] : Fin 3 → Nat) a + S1x4096x128.size a ≤ S32x16384x128.size a
  inb_S32x16384x128_S1x4096x128_30_12288_0 : ∀ a, (![30, 12288, 0] : Fin 3 → Nat) a + S1x4096x128.size a ≤ S32x16384x128.size a
  inb_S32x16384x128_S1x4096x128_31_0_0 : ∀ a, (![31, 0, 0] : Fin 3 → Nat) a + S1x4096x128.size a ≤ S32x16384x128.size a
  inb_S32x16384x128_S1x4096x128_31_4096_0 : ∀ a, (![31, 4096, 0] : Fin 3 → Nat) a + S1x4096x128.size a ≤ S32x16384x128.size a
  inb_S32x16384x128_S1x4096x128_31_8192_0 : ∀ a, (![31, 8192, 0] : Fin 3 → Nat) a + S1x4096x128.size a ≤ S32x16384x128.size a
  inb_S32x16384x128_S1x4096x128_31_12288_0 : ∀ a, (![31, 12288, 0] : Fin 3 → Nat) a + S1x4096x128.size a ≤ S32x16384x128.size a
  squeezes_S1x256x128_S256x128 : S1x256x128.Squeezes S256x128
  hcc0_scratch16 : 0 + S_.numel ≤ 36
  hcc0_scratch17 : 1 + S_.numel ≤ 36
  hcc0_scratch18 : 2 + S_.numel ≤ 36
  hcc0_scratch19 : 3 + S_.numel ≤ 36
  hcc0_scratch20 : 4 + S_.numel ≤ 36
  hcc0_scratch21 : 5 + S_.numel ≤ 36
  hcc0_scratch22 : 6 + S_.numel ≤ 36
  hcc0_scratch23 : 7 + S_.numel ≤ 36
  hcc0_scratch24 : 8 + S_.numel ≤ 36
  hcc0_scratch25 : 9 + S_.numel ≤ 36
  hcc0_scratch26 : 10 + S_.numel ≤ 36
  hcc0_scratch27 : 11 + S_.numel ≤ 36
  hcc0_scratch28 : 12 + S_.numel ≤ 36
  hcc0_scratch29 : 13 + S_.numel ≤ 36
  hcc0_scratch30 : 14 + S_.numel ≤ 36
  hcc0_scratch31 : 15 + S_.numel ≤ 36
  hcc0_scratch32 : 16 + S_.numel ≤ 36
  hcc0_scratch33 : 17 + S_.numel ≤ 36
  hcc0_scratch34 : 18 + S_.numel ≤ 36
  hcc0_scratch35 : 19 + S_.numel ≤ 36
  hcc0_scratch36 : 20 + S_.numel ≤ 36
  hcc0_scratch37 : 21 + S_.numel ≤ 36
  hcc0_scratch38 : 22 + S_.numel ≤ 36
  hcc0_scratch39 : 23 + S_.numel ≤ 36
  hcc0_scratch40 : 24 + S_.numel ≤ 36
  hcc0_scratch41 : 25 + S_.numel ≤ 36
  hcc0_scratch42 : 26 + S_.numel ≤ 36
  hcc0_scratch43 : 27 + S_.numel ≤ 36
  hcc0_scratch44 : 28 + S_.numel ≤ 36
  hcc0_scratch45 : 29 + S_.numel ≤ 36
  hcc0_scratch46 : 30 + S_.numel ≤ 36
  hcc0_scratch47 : 31 + S_.numel ≤ 36
  hcc1_scratch2 : 32 + S_.numel ≤ 36
  hcc1_scratch3 : 33 + S_.numel ≤ 36
  hcc1_scratch4 : 34 + S_.numel ≤ 36
  hcc1_scratch5 : 35 + S_.numel ≤ 36
  hscKind : ∀ q, scKind q ≠ .tc
  hscCore : ∀ q, scNCore q ≤ τ.nSC
  hscSub : ∀ q, scNSub q ≤ τ.nSub
  k0_t1_ok : k0_t1_loop.OK
  k0_off1_inb : ∀ k0_t1 : Fin k0_t1_loop.trips, ∀ (k0_h1 : k0_cond1 k0_t1 = 1#1), ∀ a, (k0_off1 k0_t1) a + S1x4096x128.size a ≤ S32x16384x128.size a
  k0_off2_inb : ∀ k0_t1 : Fin k0_t1_loop.trips, ∀ (k0_h2 : k0_cond2 k0_t1 = 1#1), ∀ a, (k0_off2 k0_t1) a + S1x4096x128.size a ≤ S32x16384x128.size a
  k0_off3_inb : ∀ k0_t1 : Fin k0_t1_loop.trips, ∀ (k0_h3 : k0_cond3 k0_t1 = 1#1), ∀ a, (k0_off3 k0_t1) a + S1x4096x128.size a ≤ S32x16384x128.size a
  k0_off4_inb : ∀ k0_t1 : Fin k0_t1_loop.trips, ∀ (k0_h4 : k0_cond4 k0_t1 = 1#1), ∀ a, (k0_off4 k0_t1) a + S1x4096x128.size a ≤ S32x16384x128.size a
  k0_off5_inb : ∀ k0_t1 : Fin k0_t1_loop.trips, ∀ (k0_h5 : k0_cond5 k0_t1 = 1#1), ∀ a, (k0_off5 k0_t1) a + S1x4096x128.size a ≤ S32x16384x128.size a
  k0_off6_inb : ∀ k0_t1 : Fin k0_t1_loop.trips, ∀ (k0_h6 : k0_cond6 k0_t1 = 1#1), ∀ a, (k0_off6 k0_t1) a + S1x4096x128.size a ≤ S32x16384x128.size a
  k0_off7_inb : ∀ k0_t1 : Fin k0_t1_loop.trips, ∀ (k0_h7 : k0_cond7 k0_t1 = 1#1), ∀ a, (k0_off7 k0_t1) a + S1x4096x128.size a ≤ S32x16384x128.size a
  k0_off8_inb : ∀ k0_t1 : Fin k0_t1_loop.trips, ∀ (k0_h8 : k0_cond8 k0_t1 = 1#1), ∀ a, (k0_off8 k0_t1) a + S1x4096x128.size a ≤ S32x16384x128.size a
  k0_off9_inb : ∀ k0_t1 : Fin k0_t1_loop.trips, ∀ (k0_h9 : k0_cond9 k0_t1 = 1#1), ∀ a, (k0_off9 k0_t1) a + S1x4096x128.size a ≤ S32x16384x128.size a
  k0_off10_inb : ∀ k0_t1 : Fin k0_t1_loop.trips, ∀ (k0_h10 : k0_cond10 k0_t1 = 1#1), ∀ a, (k0_off10 k0_t1) a + S1x4096x128.size a ≤ S32x16384x128.size a
  k0_off11_inb : ∀ k0_t1 : Fin k0_t1_loop.trips, ∀ (k0_h11 : k0_cond11 k0_t1 = 1#1), ∀ a, (k0_off11 k0_t1) a + S1x4096x128.size a ≤ S32x16384x128.size a
  k0_off12_inb : ∀ k0_t1 : Fin k0_t1_loop.trips, ∀ (k0_h12 : k0_cond12 k0_t1 = 1#1), ∀ a, (k0_off12 k0_t1) a + S1x4096x128.size a ≤ S32x16384x128.size a
  k0_off13_inb : ∀ k0_t1 : Fin k0_t1_loop.trips, ∀ (k0_h13 : k0_cond13 k0_t1 = 1#1), ∀ a, (k0_off13 k0_t1) a + S1x4096x128.size a ≤ S32x16384x128.size a
  k0_off14_inb : ∀ k0_t1 : Fin k0_t1_loop.trips, ∀ (k0_h14 : k0_cond14 k0_t1 = 1#1), ∀ a, (k0_off14 k0_t1) a + S1x4096x128.size a ≤ S32x16384x128.size a
  k0_off15_inb : ∀ k0_t1 : Fin k0_t1_loop.trips, ∀ (k0_h15 : k0_cond15 k0_t1 = 1#1), ∀ a, (k0_off15 k0_t1) a + S1x4096x128.size a ≤ S32x16384x128.size a
  k0_off16_inb : ∀ k0_t1 : Fin k0_t1_loop.trips, ∀ (k0_h16 : k0_cond16 k0_t1 = 1#1), ∀ a, (k0_off16 k0_t1) a + S1x4096x128.size a ≤ S32x16384x128.size a
  k0_off17_inb : ∀ k0_t1 : Fin k0_t1_loop.trips, ∀ (k0_h17 : k0_cond17 k0_t1 = 1#1), ∀ a, (k0_off17 k0_t1) a + S1x4096x128.size a ≤ S32x16384x128.size a
  k0_off18_inb : ∀ k0_t1 : Fin k0_t1_loop.trips, ∀ (k0_h18 : k0_cond18 k0_t1 = 1#1), ∀ a, (k0_off18 k0_t1) a + S1x4096x128.size a ≤ S32x16384x128.size a
  k0_off19_inb : ∀ k0_t1 : Fin k0_t1_loop.trips, ∀ (k0_h19 : k0_cond19 k0_t1 = 1#1), ∀ a, (k0_off19 k0_t1) a + S1x4096x128.size a ≤ S32x16384x128.size a
  k0_off20_inb : ∀ k0_t1 : Fin k0_t1_loop.trips, ∀ (k0_h20 : k0_cond20 k0_t1 = 1#1), ∀ a, (k0_off20 k0_t1) a + S1x4096x128.size a ≤ S32x16384x128.size a
  k0_off21_inb : ∀ k0_t1 : Fin k0_t1_loop.trips, ∀ (k0_h21 : k0_cond21 k0_t1 = 1#1), ∀ a, (k0_off21 k0_t1) a + S1x4096x128.size a ≤ S32x16384x128.size a
  k0_off22_inb : ∀ k0_t1 : Fin k0_t1_loop.trips, ∀ (k0_h22 : k0_cond22 k0_t1 = 1#1), ∀ a, (k0_off22 k0_t1) a + S1x4096x128.size a ≤ S32x16384x128.size a
  k0_off23_inb : ∀ k0_t1 : Fin k0_t1_loop.trips, ∀ (k0_h23 : k0_cond23 k0_t1 = 1#1), ∀ a, (k0_off23 k0_t1) a + S1x4096x128.size a ≤ S32x16384x128.size a
  k0_off24_inb : ∀ k0_t1 : Fin k0_t1_loop.trips, ∀ (k0_h24 : k0_cond24 k0_t1 = 1#1), ∀ a, (k0_off24 k0_t1) a + S1x4096x128.size a ≤ S32x16384x128.size a
  k0_off25_inb : ∀ k0_t1 : Fin k0_t1_loop.trips, ∀ (k0_h25 : k0_cond25 k0_t1 = 1#1), ∀ a, (k0_off25 k0_t1) a + S1x4096x128.size a ≤ S32x16384x128.size a
  k0_off26_inb : ∀ k0_t1 : Fin k0_t1_loop.trips, ∀ (k0_h26 : k0_cond26 k0_t1 = 1#1), ∀ a, (k0_off26 k0_t1) a + S1x4096x128.size a ≤ S32x16384x128.size a
  k0_off27_inb : ∀ k0_t1 : Fin k0_t1_loop.trips, ∀ (k0_h27 : k0_cond27 k0_t1 = 1#1), ∀ a, (k0_off27 k0_t1) a + S1x4096x128.size a ≤ S32x16384x128.size a
  k0_off28_inb : ∀ k0_t1 : Fin k0_t1_loop.trips, ∀ (k0_h28 : k0_cond28 k0_t1 = 1#1), ∀ a, (k0_off28 k0_t1) a + S1x4096x128.size a ≤ S32x16384x128.size a
  k0_off29_inb : ∀ k0_t1 : Fin k0_t1_loop.trips, ∀ (k0_h29 : k0_cond29 k0_t1 = 1#1), ∀ a, (k0_off29 k0_t1) a + S1x4096x128.size a ≤ S32x16384x128.size a
  k0_off30_inb : ∀ k0_t1 : Fin k0_t1_loop.trips, ∀ (k0_h30 : k0_cond30 k0_t1 = 1#1), ∀ a, (k0_off30 k0_t1) a + S1x4096x128.size a ≤ S32x16384x128.size a
  k0_off31_inb : ∀ k0_t1 : Fin k0_t1_loop.trips, ∀ (k0_h31 : k0_cond31 k0_t1 = 1#1), ∀ a, (k0_off31 k0_t1) a + S1x4096x128.size a ≤ S32x16384x128.size a
  k0_off32_inb : ∀ k0_t1 : Fin k0_t1_loop.trips, ∀ (k0_h32 : k0_cond32 k0_t1 = 1#1), ∀ a, (k0_off32 k0_t1) a + S1x4096x128.size a ≤ S32x16384x128.size a
  k0_off33_inb : ∀ k0_t1 : Fin k0_t1_loop.trips, ∀ (k0_h33 : k0_cond33 k0_t1 = 1#1), ∀ a, (k0_off33 k0_t1) a + S1x4096x128.size a ≤ S32x16384x128.size a
  k0_off34_inb : ∀ k0_t1 : Fin k0_t1_loop.trips, ∀ (k0_h34 : k0_cond34 k0_t1 = 1#1), ∀ a, (k0_off34 k0_t1) a + S1x4096x128.size a ≤ S32x16384x128.size a
  k0_off35_inb : ∀ k0_t1 : Fin k0_t1_loop.trips, ∀ (k0_h35 : k0_cond35 k0_t1 = 1#1), ∀ a, (k0_off35 k0_t1) a + S1x4096x128.size a ≤ S32x16384x128.size a
  k0_off36_inb : ∀ k0_t1 : Fin k0_t1_loop.trips, ∀ (k0_h36 : k0_cond36 k0_t1 = 1#1), ∀ a, (k0_off36 k0_t1) a + S1x4096x128.size a ≤ S32x16384x128.size a
  k0_off37_inb : ∀ k0_t1 : Fin k0_t1_loop.trips, ∀ (k0_h37 : k0_cond37 k0_t1 = 1#1), ∀ a, (k0_off37 k0_t1) a + S1x4096x128.size a ≤ S32x16384x128.size a
  k0_off38_inb : ∀ k0_t1 : Fin k0_t1_loop.trips, ∀ (k0_h38 : k0_cond38 k0_t1 = 1#1), ∀ a, (k0_off38 k0_t1) a + S1x4096x128.size a ≤ S32x16384x128.size a
  k0_off39_inb : ∀ k0_t1 : Fin k0_t1_loop.trips, ∀ (k0_h39 : k0_cond39 k0_t1 = 1#1), ∀ a, (k0_off39 k0_t1) a + S1x4096x128.size a ≤ S32x16384x128.size a
  k0_off40_inb : ∀ k0_t1 : Fin k0_t1_loop.trips, ∀ (k0_h40 : k0_cond40 k0_t1 = 1#1), ∀ a, (k0_off40 k0_t1) a + S1x4096x128.size a ≤ S32x16384x128.size a
  k0_off41_inb : ∀ k0_t1 : Fin k0_t1_loop.trips, ∀ (k0_h41 : k0_cond41 k0_t1 = 1#1), ∀ a, (k0_off41 k0_t1) a + S1x4096x128.size a ≤ S32x16384x128.size a
  k0_off42_inb : ∀ k0_t1 : Fin k0_t1_loop.trips, ∀ (k0_h42 : k0_cond42 k0_t1 = 1#1), ∀ a, (k0_off42 k0_t1) a + S1x4096x128.size a ≤ S32x16384x128.size a
  k0_off43_inb : ∀ k0_t1 : Fin k0_t1_loop.trips, ∀ (k0_h43 : k0_cond43 k0_t1 = 1#1), ∀ a, (k0_off43 k0_t1) a + S1x4096x128.size a ≤ S32x16384x128.size a
  k0_off44_inb : ∀ k0_t1 : Fin k0_t1_loop.trips, ∀ (k0_h44 : k0_cond44 k0_t1 = 1#1), ∀ a, (k0_off44 k0_t1) a + S1x4096x128.size a ≤ S32x16384x128.size a
  k0_off45_inb : ∀ k0_t1 : Fin k0_t1_loop.trips, ∀ (k0_h45 : k0_cond45 k0_t1 = 1#1), ∀ a, (k0_off45 k0_t1) a + S1x4096x128.size a ≤ S32x16384x128.size a
  k0_off46_inb : ∀ k0_t1 : Fin k0_t1_loop.trips, ∀ (k0_h46 : k0_cond46 k0_t1 = 1#1), ∀ a, (k0_off46 k0_t1) a + S1x4096x128.size a ≤ S32x16384x128.size a
  k0_off47_inb : ∀ k0_t1 : Fin k0_t1_loop.trips, ∀ (k0_h47 : k0_cond47 k0_t1 = 1#1), ∀ a, (k0_off47 k0_t1) a + S1x4096x128.size a ≤ S32x16384x128.size a
  k0_off48_inb : ∀ k0_t1 : Fin k0_t1_loop.trips, ∀ (k0_h48 : k0_cond48 k0_t1 = 1#1), ∀ a, (k0_off48 k0_t1) a + S1x4096x128.size a ≤ S32x16384x128.size a
  hcore1 : grid1.bound 0 ≤ τ.nSC
  hsub1 : grid1.bound 1 ≤ τ.nSub
  k1_off1_inb : ∀ i : grid1.Coords, ∀ (k1_h1 : k1_cond1 i = 1#1), ∀ a, (k1_off1 i) a + S256x128.size a ≤ S16384x128.size a
  k1_off2_inb : ∀ i : grid1.Coords, ∀ (k1_h2 : k1_cond2 i = 1#1), ∀ a, (k1_off2 i) a + S1x256x128.size a ≤ S32x16384x128.size a
  k1_t1_ok : k1_t1_loop.OK
  k1_off3_inb : ∀ (i : grid1.Coords) (k1_t1 : Fin k1_t1_loop.trips), ∀ (r : Fin 2), ∀ a, (k1_off3 i k1_t1 (BitVec.ofNat 32 r.val)) a + S1x256x128.size a ≤ S32x16384x128.size a
  k1_off4_inb : ∀ (i : grid1.Coords) (k1_t1 : Fin k1_t1_loop.trips), ∀ (k1_h3 : k1_cond3 k1_t1 = 1#1), ∀ a, (k1_off4 i k1_t1) a + S1x256x128.size a ≤ S32x16384x128.size a
  k1_off5_inb : ∀ (i : grid1.Coords) (k1_t1 : Fin k1_t1_loop.trips), ∀ (k1_h4 : k1_cond4 k1_t1 = 1#1), ∀ (k1_h5 : k1_cond5 i = 1#1), ∀ a, (k1_off5 i k1_t1) a + S256x128.size a ≤ S16384x128.size a
  k1_off6_inb : ∀ (i : grid1.Coords) (k1_t1 : Fin k1_t1_loop.trips), ∀ (k1_h4 : k1_cond4 k1_t1 = 1#1), ∀ (k1_h6 : k1_cond6 i = 1#1), ∀ a, (k1_off6 i k1_t1) a + S1x256x128.size a ≤ S32x16384x128.size a
  k1_off7_inb : ∀ (i : grid1.Coords) (k1_t1 : Fin k1_t1_loop.trips), ∀ (k1_h7 : k1_cond7 k1_t1 = 1#1), ∀ a, (k1_off7 i k1_t1) a + S1x256x128.size a ≤ S32x16384x128.size a
  k1_off8_inb : ∀ (i : grid1.Coords) (k1_t1 : Fin k1_t1_loop.trips), ∀ (k1_h8 : k1_cond8 k1_t1 = 1#1), ∀ (k1_h9 : k1_cond9 i = 1#1), ∀ a, (k1_off8 i k1_t1) a + S256x128.size a ≤ S16384x128.size a
  k1_off9_inb : ∀ (i : grid1.Coords) (k1_t1 : Fin k1_t1_loop.trips), ∀ (k1_h8 : k1_cond8 k1_t1 = 1#1), ∀ (k1_h10 : k1_cond10 i = 1#1), ∀ a, (k1_off9 i k1_t1) a + S1x256x128.size a ≤ S32x16384x128.size a
  k1_off10_inb : ∀ i : grid1.Coords, ∀ a, (k1_off10 i) a + S1x256x128.size a ≤ S32x16384x128.size a

variable [Facts₀]

abbrev cc0_scratch16 : DmaSems sig S_ := SemArray.consecutive 0 S_ hcc0_scratch16
abbrev cc0_scratch17 : DmaSems sig S_ := SemArray.consecutive 1 S_ hcc0_scratch17
abbrev cc0_scratch18 : DmaSems sig S_ := SemArray.consecutive 2 S_ hcc0_scratch18
abbrev cc0_scratch19 : DmaSems sig S_ := SemArray.consecutive 3 S_ hcc0_scratch19
abbrev cc0_scratch20 : DmaSems sig S_ := SemArray.consecutive 4 S_ hcc0_scratch20
abbrev cc0_scratch21 : DmaSems sig S_ := SemArray.consecutive 5 S_ hcc0_scratch21
abbrev cc0_scratch22 : DmaSems sig S_ := SemArray.consecutive 6 S_ hcc0_scratch22
abbrev cc0_scratch23 : DmaSems sig S_ := SemArray.consecutive 7 S_ hcc0_scratch23
abbrev cc0_scratch24 : DmaSems sig S_ := SemArray.consecutive 8 S_ hcc0_scratch24
abbrev cc0_scratch25 : DmaSems sig S_ := SemArray.consecutive 9 S_ hcc0_scratch25
abbrev cc0_scratch26 : DmaSems sig S_ := SemArray.consecutive 10 S_ hcc0_scratch26
abbrev cc0_scratch27 : DmaSems sig S_ := SemArray.consecutive 11 S_ hcc0_scratch27
abbrev cc0_scratch28 : DmaSems sig S_ := SemArray.consecutive 12 S_ hcc0_scratch28
abbrev cc0_scratch29 : DmaSems sig S_ := SemArray.consecutive 13 S_ hcc0_scratch29
abbrev cc0_scratch30 : DmaSems sig S_ := SemArray.consecutive 14 S_ hcc0_scratch30
abbrev cc0_scratch31 : DmaSems sig S_ := SemArray.consecutive 15 S_ hcc0_scratch31
abbrev cc0_scratch32 : DmaSems sig S_ := SemArray.consecutive 16 S_ hcc0_scratch32
abbrev cc0_scratch33 : DmaSems sig S_ := SemArray.consecutive 17 S_ hcc0_scratch33
abbrev cc0_scratch34 : DmaSems sig S_ := SemArray.consecutive 18 S_ hcc0_scratch34
abbrev cc0_scratch35 : DmaSems sig S_ := SemArray.consecutive 19 S_ hcc0_scratch35
abbrev cc0_scratch36 : DmaSems sig S_ := SemArray.consecutive 20 S_ hcc0_scratch36
abbrev cc0_scratch37 : DmaSems sig S_ := SemArray.consecutive 21 S_ hcc0_scratch37
abbrev cc0_scratch38 : DmaSems sig S_ := SemArray.consecutive 22 S_ hcc0_scratch38
abbrev cc0_scratch39 : DmaSems sig S_ := SemArray.consecutive 23 S_ hcc0_scratch39
abbrev cc0_scratch40 : DmaSems sig S_ := SemArray.consecutive 24 S_ hcc0_scratch40
abbrev cc0_scratch41 : DmaSems sig S_ := SemArray.consecutive 25 S_ hcc0_scratch41
abbrev cc0_scratch42 : DmaSems sig S_ := SemArray.consecutive 26 S_ hcc0_scratch42
abbrev cc0_scratch43 : DmaSems sig S_ := SemArray.consecutive 27 S_ hcc0_scratch43
abbrev cc0_scratch44 : DmaSems sig S_ := SemArray.consecutive 28 S_ hcc0_scratch44
abbrev cc0_scratch45 : DmaSems sig S_ := SemArray.consecutive 29 S_ hcc0_scratch45
abbrev cc0_scratch46 : DmaSems sig S_ := SemArray.consecutive 30 S_ hcc0_scratch46
abbrev cc0_scratch47 : DmaSems sig S_ := SemArray.consecutive 31 S_ hcc0_scratch47
abbrev cc1_scratch2 : DmaSems sig S_ := SemArray.consecutive 32 S_ hcc1_scratch2
abbrev cc1_scratch3 : DmaSems sig S_ := SemArray.consecutive 33 S_ hcc1_scratch3
abbrev cc1_scratch4 : DmaSems sig S_ := SemArray.consecutive 34 S_ hcc1_scratch4
abbrev cc1_scratch5 : DmaSems sig S_ := SemArray.consecutive 35 S_ hcc1_scratch5

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32x16384x128 : Shape := ⟨3, ![32, 16384, 128]⟩
abbrev S16384x128 : Shape := ⟨2, ![16384, 128]⟩
abbrev S_ : Shape := ⟨0, ![]⟩
abbrev S1 : Shape := ⟨1, ![1]⟩

abbrev nBuf : Space → Nat
  | .hbm => 5
  | .vmem => 0
  | .smem => 0
  | _ => 0

abbrev bufTy : (tb : Table) → Fin (tcTables nBuf tb) → BufTy
  | .hbm, ⟨0, _⟩ => ⟨S32x16384x128, .f32⟩
  | .hbm, ⟨1, _⟩ => ⟨S16384x128, .f32⟩
  | .hbm, ⟨2, _⟩ => ⟨S_, .i32⟩
  | .hbm, ⟨3, _⟩ => ⟨S1, .i32⟩
  | .hbm, ⟨4, _⟩ => ⟨S32x16384x128, .f32⟩
  | _, _ => ⟨S32x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  bcast_S_S1 : S_.BroadcastsInDim S1 (![] : Fin 0 → Fin S1.rank)
  scatter_S32x16384x128_S1_S16384x128_01_0_0_0_wf : ScatterDims.WF S32x16384x128 S1 S16384x128 [0, 1] [0] [0] 0

variable [Facts₀]

def scatter_S32x16384x128_S1_S16384x128_01_0_0_0 : ScatterDims S32x16384x128 S1 S16384x128 where
  updateWindowDims := [0, 1]
  insertedWindowDims := [0]
  scatterDimsToOperandDims := [0]
  indexVectorDim := 0
  wf := scatter_S32x16384x128_S1_S16384x128_01_0_0_0_wf

class Facts : Prop extends Facts₀ where

variable [Facts]
-- ==== Proof.LibScatterSet.lean ====
/-
  A host scatter whose body keeps the update ("set"), read at an index.

  `Host.scatter` is a left fold over the update indices in row-major order: each update index `j` whose landing
  index exists replaces the operand's element there. When EVERY update index lands (at `ι j`) and the landing map
  `ι` is injective, no element is written twice, so the fold's order does not matter: the result at `ι j` is the
  update at `j`, and at an index no update lands on it is the operand's element.
-/
import Idealize.ShloMosaic.PureOps

namespace Idealize.ShloMosaic.ScatterSet

variable {α : Type} {s u : Shape}

/-- One step of the fold with the landing index known: element `ι j` becomes the update at `j`. -/
def step (ι : u.Idx → s.Idx) (upd : u.Idx → α) (r : s.Idx → α) (n : Fin u.numel) : s.Idx → α :=
  fun i' => if i' = ι (u.rowMajor.symm n) then upd (u.rowMajor.symm n) else r i'

/-- An index no listed update lands on keeps its element through the fold. -/
theorem foldl_miss (ι : u.Idx → s.Idx) (upd : u.Idx → α) (i : s.Idx) :
    ∀ (l : List (Fin u.numel)) (r : s.Idx → α), (∀ n ∈ l, ι (u.rowMajor.symm n) ≠ i) → l.foldl (step ι upd) r i = r i
  | [], _, _ => rfl
  | a :: l, r, h => by
    rw [List.foldl_cons, foldl_miss ι upd i l _ (fun n hn => h n (List.mem_cons_of_mem _ hn))]
    unfold step
    rw [if_neg (fun e => h a (List.mem_cons_self ..) e.symm)]

/-- Where a listed update lands, the fold leaves that update: later steps land elsewhere, the landing map being
    injective and the list without repeats. -/
theorem foldl_hit (ι : u.Idx → s.Idx) (hinj : Function.Injective ι) (upd : u.Idx → α) (n : Fin u.numel) :
    ∀ (l : List (Fin u.numel)) (r : s.Idx → α), l.Nodup → n ∈ l →
      l.foldl (step ι upd) r (ι (u.rowMajor.symm n)) = upd (u.rowMajor.symm n)
  | [], _, _, hn => absurd hn (List.not_mem_nil)
  | a :: l, r, hnd, hn => by
    rw [List.foldl_cons]
    rcases List.mem_cons.mp hn with rfl | hn'
    · rw [foldl_miss ι upd _ l _ (fun n' hn' e => (List.nodup_cons.mp hnd).1 (by
        have e' : n' = n := u.rowMajor.symm.injective (hinj e)
        rw [← e']; exact hn'))]
      unfold step
      rw [if_pos rfl]
    · exact foldl_hit ι hinj upd n l _ (List.nodup_cons.mp hnd).2 hn'

variable {si : Shape} {w : Nat} (d : ScatterDims s si u) (x : s.Idx → α) (idx : IVec si w) (upd : u.Idx → α)
  (ι : u.Idx → s.Idx) (hι : ∀ j, d.resultIdx? j idx = some (ι j))

include hι in
/-- The scatter is the fold of the known-landing steps. -/
theorem scatter_eq_foldl : Host.scatter d (fun _ b => b) x idx upd = (List.finRange u.numel).foldl (step ι upd) x := by
  unfold Host.scatter step
  simp only [hι]

include hι in
/-- The set-scatter at the landing index of update `j` is the update at `j`. -/
theorem scatter_hit (hinj : Function.Injective ι) (j : u.Idx) : Host.scatter d (fun _ b => b) x idx upd (ι j) = upd j := by
  rw [scatter_eq_foldl d x idx upd ι hι]
  have h := foldl_hit ι hinj upd (u.rowMajor j) (List.finRange u.numel) x (List.nodup_finRange _) (List.mem_finRange _)
  rwa [Equiv.symm_apply_apply] at h

include hι in
/-- The set-scatter at an index no update lands on is the operand's element. -/
theorem scatter_miss (i : s.Idx) (h : ∀ j, ι j ≠ i) : Host.scatter d (fun _ b => b) x idx upd i = x i := by
  rw [scatter_eq_foldl d x idx upd ι hι]
  exact foldl_miss ι upd i _ x (fun n _ => h _)

end Idealize.ShloMosaic.ScatterSet
-- ==== Proof.Spec.lean ====
/-
  The specification both programs meet: the array `x` of 32 blocks of 16384 × 128 numbers, with block 0 replaced by
  the 16384 × 128 array `src`. Index by index: entry (b, r, c) is `src (r, c)` when b = 0 and `x (b, r, c)` otherwise.
  No arithmetic is done on the entries, so the statement holds over any type of entries.
-/
import Idealize.ShloMosaic.PureOps
import Idealize.ShloMosaic.Lib.ValueIdx

namespace Cert.Spec

open Idealize.ShloMosaic Idealize.ShloMosaic.ValueIdx

/-- The stacked array's shape and one block's. -/
abbrev SX : Shape := ⟨3, ![32, 16384, 128]⟩
abbrev SB : Shape := ⟨2, ![16384, 128]⟩

/-- Where entry (r, c) of the replacing block sits in the stacked array: block 0, row r, column c. -/
abbrev inBlock0 (j : SB.Idx) : SX.Idx := ix3 (n0 := 32) (n1 := 16384) (n2 := 128) ⟨0, by decide⟩ (j 0) (j 1)

/-- The (row, column) of a stacked index inside its block. -/
abbrev within (i : SX.Idx) : SB.Idx := ix2 (n0 := 16384) (n1 := 128) (i 1) (i 2)

/-- `x` with block 0 replaced by `src`. -/
def setBlock0 {α : Type} (x : SX.Idx → α) (src : SB.Idx → α) : SX.Idx → α :=
  fun i => if (i 0).val = 0 then src (within i) else x i

theorem inBlock0_injective : Function.Injective inBlock0 := by
  intro j j' e
  funext a
  match a with
  | ⟨0, _⟩ => exact congrFun e (1 : Fin 3)
  | ⟨1, _⟩ => exact congrFun e (2 : Fin 3)

/-- A stacked index in block 0 is the placement of its (row, column). -/
theorem eq_inBlock0_within (i : SX.Idx) (h : (i 0).val = 0) : i = inBlock0 (within i) := by
  funext a
  match a with
  | ⟨0, _⟩ => exact Fin.ext h
  | ⟨1, _⟩ => rfl
  | ⟨2, _⟩ => rfl

theorem setBlock0_inBlock0 {α : Type} (x : SX.Idx → α) (src : SB.Idx → α) (j : SB.Idx) : setBlock0 x src (inBlock0 j) = src j := by
  unfold setBlock0
  rw [if_pos rfl]
  exact congrArg src (eq_ix2 j).symm

theorem setBlock0_of_ne {α : Type} (x : SX.Idx → α) (src : SB.Idx → α) (i : SX.Idx) (h : (i 0).val ≠ 0) : setBlock0 x src i = x i := by
  unfold setBlock0
  rw [if_neg h]

end Cert.Spec
-- ==== Proof.RefValue.lean ====
/-
  The reference computes the specification. Its one scatter writes the 16384 × 128 update `src` through the single
  start index 0 on the block axis: update entry (r, c) lands at (0, r, c), always inside the operand, and two
  different entries land at different places. So the scatter leaves `src (r, c)` at (0, r, c) and the operand's
  entry everywhere outside block 0: `x` with block 0 replaced by `src`.
-/
import proofs.«202537_g10033043603743_week1_w1_89_23_alg».proof.Proof.Gen.ReferenceIdeal.Read
import proofs.«202537_g10033043603743_week1_w1_89_23_alg».proof.Proof.LibScatterSet
import proofs.«202537_g10033043603743_week1_w1_89_23_alg».proof.Proof.Spec

noncomputable section

namespace Cert.RefValue

open Cert.ReferenceIdeal Cert.ReferenceIdeal.Gen Cert.ReferenceIdeal.Read Cert.Spec
open Idealize.ShloMosaic Idealize.ShloMosaic.ValueIdx

variable {F : FTy → Type} [FloatOps F]

local notation "dS" => scatter_S32x16384x128_S1_S16384x128_01_0_0_0

/-- Every start-index component read off the scatter indices is 0: the indices are the constant 0 broadcast. -/
theorem start_zero (j : S16384x128.Idx) (a : Fin S32x16384x128.rank) : (dS).start j (val_main_v0 (F := F)) a = 0 := by
  unfold ScatterDims.start
  split
  · rw [val_main_v0_apply, val_main_c_apply]; rfl
  · rfl

/-- The window coordinate: none on the block axis (it is inserted), the update's row and column on the other two. -/
theorem window_block (j : S16384x128.Idx) : (dS).window j (0 : Fin 3) = 0 := by
  unfold ScatterDims.window
  rw [dif_neg (by decide)]
theorem window_row (j : S16384x128.Idx) : (dS).window j (1 : Fin 3) = (j 0).val := by
  unfold ScatterDims.window
  rw [dif_pos (by decide)]
  rfl
theorem window_col (j : S16384x128.Idx) : (dS).window j (2 : Fin 3) = (j 1).val := by
  unfold ScatterDims.window
  rw [dif_pos (by decide)]
  rfl

/-- Update entry (r, c) lands at (0, r, c). -/
theorem landing (j : S16384x128.Idx) : (dS).resultIdx? j (val_main_v0 (F := F)) = some (inBlock0 j) := by
  unfold ScatterDims.resultIdx?
  have hall : ∀ a, 0 ≤ (dS).start j (val_main_v0 (F := F)) a + (dS).window j a
      ∧ (dS).start j (val_main_v0 (F := F)) a + (dS).window j a < S32x16384x128.size a := by
    intro a
    rw [start_zero]
    match a with
    | ⟨0, _⟩ => rw [show (⟨0, _⟩ : Fin 3) = 0 from rfl, window_block]; exact ⟨by omega, by decide⟩
    | ⟨1, _⟩ => rw [show (⟨1, _⟩ : Fin 3) = 1 from rfl, window_row]; have := (j 0).isLt; exact ⟨by omega, by simpa using this⟩
    | ⟨2, _⟩ => rw [show (⟨2, _⟩ : Fin 3) = 2 from rfl, window_col]; have := (j 1).isLt; exact ⟨by omega, by simpa using this⟩
  rw [dif_pos hall]
  congr 1
  funext a
  apply Fin.ext
  show ((dS).start j (val_main_v0 (F := F)) a + (dS).window j a).toNat = _
  rw [start_zero]
  match a with
  | ⟨0, _⟩ => rw [show (⟨0, _⟩ : Fin 3) = 0 from rfl, window_block]; rfl
  | ⟨1, _⟩ => rw [show (⟨1, _⟩ : Fin 3) = 1 from rfl, window_row]; simp
  | ⟨2, _⟩ => rw [show (⟨2, _⟩ : Fin 3) = 2 from rfl, window_col]; simp

/-- The reference's result is `x` with block 0 replaced by `src`. -/
theorem ref_eq_setBlock0 (x : (⟨S32x16384x128, .f32⟩ : BufTy).Contents (Elt F)) (src : (⟨S16384x128, .f32⟩ : BufTy).Contents (Elt F)) :
    val_main_v1 (F := F) x src = setBlock0 x src := by
  funext i
  unfold val_main_v1
  by_cases h : (i 0).val = 0
  · rw [eq_inBlock0_within i h, setBlock0_inBlock0]
    exact ScatterSet.scatter_hit dS x (val_main_v0 (F := F)) src inBlock0 landing inBlock0_injective _
  · rw [setBlock0_of_ne x src i h]
    exact ScatterSet.scatter_miss dS x (val_main_v0 (F := F)) src inBlock0 landing i (fun j e => h (by rw [← e]))

end Cert.RefValue

end
-- ==== Proof.KISetup.lean ====
/-
  The program as the launch theorem reads it, and the ghost state of the proof.

  The device runs three kinds of thread: the TensorCore (the host program, which first runs the ring copy of blocks
  4..31 and then starts the SparseCores), the two sequencers, and the 32 vector subcores, each of which copies one
  stripe of 2048 rows of one of the blocks 0..3. The ghost state holds three things side by side: the rounds of the four
  launch handshakes, the rounds of the TensorCore region's staging cells (it has none: its operands stay in HBM), and
  the counters of the local transfers every thread issues and waits for on semaphores of its own.
-/
import proofs.«202537_g10033043603743_week1_w1_89_23_alg».proof.KernelIdeal
import proofs.«202537_g10033043603743_week1_w1_89_23_alg».proof.Proof.Gen.KernelIdeal
import proofs.«202537_g10033043603743_week1_w1_89_23_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore region's rounds: the middle factor. -/
def ER : Emb UK (MT nD τ sig (HIx 1) (Elt F) ℕ UU ℕ) :=
  (Emb.inl : Emb UK (UK × Counters)).trans (embR (A := UH) (B := UK × Counters))
instance ER_landsIn : (ER : Emb UK 𝕄).LandsIn (upEmb : UEmb _ 𝕄) := by unfold ER; infer_instance

/-! ## The launch memory and the arrays -/

/-- `x` and `src` (the arguments), the TensorCore region's result, and the result the SparseCores finish. -/
abbrev xLoc (d : Dev nD) : Loc nD τ sig := (SparseCore.T d).loc main_arg0
abbrev sLoc (d : Dev nD) : Loc nD τ sig := (SparseCore.T d).loc main_arg1
abbrev pLoc (d : Dev nD) : Loc nD τ sig := (SparseCore.T d).loc main_v0
abbrev oLoc (d : Dev nD) : Loc nD τ sig := (SparseCore.T d).loc main_v1

end Cert.Proof.KI

end
-- ==== Proof.KITile.lean ====
/-
  One vector subcore's task. Subcore s of SparseCore c is worker w = 2 s + c; it owns block w / 8 (one of blocks 0..3)
  and, inside it, the stripe of 2048 rows starting at row 2048 (w mod 8). It copies the stripe in eight chunks of 256
  rows through two staging buffers: chunk ci is read (from `src` when the block is block 0, from the same block of `x`
  otherwise) into buffer ci mod 2 and written from there to the same rows of the result.
-/
import proofs.«202537_g10033043603743_week1_w1_89_23_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The worker's block and stripe, and its chunks' offsets in closed form -/

/-- The worker number of grid point `L`, its block, and the first row of its stripe. -/
abbrev wk (L : grid1.Coords) : ℕ := 2 * (L 1).val + (L 0).val
abbrev blk (L : grid1.Coords) : ℕ := wk L / 8
abbrev base (L : grid1.Coords) : ℕ := 2048 * (wk L % 8)

/-- Chunk `ci` of the stripe, as offsets into a stacked array and into `src`. -/
abbrev chunkOff (L : grid1.Coords) (ci : ℕ) : Fin 3 → ℕ := ![blk L, base L + 256 * ci, 0]
abbrev srcOff (L : grid1.Coords) (ci : ℕ) : Fin 2 → ℕ := ![base L + 256 * ci, 0]

/-- The block is block 0 exactly for the first eight workers. -/
theorem cond1_iff : ∀ L : grid1.Coords, k1_cond1 L = 1#1 ↔ blk L = 0 := by decide +kernel
theorem cond2_iff : ∀ L : grid1.Coords, k1_cond2 L = 1#1 ↔ ¬ blk L = 0 := by decide +kernel
theorem cond5_iff : ∀ L : grid1.Coords, k1_cond5 L = 1#1 ↔ blk L = 0 := by decide +kernel
theorem cond6_iff : ∀ L : grid1.Coords, k1_cond6 L = 1#1 ↔ ¬ blk L = 0 := by decide +kernel
theorem cond9_iff : ∀ L : grid1.Coords, k1_cond9 L = 1#1 ↔ blk L = 0 := by decide +kernel
theorem cond10_iff : ∀ L : grid1.Coords, k1_cond10 L = 1#1 ↔ ¬ blk L = 0 := by decide +kernel

/-- Which trips wait for the previous write and start the next read. -/
theorem cond3_iff : ∀ k : Fin k1_t1_loop.trips, k1_cond3 k = 1#1 ↔ 1 ≤ k.val := by decide +kernel
theorem cond4_all : ∀ k : Fin k1_t1_loop.trips, k1_cond4 k = 1#1 := by decide +kernel
theorem cond7_all : ∀ k : Fin k1_t1_loop.trips, k1_cond7 k = 1#1 := by decide +kernel
theorem cond8_iff : ∀ k : Fin k1_t1_loop.trips, k1_cond8 k = 1#1 ↔ k.val < 3 := by decide +kernel

/-- The printed offsets, in closed form. -/
theorem off1_eq : ∀ L : grid1.Coords, k1_off1 L = srcOff L 0 := by decide +kernel
theorem off2_eq : ∀ L : grid1.Coords, k1_off2 L = chunkOff L 0 := by decide +kernel
theorem off3_eq0 : ∀ (L : grid1.Coords) (k : Fin k1_t1_loop.trips), k1_off3 L k 0#32 = chunkOff L (2 * k.val) := by decide +kernel
theorem off3_eq1 : ∀ (L : grid1.Coords) (k : Fin k1_t1_loop.trips), k1_off3 L k 1#32 = chunkOff L (2 * k.val + 1) := by decide +kernel
theorem off5_eq : ∀ (L : grid1.Coords) (k : Fin k1_t1_loop.trips), k1_off5 L k = srcOff L (2 * k.val + 1) := by decide +kernel
theorem off6_eq : ∀ (L : grid1.Coords) (k : Fin k1_t1_loop.trips), k1_off6 L k = chunkOff L (2 * k.val + 1) := by decide +kernel
theorem off8_eq : ∀ (L : grid1.Coords) (k : Fin k1_t1_loop.trips), k1_off8 L k = srcOff L (2 * k.val + 2) := by decide +kernel
theorem off9_eq : ∀ (L : grid1.Coords) (k : Fin k1_t1_loop.trips), k1_off9 L k = chunkOff L (2 * k.val + 2) := by decide +kernel

/-! ## The chunks as memrefs -/

theorem chunkOff_inb : ∀ (L : grid1.Coords) (ci : Fin 8), ∀ a, (chunkOff L ci.val) a + S1x256x128.size a ≤ S32x16384x128.size a := by decide +kernel
theorem srcOff_inb : ∀ (L : grid1.Coords) (ci : Fin 8), ∀ a, (srcOff L ci.val) a + S256x128.size a ≤ S16384x128.size a := by decide +kernel

-- the kernel's memrefs, spelt as the body table passes them
local notation "xW" => (Memref.whole Cert.KernelIdeal.main_arg0_scv : Memref Cert.KernelIdeal.sig Kind.scVector Space.hbm Cert.KernelIdeal.S32x16384x128 EltTy.f32)
local notation "sW" => (Memref.whole Cert.KernelIdeal.main_arg1_scv : Memref Cert.KernelIdeal.sig Kind.scVector Space.hbm Cert.KernelIdeal.S16384x128 EltTy.f32)
local notation "oW" => (Memref.whole Cert.KernelIdeal.main_v1_scv : Memref Cert.KernelIdeal.sig Kind.scVector Space.hbm Cert.KernelIdeal.S32x16384x128 EltTy.f32)
local notation "b0" => (Memref.whole Cert.KernelIdeal.cc1_scratch0 : Memref Cert.KernelIdeal.sig Kind.scVector Space.vmem Cert.KernelIdeal.S256x128 EltTy.f32)
local notation "b1" => (Memref.whole Cert.KernelIdeal.cc1_scratch1 : Memref Cert.KernelIdeal.sig Kind.scVector Space.vmem Cert.KernelIdeal.S256x128 EltTy.f32)

/-- Chunk `ci` of the worker's stripe in `x`, in the result, and in `src`. -/
abbrev xCh (L : grid1.Coords) (ci : Fin 8) : Memref sig .scVector .hbm S256x128 .f32 :=
  ((xW).slice (Rect.unit (s := S32x16384x128) (chunkOff L ci.val) S1x256x128.size (chunkOff_inb L ci)) (fun _ => rfl)).squeeze S256x128 squeezes_S1x256x128_S256x128
abbrev oCh (L : grid1.Coords) (ci : Fin 8) : Memref sig .scVector .hbm S256x128 .f32 :=
  ((oW).slice (Rect.unit (s := S32x16384x128) (chunkOff L ci.val) S1x256x128.size (chunkOff_inb L ci)) (fun _ => rfl)).squeeze S256x128 squeezes_S1x256x128_S256x128
abbrev sCh (L : grid1.Coords) (ci : Fin 8) : Memref sig .scVector .hbm S256x128 .f32 :=
  (sW).slice (Rect.unit (s := S16384x128) (srcOff L ci.val) S256x128.size (srcOff_inb L ci)) (fun _ => rfl)

section Tile
variable [FloatOps F] (m : (ℓ : Loc nD τ sig) → Buf (Elt F) ℓ) (d : Dev nD) (L : grid1.Coords)

abbrev cV (L : grid1.Coords) : Fin τ.nSC := (L 0).castLE hcore1
abbrev jV (L : grid1.Coords) : Fin τ.nSub := (L 1).castLE hsub1
abbrev Vt : Thread nD τ := V d (cV L) (jV L)

/-- Chunk number `n` as an index below 8 (the proofs use it only for n < 8). -/
abbrev ch (n : ℕ) : Fin 8 := ⟨n % 8, Nat.mod_lt _ (by decide)⟩

/-- What a staging buffer holds once chunk `ci` of `x` has landed in it, and the result's chunk once written. -/
abbrev xData (ci : Fin 8) : S256x128.Idx → Elt F .f32 := (xCh L ci).view.read (Elt F) (m (xLoc d))
abbrev oNew (fo : Buf (Elt F) (oLoc d)) (ci : Fin 8) : Buf (Elt F) (oLoc d) := (oCh L ci).view.writes (Elt F) fo [⟨Rect.whole S256x128, xData m d L ci⟩]

/-- The pieces: a chunk of `x` at its launch contents, a chunk of the result at `f`. -/
abbrev xPc (n : ℕ) : sProp 𝕄 := (xCh L (ch n)).view.loc (Vt d L) ↦[(xCh L (ch n)).view.set]{fullShare} m (xLoc d)
abbrev oPc (f : ℕ → Buf (Elt F) (oLoc d)) (n : ℕ) : sProp 𝕄 := (oCh L (ch n)).view.loc (Vt d L) ↦[(oCh L (ch n)).view.set]{fullShare} f n

abbrev rsem0 : SemLoc sig := SemLoc.dma cc1_scratch2.sem
abbrev rsem1 : SemLoc sig := SemLoc.dma cc1_scratch3.sem
abbrev wsem0 : SemLoc sig := SemLoc.dma cc1_scratch4.sem
abbrev wsem1 : SemLoc sig := SemLoc.dma cc1_scratch5.sem

/-- The credit of one chunk's transfer. -/
abbrev NB : ℕ := 1048576

/-- Chunk `n` on its way into the first staging buffer; chunk `n` on its way out of the second. -/
def rdFlight0 (n : ℕ) : sProp 𝕄 :=
  Transfers.Flight countersEmb (Vt d L) rsem0 (default : HIx 1) NB
    iprop(((b0).view.loc (Vt d L) ↦{fullShare} xData m d L (ch n)) ∗ xPc m d L n)
def wrFlight1 (fo : Buf (Elt F) (oLoc d)) (n : ℕ) : sProp 𝕄 :=
  Transfers.Flight countersEmb (Vt d L) wsem1 (default : HIx 1) NB
    iprop(oPc d L (fun n => oNew m d L fo (ch n)) n ∗ ((b1).view.loc (Vt d L) ↦{fullShare} xData m d L (ch n)))

/-- Before trip `k` of the chunk loop (block ≠ 0): chunk 2k is on its way into the first buffer (for k < 4), chunk 2k - 1 on its
    way out of the second (for k ≥ 1); the other chunks of `x` are held, the result's chunks below 2k - 1 are written and
    those from 2k on untouched. -/
def invX (fo : Buf (Elt F) (oLoc d)) (O : CellTallies nD τ sig (HIx 1)) (W : Waits sig (HIx 1)) (k : ℕ) (_ : PUnit) : sProp 𝕄 :=
  iprop(Transfers.MayWaits (Vt d L) (none : HIx 1) O
    ∗ (if k < 4 then rdFlight0 m d L (2 * k) else iprop((∃ f, (b0).view.loc (Vt d L) ↦{fullShare} f) ∗ semVal (Vt d L, rsem0) 0))
    ∗ (if k = 0 then iprop((∃ f, (b1).view.loc (Vt d L) ↦{fullShare} f) ∗ semVal (Vt d L, wsem1) 0) else wrFlight1 m d L fo (2 * k - 1))
    ∗ semVal (Vt d L, rsem1) 0 ∗ semVal (Vt d L, wsem0) 0
    ∗ bigSep (Finset.Ico 0 (2 * k)) (xPc m d L) ∗ bigSep (Finset.Ico (2 * k + 1) 8) (xPc m d L)
    ∗ bigSep (Finset.Ico 0 (2 * k - 1)) (oPc d L fun n => oNew m d L fo (ch n)) ∗ bigSep (Finset.Ico (2 * k) 8) (oPc d L fun _ => fo)
    ∗ ∃ W', ⌜∀ p ∈ W', p ∈ W ∨ p.2 = none⌝ ∗ owes (Vt d L) O W')

/-! ## Families over an interval of chunk numbers -/

omit [FloatOps F] in
theorem ico_pop {a b : ℕ} (h : a < b) (Φ : ℕ → sProp 𝕄) : bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp)]; rfl
omit [FloatOps F] in
theorem ico_push {a b : ℕ} (h : a ≤ b) (Φ : ℕ → sProp 𝕄) : bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, bigSep_insert (by simp)]; rfl

/-! ## The chunks as the program spells them at each site -/

omit [FloatOps F] in
theorem ch_val {n : ℕ} (h : n < 8) : (ch n).val = n := Nat.mod_eq_of_lt h

/-- A chunk of `x` held under the canonical name is the same chunk held under the program's spelling of it. -/
theorem xPc_spell (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) :
    xPc m d L n = ((((xW).slice (Rect.unit (s := S32x16384x128) off S1x256x128.size p) hs).squeeze S256x128 squeezes_S1x256x128_S256x128).view.loc (Vt d L)
      ↦[(((xW).slice (Rect.unit (s := S32x16384x128) off S1x256x128.size p) hs).squeeze S256x128 squeezes_S1x256x128_S256x128).view.set]{fullShare} m (xLoc d) : sProp 𝕄) := by
  subst e; rfl
/-- The same for a chunk of the result. -/
theorem oPc_spell (f : ℕ → Buf (Elt F) (oLoc d)) (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) :
    oPc d L f n = ((((oW).slice (Rect.unit (s := S32x16384x128) off S1x256x128.size p) hs).squeeze S256x128 squeezes_S1x256x128_S256x128).view.loc (Vt d L)
      ↦[(((oW).slice (Rect.unit (s := S32x16384x128) off S1x256x128.size p) hs).squeeze S256x128 squeezes_S1x256x128_S256x128).view.set]{fullShare} f n : sProp 𝕄) := by
  subst e; rfl

/-! ## Respelling contents, and a transfer in flight under any spelling as the invariant's -/

theorem xData_spell (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) :
    xData m d L (ch n) = (((xW).slice (Rect.unit (s := S32x16384x128) off S1x256x128.size p) hs).squeeze S256x128 squeezes_S1x256x128_S256x128).view.read (Elt F) (m (xLoc d)) := by
  subst e; rfl

/-- A written chunk of the result, under the program's spelling of the chunk and any name of the data. -/
theorem oDone_spell (fo : Buf (Elt F) (oLoc d)) (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) (w : S256x128.Idx → Elt F .f32) (hw : w = xData m d L (ch n)) :
    oPc d L (fun n => oNew m d L fo (ch n)) n
      = ((((oW).slice (Rect.unit (s := S32x16384x128) off S1x256x128.size p) hs).squeeze S256x128 squeezes_S1x256x128_S256x128).view.loc (Vt d L)
        ↦[(((oW).slice (Rect.unit (s := S32x16384x128) off S1x256x128.size p) hs).squeeze S256x128 squeezes_S1x256x128_S256x128).view.set]{fullShare}
          (((oW).slice (Rect.unit (s := S32x16384x128) off S1x256x128.size p) hs).squeeze S256x128 squeezes_S1x256x128_S256x128).view.writes (Elt F) fo [⟨Rect.whole S256x128, w⟩] : sProp 𝕄) := by
  subst e hw; rfl

/-- A read in flight into the first buffer — the buffer written whole with the chunk's data over whatever it held, the chunk lent under
    any spelling of it — is the invariant's. -/
theorem rd_conv (n : ℕ) (sm : SemLoc sig) (hsm : sm = rsem0) (fold : Buf (Elt F) ((b0).view.loc (Vt d L))) (w : S256x128.Idx → Elt F .f32) (hw : w = xData m d L (ch n))
    (P : sProp 𝕄) (hP : P = xPc m d L n) :
    (Transfers.Flight countersEmb (Vt d L) sm (default : HIx 1) NB
        iprop(((b0).view.loc (Vt d L) ↦{fullShare} (b0).view.write (Elt F) fold w Finset.univ) ∗ P) : sProp 𝕄)
      ⊢ rdFlight0 m d L n := by
  subst hw hP hsm
  unfold rdFlight0
  refine Transfers.Flight_mono countersEmb (Vt d L) ?_
  simp only [Memref.view_whole, View.write_whole_univ]
  exact Entails.refl _

/-- A write in flight out of the second buffer — the result's chunk under any spelling, the buffer lent holding the chunk's data — is the
    invariant's. -/
theorem wr_conv (fo : Buf (Elt F) (oLoc d)) (n : ℕ) (sm : SemLoc sig) (hsm : sm = wsem1) (fold : Buf (Elt F) ((b1).view.loc (Vt d L))) (w : S256x128.Idx → Elt F .f32) (hw : w = xData m d L (ch n))
    (P : sProp 𝕄) (hP : P = oPc d L (fun n => oNew m d L fo (ch n)) n) :
    (Transfers.Flight countersEmb (Vt d L) sm (default : HIx 1) NB
        iprop(P ∗ ((b1).view.loc (Vt d L) ↦[(b1).view.set]{fullShare} (b1).view.write (Elt F) fold w Finset.univ)) : sProp 𝕄)
      ⊢ wrFlight1 m d L fo n := by
  subst hw hP hsm
  unfold wrFlight1
  refine Transfers.Flight_mono countersEmb (Vt d L) ?_
  simp only [Memref.view_whole, View.write_whole_univ, View.set_whole]
  exact Entails.refl _

/-! ## The invariant opened before a middle trip, and closed after it -/

theorem inv_open_mid (fo : Buf (Elt F) (oLoc d)) (O : CellTallies nD τ sig (HIx 1)) (W : Waits sig (HIx 1)) (k : ℕ) (hk1 : 1 ≤ k) (hk3 : k < 3) :
    invX m d L fo O W k ⟨⟩ = iprop(Transfers.MayWaits (Vt d L) (none : HIx 1) O
      ∗ rdFlight0 m d L (2 * k) ∗ wrFlight1 m d L fo (2 * k - 1)
      ∗ semVal (Vt d L, rsem1) 0 ∗ semVal (Vt d L, wsem0) 0
      ∗ bigSep (Finset.Ico 0 (2 * k)) (xPc m d L) ∗ (xPc m d L (2 * k + 1) ∗ xPc m d L (2 * k + 1 + 1) ∗ bigSep (Finset.Ico (2 * k + 1 + 1 + 1) 8) (xPc m d L))
      ∗ bigSep (Finset.Ico 0 (2 * k - 1)) (oPc d L fun n => oNew m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invX
  rw [if_pos (show k < 4 by omega), if_neg (show ¬ k = 0 by omega), ico_pop (show 2 * k < 8 by omega) (oPc d L fun _ => fo),
    ico_pop (show 2 * k + 1 < 8 by omega) (oPc d L fun _ => fo),
    ico_pop (show 2 * k + 1 < 8 by omega) (xPc m d L), ico_pop (show 2 * k + 1 + 1 < 8 by omega) (xPc m d L)]

theorem inv_close_mid (fo : Buf (Elt F) (oLoc d)) (O : CellTallies nD τ sig (HIx 1)) (W W'' : Waits sig (HIx 1)) (k : ℕ) (hk1 : 1 ≤ k) (hk3 : k < 3)
    (hW'' : ∀ p ∈ W'', p ∈ W ∨ p.2 = none) :
    iprop(Transfers.MayWaits (Vt d L) (none : HIx 1) O
      ∗ rdFlight0 m d L (2 * k + 1 + 1) ∗ wrFlight1 m d L fo (2 * k + 1)
      ∗ semVal (Vt d L, rsem1) 0 ∗ semVal (Vt d L, wsem0) 0
      ∗ (xPc m d L (2 * k + 1) ∗ xPc m d L (2 * k) ∗ bigSep (Finset.Ico 0 (2 * k)) (xPc m d L)) ∗ bigSep (Finset.Ico (2 * k + 1 + 1 + 1) 8) (xPc m d L)
      ∗ (oPc d L (fun n => oNew m d L fo (ch n)) (2 * k) ∗ oPc d L (fun n => oNew m d L fo (ch n)) (2 * k - 1)
          ∗ bigSep (Finset.Ico 0 (2 * k - 1)) (oPc d L fun n => oNew m d L fo (ch n)))
      ∗ bigSep (Finset.Ico (2 * k + 1 + 1) 8) (oPc d L fun _ => fo)
      ∗ owes (Vt d L) O W'')
    ⊢ invX m d L fo O W (k + 1) ⟨⟩ := by
  unfold invX
  have e2 : 2 * (k + 1) = 2 * k + 1 + 1 := by omega
  have e1 : 2 * k + 1 + 1 - 1 = 2 * k + 1 := by omega
  have e0 : 2 * k = 2 * k - 1 + 1 := by omega
  rw [if_pos (show k + 1 < 4 by omega), if_neg (show ¬ k + 1 = 0 by omega), e2, e1,
    ico_push (Nat.zero_le _) (xPc m d L), ico_push (Nat.zero_le _) (xPc m d L),
    ico_push (Nat.zero_le _) (oPc d L fun n => oNew m d L fo (ch n))]
  conv => rhs; rw [e0, ico_push (Nat.zero_le _) (oPc d L fun n => oNew m d L fo (ch n)), ← e0]
  iintro ⟨Hmw, Hrd, Hwr, Hs3, Hs4, Hx, HxB, Ho, HoB, HO⟩
  isplitl [Hmw]; · iexact Hmw
  isplitl [Hrd]; · iexact Hrd
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

/-! ## The invariant opened before the first and the last trip -/

theorem inv_open_first (fo : Buf (Elt F) (oLoc d)) (O : CellTallies nD τ sig (HIx 1)) (W : Waits sig (HIx 1)) (k : ℕ) (hk0 : k = 0) :
    invX m d L fo O W k ⟨⟩ = iprop(Transfers.MayWaits (Vt d L) (none : HIx 1) O
      ∗ rdFlight0 m d L (2 * k) ∗ ((∃ f, (b1).view.loc (Vt d L) ↦{fullShare} f) ∗ semVal (Vt d L, wsem1) 0)
      ∗ semVal (Vt d L, rsem1) 0 ∗ semVal (Vt d L, wsem0) 0
      ∗ bigSep (Finset.Ico 0 (2 * k)) (xPc m d L) ∗ (xPc m d L (2 * k + 1) ∗ xPc m d L (2 * k + 1 + 1) ∗ bigSep (Finset.Ico (2 * k + 1 + 1 + 1) 8) (xPc m d L))
      ∗ bigSep (Finset.Ico 0 (2 * k - 1)) (oPc d L fun n => oNew m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invX
  rw [if_pos (show k < 4 by omega), if_pos hk0, ico_pop (show 2 * k < 8 by omega) (oPc d L fun _ => fo),
    ico_pop (show 2 * k + 1 < 8 by omega) (oPc d L fun _ => fo),
    ico_pop (show 2 * k + 1 < 8 by omega) (xPc m d L), ico_pop (show 2 * k + 1 + 1 < 8 by omega) (xPc m d L)]

theorem inv_open_last (fo : Buf (Elt F) (oLoc d)) (O : CellTallies nD τ sig (HIx 1)) (W : Waits sig (HIx 1)) (k : ℕ) (hk3 : k = 3) :
    invX m d L fo O W k ⟨⟩ = iprop(Transfers.MayWaits (Vt d L) (none : HIx 1) O
      ∗ rdFlight0 m d L (2 * k) ∗ wrFlight1 m d L fo (2 * k - 1)
      ∗ semVal (Vt d L, rsem1) 0 ∗ semVal (Vt d L, wsem0) 0
      ∗ bigSep (Finset.Ico 0 (2 * k)) (xPc m d L) ∗ (xPc m d L (2 * k + 1) ∗ bigSep (Finset.Ico (2 * k + 1 + 1) 8) (xPc m d L))
      ∗ bigSep (Finset.Ico 0 (2 * k - 1)) (oPc d L fun n => oNew m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invX
  rw [if_pos (show k < 4 by omega), if_neg (show ¬ k = 0 by omega), ico_pop (show 2 * k < 8 by omega) (oPc d L fun _ => fo),
    ico_pop (show 2 * k + 1 < 8 by omega) (oPc d L fun _ => fo),
    ico_pop (show 2 * k + 1 < 8 by omega) (xPc m d L)]

theorem inv_close_first (fo : Buf (Elt F) (oLoc d)) (O : CellTallies nD τ sig (HIx 1)) (W W'' : Waits sig (HIx 1)) (k : ℕ) (hk0 : k = 0)
    (hW'' : ∀ p ∈ W'', p ∈ W ∨ p.2 = none) :
    iprop(Transfers.MayWaits (Vt d L) (none : HIx 1) O
      ∗ rdFlight0 m d L (2 * k + 1 + 1) ∗ wrFlight1 m d L fo (2 * k + 1)
      ∗ semVal (Vt d L, rsem1) 0 ∗ semVal (Vt d L, wsem0) 0
      ∗ (xPc m d L (2 * k + 1) ∗ xPc m d L (2 * k) ∗ bigSep (Finset.Ico 0 (2 * k)) (xPc m d L)) ∗ bigSep (Finset.Ico (2 * k + 1 + 1 + 1) 8) (xPc m d L)
      ∗ (oPc d L (fun n => oNew m d L fo (ch n)) (2 * k) ∗ bigSep (Finset.Ico 0 (2 * k - 1)) (oPc d L fun n => oNew m d L fo (ch n)))
      ∗ bigSep (Finset.Ico (2 * k + 1 + 1) 8) (oPc d L fun _ => fo)
      ∗ owes (Vt d L) O W'')
    ⊢ invX m d L fo O W (k + 1) ⟨⟩ := by
  unfold invX
  have e2 : 2 * (k + 1) = 2 * k + 1 + 1 := by omega
  have e1 : 2 * k + 1 + 1 - 1 = 2 * k + 1 := by omega
  have e0 : 2 * k - 1 = 2 * k := by omega
  rw [if_pos (show k + 1 < 4 by omega), if_neg (show ¬ k + 1 = 0 by omega), e2, e1, e0,
    ico_push (Nat.zero_le _) (xPc m d L), ico_push (Nat.zero_le _) (xPc m d L),
    ico_push (Nat.zero_le _) (oPc d L fun n => oNew m d L fo (ch n))]
  iintro ⟨Hmw, Hrd, Hwr, Hs3, Hs4, Hx, HxB, Ho, HoB, HO⟩
  isplitl [Hmw]; · iexact Hmw
  isplitl [Hrd]; · iexact Hrd
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

theorem inv_close_last (fo : Buf (Elt F) (oLoc d)) (O : CellTallies nD τ sig (HIx 1)) (W W'' : Waits sig (HIx 1)) (k : ℕ) (hk3 : k = 3)
    (hW'' : ∀ p ∈ W'', p ∈ W ∨ p.2 = none) :
    iprop(Transfers.MayWaits (Vt d L) (none : HIx 1) O
      ∗ ((∃ f, (b0).view.loc (Vt d L) ↦{fullShare} f) ∗ semVal (Vt d L, rsem0) 0) ∗ wrFlight1 m d L fo (2 * k + 1)
      ∗ semVal (Vt d L, rsem1) 0 ∗ semVal (Vt d L, wsem0) 0
      ∗ (xPc m d L (2 * k + 1) ∗ xPc m d L (2 * k) ∗ bigSep (Finset.Ico 0 (2 * k)) (xPc m d L)) ∗ bigSep (Finset.Ico (2 * k + 1 + 1) 8) (xPc m d L)
      ∗ (oPc d L (fun n => oNew m d L fo (ch n)) (2 * k) ∗ oPc d L (fun n => oNew m d L fo (ch n)) (2 * k - 1)
          ∗ bigSep (Finset.Ico 0 (2 * k - 1)) (oPc d L fun n => oNew m d L fo (ch n)))
      ∗ bigSep (Finset.Ico (2 * k + 1 + 1) 8) (oPc d L fun _ => fo)
      ∗ owes (Vt d L) O W'')
    ⊢ invX m d L fo O W (k + 1) ⟨⟩ := by
  unfold invX
  have e2 : 2 * (k + 1) = 2 * k + 1 + 1 := by omega
  have e1 : 2 * k + 1 + 1 - 1 = 2 * k + 1 := by omega
  have e0 : 2 * k = 2 * k - 1 + 1 := by omega
  rw [if_neg (show ¬ k + 1 < 4 by omega), if_neg (show ¬ k + 1 = 0 by omega), e2, e1,
    ico_push (Nat.zero_le _) (xPc m d L), ico_push (Nat.zero_le _) (xPc m d L),
    ico_push (Nat.zero_le _) (oPc d L fun n => oNew m d L fo (ch n)),
    Finset.Ico_eq_empty_of_le (show 8 ≤ 2 * k + 1 + 1 + 1 by omega), Finset.Ico_eq_empty_of_le (show 8 ≤ 2 * k + 1 + 1 by omega)]
  conv => rhs; rw [e0, ico_push (Nat.zero_le _) (oPc d L fun n => oNew m d L fo (ch n)), ← e0]
  iintro ⟨Hmw, Hb0, Hwr, Hs3, Hs4, Hx, HxB, Ho, HoB, HO⟩
  isplitl [Hmw]; · iexact Hmw
  isplitl [Hb0]; · iexact Hb0
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

/-- A middle trip (1 ≤ k < 3) of the chunk loop, block ≠ 0: the read of chunk 2k lands and is written out, the write of chunk
    2k - 1 completes and the second buffer takes chunk 2k + 1, which is written out in turn; the write of chunk 2k completes
    and the first buffer takes chunk 2k + 2. -/
theorem trip_mid (hb : ¬ blk L = 0) (fo : Buf (Elt F) (oLoc d)) (O : CellTallies nD τ sig (HIx 1)) (W : Waits sig (HIx 1))
    (k : Fin k1_t1_loop.trips) (hk1 : 1 ≤ k.val) (hk3 : k.val < 3) (v18 v29 : BitVec 32) :
    invX m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invX m d L fo O W (k.val + 1)) := by
  have k1_h3 : k1_cond3 k = 1#1 := (cond3_iff k).mpr hk1
  have k1_h4 : k1_cond4 k = 1#1 := cond4_all k
  have k1_h5 : ¬ k1_cond5 L = 1#1 := fun h => hb ((cond5_iff L).mp h)
  have k1_h6 : k1_cond6 L = 1#1 := (cond6_iff L).mpr hb
  have k1_h7 : k1_cond7 k = 1#1 := cond7_all k
  have k1_h8 : k1_cond8 k = 1#1 := (cond8_iff k).mpr hk3
  have k1_h9 : ¬ k1_cond9 L = 1#1 := fun h => hb ((cond9_iff L).mp h)
  have k1_h10 : k1_cond10 L = 1#1 := (cond10_iff L).mpr hb
  unfold k1_t1_body
  simp only [k1_part1_eq_skeleton]; unfold k1_part1_skel
  -- the chunks this trip issues on, each as the program spells it at that site
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have c6 : k1_off6 L k = chunkOff L (ch (2 * k.val + 1)).val := by rw [off6_eq, ch_val (by omega)]
  have c9 : k1_off9 L k = chunkOff L (ch (2 * k.val + 1 + 1)).val := by rw [off9_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := xPc_spell m d L (2 * k.val + 1) c6 (k1_off6_inb L k k1_h4 k1_h6) (fun _ => rfl)
  have eX2 := xPc_spell m d L (2 * k.val + 1 + 1) c9 (k1_off9_inb L k k1_h8 k1_h10) (fun _ => rfl)
  rw [inv_open_mid m d L fo O W k.val hk1 hk3]
  unfold rdFlight0 wrFlight1
  iintro ⟨#Hmw, Hrd, Hwr, Hs3, Hs4, HxA, ⟨Hx1, Hx2, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  ihave Hx2 := (Entails.of_eq eX2) $$ Hx2
  sl_exec
  sl_step
  -- the data each transfer carried, under its canonical name
  have d0 : trip_mid.sl.dma0 m d L k = xData m d L (ch (2 * k.val)) := rfl
  have d1 : trip_mid.sl.dma0_1 m d L k k1_h4 k1_h6 = xData m d L (ch (2 * k.val + 1)) :=
    (xData_spell m d L (2 * k.val + 1) c6 (k1_off6_inb L k k1_h4 k1_h6) (fun _ => rfl)).symm
  have d2 : trip_mid.sl.dma0_2 m d L k k1_h4 k1_h6 = xData m d L (ch (2 * k.val + 1)) := by
    unfold trip_mid.sl.dma0_2
    simp only [Memref.view_whole, View.write_whole_univ, View.read_whole, ReadAs.apply_same]
    exact d1
  have d3 : trip_mid.sl.dma0_3 m d L k k1_h8 k1_h10 = xData m d L (ch (2 * k.val + 1 + 1)) :=
    (xData_spell m d L (2 * k.val + 1 + 1) c9 (k1_off9_inb L k k1_h8 k1_h10) (fun _ => rfl)).symm
  iapply (inv_close_mid m d L fo O W _ k.val hk1 hk3 ?hW)
  rotate_left
  isplitl [Hmw]; · iexact Hmw
  isplitl [Hrd]
  · iapply (rd_conv m d L (2 * k.val + 1 + 1) _ rfl _ _ d3 _ eX2.symm); iexact Hrd
  isplitl [Hwr]
  · iapply (wr_conv m d L fo (2 * k.val + 1) _ rfl _ _ d1 _
      (oDone_spell m d L fo (2 * k.val + 1) c1 (k1_off3_inb L k 1) (fun _ => rfl) _ d2).symm); iexact Hwr
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 Hwr_dst HoA]
  · isplitl [Ho0]
    · iapply (Entails.of_eq (oDone_spell m d L fo (2 * k.val) c0 (k1_off3_inb L k 0) (fun _ => rfl) _ d0).symm); iexact Ho0
    isplitl [Hwr_dst]; · iexact Hwr_dst
    iexact HoA
  isplitl [HoB]; · iexact HoB
  iexact HO
  case hW =>
    intro p hp
    simp only [Finset.mem_insert] at hp
    rcases hp with rfl | rfl | rfl | rfl | hp
    · exact .inr rfl
    · exact .inr rfl
    · exact .inr rfl
    · exact .inr rfl
    · exact hW' p hp

/-- The first trip (k = 0): as a middle trip, but no earlier write is waited for — the second buffer is idle. -/
theorem trip_first (hb : ¬ blk L = 0) (fo : Buf (Elt F) (oLoc d)) (O : CellTallies nD τ sig (HIx 1)) (W : Waits sig (HIx 1))
    (k : Fin k1_t1_loop.trips) (hk0 : k.val = 0) (v18 v29 : BitVec 32) :
    invX m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invX m d L fo O W (k.val + 1)) := by
  have k1_h3 : ¬ k1_cond3 k = 1#1 := fun h => by have := (cond3_iff k).mp h; omega
  have k1_h4 : k1_cond4 k = 1#1 := cond4_all k
  have k1_h5 : ¬ k1_cond5 L = 1#1 := fun h => hb ((cond5_iff L).mp h)
  have k1_h6 : k1_cond6 L = 1#1 := (cond6_iff L).mpr hb
  have k1_h7 : k1_cond7 k = 1#1 := cond7_all k
  have k1_h8 : k1_cond8 k = 1#1 := (cond8_iff k).mpr (by omega)
  have k1_h9 : ¬ k1_cond9 L = 1#1 := fun h => hb ((cond9_iff L).mp h)
  have k1_h10 : k1_cond10 L = 1#1 := (cond10_iff L).mpr hb
  unfold k1_t1_body
  simp only [k1_part1_eq_skeleton]; unfold k1_part1_skel
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have c6 : k1_off6 L k = chunkOff L (ch (2 * k.val + 1)).val := by rw [off6_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := xPc_spell m d L (2 * k.val + 1) c6 (k1_off6_inb L k k1_h4 k1_h6) (fun _ => rfl)
  have c9 : k1_off9 L k = chunkOff L (ch (2 * k.val + 1 + 1)).val := by rw [off9_eq, ch_val (by omega)]
  have eX2 := xPc_spell m d L (2 * k.val + 1 + 1) c9 (k1_off9_inb L k k1_h8 k1_h10) (fun _ => rfl)
  rw [inv_open_first m d L fo O W k.val hk0]
  unfold rdFlight0
  iintro ⟨#Hmw, Hrd, ⟨⟨%fb1, Hb1⟩, Hs5⟩, Hs3, Hs4, HxA, ⟨Hx1, Hx2, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  ihave Hx2 := (Entails.of_eq eX2) $$ Hx2
  sl_exec
  sl_step
  have d0 : trip_first.sl.dma0 m d L k = xData m d L (ch (2 * k.val)) := rfl
  have d1 : trip_first.sl.dma0_1 m d L k k1_h4 k1_h6 = xData m d L (ch (2 * k.val + 1)) :=
    (xData_spell m d L (2 * k.val + 1) c6 (k1_off6_inb L k k1_h4 k1_h6) (fun _ => rfl)).symm
  have d2 : trip_first.sl.dma0_2 m d L k k1_h4 k1_h6 fb1 = xData m d L (ch (2 * k.val + 1)) := by
    unfold trip_first.sl.dma0_2
    simp only [Memref.view_whole, View.write_whole_univ, View.read_whole, ReadAs.apply_same]
    exact d1
  have d3 : trip_first.sl.dma0_3 m d L k k1_h8 k1_h10 = xData m d L (ch (2 * k.val + 1 + 1)) :=
    (xData_spell m d L (2 * k.val + 1 + 1) c9 (k1_off9_inb L k k1_h8 k1_h10) (fun _ => rfl)).symm
  iapply (inv_close_first m d L fo O W _ k.val hk0 ?hW)
  rotate_left
  isplitl [Hmw]; · iexact Hmw
  isplitl [Hrd]
  · iapply (rd_conv m d L (2 * k.val + 1 + 1) _ rfl _ _ d3 _ eX2.symm); iexact Hrd
  isplitl [Hs5]
  · iapply (wr_conv m d L fo (2 * k.val + 1) _ rfl _ _ d1 _
      (oDone_spell m d L fo (2 * k.val + 1) c1 (k1_off3_inb L k 1) (fun _ => rfl) _ d2).symm); iexact Hs5
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 HoA]
  · isplitl [Ho0]
    · iapply (Entails.of_eq (oDone_spell m d L fo (2 * k.val) c0 (k1_off3_inb L k 0) (fun _ => rfl) _ d0).symm); iexact Ho0
    iexact HoA
  isplitl [HoB]; · iexact HoB
  iexact HO
  intro p hp
  simp only [Finset.mem_insert] at hp
  rcases hp with rfl | rfl | rfl | hp
  · exact .inr rfl
  · exact .inr rfl
  · exact .inr rfl
  · exact hW' p hp

/-- The last trip (k = 3): as a middle trip, but no further read is started — the first buffer ends idle. -/
theorem trip_last (hb : ¬ blk L = 0) (fo : Buf (Elt F) (oLoc d)) (O : CellTallies nD τ sig (HIx 1)) (W : Waits sig (HIx 1))
    (k : Fin k1_t1_loop.trips) (hk3 : k.val = 3) (v18 v29 : BitVec 32) :
    invX m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invX m d L fo O W (k.val + 1)) := by
  have k1_h3 : k1_cond3 k = 1#1 := (cond3_iff k).mpr (by omega)
  have k1_h4 : k1_cond4 k = 1#1 := cond4_all k
  have k1_h5 : ¬ k1_cond5 L = 1#1 := fun h => hb ((cond5_iff L).mp h)
  have k1_h6 : k1_cond6 L = 1#1 := (cond6_iff L).mpr hb
  have k1_h7 : k1_cond7 k = 1#1 := cond7_all k
  have k1_h8 : ¬ k1_cond8 k = 1#1 := fun h => by have := (cond8_iff k).mp h; omega
  have k1_h9 : ¬ k1_cond9 L = 1#1 := fun h => hb ((cond9_iff L).mp h)
  have k1_h10 : k1_cond10 L = 1#1 := (cond10_iff L).mpr hb
  unfold k1_t1_body
  simp only [k1_part1_eq_skeleton]; unfold k1_part1_skel
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have c6 : k1_off6 L k = chunkOff L (ch (2 * k.val + 1)).val := by rw [off6_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := xPc_spell m d L (2 * k.val + 1) c6 (k1_off6_inb L k k1_h4 k1_h6) (fun _ => rfl)
  rw [inv_open_last m d L fo O W k.val hk3]
  unfold rdFlight0 wrFlight1
  iintro ⟨#Hmw, Hrd, Hwr, Hs3, Hs4, HxA, ⟨Hx1, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  sl_exec
  sl_step
  have d0 : trip_last.sl.dma0 m d L k = xData m d L (ch (2 * k.val)) := rfl
  have d1 : trip_last.sl.dma0_1 m d L k k1_h4 k1_h6 = xData m d L (ch (2 * k.val + 1)) :=
    (xData_spell m d L (2 * k.val + 1) c6 (k1_off6_inb L k k1_h4 k1_h6) (fun _ => rfl)).symm
  have d2 : trip_last.sl.dma0_2 m d L k k1_h4 k1_h6 = xData m d L (ch (2 * k.val + 1)) := by
    unfold trip_last.sl.dma0_2
    simp only [Memref.view_whole, View.write_whole_univ, View.read_whole, ReadAs.apply_same]
    exact d1
  iapply (inv_close_last m d L fo O W _ k.val hk3 ?hW)
  rotate_left
  isplitl [Hmw]; · iexact Hmw
  isplitl [Hrd_dst Hrd]
  · isplitl [Hrd_dst]; · iexists _; iexact Hrd_dst
    iexact Hrd
  isplitl [Hwr]
  · iapply (wr_conv m d L fo (2 * k.val + 1) _ rfl _ _ d1 _
      (oDone_spell m d L fo (2 * k.val + 1) c1 (k1_off3_inb L k 1) (fun _ => rfl) _ d2).symm); iexact Hwr
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 Hwr_dst HoA]
  · isplitl [Ho0]
    · iapply (Entails.of_eq (oDone_spell m d L fo (2 * k.val) c0 (k1_off3_inb L k 0) (fun _ => rfl) _ d0).symm); iexact Ho0
    isplitl [Hwr_dst]; · iexact Hwr_dst
    iexact HoA
  isplitl [HoB]; · iexact HoB
  iexact HO
  intro p hp
  simp only [Finset.mem_insert] at hp
  rcases hp with rfl | rfl | rfl | rfl | hp
  · exact .inr rfl
  · exact .inr rfl
  · exact .inr rfl
  · exact .inr rfl
  · exact hW' p hp

/-! ## The invariant at the loop's entry and exit -/

theorem inv_init (fo : Buf (Elt F) (oLoc d)) (O : CellTallies nD τ sig (HIx 1)) (W : Waits sig (HIx 1)) :
    iprop(Transfers.MayWaits (Vt d L) (none : HIx 1) O
      ∗ rdFlight0 m d L 0 ∗ (∃ f, (b1).view.loc (Vt d L) ↦{fullShare} f) ∗ semVal (Vt d L, wsem1) 0
      ∗ semVal (Vt d L, rsem1) 0 ∗ semVal (Vt d L, wsem0) 0
      ∗ bigSep (Finset.Ico 1 8) (xPc m d L) ∗ bigSep (Finset.Ico 0 8) (oPc d L fun _ => fo)
      ∗ owes (Vt d L) O W)
    ⊢ invX m d L fo O W 0 ⟨⟩ := by
  unfold invX
  rw [if_pos (show 0 < 4 by omega), if_pos rfl]
  iintro ⟨Hmw, Hrd, Hb1, Hs5, Hs3, Hs4, HxB, HoB, HO⟩
  isplitl [Hmw]; · iexact Hmw
  isplitl [Hrd]; · iexact Hrd
  isplitl [Hb1 Hs5]
  · isplitl [Hb1]; · iexact Hb1
    iexact Hs5
  isplitl [Hs3]; · iexact Hs3
  isplitl [Hs4]; · iexact Hs4
  isplitr
  · rw [show Finset.Ico 0 (2 * 0) = (∅ : Finset ℕ) from rfl, bigSep_empty]; iempintro
  isplitl [HxB]; · iexact HxB
  isplitr
  · rw [show Finset.Ico 0 (2 * 0 - 1) = (∅ : Finset ℕ) from rfl, bigSep_empty]; iempintro
  isplitl [HoB]; · iexact HoB
  iexists W; isplitr
  · ipureintro; exact fun p hp => .inl hp
  · iexact HO

theorem inv_exit (fo : Buf (Elt F) (oLoc d)) (O : CellTallies nD τ sig (HIx 1)) (W : Waits sig (HIx 1)) (n : ℕ) (hn : n = 4) (acc : PUnit) :
    invX m d L fo O W n acc
    ⊢ iprop(((∃ f, (b0).view.loc (Vt d L) ↦{fullShare} f) ∗ semVal (Vt d L, rsem0) 0) ∗ wrFlight1 m d L fo 7
      ∗ semVal (Vt d L, rsem1) 0 ∗ semVal (Vt d L, wsem0) 0
      ∗ bigSep (Finset.Ico 0 8) (xPc m d L) ∗ bigSep (Finset.Ico 0 7) (oPc d L fun n => oNew m d L fo (ch n))
      ∗ ∃ W', ⌜∀ p ∈ W', p ∈ W ∨ p.2 = none⌝ ∗ owes (Vt d L) O W') := by
  subst hn
  unfold invX
  rw [if_neg (show ¬ 4 < 4 by omega), if_neg (show ¬ 4 = 0 by omega)]
  iintro ⟨-, Hb0, Hwr, Hs3, Hs4, HxA, -, HoA, -, HO⟩
  isplitl [Hb0]; · iexact Hb0
  isplitl [Hwr]; · iexact Hwr
  isplitl [Hs3]; · iexact Hs3
  isplitl [Hs4]; · iexact Hs4
  isplitl [HxA]; · iexact HxA
  isplitl [HoA]; · iexact HoA
  iexact HO

theorem done_all (fo : Buf (Elt F) (oLoc d)) :
    iprop(oPc d L (fun n => oNew m d L fo (ch n)) 7 ∗ bigSep (Finset.Ico 0 7) (oPc d L fun n => oNew m d L fo (ch n)))
      ⊢ (bigSep (Finset.Ico 0 8) (oPc d L fun n => oNew m d L fo (ch n)) : sProp 𝕄) := by
  exact Entails.of_eq (ico_push (a := 0) (b := 7) (Nat.zero_le _) (oPc d L fun n => oNew m d L fo (ch n))).symm

/-! ## The whole task, block ≠ 0 -/

/-- What the task starts from: its eight chunks of `x` at their launch contents, its eight chunks of the result at `fo`, the two
    staging buffers at anything, its four semaphores at zero; and what it ends with: the same, the result's chunks written. -/
def tilePreX (fo : Buf (Elt F) (oLoc d)) (O : CellTallies nD τ sig (HIx 1)) (W : Waits sig (HIx 1)) : sProp 𝕄 :=
  iprop(Transfers.MayWaits (Vt d L) (none : HIx 1) O
    ∗ bigSep (Finset.Ico 0 8) (xPc m d L) ∗ bigSep (Finset.Ico 0 8) (oPc d L fun _ => fo)
    ∗ (∃ f, (b0).view.loc (Vt d L) ↦{fullShare} f) ∗ (∃ f, (b1).view.loc (Vt d L) ↦{fullShare} f)
    ∗ semVal (Vt d L, rsem0) 0 ∗ semVal (Vt d L, rsem1) 0 ∗ semVal (Vt d L, wsem0) 0 ∗ semVal (Vt d L, wsem1) 0
    ∗ owes (Vt d L) O W)
def tilePostX (fo : Buf (Elt F) (oLoc d)) (O : CellTallies nD τ sig (HIx 1)) (W : Waits sig (HIx 1)) : sProp 𝕄 :=
  iprop(bigSep (Finset.Ico 0 8) (xPc m d L) ∗ bigSep (Finset.Ico 0 8) (oPc d L fun n => oNew m d L fo (ch n))
    ∗ (∃ f, (b0).view.loc (Vt d L) ↦{fullShare} f) ∗ (∃ f, (b1).view.loc (Vt d L) ↦{fullShare} f)
    ∗ semVal (Vt d L, rsem0) 0 ∗ semVal (Vt d L, rsem1) 0 ∗ semVal (Vt d L, wsem0) 0 ∗ semVal (Vt d L, wsem1) 0
    ∗ ∃ W', ⌜∀ p ∈ W', p ∈ W ∨ p.2 = none⌝ ∗ owes (Vt d L) O W')

theorem tile_body_x (hb : ¬ blk L = 0) (fo : Buf (Elt F) (oLoc d)) (O : CellTallies nD τ sig (HIx 1)) (W : Waits sig (HIx 1)) :
    tilePreX m d L fo O W
      ⊢ wp frame (wpE (defs₀ (F := F)) 𝒱₀ (Vt d L) none) Set.univ
          (cc1__sc_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5)
          fun _ => tilePostX m d L fo O W := by
  have k1_h1 : ¬ k1_cond1 L = 1#1 := fun h => hb ((cond1_iff L).mp h)
  have k1_h2 : k1_cond2 L = 1#1 := (cond2_iff L).mpr hb
  simp only [cc1__sc_body_eq_skeleton]; unfold cc1__sc_body_skel
  simp only [k1_part2_eq_skeleton]; unfold k1_part2_skel
  have c2 : k1_off2 L = chunkOff L (ch 0).val := by rw [off2_eq]
  have eX0 := xPc_spell m d L 0 c2 (k1_off2_inb L k1_h2) (fun _ => rfl)
  unfold tilePreX
  rw [ico_pop (show 0 < 8 by omega) (xPc m d L)]
  iintro ⟨#Hmw, ⟨Hx0, HxB⟩, HoB, ⟨%fb0, Hb0⟩, Hb1, Hs2, Hs3, Hs4, Hs5, HO⟩
  ihave Hx0 := (Entails.of_eq eX0) $$ Hx0
  sl_exec
  have d0 : tile_body_x.sl.dma0 m d L k1_h2 = xData m d L (ch 0) :=
    (xData_spell m d L 0 c2 (k1_off2_inb L k1_h2) (fun _ => rfl)).symm
  sl_for (invX m d L fo O W) $$ [Hmw Hs2 Hb1 Hs5 Hs3 Hs4 HxB HoB HO]
  case region =>
    intro k acc
    by_cases hk0 : k.val = 0
    · exact trip_first m d L hb fo O W k hk0 _ _
    · by_cases hk3 : k.val = 3
      · exact trip_last m d L hb fo O W k hk3 _ _
      · have hk4 : k.val < 4 := Nat.lt_of_lt_of_le k.isLt k1_t1_abs.2.1
        exact trip_mid m d L hb fo O W k (by omega) (by omega) _ _
  · iapply (inv_init m d L fo O W)
    isplitl [Hmw]; · iexact Hmw
    isplitl [Hs2]
    · iapply (rd_conv m d L 0 _ rfl _ _ d0 _ eX0.symm); iexact Hs2
    isplitl [Hb1]; · iexact Hb1
    isplitl [Hs5]; · iexact Hs5
    isplitl [Hs3]; · iexact Hs3
    isplitl [Hs4]; · iexact Hs4
    isplitl [HxB]; · iexact HxB
    isplitl [HoB]; · iexact HoB
    iexact HO
  iintro %acc HI
  ihave HI := (inv_exit m d L fo O W _ (by decide) acc) $$ HI
  icases HI with ⟨⟨⟨%fb0', Hb0⟩, Hs2⟩, Hwr, Hs3, Hs4, HxA, HoA, %W', %hW', HO⟩
  unfold wrFlight1
  sl_exec
  sl_step
  unfold tilePostX
  isplitl [HxA]; · iexact HxA
  isplitl [Hwr_dst HoA]
  · iapply (done_all m d L fo)
    isplitl [Hwr_dst]; · iexact Hwr_dst
    iexact HoA
  isplitl [Hb0]; · iexists _; iexact Hb0
  isplitl [Hwr_src]; · iexists _; iexact Hwr_src
  isplitl [Hs2]; · iexact Hs2
  isplitl [Hs3]; · iexact Hs3
  isplitl [Hs4]; · iexact Hs4
  isplitl [Hwr]; · iexact Hwr
  iexists (insert (wsem1, (default : HIx 1)) W'); isplitr
  · ipureintro
    intro p hp
    rcases Finset.mem_insert.mp hp with rfl | hp
    · exact .inr rfl
    · exact hW' p hp
  · iexact HO

/-! # The same task when its block is block 0: the chunks come from `src` -/

/-- What a staging buffer holds once chunk `ci` of the worker's stripe of `src` has landed in it, and the result's chunk once written. -/
abbrev sData (ci : Fin 8) : S256x128.Idx → Elt F .f32 := (sCh L ci).view.read (Elt F) (m (sLoc d))
abbrev oNewS (fo : Buf (Elt F) (oLoc d)) (ci : Fin 8) : Buf (Elt F) (oLoc d) := (oCh L ci).view.writes (Elt F) fo [⟨Rect.whole S256x128, sData m d L ci⟩]

/-- A chunk of `src` at its launch contents. -/
abbrev sPc (n : ℕ) : sProp 𝕄 := (sCh L (ch n)).view.loc (Vt d L) ↦[(sCh L (ch n)).view.set]{fullShare} m (sLoc d)

/-- Chunk `n` of `src` on its way into the first staging buffer; chunk `n` on its way out of the second. -/
def rdFlight0S (n : ℕ) : sProp 𝕄 :=
  Transfers.Flight countersEmb (Vt d L) rsem0 (default : HIx 1) NB
    iprop(((b0).view.loc (Vt d L) ↦{fullShare} sData m d L (ch n)) ∗ sPc m d L n)
def wrFlight1S (fo : Buf (Elt F) (oLoc d)) (n : ℕ) : sProp 𝕄 :=
  Transfers.Flight countersEmb (Vt d L) wsem1 (default : HIx 1) NB
    iprop(oPc d L (fun n => oNewS m d L fo (ch n)) n ∗ ((b1).view.loc (Vt d L) ↦{fullShare} sData m d L (ch n)))

/-- Before trip `k` of the chunk loop (block 0): chunk 2k of `src` is on its way into the first buffer (for k < 4), chunk 2k - 1 on
    its way out of the second (for k ≥ 1); the other chunks of `src` are held, the result's chunks below 2k - 1 are written and those
    from 2k on untouched. -/
def invS (fo : Buf (Elt F) (oLoc d)) (O : CellTallies nD τ sig (HIx 1)) (W : Waits sig (HIx 1)) (k : ℕ) (_ : PUnit) : sProp 𝕄 :=
  iprop(Transfers.MayWaits (Vt d L) (none : HIx 1) O
    ∗ (if k < 4 then rdFlight0S m d L (2 * k) else iprop((∃ f, (b0).view.loc (Vt d L) ↦{fullShare} f) ∗ semVal (Vt d L, rsem0) 0))
    ∗ (if k = 0 then iprop((∃ f, (b1).view.loc (Vt d L) ↦{fullShare} f) ∗ semVal (Vt d L, wsem1) 0) else wrFlight1S m d L fo (2 * k - 1))
    ∗ semVal (Vt d L, rsem1) 0 ∗ semVal (Vt d L, wsem0) 0
    ∗ bigSep (Finset.Ico 0 (2 * k)) (sPc m d L) ∗ bigSep (Finset.Ico (2 * k + 1) 8) (sPc m d L)
    ∗ bigSep (Finset.Ico 0 (2 * k - 1)) (oPc d L fun n => oNewS m d L fo (ch n)) ∗ bigSep (Finset.Ico (2 * k) 8) (oPc d L fun _ => fo)
    ∗ ∃ W', ⌜∀ p ∈ W', p ∈ W ∨ p.2 = none⌝ ∗ owes (Vt d L) O W')

/-- A chunk of `src` held under the canonical name is the same chunk held under the program's spelling of it. -/
theorem sPc_spell (n : ℕ) {off : Fin 2 → ℕ} (e : off = srcOff L (ch n).val) (p : ∀ a, off a + S256x128.size a ≤ S16384x128.size a)
    (hs : ∀ a, (Rect.unit (s := S16384x128) off S256x128.size p).stride a = 1) :
    sPc m d L n = ((((sW).slice (Rect.unit (s := S16384x128) off S256x128.size p) hs)).view.loc (Vt d L)
      ↦[(((sW).slice (Rect.unit (s := S16384x128) off S256x128.size p) hs)).view.set]{fullShare} m (sLoc d) : sProp 𝕄) := by
  subst e; rfl
theorem sData_spell (n : ℕ) {off : Fin 2 → ℕ} (e : off = srcOff L (ch n).val) (p : ∀ a, off a + S256x128.size a ≤ S16384x128.size a)
    (hs : ∀ a, (Rect.unit (s := S16384x128) off S256x128.size p).stride a = 1) :
    sData m d L (ch n) = (((sW).slice (Rect.unit (s := S16384x128) off S256x128.size p) hs)).view.read (Elt F) (m (sLoc d)) := by
  subst e; rfl

/-! ## Respelling contents, and a transfer in flight under any spelling as the invariant's -/

/-- A written chunk of the result, under the program's spelling of the chunk and any name of the data. -/
theorem oDoneS_spell (fo : Buf (Elt F) (oLoc d)) (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) (w : S256x128.Idx → Elt F .f32) (hw : w = sData m d L (ch n)) :
    oPc d L (fun n => oNewS m d L fo (ch n)) n
      = ((((oW).slice (Rect.unit (s := S32x16384x128) off S1x256x128.size p) hs).squeeze S256x128 squeezes_S1x256x128_S256x128).view.loc (Vt d L)
        ↦[(((oW).slice (Rect.unit (s := S32x16384x128) off S1x256x128.size p) hs).squeeze S256x128 squeezes_S1x256x128_S256x128).view.set]{fullShare}
          (((oW).slice (Rect.unit (s := S32x16384x128) off S1x256x128.size p) hs).squeeze S256x128 squeezes_S1x256x128_S256x128).view.writes (Elt F) fo [⟨Rect.whole S256x128, w⟩] : sProp 𝕄) := by
  subst e hw; rfl

/-- A read in flight into the first buffer — the buffer written whole with the chunk's data over whatever it held, the chunk lent under
    any spelling of it — is the invariant's. -/
theorem rd_convS (n : ℕ) (sm : SemLoc sig) (hsm : sm = rsem0) (fold : Buf (Elt F) ((b0).view.loc (Vt d L))) (w : S256x128.Idx → Elt F .f32) (hw : w = sData m d L (ch n))
    (P : sProp 𝕄) (hP : P = sPc m d L n) :
    (Transfers.Flight countersEmb (Vt d L) sm (default : HIx 1) NB
        iprop(((b0).view.loc (Vt d L) ↦{fullShare} (b0).view.write (Elt F) fold w Finset.univ) ∗ P) : sProp 𝕄)
      ⊢ rdFlight0S m d L n := by
  subst hw hP hsm
  unfold rdFlight0S
  refine Transfers.Flight_mono countersEmb (Vt d L) ?_
  simp only [Memref.view_whole, View.write_whole_univ]
  exact Entails.refl _

/-- A write in flight out of the second buffer — the result's chunk under any spelling, the buffer lent holding the chunk's data — is the
    invariant's. -/
theorem wr_convS (fo : Buf (Elt F) (oLoc d)) (n : ℕ) (sm : SemLoc sig) (hsm : sm = wsem1) (fold : Buf (Elt F) ((b1).view.loc (Vt d L))) (w : S256x128.Idx → Elt F .f32) (hw : w = sData m d L (ch n))
    (P : sProp 𝕄) (hP : P = oPc d L (fun n => oNewS m d L fo (ch n)) n) :
    (Transfers.Flight countersEmb (Vt d L) sm (default : HIx 1) NB
        iprop(P ∗ ((b1).view.loc (Vt d L) ↦[(b1).view.set]{fullShare} (b1).view.write (Elt F) fold w Finset.univ)) : sProp 𝕄)
      ⊢ wrFlight1S m d L fo n := by
  subst hw hP hsm
  unfold wrFlight1S
  refine Transfers.Flight_mono countersEmb (Vt d L) ?_
  simp only [Memref.view_whole, View.write_whole_univ, View.set_whole]
  exact Entails.refl _

/-! ## The invariant opened before a middle trip, and closed after it -/

theorem invS_open_mid (fo : Buf (Elt F) (oLoc d)) (O : CellTallies nD τ sig (HIx 1)) (W : Waits sig (HIx 1)) (k : ℕ) (hk1 : 1 ≤ k) (hk3 : k < 3) :
    invS m d L fo O W k ⟨⟩ = iprop(Transfers.MayWaits (Vt d L) (none : HIx 1) O
      ∗ rdFlight0S m d L (2 * k) ∗ wrFlight1S m d L fo (2 * k - 1)
      ∗ semVal (Vt d L, rsem1) 0 ∗ semVal (Vt d L, wsem0) 0
      ∗ bigSep (Finset.Ico 0 (2 * k)) (sPc m d L) ∗ (sPc m d L (2 * k + 1) ∗ sPc m d L (2 * k + 1 + 1) ∗ bigSep (Finset.Ico (2 * k + 1 + 1 + 1) 8) (sPc m d L))
      ∗ bigSep (Finset.Ico 0 (2 * k - 1)) (oPc d L fun n => oNewS m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invS
  rw [if_pos (show k < 4 by omega), if_neg (show ¬ k = 0 by omega), ico_pop (show 2 * k < 8 by omega) (oPc d L fun _ => fo),
    ico_pop (show 2 * k + 1 < 8 by omega) (oPc d L fun _ => fo),
    ico_pop (show 2 * k + 1 < 8 by omega) (sPc m d L), ico_pop (show 2 * k + 1 + 1 < 8 by omega) (sPc m d L)]

theorem invS_close_mid (fo : Buf (Elt F) (oLoc d)) (O : CellTallies nD τ sig (HIx 1)) (W W'' : Waits sig (HIx 1)) (k : ℕ) (hk1 : 1 ≤ k) (hk3 : k < 3)
    (hW'' : ∀ p ∈ W'', p ∈ W ∨ p.2 = none) :
    iprop(Transfers.MayWaits (Vt d L) (none : HIx 1) O
      ∗ rdFlight0S m d L (2 * k + 1 + 1) ∗ wrFlight1S m d L fo (2 * k + 1)
      ∗ semVal (Vt d L, rsem1) 0 ∗ semVal (Vt d L, wsem0) 0
      ∗ (sPc m d L (2 * k + 1) ∗ sPc m d L (2 * k) ∗ bigSep (Finset.Ico 0 (2 * k)) (sPc m d L)) ∗ bigSep (Finset.Ico (2 * k + 1 + 1 + 1) 8) (sPc m d L)
      ∗ (oPc d L (fun n => oNewS m d L fo (ch n)) (2 * k) ∗ oPc d L (fun n => oNewS m d L fo (ch n)) (2 * k - 1)
          ∗ bigSep (Finset.Ico 0 (2 * k - 1)) (oPc d L fun n => oNewS m d L fo (ch n)))
      ∗ bigSep (Finset.Ico (2 * k + 1 + 1) 8) (oPc d L fun _ => fo)
      ∗ owes (Vt d L) O W'')
    ⊢ invS m d L fo O W (k + 1) ⟨⟩ := by
  unfold invS
  have e2 : 2 * (k + 1) = 2 * k + 1 + 1 := by omega
  have e1 : 2 * k + 1 + 1 - 1 = 2 * k + 1 := by omega
  have e0 : 2 * k = 2 * k - 1 + 1 := by omega
  rw [if_pos (show k + 1 < 4 by omega), if_neg (show ¬ k + 1 = 0 by omega), e2, e1,
    ico_push (Nat.zero_le _) (sPc m d L), ico_push (Nat.zero_le _) (sPc m d L),
    ico_push (Nat.zero_le _) (oPc d L fun n => oNewS m d L fo (ch n))]
  conv => rhs; rw [e0, ico_push (Nat.zero_le _) (oPc d L fun n => oNewS m d L fo (ch n)), ← e0]
  iintro ⟨Hmw, Hrd, Hwr, Hs3, Hs4, Hx, HxB, Ho, HoB, HO⟩
  isplitl [Hmw]; · iexact Hmw
  isplitl [Hrd]; · iexact Hrd
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

/-! ## The invariant opened before the first and the last trip -/

theorem invS_open_first (fo : Buf (Elt F) (oLoc d)) (O : CellTallies nD τ sig (HIx 1)) (W : Waits sig (HIx 1)) (k : ℕ) (hk0 : k = 0) :
    invS m d L fo O W k ⟨⟩ = iprop(Transfers.MayWaits (Vt d L) (none : HIx 1) O
      ∗ rdFlight0S m d L (2 * k) ∗ ((∃ f, (b1).view.loc (Vt d L) ↦{fullShare} f) ∗ semVal (Vt d L, wsem1) 0)
      ∗ semVal (Vt d L, rsem1) 0 ∗ semVal (Vt d L, wsem0) 0
      ∗ bigSep (Finset.Ico 0 (2 * k)) (sPc m d L) ∗ (sPc m d L (2 * k + 1) ∗ sPc m d L (2 * k + 1 + 1) ∗ bigSep (Finset.Ico (2 * k + 1 + 1 + 1) 8) (sPc m d L))
      ∗ bigSep (Finset.Ico 0 (2 * k - 1)) (oPc d L fun n => oNewS m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invS
  rw [if_pos (show k < 4 by omega), if_pos hk0, ico_pop (show 2 * k < 8 by omega) (oPc d L fun _ => fo),
    ico_pop (show 2 * k + 1 < 8 by omega) (oPc d L fun _ => fo),
    ico_pop (show 2 * k + 1 < 8 by omega) (sPc m d L), ico_pop (show 2 * k + 1 + 1 < 8 by omega) (sPc m d L)]

theorem invS_open_last (fo : Buf (Elt F) (oLoc d)) (O : CellTallies nD τ sig (HIx 1)) (W : Waits sig (HIx 1)) (k : ℕ) (hk3 : k = 3) :
    invS m d L fo O W k ⟨⟩ = iprop(Transfers.MayWaits (Vt d L) (none : HIx 1) O
      ∗ rdFlight0S m d L (2 * k) ∗ wrFlight1S m d L fo (2 * k - 1)
      ∗ semVal (Vt d L, rsem1) 0 ∗ semVal (Vt d L, wsem0) 0
      ∗ bigSep (Finset.Ico 0 (2 * k)) (sPc m d L) ∗ (sPc m d L (2 * k + 1) ∗ bigSep (Finset.Ico (2 * k + 1 + 1) 8) (sPc m d L))
      ∗ bigSep (Finset.Ico 0 (2 * k - 1)) (oPc d L fun n => oNewS m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invS
  rw [if_pos (show k < 4 by omega), if_neg (show ¬ k = 0 by omega), ico_pop (show 2 * k < 8 by omega) (oPc d L fun _ => fo),
    ico_pop (show 2 * k + 1 < 8 by omega) (oPc d L fun _ => fo),
    ico_pop (show 2 * k + 1 < 8 by omega) (sPc m d L)]

theorem invS_close_first (fo : Buf (Elt F) (oLoc d)) (O : CellTallies nD τ sig (HIx 1)) (W W'' : Waits sig (HIx 1)) (k : ℕ) (hk0 : k = 0)
    (hW'' : ∀ p ∈ W'', p ∈ W ∨ p.2 = none) :
    iprop(Transfers.MayWaits (Vt d L) (none : HIx 1) O
      ∗ rdFlight0S m d L (2 * k + 1 + 1) ∗ wrFlight1S m d L fo (2 * k + 1)
      ∗ semVal (Vt d L, rsem1) 0 ∗ semVal (Vt d L, wsem0) 0
      ∗ (sPc m d L (2 * k + 1) ∗ sPc m d L (2 * k) ∗ bigSep (Finset.Ico 0 (2 * k)) (sPc m d L)) ∗ bigSep (Finset.Ico (2 * k + 1 + 1 + 1) 8) (sPc m d L)
      ∗ (oPc d L (fun n => oNewS m d L fo (ch n)) (2 * k) ∗ bigSep (Finset.Ico 0 (2 * k - 1)) (oPc d L fun n => oNewS m d L fo (ch n)))
      ∗ bigSep (Finset.Ico (2 * k + 1 + 1) 8) (oPc d L fun _ => fo)
      ∗ owes (Vt d L) O W'')
    ⊢ invS m d L fo O W (k + 1) ⟨⟩ := by
  unfold invS
  have e2 : 2 * (k + 1) = 2 * k + 1 + 1 := by omega
  have e1 : 2 * k + 1 + 1 - 1 = 2 * k + 1 := by omega
  have e0 : 2 * k - 1 = 2 * k := by omega
  rw [if_pos (show k + 1 < 4 by omega), if_neg (show ¬ k + 1 = 0 by omega), e2, e1, e0,
    ico_push (Nat.zero_le _) (sPc m d L), ico_push (Nat.zero_le _) (sPc m d L),
    ico_push (Nat.zero_le _) (oPc d L fun n => oNewS m d L fo (ch n))]
  iintro ⟨Hmw, Hrd, Hwr, Hs3, Hs4, Hx, HxB, Ho, HoB, HO⟩
  isplitl [Hmw]; · iexact Hmw
  isplitl [Hrd]; · iexact Hrd
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

theorem invS_close_last (fo : Buf (Elt F) (oLoc d)) (O : CellTallies nD τ sig (HIx 1)) (W W'' : Waits sig (HIx 1)) (k : ℕ) (hk3 : k = 3)
    (hW'' : ∀ p ∈ W'', p ∈ W ∨ p.2 = none) :
    iprop(Transfers.MayWaits (Vt d L) (none : HIx 1) O
      ∗ ((∃ f, (b0).view.loc (Vt d L) ↦{fullShare} f) ∗ semVal (Vt d L, rsem0) 0) ∗ wrFlight1S m d L fo (2 * k + 1)
      ∗ semVal (Vt d L, rsem1) 0 ∗ semVal (Vt d L, wsem0) 0
      ∗ (sPc m d L (2 * k + 1) ∗ sPc m d L (2 * k) ∗ bigSep (Finset.Ico 0 (2 * k)) (sPc m d L)) ∗ bigSep (Finset.Ico (2 * k + 1 + 1) 8) (sPc m d L)
      ∗ (oPc d L (fun n => oNewS m d L fo (ch n)) (2 * k) ∗ oPc d L (fun n => oNewS m d L fo (ch n)) (2 * k - 1)
          ∗ bigSep (Finset.Ico 0 (2 * k - 1)) (oPc d L fun n => oNewS m d L fo (ch n)))
      ∗ bigSep (Finset.Ico (2 * k + 1 + 1) 8) (oPc d L fun _ => fo)
      ∗ owes (Vt d L) O W'')
    ⊢ invS m d L fo O W (k + 1) ⟨⟩ := by
  unfold invS
  have e2 : 2 * (k + 1) = 2 * k + 1 + 1 := by omega
  have e1 : 2 * k + 1 + 1 - 1 = 2 * k + 1 := by omega
  have e0 : 2 * k = 2 * k - 1 + 1 := by omega
  rw [if_neg (show ¬ k + 1 < 4 by omega), if_neg (show ¬ k + 1 = 0 by omega), e2, e1,
    ico_push (Nat.zero_le _) (sPc m d L), ico_push (Nat.zero_le _) (sPc m d L),
    ico_push (Nat.zero_le _) (oPc d L fun n => oNewS m d L fo (ch n)),
    Finset.Ico_eq_empty_of_le (show 8 ≤ 2 * k + 1 + 1 + 1 by omega), Finset.Ico_eq_empty_of_le (show 8 ≤ 2 * k + 1 + 1 by omega)]
  conv => rhs; rw [e0, ico_push (Nat.zero_le _) (oPc d L fun n => oNewS m d L fo (ch n)), ← e0]
  iintro ⟨Hmw, Hb0, Hwr, Hs3, Hs4, Hx, HxB, Ho, HoB, HO⟩
  isplitl [Hmw]; · iexact Hmw
  isplitl [Hb0]; · iexact Hb0
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

/-- A middle trip (1 ≤ k < 3) of the chunk loop, block 0: the read of chunk 2k lands and is written out, the write of chunk
    2k - 1 completes and the second buffer takes chunk 2k + 1, which is written out in turn; the write of chunk 2k completes
    and the first buffer takes chunk 2k + 2. -/
theorem tripS_mid (hb : blk L = 0) (fo : Buf (Elt F) (oLoc d)) (O : CellTallies nD τ sig (HIx 1)) (W : Waits sig (HIx 1))
    (k : Fin k1_t1_loop.trips) (hk1 : 1 ≤ k.val) (hk3 : k.val < 3) (v18 v29 : BitVec 32) :
    invS m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invS m d L fo O W (k.val + 1)) := by
  have k1_h3 : k1_cond3 k = 1#1 := (cond3_iff k).mpr hk1
  have k1_h4 : k1_cond4 k = 1#1 := cond4_all k
  have k1_h5 : k1_cond5 L = 1#1 := (cond5_iff L).mpr hb
  have k1_h6 : ¬ k1_cond6 L = 1#1 := fun h => (cond6_iff L).mp h hb
  have k1_h7 : k1_cond7 k = 1#1 := cond7_all k
  have k1_h8 : k1_cond8 k = 1#1 := (cond8_iff k).mpr hk3
  have k1_h9 : k1_cond9 L = 1#1 := (cond9_iff L).mpr hb
  have k1_h10 : ¬ k1_cond10 L = 1#1 := fun h => (cond10_iff L).mp h hb
  unfold k1_t1_body
  simp only [k1_part1_eq_skeleton]; unfold k1_part1_skel
  -- the chunks this trip issues on, each as the program spells it at that site
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have q5 : k1_off5 L k = srcOff L (ch (2 * k.val + 1)).val := by rw [off5_eq, ch_val (by omega)]
  have q8 : k1_off8 L k = srcOff L (ch (2 * k.val + 1 + 1)).val := by rw [off8_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := sPc_spell m d L (2 * k.val + 1) q5 (k1_off5_inb L k k1_h4 k1_h5) (fun _ => rfl)
  have eX2 := sPc_spell m d L (2 * k.val + 1 + 1) q8 (k1_off8_inb L k k1_h8 k1_h9) (fun _ => rfl)
  rw [invS_open_mid m d L fo O W k.val hk1 hk3]
  unfold rdFlight0S wrFlight1S
  iintro ⟨#Hmw, Hrd, Hwr, Hs3, Hs4, HxA, ⟨Hx1, Hx2, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  ihave Hx2 := (Entails.of_eq eX2) $$ Hx2
  sl_exec
  sl_step
  -- the data each transfer carried, under its canonical name
  have d0 : tripS_mid.sl.dma0 m d L k = sData m d L (ch (2 * k.val)) := rfl
  have d1 : tripS_mid.sl.dma0_1 m d L k k1_h4 k1_h5 = sData m d L (ch (2 * k.val + 1)) :=
    (sData_spell m d L (2 * k.val + 1) q5 (k1_off5_inb L k k1_h4 k1_h5) (fun _ => rfl)).symm
  have d2 : tripS_mid.sl.dma0_2 m d L k k1_h4 k1_h5 = sData m d L (ch (2 * k.val + 1)) := by
    unfold tripS_mid.sl.dma0_2
    simp only [Memref.view_whole, View.write_whole_univ, View.read_whole, ReadAs.apply_same]
    exact d1
  have d3 : tripS_mid.sl.dma0_3 m d L k k1_h8 k1_h9 = sData m d L (ch (2 * k.val + 1 + 1)) :=
    (sData_spell m d L (2 * k.val + 1 + 1) q8 (k1_off8_inb L k k1_h8 k1_h9) (fun _ => rfl)).symm
  iapply (invS_close_mid m d L fo O W _ k.val hk1 hk3 ?hW)
  rotate_left
  isplitl [Hmw]; · iexact Hmw
  isplitl [Hrd]
  · iapply (rd_convS m d L (2 * k.val + 1 + 1) _ rfl _ _ d3 _ eX2.symm); iexact Hrd
  isplitl [Hwr]
  · iapply (wr_convS m d L fo (2 * k.val + 1) _ rfl _ _ d1 _
      (oDoneS_spell m d L fo (2 * k.val + 1) c1 (k1_off3_inb L k 1) (fun _ => rfl) _ d2).symm); iexact Hwr
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 Hwr_dst HoA]
  · isplitl [Ho0]
    · iapply (Entails.of_eq (oDoneS_spell m d L fo (2 * k.val) c0 (k1_off3_inb L k 0) (fun _ => rfl) _ d0).symm); iexact Ho0
    isplitl [Hwr_dst]; · iexact Hwr_dst
    iexact HoA
  isplitl [HoB]; · iexact HoB
  iexact HO
  case hW =>
    intro p hp
    simp only [Finset.mem_insert] at hp
    rcases hp with rfl | rfl | rfl | rfl | hp
    · exact .inr rfl
    · exact .inr rfl
    · exact .inr rfl
    · exact .inr rfl
    · exact hW' p hp

/-- The first trip (k = 0): as a middle trip, but no earlier write is waited for — the second buffer is idle. -/
theorem tripS_first (hb : blk L = 0) (fo : Buf (Elt F) (oLoc d)) (O : CellTallies nD τ sig (HIx 1)) (W : Waits sig (HIx 1))
    (k : Fin k1_t1_loop.trips) (hk0 : k.val = 0) (v18 v29 : BitVec 32) :
    invS m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invS m d L fo O W (k.val + 1)) := by
  have k1_h3 : ¬ k1_cond3 k = 1#1 := fun h => by have := (cond3_iff k).mp h; omega
  have k1_h4 : k1_cond4 k = 1#1 := cond4_all k
  have k1_h5 : k1_cond5 L = 1#1 := (cond5_iff L).mpr hb
  have k1_h6 : ¬ k1_cond6 L = 1#1 := fun h => (cond6_iff L).mp h hb
  have k1_h7 : k1_cond7 k = 1#1 := cond7_all k
  have k1_h8 : k1_cond8 k = 1#1 := (cond8_iff k).mpr (by omega)
  have k1_h9 : k1_cond9 L = 1#1 := (cond9_iff L).mpr hb
  have k1_h10 : ¬ k1_cond10 L = 1#1 := fun h => (cond10_iff L).mp h hb
  unfold k1_t1_body
  simp only [k1_part1_eq_skeleton]; unfold k1_part1_skel
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have q5 : k1_off5 L k = srcOff L (ch (2 * k.val + 1)).val := by rw [off5_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := sPc_spell m d L (2 * k.val + 1) q5 (k1_off5_inb L k k1_h4 k1_h5) (fun _ => rfl)
  have q8 : k1_off8 L k = srcOff L (ch (2 * k.val + 1 + 1)).val := by rw [off8_eq, ch_val (by omega)]
  have eX2 := sPc_spell m d L (2 * k.val + 1 + 1) q8 (k1_off8_inb L k k1_h8 k1_h9) (fun _ => rfl)
  rw [invS_open_first m d L fo O W k.val hk0]
  unfold rdFlight0S
  iintro ⟨#Hmw, Hrd, ⟨⟨%fb1, Hb1⟩, Hs5⟩, Hs3, Hs4, HxA, ⟨Hx1, Hx2, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  ihave Hx2 := (Entails.of_eq eX2) $$ Hx2
  sl_exec
  sl_step
  have d0 : tripS_first.sl.dma0 m d L k = sData m d L (ch (2 * k.val)) := rfl
  have d1 : tripS_first.sl.dma0_1 m d L k k1_h4 k1_h5 = sData m d L (ch (2 * k.val + 1)) :=
    (sData_spell m d L (2 * k.val + 1) q5 (k1_off5_inb L k k1_h4 k1_h5) (fun _ => rfl)).symm
  have d2 : tripS_first.sl.dma0_2 m d L k k1_h4 k1_h5 fb1 = sData m d L (ch (2 * k.val + 1)) := by
    unfold tripS_first.sl.dma0_2
    simp only [Memref.view_whole, View.write_whole_univ, View.read_whole, ReadAs.apply_same]
    exact d1
  have d3 : tripS_first.sl.dma0_3 m d L k k1_h8 k1_h9 = sData m d L (ch (2 * k.val + 1 + 1)) :=
    (sData_spell m d L (2 * k.val + 1 + 1) q8 (k1_off8_inb L k k1_h8 k1_h9) (fun _ => rfl)).symm
  iapply (invS_close_first m d L fo O W _ k.val hk0 ?hW)
  rotate_left
  isplitl [Hmw]; · iexact Hmw
  isplitl [Hrd]
  · iapply (rd_convS m d L (2 * k.val + 1 + 1) _ rfl _ _ d3 _ eX2.symm); iexact Hrd
  isplitl [Hs5]
  · iapply (wr_convS m d L fo (2 * k.val + 1) _ rfl _ _ d1 _
      (oDoneS_spell m d L fo (2 * k.val + 1) c1 (k1_off3_inb L k 1) (fun _ => rfl) _ d2).symm); iexact Hs5
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 HoA]
  · isplitl [Ho0]
    · iapply (Entails.of_eq (oDoneS_spell m d L fo (2 * k.val) c0 (k1_off3_inb L k 0) (fun _ => rfl) _ d0).symm); iexact Ho0
    iexact HoA
  isplitl [HoB]; · iexact HoB
  iexact HO
  intro p hp
  simp only [Finset.mem_insert] at hp
  rcases hp with rfl | rfl | rfl | hp
  · exact .inr rfl
  · exact .inr rfl
  · exact .inr rfl
  · exact hW' p hp

/-- The last trip (k = 3): as a middle trip, but no further read is started — the first buffer ends idle. -/
theorem tripS_last (hb : blk L = 0) (fo : Buf (Elt F) (oLoc d)) (O : CellTallies nD τ sig (HIx 1)) (W : Waits sig (HIx 1))
    (k : Fin k1_t1_loop.trips) (hk3 : k.val = 3) (v18 v29 : BitVec 32) :
    invS m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invS m d L fo O W (k.val + 1)) := by
  have k1_h3 : k1_cond3 k = 1#1 := (cond3_iff k).mpr (by omega)
  have k1_h4 : k1_cond4 k = 1#1 := cond4_all k
  have k1_h5 : k1_cond5 L = 1#1 := (cond5_iff L).mpr hb
  have k1_h6 : ¬ k1_cond6 L = 1#1 := fun h => (cond6_iff L).mp h hb
  have k1_h7 : k1_cond7 k = 1#1 := cond7_all k
  have k1_h8 : ¬ k1_cond8 k = 1#1 := fun h => by have := (cond8_iff k).mp h; omega
  have k1_h9 : k1_cond9 L = 1#1 := (cond9_iff L).mpr hb
  have k1_h10 : ¬ k1_cond10 L = 1#1 := fun h => (cond10_iff L).mp h hb
  unfold k1_t1_body
  simp only [k1_part1_eq_skeleton]; unfold k1_part1_skel
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have q5 : k1_off5 L k = srcOff L (ch (2 * k.val + 1)).val := by rw [off5_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := sPc_spell m d L (2 * k.val + 1) q5 (k1_off5_inb L k k1_h4 k1_h5) (fun _ => rfl)
  rw [invS_open_last m d L fo O W k.val hk3]
  unfold rdFlight0S wrFlight1S
  iintro ⟨#Hmw, Hrd, Hwr, Hs3, Hs4, HxA, ⟨Hx1, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  sl_exec
  sl_step
  have d0 : tripS_last.sl.dma0 m d L k = sData m d L (ch (2 * k.val)) := rfl
  have d1 : tripS_last.sl.dma0_1 m d L k k1_h4 k1_h5 = sData m d L (ch (2 * k.val + 1)) :=
    (sData_spell m d L (2 * k.val + 1) q5 (k1_off5_inb L k k1_h4 k1_h5) (fun _ => rfl)).symm
  have d2 : tripS_last.sl.dma0_2 m d L k k1_h4 k1_h5 = sData m d L (ch (2 * k.val + 1)) := by
    unfold tripS_last.sl.dma0_2
    simp only [Memref.view_whole, View.write_whole_univ, View.read_whole, ReadAs.apply_same]
    exact d1
  iapply (invS_close_last m d L fo O W _ k.val hk3 ?hW)
  rotate_left
  isplitl [Hmw]; · iexact Hmw
  isplitl [Hrd_dst Hrd]
  · isplitl [Hrd_dst]; · iexists _; iexact Hrd_dst
    iexact Hrd
  isplitl [Hwr]
  · iapply (wr_convS m d L fo (2 * k.val + 1) _ rfl _ _ d1 _
      (oDoneS_spell m d L fo (2 * k.val + 1) c1 (k1_off3_inb L k 1) (fun _ => rfl) _ d2).symm); iexact Hwr
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 Hwr_dst HoA]
  · isplitl [Ho0]
    · iapply (Entails.of_eq (oDoneS_spell m d L fo (2 * k.val) c0 (k1_off3_inb L k 0) (fun _ => rfl) _ d0).symm); iexact Ho0
    isplitl [Hwr_dst]; · iexact Hwr_dst
    iexact HoA
  isplitl [HoB]; · iexact HoB
  iexact HO
  intro p hp
  simp only [Finset.mem_insert] at hp
  rcases hp with rfl | rfl | rfl | rfl | hp
  · exact .inr rfl
  · exact .inr rfl
  · exact .inr rfl
  · exact .inr rfl
  · exact hW' p hp

/-! ## The invariant at the loop's entry and exit -/

theorem invS_init (fo : Buf (Elt F) (oLoc d)) (O : CellTallies nD τ sig (HIx 1)) (W : Waits sig (HIx 1)) :
    iprop(Transfers.MayWaits (Vt d L) (none : HIx 1) O
      ∗ rdFlight0S m d L 0 ∗ (∃ f, (b1).view.loc (Vt d L) ↦{fullShare} f) ∗ semVal (Vt d L, wsem1) 0
      ∗ semVal (Vt d L, rsem1) 0 ∗ semVal (Vt d L, wsem0) 0
      ∗ bigSep (Finset.Ico 1 8) (sPc m d L) ∗ bigSep (Finset.Ico 0 8) (oPc d L fun _ => fo)
      ∗ owes (Vt d L) O W)
    ⊢ invS m d L fo O W 0 ⟨⟩ := by
  unfold invS
  rw [if_pos (show 0 < 4 by omega), if_pos rfl]
  iintro ⟨Hmw, Hrd, Hb1, Hs5, Hs3, Hs4, HxB, HoB, HO⟩
  isplitl [Hmw]; · iexact Hmw
  isplitl [Hrd]; · iexact Hrd
  isplitl [Hb1 Hs5]
  · isplitl [Hb1]; · iexact Hb1
    iexact Hs5
  isplitl [Hs3]; · iexact Hs3
  isplitl [Hs4]; · iexact Hs4
  isplitr
  · rw [show Finset.Ico 0 (2 * 0) = (∅ : Finset ℕ) from rfl, bigSep_empty]; iempintro
  isplitl [HxB]; · iexact HxB
  isplitr
  · rw [show Finset.Ico 0 (2 * 0 - 1) = (∅ : Finset ℕ) from rfl, bigSep_empty]; iempintro
  isplitl [HoB]; · iexact HoB
  iexists W; isplitr
  · ipureintro; exact fun p hp => .inl hp
  · iexact HO

theorem invS_exit (fo : Buf (Elt F) (oLoc d)) (O : CellTallies nD τ sig (HIx 1)) (W : Waits sig (HIx 1)) (n : ℕ) (hn : n = 4) (acc : PUnit) :
    invS m d L fo O W n acc
    ⊢ iprop(((∃ f, (b0).view.loc (Vt d L) ↦{fullShare} f) ∗ semVal (Vt d L, rsem0) 0) ∗ wrFlight1S m d L fo 7
      ∗ semVal (Vt d L, rsem1) 0 ∗ semVal (Vt d L, wsem0) 0
      ∗ bigSep (Finset.Ico 0 8) (sPc m d L) ∗ bigSep (Finset.Ico 0 7) (oPc d L fun n => oNewS m d L fo (ch n))
      ∗ ∃ W', ⌜∀ p ∈ W', p ∈ W ∨ p.2 = none⌝ ∗ owes (Vt d L) O W') := by
  subst hn
  unfold invS
  rw [if_neg (show ¬ 4 < 4 by omega), if_neg (show ¬ 4 = 0 by omega)]
  iintro ⟨-, Hb0, Hwr, Hs3, Hs4, HxA, -, HoA, -, HO⟩
  isplitl [Hb0]; · iexact Hb0
  isplitl [Hwr]; · iexact Hwr
  isplitl [Hs3]; · iexact Hs3
  isplitl [Hs4]; · iexact Hs4
  isplitl [HxA]; · iexact HxA
  isplitl [HoA]; · iexact HoA
  iexact HO

theorem doneS_all (fo : Buf (Elt F) (oLoc d)) :
    iprop(oPc d L (fun n => oNewS m d L fo (ch n)) 7 ∗ bigSep (Finset.Ico 0 7) (oPc d L fun n => oNewS m d L fo (ch n)))
      ⊢ (bigSep (Finset.Ico 0 8) (oPc d L fun n => oNewS m d L fo (ch n)) : sProp 𝕄) := by
  exact Entails.of_eq (ico_push (a := 0) (b := 7) (Nat.zero_le _) (oPc d L fun n => oNewS m d L fo (ch n))).symm

/-! ## The whole task, block 0 -/

/-- What the task starts from: its eight chunks of `src` at their launch contents, its eight chunks of the result at `fo`, the two
    staging buffers at anything, its four semaphores at zero; and what it ends with: the same, the result's chunks written. -/
def tilePreS (fo : Buf (Elt F) (oLoc d)) (O : CellTallies nD τ sig (HIx 1)) (W : Waits sig (HIx 1)) : sProp 𝕄 :=
  iprop(Transfers.MayWaits (Vt d L) (none : HIx 1) O
    ∗ bigSep (Finset.Ico 0 8) (sPc m d L) ∗ bigSep (Finset.Ico 0 8) (oPc d L fun _ => fo)
    ∗ (∃ f, (b0).view.loc (Vt d L) ↦{fullShare} f) ∗ (∃ f, (b1).view.loc (Vt d L) ↦{fullShare} f)
    ∗ semVal (Vt d L, rsem0) 0 ∗ semVal (Vt d L, rsem1) 0 ∗ semVal (Vt d L, wsem0) 0 ∗ semVal (Vt d L, wsem1) 0
    ∗ owes (Vt d L) O W)
def tilePostS (fo : Buf (Elt F) (oLoc d)) (O : CellTallies nD τ sig (HIx 1)) (W : Waits sig (HIx 1)) : sProp 𝕄 :=
  iprop(bigSep (Finset.Ico 0 8) (sPc m d L) ∗ bigSep (Finset.Ico 0 8) (oPc d L fun n => oNewS m d L fo (ch n))
    ∗ (∃ f, (b0).view.loc (Vt d L) ↦{fullShare} f) ∗ (∃ f, (b1).view.loc (Vt d L) ↦{fullShare} f)
    ∗ semVal (Vt d L, rsem0) 0 ∗ semVal (Vt d L, rsem1) 0 ∗ semVal (Vt d L, wsem0) 0 ∗ semVal (Vt d L, wsem1) 0
    ∗ ∃ W', ⌜∀ p ∈ W', p ∈ W ∨ p.2 = none⌝ ∗ owes (Vt d L) O W')

theorem tile_body_s (hb : blk L = 0) (fo : Buf (Elt F) (oLoc d)) (O : CellTallies nD τ sig (HIx 1)) (W : Waits sig (HIx 1)) :
    tilePreS m d L fo O W
      ⊢ wp frame (wpE (defs₀ (F := F)) 𝒱₀ (Vt d L) none) Set.univ
          (cc1__sc_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5)
          fun _ => tilePostS m d L fo O W := by
  have k1_h1 : k1_cond1 L = 1#1 := (cond1_iff L).mpr hb
  have k1_h2 : ¬ k1_cond2 L = 1#1 := fun h => (cond2_iff L).mp h hb
  simp only [cc1__sc_body_eq_skeleton]; unfold cc1__sc_body_skel
  simp only [k1_part2_eq_skeleton]; unfold k1_part2_skel
  have q1 : k1_off1 L = srcOff L (ch 0).val := by rw [off1_eq]
  have eX0 := sPc_spell m d L 0 q1 (k1_off1_inb L k1_h1) (fun _ => rfl)
  unfold tilePreS
  rw [ico_pop (show 0 < 8 by omega) (sPc m d L)]
  iintro ⟨#Hmw, ⟨Hx0, HxB⟩, HoB, ⟨%fb0, Hb0⟩, Hb1, Hs2, Hs3, Hs4, Hs5, HO⟩
  ihave Hx0 := (Entails.of_eq eX0) $$ Hx0
  sl_exec
  have d0 : tile_body_s.sl.dma0 m d L k1_h1 = sData m d L (ch 0) :=
    (sData_spell m d L 0 q1 (k1_off1_inb L k1_h1) (fun _ => rfl)).symm
  sl_for (invS m d L fo O W) $$ [Hmw Hs2 Hb1 Hs5 Hs3 Hs4 HxB HoB HO]
  case region =>
    intro k acc
    by_cases hk0 : k.val = 0
    · exact tripS_first m d L hb fo O W k hk0 _ _
    · by_cases hk3 : k.val = 3
      · exact tripS_last m d L hb fo O W k hk3 _ _
      · have hk4 : k.val < 4 := Nat.lt_of_lt_of_le k.isLt k1_t1_abs.2.1
        exact tripS_mid m d L hb fo O W k (by omega) (by omega) _ _
  · iapply (invS_init m d L fo O W)
    isplitl [Hmw]; · iexact Hmw
    isplitl [Hs2]
    · iapply (rd_convS m d L 0 _ rfl _ _ d0 _ eX0.symm); iexact Hs2
    isplitl [Hb1]; · iexact Hb1
    isplitl [Hs5]; · iexact Hs5
    isplitl [Hs3]; · iexact Hs3
    isplitl [Hs4]; · iexact Hs4
    isplitl [HxB]; · iexact HxB
    isplitl [HoB]; · iexact HoB
    iexact HO
  iintro %acc HI
  ihave HI := (invS_exit m d L fo O W _ (by decide) acc) $$ HI
  icases HI with ⟨⟨⟨%fb0', Hb0⟩, Hs2⟩, Hwr, Hs3, Hs4, HxA, HoA, %W', %hW', HO⟩
  unfold wrFlight1S
  sl_exec
  sl_step
  unfold tilePostS
  isplitl [HxA]; · iexact HxA
  isplitl [Hwr_dst HoA]
  · iapply (doneS_all m d L fo)
    isplitl [Hwr_dst]; · iexact Hwr_dst
    iexact HoA
  isplitl [Hb0]; · iexists _; iexact Hb0
  isplitl [Hwr_src]; · iexists _; iexact Hwr_src
  isplitl [Hs2]; · iexact Hs2
  isplitl [Hs3]; · iexact Hs3
  isplitl [Hs4]; · iexact Hs4
  isplitl [Hwr]; · iexact Hwr
  iexists (insert (wsem1, (default : HIx 1)) W'); isplitr
  · ipureintro
    intro p hp
    rcases Finset.mem_insert.mp hp with rfl | hp
    · exact .inr rfl
    · exact hW' p hp
  · iexact HO

end Tile
end Cert.Proof.KI
end
-- ==== Proof.KIObl.lean ====
/-
  The launch theorem's obligations for the vector subcores. What the go handshake hands a subcore is its task's share — its
  eight chunks of `src` (block 0) or of `x` (blocks 1..3) and its eight chunks of the result —, what its taskDone hands back
  the same with the result's chunks written. A SparseCore is handed the sixteen shares of its subcores, so its split among
  them is the identity. The subcore's scoped storage, which travels with the handshakes, is its two staging buffers and
  its four transfer semaphores, and whatever else it owns.
-/
import proofs.«202537_g10033043603743_week1_w1_89_23_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_arg0_scv : Memref Cert.KernelIdeal.sig Kind.scVector Space.hbm Cert.KernelIdeal.S32x16384x128 EltTy.f32)
local notation "sW" => (Memref.whole Cert.KernelIdeal.main_arg1_scv : Memref Cert.KernelIdeal.sig Kind.scVector Space.hbm Cert.KernelIdeal.S16384x128 EltTy.f32)
local notation "oW" => (Memref.whole Cert.KernelIdeal.main_v1_scv : Memref Cert.KernelIdeal.sig Kind.scVector Space.hbm Cert.KernelIdeal.S32x16384x128 EltTy.f32)
local notation "b0" => (Memref.whole Cert.KernelIdeal.cc1_scratch0 : Memref Cert.KernelIdeal.sig Kind.scVector Space.vmem Cert.KernelIdeal.S256x128 EltTy.f32)
local notation "b1" => (Memref.whole Cert.KernelIdeal.cc1_scratch1 : Memref Cert.KernelIdeal.sig Kind.scVector Space.vmem Cert.KernelIdeal.S256x128 EltTy.f32)

section Obl

variable [FloatOps F] (m : (ℓ : Loc nD τ sig) → Buf (Elt F) ℓ) (fo : (d : Dev nD) → Buf (Elt F) (oLoc d))

/-- The grid point of subcore `s` of SparseCore `c`. -/
abbrev coordsV (c : Fin (grid1.bound 0)) (s : Fin (grid1.bound 1)) : grid1.Coords :=
  fun | 0 => c | 1 => s | ⟨_ + 2, h⟩ => absurd h (Nat.not_lt.2 (Nat.le_add_left _ _))

/-- A task's share at its start and at its end. -/
def tileGo (d : Dev nD) (L : grid1.Coords) : sProp 𝕄 :=
  iprop((if blk L = 0 then bigSep (Finset.Ico 0 8) (sPc m d L) else bigSep (Finset.Ico 0 8) (xPc m d L))
    ∗ bigSep (Finset.Ico 0 8) (oPc d L fun _ => fo d))
def tileTd (d : Dev nD) (L : grid1.Coords) : sProp 𝕄 :=
  iprop((if blk L = 0 then bigSep (Finset.Ico 0 8) (sPc m d L) else bigSep (Finset.Ico 0 8) (xPc m d L))
    ∗ (if blk L = 0 then bigSep (Finset.Ico 0 8) (oPc d L fun n => oNewS m d L (fo d) (ch n))
        else bigSep (Finset.Ico 0 8) (oPc d L fun n => oNew m d L (fo d) (ch n))))

/-! ## The subcore's scoped storage -/

abbrev g0 (d : Dev nD) (L : grid1.Coords) : GSem nD τ sig := (Vt d L, rsem0)
abbrev g1 (d : Dev nD) (L : grid1.Coords) : GSem nD τ sig := (Vt d L, rsem1)
abbrev g2 (d : Dev nD) (L : grid1.Coords) : GSem nD τ sig := (Vt d L, wsem0)
abbrev g3 (d : Dev nD) (L : grid1.Coords) : GSem nD τ sig := (Vt d L, wsem1)

omit [FloatOps F] in
theorem mem_own (d : Dev nD) (L : grid1.Coords) (sm : DmaSem sig) (h : (SemLoc.dma sm : SemLoc sig).isScoped .scVector = true) :
    ((Vt d L, SemLoc.dma sm) : GSem nD τ sig) ∈ ownCells (Vt d L) := (mem_ownCells (g := (Vt d L, SemLoc.dma sm))).mpr ⟨rfl, h⟩

omit [FloatOps F] in
theorem ownSems0_V (d : Dev nD) (L : grid1.Coords) :
    (ownSems0 (Vt d L) : sProp 𝕄)
      = iprop(semVal (g0 d L) 0 ∗ semVal (g1 d L) 0 ∗ semVal (g2 d L) 0 ∗ semVal (g3 d L) 0
          ∗ bigSep (((((ownCells (Vt d L)).erase (g0 d L)).erase (g1 d L)).erase (g2 d L)).erase (g3 d L)) fun g => semVal g 0) := by
  unfold SparseCore.Cfg.ownSems0
  have n10 : g1 d L ≠ g0 d L := by simp [g0, g1]; decide
  have n20 : g2 d L ≠ g0 d L := by simp [g0, g2]; decide
  have n21 : g2 d L ≠ g1 d L := by simp [g1, g2]; decide
  have n30 : g3 d L ≠ g0 d L := by simp [g0, g3]; decide
  have n31 : g3 d L ≠ g1 d L := by simp [g1, g3]; decide
  have n32 : g3 d L ≠ g2 d L := by simp [g2, g3]; decide
  rw [SparseCore.bigSep_erase' (mem_own d L cc1_scratch2.sem (by decide)),
    SparseCore.bigSep_erase' (Finset.mem_erase.mpr ⟨n10, mem_own d L cc1_scratch3.sem (by decide)⟩),
    SparseCore.bigSep_erase' (Finset.mem_erase.mpr ⟨n21, Finset.mem_erase.mpr ⟨n20, mem_own d L cc1_scratch4.sem (by decide)⟩⟩),
    SparseCore.bigSep_erase' (Finset.mem_erase.mpr ⟨n32, Finset.mem_erase.mpr ⟨n31, Finset.mem_erase.mpr ⟨n30, mem_own d L cc1_scratch5.sem (by decide)⟩⟩⟩)]

omit [FloatOps F] in
theorem ownBufs_V (d : Dev nD) (L : grid1.Coords) :
    (ownBufs (Vt d L) : sProp 𝕄)
      = iprop((∃ f, (Vt d L).loc cc1_scratch0 ↦{fullShare} f) ∗ (∃ f, (Vt d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The task from its share to its share -/

theorem tile_task (hF : (K (F := F)).Facts) (d : Dev nD) (L : grid1.Coords) (O : CellTallies nD τ sig (HIx 1)) (W : Waits sig (HIx 1)) (hO : ∀ g, O g none = 0) :
    (iprop(levAts (K (F := F)).L (K (F := F)).lev ∗ emp ∗ tileGo m fo d L ∗ scopedBufs (Vt d L) ∗ scopedSems0 (Vt d L) ∗ owes (Vt d L) O W) : sProp 𝕄)
      ⊢ wp frame (wpE (defs₀ (F := F)) 𝒱₀ (Vt d L) none) Set.univ
          (cc1__sc_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5)
          fun _ => iprop(tileTd m fo d L ∗ scopedBufs (Vt d L) ∗ scopedSems0 (Vt d L)
            ∗ ∃ W', ⌜∀ p ∈ W', p ∈ W ∨ p.2 = none⌝ ∗ owes (Vt d L) O W') := by
  rw [(K (F := F)).scopedBufs_V hF d (cV L) (jV L), SparseCore.Cfg.scopedSems0_V (Val := Elt F) d (cV L) (jV L), ownSems0_V, ownBufs_V]
  unfold tileGo tileTd
  by_cases hb : blk L = 0
  · rw [if_pos hb, if_pos hb]
    iintro ⟨#Hlv, -, ⟨Hs, Ho⟩, ⟨Hb0, Hb1, Hbufs⟩, ⟨Hs2, Hs3, Hs4, Hs5, Hsems⟩, HO⟩
    ihave Hmw := ((K (F := F)).mayWaits_none (thr := Vt d L) hO) $$ Hlv
    iapply (wp_wand_r frame _ _)
    isplitl [Hmw Hs Ho Hb0 Hb1 Hs2 Hs3 Hs4 Hs5 HO]
    · iapply (tile_body_s m d L hb (fo d) O W)
      unfold tilePreS
      isplitl [Hmw]; · iexact Hmw
      isplitl [Hs]; · iexact Hs
      isplitl [Ho]; · iexact Ho
      isplitl [Hb0]; · iexact Hb0
      isplitl [Hb1]; · iexact Hb1
      isplitl [Hs2]; · iexact Hs2
      isplitl [Hs3]; · iexact Hs3
      isplitl [Hs4]; · iexact Hs4
      isplitl [Hs5]; · iexact Hs5
      iexact HO
    · iintro %_ Hpost
      unfold tilePostS
      icases Hpost with ⟨Hs, Ho, Hb0, Hb1, Hs2, Hs3, Hs4, Hs5, HO⟩
      isplitl [Hs Ho]
      · isplitl [Hs]; · iexact Hs
        iexact Ho
      isplitl [Hb0 Hb1 Hbufs]
      · isplitl [Hb0]; · iexact Hb0
        isplitl [Hb1]; · iexact Hb1
        iexact Hbufs
      isplitl [Hs2 Hs3 Hs4 Hs5 Hsems]
      · isplitl [Hs2]; · iexact Hs2
        isplitl [Hs3]; · iexact Hs3
        isplitl [Hs4]; · iexact Hs4
        isplitl [Hs5]; · iexact Hs5
        iexact Hsems
      iexact HO
  · rw [if_neg hb, if_neg hb]
    iintro ⟨#Hlv, -, ⟨Hs, Ho⟩, ⟨Hb0, Hb1, Hbufs⟩, ⟨Hs2, Hs3, Hs4, Hs5, Hsems⟩, HO⟩
    ihave Hmw := ((K (F := F)).mayWaits_none (thr := Vt d L) hO) $$ Hlv
    iapply (wp_wand_r frame _ _)
    isplitl [Hmw Hs Ho Hb0 Hb1 Hs2 Hs3 Hs4 Hs5 HO]
    · iapply (tile_body_x m d L hb (fo d) O W)
      unfold tilePreX
      isplitl [Hmw]; · iexact Hmw
      isplitl [Hs]; · iexact Hs
      isplitl [Ho]; · iexact Ho
      isplitl [Hb0]; · iexact Hb0
      isplitl [Hb1]; · iexact Hb1
      isplitl [Hs2]; · iexact Hs2
      isplitl [Hs3]; · iexact Hs3
      isplitl [Hs4]; · iexact Hs4
      isplitl [Hs5]; · iexact Hs5
      iexact HO
    · iintro %_ Hpost
      unfold tilePostX
      icases Hpost with ⟨Hs, Ho, Hb0, Hb1, Hs2, Hs3, Hs4, Hs5, HO⟩
      isplitl [Hs Ho]
      · isplitl [Hs]; · iexact Hs
        iexact Ho
      isplitl [Hb0 Hb1 Hbufs]
      · isplitl [Hb0]; · iexact Hb0
        isplitl [Hb1]; · iexact Hb1
        iexact Hbufs
      isplitl [Hs2 Hs3 Hs4 Hs5 Hsems]
      · isplitl [Hs2]; · iexact Hs2
        isplitl [Hs3]; · iexact Hs3
        isplitl [Hs4]; · iexact Hs4
        isplitl [Hs5]; · iexact Hs5
        iexact Hsems
      iexact HO

/-! ## The handshakes' payloads -/

/-- The grid point of a subcore of the device. -/
abbrev LQ (c : Fin τ.nSC) (s : Fin τ.nSub) : grid1.Coords := coordsV ⟨c.val, c.isLt⟩ ⟨s.val, s.isLt⟩

instance tileGo_storable (d : Dev nD) (L : grid1.Coords) : BI.Storable (upEmb : UEmb _ 𝕄) (tileGo m fo d L) := by
  unfold tileGo; split <;> infer_instance
instance tileTd_storable (d : Dev nD) (L : grid1.Coords) : BI.Storable (upEmb : UEmb _ 𝕄) (tileTd m fo d L) := by
  unfold tileTd; split <;> infer_instance

/-- The one call hands SparseCore `c` the shares of its sixteen tasks and takes them back written; a task gets its own. Nothing
    else is consumed: the kernel's transfers run on its subcores' own semaphores. -/
def P : (K (F := F)).Pay (nD := nD) (Val := Elt F) (Name := ℕ) (U := UU) where
  st := fun q d c => bigSep Finset.univ fun i : Fin ((K (F := F)).nSub q) => tileGo m fo d (LQ ((K (F := F)).core q c) ((K (F := F)).sub q i))
  dn := fun q d c => bigSep Finset.univ fun i : Fin ((K (F := F)).nSub q) => tileTd m fo d (LQ ((K (F := F)).core q c) ((K (F := F)).sub q i))
  go := fun q d c i => tileGo m fo d (LQ ((K (F := F)).core q c) ((K (F := F)).sub q i))
  td := fun q d c i => tileTd m fo d (LQ ((K (F := F)).core q c) ((K (F := F)).sub q i))
  x := fun _ _ => iprop(emp)

instance P_storable : (P (F := F) m fo).IsStorable where
  st _ d c := by unfold P; infer_instance
  dn _ d c := by unfold P; infer_instance
  go _ _ _ _ := by unfold P; infer_instance
  td _ _ _ _ := by unfold P; infer_instance

/-! ## The launch theorem's obligations -/

theorem defs₀_vector (c : Fin τ.nSC) (s : Fin τ.nSub) :
    defs₀ (F := F) (.scVector c s) 1 ⟨⟩
      = SparseCore.onTile hcore1 hsub1 (fun c s => cc1__sc_body (coordsV c s) xW (Memref.isWhole_whole _) sW (Memref.isWhole_whole _) oW (Memref.isWhole_whole _) oW (Memref.isWhole_whole _)
          b0 (Memref.isWhole_whole _) b1 (Memref.isWhole_whole _) cc1_scratch2 cc1_scratch3 cc1_scratch4 cc1_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's kernel body is the task lifted through the pipeline library's table, at the subcore's grid point. -/
theorem tileObl (hF : (K (F := F)).Facts) : (K (F := F)).TileObl (D (F := F)) 𝒱 (P m fo) v₀ 0 := by
  intro d c i O W hO _ _
  simp only [show (P m fo).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_task m fo hF d (coordsV ⟨_, hc.1⟩ ⟨_, hc.2⟩) O W hO).trans (wp_mono frame _ _ fun _ => obl_post)

/-- A SparseCore's operands are its tasks' shares: nothing to split. -/
theorem vecSplit : (K (F := F)).VecSplit' (P m fo) 0 := by
  intro d c
  show (bigSep Finset.univ fun i : Fin ((K (F := F)).nSub 0) => tileGo m fo d (LQ ((K (F := F)).core 0 c) ((K (F := F)).sub 0 i)))
    ⊢ |={Set.univ}=> iprop((bigSep Finset.univ fun i : Fin ((K (F := F)).nSub 0) => tileGo m fo d (LQ ((K (F := F)).core 0 c) ((K (F := F)).sub 0 i)))
      ∗ ((bigSep Finset.univ fun i : Fin ((K (F := F)).nSub 0) => tileTd m fo d (LQ ((K (F := F)).core 0 c) ((K (F := F)).sub 0 i)))
        -∗ (bigSep Finset.univ fun i : Fin ((K (F := F)).nSub 0) => tileTd m fo d (LQ ((K (F := F)).core 0 c) ((K (F := F)).sub 0 i)))))
  iintro H; imodintro
  isplitl [H]; · iexact H
  iintro H; iexact H

end Obl

end Cert.Proof.KI

end
-- ==== Proof.KIValue.lean ====
/-
  The value a vector subcore's task leaves, entry by entry. A chunk of the result written from the matching chunk of `x`
  holds, at each of the chunk's elements, the entry of `x` at the same index: the two chunks sit at the same offsets of two
  arrays of the same shape. On a block other than block 0 that is the specification's entry.
-/
import proofs.«202537_g10033043603743_week1_w1_89_23_alg».proof.Proof.KITile
import proofs.«202537_g10033043603743_week1_w1_89_23_alg».proof.Proof.Spec

noncomputable section

namespace Cert.Proof.KI

open Cert.KernelIdeal Cert.KernelIdeal.Gen
open Idealize.ShloMosaic
open Idealize.ShloMosaic.SparseCore (S V T)

variable {F : FTy → Type} [FloatOps F] (m : (ℓ : Loc nD τ sig) → Buf (Elt F) ℓ) (d : Dev nD) (L : grid1.Coords)

/-- The elements of chunk `ci` of the result are those of its rectangle: block `blk L`, rows `base L + 256 ci` .. + 256, every column. -/
theorem mem_oCh_set (ci : Fin 8) (i : S32x16384x128.Idx) :
    i ∈ (oCh L ci).view.set ↔ ∀ a, chunkOff L ci.val a ≤ i a ∧ (i a : ℕ) < chunkOff L ci.val a + S1x256x128.size a := by
  show i ∈ (((View.whole main_v1_scv).slice (Rect.unit (s := S32x16384x128) (chunkOff L ci.val) S1x256x128.size (chunkOff_inb L ci))).reshape S256x128
    squeezes_S1x256x128_S256x128.numel_eq).set ↔ _
  rw [View.set_reshape, View.set_slice_whole, Rect.mem_set_unit]
  exact Iff.rfl

set_option maxHeartbeats 1000000 in
/-- At an element of the chunk, the written chunk holds the entry of `x` at the same index. -/
theorem oNew_apply (fo : Buf (Elt F) (oLoc d)) (ci : Fin 8) (i : S32x16384x128.Idx) (hi : i ∈ (oCh L ci).view.set) :
    oNew m d L fo ci i = m (xLoc d) i := by
  obtain ⟨j, -, rfl⟩ := Finset.mem_map.mp hi
  have e : (oCh L ci).view.emb j = ((oCh L ci).view.slice (Rect.whole S256x128)).emb j := by
    rw [View.emb_slice]
    show _ = (oCh L ci).view.emb ((Rect.whole S256x128).emb j)
    rw [Rect.emb_whole_apply]
  rw [e]
  show ((oCh L ci).view.slice (Rect.whole S256x128)).write (Elt F) fo (xData m d L ci) Finset.univ
    (((oCh L ci).view.slice (Rect.whole S256x128)).emb j) = _
  rw [View.write_emb_of_mem _ _ (Finset.mem_univ _)]
  show _root_.cast _ ((xCh L ci).view.read (Elt F) (m (xLoc d)) j) = _
  rw [View.read_apply, cast_cast, cast_eq]
  refine congrArg (m (xLoc d)) ?_
  rw [View.emb_slice]
  show (xCh L ci).view.emb j = (oCh L ci).view.emb ((Rect.whole S256x128).emb j)
  rw [Rect.emb_whole_apply]
  rfl

/-- On a block other than block 0 that is the specification's entry. -/
theorem oNew_spec (hb : ¬ blk L = 0) (fo : Buf (Elt F) (oLoc d)) (ci : Fin 8) (i : S32x16384x128.Idx) (hi : i ∈ (oCh L ci).view.set) :
    oNew m d L fo ci i = Cert.Spec.setBlock0 (m (xLoc d)) (m (sLoc d)) i := by
  rw [oNew_apply m d L fo ci i hi]
  have h0 := (mem_oCh_set L ci i).mp hi 0
  have : (i 0).val ≠ 0 := by
    have e : chunkOff L ci.val 0 = blk L := rfl
    have s : S1x256x128.size 0 = 1 := rfl
    rw [e, s] at h0
    omega
  exact (Cert.Spec.setBlock0_of_ne _ _ i this).symm

/-! ## Block 0: the chunks come from `src` -/

/-- Where entry `j` of chunk `ci` of the result sits in the stacked array: block `blk L`, row `base L + 256 ci + j₀`, column `j₁`. The chunk is
    the squeeze of a 1 × 256 × 128 slice, and the squeeze matches (r, c) with (0, r, c). -/
theorem oCh_emb (ci : Fin 8) (j : S256x128.Idx) :
    (((oCh L ci).view.emb j) 0 : ℕ) = blk L ∧ (((oCh L ci).view.emb j) 1 : ℕ) = base L + 256 * ci.val + (j 0).val
      ∧ (((oCh L ci).view.emb j) 2 : ℕ) = (j 1).val := by
  have e : (oCh L ci).view.emb j
      = (Rect.unit (s := S32x16384x128) (chunkOff L ci.val) S1x256x128.size (chunkOff_inb L ci)).emb
          (Shape.reshapeEquiv squeezes_S1x256x128_S256x128.numel_eq j) := rfl
  rw [e, Shape.reshapeEquiv_cons_one]
  refine ⟨?_, ?_, ?_⟩
  · show chunkOff L ci.val 0 + 1 * 0 = blk L
    simp
  · show chunkOff L ci.val 1 + 1 * (j 0).val = base L + 256 * ci.val + (j 0).val
    simp
  · show chunkOff L ci.val 2 + 1 * (j 1).val = (j 1).val
    simp

/-- Entry `j` of chunk `ci` of `src` sits at row `base L + 256 ci + j₀`, column `j₁`. -/
theorem sCh_emb (ci : Fin 8) (j : S256x128.Idx) :
    (((sCh L ci).view.emb j) 0 : ℕ) = base L + 256 * ci.val + (j 0).val ∧ (((sCh L ci).view.emb j) 1 : ℕ) = (j 1).val := by
  refine ⟨?_, ?_⟩
  · show srcOff L ci.val 0 + 1 * (j 0).val = base L + 256 * ci.val + (j 0).val
    simp
  · show srcOff L ci.val 1 + 1 * (j 1).val = (j 1).val
    simp

set_option maxHeartbeats 1000000 in
/-- At an element of the chunk, the chunk written from `src` holds the entry of `src` at the element's row and column. -/
theorem oNewS_apply (fo : Buf (Elt F) (oLoc d)) (ci : Fin 8) (i : S32x16384x128.Idx) (hi : i ∈ (oCh L ci).view.set) :
    oNewS m d L fo ci i = m (sLoc d) (Cert.Spec.within i) := by
  obtain ⟨j, -, rfl⟩ := Finset.mem_map.mp hi
  have e : (oCh L ci).view.emb j = ((oCh L ci).view.slice (Rect.whole S256x128)).emb j := by
    rw [View.emb_slice]
    show _ = (oCh L ci).view.emb ((Rect.whole S256x128).emb j)
    rw [Rect.emb_whole_apply]
  have hw : (sCh L ci).view.emb j = Cert.Spec.within ((oCh L ci).view.emb j) := by
    obtain ⟨-, o1, o2⟩ := oCh_emb L ci j
    obtain ⟨s0, s1⟩ := sCh_emb L ci j
    funext a
    match a with
    | ⟨0, _⟩ => exact Fin.ext (s0.trans o1.symm)
    | ⟨1, _⟩ => exact Fin.ext (s1.trans o2.symm)
  rw [← hw]
  conv_lhs => rw [e]
  show ((oCh L ci).view.slice (Rect.whole S256x128)).write (Elt F) fo (sData m d L ci) Finset.univ
    (((oCh L ci).view.slice (Rect.whole S256x128)).emb j) = _
  rw [View.write_emb_of_mem _ _ (Finset.mem_univ _)]
  show _root_.cast _ ((sCh L ci).view.read (Elt F) (m (sLoc d)) j) = _
  rw [View.read_apply, cast_cast, cast_eq]

/-- On block 0 that is the specification's entry. -/
theorem oNewS_spec (hb : blk L = 0) (fo : Buf (Elt F) (oLoc d)) (ci : Fin 8) (i : S32x16384x128.Idx) (hi : i ∈ (oCh L ci).view.set) :
    oNewS m d L fo ci i = Cert.Spec.setBlock0 (m (xLoc d)) (m (sLoc d)) i := by
  rw [oNewS_apply m d L fo ci i hi]
  have h0 := (mem_oCh_set L ci i).mp hi 0
  have : (i 0).val = 0 := by
    have e : chunkOff L ci.val 0 = blk L := rfl
    have s : S1x256x128.size 0 = 1 := rfl
    rw [e, s, hb] at h0
    omega
  unfold Cert.Spec.setBlock0
  rw [if_pos this]

end Cert.Proof.KI

end
-- ==== Proof.KIShare.lean ====
/-
  The three arrays cut into the tasks' shares, and joined back.

  The result's blocks 0..3 are the 2 × 16 × 8 chunks of the tasks: task (c, s) is worker w = 2 s + c, its block w / 8, its stripe
  rows 2048 (w mod 8) .. + 2048, its chunk n rows + 256 n .. + 256. Two different (worker, chunk) pairs give disjoint sets of
  elements, and every element of blocks 0..3 lies in exactly one. The chunks of `x` handed out are the same sets, for the workers
  of blocks 1..3; the chunks of `src` are the 8 × 8 chunks of its rows, for the workers of block 0. What comes back written —
  each chunk holding the specification's entries — with the untouched blocks 4..31, which hold `x`'s entries, is the
  specification.
-/
import proofs.«202537_g10033043603743_week1_w1_89_23_alg».proof.Proof.KIObl
import proofs.«202537_g10033043603743_week1_w1_89_23_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The chunks' elements, by coordinates -/

/-- The grid point of subcore `i` of SparseCore `c`, and a (task, chunk) pair. -/
abbrev Lt (c : Fin 2) (i : Fin 16) : grid1.Coords := coordsV ⟨c.val, c.isLt⟩ ⟨i.val, i.isLt⟩
abbrev TC : Type := (Fin 2 × Fin 16) × ℕ
abbrev tcs : Finset TC := (Finset.univ : Finset (Fin 2 × Fin 16)) ×ˢ Finset.Ico 0 8

/-- The elements of a task's chunk of the stacked arrays. -/
abbrev cSet (j : TC) : Finset S32x16384x128.Idx := (oCh (Lt j.1.1 j.1.2) (ch j.2)).view.set

theorem wk_Lt (c : Fin 2) (i : Fin 16) : wk (Lt c i) = 2 * i.val + c.val := rfl

theorem mem_cSet (j : TC) (hn : j.2 < 8) (x : S32x16384x128.Idx) :
    x ∈ cSet j ↔ (x 0).val = (2 * j.1.2.val + j.1.1.val) / 8
      ∧ 2048 * ((2 * j.1.2.val + j.1.1.val) % 8) + 256 * j.2 ≤ (x 1).val ∧ (x 1).val < 2048 * ((2 * j.1.2.val + j.1.1.val) % 8) + 256 * j.2 + 256 := by
  unfold cSet
  rw [mem_oCh_set]
  have hv : (ch j.2).val = j.2 := ch_val hn
  constructor
  · intro h
    have h0 := h 0; have h1 := h 1
    have e0 : chunkOff (Lt j.1.1 j.1.2) (ch j.2).val 0 = (2 * j.1.2.val + j.1.1.val) / 8 := rfl
    have e1 : chunkOff (Lt j.1.1 j.1.2) (ch j.2).val 1 = 2048 * ((2 * j.1.2.val + j.1.1.val) % 8) + 256 * (ch j.2).val := rfl
    have s0 : S1x256x128.size 0 = 1 := rfl
    have s1 : S1x256x128.size 1 = 256 := rfl
    rw [e0, s0] at h0; rw [e1, s1, hv] at h1
    omega
  · rintro ⟨h0, h1, h2⟩ a
    match a with
    | ⟨0, _⟩ =>
      show (2 * j.1.2.val + j.1.1.val) / 8 ≤ (x 0).val ∧ (x 0).val < (2 * j.1.2.val + j.1.1.val) / 8 + 1
      omega
    | ⟨1, _⟩ =>
      show 2048 * ((2 * j.1.2.val + j.1.1.val) % 8) + 256 * (ch j.2).val ≤ (x 1).val ∧ (x 1).val < 2048 * ((2 * j.1.2.val + j.1.1.val) % 8) + 256 * (ch j.2).val + 256
      rw [hv]; omega
    | ⟨2, _⟩ =>
      show 0 ≤ (x 2).val ∧ (x 2).val < 0 + 128
      have := (x 2).isLt
      exact ⟨Nat.zero_le _, by simpa using this⟩

/-- Two different (task, chunk) pairs have no element in common. -/
theorem cSet_disjoint : ∀ j ∈ tcs, ∀ j' ∈ tcs, j ≠ j' → Disjoint (cSet j) (cSet j') := by
  intro j hj j' hj' hne
  have hn : j.2 < 8 := (Finset.mem_Ico.mp (Finset.mem_product.mp hj).2).2
  have hn' : j'.2 < 8 := (Finset.mem_Ico.mp (Finset.mem_product.mp hj').2).2
  refine Finset.disjoint_left.mpr fun x hx hx' => hne ?_
  have h := (mem_cSet j hn x).mp hx
  have h' := (mem_cSet j' hn' x).mp hx'
  have c1 := j.1.1.isLt; have c2 := j'.1.1.isLt; have i1 := j.1.2.isLt; have i2 := j'.1.2.isLt
  have ec : j.1.1.val = j'.1.1.val := by omega
  have ei : j.1.2.val = j'.1.2.val := by omega
  have en : j.2 = j'.2 := by omega
  exact Prod.ext (Prod.ext (Fin.ext ec) (Fin.ext ei)) en

/-- The chunks cover exactly blocks 0..3. -/
theorem cSet_cover : tcs.biUnion cSet = (Finset.univ.filter fun x : S32x16384x128.Idx => (x 0).val < 4) := by
  ext x
  simp only [Finset.mem_biUnion, Finset.mem_filter, Finset.mem_univ, true_and]
  constructor
  · rintro ⟨j, hj, hx⟩
    have hn : j.2 < 8 := (Finset.mem_Ico.mp (Finset.mem_product.mp hj).2).2
    have h := (mem_cSet j hn x).mp hx
    have c1 := j.1.1.isLt; have i1 := j.1.2.isLt
    omega
  · intro h0
    have h1 : (x 1).val < 16384 := (x 1).isLt
    refine ⟨((⟨(8 * (x 0).val + (x 1).val / 2048) % 2, Nat.mod_lt _ (by decide)⟩, ⟨(8 * (x 0).val + (x 1).val / 2048) / 2, by omega⟩), ((x 1).val % 2048) / 256), ?_, ?_⟩
    · refine Finset.mem_product.mpr ⟨Finset.mem_univ _, Finset.mem_Ico.mpr ⟨Nat.zero_le _, ?_⟩⟩
      show ((x 1).val % 2048) / 256 < 8
      omega
    · refine (mem_cSet _ (by show ((x 1).val % 2048) / 256 < 8; omega) x).mpr ?_
      show (x 0).val = (2 * ((8 * (x 0).val + (x 1).val / 2048) / 2) + (8 * (x 0).val + (x 1).val / 2048) % 2) / 8
        ∧ 2048 * ((2 * ((8 * (x 0).val + (x 1).val / 2048) / 2) + (8 * (x 0).val + (x 1).val / 2048) % 2) % 8) + 256 * (((x 1).val % 2048) / 256) ≤ (x 1).val
        ∧ (x 1).val < 2048 * ((2 * ((8 * (x 0).val + (x 1).val / 2048) / 2) + (8 * (x 0).val + (x 1).val / 2048) % 2) % 8) + 256 * (((x 1).val % 2048) / 256) + 256
      omega

/-! ## The chunks of `src` -/

abbrev sSet (j : TC) : Finset S16384x128.Idx := (sCh (Lt j.1.1 j.1.2) (ch j.2)).view.set

theorem mem_sSet (j : TC) (hn : j.2 < 8) (y : S16384x128.Idx) :
    y ∈ sSet j ↔ 2048 * ((2 * j.1.2.val + j.1.1.val) % 8) + 256 * j.2 ≤ (y 0).val ∧ (y 0).val < 2048 * ((2 * j.1.2.val + j.1.1.val) % 8) + 256 * j.2 + 256 := by
  unfold sSet
  show y ∈ ((View.whole main_arg1_scv).slice (Rect.unit (s := S16384x128) (srcOff (Lt j.1.1 j.1.2) (ch j.2).val) S256x128.size (srcOff_inb (Lt j.1.1 j.1.2) (ch j.2)))).set ↔ _
  rw [View.set_slice_whole, Rect.mem_set_unit]
  have hv : (ch j.2).val = j.2 := ch_val hn
  constructor
  · intro h
    have h0 := h 0
    have e0 : srcOff (Lt j.1.1 j.1.2) (ch j.2).val 0 = 2048 * ((2 * j.1.2.val + j.1.1.val) % 8) + 256 * (ch j.2).val := rfl
    have s0 : S256x128.size 0 = 256 := rfl
    rw [e0, s0, hv] at h0
    exact h0
  · rintro ⟨h0, h1⟩ a
    match a with
    | ⟨0, _⟩ =>
      show 2048 * ((2 * j.1.2.val + j.1.1.val) % 8) + 256 * (ch j.2).val ≤ (y 0).val ∧ (y 0).val < 2048 * ((2 * j.1.2.val + j.1.1.val) % 8) + 256 * (ch j.2).val + 256
      rw [hv]; exact ⟨h0, h1⟩
    | ⟨1, _⟩ =>
      show 0 ≤ (y 1).val ∧ (y 1).val < 0 + 128
      have := (y 1).isLt
      exact ⟨Nat.zero_le _, by simpa using this⟩

/-! ## The source chunks handed out: of `src` to block 0's workers, of `x` to the others -/

abbrev blkOf (j : TC) : ℕ := (2 * j.1.2.val + j.1.1.val) / 8
theorem blk_Lt (j : TC) : blk (Lt j.1.1 j.1.2) = blkOf j := rfl

abbrev xSetG (j : TC) : Finset S32x16384x128.Idx := if blkOf j = 0 then ∅ else cSet j
abbrev sSetG (j : TC) : Finset S16384x128.Idx := if blkOf j = 0 then sSet j else ∅

theorem xSetG_disjoint : ∀ j ∈ tcs, ∀ j' ∈ tcs, j ≠ j' → Disjoint (xSetG j) (xSetG j') := by
  intro j hj j' hj' hne
  unfold xSetG
  split
  · exact Finset.disjoint_empty_left _
  · split
    · exact Finset.disjoint_empty_right _
    · exact cSet_disjoint j hj j' hj' hne

theorem sSetG_disjoint : ∀ j ∈ tcs, ∀ j' ∈ tcs, j ≠ j' → Disjoint (sSetG j) (sSetG j') := by
  intro j hj j' hj' hne
  unfold sSetG
  split
  · next hb =>
    split
    · next hb' =>
      have hn : j.2 < 8 := (Finset.mem_Ico.mp (Finset.mem_product.mp hj).2).2
      have hn' : j'.2 < 8 := (Finset.mem_Ico.mp (Finset.mem_product.mp hj').2).2
      refine Finset.disjoint_left.mpr fun y hy hy' => hne ?_
      have h := (mem_sSet j hn y).mp hy
      have h' := (mem_sSet j' hn' y).mp hy'
      have c1 := j.1.1.isLt; have c2 := j'.1.1.isLt; have i1 := j.1.2.isLt; have i2 := j'.1.2.isLt
      unfold blkOf at hb hb'
      have ec : j.1.1.val = j'.1.1.val := by omega
      have ei : j.1.2.val = j'.1.2.val := by omega
      have en : j.2 = j'.2 := by omega
      exact Prod.ext (Prod.ext (Fin.ext ec) (Fin.ext ei)) en
    · exact Finset.disjoint_empty_right _
  · exact Finset.disjoint_empty_left _

/-! ## Carving a family of disjoint sets of elements out of a whole array, and putting it back -/

omit F in
theorem carve {F : FTy → Type} {ℓ : Loc nD τ sig} (f : Buf (Elt F) ℓ) {T : Type} (S : Finset T) (Kf : T → Finset (Idx ℓ))
    (h : ∀ t ∈ S, ∀ t' ∈ S, t ≠ t' → Disjoint (Kf t) (Kf t')) :
    (ℓ ↦{fullShare} f : sProp (MT nD τ sig (HIx 1) (Elt F) ℕ UU ℕ))
      ⊢ iprop((bigSep S fun t => ℓ ↦[Kf t]{fullShare} f) ∗ ((bigSep S fun t => ℓ ↦[Kf t]{fullShare} f) -∗ ℓ ↦{fullShare} f)) := by
  have hs : (ℓ ↦{fullShare} f : sProp (MT nD τ sig (HIx 1) (Elt F) ℕ UU ℕ))
      ⊣⊢ iprop((ℓ ↦[S.biUnion Kf]{fullShare} f) ∗ ℓ ↦[Finset.univ \ S.biUnion Kf]{fullShare} f) :=
    pointsTo_split_subset (Finset.subset_univ (S.biUnion Kf))
  rw [pointsTo_biUnion S Kf h] at hs
  iintro H
  ihave H := hs.1 $$ H
  icases H with ⟨Hin, Hrest⟩
  isplitl [Hin]; · iexact Hin
  iintro Hin
  iapply hs.2
  isplitl [Hin]; · iexact Hin
  iexact Hrest

/-! ## A task's share from, and to, its chunks as sets of elements -/

section Share

variable [FloatOps F] (m : (ℓ : Loc nD τ sig) → Buf (Elt F) ℓ) (d : Dev nD)

/-- The region's result buffer after the ring copy: blocks 4..31 of `x`, blocks 0..3 as the launch left them. -/
def tcOut : Buf (Elt F) (pLoc d) := fun i => if 4 ≤ (i 0).val then m (xLoc d) i else m (pLoc d) i
/-- The same contents, in the result's buffer. -/
abbrev foT (d : Dev nD) : Buf (Elt F) (oLoc d) := tcOut m d
/-- The specification: `x` with block 0 replaced by `src`. -/
abbrev finalOut : Buf (Elt F) (oLoc d) := Cert.Spec.setBlock0 (m (xLoc d)) (m (sLoc d))

abbrev PP : (K (F := F)).Pay (nD := nD) (Val := Elt F) (Name := ℕ) (U := UU) := P m (foT m)

abbrev xPts : sProp 𝕄 := xLoc d ↦{fullShare} m (xLoc d)
abbrev sPts : sProp 𝕄 := sLoc d ↦{fullShare} m (sLoc d)

/-- The three pieces of a (task, chunk) pair, as sets of elements; the result's at contents `f`. -/
abbrev pcs (f : Buf (Elt F) (oLoc d)) (j : TC) : sProp 𝕄 :=
  iprop((xLoc d ↦[xSetG j]{fullShare} m (xLoc d)) ∗ (sLoc d ↦[sSetG j]{fullShare} m (sLoc d)) ∗ (oLoc d ↦[cSet j]{fullShare} f))

theorem pc_go_s (ci : Fin 2 × Fin 16) (n : ℕ) (hb : blk (Lt ci.1 ci.2) = 0) :
    pcs m d (foT m d) (ci, n) ⊢ iprop(sPc m d (Lt ci.1 ci.2) n ∗ oPc d (Lt ci.1 ci.2) (fun _ => foT m d) n) := by
  have e1 : xSetG (ci, n) = ∅ := if_pos hb
  have e2 : sSetG (ci, n) = sSet (ci, n) := if_pos hb
  unfold pcs; rw [e1, e2]
  iintro ⟨-, Hs, Ho⟩
  isplitl [Hs]; · iexact Hs
  iexact Ho
theorem pc_go_x (ci : Fin 2 × Fin 16) (n : ℕ) (hb : ¬ blk (Lt ci.1 ci.2) = 0) :
    pcs m d (foT m d) (ci, n) ⊢ iprop(xPc m d (Lt ci.1 ci.2) n ∗ oPc d (Lt ci.1 ci.2) (fun _ => foT m d) n) := by
  have e1 : xSetG (ci, n) = cSet (ci, n) := if_neg hb
  unfold pcs; rw [e1]
  iintro ⟨Hx, -, Ho⟩
  isplitl [Hx]; · iexact Hx
  iexact Ho
theorem pc_td_s (ci : Fin 2 × Fin 16) (n : ℕ) (hb : blk (Lt ci.1 ci.2) = 0) :
    iprop(sPc m d (Lt ci.1 ci.2) n ∗ oPc d (Lt ci.1 ci.2) (fun n => oNewS m d (Lt ci.1 ci.2) (foT m d) (ch n)) n) ⊢ pcs m d (finalOut m d) (ci, n) := by
  have e1 : xSetG (ci, n) = ∅ := if_pos hb
  have e2 : sSetG (ci, n) = sSet (ci, n) := if_pos hb
  unfold pcs; rw [e1, e2, pointsTo_empty]
  iintro ⟨Hs, Ho⟩
  isplitr; · iempintro
  isplitl [Hs]; · iexact Hs
  iapply (Entails.of_eq (pointsTo_congr (fun i hi => oNewS_spec m d (Lt ci.1 ci.2) hb (foT m d) (ch n) i hi)))
  iexact Ho
theorem pc_td_x (ci : Fin 2 × Fin 16) (n : ℕ) (hb : ¬ blk (Lt ci.1 ci.2) = 0) :
    iprop(xPc m d (Lt ci.1 ci.2) n ∗ oPc d (Lt ci.1 ci.2) (fun n => oNew m d (Lt ci.1 ci.2) (foT m d) (ch n)) n) ⊢ pcs m d (finalOut m d) (ci, n) := by
  have e1 : xSetG (ci, n) = cSet (ci, n) := if_neg hb
  have e2 : sSetG (ci, n) = ∅ := if_neg hb
  unfold pcs; rw [e1, e2, pointsTo_empty]
  iintro ⟨Hx, Ho⟩
  isplitl [Hx]; · iexact Hx
  isplitr; · iempintro
  iapply (Entails.of_eq (pointsTo_congr (fun i hi => oNew_spec m d (Lt ci.1 ci.2) hb (foT m d) (ch n) i hi)))
  iexact Ho

theorem tile_go_of (ci : Fin 2 × Fin 16) :
    (bigSep (Finset.Ico 0 8) fun n => pcs m d (foT m d) (ci, n)) ⊢ tileGo m (foT m) d (Lt ci.1 ci.2) := by
  unfold tileGo
  by_cases hb : blk (Lt ci.1 ci.2) = 0
  · rw [if_pos hb, ← bigSep_sep']
    exact bigSep_mono fun n _ => pc_go_s m d ci n hb
  · rw [if_neg hb, ← bigSep_sep']
    exact bigSep_mono fun n _ => pc_go_x m d ci n hb

theorem tile_td_to (ci : Fin 2 × Fin 16) :
    tileTd m (foT m) d (Lt ci.1 ci.2) ⊢ bigSep (Finset.Ico 0 8) fun n => pcs m d (finalOut m d) (ci, n) := by
  unfold tileTd
  by_cases hb : blk (Lt ci.1 ci.2) = 0
  · rw [if_pos hb, if_pos hb, ← bigSep_sep']
    exact bigSep_mono fun n _ => pc_td_s m d ci n hb
  · rw [if_neg hb, if_neg hb, ← bigSep_sep']
    exact bigSep_mono fun n _ => pc_td_x m d ci n hb

/-! ## All the tasks at once -/

theorem st_all : (bigSep Finset.univ fun c : Fin ((K (F := F)).nCore 0) => (PP m).st 0 d c)
    = bigSep (Finset.univ : Finset (Fin 2 × Fin 16)) fun ci => tileGo m (foT m) d (Lt ci.1 ci.2) := by
  rw [bigSep_univ_prod]; rfl
theorem dn_all : (bigSep Finset.univ fun c : Fin ((K (F := F)).nCore 0) => (PP m).dn 0 d c)
    = bigSep (Finset.univ : Finset (Fin 2 × Fin 16)) fun ci => tileTd m (foT m) d (Lt ci.1 ci.2) := by
  rw [bigSep_univ_prod]; rfl

theorem go_all : (bigSep tcs (pcs m d (foT m d)))
    ⊢ bigSep (Finset.univ : Finset (Fin 2 × Fin 16)) fun ci => tileGo m (foT m) d (Lt ci.1 ci.2) := by
  unfold tcs
  rw [SparseCore.bigSep_product]
  exact bigSep_mono fun ci _ => tile_go_of m d ci
theorem td_all : (bigSep (Finset.univ : Finset (Fin 2 × Fin 16)) fun ci => tileTd m (foT m) d (Lt ci.1 ci.2))
    ⊢ bigSep tcs (pcs m d (finalOut m d)) := by
  unfold tcs
  rw [SparseCore.bigSep_product]
  exact bigSep_mono fun ci _ => tile_td_to m d ci

theorem go_all' : iprop((bigSep tcs fun j => xLoc d ↦[xSetG j]{fullShare} m (xLoc d)) ∗ (bigSep tcs fun j => sLoc d ↦[sSetG j]{fullShare} m (sLoc d))
      ∗ (oLoc d ↦[tcs.biUnion cSet]{fullShare} foT m d))
    ⊢ bigSep (Finset.univ : Finset (Fin 2 × Fin 16)) fun ci => tileGo m (foT m) d (Lt ci.1 ci.2) := by
  rw [pointsTo_biUnion (ℓ := oLoc d) tcs cSet cSet_disjoint, ← bigSep_sep', ← bigSep_sep']
  exact go_all m d
theorem td_all' : (bigSep (Finset.univ : Finset (Fin 2 × Fin 16)) fun ci => tileTd m (foT m) d (Lt ci.1 ci.2))
    ⊢ iprop((bigSep tcs fun j => xLoc d ↦[xSetG j]{fullShare} m (xLoc d)) ∗ (bigSep tcs fun j => sLoc d ↦[sSetG j]{fullShare} m (sLoc d))
      ∗ (oLoc d ↦[tcs.biUnion cSet]{fullShare} finalOut m d)) := by
  rw [pointsTo_biUnion (ℓ := oLoc d) tcs cSet cSet_disjoint, ← bigSep_sep', ← bigSep_sep']
  exact td_all m d

/-- Off blocks 0..3 the region's result already holds the specification's entries. -/
theorem high_eq (i : S32x16384x128.Idx) (hi : i ∈ Finset.univ \ tcs.biUnion cSet) : foT m d i = finalOut m d i := by
  rw [cSet_cover] at hi
  have h4 : ¬ (i 0).val < 4 := fun h => (Finset.mem_sdiff.mp hi).2 (Finset.mem_filter.mpr ⟨Finset.mem_univ _, h⟩)
  show (if 4 ≤ (i 0).val then m (xLoc d) i else m (pLoc d) i) = _
  rw [if_pos (by omega)]
  exact (Cert.Spec.setBlock0_of_ne _ _ i (by omega)).symm

/-- The three arrays cut into the tasks' shares, and back. -/
theorem share_split :
    iprop(xPts m d ∗ sPts m d ∗ (oLoc d ↦{fullShare} foT m d))
      ⊢ iprop((bigSep Finset.univ fun c : Fin ((K (F := F)).nCore 0) => (PP m).st 0 d c)
        ∗ ((bigSep Finset.univ fun c : Fin ((K (F := F)).nCore 0) => (PP m).dn 0 d c)
            -∗ iprop(xPts m d ∗ sPts m d ∗ (oLoc d ↦{fullShare} finalOut m d)))) := by
  rw [st_all, dn_all]
  have ho : (oLoc d ↦{fullShare} foT m d : sProp 𝕄)
      ⊣⊢ iprop((oLoc d ↦[tcs.biUnion cSet]{fullShare} foT m d) ∗ oLoc d ↦[Finset.univ \ tcs.biUnion cSet]{fullShare} foT m d) :=
    pointsTo_split_subset (Finset.subset_univ _)
  have ho' : (oLoc d ↦{fullShare} finalOut m d : sProp 𝕄)
      ⊣⊢ iprop((oLoc d ↦[tcs.biUnion cSet]{fullShare} finalOut m d) ∗ oLoc d ↦[Finset.univ \ tcs.biUnion cSet]{fullShare} finalOut m d) :=
    pointsTo_split_subset (Finset.subset_univ _)
  iintro ⟨Hx, Hs, Ho⟩
  ihave Hx := (carve (m (xLoc d)) tcs xSetG xSetG_disjoint) $$ Hx
  icases Hx with ⟨HxT, HxB⟩
  ihave Hs := (carve (m (sLoc d)) tcs sSetG sSetG_disjoint) $$ Hs
  icases Hs with ⟨HsT, HsB⟩
  ihave Ho := ho.1 $$ Ho
  icases Ho with ⟨HoT, HoH⟩
  isplitl [HxT HsT HoT]
  · iapply (go_all' m d)
    isplitl [HxT]; · iexact HxT
    isplitl [HsT]; · iexact HsT
    iexact HoT
  iintro Hdn
  ihave H := (td_all' m d) $$ Hdn
  icases H with ⟨HxT, HsT, HoT⟩
  isplitl [HxT HxB]; · iapply HxB; iexact HxT
  isplitl [HsT HsB]; · iapply HsB; iexact HsT
  iapply ho'.2
  isplitl [HoT]; · iexact HoT
  iapply (Entails.of_eq (pointsTo_congr (high_eq m d)))
  iexact HoH

end Share

end Cert.Proof.KI

end
-- ==== Proof.KITcRing.lean ====
/-
  The ring copy on the TensorCore. Chunk n (0 ≤ n < 112) is rows 4096 (n mod 4) .. + 4096 of block 4 + n / 4. Chunk n goes through
  staging buffer n mod 16: it is read from `x` into the buffer on the buffer's read semaphore and written from it to the same rows
  of the region's result on the buffer's write semaphore. Eight reads are started ahead; trip g of the loop (0 ≤ g < 7) handles chunks
  16 g .. 16 g + 15 in order — wait for the chunk's read, start its write, wait for the write of the chunk eight back (there is one
  from chunk 8 on), start the read of the chunk eight on (while there is one) —; the last eight writes are waited for after the loop.
-/
import proofs.«202537_g10033043603743_week1_w1_89_23_alg».proof.Proof.KIShare
import proofs.«202537_g10033043603743_week1_w1_89_23_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xT" => (Memref.whole Cert.KernelIdeal.main_arg0 : Memref Cert.KernelIdeal.sig Kind.tc Space.hbm Cert.KernelIdeal.S32x16384x128 EltTy.f32)
local notation "pT" => (Memref.whole Cert.KernelIdeal.main_v0 : Memref Cert.KernelIdeal.sig Kind.tc Space.hbm Cert.KernelIdeal.S32x16384x128 EltTy.f32)
local notation "sl0" => (Memref.whole Cert.KernelIdeal.cc0_scratch0 : Memref Cert.KernelIdeal.sig Kind.tc Space.vmem Cert.KernelIdeal.S4096x128 EltTy.f32)
local notation "sl1" => (Memref.whole Cert.KernelIdeal.cc0_scratch1 : Memref Cert.KernelIdeal.sig Kind.tc Space.vmem Cert.KernelIdeal.S4096x128 EltTy.f32)
local notation "sl2" => (Memref.whole Cert.KernelIdeal.cc0_scratch2 : Memref Cert.KernelIdeal.sig Kind.tc Space.vmem Cert.KernelIdeal.S4096x128 EltTy.f32)
local notation "sl3" => (Memref.whole Cert.KernelIdeal.cc0_scratch3 : Memref Cert.KernelIdeal.sig Kind.tc Space.vmem Cert.KernelIdeal.S4096x128 EltTy.f32)
local notation "sl4" => (Memref.whole Cert.KernelIdeal.cc0_scratch4 : Memref Cert.KernelIdeal.sig Kind.tc Space.vmem Cert.KernelIdeal.S4096x128 EltTy.f32)
local notation "sl5" => (Memref.whole Cert.KernelIdeal.cc0_scratch5 : Memref Cert.KernelIdeal.sig Kind.tc Space.vmem Cert.KernelIdeal.S4096x128 EltTy.f32)
local notation "sl6" => (Memref.whole Cert.KernelIdeal.cc0_scratch6 : Memref Cert.KernelIdeal.sig Kind.tc Space.vmem Cert.KernelIdeal.S4096x128 EltTy.f32)
local notation "sl7" => (Memref.whole Cert.KernelIdeal.cc0_scratch7 : Memref Cert.KernelIdeal.sig Kind.tc Space.vmem Cert.KernelIdeal.S4096x128 EltTy.f32)
local notation "sl8" => (Memref.whole Cert.KernelIdeal.cc0_scratch8 : Memref Cert.KernelIdeal.sig Kind.tc Space.vmem Cert.KernelIdeal.S4096x128 EltTy.f32)
local notation "sl9" => (Memref.whole Cert.KernelIdeal.cc0_scratch9 : Memref Cert.KernelIdeal.sig Kind.tc Space.vmem Cert.KernelIdeal.S4096x128 EltTy.f32)
local notation "sl10" => (Memref.whole Cert.KernelIdeal.cc0_scratch10 : Memref Cert.KernelIdeal.sig Kind.tc Space.vmem Cert.KernelIdeal.S4096x128 EltTy.f32)
local notation "sl11" => (Memref.whole Cert.KernelIdeal.cc0_scratch11 : Memref Cert.KernelIdeal.sig Kind.tc Space.vmem Cert.KernelIdeal.S4096x128 EltTy.f32)
local notation "sl12" => (Memref.whole Cert.KernelIdeal.cc0_scratch12 : Memref Cert.KernelIdeal.sig Kind.tc Space.vmem Cert.KernelIdeal.S4096x128 EltTy.f32)
local notation "sl13" => (Memref.whole Cert.KernelIdeal.cc0_scratch13 : Memref Cert.KernelIdeal.sig Kind.tc Space.vmem Cert.KernelIdeal.S4096x128 EltTy.f32)
local notation "sl14" => (Memref.whole Cert.KernelIdeal.cc0_scratch14 : Memref Cert.KernelIdeal.sig Kind.tc Space.vmem Cert.KernelIdeal.S4096x128 EltTy.f32)
local notation "sl15" => (Memref.whole Cert.KernelIdeal.cc0_scratch15 : Memref Cert.KernelIdeal.sig Kind.tc Space.vmem Cert.KernelIdeal.S4096x128 EltTy.f32)

/-! ## The chunks, and the printed offsets and guards in closed form -/

abbrev tOff (n : ℕ) : Fin 3 → ℕ := ![4 + n / 4, 4096 * (n % 4), 0]
theorem tOff_inb : ∀ (n : Fin 112), ∀ a, tOff n.val a + S1x4096x128.size a ≤ S32x16384x128.size a := by decide +kernel
abbrev chT (n : ℕ) : Fin 112 := ⟨n % 112, Nat.mod_lt _ (by decide)⟩
theorem chT_val {n : ℕ} (h : n < 112) : (chT n).val = n := Nat.mod_eq_of_lt h

abbrev xC (n : Fin 112) : Memref sig .tc .hbm S4096x128 .f32 :=
  ((xT).slice (Rect.unit (s := S32x16384x128) (tOff n.val) S1x4096x128.size (tOff_inb n)) (fun _ => rfl)).squeeze S4096x128 squeezes_S1x4096x128_S4096x128
abbrev pC (n : Fin 112) : Memref sig .tc .hbm S4096x128 .f32 :=
  ((pT).slice (Rect.unit (s := S32x16384x128) (tOff n.val) S1x4096x128.size (tOff_inb n)) (fun _ => rfl)).squeeze S4096x128 squeezes_S1x4096x128_S4096x128

theorem tcond1 : ∀ k : Fin k0_t1_loop.trips, k0_cond1 k = 1#1 := by decide +kernel
theorem tcond2 : ∀ k : Fin k0_t1_loop.trips, k0_cond2 k = 1#1 ↔ 1 ≤ k.val := by decide +kernel
theorem tcond3 : ∀ k : Fin k0_t1_loop.trips, k0_cond3 k = 1#1 := by decide +kernel
theorem toff1 : ∀ k : Fin k0_t1_loop.trips, k0_off1 k = tOff (16 * k.val + 0) := by decide +kernel
theorem toff3 : ∀ k : Fin k0_t1_loop.trips, k0_off3 k = tOff (16 * k.val + 0 + 8) := by decide +kernel
theorem tcond4 : ∀ k : Fin k0_t1_loop.trips, k0_cond4 k = 1#1 := by decide +kernel
theorem tcond5 : ∀ k : Fin k0_t1_loop.trips, k0_cond5 k = 1#1 ↔ 1 ≤ k.val := by decide +kernel
theorem tcond6 : ∀ k : Fin k0_t1_loop.trips, k0_cond6 k = 1#1 := by decide +kernel
theorem toff4 : ∀ k : Fin k0_t1_loop.trips, k0_off4 k = tOff (16 * k.val + 1) := by decide +kernel
theorem toff6 : ∀ k : Fin k0_t1_loop.trips, k0_off6 k = tOff (16 * k.val + 1 + 8) := by decide +kernel
theorem tcond7 : ∀ k : Fin k0_t1_loop.trips, k0_cond7 k = 1#1 := by decide +kernel
theorem tcond8 : ∀ k : Fin k0_t1_loop.trips, k0_cond8 k = 1#1 ↔ 1 ≤ k.val := by decide +kernel
theorem tcond9 : ∀ k : Fin k0_t1_loop.trips, k0_cond9 k = 1#1 := by decide +kernel
theorem toff7 : ∀ k : Fin k0_t1_loop.trips, k0_off7 k = tOff (16 * k.val + 2) := by decide +kernel
theorem toff9 : ∀ k : Fin k0_t1_loop.trips, k0_off9 k = tOff (16 * k.val + 2 + 8) := by decide +kernel
theorem tcond10 : ∀ k : Fin k0_t1_loop.trips, k0_cond10 k = 1#1 := by decide +kernel
theorem tcond11 : ∀ k : Fin k0_t1_loop.trips, k0_cond11 k = 1#1 ↔ 1 ≤ k.val := by decide +kernel
theorem tcond12 : ∀ k : Fin k0_t1_loop.trips, k0_cond12 k = 1#1 := by decide +kernel
theorem toff10 : ∀ k : Fin k0_t1_loop.trips, k0_off10 k = tOff (16 * k.val + 3) := by decide +kernel
theorem toff12 : ∀ k : Fin k0_t1_loop.trips, k0_off12 k = tOff (16 * k.val + 3 + 8) := by decide +kernel
theorem tcond13 : ∀ k : Fin k0_t1_loop.trips, k0_cond13 k = 1#1 := by decide +kernel
theorem tcond14 : ∀ k : Fin k0_t1_loop.trips, k0_cond14 k = 1#1 ↔ 1 ≤ k.val := by decide +kernel
theorem tcond15 : ∀ k : Fin k0_t1_loop.trips, k0_cond15 k = 1#1 := by decide +kernel
theorem toff13 : ∀ k : Fin k0_t1_loop.trips, k0_off13 k = tOff (16 * k.val + 4) := by decide +kernel
theorem toff15 : ∀ k : Fin k0_t1_loop.trips, k0_off15 k = tOff (16 * k.val + 4 + 8) := by decide +kernel
theorem tcond16 : ∀ k : Fin k0_t1_loop.trips, k0_cond16 k = 1#1 := by decide +kernel
theorem tcond17 : ∀ k : Fin k0_t1_loop.trips, k0_cond17 k = 1#1 ↔ 1 ≤ k.val := by decide +kernel
theorem tcond18 : ∀ k : Fin k0_t1_loop.trips, k0_cond18 k = 1#1 := by decide +kernel
theorem toff16 : ∀ k : Fin k0_t1_loop.trips, k0_off16 k = tOff (16 * k.val + 5) := by decide +kernel
theorem toff18 : ∀ k : Fin k0_t1_loop.trips, k0_off18 k = tOff (16 * k.val + 5 + 8) := by decide +kernel
theorem tcond19 : ∀ k : Fin k0_t1_loop.trips, k0_cond19 k = 1#1 := by decide +kernel
theorem tcond20 : ∀ k : Fin k0_t1_loop.trips, k0_cond20 k = 1#1 ↔ 1 ≤ k.val := by decide +kernel
theorem tcond21 : ∀ k : Fin k0_t1_loop.trips, k0_cond21 k = 1#1 := by decide +kernel
theorem toff19 : ∀ k : Fin k0_t1_loop.trips, k0_off19 k = tOff (16 * k.val + 6) := by decide +kernel
theorem toff21 : ∀ k : Fin k0_t1_loop.trips, k0_off21 k = tOff (16 * k.val + 6 + 8) := by decide +kernel
theorem tcond22 : ∀ k : Fin k0_t1_loop.trips, k0_cond22 k = 1#1 := by decide +kernel
theorem tcond23 : ∀ k : Fin k0_t1_loop.trips, k0_cond23 k = 1#1 ↔ 1 ≤ k.val := by decide +kernel
theorem tcond24 : ∀ k : Fin k0_t1_loop.trips, k0_cond24 k = 1#1 := by decide +kernel
theorem toff22 : ∀ k : Fin k0_t1_loop.trips, k0_off22 k = tOff (16 * k.val + 7) := by decide +kernel
theorem toff24 : ∀ k : Fin k0_t1_loop.trips, k0_off24 k = tOff (16 * k.val + 7 + 8) := by decide +kernel
theorem tcond25 : ∀ k : Fin k0_t1_loop.trips, k0_cond25 k = 1#1 := by decide +kernel
theorem tcond26 : ∀ k : Fin k0_t1_loop.trips, k0_cond26 k = 1#1 := by decide +kernel
theorem tcond27 : ∀ k : Fin k0_t1_loop.trips, k0_cond27 k = 1#1 ↔ k.val < 6 := by decide +kernel
theorem toff25 : ∀ k : Fin k0_t1_loop.trips, k0_off25 k = tOff (16 * k.val + 8) := by decide +kernel
theorem toff27 : ∀ k : Fin k0_t1_loop.trips, k0_off27 k = tOff (16 * k.val + 8 + 8) := by decide +kernel
theorem tcond28 : ∀ k : Fin k0_t1_loop.trips, k0_cond28 k = 1#1 := by decide +kernel
theorem tcond29 : ∀ k : Fin k0_t1_loop.trips, k0_cond29 k = 1#1 := by decide +kernel
theorem tcond30 : ∀ k : Fin k0_t1_loop.trips, k0_cond30 k = 1#1 ↔ k.val < 6 := by decide +kernel
theorem toff28 : ∀ k : Fin k0_t1_loop.trips, k0_off28 k = tOff (16 * k.val + 9) := by decide +kernel
theorem toff30 : ∀ k : Fin k0_t1_loop.trips, k0_off30 k = tOff (16 * k.val + 9 + 8) := by decide +kernel
theorem tcond31 : ∀ k : Fin k0_t1_loop.trips, k0_cond31 k = 1#1 := by decide +kernel
theorem tcond32 : ∀ k : Fin k0_t1_loop.trips, k0_cond32 k = 1#1 := by decide +kernel
theorem tcond33 : ∀ k : Fin k0_t1_loop.trips, k0_cond33 k = 1#1 ↔ k.val < 6 := by decide +kernel
theorem toff31 : ∀ k : Fin k0_t1_loop.trips, k0_off31 k = tOff (16 * k.val + 10) := by decide +kernel
theorem toff33 : ∀ k : Fin k0_t1_loop.trips, k0_off33 k = tOff (16 * k.val + 10 + 8) := by decide +kernel
theorem tcond34 : ∀ k : Fin k0_t1_loop.trips, k0_cond34 k = 1#1 := by decide +kernel
theorem tcond35 : ∀ k : Fin k0_t1_loop.trips, k0_cond35 k = 1#1 := by decide +kernel
theorem tcond36 : ∀ k : Fin k0_t1_loop.trips, k0_cond36 k = 1#1 ↔ k.val < 6 := by decide +kernel
theorem toff34 : ∀ k : Fin k0_t1_loop.trips, k0_off34 k = tOff (16 * k.val + 11) := by decide +kernel
theorem toff36 : ∀ k : Fin k0_t1_loop.trips, k0_off36 k = tOff (16 * k.val + 11 + 8) := by decide +kernel
theorem tcond37 : ∀ k : Fin k0_t1_loop.trips, k0_cond37 k = 1#1 := by decide +kernel
theorem tcond38 : ∀ k : Fin k0_t1_loop.trips, k0_cond38 k = 1#1 := by decide +kernel
theorem tcond39 : ∀ k : Fin k0_t1_loop.trips, k0_cond39 k = 1#1 ↔ k.val < 6 := by decide +kernel
theorem toff37 : ∀ k : Fin k0_t1_loop.trips, k0_off37 k = tOff (16 * k.val + 12) := by decide +kernel
theorem toff39 : ∀ k : Fin k0_t1_loop.trips, k0_off39 k = tOff (16 * k.val + 12 + 8) := by decide +kernel
theorem tcond40 : ∀ k : Fin k0_t1_loop.trips, k0_cond40 k = 1#1 := by decide +kernel
theorem tcond41 : ∀ k : Fin k0_t1_loop.trips, k0_cond41 k = 1#1 := by decide +kernel
theorem tcond42 : ∀ k : Fin k0_t1_loop.trips, k0_cond42 k = 1#1 ↔ k.val < 6 := by decide +kernel
theorem toff40 : ∀ k : Fin k0_t1_loop.trips, k0_off40 k = tOff (16 * k.val + 13) := by decide +kernel
theorem toff42 : ∀ k : Fin k0_t1_loop.trips, k0_off42 k = tOff (16 * k.val + 13 + 8) := by decide +kernel
theorem tcond43 : ∀ k : Fin k0_t1_loop.trips, k0_cond43 k = 1#1 := by decide +kernel
theorem tcond44 : ∀ k : Fin k0_t1_loop.trips, k0_cond44 k = 1#1 := by decide +kernel
theorem tcond45 : ∀ k : Fin k0_t1_loop.trips, k0_cond45 k = 1#1 ↔ k.val < 6 := by decide +kernel
theorem toff43 : ∀ k : Fin k0_t1_loop.trips, k0_off43 k = tOff (16 * k.val + 14) := by decide +kernel
theorem toff45 : ∀ k : Fin k0_t1_loop.trips, k0_off45 k = tOff (16 * k.val + 14 + 8) := by decide +kernel
theorem tcond46 : ∀ k : Fin k0_t1_loop.trips, k0_cond46 k = 1#1 := by decide +kernel
theorem tcond47 : ∀ k : Fin k0_t1_loop.trips, k0_cond47 k = 1#1 := by decide +kernel
theorem tcond48 : ∀ k : Fin k0_t1_loop.trips, k0_cond48 k = 1#1 ↔ k.val < 6 := by decide +kernel
theorem toff46 : ∀ k : Fin k0_t1_loop.trips, k0_off46 k = tOff (16 * k.val + 15) := by decide +kernel
theorem toff48 : ∀ k : Fin k0_t1_loop.trips, k0_off48 k = tOff (16 * k.val + 15 + 8) := by decide +kernel

/-! ## The TensorCore's scoped storage: sixteen staging buffers, thirty-two transfer semaphores -/

theorem dev_eq (d : Dev nD) : d = (0 : Dev nD) := Subsingleton.elim _ _

theorem scopedRefs_tc : scopedRefs sig (Proc.tc : Proc τ) = {Proc.devRef .tc (cc0_scratch0 : Ref sig .tc), Proc.devRef .tc (cc0_scratch1 : Ref sig .tc), Proc.devRef .tc (cc0_scratch2 : Ref sig .tc), Proc.devRef .tc (cc0_scratch3 : Ref sig .tc), Proc.devRef .tc (cc0_scratch4 : Ref sig .tc), Proc.devRef .tc (cc0_scratch5 : Ref sig .tc), Proc.devRef .tc (cc0_scratch6 : Ref sig .tc), Proc.devRef .tc (cc0_scratch7 : Ref sig .tc), Proc.devRef .tc (cc0_scratch8 : Ref sig .tc), Proc.devRef .tc (cc0_scratch9 : Ref sig .tc), Proc.devRef .tc (cc0_scratch10 : Ref sig .tc), Proc.devRef .tc (cc0_scratch11 : Ref sig .tc), Proc.devRef .tc (cc0_scratch12 : Ref sig .tc), Proc.devRef .tc (cc0_scratch13 : Ref sig .tc), Proc.devRef .tc (cc0_scratch14 : Ref sig .tc), Proc.devRef .tc (cc0_scratch15 : Ref sig .tc)} := by decide +kernel

theorem scopedCells_tc : scopedCells sig (SparseCore.T (0 : Dev nD) : Thread nD τ)
    = {((SparseCore.T (0 : Dev nD) : Thread nD τ), SemLoc.dma cc0_scratch16.sem), ((SparseCore.T (0 : Dev nD) : Thread nD τ), SemLoc.dma cc0_scratch17.sem), ((SparseCore.T (0 : Dev nD) : Thread nD τ), SemLoc.dma cc0_scratch18.sem), ((SparseCore.T (0 : Dev nD) : Thread nD τ), SemLoc.dma cc0_scratch19.sem), ((SparseCore.T (0 : Dev nD) : Thread nD τ), SemLoc.dma cc0_scratch20.sem), ((SparseCore.T (0 : Dev nD) : Thread nD τ), SemLoc.dma cc0_scratch21.sem), ((SparseCore.T (0 : Dev nD) : Thread nD τ), SemLoc.dma cc0_scratch22.sem), ((SparseCore.T (0 : Dev nD) : Thread nD τ), SemLoc.dma cc0_scratch23.sem), ((SparseCore.T (0 : Dev nD) : Thread nD τ), SemLoc.dma cc0_scratch24.sem), ((SparseCore.T (0 : Dev nD) : Thread nD τ), SemLoc.dma cc0_scratch25.sem), ((SparseCore.T (0 : Dev nD) : Thread nD τ), SemLoc.dma cc0_scratch26.sem), ((SparseCore.T (0 : Dev nD) : Thread nD τ), SemLoc.dma cc0_scratch27.sem), ((SparseCore.T (0 : Dev nD) : Thread nD τ), SemLoc.dma cc0_scratch28.sem), ((SparseCore.T (0 : Dev nD) : Thread nD τ), SemLoc.dma cc0_scratch29.sem), ((SparseCore.T (0 : Dev nD) : Thread nD τ), SemLoc.dma cc0_scratch30.sem), ((SparseCore.T (0 : Dev nD) : Thread nD τ), SemLoc.dma cc0_scratch31.sem), ((SparseCore.T (0 : Dev nD) : Thread nD τ), SemLoc.dma cc0_scratch32.sem), ((SparseCore.T (0 : Dev nD) : Thread nD τ), SemLoc.dma cc0_scratch33.sem), ((SparseCore.T (0 : Dev nD) : Thread nD τ), SemLoc.dma cc0_scratch34.sem), ((SparseCore.T (0 : Dev nD) : Thread nD τ), SemLoc.dma cc0_scratch35.sem), ((SparseCore.T (0 : Dev nD) : Thread nD τ), SemLoc.dma cc0_scratch36.sem), ((SparseCore.T (0 : Dev nD) : Thread nD τ), SemLoc.dma cc0_scratch37.sem), ((SparseCore.T (0 : Dev nD) : Thread nD τ), SemLoc.dma cc0_scratch38.sem), ((SparseCore.T (0 : Dev nD) : Thread nD τ), SemLoc.dma cc0_scratch39.sem), ((SparseCore.T (0 : Dev nD) : Thread nD τ), SemLoc.dma cc0_scratch40.sem), ((SparseCore.T (0 : Dev nD) : Thread nD τ), SemLoc.dma cc0_scratch41.sem), ((SparseCore.T (0 : Dev nD) : Thread nD τ), SemLoc.dma cc0_scratch42.sem), ((SparseCore.T (0 : Dev nD) : Thread nD τ), SemLoc.dma cc0_scratch43.sem), ((SparseCore.T (0 : Dev nD) : Thread nD τ), SemLoc.dma cc0_scratch44.sem), ((SparseCore.T (0 : Dev nD) : Thread nD τ), SemLoc.dma cc0_scratch45.sem), ((SparseCore.T (0 : Dev nD) : Thread nD τ), SemLoc.dma cc0_scratch46.sem), ((SparseCore.T (0 : Dev nD) : Thread nD τ), SemLoc.dma cc0_scratch47.sem)} := by decide +kernel

section TcBody

variable [FloatOps F] (m : (ℓ : Loc nD τ sig) → Buf (Elt F) ℓ) (d : Dev nD)

abbrev Tt : Thread nD τ := SparseCore.T d

/-- What a staging buffer holds once chunk `n` of `x` has landed in it, and the region result's chunk once written. -/
abbrev tData (n : Fin 112) : S4096x128.Idx → Elt F .f32 := (xC n).view.read (Elt F) (m (xLoc d))
abbrev pNew (fp : Buf (Elt F) (pLoc d)) (n : Fin 112) : Buf (Elt F) (pLoc d) := (pC n).view.writes (Elt F) fp [⟨Rect.whole S4096x128, tData m d n⟩]

abbrev xTp (n : ℕ) : sProp 𝕄 := (xC (chT n)).view.loc (Tt d) ↦[(xC (chT n)).view.set]{fullShare} m (xLoc d)
abbrev pTp (f : ℕ → Buf (Elt F) (pLoc d)) (n : ℕ) : sProp 𝕄 := (pC (chT n)).view.loc (Tt d) ↦[(pC (chT n)).view.set]{fullShare} f n

/-- The credit of one chunk's transfer. -/
abbrev NT : ℕ := 65536

abbrev rs0 : SemLoc sig := SemLoc.dma cc0_scratch16.sem
abbrev ws0 : SemLoc sig := SemLoc.dma cc0_scratch32.sem
abbrev rs1 : SemLoc sig := SemLoc.dma cc0_scratch17.sem
abbrev ws1 : SemLoc sig := SemLoc.dma cc0_scratch33.sem
abbrev rs2 : SemLoc sig := SemLoc.dma cc0_scratch18.sem
abbrev ws2 : SemLoc sig := SemLoc.dma cc0_scratch34.sem
abbrev rs3 : SemLoc sig := SemLoc.dma cc0_scratch19.sem
abbrev ws3 : SemLoc sig := SemLoc.dma cc0_scratch35.sem
abbrev rs4 : SemLoc sig := SemLoc.dma cc0_scratch20.sem
abbrev ws4 : SemLoc sig := SemLoc.dma cc0_scratch36.sem
abbrev rs5 : SemLoc sig := SemLoc.dma cc0_scratch21.sem
abbrev ws5 : SemLoc sig := SemLoc.dma cc0_scratch37.sem
abbrev rs6 : SemLoc sig := SemLoc.dma cc0_scratch22.sem
abbrev ws6 : SemLoc sig := SemLoc.dma cc0_scratch38.sem
abbrev rs7 : SemLoc sig := SemLoc.dma cc0_scratch23.sem
abbrev ws7 : SemLoc sig := SemLoc.dma cc0_scratch39.sem
abbrev rs8 : SemLoc sig := SemLoc.dma cc0_scratch24.sem
abbrev ws8 : SemLoc sig := SemLoc.dma cc0_scratch40.sem
abbrev rs9 : SemLoc sig := SemLoc.dma cc0_scratch25.sem
abbrev ws9 : SemLoc sig := SemLoc.dma cc0_scratch41.sem
abbrev rs10 : SemLoc sig := SemLoc.dma cc0_scratch26.sem
abbrev ws10 : SemLoc sig := SemLoc.dma cc0_scratch42.sem
abbrev rs11 : SemLoc sig := SemLoc.dma cc0_scratch27.sem
abbrev ws11 : SemLoc sig := SemLoc.dma cc0_scratch43.sem
abbrev rs12 : SemLoc sig := SemLoc.dma cc0_scratch28.sem
abbrev ws12 : SemLoc sig := SemLoc.dma cc0_scratch44.sem
abbrev rs13 : SemLoc sig := SemLoc.dma cc0_scratch29.sem
abbrev ws13 : SemLoc sig := SemLoc.dma cc0_scratch45.sem
abbrev rs14 : SemLoc sig := SemLoc.dma cc0_scratch30.sem
abbrev ws14 : SemLoc sig := SemLoc.dma cc0_scratch46.sem
abbrev rs15 : SemLoc sig := SemLoc.dma cc0_scratch31.sem
abbrev ws15 : SemLoc sig := SemLoc.dma cc0_scratch47.sem

/-- Chunk `n` on its way into a staging buffer; chunk `n` on its way out of it. -/
def rdF0 (n : ℕ) : sProp 𝕄 :=
  Transfers.Flight countersEmb (Tt d) rs0 (default : HIx 1) NT iprop(((sl0).view.loc (Tt d) ↦{fullShare} tData m d (chT n)) ∗ xTp m d n)
def wrF0 (fp : Buf (Elt F) (pLoc d)) (n : ℕ) : sProp 𝕄 :=
  Transfers.Flight countersEmb (Tt d) ws0 (default : HIx 1) NT
    iprop(pTp d (fun n => pNew m d fp (chT n)) n ∗ ((sl0).view.loc (Tt d) ↦{fullShare} tData m d (chT n)))
def rdF1 (n : ℕ) : sProp 𝕄 :=
  Transfers.Flight countersEmb (Tt d) rs1 (default : HIx 1) NT iprop(((sl1).view.loc (Tt d) ↦{fullShare} tData m d (chT n)) ∗ xTp m d n)
def wrF1 (fp : Buf (Elt F) (pLoc d)) (n : ℕ) : sProp 𝕄 :=
  Transfers.Flight countersEmb (Tt d) ws1 (default : HIx 1) NT
    iprop(pTp d (fun n => pNew m d fp (chT n)) n ∗ ((sl1).view.loc (Tt d) ↦{fullShare} tData m d (chT n)))
def rdF2 (n : ℕ) : sProp 𝕄 :=
  Transfers.Flight countersEmb (Tt d) rs2 (default : HIx 1) NT iprop(((sl2).view.loc (Tt d) ↦{fullShare} tData m d (chT n)) ∗ xTp m d n)
def wrF2 (fp : Buf (Elt F) (pLoc d)) (n : ℕ) : sProp 𝕄 :=
  Transfers.Flight countersEmb (Tt d) ws2 (default : HIx 1) NT
    iprop(pTp d (fun n => pNew m d fp (chT n)) n ∗ ((sl2).view.loc (Tt d) ↦{fullShare} tData m d (chT n)))
def rdF3 (n : ℕ) : sProp 𝕄 :=
  Transfers.Flight countersEmb (Tt d) rs3 (default : HIx 1) NT iprop(((sl3).view.loc (Tt d) ↦{fullShare} tData m d (chT n)) ∗ xTp m d n)
def wrF3 (fp : Buf (Elt F) (pLoc d)) (n : ℕ) : sProp 𝕄 :=
  Transfers.Flight countersEmb (Tt d) ws3 (default : HIx 1) NT
    iprop(pTp d (fun n => pNew m d fp (chT n)) n ∗ ((sl3).view.loc (Tt d) ↦{fullShare} tData m d (chT n)))
def rdF4 (n : ℕ) : sProp 𝕄 :=
  Transfers.Flight countersEmb (Tt d) rs4 (default : HIx 1) NT iprop(((sl4).view.loc (Tt d) ↦{fullShare} tData m d (chT n)) ∗ xTp m d n)
def wrF4 (fp : Buf (Elt F) (pLoc d)) (n : ℕ) : sProp 𝕄 :=
  Transfers.Flight countersEmb (Tt d) ws4 (default : HIx 1) NT
    iprop(pTp d (fun n => pNew m d fp (chT n)) n ∗ ((sl4).view.loc (Tt d) ↦{fullShare} tData m d (chT n)))
def rdF5 (n : ℕ) : sProp 𝕄 :=
  Transfers.Flight countersEmb (Tt d) rs5 (default : HIx 1) NT iprop(((sl5).view.loc (Tt d) ↦{fullShare} tData m d (chT n)) ∗ xTp m d n)
def wrF5 (fp : Buf (Elt F) (pLoc d)) (n : ℕ) : sProp 𝕄 :=
  Transfers.Flight countersEmb (Tt d) ws5 (default : HIx 1) NT
    iprop(pTp d (fun n => pNew m d fp (chT n)) n ∗ ((sl5).view.loc (Tt d) ↦{fullShare} tData m d (chT n)))
def rdF6 (n : ℕ) : sProp 𝕄 :=
  Transfers.Flight countersEmb (Tt d) rs6 (default : HIx 1) NT iprop(((sl6).view.loc (Tt d) ↦{fullShare} tData m d (chT n)) ∗ xTp m d n)
def wrF6 (fp : Buf (Elt F) (pLoc d)) (n : ℕ) : sProp 𝕄 :=
  Transfers.Flight countersEmb (Tt d) ws6 (default : HIx 1) NT
    iprop(pTp d (fun n => pNew m d fp (chT n)) n ∗ ((sl6).view.loc (Tt d) ↦{fullShare} tData m d (chT n)))
def rdF7 (n : ℕ) : sProp 𝕄 :=
  Transfers.Flight countersEmb (Tt d) rs7 (default : HIx 1) NT iprop(((sl7).view.loc (Tt d) ↦{fullShare} tData m d (chT n)) ∗ xTp m d n)
def wrF7 (fp : Buf (Elt F) (pLoc d)) (n : ℕ) : sProp 𝕄 :=
  Transfers.Flight countersEmb (Tt d) ws7 (default : HIx 1) NT
    iprop(pTp d (fun n => pNew m d fp (chT n)) n ∗ ((sl7).view.loc (Tt d) ↦{fullShare} tData m d (chT n)))
def rdF8 (n : ℕ) : sProp 𝕄 :=
  Transfers.Flight countersEmb (Tt d) rs8 (default : HIx 1) NT iprop(((sl8).view.loc (Tt d) ↦{fullShare} tData m d (chT n)) ∗ xTp m d n)
def wrF8 (fp : Buf (Elt F) (pLoc d)) (n : ℕ) : sProp 𝕄 :=
  Transfers.Flight countersEmb (Tt d) ws8 (default : HIx 1) NT
    iprop(pTp d (fun n => pNew m d fp (chT n)) n ∗ ((sl8).view.loc (Tt d) ↦{fullShare} tData m d (chT n)))
def rdF9 (n : ℕ) : sProp 𝕄 :=
  Transfers.Flight countersEmb (Tt d) rs9 (default : HIx 1) NT iprop(((sl9).view.loc (Tt d) ↦{fullShare} tData m d (chT n)) ∗ xTp m d n)
def wrF9 (fp : Buf (Elt F) (pLoc d)) (n : ℕ) : sProp 𝕄 :=
  Transfers.Flight countersEmb (Tt d) ws9 (default : HIx 1) NT
    iprop(pTp d (fun n => pNew m d fp (chT n)) n ∗ ((sl9).view.loc (Tt d) ↦{fullShare} tData m d (chT n)))
def rdF10 (n : ℕ) : sProp 𝕄 :=
  Transfers.Flight countersEmb (Tt d) rs10 (default : HIx 1) NT iprop(((sl10).view.loc (Tt d) ↦{fullShare} tData m d (chT n)) ∗ xTp m d n)
def wrF10 (fp : Buf (Elt F) (pLoc d)) (n : ℕ) : sProp 𝕄 :=
  Transfers.Flight countersEmb (Tt d) ws10 (default : HIx 1) NT
    iprop(pTp d (fun n => pNew m d fp (chT n)) n ∗ ((sl10).view.loc (Tt d) ↦{fullShare} tData m d (chT n)))
def rdF11 (n : ℕ) : sProp 𝕄 :=
  Transfers.Flight countersEmb (Tt d) rs11 (default : HIx 1) NT iprop(((sl11).view.loc (Tt d) ↦{fullShare} tData m d (chT n)) ∗ xTp m d n)
def wrF11 (fp : Buf (Elt F) (pLoc d)) (n : ℕ) : sProp 𝕄 :=
  Transfers.Flight countersEmb (Tt d) ws11 (default : HIx 1) NT
    iprop(pTp d (fun n => pNew m d fp (chT n)) n ∗ ((sl11).view.loc (Tt d) ↦{fullShare} tData m d (chT n)))
def rdF12 (n : ℕ) : sProp 𝕄 :=
  Transfers.Flight countersEmb (Tt d) rs12 (default : HIx 1) NT iprop(((sl12).view.loc (Tt d) ↦{fullShare} tData m d (chT n)) ∗ xTp m d n)
def wrF12 (fp : Buf (Elt F) (pLoc d)) (n : ℕ) : sProp 𝕄 :=
  Transfers.Flight countersEmb (Tt d) ws12 (default : HIx 1) NT
    iprop(pTp d (fun n => pNew m d fp (chT n)) n ∗ ((sl12).view.loc (Tt d) ↦{fullShare} tData m d (chT n)))
def rdF13 (n : ℕ) : sProp 𝕄 :=
  Transfers.Flight countersEmb (Tt d) rs13 (default : HIx 1) NT iprop(((sl13).view.loc (Tt d) ↦{fullShare} tData m d (chT n)) ∗ xTp m d n)
def wrF13 (fp : Buf (Elt F) (pLoc d)) (n : ℕ) : sProp 𝕄 :=
  Transfers.Flight countersEmb (Tt d) ws13 (default : HIx 1) NT
    iprop(pTp d (fun n => pNew m d fp (chT n)) n ∗ ((sl13).view.loc (Tt d) ↦{fullShare} tData m d (chT n)))
def rdF14 (n : ℕ) : sProp 𝕄 :=
  Transfers.Flight countersEmb (Tt d) rs14 (default : HIx 1) NT iprop(((sl14).view.loc (Tt d) ↦{fullShare} tData m d (chT n)) ∗ xTp m d n)
def wrF14 (fp : Buf (Elt F) (pLoc d)) (n : ℕ) : sProp 𝕄 :=
  Transfers.Flight countersEmb (Tt d) ws14 (default : HIx 1) NT
    iprop(pTp d (fun n => pNew m d fp (chT n)) n ∗ ((sl14).view.loc (Tt d) ↦{fullShare} tData m d (chT n)))
def rdF15 (n : ℕ) : sProp 𝕄 :=
  Transfers.Flight countersEmb (Tt d) rs15 (default : HIx 1) NT iprop(((sl15).view.loc (Tt d) ↦{fullShare} tData m d (chT n)) ∗ xTp m d n)
def wrF15 (fp : Buf (Elt F) (pLoc d)) (n : ℕ) : sProp 𝕄 :=
  Transfers.Flight countersEmb (Tt d) ws15 (default : HIx 1) NT
    iprop(pTp d (fun n => pNew m d fp (chT n)) n ∗ ((sl15).view.loc (Tt d) ↦{fullShare} tData m d (chT n)))

/-- Before trip `g` of the loop: chunks 16g .. 16g + 7 are on their way into buffers 0..7 (for g < 7), chunks 16g - 8 .. 16g - 1 on
    their way out of buffers 8..15 (for g ≥ 1); the other chunks of `x` are held, the result's chunks below 16g - 8 are written
    and those from 16g on untouched. -/
def invT (fp : Buf (Elt F) (pLoc d)) (O : CellTallies nD τ sig (HIx 1)) (W : Waits sig (HIx 1)) (g : ℕ) (_ : Unit) : sProp 𝕄 :=
  iprop(Transfers.MayWaits (Tt d) (none : HIx 1) O
    ∗ (if g < 7 then iprop(rdF0 m d (16 * g) ∗ rdF1 m d (16 * g + 1) ∗ rdF2 m d (16 * g + 2) ∗ rdF3 m d (16 * g + 3) ∗ rdF4 m d (16 * g + 4) ∗ rdF5 m d (16 * g + 5) ∗ rdF6 m d (16 * g + 6) ∗ rdF7 m d (16 * g + 7))
        else iprop((∃ f, (sl0).view.loc (Tt d) ↦{fullShare} f) ∗ (∃ f, (sl1).view.loc (Tt d) ↦{fullShare} f) ∗ (∃ f, (sl2).view.loc (Tt d) ↦{fullShare} f) ∗ (∃ f, (sl3).view.loc (Tt d) ↦{fullShare} f) ∗ (∃ f, (sl4).view.loc (Tt d) ↦{fullShare} f) ∗ (∃ f, (sl5).view.loc (Tt d) ↦{fullShare} f) ∗ (∃ f, (sl6).view.loc (Tt d) ↦{fullShare} f) ∗ (∃ f, (sl7).view.loc (Tt d) ↦{fullShare} f) ∗ semVal (Tt d, rs0) 0 ∗ semVal (Tt d, rs1) 0 ∗ semVal (Tt d, rs2) 0 ∗ semVal (Tt d, rs3) 0 ∗ semVal (Tt d, rs4) 0 ∗ semVal (Tt d, rs5) 0 ∗ semVal (Tt d, rs6) 0 ∗ semVal (Tt d, rs7) 0))
    ∗ (if g = 0 then iprop((∃ f, (sl8).view.loc (Tt d) ↦{fullShare} f) ∗ (∃ f, (sl9).view.loc (Tt d) ↦{fullShare} f) ∗ (∃ f, (sl10).view.loc (Tt d) ↦{fullShare} f) ∗ (∃ f, (sl11).view.loc (Tt d) ↦{fullShare} f) ∗ (∃ f, (sl12).view.loc (Tt d) ↦{fullShare} f) ∗ (∃ f, (sl13).view.loc (Tt d) ↦{fullShare} f) ∗ (∃ f, (sl14).view.loc (Tt d) ↦{fullShare} f) ∗ (∃ f, (sl15).view.loc (Tt d) ↦{fullShare} f) ∗ semVal (Tt d, ws8) 0 ∗ semVal (Tt d, ws9) 0 ∗ semVal (Tt d, ws10) 0 ∗ semVal (Tt d, ws11) 0 ∗ semVal (Tt d, ws12) 0 ∗ semVal (Tt d, ws13) 0 ∗ semVal (Tt d, ws14) 0 ∗ semVal (Tt d, ws15) 0)
        else iprop(wrF8 m d fp (16 * g - 8) ∗ wrF9 m d fp (16 * g - 8 + 1) ∗ wrF10 m d fp (16 * g - 8 + 2) ∗ wrF11 m d fp (16 * g - 8 + 3) ∗ wrF12 m d fp (16 * g - 8 + 4) ∗ wrF13 m d fp (16 * g - 8 + 5) ∗ wrF14 m d fp (16 * g - 8 + 6) ∗ wrF15 m d fp (16 * g - 8 + 7)))
    ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
    ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
    ∗ bigSep (Finset.Ico 0 (16 * g)) (xTp m d) ∗ bigSep (Finset.Ico (16 * g + 8) 112) (xTp m d)
    ∗ bigSep (Finset.Ico 0 (16 * g - 8)) (pTp d fun n => pNew m d fp (chT n)) ∗ bigSep (Finset.Ico (16 * g) 112) (pTp d fun _ => fp)
    ∗ ∃ W', ⌜∀ p ∈ W', p ∈ W ∨ p.2 = none⌝ ∗ owes (Tt d) O W')

/-! ## Families over an interval of chunk numbers, and the chunks as the program spells them -/

omit [FloatOps F] in
theorem icoT_pop {a b : ℕ} (h : a < b) (Ψ : ℕ → sProp 𝕄) : bigSep (Finset.Ico a b) Ψ = iprop(Ψ a ∗ bigSep (Finset.Ico (a + 1) b) Ψ) := by
  have e : Finset.Ico a b = insert a (Finset.Ico (a + 1) b) := by
    ext x; simp only [Finset.mem_insert, Finset.mem_Ico]; omega
  rw [e, bigSep_insert (by simp)]; rfl
omit [FloatOps F] in
theorem icoT_push {a b : ℕ} (h : a ≤ b) (Ψ : ℕ → sProp 𝕄) : bigSep (Finset.Ico a (b + 1)) Ψ = iprop(Ψ b ∗ bigSep (Finset.Ico a b) Ψ) := by
  have e : Finset.Ico a (b + 1) = insert b (Finset.Ico a b) := by
    ext x; simp only [Finset.mem_insert, Finset.mem_Ico]; omega
  rw [e, bigSep_insert (by simp)]; rfl

theorem xTp_spell (n : ℕ) {off : Fin 3 → ℕ} (e : off = tOff (chT n).val) (p : ∀ a, off a + S1x4096x128.size a ≤ S32x16384x128.size a)
    (hs : ∀ a, (Rect.unit (s := S32x16384x128) off S1x4096x128.size p).stride a = 1) :
    xTp m d n = ((((xT).slice (Rect.unit (s := S32x16384x128) off S1x4096x128.size p) hs).squeeze S4096x128 squeezes_S1x4096x128_S4096x128).view.loc (Tt d)
      ↦[(((xT).slice (Rect.unit (s := S32x16384x128) off S1x4096x128.size p) hs).squeeze S4096x128 squeezes_S1x4096x128_S4096x128).view.set]{fullShare} m (xLoc d) : sProp 𝕄) := by
  subst e; rfl
theorem pTp_spell (f : ℕ → Buf (Elt F) (pLoc d)) (n : ℕ) {off : Fin 3 → ℕ} (e : off = tOff (chT n).val) (p : ∀ a, off a + S1x4096x128.size a ≤ S32x16384x128.size a)
    (hs : ∀ a, (Rect.unit (s := S32x16384x128) off S1x4096x128.size p).stride a = 1) :
    pTp d f n = ((((pT).slice (Rect.unit (s := S32x16384x128) off S1x4096x128.size p) hs).squeeze S4096x128 squeezes_S1x4096x128_S4096x128).view.loc (Tt d)
      ↦[(((pT).slice (Rect.unit (s := S32x16384x128) off S1x4096x128.size p) hs).squeeze S4096x128 squeezes_S1x4096x128_S4096x128).view.set]{fullShare} f n : sProp 𝕄) := by
  subst e; rfl
theorem tData_spell (n : ℕ) {off : Fin 3 → ℕ} (e : off = tOff (chT n).val) (p : ∀ a, off a + S1x4096x128.size a ≤ S32x16384x128.size a)
    (hs : ∀ a, (Rect.unit (s := S32x16384x128) off S1x4096x128.size p).stride a = 1) :
    tData m d (chT n) = (((xT).slice (Rect.unit (s := S32x16384x128) off S1x4096x128.size p) hs).squeeze S4096x128 squeezes_S1x4096x128_S4096x128).view.read (Elt F) (m (xLoc d)) := by
  subst e; rfl
theorem pDone_spell (fp : Buf (Elt F) (pLoc d)) (n : ℕ) {off : Fin 3 → ℕ} (e : off = tOff (chT n).val) (p : ∀ a, off a + S1x4096x128.size a ≤ S32x16384x128.size a)
    (hs : ∀ a, (Rect.unit (s := S32x16384x128) off S1x4096x128.size p).stride a = 1) (w : S4096x128.Idx → Elt F .f32) (hw : w = tData m d (chT n)) :
    pTp d (fun n => pNew m d fp (chT n)) n
      = ((((pT).slice (Rect.unit (s := S32x16384x128) off S1x4096x128.size p) hs).squeeze S4096x128 squeezes_S1x4096x128_S4096x128).view.loc (Tt d)
        ↦[(((pT).slice (Rect.unit (s := S32x16384x128) off S1x4096x128.size p) hs).squeeze S4096x128 squeezes_S1x4096x128_S4096x128).view.set]{fullShare}
          (((pT).slice (Rect.unit (s := S32x16384x128) off S1x4096x128.size p) hs).squeeze S4096x128 squeezes_S1x4096x128_S4096x128).view.writes (Elt F) fp [⟨Rect.whole S4096x128, w⟩] : sProp 𝕄) := by
  subst e hw; rfl

/-! ## A transfer in flight under any spelling, as the invariant's -/

theorem rdT_conv0 (n : ℕ) (sm : SemLoc sig) (hsm : sm = rs0) (fold : Buf (Elt F) ((sl0).view.loc (Tt d))) (w : S4096x128.Idx → Elt F .f32) (hw : w = tData m d (chT n))
    (P : sProp 𝕄) (hP : P = xTp m d n) :
    (Transfers.Flight countersEmb (Tt d) sm (default : HIx 1) NT
        iprop(((sl0).view.loc (Tt d) ↦{fullShare} (sl0).view.write (Elt F) fold w Finset.univ) ∗ P) : sProp 𝕄)
      ⊢ rdF0 m d n := by
  subst hw hP hsm
  unfold rdF0
  refine Transfers.Flight_mono countersEmb (Tt d) ?_
  simp only [Memref.view_whole, View.write_whole_univ]
  exact Entails.refl _
theorem wrT_conv0 (fp : Buf (Elt F) (pLoc d)) (n : ℕ) (sm : SemLoc sig) (hsm : sm = ws0) (f : Buf (Elt F) ((sl0).view.loc (Tt d))) (hf : f = tData m d (chT n))
    (P : sProp 𝕄) (hP : P = pTp d (fun n => pNew m d fp (chT n)) n) :
    (Transfers.Flight countersEmb (Tt d) sm (default : HIx 1) NT
        iprop(P ∗ ((sl0).view.loc (Tt d) ↦[(sl0).view.set]{fullShare} f)) : sProp 𝕄)
      ⊢ wrF0 m d fp n := by
  subst hf hP hsm
  unfold wrF0
  refine Transfers.Flight_mono countersEmb (Tt d) ?_
  simp only [Memref.view_whole, View.set_whole]
  exact Entails.refl _

theorem rdT_conv1 (n : ℕ) (sm : SemLoc sig) (hsm : sm = rs1) (fold : Buf (Elt F) ((sl1).view.loc (Tt d))) (w : S4096x128.Idx → Elt F .f32) (hw : w = tData m d (chT n))
    (P : sProp 𝕄) (hP : P = xTp m d n) :
    (Transfers.Flight countersEmb (Tt d) sm (default : HIx 1) NT
        iprop(((sl1).view.loc (Tt d) ↦{fullShare} (sl1).view.write (Elt F) fold w Finset.univ) ∗ P) : sProp 𝕄)
      ⊢ rdF1 m d n := by
  subst hw hP hsm
  unfold rdF1
  refine Transfers.Flight_mono countersEmb (Tt d) ?_
  simp only [Memref.view_whole, View.write_whole_univ]
  exact Entails.refl _
theorem wrT_conv1 (fp : Buf (Elt F) (pLoc d)) (n : ℕ) (sm : SemLoc sig) (hsm : sm = ws1) (f : Buf (Elt F) ((sl1).view.loc (Tt d))) (hf : f = tData m d (chT n))
    (P : sProp 𝕄) (hP : P = pTp d (fun n => pNew m d fp (chT n)) n) :
    (Transfers.Flight countersEmb (Tt d) sm (default : HIx 1) NT
        iprop(P ∗ ((sl1).view.loc (Tt d) ↦[(sl1).view.set]{fullShare} f)) : sProp 𝕄)
      ⊢ wrF1 m d fp n := by
  subst hf hP hsm
  unfold wrF1
  refine Transfers.Flight_mono countersEmb (Tt d) ?_
  simp only [Memref.view_whole, View.set_whole]
  exact Entails.refl _

theorem rdT_conv2 (n : ℕ) (sm : SemLoc sig) (hsm : sm = rs2) (fold : Buf (Elt F) ((sl2).view.loc (Tt d))) (w : S4096x128.Idx → Elt F .f32) (hw : w = tData m d (chT n))
    (P : sProp 𝕄) (hP : P = xTp m d n) :
    (Transfers.Flight countersEmb (Tt d) sm (default : HIx 1) NT
        iprop(((sl2).view.loc (Tt d) ↦{fullShare} (sl2).view.write (Elt F) fold w Finset.univ) ∗ P) : sProp 𝕄)
      ⊢ rdF2 m d n := by
  subst hw hP hsm
  unfold rdF2
  refine Transfers.Flight_mono countersEmb (Tt d) ?_
  simp only [Memref.view_whole, View.write_whole_univ]
  exact Entails.refl _
theorem wrT_conv2 (fp : Buf (Elt F) (pLoc d)) (n : ℕ) (sm : SemLoc sig) (hsm : sm = ws2) (f : Buf (Elt F) ((sl2).view.loc (Tt d))) (hf : f = tData m d (chT n))
    (P : sProp 𝕄) (hP : P = pTp d (fun n => pNew m d fp (chT n)) n) :
    (Transfers.Flight countersEmb (Tt d) sm (default : HIx 1) NT
        iprop(P ∗ ((sl2).view.loc (Tt d) ↦[(sl2).view.set]{fullShare} f)) : sProp 𝕄)
      ⊢ wrF2 m d fp n := by
  subst hf hP hsm
  unfold wrF2
  refine Transfers.Flight_mono countersEmb (Tt d) ?_
  simp only [Memref.view_whole, View.set_whole]
  exact Entails.refl _

theorem rdT_conv3 (n : ℕ) (sm : SemLoc sig) (hsm : sm = rs3) (fold : Buf (Elt F) ((sl3).view.loc (Tt d))) (w : S4096x128.Idx → Elt F .f32) (hw : w = tData m d (chT n))
    (P : sProp 𝕄) (hP : P = xTp m d n) :
    (Transfers.Flight countersEmb (Tt d) sm (default : HIx 1) NT
        iprop(((sl3).view.loc (Tt d) ↦{fullShare} (sl3).view.write (Elt F) fold w Finset.univ) ∗ P) : sProp 𝕄)
      ⊢ rdF3 m d n := by
  subst hw hP hsm
  unfold rdF3
  refine Transfers.Flight_mono countersEmb (Tt d) ?_
  simp only [Memref.view_whole, View.write_whole_univ]
  exact Entails.refl _
theorem wrT_conv3 (fp : Buf (Elt F) (pLoc d)) (n : ℕ) (sm : SemLoc sig) (hsm : sm = ws3) (f : Buf (Elt F) ((sl3).view.loc (Tt d))) (hf : f = tData m d (chT n))
    (P : sProp 𝕄) (hP : P = pTp d (fun n => pNew m d fp (chT n)) n) :
    (Transfers.Flight countersEmb (Tt d) sm (default : HIx 1) NT
        iprop(P ∗ ((sl3).view.loc (Tt d) ↦[(sl3).view.set]{fullShare} f)) : sProp 𝕄)
      ⊢ wrF3 m d fp n := by
  subst hf hP hsm
  unfold wrF3
  refine Transfers.Flight_mono countersEmb (Tt d) ?_
  simp only [Memref.view_whole, View.set_whole]
  exact Entails.refl _

theorem rdT_conv4 (n : ℕ) (sm : SemLoc sig) (hsm : sm = rs4) (fold : Buf (Elt F) ((sl4).view.loc (Tt d))) (w : S4096x128.Idx → Elt F .f32) (hw : w = tData m d (chT n))
    (P : sProp 𝕄) (hP : P = xTp m d n) :
    (Transfers.Flight countersEmb (Tt d) sm (default : HIx 1) NT
        iprop(((sl4).view.loc (Tt d) ↦{fullShare} (sl4).view.write (Elt F) fold w Finset.univ) ∗ P) : sProp 𝕄)
      ⊢ rdF4 m d n := by
  subst hw hP hsm
  unfold rdF4
  refine Transfers.Flight_mono countersEmb (Tt d) ?_
  simp only [Memref.view_whole, View.write_whole_univ]
  exact Entails.refl _
theorem wrT_conv4 (fp : Buf (Elt F) (pLoc d)) (n : ℕ) (sm : SemLoc sig) (hsm : sm = ws4) (f : Buf (Elt F) ((sl4).view.loc (Tt d))) (hf : f = tData m d (chT n))
    (P : sProp 𝕄) (hP : P = pTp d (fun n => pNew m d fp (chT n)) n) :
    (Transfers.Flight countersEmb (Tt d) sm (default : HIx 1) NT
        iprop(P ∗ ((sl4).view.loc (Tt d) ↦[(sl4).view.set]{fullShare} f)) : sProp 𝕄)
      ⊢ wrF4 m d fp n := by
  subst hf hP hsm
  unfold wrF4
  refine Transfers.Flight_mono countersEmb (Tt d) ?_
  simp only [Memref.view_whole, View.set_whole]
  exact Entails.refl _

theorem rdT_conv5 (n : ℕ) (sm : SemLoc sig) (hsm : sm = rs5) (fold : Buf (Elt F) ((sl5).view.loc (Tt d))) (w : S4096x128.Idx → Elt F .f32) (hw : w = tData m d (chT n))
    (P : sProp 𝕄) (hP : P = xTp m d n) :
    (Transfers.Flight countersEmb (Tt d) sm (default : HIx 1) NT
        iprop(((sl5).view.loc (Tt d) ↦{fullShare} (sl5).view.write (Elt F) fold w Finset.univ) ∗ P) : sProp 𝕄)
      ⊢ rdF5 m d n := by
  subst hw hP hsm
  unfold rdF5
  refine Transfers.Flight_mono countersEmb (Tt d) ?_
  simp only [Memref.view_whole, View.write_whole_univ]
  exact Entails.refl _
theorem wrT_conv5 (fp : Buf (Elt F) (pLoc d)) (n : ℕ) (sm : SemLoc sig) (hsm : sm = ws5) (f : Buf (Elt F) ((sl5).view.loc (Tt d))) (hf : f = tData m d (chT n))
    (P : sProp 𝕄) (hP : P = pTp d (fun n => pNew m d fp (chT n)) n) :
    (Transfers.Flight countersEmb (Tt d) sm (default : HIx 1) NT
        iprop(P ∗ ((sl5).view.loc (Tt d) ↦[(sl5).view.set]{fullShare} f)) : sProp 𝕄)
      ⊢ wrF5 m d fp n := by
  subst hf hP hsm
  unfold wrF5
  refine Transfers.Flight_mono countersEmb (Tt d) ?_
  simp only [Memref.view_whole, View.set_whole]
  exact Entails.refl _

theorem rdT_conv6 (n : ℕ) (sm : SemLoc sig) (hsm : sm = rs6) (fold : Buf (Elt F) ((sl6).view.loc (Tt d))) (w : S4096x128.Idx → Elt F .f32) (hw : w = tData m d (chT n))
    (P : sProp 𝕄) (hP : P = xTp m d n) :
    (Transfers.Flight countersEmb (Tt d) sm (default : HIx 1) NT
        iprop(((sl6).view.loc (Tt d) ↦{fullShare} (sl6).view.write (Elt F) fold w Finset.univ) ∗ P) : sProp 𝕄)
      ⊢ rdF6 m d n := by
  subst hw hP hsm
  unfold rdF6
  refine Transfers.Flight_mono countersEmb (Tt d) ?_
  simp only [Memref.view_whole, View.write_whole_univ]
  exact Entails.refl _
theorem wrT_conv6 (fp : Buf (Elt F) (pLoc d)) (n : ℕ) (sm : SemLoc sig) (hsm : sm = ws6) (f : Buf (Elt F) ((sl6).view.loc (Tt d))) (hf : f = tData m d (chT n))
    (P : sProp 𝕄) (hP : P = pTp d (fun n => pNew m d fp (chT n)) n) :
    (Transfers.Flight countersEmb (Tt d) sm (default : HIx 1) NT
        iprop(P ∗ ((sl6).view.loc (Tt d) ↦[(sl6).view.set]{fullShare} f)) : sProp 𝕄)
      ⊢ wrF6 m d fp n := by
  subst hf hP hsm
  unfold wrF6
  refine Transfers.Flight_mono countersEmb (Tt d) ?_
  simp only [Memref.view_whole, View.set_whole]
  exact Entails.refl _

theorem rdT_conv7 (n : ℕ) (sm : SemLoc sig) (hsm : sm = rs7) (fold : Buf (Elt F) ((sl7).view.loc (Tt d))) (w : S4096x128.Idx → Elt F .f32) (hw : w = tData m d (chT n))
    (P : sProp 𝕄) (hP : P = xTp m d n) :
    (Transfers.Flight countersEmb (Tt d) sm (default : HIx 1) NT
        iprop(((sl7).view.loc (Tt d) ↦{fullShare} (sl7).view.write (Elt F) fold w Finset.univ) ∗ P) : sProp 𝕄)
      ⊢ rdF7 m d n := by
  subst hw hP hsm
  unfold rdF7
  refine Transfers.Flight_mono countersEmb (Tt d) ?_
  simp only [Memref.view_whole, View.write_whole_univ]
  exact Entails.refl _
theorem wrT_conv7 (fp : Buf (Elt F) (pLoc d)) (n : ℕ) (sm : SemLoc sig) (hsm : sm = ws7) (f : Buf (Elt F) ((sl7).view.loc (Tt d))) (hf : f = tData m d (chT n))
    (P : sProp 𝕄) (hP : P = pTp d (fun n => pNew m d fp (chT n)) n) :
    (Transfers.Flight countersEmb (Tt d) sm (default : HIx 1) NT
        iprop(P ∗ ((sl7).view.loc (Tt d) ↦[(sl7).view.set]{fullShare} f)) : sProp 𝕄)
      ⊢ wrF7 m d fp n := by
  subst hf hP hsm
  unfold wrF7
  refine Transfers.Flight_mono countersEmb (Tt d) ?_
  simp only [Memref.view_whole, View.set_whole]
  exact Entails.refl _

theorem rdT_conv8 (n : ℕ) (sm : SemLoc sig) (hsm : sm = rs8) (fold : Buf (Elt F) ((sl8).view.loc (Tt d))) (w : S4096x128.Idx → Elt F .f32) (hw : w = tData m d (chT n))
    (P : sProp 𝕄) (hP : P = xTp m d n) :
    (Transfers.Flight countersEmb (Tt d) sm (default : HIx 1) NT
        iprop(((sl8).view.loc (Tt d) ↦{fullShare} (sl8).view.write (Elt F) fold w Finset.univ) ∗ P) : sProp 𝕄)
      ⊢ rdF8 m d n := by
  subst hw hP hsm
  unfold rdF8
  refine Transfers.Flight_mono countersEmb (Tt d) ?_
  simp only [Memref.view_whole, View.write_whole_univ]
  exact Entails.refl _
theorem wrT_conv8 (fp : Buf (Elt F) (pLoc d)) (n : ℕ) (sm : SemLoc sig) (hsm : sm = ws8) (f : Buf (Elt F) ((sl8).view.loc (Tt d))) (hf : f = tData m d (chT n))
    (P : sProp 𝕄) (hP : P = pTp d (fun n => pNew m d fp (chT n)) n) :
    (Transfers.Flight countersEmb (Tt d) sm (default : HIx 1) NT
        iprop(P ∗ ((sl8).view.loc (Tt d) ↦[(sl8).view.set]{fullShare} f)) : sProp 𝕄)
      ⊢ wrF8 m d fp n := by
  subst hf hP hsm
  unfold wrF8
  refine Transfers.Flight_mono countersEmb (Tt d) ?_
  simp only [Memref.view_whole, View.set_whole]
  exact Entails.refl _

theorem rdT_conv9 (n : ℕ) (sm : SemLoc sig) (hsm : sm = rs9) (fold : Buf (Elt F) ((sl9).view.loc (Tt d))) (w : S4096x128.Idx → Elt F .f32) (hw : w = tData m d (chT n))
    (P : sProp 𝕄) (hP : P = xTp m d n) :
    (Transfers.Flight countersEmb (Tt d) sm (default : HIx 1) NT
        iprop(((sl9).view.loc (Tt d) ↦{fullShare} (sl9).view.write (Elt F) fold w Finset.univ) ∗ P) : sProp 𝕄)
      ⊢ rdF9 m d n := by
  subst hw hP hsm
  unfold rdF9
  refine Transfers.Flight_mono countersEmb (Tt d) ?_
  simp only [Memref.view_whole, View.write_whole_univ]
  exact Entails.refl _
theorem wrT_conv9 (fp : Buf (Elt F) (pLoc d)) (n : ℕ) (sm : SemLoc sig) (hsm : sm = ws9) (f : Buf (Elt F) ((sl9).view.loc (Tt d))) (hf : f = tData m d (chT n))
    (P : sProp 𝕄) (hP : P = pTp d (fun n => pNew m d fp (chT n)) n) :
    (Transfers.Flight countersEmb (Tt d) sm (default : HIx 1) NT
        iprop(P ∗ ((sl9).view.loc (Tt d) ↦[(sl9).view.set]{fullShare} f)) : sProp 𝕄)
      ⊢ wrF9 m d fp n := by
  subst hf hP hsm
  unfold wrF9
  refine Transfers.Flight_mono countersEmb (Tt d) ?_
  simp only [Memref.view_whole, View.set_whole]
  exact Entails.refl _

theorem rdT_conv10 (n : ℕ) (sm : SemLoc sig) (hsm : sm = rs10) (fold : Buf (Elt F) ((sl10).view.loc (Tt d))) (w : S4096x128.Idx → Elt F .f32) (hw : w = tData m d (chT n))
    (P : sProp 𝕄) (hP : P = xTp m d n) :
    (Transfers.Flight countersEmb (Tt d) sm (default : HIx 1) NT
        iprop(((sl10).view.loc (Tt d) ↦{fullShare} (sl10).view.write (Elt F) fold w Finset.univ) ∗ P) : sProp 𝕄)
      ⊢ rdF10 m d n := by
  subst hw hP hsm
  unfold rdF10
  refine Transfers.Flight_mono countersEmb (Tt d) ?_
  simp only [Memref.view_whole, View.write_whole_univ]
  exact Entails.refl _
theorem wrT_conv10 (fp : Buf (Elt F) (pLoc d)) (n : ℕ) (sm : SemLoc sig) (hsm : sm = ws10) (f : Buf (Elt F) ((sl10).view.loc (Tt d))) (hf : f = tData m d (chT n))
    (P : sProp 𝕄) (hP : P = pTp d (fun n => pNew m d fp (chT n)) n) :
    (Transfers.Flight countersEmb (Tt d) sm (default : HIx 1) NT
        iprop(P ∗ ((sl10).view.loc (Tt d) ↦[(sl10).view.set]{fullShare} f)) : sProp 𝕄)
      ⊢ wrF10 m d fp n := by
  subst hf hP hsm
  unfold wrF10
  refine Transfers.Flight_mono countersEmb (Tt d) ?_
  simp only [Memref.view_whole, View.set_whole]
  exact Entails.refl _

theorem rdT_conv11 (n : ℕ) (sm : SemLoc sig) (hsm : sm = rs11) (fold : Buf (Elt F) ((sl11).view.loc (Tt d))) (w : S4096x128.Idx → Elt F .f32) (hw : w = tData m d (chT n))
    (P : sProp 𝕄) (hP : P = xTp m d n) :
    (Transfers.Flight countersEmb (Tt d) sm (default : HIx 1) NT
        iprop(((sl11).view.loc (Tt d) ↦{fullShare} (sl11).view.write (Elt F) fold w Finset.univ) ∗ P) : sProp 𝕄)
      ⊢ rdF11 m d n := by
  subst hw hP hsm
  unfold rdF11
  refine Transfers.Flight_mono countersEmb (Tt d) ?_
  simp only [Memref.view_whole, View.write_whole_univ]
  exact Entails.refl _
theorem wrT_conv11 (fp : Buf (Elt F) (pLoc d)) (n : ℕ) (sm : SemLoc sig) (hsm : sm = ws11) (f : Buf (Elt F) ((sl11).view.loc (Tt d))) (hf : f = tData m d (chT n))
    (P : sProp 𝕄) (hP : P = pTp d (fun n => pNew m d fp (chT n)) n) :
    (Transfers.Flight countersEmb (Tt d) sm (default : HIx 1) NT
        iprop(P ∗ ((sl11).view.loc (Tt d) ↦[(sl11).view.set]{fullShare} f)) : sProp 𝕄)
      ⊢ wrF11 m d fp n := by
  subst hf hP hsm
  unfold wrF11
  refine Transfers.Flight_mono countersEmb (Tt d) ?_
  simp only [Memref.view_whole, View.set_whole]
  exact Entails.refl _

theorem rdT_conv12 (n : ℕ) (sm : SemLoc sig) (hsm : sm = rs12) (fold : Buf (Elt F) ((sl12).view.loc (Tt d))) (w : S4096x128.Idx → Elt F .f32) (hw : w = tData m d (chT n))
    (P : sProp 𝕄) (hP : P = xTp m d n) :
    (Transfers.Flight countersEmb (Tt d) sm (default : HIx 1) NT
        iprop(((sl12).view.loc (Tt d) ↦{fullShare} (sl12).view.write (Elt F) fold w Finset.univ) ∗ P) : sProp 𝕄)
      ⊢ rdF12 m d n := by
  subst hw hP hsm
  unfold rdF12
  refine Transfers.Flight_mono countersEmb (Tt d) ?_
  simp only [Memref.view_whole, View.write_whole_univ]
  exact Entails.refl _
theorem wrT_conv12 (fp : Buf (Elt F) (pLoc d)) (n : ℕ) (sm : SemLoc sig) (hsm : sm = ws12) (f : Buf (Elt F) ((sl12).view.loc (Tt d))) (hf : f = tData m d (chT n))
    (P : sProp 𝕄) (hP : P = pTp d (fun n => pNew m d fp (chT n)) n) :
    (Transfers.Flight countersEmb (Tt d) sm (default : HIx 1) NT
        iprop(P ∗ ((sl12).view.loc (Tt d) ↦[(sl12).view.set]{fullShare} f)) : sProp 𝕄)
      ⊢ wrF12 m d fp n := by
  subst hf hP hsm
  unfold wrF12
  refine Transfers.Flight_mono countersEmb (Tt d) ?_
  simp only [Memref.view_whole, View.set_whole]
  exact Entails.refl _

theorem rdT_conv13 (n : ℕ) (sm : SemLoc sig) (hsm : sm = rs13) (fold : Buf (Elt F) ((sl13).view.loc (Tt d))) (w : S4096x128.Idx → Elt F .f32) (hw : w = tData m d (chT n))
    (P : sProp 𝕄) (hP : P = xTp m d n) :
    (Transfers.Flight countersEmb (Tt d) sm (default : HIx 1) NT
        iprop(((sl13).view.loc (Tt d) ↦{fullShare} (sl13).view.write (Elt F) fold w Finset.univ) ∗ P) : sProp 𝕄)
      ⊢ rdF13 m d n := by
  subst hw hP hsm
  unfold rdF13
  refine Transfers.Flight_mono countersEmb (Tt d) ?_
  simp only [Memref.view_whole, View.write_whole_univ]
  exact Entails.refl _
theorem wrT_conv13 (fp : Buf (Elt F) (pLoc d)) (n : ℕ) (sm : SemLoc sig) (hsm : sm = ws13) (f : Buf (Elt F) ((sl13).view.loc (Tt d))) (hf : f = tData m d (chT n))
    (P : sProp 𝕄) (hP : P = pTp d (fun n => pNew m d fp (chT n)) n) :
    (Transfers.Flight countersEmb (Tt d) sm (default : HIx 1) NT
        iprop(P ∗ ((sl13).view.loc (Tt d) ↦[(sl13).view.set]{fullShare} f)) : sProp 𝕄)
      ⊢ wrF13 m d fp n := by
  subst hf hP hsm
  unfold wrF13
  refine Transfers.Flight_mono countersEmb (Tt d) ?_
  simp only [Memref.view_whole, View.set_whole]
  exact Entails.refl _

theorem rdT_conv14 (n : ℕ) (sm : SemLoc sig) (hsm : sm = rs14) (fold : Buf (Elt F) ((sl14).view.loc (Tt d))) (w : S4096x128.Idx → Elt F .f32) (hw : w = tData m d (chT n))
    (P : sProp 𝕄) (hP : P = xTp m d n) :
    (Transfers.Flight countersEmb (Tt d) sm (default : HIx 1) NT
        iprop(((sl14).view.loc (Tt d) ↦{fullShare} (sl14).view.write (Elt F) fold w Finset.univ) ∗ P) : sProp 𝕄)
      ⊢ rdF14 m d n := by
  subst hw hP hsm
  unfold rdF14
  refine Transfers.Flight_mono countersEmb (Tt d) ?_
  simp only [Memref.view_whole, View.write_whole_univ]
  exact Entails.refl _
theorem wrT_conv14 (fp : Buf (Elt F) (pLoc d)) (n : ℕ) (sm : SemLoc sig) (hsm : sm = ws14) (f : Buf (Elt F) ((sl14).view.loc (Tt d))) (hf : f = tData m d (chT n))
    (P : sProp 𝕄) (hP : P = pTp d (fun n => pNew m d fp (chT n)) n) :
    (Transfers.Flight countersEmb (Tt d) sm (default : HIx 1) NT
        iprop(P ∗ ((sl14).view.loc (Tt d) ↦[(sl14).view.set]{fullShare} f)) : sProp 𝕄)
      ⊢ wrF14 m d fp n := by
  subst hf hP hsm
  unfold wrF14
  refine Transfers.Flight_mono countersEmb (Tt d) ?_
  simp only [Memref.view_whole, View.set_whole]
  exact Entails.refl _

theorem rdT_conv15 (n : ℕ) (sm : SemLoc sig) (hsm : sm = rs15) (fold : Buf (Elt F) ((sl15).view.loc (Tt d))) (w : S4096x128.Idx → Elt F .f32) (hw : w = tData m d (chT n))
    (P : sProp 𝕄) (hP : P = xTp m d n) :
    (Transfers.Flight countersEmb (Tt d) sm (default : HIx 1) NT
        iprop(((sl15).view.loc (Tt d) ↦{fullShare} (sl15).view.write (Elt F) fold w Finset.univ) ∗ P) : sProp 𝕄)
      ⊢ rdF15 m d n := by
  subst hw hP hsm
  unfold rdF15
  refine Transfers.Flight_mono countersEmb (Tt d) ?_
  simp only [Memref.view_whole, View.write_whole_univ]
  exact Entails.refl _
theorem wrT_conv15 (fp : Buf (Elt F) (pLoc d)) (n : ℕ) (sm : SemLoc sig) (hsm : sm = ws15) (f : Buf (Elt F) ((sl15).view.loc (Tt d))) (hf : f = tData m d (chT n))
    (P : sProp 𝕄) (hP : P = pTp d (fun n => pNew m d fp (chT n)) n) :
    (Transfers.Flight countersEmb (Tt d) sm (default : HIx 1) NT
        iprop(P ∗ ((sl15).view.loc (Tt d) ↦[(sl15).view.set]{fullShare} f)) : sProp 𝕄)
      ⊢ wrF15 m d fp n := by
  subst hf hP hsm
  unfold wrF15
  refine Transfers.Flight_mono countersEmb (Tt d) ?_
  simp only [Memref.view_whole, View.set_whole]
  exact Entails.refl _

omit [FloatOps F] in
theorem icoT_split {a b c : ℕ} (hab : a ≤ b) (hbc : b ≤ c) (Ψ : ℕ → sProp 𝕄) :
    bigSep (Finset.Ico a c) Ψ = iprop(bigSep (Finset.Ico a b) Ψ ∗ bigSep (Finset.Ico b c) Ψ) := by
  rw [← Finset.Ico_union_Ico_eq_Ico hab hbc, bigSep_union (Finset.Ico_disjoint_Ico_consecutive a b c)]; rfl
omit [FloatOps F] in
theorem icoT_block8 (a : ℕ) (Ψ : ℕ → sProp 𝕄) :
    bigSep (Finset.Ico a (a + 8)) Ψ = iprop(Ψ (a) ∗ Ψ (a + 1) ∗ Ψ (a + 2) ∗ Ψ (a + 3) ∗ Ψ (a + 4) ∗ Ψ (a + 5) ∗ Ψ (a + 6) ∗ Ψ (a + 7) ∗ emp) := by
  rw [icoT_pop (show a < a + 8 by omega) Ψ, icoT_pop (show a + 1 < a + 8 by omega) Ψ, icoT_pop (show a + 2 < a + 8 by omega) Ψ, icoT_pop (show a + 3 < a + 8 by omega) Ψ, icoT_pop (show a + 4 < a + 8 by omega) Ψ, icoT_pop (show a + 5 < a + 8 by omega) Ψ, icoT_pop (show a + 6 < a + 8 by omega) Ψ, icoT_pop (show a + 7 < a + 8 by omega) Ψ, Finset.Ico_eq_empty_of_le (by omega), bigSep_empty]; rfl
omit [FloatOps F] in
theorem icoT_block8' (a : ℕ) (h : 8 ≤ a) (Ψ : ℕ → sProp 𝕄) :
    bigSep (Finset.Ico (a - 8) a) Ψ = iprop(Ψ (a - 8) ∗ Ψ (a - 8 + 1) ∗ Ψ (a - 8 + 2) ∗ Ψ (a - 8 + 3) ∗ Ψ (a - 8 + 4) ∗ Ψ (a - 8 + 5) ∗ Ψ (a - 8 + 6) ∗ Ψ (a - 8 + 7) ∗ emp) := by
  have e : Finset.Ico (a - 8) a = Finset.Ico (a - 8) (a - 8 + 8) := by rw [show a - 8 + 8 = a by omega]
  rw [e, icoT_block8]

set_option maxHeartbeats 4000000 in
theorem inv_open_firstT (fp : Buf (Elt F) (pLoc d)) (O : CellTallies nD τ sig (HIx 1)) (W : Waits sig (HIx 1)) (g : ℕ) (hg0 : g = 0) :
    invT m d fp O W g ⟨⟩ = iprop(Transfers.MayWaits (Tt d) (none : HIx 1) O
      ∗ (rdF0 m d (16 * g) ∗ rdF1 m d (16 * g + 1) ∗ rdF2 m d (16 * g + 2) ∗ rdF3 m d (16 * g + 3) ∗ rdF4 m d (16 * g + 4) ∗ rdF5 m d (16 * g + 5) ∗ rdF6 m d (16 * g + 6) ∗ rdF7 m d (16 * g + 7))
      ∗ ((∃ f, (sl8).view.loc (Tt d) ↦{fullShare} f) ∗ (∃ f, (sl9).view.loc (Tt d) ↦{fullShare} f) ∗ (∃ f, (sl10).view.loc (Tt d) ↦{fullShare} f) ∗ (∃ f, (sl11).view.loc (Tt d) ↦{fullShare} f) ∗ (∃ f, (sl12).view.loc (Tt d) ↦{fullShare} f) ∗ (∃ f, (sl13).view.loc (Tt d) ↦{fullShare} f) ∗ (∃ f, (sl14).view.loc (Tt d) ↦{fullShare} f) ∗ (∃ f, (sl15).view.loc (Tt d) ↦{fullShare} f) ∗ semVal (Tt d, ws8) 0 ∗ semVal (Tt d, ws9) 0 ∗ semVal (Tt d, ws10) 0 ∗ semVal (Tt d, ws11) 0 ∗ semVal (Tt d, ws12) 0 ∗ semVal (Tt d, ws13) 0 ∗ semVal (Tt d, ws14) 0 ∗ semVal (Tt d, ws15) 0)
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 0 (16 * g)) (xTp m d)
      ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ xTp m d (16 * g + 8 + 8) ∗ xTp m d (16 * g + 8 + 8 + 1) ∗ xTp m d (16 * g + 8 + 8 + 2) ∗ xTp m d (16 * g + 8 + 8 + 3) ∗ xTp m d (16 * g + 8 + 8 + 4) ∗ xTp m d (16 * g + 8 + 8 + 5) ∗ xTp m d (16 * g + 8 + 8 + 6) ∗ xTp m d (16 * g + 8 + 8 + 7) ∗ bigSep (Finset.Ico (16 * g + 8 + 8 + 8) 112) (xTp m d))
      ∗ bigSep (Finset.Ico 0 (16 * g - 8)) (pTp d fun n => pNew m d fp (chT n))
      ∗ (pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp))
      ∗ ∃ W', ⌜∀ p ∈ W', p ∈ W ∨ p.2 = none⌝ ∗ owes (Tt d) O W') := by
  unfold invT
  rw [if_pos (show g < 7 by omega), if_pos hg0]
  have hx : bigSep (Finset.Ico (16 * g + 8) 112) (xTp m d) = iprop(xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ xTp m d (16 * g + 8 + 8) ∗ xTp m d (16 * g + 8 + 8 + 1) ∗ xTp m d (16 * g + 8 + 8 + 2) ∗ xTp m d (16 * g + 8 + 8 + 3) ∗ xTp m d (16 * g + 8 + 8 + 4) ∗ xTp m d (16 * g + 8 + 8 + 5) ∗ xTp m d (16 * g + 8 + 8 + 6) ∗ xTp m d (16 * g + 8 + 8 + 7) ∗ bigSep (Finset.Ico (16 * g + 8 + 8 + 8) 112) (xTp m d)) := by
    rw [icoT_pop (show 16 * g + 8 < 112 by omega) (xTp m d), icoT_pop (show 16 * g + 8 + 1 < 112 by omega) (xTp m d), icoT_pop (show 16 * g + 8 + 2 < 112 by omega) (xTp m d), icoT_pop (show 16 * g + 8 + 3 < 112 by omega) (xTp m d), icoT_pop (show 16 * g + 8 + 4 < 112 by omega) (xTp m d), icoT_pop (show 16 * g + 8 + 5 < 112 by omega) (xTp m d), icoT_pop (show 16 * g + 8 + 6 < 112 by omega) (xTp m d), icoT_pop (show 16 * g + 8 + 7 < 112 by omega) (xTp m d), show 16 * g + 8 + 7 + 1 = 16 * g + 8 + 8 from by omega,
      icoT_pop (show 16 * g + 8 + 8 < 112 by omega) (xTp m d), icoT_pop (show 16 * g + 8 + 8 + 1 < 112 by omega) (xTp m d), icoT_pop (show 16 * g + 8 + 8 + 2 < 112 by omega) (xTp m d), icoT_pop (show 16 * g + 8 + 8 + 3 < 112 by omega) (xTp m d), icoT_pop (show 16 * g + 8 + 8 + 4 < 112 by omega) (xTp m d), icoT_pop (show 16 * g + 8 + 8 + 5 < 112 by omega) (xTp m d), icoT_pop (show 16 * g + 8 + 8 + 6 < 112 by omega) (xTp m d), icoT_pop (show 16 * g + 8 + 8 + 7 < 112 by omega) (xTp m d), show 16 * g + 8 + 8 + 7 + 1 = 16 * g + 8 + 8 + 8 from by omega]
  have hp : bigSep (Finset.Ico (16 * g) 112) (pTp d fun _ => fp) = iprop(pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp)) := by
    rw [icoT_pop (show 16 * g < 112 by omega) (pTp d fun _ => fp), icoT_pop (show 16 * g + 1 < 112 by omega) (pTp d fun _ => fp), icoT_pop (show 16 * g + 2 < 112 by omega) (pTp d fun _ => fp), icoT_pop (show 16 * g + 3 < 112 by omega) (pTp d fun _ => fp), icoT_pop (show 16 * g + 4 < 112 by omega) (pTp d fun _ => fp), icoT_pop (show 16 * g + 5 < 112 by omega) (pTp d fun _ => fp), icoT_pop (show 16 * g + 6 < 112 by omega) (pTp d fun _ => fp), icoT_pop (show 16 * g + 7 < 112 by omega) (pTp d fun _ => fp), show 16 * g + 7 + 1 = 16 * g + 8 from by omega,
      icoT_pop (show 16 * g + 8 < 112 by omega) (pTp d fun _ => fp), icoT_pop (show 16 * g + 8 + 1 < 112 by omega) (pTp d fun _ => fp), icoT_pop (show 16 * g + 8 + 2 < 112 by omega) (pTp d fun _ => fp), icoT_pop (show 16 * g + 8 + 3 < 112 by omega) (pTp d fun _ => fp), icoT_pop (show 16 * g + 8 + 4 < 112 by omega) (pTp d fun _ => fp), icoT_pop (show 16 * g + 8 + 5 < 112 by omega) (pTp d fun _ => fp), icoT_pop (show 16 * g + 8 + 6 < 112 by omega) (pTp d fun _ => fp), icoT_pop (show 16 * g + 8 + 7 < 112 by omega) (pTp d fun _ => fp), show 16 * g + 8 + 7 + 1 = 16 * g + 8 + 8 from by omega]
  rw [hx, hp]

set_option maxHeartbeats 4000000 in
theorem inv_close_firstT (fp : Buf (Elt F) (pLoc d)) (O : CellTallies nD τ sig (HIx 1)) (W W'' : Waits sig (HIx 1)) (g : ℕ) (hg0 : g = 0)
    (hW'' : ∀ p ∈ W'', p ∈ W ∨ p.2 = none) :
    iprop(Transfers.MayWaits (Tt d) (none : HIx 1) O
      ∗ (rdF0 m d (16 * g + 8 + 8) ∗ rdF1 m d (16 * g + 8 + 8 + 1) ∗ rdF2 m d (16 * g + 8 + 8 + 2) ∗ rdF3 m d (16 * g + 8 + 8 + 3) ∗ rdF4 m d (16 * g + 8 + 8 + 4) ∗ rdF5 m d (16 * g + 8 + 8 + 5) ∗ rdF6 m d (16 * g + 8 + 8 + 6) ∗ rdF7 m d (16 * g + 8 + 8 + 7))
      ∗ (wrF8 m d fp (16 * g + 8) ∗ wrF9 m d fp (16 * g + 8 + 1) ∗ wrF10 m d fp (16 * g + 8 + 2) ∗ wrF11 m d fp (16 * g + 8 + 3) ∗ wrF12 m d fp (16 * g + 8 + 4) ∗ wrF13 m d fp (16 * g + 8 + 5) ∗ wrF14 m d fp (16 * g + 8 + 6) ∗ wrF15 m d fp (16 * g + 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ (bigSep (Finset.Ico 0 (16 * g)) (xTp m d) ∗ (xTp m d (16 * g) ∗ xTp m d (16 * g + 1) ∗ xTp m d (16 * g + 2) ∗ xTp m d (16 * g + 3) ∗ xTp m d (16 * g + 4) ∗ xTp m d (16 * g + 5) ∗ xTp m d (16 * g + 6) ∗ xTp m d (16 * g + 7) ∗ emp) ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ emp))
      ∗ bigSep (Finset.Ico (16 * g + 8 + 8 + 8) 112) (xTp m d)
      ∗ (bigSep (Finset.Ico 0 (16 * g)) (pTp d fun n => pNew m d fp (chT n)) ∗ (pTp d (fun n => pNew m d fp (chT n)) (16 * g) ∗ pTp d (fun n => pNew m d fp (chT n)) (16 * g + 1) ∗ pTp d (fun n => pNew m d fp (chT n)) (16 * g + 2) ∗ pTp d (fun n => pNew m d fp (chT n)) (16 * g + 3) ∗ pTp d (fun n => pNew m d fp (chT n)) (16 * g + 4) ∗ pTp d (fun n => pNew m d fp (chT n)) (16 * g + 5) ∗ pTp d (fun n => pNew m d fp (chT n)) (16 * g + 6) ∗ pTp d (fun n => pNew m d fp (chT n)) (16 * g + 7) ∗ emp))
      ∗ bigSep (Finset.Ico (16 * g + 8 + 8) 112) (pTp d fun _ => fp)
      ∗ owes (Tt d) O W'')
    ⊢ invT m d fp O W (g + 1) ⟨⟩ := by
  unfold invT
  rw [if_pos (show g + 1 < 7 by omega), if_neg (show ¬ g + 1 = 0 by omega), show 16 * (g + 1) = 16 * g + 8 + 8 from by omega,
    show 16 * g + 8 + 8 - 8 = 16 * g + 8 from by omega,
    icoT_split (Nat.zero_le (16 * g)) (show 16 * g ≤ 16 * g + 8 + 8 by omega) (xTp m d),
    icoT_split (show 16 * g ≤ 16 * g + 8 by omega) (show 16 * g + 8 ≤ 16 * g + 8 + 8 by omega) (xTp m d),
    icoT_block8 (16 * g) (xTp m d), icoT_block8 (16 * g + 8) (xTp m d),
    icoT_split (Nat.zero_le (16 * g)) (show 16 * g ≤ 16 * g + 8 by omega) (pTp d fun n => pNew m d fp (chT n)), icoT_block8 (16 * g) (pTp d fun n => pNew m d fp (chT n))]
  iintro ⟨Hmw, Hrd, Hwr, Hr8, Hr9, Hr10, Hr11, Hr12, Hr13, Hr14, Hr15, Hw0, Hw1, Hw2, Hw3, Hw4, Hw5, Hw6, Hw7, ⟨HxA, Hx1, Hx2⟩, HxB, ⟨HpA, Hp1⟩, HpB, HO⟩
  isplitl [Hmw]; · iexact Hmw
  isplitl [Hrd]; · iexact Hrd
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hx1 Hx2]
  · isplitl [HxA]; · iexact HxA
    isplitl [Hx1]; · iexact Hx1
    iexact Hx2
  isplitl [HxB]; · iexact HxB
  isplitl [HpA Hp1]
  · isplitl [HpA]; · iexact HpA
    iexact Hp1
  isplitl [HpB]; · iexact HpB
  iexists W''; isplitr
  · ipureintro; exact hW''
  · iexact HO

set_option maxHeartbeats 4000000 in
theorem inv_open_midT (fp : Buf (Elt F) (pLoc d)) (O : CellTallies nD τ sig (HIx 1)) (W : Waits sig (HIx 1)) (g : ℕ) (hg1 : 1 ≤ g) (hg6 : g < 6) :
    invT m d fp O W g ⟨⟩ = iprop(Transfers.MayWaits (Tt d) (none : HIx 1) O
      ∗ (rdF0 m d (16 * g) ∗ rdF1 m d (16 * g + 1) ∗ rdF2 m d (16 * g + 2) ∗ rdF3 m d (16 * g + 3) ∗ rdF4 m d (16 * g + 4) ∗ rdF5 m d (16 * g + 5) ∗ rdF6 m d (16 * g + 6) ∗ rdF7 m d (16 * g + 7))
      ∗ (wrF8 m d fp (16 * g - 8) ∗ wrF9 m d fp (16 * g - 8 + 1) ∗ wrF10 m d fp (16 * g - 8 + 2) ∗ wrF11 m d fp (16 * g - 8 + 3) ∗ wrF12 m d fp (16 * g - 8 + 4) ∗ wrF13 m d fp (16 * g - 8 + 5) ∗ wrF14 m d fp (16 * g - 8 + 6) ∗ wrF15 m d fp (16 * g - 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 0 (16 * g)) (xTp m d)
      ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ xTp m d (16 * g + 8 + 8) ∗ xTp m d (16 * g + 8 + 8 + 1) ∗ xTp m d (16 * g + 8 + 8 + 2) ∗ xTp m d (16 * g + 8 + 8 + 3) ∗ xTp m d (16 * g + 8 + 8 + 4) ∗ xTp m d (16 * g + 8 + 8 + 5) ∗ xTp m d (16 * g + 8 + 8 + 6) ∗ xTp m d (16 * g + 8 + 8 + 7) ∗ bigSep (Finset.Ico (16 * g + 8 + 8 + 8) 112) (xTp m d))
      ∗ bigSep (Finset.Ico 0 (16 * g - 8)) (pTp d fun n => pNew m d fp (chT n))
      ∗ (pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp))
      ∗ ∃ W', ⌜∀ p ∈ W', p ∈ W ∨ p.2 = none⌝ ∗ owes (Tt d) O W') := by
  unfold invT
  rw [if_pos (show g < 7 by omega), if_neg (show ¬ g = 0 by omega)]
  have hx : bigSep (Finset.Ico (16 * g + 8) 112) (xTp m d) = iprop(xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ xTp m d (16 * g + 8 + 8) ∗ xTp m d (16 * g + 8 + 8 + 1) ∗ xTp m d (16 * g + 8 + 8 + 2) ∗ xTp m d (16 * g + 8 + 8 + 3) ∗ xTp m d (16 * g + 8 + 8 + 4) ∗ xTp m d (16 * g + 8 + 8 + 5) ∗ xTp m d (16 * g + 8 + 8 + 6) ∗ xTp m d (16 * g + 8 + 8 + 7) ∗ bigSep (Finset.Ico (16 * g + 8 + 8 + 8) 112) (xTp m d)) := by
    rw [icoT_pop (show 16 * g + 8 < 112 by omega) (xTp m d), icoT_pop (show 16 * g + 8 + 1 < 112 by omega) (xTp m d), icoT_pop (show 16 * g + 8 + 2 < 112 by omega) (xTp m d), icoT_pop (show 16 * g + 8 + 3 < 112 by omega) (xTp m d), icoT_pop (show 16 * g + 8 + 4 < 112 by omega) (xTp m d), icoT_pop (show 16 * g + 8 + 5 < 112 by omega) (xTp m d), icoT_pop (show 16 * g + 8 + 6 < 112 by omega) (xTp m d), icoT_pop (show 16 * g + 8 + 7 < 112 by omega) (xTp m d), show 16 * g + 8 + 7 + 1 = 16 * g + 8 + 8 from by omega,
      icoT_pop (show 16 * g + 8 + 8 < 112 by omega) (xTp m d), icoT_pop (show 16 * g + 8 + 8 + 1 < 112 by omega) (xTp m d), icoT_pop (show 16 * g + 8 + 8 + 2 < 112 by omega) (xTp m d), icoT_pop (show 16 * g + 8 + 8 + 3 < 112 by omega) (xTp m d), icoT_pop (show 16 * g + 8 + 8 + 4 < 112 by omega) (xTp m d), icoT_pop (show 16 * g + 8 + 8 + 5 < 112 by omega) (xTp m d), icoT_pop (show 16 * g + 8 + 8 + 6 < 112 by omega) (xTp m d), icoT_pop (show 16 * g + 8 + 8 + 7 < 112 by omega) (xTp m d), show 16 * g + 8 + 8 + 7 + 1 = 16 * g + 8 + 8 + 8 from by omega]
  have hp : bigSep (Finset.Ico (16 * g) 112) (pTp d fun _ => fp) = iprop(pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp)) := by
    rw [icoT_pop (show 16 * g < 112 by omega) (pTp d fun _ => fp), icoT_pop (show 16 * g + 1 < 112 by omega) (pTp d fun _ => fp), icoT_pop (show 16 * g + 2 < 112 by omega) (pTp d fun _ => fp), icoT_pop (show 16 * g + 3 < 112 by omega) (pTp d fun _ => fp), icoT_pop (show 16 * g + 4 < 112 by omega) (pTp d fun _ => fp), icoT_pop (show 16 * g + 5 < 112 by omega) (pTp d fun _ => fp), icoT_pop (show 16 * g + 6 < 112 by omega) (pTp d fun _ => fp), icoT_pop (show 16 * g + 7 < 112 by omega) (pTp d fun _ => fp), show 16 * g + 7 + 1 = 16 * g + 8 from by omega,
      icoT_pop (show 16 * g + 8 < 112 by omega) (pTp d fun _ => fp), icoT_pop (show 16 * g + 8 + 1 < 112 by omega) (pTp d fun _ => fp), icoT_pop (show 16 * g + 8 + 2 < 112 by omega) (pTp d fun _ => fp), icoT_pop (show 16 * g + 8 + 3 < 112 by omega) (pTp d fun _ => fp), icoT_pop (show 16 * g + 8 + 4 < 112 by omega) (pTp d fun _ => fp), icoT_pop (show 16 * g + 8 + 5 < 112 by omega) (pTp d fun _ => fp), icoT_pop (show 16 * g + 8 + 6 < 112 by omega) (pTp d fun _ => fp), icoT_pop (show 16 * g + 8 + 7 < 112 by omega) (pTp d fun _ => fp), show 16 * g + 8 + 7 + 1 = 16 * g + 8 + 8 from by omega]
  rw [hx, hp]

set_option maxHeartbeats 4000000 in
theorem inv_close_midT (fp : Buf (Elt F) (pLoc d)) (O : CellTallies nD τ sig (HIx 1)) (W W'' : Waits sig (HIx 1)) (g : ℕ) (hg1 : 1 ≤ g) (hg6 : g < 6)
    (hW'' : ∀ p ∈ W'', p ∈ W ∨ p.2 = none) :
    iprop(Transfers.MayWaits (Tt d) (none : HIx 1) O
      ∗ (rdF0 m d (16 * g + 8 + 8) ∗ rdF1 m d (16 * g + 8 + 8 + 1) ∗ rdF2 m d (16 * g + 8 + 8 + 2) ∗ rdF3 m d (16 * g + 8 + 8 + 3) ∗ rdF4 m d (16 * g + 8 + 8 + 4) ∗ rdF5 m d (16 * g + 8 + 8 + 5) ∗ rdF6 m d (16 * g + 8 + 8 + 6) ∗ rdF7 m d (16 * g + 8 + 8 + 7))
      ∗ (wrF8 m d fp (16 * g + 8) ∗ wrF9 m d fp (16 * g + 8 + 1) ∗ wrF10 m d fp (16 * g + 8 + 2) ∗ wrF11 m d fp (16 * g + 8 + 3) ∗ wrF12 m d fp (16 * g + 8 + 4) ∗ wrF13 m d fp (16 * g + 8 + 5) ∗ wrF14 m d fp (16 * g + 8 + 6) ∗ wrF15 m d fp (16 * g + 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ (bigSep (Finset.Ico 0 (16 * g)) (xTp m d) ∗ (xTp m d (16 * g) ∗ xTp m d (16 * g + 1) ∗ xTp m d (16 * g + 2) ∗ xTp m d (16 * g + 3) ∗ xTp m d (16 * g + 4) ∗ xTp m d (16 * g + 5) ∗ xTp m d (16 * g + 6) ∗ xTp m d (16 * g + 7) ∗ emp) ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ emp))
      ∗ bigSep (Finset.Ico (16 * g + 8 + 8 + 8) 112) (xTp m d)
      ∗ (bigSep (Finset.Ico 0 (16 * g - 8)) (pTp d fun n => pNew m d fp (chT n)) ∗ (pTp d (fun n => pNew m d fp (chT n)) (16 * g - 8) ∗ pTp d (fun n => pNew m d fp (chT n)) (16 * g - 8 + 1) ∗ pTp d (fun n => pNew m d fp (chT n)) (16 * g - 8 + 2) ∗ pTp d (fun n => pNew m d fp (chT n)) (16 * g - 8 + 3) ∗ pTp d (fun n => pNew m d fp (chT n)) (16 * g - 8 + 4) ∗ pTp d (fun n => pNew m d fp (chT n)) (16 * g - 8 + 5) ∗ pTp d (fun n => pNew m d fp (chT n)) (16 * g - 8 + 6) ∗ pTp d (fun n => pNew m d fp (chT n)) (16 * g - 8 + 7) ∗ emp)
          ∗ (pTp d (fun n => pNew m d fp (chT n)) (16 * g) ∗ pTp d (fun n => pNew m d fp (chT n)) (16 * g + 1) ∗ pTp d (fun n => pNew m d fp (chT n)) (16 * g + 2) ∗ pTp d (fun n => pNew m d fp (chT n)) (16 * g + 3) ∗ pTp d (fun n => pNew m d fp (chT n)) (16 * g + 4) ∗ pTp d (fun n => pNew m d fp (chT n)) (16 * g + 5) ∗ pTp d (fun n => pNew m d fp (chT n)) (16 * g + 6) ∗ pTp d (fun n => pNew m d fp (chT n)) (16 * g + 7) ∗ emp))
      ∗ bigSep (Finset.Ico (16 * g + 8 + 8) 112) (pTp d fun _ => fp)
      ∗ owes (Tt d) O W'')
    ⊢ invT m d fp O W (g + 1) ⟨⟩ := by
  unfold invT
  rw [if_pos (show g + 1 < 7 by omega), if_neg (show ¬ g + 1 = 0 by omega), show 16 * (g + 1) = 16 * g + 8 + 8 from by omega,
    show 16 * g + 8 + 8 - 8 = 16 * g + 8 from by omega,
    icoT_split (Nat.zero_le (16 * g)) (show 16 * g ≤ 16 * g + 8 + 8 by omega) (xTp m d),
    icoT_split (show 16 * g ≤ 16 * g + 8 by omega) (show 16 * g + 8 ≤ 16 * g + 8 + 8 by omega) (xTp m d),
    icoT_block8 (16 * g) (xTp m d), icoT_block8 (16 * g + 8) (xTp m d),
    icoT_split (Nat.zero_le (16 * g - 8)) (show 16 * g - 8 ≤ 16 * g + 8 by omega) (pTp d fun n => pNew m d fp (chT n)),
    icoT_split (show 16 * g - 8 ≤ 16 * g by omega) (show 16 * g ≤ 16 * g + 8 by omega) (pTp d fun n => pNew m d fp (chT n)),
    icoT_block8' (16 * g) (by omega) (pTp d fun n => pNew m d fp (chT n)), icoT_block8 (16 * g) (pTp d fun n => pNew m d fp (chT n))]
  iintro ⟨Hmw, Hrd, Hwr, Hr8, Hr9, Hr10, Hr11, Hr12, Hr13, Hr14, Hr15, Hw0, Hw1, Hw2, Hw3, Hw4, Hw5, Hw6, Hw7, ⟨HxA, Hx1, Hx2⟩, HxB, ⟨HpA, HpM, Hp1⟩, HpB, HO⟩
  isplitl [Hmw]; · iexact Hmw
  isplitl [Hrd]; · iexact Hrd
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hx1 Hx2]
  · isplitl [HxA]; · iexact HxA
    isplitl [Hx1]; · iexact Hx1
    iexact Hx2
  isplitl [HxB]; · iexact HxB
  isplitl [HpA HpM Hp1]
  · isplitl [HpA]; · iexact HpA
    isplitl [HpM]; · iexact HpM
    iexact Hp1
  isplitl [HpB]; · iexact HpB
  iexists W''; isplitr
  · ipureintro; exact hW''
  · iexact HO

set_option maxHeartbeats 4000000 in
theorem inv_open_lastT (fp : Buf (Elt F) (pLoc d)) (O : CellTallies nD τ sig (HIx 1)) (W : Waits sig (HIx 1)) (g : ℕ) (hg6 : g = 6) :
    invT m d fp O W g ⟨⟩ = iprop(Transfers.MayWaits (Tt d) (none : HIx 1) O
      ∗ (rdF0 m d (16 * g) ∗ rdF1 m d (16 * g + 1) ∗ rdF2 m d (16 * g + 2) ∗ rdF3 m d (16 * g + 3) ∗ rdF4 m d (16 * g + 4) ∗ rdF5 m d (16 * g + 5) ∗ rdF6 m d (16 * g + 6) ∗ rdF7 m d (16 * g + 7))
      ∗ (wrF8 m d fp (16 * g - 8) ∗ wrF9 m d fp (16 * g - 8 + 1) ∗ wrF10 m d fp (16 * g - 8 + 2) ∗ wrF11 m d fp (16 * g - 8 + 3) ∗ wrF12 m d fp (16 * g - 8 + 4) ∗ wrF13 m d fp (16 * g - 8 + 5) ∗ wrF14 m d fp (16 * g - 8 + 6) ∗ wrF15 m d fp (16 * g - 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 0 (16 * g)) (xTp m d)
      ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ bigSep (Finset.Ico (16 * g + 8 + 8) 112) (xTp m d))
      ∗ bigSep (Finset.Ico 0 (16 * g - 8)) (pTp d fun n => pNew m d fp (chT n))
      ∗ (pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp))
      ∗ ∃ W', ⌜∀ p ∈ W', p ∈ W ∨ p.2 = none⌝ ∗ owes (Tt d) O W') := by
  unfold invT
  rw [if_pos (show g < 7 by omega), if_neg (show ¬ g = 0 by omega)]
  have hx : bigSep (Finset.Ico (16 * g + 8) 112) (xTp m d) = iprop(xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ bigSep (Finset.Ico (16 * g + 8 + 8) 112) (xTp m d)) := by
    rw [icoT_pop (show 16 * g + 8 < 112 by omega) (xTp m d), icoT_pop (show 16 * g + 8 + 1 < 112 by omega) (xTp m d), icoT_pop (show 16 * g + 8 + 2 < 112 by omega) (xTp m d), icoT_pop (show 16 * g + 8 + 3 < 112 by omega) (xTp m d), icoT_pop (show 16 * g + 8 + 4 < 112 by omega) (xTp m d), icoT_pop (show 16 * g + 8 + 5 < 112 by omega) (xTp m d), icoT_pop (show 16 * g + 8 + 6 < 112 by omega) (xTp m d), icoT_pop (show 16 * g + 8 + 7 < 112 by omega) (xTp m d), show 16 * g + 8 + 7 + 1 = 16 * g + 8 + 8 from by omega]
  have hp : bigSep (Finset.Ico (16 * g) 112) (pTp d fun _ => fp) = iprop(pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp)) := by
    rw [icoT_pop (show 16 * g < 112 by omega) (pTp d fun _ => fp), icoT_pop (show 16 * g + 1 < 112 by omega) (pTp d fun _ => fp), icoT_pop (show 16 * g + 2 < 112 by omega) (pTp d fun _ => fp), icoT_pop (show 16 * g + 3 < 112 by omega) (pTp d fun _ => fp), icoT_pop (show 16 * g + 4 < 112 by omega) (pTp d fun _ => fp), icoT_pop (show 16 * g + 5 < 112 by omega) (pTp d fun _ => fp), icoT_pop (show 16 * g + 6 < 112 by omega) (pTp d fun _ => fp), icoT_pop (show 16 * g + 7 < 112 by omega) (pTp d fun _ => fp), show 16 * g + 7 + 1 = 16 * g + 8 from by omega,
      icoT_pop (show 16 * g + 8 < 112 by omega) (pTp d fun _ => fp), icoT_pop (show 16 * g + 8 + 1 < 112 by omega) (pTp d fun _ => fp), icoT_pop (show 16 * g + 8 + 2 < 112 by omega) (pTp d fun _ => fp), icoT_pop (show 16 * g + 8 + 3 < 112 by omega) (pTp d fun _ => fp), icoT_pop (show 16 * g + 8 + 4 < 112 by omega) (pTp d fun _ => fp), icoT_pop (show 16 * g + 8 + 5 < 112 by omega) (pTp d fun _ => fp), icoT_pop (show 16 * g + 8 + 6 < 112 by omega) (pTp d fun _ => fp), icoT_pop (show 16 * g + 8 + 7 < 112 by omega) (pTp d fun _ => fp), show 16 * g + 8 + 7 + 1 = 16 * g + 8 + 8 from by omega]
  rw [hx, hp]

set_option maxHeartbeats 4000000 in
theorem inv_close_lastT (fp : Buf (Elt F) (pLoc d)) (O : CellTallies nD τ sig (HIx 1)) (W W'' : Waits sig (HIx 1)) (g : ℕ) (hg6 : g = 6)
    (hW'' : ∀ p ∈ W'', p ∈ W ∨ p.2 = none) :
    iprop(Transfers.MayWaits (Tt d) (none : HIx 1) O
      ∗ ((∃ f, (sl0).view.loc (Tt d) ↦{fullShare} f) ∗ (∃ f, (sl1).view.loc (Tt d) ↦{fullShare} f) ∗ (∃ f, (sl2).view.loc (Tt d) ↦{fullShare} f) ∗ (∃ f, (sl3).view.loc (Tt d) ↦{fullShare} f) ∗ (∃ f, (sl4).view.loc (Tt d) ↦{fullShare} f) ∗ (∃ f, (sl5).view.loc (Tt d) ↦{fullShare} f) ∗ (∃ f, (sl6).view.loc (Tt d) ↦{fullShare} f) ∗ (∃ f, (sl7).view.loc (Tt d) ↦{fullShare} f) ∗ semVal (Tt d, rs0) 0 ∗ semVal (Tt d, rs1) 0 ∗ semVal (Tt d, rs2) 0 ∗ semVal (Tt d, rs3) 0 ∗ semVal (Tt d, rs4) 0 ∗ semVal (Tt d, rs5) 0 ∗ semVal (Tt d, rs6) 0 ∗ semVal (Tt d, rs7) 0)
      ∗ (wrF8 m d fp (16 * g + 8) ∗ wrF9 m d fp (16 * g + 8 + 1) ∗ wrF10 m d fp (16 * g + 8 + 2) ∗ wrF11 m d fp (16 * g + 8 + 3) ∗ wrF12 m d fp (16 * g + 8 + 4) ∗ wrF13 m d fp (16 * g + 8 + 5) ∗ wrF14 m d fp (16 * g + 8 + 6) ∗ wrF15 m d fp (16 * g + 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ (bigSep (Finset.Ico 0 (16 * g)) (xTp m d) ∗ (xTp m d (16 * g) ∗ xTp m d (16 * g + 1) ∗ xTp m d (16 * g + 2) ∗ xTp m d (16 * g + 3) ∗ xTp m d (16 * g + 4) ∗ xTp m d (16 * g + 5) ∗ xTp m d (16 * g + 6) ∗ xTp m d (16 * g + 7) ∗ emp) ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ emp))
      ∗ bigSep (Finset.Ico (16 * g + 8 + 8 + 8) 112) (xTp m d)
      ∗ (bigSep (Finset.Ico 0 (16 * g - 8)) (pTp d fun n => pNew m d fp (chT n)) ∗ (pTp d (fun n => pNew m d fp (chT n)) (16 * g - 8) ∗ pTp d (fun n => pNew m d fp (chT n)) (16 * g - 8 + 1) ∗ pTp d (fun n => pNew m d fp (chT n)) (16 * g - 8 + 2) ∗ pTp d (fun n => pNew m d fp (chT n)) (16 * g - 8 + 3) ∗ pTp d (fun n => pNew m d fp (chT n)) (16 * g - 8 + 4) ∗ pTp d (fun n => pNew m d fp (chT n)) (16 * g - 8 + 5) ∗ pTp d (fun n => pNew m d fp (chT n)) (16 * g - 8 + 6) ∗ pTp d (fun n => pNew m d fp (chT n)) (16 * g - 8 + 7) ∗ emp)
          ∗ (pTp d (fun n => pNew m d fp (chT n)) (16 * g) ∗ pTp d (fun n => pNew m d fp (chT n)) (16 * g + 1) ∗ pTp d (fun n => pNew m d fp (chT n)) (16 * g + 2) ∗ pTp d (fun n => pNew m d fp (chT n)) (16 * g + 3) ∗ pTp d (fun n => pNew m d fp (chT n)) (16 * g + 4) ∗ pTp d (fun n => pNew m d fp (chT n)) (16 * g + 5) ∗ pTp d (fun n => pNew m d fp (chT n)) (16 * g + 6) ∗ pTp d (fun n => pNew m d fp (chT n)) (16 * g + 7) ∗ emp))
      ∗ bigSep (Finset.Ico (16 * g + 8 + 8) 112) (pTp d fun _ => fp)
      ∗ owes (Tt d) O W'')
    ⊢ invT m d fp O W (g + 1) ⟨⟩ := by
  unfold invT
  rw [if_neg (show ¬ g + 1 < 7 by omega), if_neg (show ¬ g + 1 = 0 by omega), show 16 * (g + 1) = 16 * g + 8 + 8 from by omega,
    show 16 * g + 8 + 8 - 8 = 16 * g + 8 from by omega,
    icoT_split (Nat.zero_le (16 * g)) (show 16 * g ≤ 16 * g + 8 + 8 by omega) (xTp m d),
    icoT_split (show 16 * g ≤ 16 * g + 8 by omega) (show 16 * g + 8 ≤ 16 * g + 8 + 8 by omega) (xTp m d),
    icoT_block8 (16 * g) (xTp m d), icoT_block8 (16 * g + 8) (xTp m d),
    icoT_split (Nat.zero_le (16 * g - 8)) (show 16 * g - 8 ≤ 16 * g + 8 by omega) (pTp d fun n => pNew m d fp (chT n)),
    icoT_split (show 16 * g - 8 ≤ 16 * g by omega) (show 16 * g ≤ 16 * g + 8 by omega) (pTp d fun n => pNew m d fp (chT n)),
    icoT_block8' (16 * g) (by omega) (pTp d fun n => pNew m d fp (chT n)), icoT_block8 (16 * g) (pTp d fun n => pNew m d fp (chT n))]
  iintro ⟨Hmw, Hrd, Hwr, Hr8, Hr9, Hr10, Hr11, Hr12, Hr13, Hr14, Hr15, Hw0, Hw1, Hw2, Hw3, Hw4, Hw5, Hw6, Hw7, ⟨HxA, Hx1, Hx2⟩, HxB, ⟨HpA, HpM, Hp1⟩, HpB, HO⟩
  isplitl [Hmw]; · iexact Hmw
  isplitl [Hrd]; · iexact Hrd
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hx1 Hx2]
  · isplitl [HxA]; · iexact HxA
    isplitl [Hx1]; · iexact Hx1
    iexact Hx2
  isplitl [HxB]; · iexact HxB
  isplitl [HpA HpM Hp1]
  · isplitl [HpA]; · iexact HpA
    isplitl [HpM]; · iexact HpM
    iexact Hp1
  isplitl [HpB]; · iexact HpB
  iexists W''; isplitr
  · ipureintro; exact hW''
  · iexact HO

set_option maxHeartbeats 16000000 in
/-- The first trip (g = 0): no earlier write is waited for — buffers 8..15 start idle. -/
theorem tripT_first (fp : Buf (Elt F) (pLoc d)) (O : CellTallies nD τ sig (HIx 1)) (W : Waits sig (HIx 1))
    (k : Fin k0_t1_loop.trips) (hk0 : k.val = 0) :
    invT m d fp O W k.val ⟨⟩
      ⊢ wp frame (wpE (defs₀ (F := F)) 𝒱₀ (Tt d) none) Set.univ
          (k0_t1_body xT (Memref.isWhole_whole _) pT (Memref.isWhole_whole _) sl0 (Memref.isWhole_whole _) sl1 (Memref.isWhole_whole _) sl2 (Memref.isWhole_whole _) sl3 (Memref.isWhole_whole _) sl4 (Memref.isWhole_whole _) sl5 (Memref.isWhole_whole _) sl6 (Memref.isWhole_whole _) sl7 (Memref.isWhole_whole _) sl8 (Memref.isWhole_whole _) sl9 (Memref.isWhole_whole _) sl10 (Memref.isWhole_whole _) sl11 (Memref.isWhole_whole _) sl12 (Memref.isWhole_whole _) sl13 (Memref.isWhole_whole _) sl14 (Memref.isWhole_whole _) sl15 (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41 cc0_scratch42 cc0_scratch43 cc0_scratch44 cc0_scratch45 cc0_scratch46 cc0_scratch47 k ⟨⟩)
          (invT m d fp O W (k.val + 1)) := by
  have k0_h1 : k0_cond1 k = 1#1 := tcond1 k
  have k0_h2 : ¬ k0_cond2 k = 1#1 := fun h => by have := (tcond2 k).mp h; omega
  have k0_h3 : k0_cond3 k = 1#1 := tcond3 k
  have k0_h4 : k0_cond4 k = 1#1 := tcond4 k
  have k0_h5 : ¬ k0_cond5 k = 1#1 := fun h => by have := (tcond5 k).mp h; omega
  have k0_h6 : k0_cond6 k = 1#1 := tcond6 k
  have k0_h7 : k0_cond7 k = 1#1 := tcond7 k
  have k0_h8 : ¬ k0_cond8 k = 1#1 := fun h => by have := (tcond8 k).mp h; omega
  have k0_h9 : k0_cond9 k = 1#1 := tcond9 k
  have k0_h10 : k0_cond10 k = 1#1 := tcond10 k
  have k0_h11 : ¬ k0_cond11 k = 1#1 := fun h => by have := (tcond11 k).mp h; omega
  have k0_h12 : k0_cond12 k = 1#1 := tcond12 k
  have k0_h13 : k0_cond13 k = 1#1 := tcond13 k
  have k0_h14 : ¬ k0_cond14 k = 1#1 := fun h => by have := (tcond14 k).mp h; omega
  have k0_h15 : k0_cond15 k = 1#1 := tcond15 k
  have k0_h16 : k0_cond16 k = 1#1 := tcond16 k
  have k0_h17 : ¬ k0_cond17 k = 1#1 := fun h => by have := (tcond17 k).mp h; omega
  have k0_h18 : k0_cond18 k = 1#1 := tcond18 k
  have k0_h19 : k0_cond19 k = 1#1 := tcond19 k
  have k0_h20 : ¬ k0_cond20 k = 1#1 := fun h => by have := (tcond20 k).mp h; omega
  have k0_h21 : k0_cond21 k = 1#1 := tcond21 k
  have k0_h22 : k0_cond22 k = 1#1 := tcond22 k
  have k0_h23 : ¬ k0_cond23 k = 1#1 := fun h => by have := (tcond23 k).mp h; omega
  have k0_h24 : k0_cond24 k = 1#1 := tcond24 k
  have k0_h25 : k0_cond25 k = 1#1 := tcond25 k
  have k0_h26 : k0_cond26 k = 1#1 := tcond26 k
  have k0_h27 : k0_cond27 k = 1#1 := (tcond27 k).mpr (by omega)
  have k0_h28 : k0_cond28 k = 1#1 := tcond28 k
  have k0_h29 : k0_cond29 k = 1#1 := tcond29 k
  have k0_h30 : k0_cond30 k = 1#1 := (tcond30 k).mpr (by omega)
  have k0_h31 : k0_cond31 k = 1#1 := tcond31 k
  have k0_h32 : k0_cond32 k = 1#1 := tcond32 k
  have k0_h33 : k0_cond33 k = 1#1 := (tcond33 k).mpr (by omega)
  have k0_h34 : k0_cond34 k = 1#1 := tcond34 k
  have k0_h35 : k0_cond35 k = 1#1 := tcond35 k
  have k0_h36 : k0_cond36 k = 1#1 := (tcond36 k).mpr (by omega)
  have k0_h37 : k0_cond37 k = 1#1 := tcond37 k
  have k0_h38 : k0_cond38 k = 1#1 := tcond38 k
  have k0_h39 : k0_cond39 k = 1#1 := (tcond39 k).mpr (by omega)
  have k0_h40 : k0_cond40 k = 1#1 := tcond40 k
  have k0_h41 : k0_cond41 k = 1#1 := tcond41 k
  have k0_h42 : k0_cond42 k = 1#1 := (tcond42 k).mpr (by omega)
  have k0_h43 : k0_cond43 k = 1#1 := tcond43 k
  have k0_h44 : k0_cond44 k = 1#1 := tcond44 k
  have k0_h45 : k0_cond45 k = 1#1 := (tcond45 k).mpr (by omega)
  have k0_h46 : k0_cond46 k = 1#1 := tcond46 k
  have k0_h47 : k0_cond47 k = 1#1 := tcond47 k
  have k0_h48 : k0_cond48 k = 1#1 := (tcond48 k).mpr (by omega)
  unfold k0_t1_body
  simp only [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  have cw0 : k0_off1 k = tOff (chT (16 * k.val)).val := by rw [toff1, chT_val (by omega)] <;> first | rfl | exact congrArg tOff (by omega)
  have eP0 := pTp_spell d (fun _ => fp) (16 * k.val) cw0 (k0_off1_inb k k0_h1) (fun _ => rfl)
  have cr0 : k0_off3 k = tOff (chT (16 * k.val + 8)).val := by rw [toff3, chT_val (by omega)] <;> first | rfl | exact congrArg tOff (by omega)
  have eX0 := xTp_spell m d (16 * k.val + 8) cr0 (k0_off3_inb k k0_h3) (fun _ => rfl)
  have cw1 : k0_off4 k = tOff (chT (16 * k.val + 1)).val := by rw [toff4, chT_val (by omega)] <;> first | rfl | exact congrArg tOff (by omega)
  have eP1 := pTp_spell d (fun _ => fp) (16 * k.val + 1) cw1 (k0_off4_inb k k0_h4) (fun _ => rfl)
  have cr1 : k0_off6 k = tOff (chT (16 * k.val + 8 + 1)).val := by rw [toff6, chT_val (by omega)] <;> first | rfl | exact congrArg tOff (by omega)
  have eX1 := xTp_spell m d (16 * k.val + 8 + 1) cr1 (k0_off6_inb k k0_h6) (fun _ => rfl)
  have cw2 : k0_off7 k = tOff (chT (16 * k.val + 2)).val := by rw [toff7, chT_val (by omega)] <;> first | rfl | exact congrArg tOff (by omega)
  have eP2 := pTp_spell d (fun _ => fp) (16 * k.val + 2) cw2 (k0_off7_inb k k0_h7) (fun _ => rfl)
  have cr2 : k0_off9 k = tOff (chT (16 * k.val + 8 + 2)).val := by rw [toff9, chT_val (by omega)] <;> first | rfl | exact congrArg tOff (by omega)
  have eX2 := xTp_spell m d (16 * k.val + 8 + 2) cr2 (k0_off9_inb k k0_h9) (fun _ => rfl)
  have cw3 : k0_off10 k = tOff (chT (16 * k.val + 3)).val := by rw [toff10, chT_val (by omega)] <;> first | rfl | exact congrArg tOff (by omega)
  have eP3 := pTp_spell d (fun _ => fp) (16 * k.val + 3) cw3 (k0_off10_inb k k0_h10) (fun _ => rfl)
  have cr3 : k0_off12 k = tOff (chT (16 * k.val + 8 + 3)).val := by rw [toff12, chT_val (by omega)] <;> first | rfl | exact congrArg tOff (by omega)
  have eX3 := xTp_spell m d (16 * k.val + 8 + 3) cr3 (k0_off12_inb k k0_h12) (fun _ => rfl)
  have cw4 : k0_off13 k = tOff (chT (16 * k.val + 4)).val := by rw [toff13, chT_val (by omega)] <;> first | rfl | exact congrArg tOff (by omega)
  have eP4 := pTp_spell d (fun _ => fp) (16 * k.val + 4) cw4 (k0_off13_inb k k0_h13) (fun _ => rfl)
  have cr4 : k0_off15 k = tOff (chT (16 * k.val + 8 + 4)).val := by rw [toff15, chT_val (by omega)] <;> first | rfl | exact congrArg tOff (by omega)
  have eX4 := xTp_spell m d (16 * k.val + 8 + 4) cr4 (k0_off15_inb k k0_h15) (fun _ => rfl)
  have cw5 : k0_off16 k = tOff (chT (16 * k.val + 5)).val := by rw [toff16, chT_val (by omega)] <;> first | rfl | exact congrArg tOff (by omega)
  have eP5 := pTp_spell d (fun _ => fp) (16 * k.val + 5) cw5 (k0_off16_inb k k0_h16) (fun _ => rfl)
  have cr5 : k0_off18 k = tOff (chT (16 * k.val + 8 + 5)).val := by rw [toff18, chT_val (by omega)] <;> first | rfl | exact congrArg tOff (by omega)
  have eX5 := xTp_spell m d (16 * k.val + 8 + 5) cr5 (k0_off18_inb k k0_h18) (fun _ => rfl)
  have cw6 : k0_off19 k = tOff (chT (16 * k.val + 6)).val := by rw [toff19, chT_val (by omega)] <;> first | rfl | exact congrArg tOff (by omega)
  have eP6 := pTp_spell d (fun _ => fp) (16 * k.val + 6) cw6 (k0_off19_inb k k0_h19) (fun _ => rfl)
  have cr6 : k0_off21 k = tOff (chT (16 * k.val + 8 + 6)).val := by rw [toff21, chT_val (by omega)] <;> first | rfl | exact congrArg tOff (by omega)
  have eX6 := xTp_spell m d (16 * k.val + 8 + 6) cr6 (k0_off21_inb k k0_h21) (fun _ => rfl)
  have cw7 : k0_off22 k = tOff (chT (16 * k.val + 7)).val := by rw [toff22, chT_val (by omega)] <;> first | rfl | exact congrArg tOff (by omega)
  have eP7 := pTp_spell d (fun _ => fp) (16 * k.val + 7) cw7 (k0_off22_inb k k0_h22) (fun _ => rfl)
  have cr7 : k0_off24 k = tOff (chT (16 * k.val + 8 + 7)).val := by rw [toff24, chT_val (by omega)] <;> first | rfl | exact congrArg tOff (by omega)
  have eX7 := xTp_spell m d (16 * k.val + 8 + 7) cr7 (k0_off24_inb k k0_h24) (fun _ => rfl)
  have cw8 : k0_off25 k = tOff (chT (16 * k.val + 8)).val := by rw [toff25, chT_val (by omega)] <;> first | rfl | exact congrArg tOff (by omega)
  have eP8 := pTp_spell d (fun _ => fp) (16 * k.val + 8) cw8 (k0_off25_inb k k0_h25) (fun _ => rfl)
  have cr8 : k0_off27 k = tOff (chT (16 * k.val + 8 + 8)).val := by rw [toff27, chT_val (by omega)] <;> first | rfl | exact congrArg tOff (by omega)
  have eX8 := xTp_spell m d (16 * k.val + 8 + 8) cr8 (k0_off27_inb k k0_h27) (fun _ => rfl)
  have cw9 : k0_off28 k = tOff (chT (16 * k.val + 8 + 1)).val := by rw [toff28, chT_val (by omega)] <;> first | rfl | exact congrArg tOff (by omega)
  have eP9 := pTp_spell d (fun _ => fp) (16 * k.val + 8 + 1) cw9 (k0_off28_inb k k0_h28) (fun _ => rfl)
  have cr9 : k0_off30 k = tOff (chT (16 * k.val + 8 + 8 + 1)).val := by rw [toff30, chT_val (by omega)] <;> first | rfl | exact congrArg tOff (by omega)
  have eX9 := xTp_spell m d (16 * k.val + 8 + 8 + 1) cr9 (k0_off30_inb k k0_h30) (fun _ => rfl)
  have cw10 : k0_off31 k = tOff (chT (16 * k.val + 8 + 2)).val := by rw [toff31, chT_val (by omega)] <;> first | rfl | exact congrArg tOff (by omega)
  have eP10 := pTp_spell d (fun _ => fp) (16 * k.val + 8 + 2) cw10 (k0_off31_inb k k0_h31) (fun _ => rfl)
  have cr10 : k0_off33 k = tOff (chT (16 * k.val + 8 + 8 + 2)).val := by rw [toff33, chT_val (by omega)] <;> first | rfl | exact congrArg tOff (by omega)
  have eX10 := xTp_spell m d (16 * k.val + 8 + 8 + 2) cr10 (k0_off33_inb k k0_h33) (fun _ => rfl)
  have cw11 : k0_off34 k = tOff (chT (16 * k.val + 8 + 3)).val := by rw [toff34, chT_val (by omega)] <;> first | rfl | exact congrArg tOff (by omega)
  have eP11 := pTp_spell d (fun _ => fp) (16 * k.val + 8 + 3) cw11 (k0_off34_inb k k0_h34) (fun _ => rfl)
  have cr11 : k0_off36 k = tOff (chT (16 * k.val + 8 + 8 + 3)).val := by rw [toff36, chT_val (by omega)] <;> first | rfl | exact congrArg tOff (by omega)
  have eX11 := xTp_spell m d (16 * k.val + 8 + 8 + 3) cr11 (k0_off36_inb k k0_h36) (fun _ => rfl)
  have cw12 : k0_off37 k = tOff (chT (16 * k.val + 8 + 4)).val := by rw [toff37, chT_val (by omega)] <;> first | rfl | exact congrArg tOff (by omega)
  have eP12 := pTp_spell d (fun _ => fp) (16 * k.val + 8 + 4) cw12 (k0_off37_inb k k0_h37) (fun _ => rfl)
  have cr12 : k0_off39 k = tOff (chT (16 * k.val + 8 + 8 + 4)).val := by rw [toff39, chT_val (by omega)] <;> first | rfl | exact congrArg tOff (by omega)
  have eX12 := xTp_spell m d (16 * k.val + 8 + 8 + 4) cr12 (k0_off39_inb k k0_h39) (fun _ => rfl)
  have cw13 : k0_off40 k = tOff (chT (16 * k.val + 8 + 5)).val := by rw [toff40, chT_val (by omega)] <;> first | rfl | exact congrArg tOff (by omega)
  have eP13 := pTp_spell d (fun _ => fp) (16 * k.val + 8 + 5) cw13 (k0_off40_inb k k0_h40) (fun _ => rfl)
  have cr13 : k0_off42 k = tOff (chT (16 * k.val + 8 + 8 + 5)).val := by rw [toff42, chT_val (by omega)] <;> first | rfl | exact congrArg tOff (by omega)
  have eX13 := xTp_spell m d (16 * k.val + 8 + 8 + 5) cr13 (k0_off42_inb k k0_h42) (fun _ => rfl)
  have cw14 : k0_off43 k = tOff (chT (16 * k.val + 8 + 6)).val := by rw [toff43, chT_val (by omega)] <;> first | rfl | exact congrArg tOff (by omega)
  have eP14 := pTp_spell d (fun _ => fp) (16 * k.val + 8 + 6) cw14 (k0_off43_inb k k0_h43) (fun _ => rfl)
  have cr14 : k0_off45 k = tOff (chT (16 * k.val + 8 + 8 + 6)).val := by rw [toff45, chT_val (by omega)] <;> first | rfl | exact congrArg tOff (by omega)
  have eX14 := xTp_spell m d (16 * k.val + 8 + 8 + 6) cr14 (k0_off45_inb k k0_h45) (fun _ => rfl)
  have cw15 : k0_off46 k = tOff (chT (16 * k.val + 8 + 7)).val := by rw [toff46, chT_val (by omega)] <;> first | rfl | exact congrArg tOff (by omega)
  have eP15 := pTp_spell d (fun _ => fp) (16 * k.val + 8 + 7) cw15 (k0_off46_inb k k0_h46) (fun _ => rfl)
  have cr15 : k0_off48 k = tOff (chT (16 * k.val + 8 + 8 + 7)).val := by rw [toff48, chT_val (by omega)] <;> first | rfl | exact congrArg tOff (by omega)
  have eX15 := xTp_spell m d (16 * k.val + 8 + 8 + 7) cr15 (k0_off48_inb k k0_h48) (fun _ => rfl)
  rw [inv_open_firstT m d fp O W k.val hk0]
  unfold rdF0 rdF1 rdF2 rdF3 rdF4 rdF5 rdF6 rdF7
  iintro ⟨#Hmw, ⟨Hr0, Hr1, Hr2, Hr3, Hr4, Hr5, Hr6, Hr7⟩, ⟨⟨%f8, Hb8⟩, ⟨%f9, Hb9⟩, ⟨%f10, Hb10⟩, ⟨%f11, Hb11⟩, ⟨%f12, Hb12⟩, ⟨%f13, Hb13⟩, ⟨%f14, Hb14⟩, ⟨%f15, Hb15⟩, Hw8, Hw9, Hw10, Hw11, Hw12, Hw13, Hw14, Hw15⟩, Hr8, Hr9, Hr10, Hr11, Hr12, Hr13, Hr14, Hr15, Hw0, Hw1, Hw2, Hw3, Hw4, Hw5, Hw6, Hw7, HxA, ⟨Hx0, Hx1, Hx2, Hx3, Hx4, Hx5, Hx6, Hx7, Hx8, Hx9, Hx10, Hx11, Hx12, Hx13, Hx14, Hx15, HxB⟩, HpA, ⟨Hp0, Hp1, Hp2, Hp3, Hp4, Hp5, Hp6, Hp7, Hp8, Hp9, Hp10, Hp11, Hp12, Hp13, Hp14, Hp15, HpB⟩, %W', %hW', HO⟩
  ihave Hp0 := (Entails.of_eq eP0) $$ Hp0
  ihave Hx0 := (Entails.of_eq eX0) $$ Hx0
  ihave Hp1 := (Entails.of_eq eP1) $$ Hp1
  ihave Hx1 := (Entails.of_eq eX1) $$ Hx1
  ihave Hp2 := (Entails.of_eq eP2) $$ Hp2
  ihave Hx2 := (Entails.of_eq eX2) $$ Hx2
  ihave Hp3 := (Entails.of_eq eP3) $$ Hp3
  ihave Hx3 := (Entails.of_eq eX3) $$ Hx3
  ihave Hp4 := (Entails.of_eq eP4) $$ Hp4
  ihave Hx4 := (Entails.of_eq eX4) $$ Hx4
  ihave Hp5 := (Entails.of_eq eP5) $$ Hp5
  ihave Hx5 := (Entails.of_eq eX5) $$ Hx5
  ihave Hp6 := (Entails.of_eq eP6) $$ Hp6
  ihave Hx6 := (Entails.of_eq eX6) $$ Hx6
  ihave Hp7 := (Entails.of_eq eP7) $$ Hp7
  ihave Hx7 := (Entails.of_eq eX7) $$ Hx7
  ihave Hp8 := (Entails.of_eq eP8) $$ Hp8
  ihave Hx8 := (Entails.of_eq eX8) $$ Hx8
  ihave Hp9 := (Entails.of_eq eP9) $$ Hp9
  ihave Hx9 := (Entails.of_eq eX9) $$ Hx9
  ihave Hp10 := (Entails.of_eq eP10) $$ Hp10
  ihave Hx10 := (Entails.of_eq eX10) $$ Hx10
  ihave Hp11 := (Entails.of_eq eP11) $$ Hp11
  ihave Hx11 := (Entails.of_eq eX11) $$ Hx11
  ihave Hp12 := (Entails.of_eq eP12) $$ Hp12
  ihave Hx12 := (Entails.of_eq eX12) $$ Hx12
  ihave Hp13 := (Entails.of_eq eP13) $$ Hp13
  ihave Hx13 := (Entails.of_eq eX13) $$ Hx13
  ihave Hp14 := (Entails.of_eq eP14) $$ Hp14
  ihave Hx14 := (Entails.of_eq eX14) $$ Hx14
  ihave Hp15 := (Entails.of_eq eP15) $$ Hp15
  ihave Hx15 := (Entails.of_eq eX15) $$ Hx15
  sl_exec
  sl_step
  have e0 : tripT_first.sl.dma0 m d k = tData m d (chT (16 * k.val)) := rfl
  have e1 : tripT_first.sl.dma0_1 m d k k0_h3 = tData m d (chT (16 * k.val + 8)) :=
    (tData_spell m d (16 * k.val + 8) cr0 (k0_off3_inb k k0_h3) (fun _ => rfl)).symm
  have e2 : tripT_first.sl.dma0_2 m d k = tData m d (chT (16 * k.val + 1)) := rfl
  have e3 : tripT_first.sl.dma0_3 m d k k0_h6 = tData m d (chT (16 * k.val + 8 + 1)) :=
    (tData_spell m d (16 * k.val + 8 + 1) cr1 (k0_off6_inb k k0_h6) (fun _ => rfl)).symm
  have e4 : tripT_first.sl.dma0_4 m d k = tData m d (chT (16 * k.val + 2)) := rfl
  have e5 : tripT_first.sl.dma0_5 m d k k0_h9 = tData m d (chT (16 * k.val + 8 + 2)) :=
    (tData_spell m d (16 * k.val + 8 + 2) cr2 (k0_off9_inb k k0_h9) (fun _ => rfl)).symm
  have e6 : tripT_first.sl.dma0_6 m d k = tData m d (chT (16 * k.val + 3)) := rfl
  have e7 : tripT_first.sl.dma0_7 m d k k0_h12 = tData m d (chT (16 * k.val + 8 + 3)) :=
    (tData_spell m d (16 * k.val + 8 + 3) cr3 (k0_off12_inb k k0_h12) (fun _ => rfl)).symm
  have e8 : tripT_first.sl.dma0_8 m d k = tData m d (chT (16 * k.val + 4)) := rfl
  have e9 : tripT_first.sl.dma0_9 m d k k0_h15 = tData m d (chT (16 * k.val + 8 + 4)) :=
    (tData_spell m d (16 * k.val + 8 + 4) cr4 (k0_off15_inb k k0_h15) (fun _ => rfl)).symm
  have e10 : tripT_first.sl.dma0_10 m d k = tData m d (chT (16 * k.val + 5)) := rfl
  have e11 : tripT_first.sl.dma0_11 m d k k0_h18 = tData m d (chT (16 * k.val + 8 + 5)) :=
    (tData_spell m d (16 * k.val + 8 + 5) cr5 (k0_off18_inb k k0_h18) (fun _ => rfl)).symm
  have e12 : tripT_first.sl.dma0_12 m d k = tData m d (chT (16 * k.val + 6)) := rfl
  have e13 : tripT_first.sl.dma0_13 m d k k0_h21 = tData m d (chT (16 * k.val + 8 + 6)) :=
    (tData_spell m d (16 * k.val + 8 + 6) cr6 (k0_off21_inb k k0_h21) (fun _ => rfl)).symm
  have e14 : tripT_first.sl.dma0_14 m d k = tData m d (chT (16 * k.val + 7)) := rfl
  have e15 : tripT_first.sl.dma0_15 m d k k0_h24 = tData m d (chT (16 * k.val + 8 + 7)) :=
    (tData_spell m d (16 * k.val + 8 + 7) cr7 (k0_off24_inb k k0_h24) (fun _ => rfl)).symm
  have e16 : tripT_first.sl.dma0_16 m d k k0_h3 f8 = tData m d (chT (16 * k.val + 8)) := by
    unfold tripT_first.sl.dma0_16
    simp only [Memref.view_whole, View.write_whole_univ, View.read_whole, ReadAs.apply_same]
    exact e1
  have e17 : tripT_first.sl.dma0_17 m d k k0_h27 = tData m d (chT (16 * k.val + 8 + 8)) :=
    (tData_spell m d (16 * k.val + 8 + 8) cr8 (k0_off27_inb k k0_h27) (fun _ => rfl)).symm
  have e18 : tripT_first.sl.dma0_18 m d k k0_h6 f9 = tData m d (chT (16 * k.val + 8 + 1)) := by
    unfold tripT_first.sl.dma0_18
    simp only [Memref.view_whole, View.write_whole_univ, View.read_whole, ReadAs.apply_same]
    exact e3
  have e19 : tripT_first.sl.dma0_19 m d k k0_h30 = tData m d (chT (16 * k.val + 8 + 8 + 1)) :=
    (tData_spell m d (16 * k.val + 8 + 8 + 1) cr9 (k0_off30_inb k k0_h30) (fun _ => rfl)).symm
  have e20 : tripT_first.sl.dma0_20 m d k k0_h9 f10 = tData m d (chT (16 * k.val + 8 + 2)) := by
    unfold tripT_first.sl.dma0_20
    simp only [Memref.view_whole, View.write_whole_univ, View.read_whole, ReadAs.apply_same]
    exact e5
  have e21 : tripT_first.sl.dma0_21 m d k k0_h33 = tData m d (chT (16 * k.val + 8 + 8 + 2)) :=
    (tData_spell m d (16 * k.val + 8 + 8 + 2) cr10 (k0_off33_inb k k0_h33) (fun _ => rfl)).symm
  have e22 : tripT_first.sl.dma0_22 m d k k0_h12 f11 = tData m d (chT (16 * k.val + 8 + 3)) := by
    unfold tripT_first.sl.dma0_22
    simp only [Memref.view_whole, View.write_whole_univ, View.read_whole, ReadAs.apply_same]
    exact e7
  have e23 : tripT_first.sl.dma0_23 m d k k0_h36 = tData m d (chT (16 * k.val + 8 + 8 + 3)) :=
    (tData_spell m d (16 * k.val + 8 + 8 + 3) cr11 (k0_off36_inb k k0_h36) (fun _ => rfl)).symm
  have e24 : tripT_first.sl.dma0_24 m d k k0_h15 f12 = tData m d (chT (16 * k.val + 8 + 4)) := by
    unfold tripT_first.sl.dma0_24
    simp only [Memref.view_whole, View.write_whole_univ, View.read_whole, ReadAs.apply_same]
    exact e9
  have e25 : tripT_first.sl.dma0_25 m d k k0_h39 = tData m d (chT (16 * k.val + 8 + 8 + 4)) :=
    (tData_spell m d (16 * k.val + 8 + 8 + 4) cr12 (k0_off39_inb k k0_h39) (fun _ => rfl)).symm
  have e26 : tripT_first.sl.dma0_26 m d k k0_h18 f13 = tData m d (chT (16 * k.val + 8 + 5)) := by
    unfold tripT_first.sl.dma0_26
    simp only [Memref.view_whole, View.write_whole_univ, View.read_whole, ReadAs.apply_same]
    exact e11
  have e27 : tripT_first.sl.dma0_27 m d k k0_h42 = tData m d (chT (16 * k.val + 8 + 8 + 5)) :=
    (tData_spell m d (16 * k.val + 8 + 8 + 5) cr13 (k0_off42_inb k k0_h42) (fun _ => rfl)).symm
  have e28 : tripT_first.sl.dma0_28 m d k k0_h21 f14 = tData m d (chT (16 * k.val + 8 + 6)) := by
    unfold tripT_first.sl.dma0_28
    simp only [Memref.view_whole, View.write_whole_univ, View.read_whole, ReadAs.apply_same]
    exact e13
  have e29 : tripT_first.sl.dma0_29 m d k k0_h45 = tData m d (chT (16 * k.val + 8 + 8 + 6)) :=
    (tData_spell m d (16 * k.val + 8 + 8 + 6) cr14 (k0_off45_inb k k0_h45) (fun _ => rfl)).symm
  have e30 : tripT_first.sl.dma0_30 m d k k0_h24 f15 = tData m d (chT (16 * k.val + 8 + 7)) := by
    unfold tripT_first.sl.dma0_30
    simp only [Memref.view_whole, View.write_whole_univ, View.read_whole, ReadAs.apply_same]
    exact e15
  have e31 : tripT_first.sl.dma0_31 m d k k0_h48 = tData m d (chT (16 * k.val + 8 + 8 + 7)) :=
    (tData_spell m d (16 * k.val + 8 + 8 + 7) cr15 (k0_off48_inb k k0_h48) (fun _ => rfl)).symm
  iapply (inv_close_firstT m d fp O W _ k.val hk0 ?hW)
  rotate_left
  isplitl [Hmw]; · iexact Hmw
  isplitl [Hr0 Hr1 Hr2 Hr3 Hr4 Hr5 Hr6 Hr7]
  · isplitl [Hr0]; · (iapply (rdT_conv0 m d (16 * k.val + 8 + 8) _ rfl _ _ e17 _ eX8.symm); iexact Hr0)
    isplitl [Hr1]; · (iapply (rdT_conv1 m d (16 * k.val + 8 + 8 + 1) _ rfl _ _ e19 _ eX9.symm); iexact Hr1)
    isplitl [Hr2]; · (iapply (rdT_conv2 m d (16 * k.val + 8 + 8 + 2) _ rfl _ _ e21 _ eX10.symm); iexact Hr2)
    isplitl [Hr3]; · (iapply (rdT_conv3 m d (16 * k.val + 8 + 8 + 3) _ rfl _ _ e23 _ eX11.symm); iexact Hr3)
    isplitl [Hr4]; · (iapply (rdT_conv4 m d (16 * k.val + 8 + 8 + 4) _ rfl _ _ e25 _ eX12.symm); iexact Hr4)
    isplitl [Hr5]; · (iapply (rdT_conv5 m d (16 * k.val + 8 + 8 + 5) _ rfl _ _ e27 _ eX13.symm); iexact Hr5)
    isplitl [Hr6]; · (iapply (rdT_conv6 m d (16 * k.val + 8 + 8 + 6) _ rfl _ _ e29 _ eX14.symm); iexact Hr6)
    (iapply (rdT_conv7 m d (16 * k.val + 8 + 8 + 7) _ rfl _ _ e31 _ eX15.symm); iexact Hr7)
  isplitl [Hw8 Hw9 Hw10 Hw11 Hw12 Hw13 Hw14 Hw15]
  · isplitl [Hw8]; · (iapply (wrT_conv8 m d fp (16 * k.val + 8) _ rfl _ ((View.write_whole_univ (Val := Elt F) cc0_scratch8 _ _).trans e1) _ (pDone_spell m d fp (16 * k.val + 8) cw8 (k0_off25_inb k k0_h25) (fun _ => rfl) _ e16).symm); iexact Hw8)
    isplitl [Hw9]; · (iapply (wrT_conv9 m d fp (16 * k.val + 8 + 1) _ rfl _ ((View.write_whole_univ (Val := Elt F) cc0_scratch9 _ _).trans e3) _ (pDone_spell m d fp (16 * k.val + 8 + 1) cw9 (k0_off28_inb k k0_h28) (fun _ => rfl) _ e18).symm); iexact Hw9)
    isplitl [Hw10]; · (iapply (wrT_conv10 m d fp (16 * k.val + 8 + 2) _ rfl _ ((View.write_whole_univ (Val := Elt F) cc0_scratch10 _ _).trans e5) _ (pDone_spell m d fp (16 * k.val + 8 + 2) cw10 (k0_off31_inb k k0_h31) (fun _ => rfl) _ e20).symm); iexact Hw10)
    isplitl [Hw11]; · (iapply (wrT_conv11 m d fp (16 * k.val + 8 + 3) _ rfl _ ((View.write_whole_univ (Val := Elt F) cc0_scratch11 _ _).trans e7) _ (pDone_spell m d fp (16 * k.val + 8 + 3) cw11 (k0_off34_inb k k0_h34) (fun _ => rfl) _ e22).symm); iexact Hw11)
    isplitl [Hw12]; · (iapply (wrT_conv12 m d fp (16 * k.val + 8 + 4) _ rfl _ ((View.write_whole_univ (Val := Elt F) cc0_scratch12 _ _).trans e9) _ (pDone_spell m d fp (16 * k.val + 8 + 4) cw12 (k0_off37_inb k k0_h37) (fun _ => rfl) _ e24).symm); iexact Hw12)
    isplitl [Hw13]; · (iapply (wrT_conv13 m d fp (16 * k.val + 8 + 5) _ rfl _ ((View.write_whole_univ (Val := Elt F) cc0_scratch13 _ _).trans e11) _ (pDone_spell m d fp (16 * k.val + 8 + 5) cw13 (k0_off40_inb k k0_h40) (fun _ => rfl) _ e26).symm); iexact Hw13)
    isplitl [Hw14]; · (iapply (wrT_conv14 m d fp (16 * k.val + 8 + 6) _ rfl _ ((View.write_whole_univ (Val := Elt F) cc0_scratch14 _ _).trans e13) _ (pDone_spell m d fp (16 * k.val + 8 + 6) cw14 (k0_off43_inb k k0_h43) (fun _ => rfl) _ e28).symm); iexact Hw14)
    (iapply (wrT_conv15 m d fp (16 * k.val + 8 + 7) _ rfl _ ((View.write_whole_univ (Val := Elt F) cc0_scratch15 _ _).trans e15) _ (pDone_spell m d fp (16 * k.val + 8 + 7) cw15 (k0_off46_inb k k0_h46) (fun _ => rfl) _ e30).symm); iexact Hw15)
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hr0_src Hr1_src Hr2_src Hr3_src Hr4_src Hr5_src Hr6_src Hr7_src Hx0 Hx1 Hx2 Hx3 Hx4 Hx5 Hx6 Hx7]
  · isplitl [HxA]; · iexact HxA
    isplitl [Hr0_src Hr1_src Hr2_src Hr3_src Hr4_src Hr5_src Hr6_src Hr7_src]
    · isplitl [Hr0_src]; · iexact Hr0_src
      isplitl [Hr1_src]; · iexact Hr1_src
      isplitl [Hr2_src]; · iexact Hr2_src
      isplitl [Hr3_src]; · iexact Hr3_src
      isplitl [Hr4_src]; · iexact Hr4_src
      isplitl [Hr5_src]; · iexact Hr5_src
      isplitl [Hr6_src]; · iexact Hr6_src
      isplitl [Hr7_src]; · iexact Hr7_src
      iempintro
    isplitl [Hx0]; · (iapply (Entails.of_eq eX0.symm); iexact Hx0)
    isplitl [Hx1]; · (iapply (Entails.of_eq eX1.symm); iexact Hx1)
    isplitl [Hx2]; · (iapply (Entails.of_eq eX2.symm); iexact Hx2)
    isplitl [Hx3]; · (iapply (Entails.of_eq eX3.symm); iexact Hx3)
    isplitl [Hx4]; · (iapply (Entails.of_eq eX4.symm); iexact Hx4)
    isplitl [Hx5]; · (iapply (Entails.of_eq eX5.symm); iexact Hx5)
    isplitl [Hx6]; · (iapply (Entails.of_eq eX6.symm); iexact Hx6)
    isplitl [Hx7]; · (iapply (Entails.of_eq eX7.symm); iexact Hx7)
    iempintro
  isplitl [HxB]; · iexact HxB
  isplitl [HpA Hp0 Hp1 Hp2 Hp3 Hp4 Hp5 Hp6 Hp7]
  · isplitl [HpA]
    · iapply (Entails.of_eq (show bigSep (Finset.Ico 0 (16 * k.val - 8)) (pTp d fun n => pNew m d fp (chT n)) = bigSep (Finset.Ico 0 (16 * k.val)) (pTp d fun n => pNew m d fp (chT n)) from by
        rw [show 16 * k.val - 8 = 16 * k.val from by omega]))
      iexact HpA
    isplitl [Hp0]; · (iapply (Entails.of_eq (pDone_spell m d fp (16 * k.val) cw0 (k0_off1_inb k k0_h1) (fun _ => rfl) _ e0).symm); iexact Hp0)
    isplitl [Hp1]; · (iapply (Entails.of_eq (pDone_spell m d fp (16 * k.val + 1) cw1 (k0_off4_inb k k0_h4) (fun _ => rfl) _ e2).symm); iexact Hp1)
    isplitl [Hp2]; · (iapply (Entails.of_eq (pDone_spell m d fp (16 * k.val + 2) cw2 (k0_off7_inb k k0_h7) (fun _ => rfl) _ e4).symm); iexact Hp2)
    isplitl [Hp3]; · (iapply (Entails.of_eq (pDone_spell m d fp (16 * k.val + 3) cw3 (k0_off10_inb k k0_h10) (fun _ => rfl) _ e6).symm); iexact Hp3)
    isplitl [Hp4]; · (iapply (Entails.of_eq (pDone_spell m d fp (16 * k.val + 4) cw4 (k0_off13_inb k k0_h13) (fun _ => rfl) _ e8).symm); iexact Hp4)
    isplitl [Hp5]; · (iapply (Entails.of_eq (pDone_spell m d fp (16 * k.val + 5) cw5 (k0_off16_inb k k0_h16) (fun _ => rfl) _ e10).symm); iexact Hp5)
    isplitl [Hp6]; · (iapply (Entails.of_eq (pDone_spell m d fp (16 * k.val + 6) cw6 (k0_off19_inb k k0_h19) (fun _ => rfl) _ e12).symm); iexact Hp6)
    isplitl [Hp7]; · (iapply (Entails.of_eq (pDone_spell m d fp (16 * k.val + 7) cw7 (k0_off22_inb k k0_h22) (fun _ => rfl) _ e14).symm); iexact Hp7)
    iempintro
  isplitl [HpB]; · iexact HpB
  iexact HO
  repeat (first | exact hW' | refine (Finset.forall_mem_insert _ _ _).mpr ⟨Or.inr rfl, ?_⟩)

set_option maxHeartbeats 16000000 in
/-- A middle trip (1 ≤ g < 6) of the ring copy's loop. -/
theorem tripT_mid (fp : Buf (Elt F) (pLoc d)) (O : CellTallies nD τ sig (HIx 1)) (W : Waits sig (HIx 1))
    (k : Fin k0_t1_loop.trips) (hk1 : 1 ≤ k.val) (hk6 : k.val < 6) :
    invT m d fp O W k.val ⟨⟩
      ⊢ wp frame (wpE (defs₀ (F := F)) 𝒱₀ (Tt d) none) Set.univ
          (k0_t1_body xT (Memref.isWhole_whole _) pT (Memref.isWhole_whole _) sl0 (Memref.isWhole_whole _) sl1 (Memref.isWhole_whole _) sl2 (Memref.isWhole_whole _) sl3 (Memref.isWhole_whole _) sl4 (Memref.isWhole_whole _) sl5 (Memref.isWhole_whole _) sl6 (Memref.isWhole_whole _) sl7 (Memref.isWhole_whole _) sl8 (Memref.isWhole_whole _) sl9 (Memref.isWhole_whole _) sl10 (Memref.isWhole_whole _) sl11 (Memref.isWhole_whole _) sl12 (Memref.isWhole_whole _) sl13 (Memref.isWhole_whole _) sl14 (Memref.isWhole_whole _) sl15 (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41 cc0_scratch42 cc0_scratch43 cc0_scratch44 cc0_scratch45 cc0_scratch46 cc0_scratch47 k ⟨⟩)
          (invT m d fp O W (k.val + 1)) := by
  have k0_h1 : k0_cond1 k = 1#1 := tcond1 k
  have k0_h2 : k0_cond2 k = 1#1 := (tcond2 k).mpr (by omega)
  have k0_h3 : k0_cond3 k = 1#1 := tcond3 k
  have k0_h4 : k0_cond4 k = 1#1 := tcond4 k
  have k0_h5 : k0_cond5 k = 1#1 := (tcond5 k).mpr (by omega)
  have k0_h6 : k0_cond6 k = 1#1 := tcond6 k
  have k0_h7 : k0_cond7 k = 1#1 := tcond7 k
  have k0_h8 : k0_cond8 k = 1#1 := (tcond8 k).mpr (by omega)
  have k0_h9 : k0_cond9 k = 1#1 := tcond9 k
  have k0_h10 : k0_cond10 k = 1#1 := tcond10 k
  have k0_h11 : k0_cond11 k = 1#1 := (tcond11 k).mpr (by omega)
  have k0_h12 : k0_cond12 k = 1#1 := tcond12 k
  have k0_h13 : k0_cond13 k = 1#1 := tcond13 k
  have k0_h14 : k0_cond14 k = 1#1 := (tcond14 k).mpr (by omega)
  have k0_h15 : k0_cond15 k = 1#1 := tcond15 k
  have k0_h16 : k0_cond16 k = 1#1 := tcond16 k
  have k0_h17 : k0_cond17 k = 1#1 := (tcond17 k).mpr (by omega)
  have k0_h18 : k0_cond18 k = 1#1 := tcond18 k
  have k0_h19 : k0_cond19 k = 1#1 := tcond19 k
  have k0_h20 : k0_cond20 k = 1#1 := (tcond20 k).mpr (by omega)
  have k0_h21 : k0_cond21 k = 1#1 := tcond21 k
  have k0_h22 : k0_cond22 k = 1#1 := tcond22 k
  have k0_h23 : k0_cond23 k = 1#1 := (tcond23 k).mpr (by omega)
  have k0_h24 : k0_cond24 k = 1#1 := tcond24 k
  have k0_h25 : k0_cond25 k = 1#1 := tcond25 k
  have k0_h26 : k0_cond26 k = 1#1 := tcond26 k
  have k0_h27 : k0_cond27 k = 1#1 := (tcond27 k).mpr (by omega)
  have k0_h28 : k0_cond28 k = 1#1 := tcond28 k
  have k0_h29 : k0_cond29 k = 1#1 := tcond29 k
  have k0_h30 : k0_cond30 k = 1#1 := (tcond30 k).mpr (by omega)
  have k0_h31 : k0_cond31 k = 1#1 := tcond31 k
  have k0_h32 : k0_cond32 k = 1#1 := tcond32 k
  have k0_h33 : k0_cond33 k = 1#1 := (tcond33 k).mpr (by omega)
  have k0_h34 : k0_cond34 k = 1#1 := tcond34 k
  have k0_h35 : k0_cond35 k = 1#1 := tcond35 k
  have k0_h36 : k0_cond36 k = 1#1 := (tcond36 k).mpr (by omega)
  have k0_h37 : k0_cond37 k = 1#1 := tcond37 k
  have k0_h38 : k0_cond38 k = 1#1 := tcond38 k
  have k0_h39 : k0_cond39 k = 1#1 := (tcond39 k).mpr (by omega)
  have k0_h40 : k0_cond40 k = 1#1 := tcond40 k
  have k0_h41 : k0_cond41 k = 1#1 := tcond41 k
  have k0_h42 : k0_cond42 k = 1#1 := (tcond42 k).mpr (by omega)
  have k0_h43 : k0_cond43 k = 1#1 := tcond43 k
  have k0_h44 : k0_cond44 k = 1#1 := tcond44 k
  have k0_h45 : k0_cond45 k = 1#1 := (tcond45 k).mpr (by omega)
  have k0_h46 : k0_cond46 k = 1#1 := tcond46 k
  have k0_h47 : k0_cond47 k = 1#1 := tcond47 k
  have k0_h48 : k0_cond48 k = 1#1 := (tcond48 k).mpr (by omega)
  unfold k0_t1_body
  simp only [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  have cw0 : k0_off1 k = tOff (chT (16 * k.val)).val := by rw [toff1, chT_val (by omega)] <;> first | rfl | exact congrArg tOff (by omega)
  have eP0 := pTp_spell d (fun _ => fp) (16 * k.val) cw0 (k0_off1_inb k k0_h1) (fun _ => rfl)
  have cr0 : k0_off3 k = tOff (chT (16 * k.val + 8)).val := by rw [toff3, chT_val (by omega)] <;> first | rfl | exact congrArg tOff (by omega)
  have eX0 := xTp_spell m d (16 * k.val + 8) cr0 (k0_off3_inb k k0_h3) (fun _ => rfl)
  have cw1 : k0_off4 k = tOff (chT (16 * k.val + 1)).val := by rw [toff4, chT_val (by omega)] <;> first | rfl | exact congrArg tOff (by omega)
  have eP1 := pTp_spell d (fun _ => fp) (16 * k.val + 1) cw1 (k0_off4_inb k k0_h4) (fun _ => rfl)
  have cr1 : k0_off6 k = tOff (chT (16 * k.val + 8 + 1)).val := by rw [toff6, chT_val (by omega)] <;> first | rfl | exact congrArg tOff (by omega)
  have eX1 := xTp_spell m d (16 * k.val + 8 + 1) cr1 (k0_off6_inb k k0_h6) (fun _ => rfl)
  have cw2 : k0_off7 k = tOff (chT (16 * k.val + 2)).val := by rw [toff7, chT_val (by omega)] <;> first | rfl | exact congrArg tOff (by omega)
  have eP2 := pTp_spell d (fun _ => fp) (16 * k.val + 2) cw2 (k0_off7_inb k k0_h7) (fun _ => rfl)
  have cr2 : k0_off9 k = tOff (chT (16 * k.val + 8 + 2)).val := by rw [toff9, chT_val (by omega)] <;> first | rfl | exact congrArg tOff (by omega)
  have eX2 := xTp_spell m d (16 * k.val + 8 + 2) cr2 (k0_off9_inb k k0_h9) (fun _ => rfl)
  have cw3 : k0_off10 k = tOff (chT (16 * k.val + 3)).val := by rw [toff10, chT_val (by omega)] <;> first | rfl | exact congrArg tOff (by omega)
  have eP3 := pTp_spell d (fun _ => fp) (16 * k.val + 3) cw3 (k0_off10_inb k k0_h10) (fun _ => rfl)
  have cr3 : k0_off12 k = tOff (chT (16 * k.val + 8 + 3)).val := by rw [toff12, chT_val (by omega)] <;> first | rfl | exact congrArg tOff (by omega)
  have eX3 := xTp_spell m d (16 * k.val + 8 + 3) cr3 (k0_off12_inb k k0_h12) (fun _ => rfl)
  have cw4 : k0_off13 k = tOff (chT (16 * k.val + 4)).val := by rw [toff13, chT_val (by omega)] <;> first | rfl | exact congrArg tOff (by omega)
  have eP4 := pTp_spell d (fun _ => fp) (16 * k.val + 4) cw4 (k0_off13_inb k k0_h13) (fun _ => rfl)
  have cr4 : k0_off15 k = tOff (chT (16 * k.val + 8 + 4)).val := by rw [toff15, chT_val (by omega)] <;> first | rfl | exact congrArg tOff (by omega)
  have eX4 := xTp_spell m d (16 * k.val + 8 + 4) cr4 (k0_off15_inb k k0_h15) (fun _ => rfl)
  have cw5 : k0_off16 k = tOff (chT (16 * k.val + 5)).val := by rw [toff16, chT_val (by omega)] <;> first | rfl | exact congrArg tOff (by omega)
  have eP5 := pTp_spell d (fun _ => fp) (16 * k.val + 5) cw5 (k0_off16_inb k k0_h16) (fun _ => rfl)
  have cr5 : k0_off18 k = tOff (chT (16 * k.val + 8 + 5)).val := by rw [toff18, chT_val (by omega)] <;> first | rfl | exact congrArg tOff (by omega)
  have eX5 := xTp_spell m d (16 * k.val + 8 + 5) cr5 (k0_off18_inb k k0_h18) (fun _ => rfl)
  have cw6 : k0_off19 k = tOff (chT (16 * k.val + 6)).val := by rw [toff19, chT_val (by omega)] <;> first | rfl | exact congrArg tOff (by omega)
  have eP6 := pTp_spell d (fun _ => fp) (16 * k.val + 6) cw6 (k0_off19_inb k k0_h19) (fun _ => rfl)
  have cr6 : k0_off21 k = tOff (chT (16 * k.val + 8 + 6)).val := by rw [toff21, chT_val (by omega)] <;> first | rfl | exact congrArg tOff (by omega)
  have eX6 := xTp_spell m d (16 * k.val + 8 + 6) cr6 (k0_off21_inb k k0_h21) (fun _ => rfl)
  have cw7 : k0_off22 k = tOff (chT (16 * k.val + 7)).val := by rw [toff22, chT_val (by omega)] <;> first | rfl | exact congrArg tOff (by omega)
  have eP7 := pTp_spell d (fun _ => fp) (16 * k.val + 7) cw7 (k0_off22_inb k k0_h22) (fun _ => rfl)
  have cr7 : k0_off24 k = tOff (chT (16 * k.val + 8 + 7)).val := by rw [toff24, chT_val (by omega)] <;> first | rfl | exact congrArg tOff (by omega)
  have eX7 := xTp_spell m d (16 * k.val + 8 + 7) cr7 (k0_off24_inb k k0_h24) (fun _ => rfl)
  have cw8 : k0_off25 k = tOff (chT (16 * k.val + 8)).val := by rw [toff25, chT_val (by omega)] <;> first | rfl | exact congrArg tOff (by omega)
  have eP8 := pTp_spell d (fun _ => fp) (16 * k.val + 8) cw8 (k0_off25_inb k k0_h25) (fun _ => rfl)
  have cr8 : k0_off27 k = tOff (chT (16 * k.val + 8 + 8)).val := by rw [toff27, chT_val (by omega)] <;> first | rfl | exact congrArg tOff (by omega)
  have eX8 := xTp_spell m d (16 * k.val + 8 + 8) cr8 (k0_off27_inb k k0_h27) (fun _ => rfl)
  have cw9 : k0_off28 k = tOff (chT (16 * k.val + 8 + 1)).val := by rw [toff28, chT_val (by omega)] <;> first | rfl | exact congrArg tOff (by omega)
  have eP9 := pTp_spell d (fun _ => fp) (16 * k.val + 8 + 1) cw9 (k0_off28_inb k k0_h28) (fun _ => rfl)
  have cr9 : k0_off30 k = tOff (chT (16 * k.val + 8 + 8 + 1)).val := by rw [toff30, chT_val (by omega)] <;> first | rfl | exact congrArg tOff (by omega)
  have eX9 := xTp_spell m d (16 * k.val + 8 + 8 + 1) cr9 (k0_off30_inb k k0_h30) (fun _ => rfl)
  have cw10 : k0_off31 k = tOff (chT (16 * k.val + 8 + 2)).val := by rw [toff31, chT_val (by omega)] <;> first | rfl | exact congrArg tOff (by omega)
  have eP10 := pTp_spell d (fun _ => fp) (16 * k.val + 8 + 2) cw10 (k0_off31_inb k k0_h31) (fun _ => rfl)
  have cr10 : k0_off33 k = tOff (chT (16 * k.val + 8 + 8 + 2)).val := by rw [toff33, chT_val (by omega)] <;> first | rfl | exact congrArg tOff (by omega)
  have eX10 := xTp_spell m d (16 * k.val + 8 + 8 + 2) cr10 (k0_off33_inb k k0_h33) (fun _ => rfl)
  have cw11 : k0_off34 k = tOff (chT (16 * k.val + 8 + 3)).val := by rw [toff34, chT_val (by omega)] <;> first | rfl | exact congrArg tOff (by omega)
  have eP11 := pTp_spell d (fun _ => fp) (16 * k.val + 8 + 3) cw11 (k0_off34_inb k k0_h34) (fun _ => rfl)
  have cr11 : k0_off36 k = tOff (chT (16 * k.val + 8 + 8 + 3)).val := by rw [toff36, chT_val (by omega)] <;> first | rfl | exact congrArg tOff (by omega)
  have eX11 := xTp_spell m d (16 * k.val + 8 + 8 + 3) cr11 (k0_off36_inb k k0_h36) (fun _ => rfl)
  have cw12 : k0_off37 k = tOff (chT (16 * k.val + 8 + 4)).val := by rw [toff37, chT_val (by omega)] <;> first | rfl | exact congrArg tOff (by omega)
  have eP12 := pTp_spell d (fun _ => fp) (16 * k.val + 8 + 4) cw12 (k0_off37_inb k k0_h37) (fun _ => rfl)
  have cr12 : k0_off39 k = tOff (chT (16 * k.val + 8 + 8 + 4)).val := by rw [toff39, chT_val (by omega)] <;> first | rfl | exact congrArg tOff (by omega)
  have eX12 := xTp_spell m d (16 * k.val + 8 + 8 + 4) cr12 (k0_off39_inb k k0_h39) (fun _ => rfl)
  have cw13 : k0_off40 k = tOff (chT (16 * k.val + 8 + 5)).val := by rw [toff40, chT_val (by omega)] <;> first | rfl | exact congrArg tOff (by omega)
  have eP13 := pTp_spell d (fun _ => fp) (16 * k.val + 8 + 5) cw13 (k0_off40_inb k k0_h40) (fun _ => rfl)
  have cr13 : k0_off42 k = tOff (chT (16 * k.val + 8 + 8 + 5)).val := by rw [toff42, chT_val (by omega)] <;> first | rfl | exact congrArg tOff (by omega)
  have eX13 := xTp_spell m d (16 * k.val + 8 + 8 + 5) cr13 (k0_off42_inb k k0_h42) (fun _ => rfl)
  have cw14 : k0_off43 k = tOff (chT (16 * k.val + 8 + 6)).val := by rw [toff43, chT_val (by omega)] <;> first | rfl | exact congrArg tOff (by omega)
  have eP14 := pTp_spell d (fun _ => fp) (16 * k.val + 8 + 6) cw14 (k0_off43_inb k k0_h43) (fun _ => rfl)
  have cr14 : k0_off45 k = tOff (chT (16 * k.val + 8 + 8 + 6)).val := by rw [toff45, chT_val (by omega)] <;> first | rfl | exact congrArg tOff (by omega)
  have eX14 := xTp_spell m d (16 * k.val + 8 + 8 + 6) cr14 (k0_off45_inb k k0_h45) (fun _ => rfl)
  have cw15 : k0_off46 k = tOff (chT (16 * k.val + 8 + 7)).val := by rw [toff46, chT_val (by omega)] <;> first | rfl | exact congrArg tOff (by omega)
  have eP15 := pTp_spell d (fun _ => fp) (16 * k.val + 8 + 7) cw15 (k0_off46_inb k k0_h46) (fun _ => rfl)
  have cr15 : k0_off48 k = tOff (chT (16 * k.val + 8 + 8 + 7)).val := by rw [toff48, chT_val (by omega)] <;> first | rfl | exact congrArg tOff (by omega)
  have eX15 := xTp_spell m d (16 * k.val + 8 + 8 + 7) cr15 (k0_off48_inb k k0_h48) (fun _ => rfl)
  rw [inv_open_midT m d fp O W k.val hk1 hk6]
  unfold rdF0 rdF1 rdF2 rdF3 rdF4 rdF5 rdF6 rdF7 wrF8 wrF9 wrF10 wrF11 wrF12 wrF13 wrF14 wrF15
  iintro ⟨#Hmw, ⟨Hr0, Hr1, Hr2, Hr3, Hr4, Hr5, Hr6, Hr7⟩, ⟨Hw8, Hw9, Hw10, Hw11, Hw12, Hw13, Hw14, Hw15⟩, Hr8, Hr9, Hr10, Hr11, Hr12, Hr13, Hr14, Hr15, Hw0, Hw1, Hw2, Hw3, Hw4, Hw5, Hw6, Hw7, HxA, ⟨Hx0, Hx1, Hx2, Hx3, Hx4, Hx5, Hx6, Hx7, Hx8, Hx9, Hx10, Hx11, Hx12, Hx13, Hx14, Hx15, HxB⟩, HpA, ⟨Hp0, Hp1, Hp2, Hp3, Hp4, Hp5, Hp6, Hp7, Hp8, Hp9, Hp10, Hp11, Hp12, Hp13, Hp14, Hp15, HpB⟩, %W', %hW', HO⟩
  ihave Hp0 := (Entails.of_eq eP0) $$ Hp0
  ihave Hx0 := (Entails.of_eq eX0) $$ Hx0
  ihave Hp1 := (Entails.of_eq eP1) $$ Hp1
  ihave Hx1 := (Entails.of_eq eX1) $$ Hx1
  ihave Hp2 := (Entails.of_eq eP2) $$ Hp2
  ihave Hx2 := (Entails.of_eq eX2) $$ Hx2
  ihave Hp3 := (Entails.of_eq eP3) $$ Hp3
  ihave Hx3 := (Entails.of_eq eX3) $$ Hx3
  ihave Hp4 := (Entails.of_eq eP4) $$ Hp4
  ihave Hx4 := (Entails.of_eq eX4) $$ Hx4
  ihave Hp5 := (Entails.of_eq eP5) $$ Hp5
  ihave Hx5 := (Entails.of_eq eX5) $$ Hx5
  ihave Hp6 := (Entails.of_eq eP6) $$ Hp6
  ihave Hx6 := (Entails.of_eq eX6) $$ Hx6
  ihave Hp7 := (Entails.of_eq eP7) $$ Hp7
  ihave Hx7 := (Entails.of_eq eX7) $$ Hx7
  ihave Hp8 := (Entails.of_eq eP8) $$ Hp8
  ihave Hx8 := (Entails.of_eq eX8) $$ Hx8
  ihave Hp9 := (Entails.of_eq eP9) $$ Hp9
  ihave Hx9 := (Entails.of_eq eX9) $$ Hx9
  ihave Hp10 := (Entails.of_eq eP10) $$ Hp10
  ihave Hx10 := (Entails.of_eq eX10) $$ Hx10
  ihave Hp11 := (Entails.of_eq eP11) $$ Hp11
  ihave Hx11 := (Entails.of_eq eX11) $$ Hx11
  ihave Hp12 := (Entails.of_eq eP12) $$ Hp12
  ihave Hx12 := (Entails.of_eq eX12) $$ Hx12
  ihave Hp13 := (Entails.of_eq eP13) $$ Hp13
  ihave Hx13 := (Entails.of_eq eX13) $$ Hx13
  ihave Hp14 := (Entails.of_eq eP14) $$ Hp14
  ihave Hx14 := (Entails.of_eq eX14) $$ Hx14
  ihave Hp15 := (Entails.of_eq eP15) $$ Hp15
  ihave Hx15 := (Entails.of_eq eX15) $$ Hx15
  sl_exec
  sl_step
  have e0 : tripT_mid.sl.dma0 m d k = tData m d (chT (16 * k.val)) := rfl
  have e1 : tripT_mid.sl.dma0_1 m d k k0_h3 = tData m d (chT (16 * k.val + 8)) :=
    (tData_spell m d (16 * k.val + 8) cr0 (k0_off3_inb k k0_h3) (fun _ => rfl)).symm
  have e2 : tripT_mid.sl.dma0_2 m d k = tData m d (chT (16 * k.val + 1)) := rfl
  have e3 : tripT_mid.sl.dma0_3 m d k k0_h6 = tData m d (chT (16 * k.val + 8 + 1)) :=
    (tData_spell m d (16 * k.val + 8 + 1) cr1 (k0_off6_inb k k0_h6) (fun _ => rfl)).symm
  have e4 : tripT_mid.sl.dma0_4 m d k = tData m d (chT (16 * k.val + 2)) := rfl
  have e5 : tripT_mid.sl.dma0_5 m d k k0_h9 = tData m d (chT (16 * k.val + 8 + 2)) :=
    (tData_spell m d (16 * k.val + 8 + 2) cr2 (k0_off9_inb k k0_h9) (fun _ => rfl)).symm
  have e6 : tripT_mid.sl.dma0_6 m d k = tData m d (chT (16 * k.val + 3)) := rfl
  have e7 : tripT_mid.sl.dma0_7 m d k k0_h12 = tData m d (chT (16 * k.val + 8 + 3)) :=
    (tData_spell m d (16 * k.val + 8 + 3) cr3 (k0_off12_inb k k0_h12) (fun _ => rfl)).symm
  have e8 : tripT_mid.sl.dma0_8 m d k = tData m d (chT (16 * k.val + 4)) := rfl
  have e9 : tripT_mid.sl.dma0_9 m d k k0_h15 = tData m d (chT (16 * k.val + 8 + 4)) :=
    (tData_spell m d (16 * k.val + 8 + 4) cr4 (k0_off15_inb k k0_h15) (fun _ => rfl)).symm
  have e10 : tripT_mid.sl.dma0_10 m d k = tData m d (chT (16 * k.val + 5)) := rfl
  have e11 : tripT_mid.sl.dma0_11 m d k k0_h18 = tData m d (chT (16 * k.val + 8 + 5)) :=
    (tData_spell m d (16 * k.val + 8 + 5) cr5 (k0_off18_inb k k0_h18) (fun _ => rfl)).symm
  have e12 : tripT_mid.sl.dma0_12 m d k = tData m d (chT (16 * k.val + 6)) := rfl
  have e13 : tripT_mid.sl.dma0_13 m d k k0_h21 = tData m d (chT (16 * k.val + 8 + 6)) :=
    (tData_spell m d (16 * k.val + 8 + 6) cr6 (k0_off21_inb k k0_h21) (fun _ => rfl)).symm
  have e14 : tripT_mid.sl.dma0_14 m d k = tData m d (chT (16 * k.val + 7)) := rfl
  have e15 : tripT_mid.sl.dma0_15 m d k k0_h24 = tData m d (chT (16 * k.val + 8 + 7)) :=
    (tData_spell m d (16 * k.val + 8 + 7) cr7 (k0_off24_inb k k0_h24) (fun _ => rfl)).symm
  have e16 : tripT_mid.sl.dma0_16 m d k k0_h3 = tData m d (chT (16 * k.val + 8)) := by
    unfold tripT_mid.sl.dma0_16
    simp only [Memref.view_whole, View.write_whole_univ, View.read_whole, ReadAs.apply_same]
    exact e1
  have e17 : tripT_mid.sl.dma0_17 m d k k0_h27 = tData m d (chT (16 * k.val + 8 + 8)) :=
    (tData_spell m d (16 * k.val + 8 + 8) cr8 (k0_off27_inb k k0_h27) (fun _ => rfl)).symm
  have e18 : tripT_mid.sl.dma0_18 m d k k0_h6 = tData m d (chT (16 * k.val + 8 + 1)) := by
    unfold tripT_mid.sl.dma0_18
    simp only [Memref.view_whole, View.write_whole_univ, View.read_whole, ReadAs.apply_same]
    exact e3
  have e19 : tripT_mid.sl.dma0_19 m d k k0_h30 = tData m d (chT (16 * k.val + 8 + 8 + 1)) :=
    (tData_spell m d (16 * k.val + 8 + 8 + 1) cr9 (k0_off30_inb k k0_h30) (fun _ => rfl)).symm
  have e20 : tripT_mid.sl.dma0_20 m d k k0_h9 = tData m d (chT (16 * k.val + 8 + 2)) := by
    unfold tripT_mid.sl.dma0_20
    simp only [Memref.view_whole, View.write_whole_univ, View.read_whole, ReadAs.apply_same]
    exact e5
  have e21 : tripT_mid.sl.dma0_21 m d k k0_h33 = tData m d (chT (16 * k.val + 8 + 8 + 2)) :=
    (tData_spell m d (16 * k.val + 8 + 8 + 2) cr10 (k0_off33_inb k k0_h33) (fun _ => rfl)).symm
  have e22 : tripT_mid.sl.dma0_22 m d k k0_h12 = tData m d (chT (16 * k.val + 8 + 3)) := by
    unfold tripT_mid.sl.dma0_22
    simp only [Memref.view_whole, View.write_whole_univ, View.read_whole, ReadAs.apply_same]
    exact e7
  have e23 : tripT_mid.sl.dma0_23 m d k k0_h36 = tData m d (chT (16 * k.val + 8 + 8 + 3)) :=
    (tData_spell m d (16 * k.val + 8 + 8 + 3) cr11 (k0_off36_inb k k0_h36) (fun _ => rfl)).symm
  have e24 : tripT_mid.sl.dma0_24 m d k k0_h15 = tData m d (chT (16 * k.val + 8 + 4)) := by
    unfold tripT_mid.sl.dma0_24
    simp only [Memref.view_whole, View.write_whole_univ, View.read_whole, ReadAs.apply_same]
    exact e9
  have e25 : tripT_mid.sl.dma0_25 m d k k0_h39 = tData m d (chT (16 * k.val + 8 + 8 + 4)) :=
    (tData_spell m d (16 * k.val + 8 + 8 + 4) cr12 (k0_off39_inb k k0_h39) (fun _ => rfl)).symm
  have e26 : tripT_mid.sl.dma0_26 m d k k0_h18 = tData m d (chT (16 * k.val + 8 + 5)) := by
    unfold tripT_mid.sl.dma0_26
    simp only [Memref.view_whole, View.write_whole_univ, View.read_whole, ReadAs.apply_same]
    exact e11
  have e27 : tripT_mid.sl.dma0_27 m d k k0_h42 = tData m d (chT (16 * k.val + 8 + 8 + 5)) :=
    (tData_spell m d (16 * k.val + 8 + 8 + 5) cr13 (k0_off42_inb k k0_h42) (fun _ => rfl)).symm
  have e28 : tripT_mid.sl.dma0_28 m d k k0_h21 = tData m d (chT (16 * k.val + 8 + 6)) := by
    unfold tripT_mid.sl.dma0_28
    simp only [Memref.view_whole, View.write_whole_univ, View.read_whole, ReadAs.apply_same]
    exact e13
  have e29 : tripT_mid.sl.dma0_29 m d k k0_h45 = tData m d (chT (16 * k.val + 8 + 8 + 6)) :=
    (tData_spell m d (16 * k.val + 8 + 8 + 6) cr14 (k0_off45_inb k k0_h45) (fun _ => rfl)).symm
  have e30 : tripT_mid.sl.dma0_30 m d k k0_h24 = tData m d (chT (16 * k.val + 8 + 7)) := by
    unfold tripT_mid.sl.dma0_30
    simp only [Memref.view_whole, View.write_whole_univ, View.read_whole, ReadAs.apply_same]
    exact e15
  have e31 : tripT_mid.sl.dma0_31 m d k k0_h48 = tData m d (chT (16 * k.val + 8 + 8 + 7)) :=
    (tData_spell m d (16 * k.val + 8 + 8 + 7) cr15 (k0_off48_inb k k0_h48) (fun _ => rfl)).symm
  iapply (inv_close_midT m d fp O W _ k.val hk1 hk6 ?hW)
  rotate_left
  isplitl [Hmw]; · iexact Hmw
  isplitl [Hr0 Hr1 Hr2 Hr3 Hr4 Hr5 Hr6 Hr7]
  · isplitl [Hr0]; · (iapply (rdT_conv0 m d (16 * k.val + 8 + 8) _ rfl _ _ e17 _ eX8.symm); iexact Hr0)
    isplitl [Hr1]; · (iapply (rdT_conv1 m d (16 * k.val + 8 + 8 + 1) _ rfl _ _ e19 _ eX9.symm); iexact Hr1)
    isplitl [Hr2]; · (iapply (rdT_conv2 m d (16 * k.val + 8 + 8 + 2) _ rfl _ _ e21 _ eX10.symm); iexact Hr2)
    isplitl [Hr3]; · (iapply (rdT_conv3 m d (16 * k.val + 8 + 8 + 3) _ rfl _ _ e23 _ eX11.symm); iexact Hr3)
    isplitl [Hr4]; · (iapply (rdT_conv4 m d (16 * k.val + 8 + 8 + 4) _ rfl _ _ e25 _ eX12.symm); iexact Hr4)
    isplitl [Hr5]; · (iapply (rdT_conv5 m d (16 * k.val + 8 + 8 + 5) _ rfl _ _ e27 _ eX13.symm); iexact Hr5)
    isplitl [Hr6]; · (iapply (rdT_conv6 m d (16 * k.val + 8 + 8 + 6) _ rfl _ _ e29 _ eX14.symm); iexact Hr6)
    (iapply (rdT_conv7 m d (16 * k.val + 8 + 8 + 7) _ rfl _ _ e31 _ eX15.symm); iexact Hr7)
  isplitl [Hw8 Hw9 Hw10 Hw11 Hw12 Hw13 Hw14 Hw15]
  · isplitl [Hw8]; · (iapply (wrT_conv8 m d fp (16 * k.val + 8) _ rfl _ ((View.write_whole_univ (Val := Elt F) cc0_scratch8 _ _).trans e1) _ (pDone_spell m d fp (16 * k.val + 8) cw8 (k0_off25_inb k k0_h25) (fun _ => rfl) _ e16).symm); iexact Hw8)
    isplitl [Hw9]; · (iapply (wrT_conv9 m d fp (16 * k.val + 8 + 1) _ rfl _ ((View.write_whole_univ (Val := Elt F) cc0_scratch9 _ _).trans e3) _ (pDone_spell m d fp (16 * k.val + 8 + 1) cw9 (k0_off28_inb k k0_h28) (fun _ => rfl) _ e18).symm); iexact Hw9)
    isplitl [Hw10]; · (iapply (wrT_conv10 m d fp (16 * k.val + 8 + 2) _ rfl _ ((View.write_whole_univ (Val := Elt F) cc0_scratch10 _ _).trans e5) _ (pDone_spell m d fp (16 * k.val + 8 + 2) cw10 (k0_off31_inb k k0_h31) (fun _ => rfl) _ e20).symm); iexact Hw10)
    isplitl [Hw11]; · (iapply (wrT_conv11 m d fp (16 * k.val + 8 + 3) _ rfl _ ((View.write_whole_univ (Val := Elt F) cc0_scratch11 _ _).trans e7) _ (pDone_spell m d fp (16 * k.val + 8 + 3) cw11 (k0_off34_inb k k0_h34) (fun _ => rfl) _ e22).symm); iexact Hw11)
    isplitl [Hw12]; · (iapply (wrT_conv12 m d fp (16 * k.val + 8 + 4) _ rfl _ ((View.write_whole_univ (Val := Elt F) cc0_scratch12 _ _).trans e9) _ (pDone_spell m d fp (16 * k.val + 8 + 4) cw12 (k0_off37_inb k k0_h37) (fun _ => rfl) _ e24).symm); iexact Hw12)
    isplitl [Hw13]; · (iapply (wrT_conv13 m d fp (16 * k.val + 8 + 5) _ rfl _ ((View.write_whole_univ (Val := Elt F) cc0_scratch13 _ _).trans e11) _ (pDone_spell m d fp (16 * k.val + 8 + 5) cw13 (k0_off40_inb k k0_h40) (fun _ => rfl) _ e26).symm); iexact Hw13)
    isplitl [Hw14]; · (iapply (wrT_conv14 m d fp (16 * k.val + 8 + 6) _ rfl _ ((View.write_whole_univ (Val := Elt F) cc0_scratch14 _ _).trans e13) _ (pDone_spell m d fp (16 * k.val + 8 + 6) cw14 (k0_off43_inb k k0_h43) (fun _ => rfl) _ e28).symm); iexact Hw14)
    (iapply (wrT_conv15 m d fp (16 * k.val + 8 + 7) _ rfl _ ((View.write_whole_univ (Val := Elt F) cc0_scratch15 _ _).trans e15) _ (pDone_spell m d fp (16 * k.val + 8 + 7) cw15 (k0_off46_inb k k0_h46) (fun _ => rfl) _ e30).symm); iexact Hw15)
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hr0_src Hr1_src Hr2_src Hr3_src Hr4_src Hr5_src Hr6_src Hr7_src Hx0 Hx1 Hx2 Hx3 Hx4 Hx5 Hx6 Hx7]
  · isplitl [HxA]; · iexact HxA
    isplitl [Hr0_src Hr1_src Hr2_src Hr3_src Hr4_src Hr5_src Hr6_src Hr7_src]
    · isplitl [Hr0_src]; · iexact Hr0_src
      isplitl [Hr1_src]; · iexact Hr1_src
      isplitl [Hr2_src]; · iexact Hr2_src
      isplitl [Hr3_src]; · iexact Hr3_src
      isplitl [Hr4_src]; · iexact Hr4_src
      isplitl [Hr5_src]; · iexact Hr5_src
      isplitl [Hr6_src]; · iexact Hr6_src
      isplitl [Hr7_src]; · iexact Hr7_src
      iempintro
    isplitl [Hx0]; · (iapply (Entails.of_eq eX0.symm); iexact Hx0)
    isplitl [Hx1]; · (iapply (Entails.of_eq eX1.symm); iexact Hx1)
    isplitl [Hx2]; · (iapply (Entails.of_eq eX2.symm); iexact Hx2)
    isplitl [Hx3]; · (iapply (Entails.of_eq eX3.symm); iexact Hx3)
    isplitl [Hx4]; · (iapply (Entails.of_eq eX4.symm); iexact Hx4)
    isplitl [Hx5]; · (iapply (Entails.of_eq eX5.symm); iexact Hx5)
    isplitl [Hx6]; · (iapply (Entails.of_eq eX6.symm); iexact Hx6)
    isplitl [Hx7]; · (iapply (Entails.of_eq eX7.symm); iexact Hx7)
    iempintro
  isplitl [HxB]; · iexact HxB
  isplitl [HpA Hw8_dst Hw9_dst Hw10_dst Hw11_dst Hw12_dst Hw13_dst Hw14_dst Hw15_dst Hp0 Hp1 Hp2 Hp3 Hp4 Hp5 Hp6 Hp7]
  · isplitl [HpA]; · iexact HpA
    isplitl [Hw8_dst Hw9_dst Hw10_dst Hw11_dst Hw12_dst Hw13_dst Hw14_dst Hw15_dst]
    · isplitl [Hw8_dst]; · iexact Hw8_dst
      isplitl [Hw9_dst]; · iexact Hw9_dst
      isplitl [Hw10_dst]; · iexact Hw10_dst
      isplitl [Hw11_dst]; · iexact Hw11_dst
      isplitl [Hw12_dst]; · iexact Hw12_dst
      isplitl [Hw13_dst]; · iexact Hw13_dst
      isplitl [Hw14_dst]; · iexact Hw14_dst
      isplitl [Hw15_dst]; · iexact Hw15_dst
      iempintro
    isplitl [Hp0]; · (iapply (Entails.of_eq (pDone_spell m d fp (16 * k.val) cw0 (k0_off1_inb k k0_h1) (fun _ => rfl) _ e0).symm); iexact Hp0)
    isplitl [Hp1]; · (iapply (Entails.of_eq (pDone_spell m d fp (16 * k.val + 1) cw1 (k0_off4_inb k k0_h4) (fun _ => rfl) _ e2).symm); iexact Hp1)
    isplitl [Hp2]; · (iapply (Entails.of_eq (pDone_spell m d fp (16 * k.val + 2) cw2 (k0_off7_inb k k0_h7) (fun _ => rfl) _ e4).symm); iexact Hp2)
    isplitl [Hp3]; · (iapply (Entails.of_eq (pDone_spell m d fp (16 * k.val + 3) cw3 (k0_off10_inb k k0_h10) (fun _ => rfl) _ e6).symm); iexact Hp3)
    isplitl [Hp4]; · (iapply (Entails.of_eq (pDone_spell m d fp (16 * k.val + 4) cw4 (k0_off13_inb k k0_h13) (fun _ => rfl) _ e8).symm); iexact Hp4)
    isplitl [Hp5]; · (iapply (Entails.of_eq (pDone_spell m d fp (16 * k.val + 5) cw5 (k0_off16_inb k k0_h16) (fun _ => rfl) _ e10).symm); iexact Hp5)
    isplitl [Hp6]; · (iapply (Entails.of_eq (pDone_spell m d fp (16 * k.val + 6) cw6 (k0_off19_inb k k0_h19) (fun _ => rfl) _ e12).symm); iexact Hp6)
    isplitl [Hp7]; · (iapply (Entails.of_eq (pDone_spell m d fp (16 * k.val + 7) cw7 (k0_off22_inb k k0_h22) (fun _ => rfl) _ e14).symm); iexact Hp7)
    iempintro
  isplitl [HpB]; · iexact HpB
  iexact HO
  repeat (first | exact hW' | refine (Finset.forall_mem_insert _ _ _).mpr ⟨Or.inr rfl, ?_⟩)

set_option maxHeartbeats 16000000 in
/-- The last trip (g = 6): no further read is started — buffers 0..7 end idle. -/
theorem tripT_last (fp : Buf (Elt F) (pLoc d)) (O : CellTallies nD τ sig (HIx 1)) (W : Waits sig (HIx 1))
    (k : Fin k0_t1_loop.trips) (hk6 : k.val = 6) :
    invT m d fp O W k.val ⟨⟩
      ⊢ wp frame (wpE (defs₀ (F := F)) 𝒱₀ (Tt d) none) Set.univ
          (k0_t1_body xT (Memref.isWhole_whole _) pT (Memref.isWhole_whole _) sl0 (Memref.isWhole_whole _) sl1 (Memref.isWhole_whole _) sl2 (Memref.isWhole_whole _) sl3 (Memref.isWhole_whole _) sl4 (Memref.isWhole_whole _) sl5 (Memref.isWhole_whole _) sl6 (Memref.isWhole_whole _) sl7 (Memref.isWhole_whole _) sl8 (Memref.isWhole_whole _) sl9 (Memref.isWhole_whole _) sl10 (Memref.isWhole_whole _) sl11 (Memref.isWhole_whole _) sl12 (Memref.isWhole_whole _) sl13 (Memref.isWhole_whole _) sl14 (Memref.isWhole_whole _) sl15 (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41 cc0_scratch42 cc0_scratch43 cc0_scratch44 cc0_scratch45 cc0_scratch46 cc0_scratch47 k ⟨⟩)
          (invT m d fp O W (k.val + 1)) := by
  have k0_h1 : k0_cond1 k = 1#1 := tcond1 k
  have k0_h2 : k0_cond2 k = 1#1 := (tcond2 k).mpr (by omega)
  have k0_h3 : k0_cond3 k = 1#1 := tcond3 k
  have k0_h4 : k0_cond4 k = 1#1 := tcond4 k
  have k0_h5 : k0_cond5 k = 1#1 := (tcond5 k).mpr (by omega)
  have k0_h6 : k0_cond6 k = 1#1 := tcond6 k
  have k0_h7 : k0_cond7 k = 1#1 := tcond7 k
  have k0_h8 : k0_cond8 k = 1#1 := (tcond8 k).mpr (by omega)
  have k0_h9 : k0_cond9 k = 1#1 := tcond9 k
  have k0_h10 : k0_cond10 k = 1#1 := tcond10 k
  have k0_h11 : k0_cond11 k = 1#1 := (tcond11 k).mpr (by omega)
  have k0_h12 : k0_cond12 k = 1#1 := tcond12 k
  have k0_h13 : k0_cond13 k = 1#1 := tcond13 k
  have k0_h14 : k0_cond14 k = 1#1 := (tcond14 k).mpr (by omega)
  have k0_h15 : k0_cond15 k = 1#1 := tcond15 k
  have k0_h16 : k0_cond16 k = 1#1 := tcond16 k
  have k0_h17 : k0_cond17 k = 1#1 := (tcond17 k).mpr (by omega)
  have k0_h18 : k0_cond18 k = 1#1 := tcond18 k
  have k0_h19 : k0_cond19 k = 1#1 := tcond19 k
  have k0_h20 : k0_cond20 k = 1#1 := (tcond20 k).mpr (by omega)
  have k0_h21 : k0_cond21 k = 1#1 := tcond21 k
  have k0_h22 : k0_cond22 k = 1#1 := tcond22 k
  have k0_h23 : k0_cond23 k = 1#1 := (tcond23 k).mpr (by omega)
  have k0_h24 : k0_cond24 k = 1#1 := tcond24 k
  have k0_h25 : k0_cond25 k = 1#1 := tcond25 k
  have k0_h26 : k0_cond26 k = 1#1 := tcond26 k
  have k0_h27 : ¬ k0_cond27 k = 1#1 := fun h => by have := (tcond27 k).mp h; omega
  have k0_h28 : k0_cond28 k = 1#1 := tcond28 k
  have k0_h29 : k0_cond29 k = 1#1 := tcond29 k
  have k0_h30 : ¬ k0_cond30 k = 1#1 := fun h => by have := (tcond30 k).mp h; omega
  have k0_h31 : k0_cond31 k = 1#1 := tcond31 k
  have k0_h32 : k0_cond32 k = 1#1 := tcond32 k
  have k0_h33 : ¬ k0_cond33 k = 1#1 := fun h => by have := (tcond33 k).mp h; omega
  have k0_h34 : k0_cond34 k = 1#1 := tcond34 k
  have k0_h35 : k0_cond35 k = 1#1 := tcond35 k
  have k0_h36 : ¬ k0_cond36 k = 1#1 := fun h => by have := (tcond36 k).mp h; omega
  have k0_h37 : k0_cond37 k = 1#1 := tcond37 k
  have k0_h38 : k0_cond38 k = 1#1 := tcond38 k
  have k0_h39 : ¬ k0_cond39 k = 1#1 := fun h => by have := (tcond39 k).mp h; omega
  have k0_h40 : k0_cond40 k = 1#1 := tcond40 k
  have k0_h41 : k0_cond41 k = 1#1 := tcond41 k
  have k0_h42 : ¬ k0_cond42 k = 1#1 := fun h => by have := (tcond42 k).mp h; omega
  have k0_h43 : k0_cond43 k = 1#1 := tcond43 k
  have k0_h44 : k0_cond44 k = 1#1 := tcond44 k
  have k0_h45 : ¬ k0_cond45 k = 1#1 := fun h => by have := (tcond45 k).mp h; omega
  have k0_h46 : k0_cond46 k = 1#1 := tcond46 k
  have k0_h47 : k0_cond47 k = 1#1 := tcond47 k
  have k0_h48 : ¬ k0_cond48 k = 1#1 := fun h => by have := (tcond48 k).mp h; omega
  unfold k0_t1_body
  simp only [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  have cw0 : k0_off1 k = tOff (chT (16 * k.val)).val := by rw [toff1, chT_val (by omega)] <;> first | rfl | exact congrArg tOff (by omega)
  have eP0 := pTp_spell d (fun _ => fp) (16 * k.val) cw0 (k0_off1_inb k k0_h1) (fun _ => rfl)
  have cr0 : k0_off3 k = tOff (chT (16 * k.val + 8)).val := by rw [toff3, chT_val (by omega)] <;> first | rfl | exact congrArg tOff (by omega)
  have eX0 := xTp_spell m d (16 * k.val + 8) cr0 (k0_off3_inb k k0_h3) (fun _ => rfl)
  have cw1 : k0_off4 k = tOff (chT (16 * k.val + 1)).val := by rw [toff4, chT_val (by omega)] <;> first | rfl | exact congrArg tOff (by omega)
  have eP1 := pTp_spell d (fun _ => fp) (16 * k.val + 1) cw1 (k0_off4_inb k k0_h4) (fun _ => rfl)
  have cr1 : k0_off6 k = tOff (chT (16 * k.val + 8 + 1)).val := by rw [toff6, chT_val (by omega)] <;> first | rfl | exact congrArg tOff (by omega)
  have eX1 := xTp_spell m d (16 * k.val + 8 + 1) cr1 (k0_off6_inb k k0_h6) (fun _ => rfl)
  have cw2 : k0_off7 k = tOff (chT (16 * k.val + 2)).val := by rw [toff7, chT_val (by omega)] <;> first | rfl | exact congrArg tOff (by omega)
  have eP2 := pTp_spell d (fun _ => fp) (16 * k.val + 2) cw2 (k0_off7_inb k k0_h7) (fun _ => rfl)
  have cr2 : k0_off9 k = tOff (chT (16 * k.val + 8 + 2)).val := by rw [toff9, chT_val (by omega)] <;> first | rfl | exact congrArg tOff (by omega)
  have eX2 := xTp_spell m d (16 * k.val + 8 + 2) cr2 (k0_off9_inb k k0_h9) (fun _ => rfl)
  have cw3 : k0_off10 k = tOff (chT (16 * k.val + 3)).val := by rw [toff10, chT_val (by omega)] <;> first | rfl | exact congrArg tOff (by omega)
  have eP3 := pTp_spell d (fun _ => fp) (16 * k.val + 3) cw3 (k0_off10_inb k k0_h10) (fun _ => rfl)
  have cr3 : k0_off12 k = tOff (chT (16 * k.val + 8 + 3)).val := by rw [toff12, chT_val (by omega)] <;> first | rfl | exact congrArg tOff (by omega)
  have eX3 := xTp_spell m d (16 * k.val + 8 + 3) cr3 (k0_off12_inb k k0_h12) (fun _ => rfl)
  have cw4 : k0_off13 k = tOff (chT (16 * k.val + 4)).val := by rw [toff13, chT_val (by omega)] <;> first | rfl | exact congrArg tOff (by omega)
  have eP4 := pTp_spell d (fun _ => fp) (16 * k.val + 4) cw4 (k0_off13_inb k k0_h13) (fun _ => rfl)
  have cr4 : k0_off15 k = tOff (chT (16 * k.val + 8 + 4)).val := by rw [toff15, chT_val (by omega)] <;> first | rfl | exact congrArg tOff (by omega)
  have eX4 := xTp_spell m d (16 * k.val + 8 + 4) cr4 (k0_off15_inb k k0_h15) (fun _ => rfl)
  have cw5 : k0_off16 k = tOff (chT (16 * k.val + 5)).val := by rw [toff16, chT_val (by omega)] <;> first | rfl | exact congrArg tOff (by omega)
  have eP5 := pTp_spell d (fun _ => fp) (16 * k.val + 5) cw5 (k0_off16_inb k k0_h16) (fun _ => rfl)
  have cr5 : k0_off18 k = tOff (chT (16 * k.val + 8 + 5)).val := by rw [toff18, chT_val (by omega)] <;> first | rfl | exact congrArg tOff (by omega)
  have eX5 := xTp_spell m d (16 * k.val + 8 + 5) cr5 (k0_off18_inb k k0_h18) (fun _ => rfl)
  have cw6 : k0_off19 k = tOff (chT (16 * k.val + 6)).val := by rw [toff19, chT_val (by omega)] <;> first | rfl | exact congrArg tOff (by omega)
  have eP6 := pTp_spell d (fun _ => fp) (16 * k.val + 6) cw6 (k0_off19_inb k k0_h19) (fun _ => rfl)
  have cr6 : k0_off21 k = tOff (chT (16 * k.val + 8 + 6)).val := by rw [toff21, chT_val (by omega)] <;> first | rfl | exact congrArg tOff (by omega)
  have eX6 := xTp_spell m d (16 * k.val + 8 + 6) cr6 (k0_off21_inb k k0_h21) (fun _ => rfl)
  have cw7 : k0_off22 k = tOff (chT (16 * k.val + 7)).val := by rw [toff22, chT_val (by omega)] <;> first | rfl | exact congrArg tOff (by omega)
  have eP7 := pTp_spell d (fun _ => fp) (16 * k.val + 7) cw7 (k0_off22_inb k k0_h22) (fun _ => rfl)
  have cr7 : k0_off24 k = tOff (chT (16 * k.val + 8 + 7)).val := by rw [toff24, chT_val (by omega)] <;> first | rfl | exact congrArg tOff (by omega)
  have eX7 := xTp_spell m d (16 * k.val + 8 + 7) cr7 (k0_off24_inb k k0_h24) (fun _ => rfl)
  have cw8 : k0_off25 k = tOff (chT (16 * k.val + 8)).val := by rw [toff25, chT_val (by omega)] <;> first | rfl | exact congrArg tOff (by omega)
  have eP8 := pTp_spell d (fun _ => fp) (16 * k.val + 8) cw8 (k0_off25_inb k k0_h25) (fun _ => rfl)
  have cw9 : k0_off28 k = tOff (chT (16 * k.val + 8 + 1)).val := by rw [toff28, chT_val (by omega)] <;> first | rfl | exact congrArg tOff (by omega)
  have eP9 := pTp_spell d (fun _ => fp) (16 * k.val + 8 + 1) cw9 (k0_off28_inb k k0_h28) (fun _ => rfl)
  have cw10 : k0_off31 k = tOff (chT (16 * k.val + 8 + 2)).val := by rw [toff31, chT_val (by omega)] <;> first | rfl | exact congrArg tOff (by omega)
  have eP10 := pTp_spell d (fun _ => fp) (16 * k.val + 8 + 2) cw10 (k0_off31_inb k k0_h31) (fun _ => rfl)
  have cw11 : k0_off34 k = tOff (chT (16 * k.val + 8 + 3)).val := by rw [toff34, chT_val (by omega)] <;> first | rfl | exact congrArg tOff (by omega)
  have eP11 := pTp_spell d (fun _ => fp) (16 * k.val + 8 + 3) cw11 (k0_off34_inb k k0_h34) (fun _ => rfl)
  have cw12 : k0_off37 k = tOff (chT (16 * k.val + 8 + 4)).val := by rw [toff37, chT_val (by omega)] <;> first | rfl | exact congrArg tOff (by omega)
  have eP12 := pTp_spell d (fun _ => fp) (16 * k.val + 8 + 4) cw12 (k0_off37_inb k k0_h37) (fun _ => rfl)
  have cw13 : k0_off40 k = tOff (chT (16 * k.val + 8 + 5)).val := by rw [toff40, chT_val (by omega)] <;> first | rfl | exact congrArg tOff (by omega)
  have eP13 := pTp_spell d (fun _ => fp) (16 * k.val + 8 + 5) cw13 (k0_off40_inb k k0_h40) (fun _ => rfl)
  have cw14 : k0_off43 k = tOff (chT (16 * k.val + 8 + 6)).val := by rw [toff43, chT_val (by omega)] <;> first | rfl | exact congrArg tOff (by omega)
  have eP14 := pTp_spell d (fun _ => fp) (16 * k.val + 8 + 6) cw14 (k0_off43_inb k k0_h43) (fun _ => rfl)
  have cw15 : k0_off46 k = tOff (chT (16 * k.val + 8 + 7)).val := by rw [toff46, chT_val (by omega)] <;> first | rfl | exact congrArg tOff (by omega)
  have eP15 := pTp_spell d (fun _ => fp) (16 * k.val + 8 + 7) cw15 (k0_off46_inb k k0_h46) (fun _ => rfl)
  rw [inv_open_lastT m d fp O W k.val hk6]
  unfold rdF0 rdF1 rdF2 rdF3 rdF4 rdF5 rdF6 rdF7 wrF8 wrF9 wrF10 wrF11 wrF12 wrF13 wrF14 wrF15
  iintro ⟨#Hmw, ⟨Hr0, Hr1, Hr2, Hr3, Hr4, Hr5, Hr6, Hr7⟩, ⟨Hw8, Hw9, Hw10, Hw11, Hw12, Hw13, Hw14, Hw15⟩, Hr8, Hr9, Hr10, Hr11, Hr12, Hr13, Hr14, Hr15, Hw0, Hw1, Hw2, Hw3, Hw4, Hw5, Hw6, Hw7, HxA, ⟨Hx0, Hx1, Hx2, Hx3, Hx4, Hx5, Hx6, Hx7, HxB⟩, HpA, ⟨Hp0, Hp1, Hp2, Hp3, Hp4, Hp5, Hp6, Hp7, Hp8, Hp9, Hp10, Hp11, Hp12, Hp13, Hp14, Hp15, HpB⟩, %W', %hW', HO⟩
  ihave Hp0 := (Entails.of_eq eP0) $$ Hp0
  ihave Hx0 := (Entails.of_eq eX0) $$ Hx0
  ihave Hp1 := (Entails.of_eq eP1) $$ Hp1
  ihave Hx1 := (Entails.of_eq eX1) $$ Hx1
  ihave Hp2 := (Entails.of_eq eP2) $$ Hp2
  ihave Hx2 := (Entails.of_eq eX2) $$ Hx2
  ihave Hp3 := (Entails.of_eq eP3) $$ Hp3
  ihave Hx3 := (Entails.of_eq eX3) $$ Hx3
  ihave Hp4 := (Entails.of_eq eP4) $$ Hp4
  ihave Hx4 := (Entails.of_eq eX4) $$ Hx4
  ihave Hp5 := (Entails.of_eq eP5) $$ Hp5
  ihave Hx5 := (Entails.of_eq eX5) $$ Hx5
  ihave Hp6 := (Entails.of_eq eP6) $$ Hp6
  ihave Hx6 := (Entails.of_eq eX6) $$ Hx6
  ihave Hp7 := (Entails.of_eq eP7) $$ Hp7
  ihave Hx7 := (Entails.of_eq eX7) $$ Hx7
  ihave Hp8 := (Entails.of_eq eP8) $$ Hp8
  ihave Hp9 := (Entails.of_eq eP9) $$ Hp9
  ihave Hp10 := (Entails.of_eq eP10) $$ Hp10
  ihave Hp11 := (Entails.of_eq eP11) $$ Hp11
  ihave Hp12 := (Entails.of_eq eP12) $$ Hp12
  ihave Hp13 := (Entails.of_eq eP13) $$ Hp13
  ihave Hp14 := (Entails.of_eq eP14) $$ Hp14
  ihave Hp15 := (Entails.of_eq eP15) $$ Hp15
  sl_exec
  sl_step
  have e0 : tripT_last.sl.dma0 m d k = tData m d (chT (16 * k.val)) := rfl
  have e1 : tripT_last.sl.dma0_1 m d k k0_h3 = tData m d (chT (16 * k.val + 8)) :=
    (tData_spell m d (16 * k.val + 8) cr0 (k0_off3_inb k k0_h3) (fun _ => rfl)).symm
  have e2 : tripT_last.sl.dma0_2 m d k = tData m d (chT (16 * k.val + 1)) := rfl
  have e3 : tripT_last.sl.dma0_3 m d k k0_h6 = tData m d (chT (16 * k.val + 8 + 1)) :=
    (tData_spell m d (16 * k.val + 8 + 1) cr1 (k0_off6_inb k k0_h6) (fun _ => rfl)).symm
  have e4 : tripT_last.sl.dma0_4 m d k = tData m d (chT (16 * k.val + 2)) := rfl
  have e5 : tripT_last.sl.dma0_5 m d k k0_h9 = tData m d (chT (16 * k.val + 8 + 2)) :=
    (tData_spell m d (16 * k.val + 8 + 2) cr2 (k0_off9_inb k k0_h9) (fun _ => rfl)).symm
  have e6 : tripT_last.sl.dma0_6 m d k = tData m d (chT (16 * k.val + 3)) := rfl
  have e7 : tripT_last.sl.dma0_7 m d k k0_h12 = tData m d (chT (16 * k.val + 8 + 3)) :=
    (tData_spell m d (16 * k.val + 8 + 3) cr3 (k0_off12_inb k k0_h12) (fun _ => rfl)).symm
  have e8 : tripT_last.sl.dma0_8 m d k = tData m d (chT (16 * k.val + 4)) := rfl
  have e9 : tripT_last.sl.dma0_9 m d k k0_h15 = tData m d (chT (16 * k.val + 8 + 4)) :=
    (tData_spell m d (16 * k.val + 8 + 4) cr4 (k0_off15_inb k k0_h15) (fun _ => rfl)).symm
  have e10 : tripT_last.sl.dma0_10 m d k = tData m d (chT (16 * k.val + 5)) := rfl
  have e11 : tripT_last.sl.dma0_11 m d k k0_h18 = tData m d (chT (16 * k.val + 8 + 5)) :=
    (tData_spell m d (16 * k.val + 8 + 5) cr5 (k0_off18_inb k k0_h18) (fun _ => rfl)).symm
  have e12 : tripT_last.sl.dma0_12 m d k = tData m d (chT (16 * k.val + 6)) := rfl
  have e13 : tripT_last.sl.dma0_13 m d k k0_h21 = tData m d (chT (16 * k.val + 8 + 6)) :=
    (tData_spell m d (16 * k.val + 8 + 6) cr6 (k0_off21_inb k k0_h21) (fun _ => rfl)).symm
  have e14 : tripT_last.sl.dma0_14 m d k = tData m d (chT (16 * k.val + 7)) := rfl
  have e15 : tripT_last.sl.dma0_15 m d k k0_h24 = tData m d (chT (16 * k.val + 8 + 7)) :=
    (tData_spell m d (16 * k.val + 8 + 7) cr7 (k0_off24_inb k k0_h24) (fun _ => rfl)).symm
  have e16 : tripT_last.sl.dma0_16 m d k k0_h3 = tData m d (chT (16 * k.val + 8)) := by
    unfold tripT_last.sl.dma0_16
    simp only [Memref.view_whole, View.write_whole_univ, View.read_whole, ReadAs.apply_same]
    exact e1
  have e18 : tripT_last.sl.dma0_17 m d k k0_h6 = tData m d (chT (16 * k.val + 8 + 1)) := by
    unfold tripT_last.sl.dma0_17
    simp only [Memref.view_whole, View.write_whole_univ, View.read_whole, ReadAs.apply_same]
    exact e3
  have e20 : tripT_last.sl.dma0_18 m d k k0_h9 = tData m d (chT (16 * k.val + 8 + 2)) := by
    unfold tripT_last.sl.dma0_18
    simp only [Memref.view_whole, View.write_whole_univ, View.read_whole, ReadAs.apply_same]
    exact e5
  have e22 : tripT_last.sl.dma0_19 m d k k0_h12 = tData m d (chT (16 * k.val + 8 + 3)) := by
    unfold tripT_last.sl.dma0_19
    simp only [Memref.view_whole, View.write_whole_univ, View.read_whole, ReadAs.apply_same]
    exact e7
  have e24 : tripT_last.sl.dma0_20 m d k k0_h15 = tData m d (chT (16 * k.val + 8 + 4)) := by
    unfold tripT_last.sl.dma0_20
    simp only [Memref.view_whole, View.write_whole_univ, View.read_whole, ReadAs.apply_same]
    exact e9
  have e26 : tripT_last.sl.dma0_21 m d k k0_h18 = tData m d (chT (16 * k.val + 8 + 5)) := by
    unfold tripT_last.sl.dma0_21
    simp only [Memref.view_whole, View.write_whole_univ, View.read_whole, ReadAs.apply_same]
    exact e11
  have e28 : tripT_last.sl.dma0_22 m d k k0_h21 = tData m d (chT (16 * k.val + 8 + 6)) := by
    unfold tripT_last.sl.dma0_22
    simp only [Memref.view_whole, View.write_whole_univ, View.read_whole, ReadAs.apply_same]
    exact e13
  have e30 : tripT_last.sl.dma0_23 m d k k0_h24 = tData m d (chT (16 * k.val + 8 + 7)) := by
    unfold tripT_last.sl.dma0_23
    simp only [Memref.view_whole, View.write_whole_univ, View.read_whole, ReadAs.apply_same]
    exact e15
  iapply (inv_close_lastT m d fp O W _ k.val hk6 ?hW)
  rotate_left
  isplitl [Hmw]; · iexact Hmw
  isplitl [Hr0_dst Hr1_dst Hr2_dst Hr3_dst Hr4_dst Hr5_dst Hr6_dst Hr7_dst Hr0 Hr1 Hr2 Hr3 Hr4 Hr5 Hr6 Hr7]
  · isplitl [Hr0_dst]; · (iexists _; iexact Hr0_dst)
    isplitl [Hr1_dst]; · (iexists _; iexact Hr1_dst)
    isplitl [Hr2_dst]; · (iexists _; iexact Hr2_dst)
    isplitl [Hr3_dst]; · (iexists _; iexact Hr3_dst)
    isplitl [Hr4_dst]; · (iexists _; iexact Hr4_dst)
    isplitl [Hr5_dst]; · (iexists _; iexact Hr5_dst)
    isplitl [Hr6_dst]; · (iexists _; iexact Hr6_dst)
    isplitl [Hr7_dst]; · (iexists _; iexact Hr7_dst)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hw8 Hw9 Hw10 Hw11 Hw12 Hw13 Hw14 Hw15]
  · isplitl [Hw8]; · (iapply (wrT_conv8 m d fp (16 * k.val + 8) _ rfl _ ((View.write_whole_univ (Val := Elt F) cc0_scratch8 _ _).trans e1) _ (pDone_spell m d fp (16 * k.val + 8) cw8 (k0_off25_inb k k0_h25) (fun _ => rfl) _ e16).symm); iexact Hw8)
    isplitl [Hw9]; · (iapply (wrT_conv9 m d fp (16 * k.val + 8 + 1) _ rfl _ ((View.write_whole_univ (Val := Elt F) cc0_scratch9 _ _).trans e3) _ (pDone_spell m d fp (16 * k.val + 8 + 1) cw9 (k0_off28_inb k k0_h28) (fun _ => rfl) _ e18).symm); iexact Hw9)
    isplitl [Hw10]; · (iapply (wrT_conv10 m d fp (16 * k.val + 8 + 2) _ rfl _ ((View.write_whole_univ (Val := Elt F) cc0_scratch10 _ _).trans e5) _ (pDone_spell m d fp (16 * k.val + 8 + 2) cw10 (k0_off31_inb k k0_h31) (fun _ => rfl) _ e20).symm); iexact Hw10)
    isplitl [Hw11]; · (iapply (wrT_conv11 m d fp (16 * k.val + 8 + 3) _ rfl _ ((View.write_whole_univ (Val := Elt F) cc0_scratch11 _ _).trans e7) _ (pDone_spell m d fp (16 * k.val + 8 + 3) cw11 (k0_off34_inb k k0_h34) (fun _ => rfl) _ e22).symm); iexact Hw11)
    isplitl [Hw12]; · (iapply (wrT_conv12 m d fp (16 * k.val + 8 + 4) _ rfl _ ((View.write_whole_univ (Val := Elt F) cc0_scratch12 _ _).trans e9) _ (pDone_spell m d fp (16 * k.val + 8 + 4) cw12 (k0_off37_inb k k0_h37) (fun _ => rfl) _ e24).symm); iexact Hw12)
    isplitl [Hw13]; · (iapply (wrT_conv13 m d fp (16 * k.val + 8 + 5) _ rfl _ ((View.write_whole_univ (Val := Elt F) cc0_scratch13 _ _).trans e11) _ (pDone_spell m d fp (16 * k.val + 8 + 5) cw13 (k0_off40_inb k k0_h40) (fun _ => rfl) _ e26).symm); iexact Hw13)
    isplitl [Hw14]; · (iapply (wrT_conv14 m d fp (16 * k.val + 8 + 6) _ rfl _ ((View.write_whole_univ (Val := Elt F) cc0_scratch14 _ _).trans e13) _ (pDone_spell m d fp (16 * k.val + 8 + 6) cw14 (k0_off43_inb k k0_h43) (fun _ => rfl) _ e28).symm); iexact Hw14)
    (iapply (wrT_conv15 m d fp (16 * k.val + 8 + 7) _ rfl _ ((View.write_whole_univ (Val := Elt F) cc0_scratch15 _ _).trans e15) _ (pDone_spell m d fp (16 * k.val + 8 + 7) cw15 (k0_off46_inb k k0_h46) (fun _ => rfl) _ e30).symm); iexact Hw15)
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hr0_src Hr1_src Hr2_src Hr3_src Hr4_src Hr5_src Hr6_src Hr7_src Hx0 Hx1 Hx2 Hx3 Hx4 Hx5 Hx6 Hx7]
  · isplitl [HxA]; · iexact HxA
    isplitl [Hr0_src Hr1_src Hr2_src Hr3_src Hr4_src Hr5_src Hr6_src Hr7_src]
    · isplitl [Hr0_src]; · iexact Hr0_src
      isplitl [Hr1_src]; · iexact Hr1_src
      isplitl [Hr2_src]; · iexact Hr2_src
      isplitl [Hr3_src]; · iexact Hr3_src
      isplitl [Hr4_src]; · iexact Hr4_src
      isplitl [Hr5_src]; · iexact Hr5_src
      isplitl [Hr6_src]; · iexact Hr6_src
      isplitl [Hr7_src]; · iexact Hr7_src
      iempintro
    isplitl [Hx0]; · (iapply (Entails.of_eq eX0.symm); iexact Hx0)
    isplitl [Hx1]; · (iapply (Entails.of_eq eX1.symm); iexact Hx1)
    isplitl [Hx2]; · (iapply (Entails.of_eq eX2.symm); iexact Hx2)
    isplitl [Hx3]; · (iapply (Entails.of_eq eX3.symm); iexact Hx3)
    isplitl [Hx4]; · (iapply (Entails.of_eq eX4.symm); iexact Hx4)
    isplitl [Hx5]; · (iapply (Entails.of_eq eX5.symm); iexact Hx5)
    isplitl [Hx6]; · (iapply (Entails.of_eq eX6.symm); iexact Hx6)
    isplitl [Hx7]; · (iapply (Entails.of_eq eX7.symm); iexact Hx7)
    iempintro
  isplitl [HxB]
  · iapply (Entails.of_eq (show bigSep (Finset.Ico (16 * k.val + 8 + 8) 112) (xTp m d) = bigSep (Finset.Ico (16 * k.val + 8 + 8 + 8) 112) (xTp m d) from by
      rw [Finset.Ico_eq_empty_of_le (show 112 ≤ 16 * k.val + 8 + 8 by omega), Finset.Ico_eq_empty_of_le (show 112 ≤ 16 * k.val + 8 + 8 + 8 by omega)]))
    iexact HxB
  isplitl [HpA Hw8_dst Hw9_dst Hw10_dst Hw11_dst Hw12_dst Hw13_dst Hw14_dst Hw15_dst Hp0 Hp1 Hp2 Hp3 Hp4 Hp5 Hp6 Hp7]
  · isplitl [HpA]; · iexact HpA
    isplitl [Hw8_dst Hw9_dst Hw10_dst Hw11_dst Hw12_dst Hw13_dst Hw14_dst Hw15_dst]
    · isplitl [Hw8_dst]; · iexact Hw8_dst
      isplitl [Hw9_dst]; · iexact Hw9_dst
      isplitl [Hw10_dst]; · iexact Hw10_dst
      isplitl [Hw11_dst]; · iexact Hw11_dst
      isplitl [Hw12_dst]; · iexact Hw12_dst
      isplitl [Hw13_dst]; · iexact Hw13_dst
      isplitl [Hw14_dst]; · iexact Hw14_dst
      isplitl [Hw15_dst]; · iexact Hw15_dst
      iempintro
    isplitl [Hp0]; · (iapply (Entails.of_eq (pDone_spell m d fp (16 * k.val) cw0 (k0_off1_inb k k0_h1) (fun _ => rfl) _ e0).symm); iexact Hp0)
    isplitl [Hp1]; · (iapply (Entails.of_eq (pDone_spell m d fp (16 * k.val + 1) cw1 (k0_off4_inb k k0_h4) (fun _ => rfl) _ e2).symm); iexact Hp1)
    isplitl [Hp2]; · (iapply (Entails.of_eq (pDone_spell m d fp (16 * k.val + 2) cw2 (k0_off7_inb k k0_h7) (fun _ => rfl) _ e4).symm); iexact Hp2)
    isplitl [Hp3]; · (iapply (Entails.of_eq (pDone_spell m d fp (16 * k.val + 3) cw3 (k0_off10_inb k k0_h10) (fun _ => rfl) _ e6).symm); iexact Hp3)
    isplitl [Hp4]; · (iapply (Entails.of_eq (pDone_spell m d fp (16 * k.val + 4) cw4 (k0_off13_inb k k0_h13) (fun _ => rfl) _ e8).symm); iexact Hp4)
    isplitl [Hp5]; · (iapply (Entails.of_eq (pDone_spell m d fp (16 * k.val + 5) cw5 (k0_off16_inb k k0_h16) (fun _ => rfl) _ e10).symm); iexact Hp5)
    isplitl [Hp6]; · (iapply (Entails.of_eq (pDone_spell m d fp (16 * k.val + 6) cw6 (k0_off19_inb k k0_h19) (fun _ => rfl) _ e12).symm); iexact Hp6)
    isplitl [Hp7]; · (iapply (Entails.of_eq (pDone_spell m d fp (16 * k.val + 7) cw7 (k0_off22_inb k k0_h22) (fun _ => rfl) _ e14).symm); iexact Hp7)
    iempintro
  isplitl [HpB]; · iexact HpB
  iexact HO
  repeat (first | exact hW' | refine (Finset.forall_mem_insert _ _ _).mpr ⟨Or.inr rfl, ?_⟩)

end TcBody

end Cert.Proof.KI

end
-- ==== Proof.KITcBody.lean ====
/-
  The ring copy's body as a whole: from the TensorCore's scoped storage, `x` and the region's result buffer to the same with the
  result buffer holding blocks 4..31 of `x` — the loop's invariant (Proof/KITcRing.lean) entered after the eight reads ahead,
  left before the last eight waits. The 112 chunks are pairwise disjoint and cover exactly blocks 4..31; a written chunk holds
  the entries of `x` at the same indices.
-/
import proofs.«202537_g10033043603743_week1_w1_89_23_alg».proof.Proof.KITcRing

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xT" => (Memref.whole Cert.KernelIdeal.main_arg0 : Memref Cert.KernelIdeal.sig Kind.tc Space.hbm Cert.KernelIdeal.S32x16384x128 EltTy.f32)
local notation "pT" => (Memref.whole Cert.KernelIdeal.main_v0 : Memref Cert.KernelIdeal.sig Kind.tc Space.hbm Cert.KernelIdeal.S32x16384x128 EltTy.f32)
local notation "sl0" => (Memref.whole Cert.KernelIdeal.cc0_scratch0 : Memref Cert.KernelIdeal.sig Kind.tc Space.vmem Cert.KernelIdeal.S4096x128 EltTy.f32)
local notation "sl1" => (Memref.whole Cert.KernelIdeal.cc0_scratch1 : Memref Cert.KernelIdeal.sig Kind.tc Space.vmem Cert.KernelIdeal.S4096x128 EltTy.f32)
local notation "sl2" => (Memref.whole Cert.KernelIdeal.cc0_scratch2 : Memref Cert.KernelIdeal.sig Kind.tc Space.vmem Cert.KernelIdeal.S4096x128 EltTy.f32)
local notation "sl3" => (Memref.whole Cert.KernelIdeal.cc0_scratch3 : Memref Cert.KernelIdeal.sig Kind.tc Space.vmem Cert.KernelIdeal.S4096x128 EltTy.f32)
local notation "sl4" => (Memref.whole Cert.KernelIdeal.cc0_scratch4 : Memref Cert.KernelIdeal.sig Kind.tc Space.vmem Cert.KernelIdeal.S4096x128 EltTy.f32)
local notation "sl5" => (Memref.whole Cert.KernelIdeal.cc0_scratch5 : Memref Cert.KernelIdeal.sig Kind.tc Space.vmem Cert.KernelIdeal.S4096x128 EltTy.f32)
local notation "sl6" => (Memref.whole Cert.KernelIdeal.cc0_scratch6 : Memref Cert.KernelIdeal.sig Kind.tc Space.vmem Cert.KernelIdeal.S4096x128 EltTy.f32)
local notation "sl7" => (Memref.whole Cert.KernelIdeal.cc0_scratch7 : Memref Cert.KernelIdeal.sig Kind.tc Space.vmem Cert.KernelIdeal.S4096x128 EltTy.f32)
local notation "sl8" => (Memref.whole Cert.KernelIdeal.cc0_scratch8 : Memref Cert.KernelIdeal.sig Kind.tc Space.vmem Cert.KernelIdeal.S4096x128 EltTy.f32)
local notation "sl9" => (Memref.whole Cert.KernelIdeal.cc0_scratch9 : Memref Cert.KernelIdeal.sig Kind.tc Space.vmem Cert.KernelIdeal.S4096x128 EltTy.f32)
local notation "sl10" => (Memref.whole Cert.KernelIdeal.cc0_scratch10 : Memref Cert.KernelIdeal.sig Kind.tc Space.vmem Cert.KernelIdeal.S4096x128 EltTy.f32)
local notation "sl11" => (Memref.whole Cert.KernelIdeal.cc0_scratch11 : Memref Cert.KernelIdeal.sig Kind.tc Space.vmem Cert.KernelIdeal.S4096x128 EltTy.f32)
local notation "sl12" => (Memref.whole Cert.KernelIdeal.cc0_scratch12 : Memref Cert.KernelIdeal.sig Kind.tc Space.vmem Cert.KernelIdeal.S4096x128 EltTy.f32)
local notation "sl13" => (Memref.whole Cert.KernelIdeal.cc0_scratch13 : Memref Cert.KernelIdeal.sig Kind.tc Space.vmem Cert.KernelIdeal.S4096x128 EltTy.f32)
local notation "sl14" => (Memref.whole Cert.KernelIdeal.cc0_scratch14 : Memref Cert.KernelIdeal.sig Kind.tc Space.vmem Cert.KernelIdeal.S4096x128 EltTy.f32)
local notation "sl15" => (Memref.whole Cert.KernelIdeal.cc0_scratch15 : Memref Cert.KernelIdeal.sig Kind.tc Space.vmem Cert.KernelIdeal.S4096x128 EltTy.f32)

/-! ## The chunks' elements, by coordinates -/

theorem mem_xC_set (n : Fin 112) (x : S32x16384x128.Idx) :
    x ∈ (xC n).view.set ↔ (x 0).val = 4 + n.val / 4 ∧ 4096 * (n.val % 4) ≤ (x 1).val ∧ (x 1).val < 4096 * (n.val % 4) + 4096 := by
  show x ∈ (((View.whole main_arg0).slice (Rect.unit (s := S32x16384x128) (tOff n.val) S1x4096x128.size (tOff_inb n))).reshape S4096x128
    squeezes_S1x4096x128_S4096x128.numel_eq).set ↔ _
  rw [View.set_reshape, View.set_slice_whole, Rect.mem_set_unit]
  constructor
  · intro h
    have h0 := h 0; have h1 := h 1
    have e0 : tOff n.val 0 = 4 + n.val / 4 := rfl
    have e1 : tOff n.val 1 = 4096 * (n.val % 4) := rfl
    have s0 : S1x4096x128.size 0 = 1 := rfl
    have s1 : S1x4096x128.size 1 = 4096 := rfl
    rw [e0, s0] at h0; rw [e1, s1] at h1
    omega
  · rintro ⟨h0, h1, h2⟩ a
    match a with
    | ⟨0, _⟩ =>
      show 4 + n.val / 4 ≤ (x 0).val ∧ (x 0).val < 4 + n.val / 4 + 1
      omega
    | ⟨1, _⟩ =>
      show 4096 * (n.val % 4) ≤ (x 1).val ∧ (x 1).val < 4096 * (n.val % 4) + 4096
      exact ⟨h1, h2⟩
    | ⟨2, _⟩ =>
      show 0 ≤ (x 2).val ∧ (x 2).val < 0 + 128
      have := (x 2).isLt
      exact ⟨Nat.zero_le _, by simpa using this⟩

/-- A chunk of the region's result is the same set of elements as the chunk of `x`. -/
theorem pC_set_eq (n : Fin 112) : (pC n).view.set = (xC n).view.set := rfl

abbrev tSet (n : ℕ) : Finset S32x16384x128.Idx := (xC (chT n)).view.set

theorem mem_tSet (n : ℕ) (hn : n < 112) (x : S32x16384x128.Idx) :
    x ∈ tSet n ↔ (x 0).val = 4 + n / 4 ∧ 4096 * (n % 4) ≤ (x 1).val ∧ (x 1).val < 4096 * (n % 4) + 4096 := by
  unfold tSet; rw [mem_xC_set, chT_val hn]

theorem tSet_disjoint : ∀ n ∈ Finset.Ico 0 112, ∀ n' ∈ Finset.Ico 0 112, n ≠ n' → Disjoint (tSet n) (tSet n') := by
  intro n hn n' hn' hne
  have h1 := (Finset.mem_Ico.mp hn).2; have h2 := (Finset.mem_Ico.mp hn').2
  refine Finset.disjoint_left.mpr fun x hx hx' => hne ?_
  have a := (mem_tSet n h1 x).mp hx
  have b := (mem_tSet n' h2 x).mp hx'
  omega

theorem tSet_cover : (Finset.Ico 0 112).biUnion tSet = (Finset.univ.filter fun x : S32x16384x128.Idx => 4 ≤ (x 0).val) := by
  ext x
  simp only [Finset.mem_biUnion, Finset.mem_filter, Finset.mem_univ, true_and]
  constructor
  · rintro ⟨n, hn, hx⟩
    have := (mem_tSet n (Finset.mem_Ico.mp hn).2 x).mp hx
    omega
  · intro h4
    have h0 : (x 0).val < 32 := (x 0).isLt
    have h1 : (x 1).val < 16384 := (x 1).isLt
    refine ⟨4 * ((x 0).val - 4) + (x 1).val / 4096, Finset.mem_Ico.mpr ⟨Nat.zero_le _, by omega⟩, (mem_tSet _ (by omega) x).mpr ?_⟩
    omega

section Body

variable [FloatOps F] (m : (ℓ : Loc nD τ sig) → Buf (Elt F) ℓ) (d : Dev nD)

set_option maxHeartbeats 1000000 in
/-- At an element of the chunk, the written chunk holds the entry of `x` at the same index. -/
theorem pNew_apply (fp : Buf (Elt F) (pLoc d)) (n : Fin 112) (i : S32x16384x128.Idx) (hi : i ∈ (pC n).view.set) :
    pNew m d fp n i = m (xLoc d) i := by
  obtain ⟨j, -, rfl⟩ := Finset.mem_map.mp hi
  have e : (pC n).view.emb j = ((pC n).view.slice (Rect.whole S4096x128)).emb j := by
    rw [View.emb_slice]
    show _ = (pC n).view.emb ((Rect.whole S4096x128).emb j)
    rw [Rect.emb_whole_apply]
  rw [e]
  show ((pC n).view.slice (Rect.whole S4096x128)).write (Elt F) fp (tData m d n) Finset.univ
    (((pC n).view.slice (Rect.whole S4096x128)).emb j) = _
  rw [View.write_emb_of_mem _ _ (Finset.mem_univ _)]
  show _root_.cast _ ((xC n).view.read (Elt F) (m (xLoc d)) j) = _
  rw [View.read_apply, cast_cast, cast_eq]
  refine congrArg (m (xLoc d)) ?_
  rw [View.emb_slice]
  show (xC n).view.emb j = (pC n).view.emb ((Rect.whole S4096x128).emb j)
  rw [Rect.emb_whole_apply]
  rfl

/-- So on its elements a written chunk holds what `tcOut` says; and off blocks 4..31 `tcOut` is what the buffer held. -/
theorem pNew_tcOut (fp : Buf (Elt F) (pLoc d)) (n : ℕ) (hn : n < 112) (i : S32x16384x128.Idx) (hi : i ∈ (pC (chT n)).view.set) :
    pNew m d fp (chT n) i = tcOut m d i := by
  rw [pNew_apply m d fp (chT n) i hi]
  have h := (mem_tSet n hn i).mp hi
  show _ = (if 4 ≤ (i 0).val then m (xLoc d) i else m (pLoc d) i)
  rw [if_pos (by omega)]
theorem low_tcOut (i : S32x16384x128.Idx) (hi : i ∈ Finset.univ \ (Finset.Ico 0 112).biUnion tSet) : m (pLoc d) i = tcOut m d i := by
  rw [tSet_cover] at hi
  have h4 : ¬ 4 ≤ (i 0).val := fun h => (Finset.mem_sdiff.mp hi).2 (Finset.mem_filter.mpr ⟨Finset.mem_univ _, h⟩)
  show _ = (if 4 ≤ (i 0).val then m (xLoc d) i else m (pLoc d) i)
  rw [if_neg h4]

/-! ## The TensorCore's scoped storage, opened -/

set_option maxHeartbeats 8000000 in
theorem scopedBufs_T : (scopedBufs (Tt d) : sProp 𝕄) = iprop((∃ f, (sl0).view.loc (Tt d) ↦{fullShare} f) ∗ (∃ f, (sl1).view.loc (Tt d) ↦{fullShare} f) ∗ (∃ f, (sl2).view.loc (Tt d) ↦{fullShare} f) ∗ (∃ f, (sl3).view.loc (Tt d) ↦{fullShare} f) ∗ (∃ f, (sl4).view.loc (Tt d) ↦{fullShare} f) ∗ (∃ f, (sl5).view.loc (Tt d) ↦{fullShare} f) ∗ (∃ f, (sl6).view.loc (Tt d) ↦{fullShare} f) ∗ (∃ f, (sl7).view.loc (Tt d) ↦{fullShare} f) ∗ (∃ f, (sl8).view.loc (Tt d) ↦{fullShare} f) ∗ (∃ f, (sl9).view.loc (Tt d) ↦{fullShare} f) ∗ (∃ f, (sl10).view.loc (Tt d) ↦{fullShare} f) ∗ (∃ f, (sl11).view.loc (Tt d) ↦{fullShare} f) ∗ (∃ f, (sl12).view.loc (Tt d) ↦{fullShare} f) ∗ (∃ f, (sl13).view.loc (Tt d) ↦{fullShare} f) ∗ (∃ f, (sl14).view.loc (Tt d) ↦{fullShare} f) ∗ (∃ f, (sl15).view.loc (Tt d) ↦{fullShare} f)) := by
  unfold scopedBufs
  show (bigSep (scopedRefs sig (Proc.tc : Proc τ)) _ : sProp 𝕄) = _
  rw [scopedRefs_tc, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  try rfl

set_option maxHeartbeats 8000000 in
theorem scopedSems0_T : (scopedSems0 (Tt d) : sProp 𝕄) = iprop(semVal (Tt d, rs0) 0 ∗ semVal (Tt d, rs1) 0 ∗ semVal (Tt d, rs2) 0 ∗ semVal (Tt d, rs3) 0 ∗ semVal (Tt d, rs4) 0 ∗ semVal (Tt d, rs5) 0 ∗ semVal (Tt d, rs6) 0 ∗ semVal (Tt d, rs7) 0 ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0 ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0 ∗ semVal (Tt d, ws8) 0 ∗ semVal (Tt d, ws9) 0 ∗ semVal (Tt d, ws10) 0 ∗ semVal (Tt d, ws11) 0 ∗ semVal (Tt d, ws12) 0 ∗ semVal (Tt d, ws13) 0 ∗ semVal (Tt d, ws14) 0 ∗ semVal (Tt d, ws15) 0) := by
  obtain rfl := dev_eq d
  unfold scopedSems0
  rw [scopedCells_tc, SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), bigSep_singleton]
  try rfl

/-! ## The invariant at the loop's entry and exit -/

set_option maxHeartbeats 4000000 in
theorem inv_initT (fp : Buf (Elt F) (pLoc d)) (O : CellTallies nD τ sig (HIx 1)) (W : Waits sig (HIx 1)) :
    iprop(Transfers.MayWaits (Tt d) (none : HIx 1) O
      ∗ (rdF0 m d 0 ∗ rdF1 m d 1 ∗ rdF2 m d 2 ∗ rdF3 m d 3 ∗ rdF4 m d 4 ∗ rdF5 m d 5 ∗ rdF6 m d 6 ∗ rdF7 m d 7)
      ∗ ((∃ f, (sl8).view.loc (Tt d) ↦{fullShare} f) ∗ (∃ f, (sl9).view.loc (Tt d) ↦{fullShare} f) ∗ (∃ f, (sl10).view.loc (Tt d) ↦{fullShare} f) ∗ (∃ f, (sl11).view.loc (Tt d) ↦{fullShare} f) ∗ (∃ f, (sl12).view.loc (Tt d) ↦{fullShare} f) ∗ (∃ f, (sl13).view.loc (Tt d) ↦{fullShare} f) ∗ (∃ f, (sl14).view.loc (Tt d) ↦{fullShare} f) ∗ (∃ f, (sl15).view.loc (Tt d) ↦{fullShare} f) ∗ semVal (Tt d, ws8) 0 ∗ semVal (Tt d, ws9) 0 ∗ semVal (Tt d, ws10) 0 ∗ semVal (Tt d, ws11) 0 ∗ semVal (Tt d, ws12) 0 ∗ semVal (Tt d, ws13) 0 ∗ semVal (Tt d, ws14) 0 ∗ semVal (Tt d, ws15) 0)
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 8 112) (xTp m d) ∗ bigSep (Finset.Ico 0 112) (pTp d fun _ => fp)
      ∗ owes (Tt d) O W)
    ⊢ invT m d fp O W 0 ⟨⟩ := by
  unfold invT
  rw [if_pos (show 0 < 7 by omega), if_pos rfl, show Finset.Ico 0 (16 * 0) = (∅ : Finset ℕ) from rfl, bigSep_empty]
  try rw [show Finset.Ico 0 (16 * 0 - 8) = (∅ : Finset ℕ) from rfl, bigSep_empty]
  iintro ⟨Hmw, Hrd, Hwr, Hr8, Hr9, Hr10, Hr11, Hr12, Hr13, Hr14, Hr15, Hw0, Hw1, Hw2, Hw3, Hw4, Hw5, Hw6, Hw7, HxB, HpB, HO⟩
  isplitl [Hmw]; · iexact Hmw
  isplitl [Hrd]; · iexact Hrd
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitr; · iempintro
  isplitl [HxB]; · iexact HxB
  isplitr; · iempintro
  isplitl [HpB]; · iexact HpB
  iexists W; isplitr
  · ipureintro; exact fun p hp => .inl hp
  · iexact HO

set_option maxHeartbeats 4000000 in
theorem inv_exitT (fp : Buf (Elt F) (pLoc d)) (O : CellTallies nD τ sig (HIx 1)) (W : Waits sig (HIx 1)) (n : ℕ) (hn : n = 7) (acc : Unit) :
    invT m d fp O W n acc
    ⊢ iprop(((∃ f, (sl0).view.loc (Tt d) ↦{fullShare} f) ∗ (∃ f, (sl1).view.loc (Tt d) ↦{fullShare} f) ∗ (∃ f, (sl2).view.loc (Tt d) ↦{fullShare} f) ∗ (∃ f, (sl3).view.loc (Tt d) ↦{fullShare} f) ∗ (∃ f, (sl4).view.loc (Tt d) ↦{fullShare} f) ∗ (∃ f, (sl5).view.loc (Tt d) ↦{fullShare} f) ∗ (∃ f, (sl6).view.loc (Tt d) ↦{fullShare} f) ∗ (∃ f, (sl7).view.loc (Tt d) ↦{fullShare} f) ∗ semVal (Tt d, rs0) 0 ∗ semVal (Tt d, rs1) 0 ∗ semVal (Tt d, rs2) 0 ∗ semVal (Tt d, rs3) 0 ∗ semVal (Tt d, rs4) 0 ∗ semVal (Tt d, rs5) 0 ∗ semVal (Tt d, rs6) 0 ∗ semVal (Tt d, rs7) 0)
      ∗ (wrF8 m d fp 104 ∗ wrF9 m d fp 105 ∗ wrF10 m d fp 106 ∗ wrF11 m d fp 107 ∗ wrF12 m d fp 108 ∗ wrF13 m d fp 109 ∗ wrF14 m d fp 110 ∗ wrF15 m d fp 111)
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 0 112) (xTp m d) ∗ bigSep (Finset.Ico 0 104) (pTp d fun n => pNew m d fp (chT n))
      ∗ ∃ W', ⌜∀ p ∈ W', p ∈ W ∨ p.2 = none⌝ ∗ owes (Tt d) O W') := by
  subst hn
  unfold invT
  rw [if_neg (show ¬ 7 < 7 by omega), if_neg (show ¬ 7 = 0 by omega)]
  iintro ⟨-, Hidle, Hwr, Hr8, Hr9, Hr10, Hr11, Hr12, Hr13, Hr14, Hr15, Hw0, Hw1, Hw2, Hw3, Hw4, Hw5, Hw6, Hw7, HxA, -, HpA, -, HO⟩
  isplitl [Hidle]; · iexact Hidle
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA]; · iexact HxA
  isplitl [HpA]; · iexact HpA
  iexact HO

theorem x_pop8 : bigSep (Finset.Ico 0 112) (xTp m d) = iprop(xTp m d (0) ∗ xTp m d (0 + 1) ∗ xTp m d (0 + 1 + 1) ∗ xTp m d (0 + 1 + 1 + 1) ∗ xTp m d (0 + 1 + 1 + 1 + 1) ∗ xTp m d (0 + 1 + 1 + 1 + 1 + 1) ∗ xTp m d (0 + 1 + 1 + 1 + 1 + 1 + 1) ∗ xTp m d (0 + 1 + 1 + 1 + 1 + 1 + 1 + 1) ∗ bigSep (Finset.Ico (0 + 1 + 1 + 1 + 1 + 1 + 1 + 1 + 1) 112) (xTp m d)) := by
  rw [icoT_pop (show 0 < 112 by omega) (xTp m d), icoT_pop (show 0 + 1 < 112 by omega) (xTp m d), icoT_pop (show 0 + 1 + 1 < 112 by omega) (xTp m d), icoT_pop (show 0 + 1 + 1 + 1 < 112 by omega) (xTp m d), icoT_pop (show 0 + 1 + 1 + 1 + 1 < 112 by omega) (xTp m d), icoT_pop (show 0 + 1 + 1 + 1 + 1 + 1 < 112 by omega) (xTp m d), icoT_pop (show 0 + 1 + 1 + 1 + 1 + 1 + 1 < 112 by omega) (xTp m d), icoT_pop (show 0 + 1 + 1 + 1 + 1 + 1 + 1 + 1 < 112 by omega) (xTp m d)]

theorem x_pop8' : (bigSep (Finset.Ico 0 112) fun t => xLoc d ↦[tSet t]{fullShare} m (xLoc d) : sProp 𝕄)
    = iprop(xTp m d (0) ∗ xTp m d (0 + 1) ∗ xTp m d (0 + 1 + 1) ∗ xTp m d (0 + 1 + 1 + 1) ∗ xTp m d (0 + 1 + 1 + 1 + 1) ∗ xTp m d (0 + 1 + 1 + 1 + 1 + 1) ∗ xTp m d (0 + 1 + 1 + 1 + 1 + 1 + 1) ∗ xTp m d (0 + 1 + 1 + 1 + 1 + 1 + 1 + 1) ∗ bigSep (Finset.Ico (0 + 1 + 1 + 1 + 1 + 1 + 1 + 1 + 1) 112) (xTp m d)) := x_pop8 m d

theorem done_allT (fp : Buf (Elt F) (pLoc d)) :
    iprop(bigSep (Finset.Ico 0 104) (pTp d fun n => pNew m d fp (chT n)) ∗ (pTp d (fun n => pNew m d fp (chT n)) (104) ∗ pTp d (fun n => pNew m d fp (chT n)) (104 + 1) ∗ pTp d (fun n => pNew m d fp (chT n)) (104 + 2) ∗ pTp d (fun n => pNew m d fp (chT n)) (104 + 3) ∗ pTp d (fun n => pNew m d fp (chT n)) (104 + 4) ∗ pTp d (fun n => pNew m d fp (chT n)) (104 + 5) ∗ pTp d (fun n => pNew m d fp (chT n)) (104 + 6) ∗ pTp d (fun n => pNew m d fp (chT n)) (104 + 7) ∗ emp))
      ⊢ (bigSep (Finset.Ico 0 112) (pTp d fun n => pNew m d fp (chT n)) : sProp 𝕄) := by
  have e : Finset.Ico 0 112 = Finset.Ico 0 (104 + 8) := rfl
  rw [e, icoT_split (Nat.zero_le 104) (show 104 ≤ 104 + 8 by omega) (pTp d fun n => pNew m d fp (chT n)), icoT_block8 104 (pTp d fun n => pNew m d fp (chT n))]

set_option maxHeartbeats 4000000 in
/-- A written chunk, read as a set of elements at `tcOut`. -/
theorem done_piece (fp : Buf (Elt F) (pLoc d)) (n : ℕ) (hn : n < 112) :
    pTp d (fun n => pNew m d fp (chT n)) n ⊢ (pLoc d ↦[tSet n]{fullShare} tcOut m d : sProp 𝕄) := by
  show ((pLoc d) ↦[(pC (chT n)).view.set]{fullShare} pNew m d fp (chT n) : sProp 𝕄) ⊢ (pLoc d ↦[(pC (chT n)).view.set]{fullShare} tcOut m d)
  exact Entails.of_eq (pointsTo_congr (fun i hi => pNew_tcOut m d fp n hn i hi))
/-- Every written chunk so. -/
theorem done_to_out (fp : Buf (Elt F) (pLoc d)) :
    (bigSep (Finset.Ico 0 112) (pTp d fun n => pNew m d fp (chT n)) : sProp 𝕄) ⊢ bigSep (Finset.Ico 0 112) fun n => pLoc d ↦[tSet n]{fullShare} tcOut m d :=
  bigSep_mono fun n hn => done_piece m d fp n (Finset.mem_Ico.mp hn).2

/-! ## The body -/

/-- What the ring copy's body starts from and ends with: the TensorCore's scoped buffers and semaphores, `x`, and the region's
    result buffer — at its launch contents before, at `tcOut` after. -/
def Φ0 : sProp 𝕄 :=
  iprop(Transfers.MayWaits (SparseCore.T d) (none : HIx 1) ((K (F := F)).Otc d 0) ∗ scopedBufs (SparseCore.T d) ∗ scopedSems0 (SparseCore.T d) ∗ xPts m d ∗ (pLoc d ↦{fullShare} m (pLoc d)))
def Φ1 : sProp 𝕄 :=
  iprop(scopedBufs (SparseCore.T d) ∗ scopedSems0 (SparseCore.T d) ∗ xPts m d ∗ (pLoc d ↦{fullShare} tcOut m d))

set_option maxHeartbeats 16000000 in
theorem tc_body (B : Set (SemLoc sig × HIx 1)) (hB : ∀ sm : SemLoc sig, (sm, (none : HIx 1)) ∈ B) :
    iprop(Φ0 m d ∗ Pipeline.owesWithin d ((K (F := F)).Otc d 0) B)
      ⊢ wp frame (wpE (defs₀ (F := F)) 𝒱₀ (SparseCore.T d) none) Set.univ (bodyAt0 (F := F) ⟨0, by decide⟩)
          fun _ => iprop(Φ1 m d ∗ Pipeline.owesWithin d ((K (F := F)).Otc d 0) B) := by
  unfold bodyAt0
  simp only [cc0__tc_body_eq_skeleton]; unfold cc0__tc_body_skel
  simp only [k0_part23_eq_skeleton]; unfold k0_part23_skel
  unfold Φ0 Φ1
  rw [scopedBufs_T d, scopedSems0_T d]
  have hxs := carve (m (xLoc d)) (Finset.Ico 0 112) tSet tSet_disjoint
  have hps : (pLoc d ↦{fullShare} m (pLoc d) : sProp 𝕄)
      ⊣⊢ iprop((pLoc d ↦[(Finset.Ico 0 112).biUnion tSet]{fullShare} m (pLoc d)) ∗ pLoc d ↦[Finset.univ \ (Finset.Ico 0 112).biUnion tSet]{fullShare} m (pLoc d)) :=
    pointsTo_split_subset (Finset.subset_univ _)
  have hpo : (pLoc d ↦{fullShare} tcOut m d : sProp 𝕄)
      ⊣⊢ iprop((pLoc d ↦[(Finset.Ico 0 112).biUnion tSet]{fullShare} tcOut m d) ∗ pLoc d ↦[Finset.univ \ (Finset.Ico 0 112).biUnion tSet]{fullShare} tcOut m d) :=
    pointsTo_split_subset (Finset.subset_univ _)
  rw [pointsTo_biUnion (ℓ := pLoc d) (Finset.Ico 0 112) tSet tSet_disjoint] at hps hpo
  have eL0 := xTp_spell m d (0) (off := ![4, 0, 0]) (by decide) inb_S32x16384x128_S1x4096x128_4_0_0 (fun _ => rfl)
  have eL1 := xTp_spell m d (0 + 1) (off := ![4, 4096, 0]) (by decide) inb_S32x16384x128_S1x4096x128_4_4096_0 (fun _ => rfl)
  have eL2 := xTp_spell m d (0 + 1 + 1) (off := ![4, 8192, 0]) (by decide) inb_S32x16384x128_S1x4096x128_4_8192_0 (fun _ => rfl)
  have eL3 := xTp_spell m d (0 + 1 + 1 + 1) (off := ![4, 12288, 0]) (by decide) inb_S32x16384x128_S1x4096x128_4_12288_0 (fun _ => rfl)
  have eL4 := xTp_spell m d (0 + 1 + 1 + 1 + 1) (off := ![5, 0, 0]) (by decide) inb_S32x16384x128_S1x4096x128_5_0_0 (fun _ => rfl)
  have eL5 := xTp_spell m d (0 + 1 + 1 + 1 + 1 + 1) (off := ![5, 4096, 0]) (by decide) inb_S32x16384x128_S1x4096x128_5_4096_0 (fun _ => rfl)
  have eL6 := xTp_spell m d (0 + 1 + 1 + 1 + 1 + 1 + 1) (off := ![5, 8192, 0]) (by decide) inb_S32x16384x128_S1x4096x128_5_8192_0 (fun _ => rfl)
  have eL7 := xTp_spell m d (0 + 1 + 1 + 1 + 1 + 1 + 1 + 1) (off := ![5, 12288, 0]) (by decide) inb_S32x16384x128_S1x4096x128_5_12288_0 (fun _ => rfl)
  iintro ⟨⟨#Hmw, ⟨Hb0, Hb1, Hb2, Hb3, Hb4, Hb5, Hb6, Hb7, Hb8, Hb9, Hb10, Hb11, Hb12, Hb13, Hb14, Hb15⟩, ⟨Hr0, Hr1, Hr2, Hr3, Hr4, Hr5, Hr6, Hr7, Hr8, Hr9, Hr10, Hr11, Hr12, Hr13, Hr14, Hr15, Hw0, Hw1, Hw2, Hw3, Hw4, Hw5, Hw6, Hw7, Hw8, Hw9, Hw10, Hw11, Hw12, Hw13, Hw14, Hw15⟩, Hx, Hp⟩, ⟨%W₀, %hW₀, HO⟩⟩
  ihave Hx := hxs $$ Hx
  icases Hx with ⟨HxT, HxBack⟩
  ihave Hp := hps.1 $$ Hp
  icases Hp with ⟨HpT, HpRest⟩
  ihave HxT := (Entails.of_eq (x_pop8' m d)) $$ HxT
  icases HxT with ⟨Hx0, Hx1, Hx2, Hx3, Hx4, Hx5, Hx6, Hx7, HxB⟩
  ihave Hx0 := (Entails.of_eq eL0) $$ Hx0
  ihave Hx1 := (Entails.of_eq eL1) $$ Hx1
  ihave Hx2 := (Entails.of_eq eL2) $$ Hx2
  ihave Hx3 := (Entails.of_eq eL3) $$ Hx3
  ihave Hx4 := (Entails.of_eq eL4) $$ Hx4
  ihave Hx5 := (Entails.of_eq eL5) $$ Hx5
  ihave Hx6 := (Entails.of_eq eL6) $$ Hx6
  ihave Hx7 := (Entails.of_eq eL7) $$ Hx7
  icases Hb0 with ⟨%f0, Hb0⟩
  icases Hb1 with ⟨%f1, Hb1⟩
  icases Hb2 with ⟨%f2, Hb2⟩
  icases Hb3 with ⟨%f3, Hb3⟩
  icases Hb4 with ⟨%f4, Hb4⟩
  icases Hb5 with ⟨%f5, Hb5⟩
  icases Hb6 with ⟨%f6, Hb6⟩
  icases Hb7 with ⟨%f7, Hb7⟩
  sl_exec
  sl_rw [bind_assoc]
  sl_for (invT m d (m (pLoc d)) ((K (F := F)).Otc d 0) W₀) $$ [Hmw Hr0 Hr1 Hr2 Hr3 Hr4 Hr5 Hr6 Hr7 Hb8 Hb9 Hb10 Hb11 Hb12 Hb13 Hb14 Hb15 Hw8 Hw9 Hw10 Hw11 Hw12 Hw13 Hw14 Hw15 Hr8 Hr9 Hr10 Hr11 Hr12 Hr13 Hr14 Hr15 Hw0 Hw1 Hw2 Hw3 Hw4 Hw5 Hw6 Hw7 HxB HpT HO]
  case region =>
    intro k acc
    obtain ⟨⟩ := acc
    by_cases hk0 : k.val = 0
    · exact tripT_first m d _ _ _ k hk0
    · by_cases hk6 : k.val = 6
      · exact tripT_last m d _ _ _ k hk6
      · have hk7 : k.val < 7 := Nat.lt_of_lt_of_le k.isLt k0_t1_abs.2.1
        exact tripT_mid m d _ _ _ k (by omega) (by omega)
  · iapply (inv_initT m d (m (pLoc d)) _ W₀)
    isplitl [Hmw]; · iexact Hmw
    isplitl [Hr0 Hr1 Hr2 Hr3 Hr4 Hr5 Hr6 Hr7]
    · isplitl [Hr0]; · (iapply (rdT_conv0 m d (0) _ rfl _ _ (tData_spell m d (0) (off := ![4, 0, 0]) (by decide) inb_S32x16384x128_S1x4096x128_4_0_0 (fun _ => rfl)).symm _ eL0.symm); iexact Hr0)
      isplitl [Hr1]; · (iapply (rdT_conv1 m d (0 + 1) _ rfl _ _ (tData_spell m d (0 + 1) (off := ![4, 4096, 0]) (by decide) inb_S32x16384x128_S1x4096x128_4_4096_0 (fun _ => rfl)).symm _ eL1.symm); iexact Hr1)
      isplitl [Hr2]; · (iapply (rdT_conv2 m d (0 + 1 + 1) _ rfl _ _ (tData_spell m d (0 + 1 + 1) (off := ![4, 8192, 0]) (by decide) inb_S32x16384x128_S1x4096x128_4_8192_0 (fun _ => rfl)).symm _ eL2.symm); iexact Hr2)
      isplitl [Hr3]; · (iapply (rdT_conv3 m d (0 + 1 + 1 + 1) _ rfl _ _ (tData_spell m d (0 + 1 + 1 + 1) (off := ![4, 12288, 0]) (by decide) inb_S32x16384x128_S1x4096x128_4_12288_0 (fun _ => rfl)).symm _ eL3.symm); iexact Hr3)
      isplitl [Hr4]; · (iapply (rdT_conv4 m d (0 + 1 + 1 + 1 + 1) _ rfl _ _ (tData_spell m d (0 + 1 + 1 + 1 + 1) (off := ![5, 0, 0]) (by decide) inb_S32x16384x128_S1x4096x128_5_0_0 (fun _ => rfl)).symm _ eL4.symm); iexact Hr4)
      isplitl [Hr5]; · (iapply (rdT_conv5 m d (0 + 1 + 1 + 1 + 1 + 1) _ rfl _ _ (tData_spell m d (0 + 1 + 1 + 1 + 1 + 1) (off := ![5, 4096, 0]) (by decide) inb_S32x16384x128_S1x4096x128_5_4096_0 (fun _ => rfl)).symm _ eL5.symm); iexact Hr5)
      isplitl [Hr6]; · (iapply (rdT_conv6 m d (0 + 1 + 1 + 1 + 1 + 1 + 1) _ rfl _ _ (tData_spell m d (0 + 1 + 1 + 1 + 1 + 1 + 1) (off := ![5, 8192, 0]) (by decide) inb_S32x16384x128_S1x4096x128_5_8192_0 (fun _ => rfl)).symm _ eL6.symm); iexact Hr6)
      (iapply (rdT_conv7 m d (0 + 1 + 1 + 1 + 1 + 1 + 1 + 1) _ rfl _ _ (tData_spell m d (0 + 1 + 1 + 1 + 1 + 1 + 1 + 1) (off := ![5, 12288, 0]) (by decide) inb_S32x16384x128_S1x4096x128_5_12288_0 (fun _ => rfl)).symm _ eL7.symm); iexact Hr7)
    isplitl [Hb8 Hb9 Hb10 Hb11 Hb12 Hb13 Hb14 Hb15 Hw8 Hw9 Hw10 Hw11 Hw12 Hw13 Hw14 Hw15]
    · isplitl [Hb8]; · iexact Hb8
      isplitl [Hb9]; · iexact Hb9
      isplitl [Hb10]; · iexact Hb10
      isplitl [Hb11]; · iexact Hb11
      isplitl [Hb12]; · iexact Hb12
      isplitl [Hb13]; · iexact Hb13
      isplitl [Hb14]; · iexact Hb14
      isplitl [Hb15]; · iexact Hb15
      isplitl [Hw8]; · iexact Hw8
      isplitl [Hw9]; · iexact Hw9
      isplitl [Hw10]; · iexact Hw10
      isplitl [Hw11]; · iexact Hw11
      isplitl [Hw12]; · iexact Hw12
      isplitl [Hw13]; · iexact Hw13
      isplitl [Hw14]; · iexact Hw14
      iexact Hw15
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [HxB]; · iexact HxB
    isplitl [HpT]; · iexact HpT
    iexact HO
  iintro %acc HI
  ihave HI := (inv_exitT m d (m (pLoc d)) _ W₀ _ (by decide) acc) $$ HI
  icases HI with ⟨⟨⟨%g0, Hb0⟩, ⟨%g1, Hb1⟩, ⟨%g2, Hb2⟩, ⟨%g3, Hb3⟩, ⟨%g4, Hb4⟩, ⟨%g5, Hb5⟩, ⟨%g6, Hb6⟩, ⟨%g7, Hb7⟩, Hr0, Hr1, Hr2, Hr3, Hr4, Hr5, Hr6, Hr7⟩, ⟨Hw8, Hw9, Hw10, Hw11, Hw12, Hw13, Hw14, Hw15⟩, Hr8, Hr9, Hr10, Hr11, Hr12, Hr13, Hr14, Hr15, Hw0, Hw1, Hw2, Hw3, Hw4, Hw5, Hw6, Hw7, HxA, HpA, %W', %hW', HO⟩
  unfold wrF8 wrF9 wrF10 wrF11 wrF12 wrF13 wrF14 wrF15
  sl_exec
  sl_step
  isplitl [Hb0 Hb1 Hb2 Hb3 Hb4 Hb5 Hb6 Hb7 Hw8_src Hw9_src Hw10_src Hw11_src Hw12_src Hw13_src Hw14_src Hw15_src Hr0 Hr1 Hr2 Hr3 Hr4 Hr5 Hr6 Hr7 Hr8 Hr9 Hr10 Hr11 Hr12 Hr13 Hr14 Hr15 Hw0 Hw1 Hw2 Hw3 Hw4 Hw5 Hw6 Hw7 Hw8 Hw9 Hw10 Hw11 Hw12 Hw13 Hw14 Hw15 HxBack HxA HpA HpRest Hw8_dst Hw9_dst Hw10_dst Hw11_dst Hw12_dst Hw13_dst Hw14_dst Hw15_dst]
  · isplitl [Hb0 Hb1 Hb2 Hb3 Hb4 Hb5 Hb6 Hb7 Hw8_src Hw9_src Hw10_src Hw11_src Hw12_src Hw13_src Hw14_src Hw15_src]
    · isplitl [Hb0]; · (iexists _; iexact Hb0)
      isplitl [Hb1]; · (iexists _; iexact Hb1)
      isplitl [Hb2]; · (iexists _; iexact Hb2)
      isplitl [Hb3]; · (iexists _; iexact Hb3)
      isplitl [Hb4]; · (iexists _; iexact Hb4)
      isplitl [Hb5]; · (iexists _; iexact Hb5)
      isplitl [Hb6]; · (iexists _; iexact Hb6)
      isplitl [Hb7]; · (iexists _; iexact Hb7)
      isplitl [Hw8_src]; · (iexists _; iexact Hw8_src)
      isplitl [Hw9_src]; · (iexists _; iexact Hw9_src)
      isplitl [Hw10_src]; · (iexists _; iexact Hw10_src)
      isplitl [Hw11_src]; · (iexists _; iexact Hw11_src)
      isplitl [Hw12_src]; · (iexists _; iexact Hw12_src)
      isplitl [Hw13_src]; · (iexists _; iexact Hw13_src)
      isplitl [Hw14_src]; · (iexists _; iexact Hw14_src)
      (iexists _; iexact Hw15_src)
    isplitl [Hr0 Hr1 Hr2 Hr3 Hr4 Hr5 Hr6 Hr7 Hr8 Hr9 Hr10 Hr11 Hr12 Hr13 Hr14 Hr15 Hw0 Hw1 Hw2 Hw3 Hw4 Hw5 Hw6 Hw7 Hw8 Hw9 Hw10 Hw11 Hw12 Hw13 Hw14 Hw15]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      isplitl [Hr12]; · iexact Hr12
      isplitl [Hr13]; · iexact Hr13
      isplitl [Hr14]; · iexact Hr14
      isplitl [Hr15]; · iexact Hr15
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hw7]; · iexact Hw7
      isplitl [Hw8]; · iexact Hw8
      isplitl [Hw9]; · iexact Hw9
      isplitl [Hw10]; · iexact Hw10
      isplitl [Hw11]; · iexact Hw11
      isplitl [Hw12]; · iexact Hw12
      isplitl [Hw13]; · iexact Hw13
      isplitl [Hw14]; · iexact Hw14
      iexact Hw15
    isplitl [HxBack HxA]
    · iapply HxBack; iexact HxA
    iapply hpo.2
    isplitl [HpA Hw8_dst Hw9_dst Hw10_dst Hw11_dst Hw12_dst Hw13_dst Hw14_dst Hw15_dst]
    · iapply (done_to_out m d (m (pLoc d)))
      iapply (done_allT m d (m (pLoc d)))
      isplitl [HpA]; · iexact HpA
      isplitl [Hw8_dst]; · iexact Hw8_dst
      isplitl [Hw9_dst]; · iexact Hw9_dst
      isplitl [Hw10_dst]; · iexact Hw10_dst
      isplitl [Hw11_dst]; · iexact Hw11_dst
      isplitl [Hw12_dst]; · iexact Hw12_dst
      isplitl [Hw13_dst]; · iexact Hw13_dst
      isplitl [Hw14_dst]; · iexact Hw14_dst
      isplitl [Hw15_dst]; · iexact Hw15_dst
      iempintro
    · iapply (Entails.of_eq (pointsTo_congr (low_tcOut m d)))
      iexact HpRest
  · iexists _; isplitr
    rotate_left
    · iexact HO
    · ipureintro
      have hall : ∀ q ∈ W', q ∈ B := fun q hq => by
        rcases hW' q hq with h | h
        · exact hW₀ (Finset.mem_coe.mpr h)
        · obtain ⟨a, b⟩ := q
          cases h
          exact hB a
      intro p hp
      rw [Finset.mem_coe] at hp
      simp only [Finset.mem_insert] at hp
      rcases hp with rfl | rfl | rfl | rfl | rfl | rfl | rfl | rfl | hp
      · exact hB _
      · exact hB _
      · exact hB _
      · exact hB _
      · exact hB _
      · exact hB _
      · exact hB _
      · exact hB _
      · exact hall p hp

end Body

end Cert.Proof.KI

end
-- ==== Proof.KIRegion.lean ====
/-
  The TensorCore region: the entry and exit of the windowless pallas_call around the ring copy's body (Proof/KITcBody.lean).
-/
import proofs.«202537_g10033043603743_week1_w1_89_23_alg».proof.Proof.KITcBody
import proofs.«202537_g10033043603743_week1_w1_89_23_alg».proof.Proof.Gen.KernelIdeal.Launch
import proofs.«202537_g10033043603743_week1_w1_89_23_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- The region's proof data: no window; the body's invariant before and after its one point; the TensorCore owes the
    SparseCores' start signals throughout; its recorded waits are those from before and its own at index `none`. -/
def tcDat (d : Dev nD) (W₀ : Waits sig (HIx 1)) : Pipeline.Dat τ (Elt F) (HIx 1) ℕ UU ℕ cfg0 d where
  A := fun w => w.elim0
  after := fun w => w.elim0
  Φ := fun t => if t.val = 0 then Φ0 m d else Φ1 m d
  q := fun w => w.elim0
  owed := fun _ => (K (F := F)).Otc d 0
  recorded := fun _ => {p | p ∈ W₀ ∨ p.2 = none}

/-- A family over an empty range of windows is nothing. -/
theorem bigSep_fin0 {n : ℕ} (h : n = 0) (Ψ : Fin n → sProp 𝕄) : bigSep Finset.univ Ψ = (iprop(emp) : sProp 𝕄) := by
  subst h
  rw [Finset.univ_eq_empty, bigSep_empty]
  rfl

/-- The TensorCore owes nothing at index `none`: all it owes are the start signals, at the calls' own indices. -/
theorem Otc_none (d : Dev nD) (g : GSem nD τ sig) : (K (F := F)).Otc d 0 g none = 0 := by
  by_contra h
  have := (K (F := F)).lev_of_Otc_pos (Nat.pos_of_ne_zero h)
  rw [(K (F := F)).lev_none] at this
  omega

omit [FloatOps F] in
theorem drop_emp (A B : sProp 𝕄) : iprop(A ∗ B ∗ emp) ⊢ iprop(A ∗ B) := by
  iintro ⟨HA, HB, -⟩
  isplitl [HA]; · iexact HA
  iexact HB
omit [FloatOps F] in
theorem add_emp (A B : sProp 𝕄) : iprop(A ∗ B) ⊢ iprop(A ∗ B ∗ emp) := by
  iintro ⟨HA, HB⟩
  isplitl [HA]; · iexact HA
  isplitl [HB]; · iexact HB
  iempintro

/-- The pipeline's body obligation at its one point is the ring copy's body. -/
theorem tc_body_obl (d : Dev nD) (W₀ : Waits sig (HIx 1)) :
    Pipeline.BodyObligationLoose (tcDat m d W₀) (defs₀ (F := F)) 𝒱₀ (none : HIx 1) Set.univ := by
  intro t
  have ht : t = ⟨0, by decide⟩ := Fin.ext (by have := t.isLt; have : cfg0.N = 1 := by decide
                                              omega)
  subst ht
  rw [bigSep_fin0 rfl, bigSep_fin0 rfl]
  show iprop(Φ0 m d ∗ Pipeline.owesWithin d ((K (F := F)).Otc d 0) _ ∗ emp) ⊢ wp frame _ Set.univ (bodyAt0 ⟨0, by decide⟩) fun _ => iprop(Φ1 m d ∗ Pipeline.owesWithin d ((K (F := F)).Otc d 0) _ ∗ emp)
  exact BI.Entails.trans (drop_emp _ _) (BI.Entails.trans (tc_body m d ((tcDat m d W₀).bound none 0) (fun sm => Or.inl (Or.inr rfl))) (wp_mono frame _ _ fun _ => add_emp _ _))

theorem tc_region [∀ e, Nonempty (Elt F e)] (κ : GSem nD τ sig → ℕ) (d : Dev nD) {Φ : PUnit → sProp 𝕄} :
    iprop((K (F := F)).ctx EH (PP m) κ ∗ (K (F := F)).tcSt EH d 0 ∗ boundary (SparseCore.T d) ∗ xPts m d ∗ (pLoc d ↦{fullShare} m (pLoc d)))
      ⊢ iprop((((K (F := F)).tcSt EH d 0 ∗ boundary (SparseCore.T d) ∗ xPts m d ∗ (pLoc d ↦{fullShare} tcOut m d))
            -∗ Φ ⟨⟩)
        -∗ wp frame (wpE ((K (F := F)).defs (D (F := F))) 𝒱 (SparseCore.T d) none) Set.univ
            (Prog.lift (.customCall (SparseCore.inner (Pipeline.entry 0)) ())) Φ) := by
  unfold SparseCore.Cfg.tcSt boundary
  iintro ⟨#Hctx, ⟨⟨%W₀, %hW₀, HO⟩, Hrest⟩, ⟨Hsb, Hss, Hop⟩, Hx, Hp⟩ Hk
  iapply ((K (F := F)).wp_liftProg (D (F := F)) 𝒱 (SparseCore.T d) Set.univ none (Prog.lift (.customCall (Pipeline.entry 0) ())) Φ)
  iapply (Pipeline.wp_customCall_entry (pcfgs (F := F)) (fun p => (cfgs p).toPCfg_adm) (fun _ c => tcDat m c W₀) (none : HIx 1) ER κ
      Gen.cellOf_inj 0 (defs₀ (F := F)) 𝒱₀ (fun i => i.elim0) d Set.univ ?hE (tc_body_obl m d W₀) ?hne none ?hv
      (X := iprop(Transfers.MayWaits (SparseCore.T d) (none : HIx 1) ((K (F := F)).Otc d 0) ∗ scopedSems0 (SparseCore.T d) ∗ xPts m d ∗ (pLoc d ↦{fullShare} m (pLoc d))))
      (Y := iprop(xPts m d ∗ (pLoc d ↦{fullShare} tcOut m d))) (R := scopedBufs (SparseCore.T d)) ?hbufs ?hin ?hout) $$ [HO Hss Hx Hp Hsb]
  case hE => exact fun w => w.elim0
  case hne => exact fun w => w.elim0
  case hv => exact fun u hu => nomatch hu
  case hbufs =>
    unfold Pipeline.Dat.staging
    rw [bigSep_fin0 rfl]
    iintro H
    isplitr; · iempintro
    iexact H
  case hin =>
    show _ ⊢ Φ0 m d
    unfold Φ0
    iintro ⟨⟨Hmw, Hss, Hx, Hp⟩, -, Hsb⟩
    isplitl [Hmw]; · iexact Hmw
    isplitl [Hsb]; · iexact Hsb
    isplitl [Hss]; · iexact Hss
    isplitl [Hx]; · iexact Hx
    iexact Hp
  case hout =>
    show iprop(Φ1 m d ∗ _ ∗ _) ⊢ _
    unfold Φ1
    iintro ⟨⟨Hsb, Hss, Hx, Hp⟩, -, -⟩
    isplitl [Hx Hp]
    · isplitl [Hx]; · iexact Hx
      iexact Hp
    isplitl [Hss]; · iexact Hss
    iexact Hsb
  · isplitl [HO]
    · unfold Pipeline.EntryPre Pipeline.PerCore.EntryPre
      isplitr
      · unfold Pipeline.Dat.arrays; rw [bigSep_fin0 rfl]; iempintro
      isplitl [HO]
      · iexists W₀; isplitr
        · ipureintro; exact fun p hp => Or.inl (Or.inl (Finset.mem_coe.mp hp))
        · iexact HO
      isplitr
      · unfold Pipeline.PerCore.cellsWaits Pipeline.PerCore.RDat.cellsWaits; rw [bigSep_fin0 rfl]; iempintro
      isplitr
      · unfold Pipeline.PerCore.cellsInit Pipeline.PerCore.RDat.cellsInit; rw [bigSep_fin0 rfl]; iempintro
      unfold Pipeline.PerCore.toksInit; rw [bigSep_fin0 rfl]; iempintro
    isplitr
    · unfold Pipeline.prefHeld
      rw [bigSep_fin0 rfl]; iempintro
    isplitl [Hss Hx Hp]
    · isplitr
      · ihave Hlev := (SparseCore.Cfg.ctx_levAts κ) $$ Hctx
        iapply ((K (F := F)).mayWaits_none (thr := SparseCore.T d) (Otc_none d)); iexact Hlev
      isplitl [Hss]; · iexact Hss
      isplitl [Hx]; · iexact Hx
      iexact Hp
    iexact Hsb
  · unfold Pipeline.EntryPost Pipeline.PerCore.EntryPost
    iintro ⟨⟨-, ⟨%W', %hW', HO⟩⟩, ⟨Hx, Hp⟩, Hss, Hsb⟩
    rw [wp_ret]; imodintro
    iapply Hk
    isplitl [HO Hrest]
    · isplitl [HO]
      · iexists W'; isplitr
        · ipureintro
          intro p hp
          rcases hW' (Finset.mem_coe.mpr hp) with (h | h) | ⟨w, _⟩
          · exact hW₀ p h
          · have e : (K (F := F)).lev (SparseCore.T d, p.1) p.2 = 0 := by rw [h]; rfl
            rw [e]
          · exact w.elim0
        · iexact HO
      iexact Hrest
    isplitl [Hsb Hss Hop]
    · isplitl [Hsb]; · iexact Hsb
      isplitl [Hss]; · iexact Hss
      iexact Hop
    isplitl [Hx]; · iexact Hx
    iexact Hp

end Cert.Proof.KI

end
-- ==== Proof.KIMain.lean ====
/-
  The launch: the host program on the TensorCore, the launch element of the ghost state, and the program's run.

  The host program runs the ring copy of blocks 4..31 into a result buffer of its own (its blocks 0..3 are left as they were),
  copies that buffer into the result, and calls the SparseCores, handing each the shares of its sixteen tasks — the result's
  blocks 0..3 cut into 32 stripes of eight chunks, with the matching chunks of `src` (block 0) or `x` (blocks 1..3) — and
  taking them back written. What comes back, with the untouched blocks 4..31, is `x` with block 0 replaced by `src`.

  The TensorCore region is Proof/KIRegion.lean's (its entry and exit around the ring copy's body, Proof/KITcBody.lean); the
  cutting of the arrays into the tasks' shares and back is Proof/KIShare.lean's.
-/
import proofs.«202537_g10033043603743_week1_w1_89_23_alg».proof.Proof.KIRegion

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair _ _) $$ Hu
  icases H with ⟨HH, -⟩
  imodintro
  isplitl [HH]; · iexact HH
  isplitr; · rw [bigSep_emp']; iempintro
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev p' : DevRef τ sig := Proc.devRef .tc (main_v0 : Ref sig .tc)
abbrev o' : DevRef τ sig := Proc.devRef .tc (main_v1 : Ref sig .tc)
abbrev opCopy : HloOp τ sig (Elt F) := StableHlo.unary main_v0 main_v1 id
abbrev S2 : Finset (DevRef τ sig) := {p', o'}

omit [FloatOps F] in
theorem held_S2 (d : Dev nD) (W : Valuation τ sig (Elt F)) :
    (held (T d) S2 W : sProp 𝕄) = iprop((pLoc d ↦{fullShare} W p') ∗ (oLoc d ↦{fullShare} W o')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (sLoc d ↦{fullShare} W main_arg1) ∗ (pLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The valuation at the copy: the region's result buffer at `tcOut`. -/
def V1 (d : Dev nD) : Valuation τ sig (Elt F) := Function.update (fun b => m (d, b)) p' (tcOut m d)
theorem V1_p (d : Dev nD) : V1 m d p' = tcOut m d := Function.update_self _ _ _
theorem V1_o (d : Dev nD) : V1 m d o' = m (oLoc d) := Function.update_of_ne (show o' ≠ p' by decide) _ _

theorem hCopy : (opCopy (F := F)).bufs ⊆ S2 := show ({p', o'} : Finset (DevRef τ sig)) ⊆ S2 from Finset.Subset.refl _

/-- After the copy the result's buffer holds the region's result. -/
theorem copy_result (d : Dev nD) : (opCopy (F := F)).result (V1 m d) o' = foT m d :=
  (StableHlo.unary_result' (x := main_v0) (y := main_v1) id _ _ (V1 m d)).trans (V1_p m d)

/-- What @main leaves the claim: the arguments at their launch contents, the result at the specification. -/
abbrev FIN (d : Dev nD) : sProp 𝕄 := iprop(xPts m d ∗ sPts m d ∗ (oLoc d ↦{fullShare} finalOut m d))

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hs, Hp, Ho⟩, -, -⟩, -⟩
  -- the ring copy on the TensorCore
  iapply (tc_region m κ d) $$ [Hst Hb Hx Hp]
  · isplitr; · iexact Hctx
    isplitl [Hst]; · iexact Hst
    isplitl [Hb]; · iexact Hb
    isplitl [Hx]; · iexact Hx
    iexact Hp
  iintro ⟨Hst, Hb, Hx, Hp⟩
  -- the copy of the region's result into the result's buffer
  iapply (wp_hlo_within 𝒱 (SparseCore.T d) none Set.univ (op := opCopy) (S := S2) hCopy (V := V1 m d)) $$ [Hb Hp Ho]
  · isplitl [Hb]; · iexact Hb
    rw [held_S2, V1_p, V1_o]
    isplitl [Hp]; · iexact Hp
    iexact Ho
  iintro ⟨Hb, Hheld⟩
  ihave Hh := (Entails.of_eq (held_S2 (F := F) d _)) $$ Hheld
  icases Hh with ⟨Hp, Ho⟩
  rw [wp_ret]; imodintro
  ihave Ho := (Entails.of_eq (congrArg (fun f => (oLoc d ↦{fullShare} f : sProp 𝕄)) (copy_result m d))) $$ Ho
  -- the arrays cut into the tasks' shares, the call, and the shares joined back
  ihave Hsp := (share_split m d) $$ [Hx Hs Ho]
  · isplitl [Hx]; · iexact Hx
    isplitl [Hs]; · iexact Hs
    iexact Ho
  icases Hsp with ⟨Hst0, Hjoin⟩
  iapply ((K (F := F)).wp_run (D (F := F)) 𝒱 (EH := EH) (P := PP m) κ d 0) $$ [Hst Hst0 Hjoin]
  isplitr; · iexact Hctx
  isplitl [Hst]; · iexact Hst
  isplitl [Hst0]; · iexact Hst0
  iintro ⟨Hst, Hdn⟩
  imodintro
  isplitl [Hst]; · iexact Hst
  iapply Hjoin; iexact Hdn

/-! ## The final memory read, and the program's run -/

def fq (d : Dev nD) (s' : Phys nD τ sig (Elt F)) : Prop :=
  s'.mem.mem (oLoc d) = finalOut m d ∧ s'.mem.mem (xLoc d) = m (xLoc d) ∧ s'.mem.mem (sLoc d) = m (sLoc d)

theorem hfin (d : Dev nD) (s' : Phys nD τ sig (Elt F)) : iprop(FIN m d ∗ SI s') ⊢ (⌜fq m d s'⌝ : sProp 𝕄) := by
  iintro ⟨⟨Hx, Hs, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h2, HSI, -⟩
  ihave H := (SI_pointsTo_agree (st := s') (ℓ := oLoc d) (I := Finset.univ) (q := fullShare) (f := finalOut m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What the run leaves: the result is the specification of the launch contents of the arguments, which are unchanged. -/
def QC : PUnit × MemSt nD τ sig (Elt F) → Prop := fun r => ∀ c : Dev nD,
  r.2.mem (oLoc c) = Cert.Spec.setBlock0 (m (xLoc c)) (m (sLoc c)) ∧ r.2.mem (xLoc c) = m (xLoc c) ∧ r.2.mem (sLoc c) = m (sLoc c)

/-- The program's run, by the launch theorem: no scalar-subcore kernel; the one vector-subcore kernel's task and split; the host
    program; the launch element; the final memory. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl m (foT m) facts)
    (fun q _ => match q with | 0 => SparseCore.Cfg.VecSplit.of_plain (vecSplit m (foT m)))
    m ρ main (fun _ => iprop(emp)) (FIN m) (u₀ (F := F)) (sep_elim_left.trans (hu₀ m)) (hmain m ρ) (fq m) (hfin m) (QC m) (fun _ h => h)

end Cert.Proof.KI

end
-- ==== Proof.KBSetup.lean ====
/-
  The program as the launch theorem reads it, and the ghost state of the proof.

  The device runs three kinds of thread: the TensorCore (the host program, which first runs the ring copy of blocks
  4..31 and then starts the SparseCores), the two sequencers, and the 32 vector subcores, each of which copies one
  stripe of 2048 rows of one of the blocks 0..3. The ghost state holds three things side by side: the rounds of the four
  launch handshakes, the rounds of the TensorCore region's staging cells (it has none: its operands stay in HBM), and
  the counters of the local transfers every thread issues and waits for on semaphores of its own.
-/
import proofs.«202537_g10033043603743_week1_w1_89_23_alg».proof.Kernel
import proofs.«202537_g10033043603743_week1_w1_89_23_alg».proof.Proof.Gen.Kernel
import proofs.«202537_g10033043603743_week1_w1_89_23_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore region's rounds: the middle factor. -/
def ER : Emb UK (MT nD τ sig (HIx 1) (Elt F) ℕ UU ℕ) :=
  (Emb.inl : Emb UK (UK × Counters)).trans (embR (A := UH) (B := UK × Counters))
instance ER_landsIn : (ER : Emb UK 𝕄).LandsIn (upEmb : UEmb _ 𝕄) := by unfold ER; infer_instance

/-! ## The launch memory and the arrays -/

/-- `x` and `src` (the arguments), the TensorCore region's result, and the result the SparseCores finish. -/
abbrev xLoc (d : Dev nD) : Loc nD τ sig := (SparseCore.T d).loc main_arg0
abbrev sLoc (d : Dev nD) : Loc nD τ sig := (SparseCore.T d).loc main_arg1
abbrev pLoc (d : Dev nD) : Loc nD τ sig := (SparseCore.T d).loc main_v0
abbrev oLoc (d : Dev nD) : Loc nD τ sig := (SparseCore.T d).loc main_v1

end Cert.Proof.KB

end
-- ==== Proof.KBTile.lean ====
/-
  One vector subcore's task. Subcore s of SparseCore c is worker w = 2 s + c; it owns block w / 8 (one of blocks 0..3)
  and, inside it, the stripe of 2048 rows starting at row 2048 (w mod 8). It copies the stripe in eight chunks of 256
  rows through two staging buffers: chunk ci is read (from `src` when the block is block 0, from the same block of `x`
  otherwise) into buffer ci mod 2 and written from there to the same rows of the result.
-/
import proofs.«202537_g10033043603743_week1_w1_89_23_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The worker's block and stripe, and its chunks' offsets in closed form -/

/-- The worker number of grid point `L`, its block, and the first row of its stripe. -/
abbrev wk (L : grid1.Coords) : ℕ := 2 * (L 1).val + (L 0).val
abbrev blk (L : grid1.Coords) : ℕ := wk L / 8
abbrev base (L : grid1.Coords) : ℕ := 2048 * (wk L % 8)

/-- Chunk `ci` of the stripe, as offsets into a stacked array and into `src`. -/
abbrev chunkOff (L : grid1.Coords) (ci : ℕ) : Fin 3 → ℕ := ![blk L, base L + 256 * ci, 0]
abbrev srcOff (L : grid1.Coords) (ci : ℕ) : Fin 2 → ℕ := ![base L + 256 * ci, 0]

/-- The block is block 0 exactly for the first eight workers. -/
theorem cond1_iff : ∀ L : grid1.Coords, k1_cond1 L = 1#1 ↔ blk L = 0 := by decide +kernel
theorem cond2_iff : ∀ L : grid1.Coords, k1_cond2 L = 1#1 ↔ ¬ blk L = 0 := by decide +kernel
theorem cond5_iff : ∀ L : grid1.Coords, k1_cond5 L = 1#1 ↔ blk L = 0 := by decide +kernel
theorem cond6_iff : ∀ L : grid1.Coords, k1_cond6 L = 1#1 ↔ ¬ blk L = 0 := by decide +kernel
theorem cond9_iff : ∀ L : grid1.Coords, k1_cond9 L = 1#1 ↔ blk L = 0 := by decide +kernel
theorem cond10_iff : ∀ L : grid1.Coords, k1_cond10 L = 1#1 ↔ ¬ blk L = 0 := by decide +kernel

/-- Which trips wait for the previous write and start the next read. -/
theorem cond3_iff : ∀ k : Fin k1_t1_loop.trips, k1_cond3 k = 1#1 ↔ 1 ≤ k.val := by decide +kernel
theorem cond4_all : ∀ k : Fin k1_t1_loop.trips, k1_cond4 k = 1#1 := by decide +kernel
theorem cond7_all : ∀ k : Fin k1_t1_loop.trips, k1_cond7 k = 1#1 := by decide +kernel
theorem cond8_iff : ∀ k : Fin k1_t1_loop.trips, k1_cond8 k = 1#1 ↔ k.val < 3 := by decide +kernel

/-- The printed offsets, in closed form. -/
theorem off1_eq : ∀ L : grid1.Coords, k1_off1 L = srcOff L 0 := by decide +kernel
theorem off2_eq : ∀ L : grid1.Coords, k1_off2 L = chunkOff L 0 := by decide +kernel
theorem off3_eq0 : ∀ (L : grid1.Coords) (k : Fin k1_t1_loop.trips), k1_off3 L k 0#32 = chunkOff L (2 * k.val) := by decide +kernel
theorem off3_eq1 : ∀ (L : grid1.Coords) (k : Fin k1_t1_loop.trips), k1_off3 L k 1#32 = chunkOff L (2 * k.val + 1) := by decide +kernel
theorem off5_eq : ∀ (L : grid1.Coords) (k : Fin k1_t1_loop.trips), k1_off5 L k = srcOff L (2 * k.val + 1) := by decide +kernel
theorem off6_eq : ∀ (L : grid1.Coords) (k : Fin k1_t1_loop.trips), k1_off6 L k = chunkOff L (2 * k.val + 1) := by decide +kernel
theorem off8_eq : ∀ (L : grid1.Coords) (k : Fin k1_t1_loop.trips), k1_off8 L k = srcOff L (2 * k.val + 2) := by decide +kernel
theorem off9_eq : ∀ (L : grid1.Coords) (k : Fin k1_t1_loop.trips), k1_off9 L k = chunkOff L (2 * k.val + 2) := by decide +kernel

/-! ## The chunks as memrefs -/

theorem chunkOff_inb : ∀ (L : grid1.Coords) (ci : Fin 8), ∀ a, (chunkOff L ci.val) a + S1x256x128.size a ≤ S32x16384x128.size a := by decide +kernel
theorem srcOff_inb : ∀ (L : grid1.Coords) (ci : Fin 8), ∀ a, (srcOff L ci.val) a + S256x128.size a ≤ S16384x128.size a := by decide +kernel

-- the kernel's memrefs, spelt as the body table passes them
local notation "xW" => (Memref.whole Cert.Kernel.main_arg0_scv : Memref Cert.Kernel.sig Kind.scVector Space.hbm Cert.Kernel.S32x16384x128 EltTy.f32)
local notation "sW" => (Memref.whole Cert.Kernel.main_arg1_scv : Memref Cert.Kernel.sig Kind.scVector Space.hbm Cert.Kernel.S16384x128 EltTy.f32)
local notation "oW" => (Memref.whole Cert.Kernel.main_v1_scv : Memref Cert.Kernel.sig Kind.scVector Space.hbm Cert.Kernel.S32x16384x128 EltTy.f32)
local notation "b0" => (Memref.whole Cert.Kernel.cc1_scratch0 : Memref Cert.Kernel.sig Kind.scVector Space.vmem Cert.Kernel.S256x128 EltTy.f32)
local notation "b1" => (Memref.whole Cert.Kernel.cc1_scratch1 : Memref Cert.Kernel.sig Kind.scVector Space.vmem Cert.Kernel.S256x128 EltTy.f32)

/-- Chunk `ci` of the worker's stripe in `x`, in the result, and in `src`. -/
abbrev xCh (L : grid1.Coords) (ci : Fin 8) : Memref sig .scVector .hbm S256x128 .f32 :=
  ((xW).slice (Rect.unit (s := S32x16384x128) (chunkOff L ci.val) S1x256x128.size (chunkOff_inb L ci)) (fun _ => rfl)).squeeze S256x128 squeezes_S1x256x128_S256x128
abbrev oCh (L : grid1.Coords) (ci : Fin 8) : Memref sig .scVector .hbm S256x128 .f32 :=
  ((oW).slice (Rect.unit (s := S32x16384x128) (chunkOff L ci.val) S1x256x128.size (chunkOff_inb L ci)) (fun _ => rfl)).squeeze S256x128 squeezes_S1x256x128_S256x128
abbrev sCh (L : grid1.Coords) (ci : Fin 8) : Memref sig .scVector .hbm S256x128 .f32 :=
  (sW).slice (Rect.unit (s := S16384x128) (srcOff L ci.val) S256x128.size (srcOff_inb L ci)) (fun _ => rfl)

section Tile
variable [FloatOps F] (m : (ℓ : Loc nD τ sig) → Buf (Elt F) ℓ) (d : Dev nD) (L : grid1.Coords)

abbrev cV (L : grid1.Coords) : Fin τ.nSC := (L 0).castLE hcore1
abbrev jV (L : grid1.Coords) : Fin τ.nSub := (L 1).castLE hsub1
abbrev Vt : Thread nD τ := V d (cV L) (jV L)

/-- Chunk number `n` as an index below 8 (the proofs use it only for n < 8). -/
abbrev ch (n : ℕ) : Fin 8 := ⟨n % 8, Nat.mod_lt _ (by decide)⟩

/-- What a staging buffer holds once chunk `ci` of `x` has landed in it, and the result's chunk once written. -/
abbrev xData (ci : Fin 8) : S256x128.Idx → Elt F .f32 := (xCh L ci).view.read (Elt F) (m (xLoc d))
abbrev oNew (fo : Buf (Elt F) (oLoc d)) (ci : Fin 8) : Buf (Elt F) (oLoc d) := (oCh L ci).view.writes (Elt F) fo [⟨Rect.whole S256x128, xData m d L ci⟩]

/-- The pieces: a chunk of `x` at its launch contents, a chunk of the result at `f`. -/
abbrev xPc (n : ℕ) : sProp 𝕄 := (xCh L (ch n)).view.loc (Vt d L) ↦[(xCh L (ch n)).view.set]{fullShare} m (xLoc d)
abbrev oPc (f : ℕ → Buf (Elt F) (oLoc d)) (n : ℕ) : sProp 𝕄 := (oCh L (ch n)).view.loc (Vt d L) ↦[(oCh L (ch n)).view.set]{fullShare} f n

abbrev rsem0 : SemLoc sig := SemLoc.dma cc1_scratch2.sem
abbrev rsem1 : SemLoc sig := SemLoc.dma cc1_scratch3.sem
abbrev wsem0 : SemLoc sig := SemLoc.dma cc1_scratch4.sem
abbrev wsem1 : SemLoc sig := SemLoc.dma cc1_scratch5.sem

/-- The credit of one chunk's transfer. -/
abbrev NB : ℕ := 1048576

/-- Chunk `n` on its way into the first staging buffer; chunk `n` on its way out of the second. -/
def rdFlight0 (n : ℕ) : sProp 𝕄 :=
  Transfers.Flight countersEmb (Vt d L) rsem0 (default : HIx 1) NB
    iprop(((b0).view.loc (Vt d L) ↦{fullShare} xData m d L (ch n)) ∗ xPc m d L n)
def wrFlight1 (fo : Buf (Elt F) (oLoc d)) (n : ℕ) : sProp 𝕄 :=
  Transfers.Flight countersEmb (Vt d L) wsem1 (default : HIx 1) NB
    iprop(oPc d L (fun n => oNew m d L fo (ch n)) n ∗ ((b1).view.loc (Vt d L) ↦{fullShare} xData m d L (ch n)))

/-- Before trip `k` of the chunk loop (block ≠ 0): chunk 2k is on its way into the first buffer (for k < 4), chunk 2k - 1 on its
    way out of the second (for k ≥ 1); the other chunks of `x` are held, the result's chunks below 2k - 1 are written and
    those from 2k on untouched. -/
def invX (fo : Buf (Elt F) (oLoc d)) (O : CellTallies nD τ sig (HIx 1)) (W : Waits sig (HIx 1)) (k : ℕ) (_ : PUnit) : sProp 𝕄 :=
  iprop(Transfers.MayWaits (Vt d L) (none : HIx 1) O
    ∗ (if k < 4 then rdFlight0 m d L (2 * k) else iprop((∃ f, (b0).view.loc (Vt d L) ↦{fullShare} f) ∗ semVal (Vt d L, rsem0) 0))
    ∗ (if k = 0 then iprop((∃ f, (b1).view.loc (Vt d L) ↦{fullShare} f) ∗ semVal (Vt d L, wsem1) 0) else wrFlight1 m d L fo (2 * k - 1))
    ∗ semVal (Vt d L, rsem1) 0 ∗ semVal (Vt d L, wsem0) 0
    ∗ bigSep (Finset.Ico 0 (2 * k)) (xPc m d L) ∗ bigSep (Finset.Ico (2 * k + 1) 8) (xPc m d L)
    ∗ bigSep (Finset.Ico 0 (2 * k - 1)) (oPc d L fun n => oNew m d L fo (ch n)) ∗ bigSep (Finset.Ico (2 * k) 8) (oPc d L fun _ => fo)
    ∗ ∃ W', ⌜∀ p ∈ W', p ∈ W ∨ p.2 = none⌝ ∗ owes (Vt d L) O W')

/-! ## Families over an interval of chunk numbers -/

omit [FloatOps F] in
theorem ico_pop {a b : ℕ} (h : a < b) (Φ : ℕ → sProp 𝕄) : bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp)]; rfl
omit [FloatOps F] in
theorem ico_push {a b : ℕ} (h : a ≤ b) (Φ : ℕ → sProp 𝕄) : bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, bigSep_insert (by simp)]; rfl

/-! ## The chunks as the program spells them at each site -/

omit [FloatOps F] in
theorem ch_val {n : ℕ} (h : n < 8) : (ch n).val = n := Nat.mod_eq_of_lt h

/-- A chunk of `x` held under the canonical name is the same chunk held under the program's spelling of it. -/
theorem xPc_spell (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) :
    xPc m d L n = ((((xW).slice (Rect.unit (s := S32x16384x128) off S1x256x128.size p) hs).squeeze S256x128 squeezes_S1x256x128_S256x128).view.loc (Vt d L)
      ↦[(((xW).slice (Rect.unit (s := S32x16384x128) off S1x256x128.size p) hs).squeeze S256x128 squeezes_S1x256x128_S256x128).view.set]{fullShare} m (xLoc d) : sProp 𝕄) := by
  subst e; rfl
/-- The same for a chunk of the result. -/
theorem oPc_spell (f : ℕ → Buf (Elt F) (oLoc d)) (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) :
    oPc d L f n = ((((oW).slice (Rect.unit (s := S32x16384x128) off S1x256x128.size p) hs).squeeze S256x128 squeezes_S1x256x128_S256x128).view.loc (Vt d L)
      ↦[(((oW).slice (Rect.unit (s := S32x16384x128) off S1x256x128.size p) hs).squeeze S256x128 squeezes_S1x256x128_S256x128).view.set]{fullShare} f n : sProp 𝕄) := by
  subst e; rfl

/-! ## Respelling contents, and a transfer in flight under any spelling as the invariant's -/

theorem xData_spell (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) :
    xData m d L (ch n) = (((xW).slice (Rect.unit (s := S32x16384x128) off S1x256x128.size p) hs).squeeze S256x128 squeezes_S1x256x128_S256x128).view.read (Elt F) (m (xLoc d)) := by
  subst e; rfl

/-- A written chunk of the result, under the program's spelling of the chunk and any name of the data. -/
theorem oDone_spell (fo : Buf (Elt F) (oLoc d)) (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) (w : S256x128.Idx → Elt F .f32) (hw : w = xData m d L (ch n)) :
    oPc d L (fun n => oNew m d L fo (ch n)) n
      = ((((oW).slice (Rect.unit (s := S32x16384x128) off S1x256x128.size p) hs).squeeze S256x128 squeezes_S1x256x128_S256x128).view.loc (Vt d L)
        ↦[(((oW).slice (Rect.unit (s := S32x16384x128) off S1x256x128.size p) hs).squeeze S256x128 squeezes_S1x256x128_S256x128).view.set]{fullShare}
          (((oW).slice (Rect.unit (s := S32x16384x128) off S1x256x128.size p) hs).squeeze S256x128 squeezes_S1x256x128_S256x128).view.writes (Elt F) fo [⟨Rect.whole S256x128, w⟩] : sProp 𝕄) := by
  subst e hw; rfl

/-- A read in flight into the first buffer — the buffer written whole with the chunk's data over whatever it held, the chunk lent under
    any spelling of it — is the invariant's. -/
theorem rd_conv (n : ℕ) (sm : SemLoc sig) (hsm : sm = rsem0) (fold : Buf (Elt F) ((b0).view.loc (Vt d L))) (w : S256x128.Idx → Elt F .f32) (hw : w = xData m d L (ch n))
    (P : sProp 𝕄) (hP : P = xPc m d L n) :
    (Transfers.Flight countersEmb (Vt d L) sm (default : HIx 1) NB
        iprop(((b0).view.loc (Vt d L) ↦{fullShare} (b0).view.write (Elt F) fold w Finset.univ) ∗ P) : sProp 𝕄)
      ⊢ rdFlight0 m d L n := by
  subst hw hP hsm
  unfold rdFlight0
  refine Transfers.Flight_mono countersEmb (Vt d L) ?_
  simp only [Memref.view_whole, View.write_whole_univ]
  exact Entails.refl _

/-- A write in flight out of the second buffer — the result's chunk under any spelling, the buffer lent holding the chunk's data — is the
    invariant's. -/
theorem wr_conv (fo : Buf (Elt F) (oLoc d)) (n : ℕ) (sm : SemLoc sig) (hsm : sm = wsem1) (fold : Buf (Elt F) ((b1).view.loc (Vt d L))) (w : S256x128.Idx → Elt F .f32) (hw : w = xData m d L (ch n))
    (P : sProp 𝕄) (hP : P = oPc d L (fun n => oNew m d L fo (ch n)) n) :
    (Transfers.Flight countersEmb (Vt d L) sm (default : HIx 1) NB
        iprop(P ∗ ((b1).view.loc (Vt d L) ↦[(b1).view.set]{fullShare} (b1).view.write (Elt F) fold w Finset.univ)) : sProp 𝕄)
      ⊢ wrFlight1 m d L fo n := by
  subst hw hP hsm
  unfold wrFlight1
  refine Transfers.Flight_mono countersEmb (Vt d L) ?_
  simp only [Memref.view_whole, View.write_whole_univ, View.set_whole]
  exact Entails.refl _

/-! ## The invariant opened before a middle trip, and closed after it -/

theorem inv_open_mid (fo : Buf (Elt F) (oLoc d)) (O : CellTallies nD τ sig (HIx 1)) (W : Waits sig (HIx 1)) (k : ℕ) (hk1 : 1 ≤ k) (hk3 : k < 3) :
    invX m d L fo O W k ⟨⟩ = iprop(Transfers.MayWaits (Vt d L) (none : HIx 1) O
      ∗ rdFlight0 m d L (2 * k) ∗ wrFlight1 m d L fo (2 * k - 1)
      ∗ semVal (Vt d L, rsem1) 0 ∗ semVal (Vt d L, wsem0) 0
      ∗ bigSep (Finset.Ico 0 (2 * k)) (xPc m d L) ∗ (xPc m d L (2 * k + 1) ∗ xPc m d L (2 * k + 1 + 1) ∗ bigSep (Finset.Ico (2 * k + 1 + 1 + 1) 8) (xPc m d L))
      ∗ bigSep (Finset.Ico 0 (2 * k - 1)) (oPc d L fun n => oNew m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invX
  rw [if_pos (show k < 4 by omega), if_neg (show ¬ k = 0 by omega), ico_pop (show 2 * k < 8 by omega) (oPc d L fun _ => fo),
    ico_pop (show 2 * k + 1 < 8 by omega) (oPc d L fun _ => fo),
    ico_pop (show 2 * k + 1 < 8 by omega) (xPc m d L), ico_pop (show 2 * k + 1 + 1 < 8 by omega) (xPc m d L)]

theorem inv_close_mid (fo : Buf (Elt F) (oLoc d)) (O : CellTallies nD τ sig (HIx 1)) (W W'' : Waits sig (HIx 1)) (k : ℕ) (hk1 : 1 ≤ k) (hk3 : k < 3)
    (hW'' : ∀ p ∈ W'', p ∈ W ∨ p.2 = none) :
    iprop(Transfers.MayWaits (Vt d L) (none : HIx 1) O
      ∗ rdFlight0 m d L (2 * k + 1 + 1) ∗ wrFlight1 m d L fo (2 * k + 1)
      ∗ semVal (Vt d L, rsem1) 0 ∗ semVal (Vt d L, wsem0) 0
      ∗ (xPc m d L (2 * k + 1) ∗ xPc m d L (2 * k) ∗ bigSep (Finset.Ico 0 (2 * k)) (xPc m d L)) ∗ bigSep (Finset.Ico (2 * k + 1 + 1 + 1) 8) (xPc m d L)
      ∗ (oPc d L (fun n => oNew m d L fo (ch n)) (2 * k) ∗ oPc d L (fun n => oNew m d L fo (ch n)) (2 * k - 1)
          ∗ bigSep (Finset.Ico 0 (2 * k - 1)) (oPc d L fun n => oNew m d L fo (ch n)))
      ∗ bigSep (Finset.Ico (2 * k + 1 + 1) 8) (oPc d L fun _ => fo)
      ∗ owes (Vt d L) O W'')
    ⊢ invX m d L fo O W (k + 1) ⟨⟩ := by
  unfold invX
  have e2 : 2 * (k + 1) = 2 * k + 1 + 1 := by omega
  have e1 : 2 * k + 1 + 1 - 1 = 2 * k + 1 := by omega
  have e0 : 2 * k = 2 * k - 1 + 1 := by omega
  rw [if_pos (show k + 1 < 4 by omega), if_neg (show ¬ k + 1 = 0 by omega), e2, e1,
    ico_push (Nat.zero_le _) (xPc m d L), ico_push (Nat.zero_le _) (xPc m d L),
    ico_push (Nat.zero_le _) (oPc d L fun n => oNew m d L fo (ch n))]
  conv => rhs; rw [e0, ico_push (Nat.zero_le _) (oPc d L fun n => oNew m d L fo (ch n)), ← e0]
  iintro ⟨Hmw, Hrd, Hwr, Hs3, Hs4, Hx, HxB, Ho, HoB, HO⟩
  isplitl [Hmw]; · iexact Hmw
  isplitl [Hrd]; · iexact Hrd
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

/-! ## The invariant opened before the first and the last trip -/

theorem inv_open_first (fo : Buf (Elt F) (oLoc d)) (O : CellTallies nD τ sig (HIx 1)) (W : Waits sig (HIx 1)) (k : ℕ) (hk0 : k = 0) :
    invX m d L fo O W k ⟨⟩ = iprop(Transfers.MayWaits (Vt d L) (none : HIx 1) O
      ∗ rdFlight0 m d L (2 * k) ∗ ((∃ f, (b1).view.loc (Vt d L) ↦{fullShare} f) ∗ semVal (Vt d L, wsem1) 0)
      ∗ semVal (Vt d L, rsem1) 0 ∗ semVal (Vt d L, wsem0) 0
      ∗ bigSep (Finset.Ico 0 (2 * k)) (xPc m d L) ∗ (xPc m d L (2 * k + 1) ∗ xPc m d L (2 * k + 1 + 1) ∗ bigSep (Finset.Ico (2 * k + 1 + 1 + 1) 8) (xPc m d L))
      ∗ bigSep (Finset.Ico 0 (2 * k - 1)) (oPc d L fun n => oNew m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invX
  rw [if_pos (show k < 4 by omega), if_pos hk0, ico_pop (show 2 * k < 8 by omega) (oPc d L fun _ => fo),
    ico_pop (show 2 * k + 1 < 8 by omega) (oPc d L fun _ => fo),
    ico_pop (show 2 * k + 1 < 8 by omega) (xPc m d L), ico_pop (show 2 * k + 1 + 1 < 8 by omega) (xPc m d L)]

theorem inv_open_last (fo : Buf (Elt F) (oLoc d)) (O : CellTallies nD τ sig (HIx 1)) (W : Waits sig (HIx 1)) (k : ℕ) (hk3 : k = 3) :
    invX m d L fo O W k ⟨⟩ = iprop(Transfers.MayWaits (Vt d L) (none : HIx 1) O
      ∗ rdFlight0 m d L (2 * k) ∗ wrFlight1 m d L fo (2 * k - 1)
      ∗ semVal (Vt d L, rsem1) 0 ∗ semVal (Vt d L, wsem0) 0
      ∗ bigSep (Finset.Ico 0 (2 * k)) (xPc m d L) ∗ (xPc m d L (2 * k + 1) ∗ bigSep (Finset.Ico (2 * k + 1 + 1) 8) (xPc m d L))
      ∗ bigSep (Finset.Ico 0 (2 * k - 1)) (oPc d L fun n => oNew m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invX
  rw [if_pos (show k < 4 by omega), if_neg (show ¬ k = 0 by omega), ico_pop (show 2 * k < 8 by omega) (oPc d L fun _ => fo),
    ico_pop (show 2 * k + 1 < 8 by omega) (oPc d L fun _ => fo),
    ico_pop (show 2 * k + 1 < 8 by omega) (xPc m d L)]

theorem inv_close_first (fo : Buf (Elt F) (oLoc d)) (O : CellTallies nD τ sig (HIx 1)) (W W'' : Waits sig (HIx 1)) (k : ℕ) (hk0 : k = 0)
    (hW'' : ∀ p ∈ W'', p ∈ W ∨ p.2 = none) :
    iprop(Transfers.MayWaits (Vt d L) (none : HIx 1) O
      ∗ rdFlight0 m d L (2 * k + 1 + 1) ∗ wrFlight1 m d L fo (2 * k + 1)
      ∗ semVal (Vt d L, rsem1) 0 ∗ semVal (Vt d L, wsem0) 0
      ∗ (xPc m d L (2 * k + 1) ∗ xPc m d L (2 * k) ∗ bigSep (Finset.Ico 0 (2 * k)) (xPc m d L)) ∗ bigSep (Finset.Ico (2 * k + 1 + 1 + 1) 8) (xPc m d L)
      ∗ (oPc d L (fun n => oNew m d L fo (ch n)) (2 * k) ∗ bigSep (Finset.Ico 0 (2 * k - 1)) (oPc d L fun n => oNew m d L fo (ch n)))
      ∗ bigSep (Finset.Ico (2 * k + 1 + 1) 8) (oPc d L fun _ => fo)
      ∗ owes (Vt d L) O W'')
    ⊢ invX m d L fo O W (k + 1) ⟨⟩ := by
  unfold invX
  have e2 : 2 * (k + 1) = 2 * k + 1 + 1 := by omega
  have e1 : 2 * k + 1 + 1 - 1 = 2 * k + 1 := by omega
  have e0 : 2 * k - 1 = 2 * k := by omega
  rw [if_pos (show k + 1 < 4 by omega), if_neg (show ¬ k + 1 = 0 by omega), e2, e1, e0,
    ico_push (Nat.zero_le _) (xPc m d L), ico_push (Nat.zero_le _) (xPc m d L),
    ico_push (Nat.zero_le _) (oPc d L fun n => oNew m d L fo (ch n))]
  iintro ⟨Hmw, Hrd, Hwr, Hs3, Hs4, Hx, HxB, Ho, HoB, HO⟩
  isplitl [Hmw]; · iexact Hmw
  isplitl [Hrd]; · iexact Hrd
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

theorem inv_close_last (fo : Buf (Elt F) (oLoc d)) (O : CellTallies nD τ sig (HIx 1)) (W W'' : Waits sig (HIx 1)) (k : ℕ) (hk3 : k = 3)
    (hW'' : ∀ p ∈ W'', p ∈ W ∨ p.2 = none) :
    iprop(Transfers.MayWaits (Vt d L) (none : HIx 1) O
      ∗ ((∃ f, (b0).view.loc (Vt d L) ↦{fullShare} f) ∗ semVal (Vt d L, rsem0) 0) ∗ wrFlight1 m d L fo (2 * k + 1)
      ∗ semVal (Vt d L, rsem1) 0 ∗ semVal (Vt d L, wsem0) 0
      ∗ (xPc m d L (2 * k + 1) ∗ xPc m d L (2 * k) ∗ bigSep (Finset.Ico 0 (2 * k)) (xPc m d L)) ∗ bigSep (Finset.Ico (2 * k + 1 + 1) 8) (xPc m d L)
      ∗ (oPc d L (fun n => oNew m d L fo (ch n)) (2 * k) ∗ oPc d L (fun n => oNew m d L fo (ch n)) (2 * k - 1)
          ∗ bigSep (Finset.Ico 0 (2 * k - 1)) (oPc d L fun n => oNew m d L fo (ch n)))
      ∗ bigSep (Finset.Ico (2 * k + 1 + 1) 8) (oPc d L fun _ => fo)
      ∗ owes (Vt d L) O W'')
    ⊢ invX m d L fo O W (k + 1) ⟨⟩ := by
  unfold invX
  have e2 : 2 * (k + 1) = 2 * k + 1 + 1 := by omega
  have e1 : 2 * k + 1 + 1 - 1 = 2 * k + 1 := by omega
  have e0 : 2 * k = 2 * k - 1 + 1 := by omega
  rw [if_neg (show ¬ k + 1 < 4 by omega), if_neg (show ¬ k + 1 = 0 by omega), e2, e1,
    ico_push (Nat.zero_le _) (xPc m d L), ico_push (Nat.zero_le _) (xPc m d L),
    ico_push (Nat.zero_le _) (oPc d L fun n => oNew m d L fo (ch n)),
    Finset.Ico_eq_empty_of_le (show 8 ≤ 2 * k + 1 + 1 + 1 by omega), Finset.Ico_eq_empty_of_le (show 8 ≤ 2 * k + 1 + 1 by omega)]
  conv => rhs; rw [e0, ico_push (Nat.zero_le _) (oPc d L fun n => oNew m d L fo (ch n)), ← e0]
  iintro ⟨Hmw, Hb0, Hwr, Hs3, Hs4, Hx, HxB, Ho, HoB, HO⟩
  isplitl [Hmw]; · iexact Hmw
  isplitl [Hb0]; · iexact Hb0
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

/-- A middle trip (1 ≤ k < 3) of the chunk loop, block ≠ 0: the read of chunk 2k lands and is written out, the write of chunk
    2k - 1 completes and the second buffer takes chunk 2k + 1, which is written out in turn; the write of chunk 2k completes
    and the first buffer takes chunk 2k + 2. -/
theorem trip_mid (hb : ¬ blk L = 0) (fo : Buf (Elt F) (oLoc d)) (O : CellTallies nD τ sig (HIx 1)) (W : Waits sig (HIx 1))
    (k : Fin k1_t1_loop.trips) (hk1 : 1 ≤ k.val) (hk3 : k.val < 3) (v18 v29 : BitVec 32) :
    invX m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invX m d L fo O W (k.val + 1)) := by
  have k1_h3 : k1_cond3 k = 1#1 := (cond3_iff k).mpr hk1
  have k1_h4 : k1_cond4 k = 1#1 := cond4_all k
  have k1_h5 : ¬ k1_cond5 L = 1#1 := fun h => hb ((cond5_iff L).mp h)
  have k1_h6 : k1_cond6 L = 1#1 := (cond6_iff L).mpr hb
  have k1_h7 : k1_cond7 k = 1#1 := cond7_all k
  have k1_h8 : k1_cond8 k = 1#1 := (cond8_iff k).mpr hk3
  have k1_h9 : ¬ k1_cond9 L = 1#1 := fun h => hb ((cond9_iff L).mp h)
  have k1_h10 : k1_cond10 L = 1#1 := (cond10_iff L).mpr hb
  unfold k1_t1_body
  simp only [k1_part1_eq_skeleton]; unfold k1_part1_skel
  -- the chunks this trip issues on, each as the program spells it at that site
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have c6 : k1_off6 L k = chunkOff L (ch (2 * k.val + 1)).val := by rw [off6_eq, ch_val (by omega)]
  have c9 : k1_off9 L k = chunkOff L (ch (2 * k.val + 1 + 1)).val := by rw [off9_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := xPc_spell m d L (2 * k.val + 1) c6 (k1_off6_inb L k k1_h4 k1_h6) (fun _ => rfl)
  have eX2 := xPc_spell m d L (2 * k.val + 1 + 1) c9 (k1_off9_inb L k k1_h8 k1_h10) (fun _ => rfl)
  rw [inv_open_mid m d L fo O W k.val hk1 hk3]
  unfold rdFlight0 wrFlight1
  iintro ⟨#Hmw, Hrd, Hwr, Hs3, Hs4, HxA, ⟨Hx1, Hx2, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  ihave Hx2 := (Entails.of_eq eX2) $$ Hx2
  sl_exec
  sl_step
  -- the data each transfer carried, under its canonical name
  have d0 : trip_mid.sl.dma0 m d L k = xData m d L (ch (2 * k.val)) := rfl
  have d1 : trip_mid.sl.dma0_1 m d L k k1_h4 k1_h6 = xData m d L (ch (2 * k.val + 1)) :=
    (xData_spell m d L (2 * k.val + 1) c6 (k1_off6_inb L k k1_h4 k1_h6) (fun _ => rfl)).symm
  have d2 : trip_mid.sl.dma0_2 m d L k k1_h4 k1_h6 = xData m d L (ch (2 * k.val + 1)) := by
    unfold trip_mid.sl.dma0_2
    simp only [Memref.view_whole, View.write_whole_univ, View.read_whole, ReadAs.apply_same]
    exact d1
  have d3 : trip_mid.sl.dma0_3 m d L k k1_h8 k1_h10 = xData m d L (ch (2 * k.val + 1 + 1)) :=
    (xData_spell m d L (2 * k.val + 1 + 1) c9 (k1_off9_inb L k k1_h8 k1_h10) (fun _ => rfl)).symm
  iapply (inv_close_mid m d L fo O W _ k.val hk1 hk3 ?hW)
  rotate_left
  isplitl [Hmw]; · iexact Hmw
  isplitl [Hrd]
  · iapply (rd_conv m d L (2 * k.val + 1 + 1) _ rfl _ _ d3 _ eX2.symm); iexact Hrd
  isplitl [Hwr]
  · iapply (wr_conv m d L fo (2 * k.val + 1) _ rfl _ _ d1 _
      (oDone_spell m d L fo (2 * k.val + 1) c1 (k1_off3_inb L k 1) (fun _ => rfl) _ d2).symm); iexact Hwr
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 Hwr_dst HoA]
  · isplitl [Ho0]
    · iapply (Entails.of_eq (oDone_spell m d L fo (2 * k.val) c0 (k1_off3_inb L k 0) (fun _ => rfl) _ d0).symm); iexact Ho0
    isplitl [Hwr_dst]; · iexact Hwr_dst
    iexact HoA
  isplitl [HoB]; · iexact HoB
  iexact HO
  case hW =>
    intro p hp
    simp only [Finset.mem_insert] at hp
    rcases hp with rfl | rfl | rfl | rfl | hp
    · exact .inr rfl
    · exact .inr rfl
    · exact .inr rfl
    · exact .inr rfl
    · exact hW' p hp

/-- The first trip (k = 0): as a middle trip, but no earlier write is waited for — the second buffer is idle. -/
theorem trip_first (hb : ¬ blk L = 0) (fo : Buf (Elt F) (oLoc d)) (O : CellTallies nD τ sig (HIx 1)) (W : Waits sig (HIx 1))
    (k : Fin k1_t1_loop.trips) (hk0 : k.val = 0) (v18 v29 : BitVec 32) :
    invX m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invX m d L fo O W (k.val + 1)) := by
  have k1_h3 : ¬ k1_cond3 k = 1#1 := fun h => by have := (cond3_iff k).mp h; omega
  have k1_h4 : k1_cond4 k = 1#1 := cond4_all k
  have k1_h5 : ¬ k1_cond5 L = 1#1 := fun h => hb ((cond5_iff L).mp h)
  have k1_h6 : k1_cond6 L = 1#1 := (cond6_iff L).mpr hb
  have k1_h7 : k1_cond7 k = 1#1 := cond7_all k
  have k1_h8 : k1_cond8 k = 1#1 := (cond8_iff k).mpr (by omega)
  have k1_h9 : ¬ k1_cond9 L = 1#1 := fun h => hb ((cond9_iff L).mp h)
  have k1_h10 : k1_cond10 L = 1#1 := (cond10_iff L).mpr hb
  unfold k1_t1_body
  simp only [k1_part1_eq_skeleton]; unfold k1_part1_skel
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have c6 : k1_off6 L k = chunkOff L (ch (2 * k.val + 1)).val := by rw [off6_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := xPc_spell m d L (2 * k.val + 1) c6 (k1_off6_inb L k k1_h4 k1_h6) (fun _ => rfl)
  have c9 : k1_off9 L k = chunkOff L (ch (2 * k.val + 1 + 1)).val := by rw [off9_eq, ch_val (by omega)]
  have eX2 := xPc_spell m d L (2 * k.val + 1 + 1) c9 (k1_off9_inb L k k1_h8 k1_h10) (fun _ => rfl)
  rw [inv_open_first m d L fo O W k.val hk0]
  unfold rdFlight0
  iintro ⟨#Hmw, Hrd, ⟨⟨%fb1, Hb1⟩, Hs5⟩, Hs3, Hs4, HxA, ⟨Hx1, Hx2, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  ihave Hx2 := (Entails.of_eq eX2) $$ Hx2
  sl_exec
  sl_step
  have d0 : trip_first.sl.dma0 m d L k = xData m d L (ch (2 * k.val)) := rfl
  have d1 : trip_first.sl.dma0_1 m d L k k1_h4 k1_h6 = xData m d L (ch (2 * k.val + 1)) :=
    (xData_spell m d L (2 * k.val + 1) c6 (k1_off6_inb L k k1_h4 k1_h6) (fun _ => rfl)).symm
  have d2 : trip_first.sl.dma0_2 m d L k k1_h4 k1_h6 fb1 = xData m d L (ch (2 * k.val + 1)) := by
    unfold trip_first.sl.dma0_2
    simp only [Memref.view_whole, View.write_whole_univ, View.read_whole, ReadAs.apply_same]
    exact d1
  have d3 : trip_first.sl.dma0_3 m d L k k1_h8 k1_h10 = xData m d L (ch (2 * k.val + 1 + 1)) :=
    (xData_spell m d L (2 * k.val + 1 + 1) c9 (k1_off9_inb L k k1_h8 k1_h10) (fun _ => rfl)).symm
  iapply (inv_close_first m d L fo O W _ k.val hk0 ?hW)
  rotate_left
  isplitl [Hmw]; · iexact Hmw
  isplitl [Hrd]
  · iapply (rd_conv m d L (2 * k.val + 1 + 1) _ rfl _ _ d3 _ eX2.symm); iexact Hrd
  isplitl [Hs5]
  · iapply (wr_conv m d L fo (2 * k.val + 1) _ rfl _ _ d1 _
      (oDone_spell m d L fo (2 * k.val + 1) c1 (k1_off3_inb L k 1) (fun _ => rfl) _ d2).symm); iexact Hs5
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 HoA]
  · isplitl [Ho0]
    · iapply (Entails.of_eq (oDone_spell m d L fo (2 * k.val) c0 (k1_off3_inb L k 0) (fun _ => rfl) _ d0).symm); iexact Ho0
    iexact HoA
  isplitl [HoB]; · iexact HoB
  iexact HO
  intro p hp
  simp only [Finset.mem_insert] at hp
  rcases hp with rfl | rfl | rfl | hp
  · exact .inr rfl
  · exact .inr rfl
  · exact .inr rfl
  · exact hW' p hp

/-- The last trip (k = 3): as a middle trip, but no further read is started — the first buffer ends idle. -/
theorem trip_last (hb : ¬ blk L = 0) (fo : Buf (Elt F) (oLoc d)) (O : CellTallies nD τ sig (HIx 1)) (W : Waits sig (HIx 1))
    (k : Fin k1_t1_loop.trips) (hk3 : k.val = 3) (v18 v29 : BitVec 32) :
    invX m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invX m d L fo O W (k.val + 1)) := by
  have k1_h3 : k1_cond3 k = 1#1 := (cond3_iff k).mpr (by omega)
  have k1_h4 : k1_cond4 k = 1#1 := cond4_all k
  have k1_h5 : ¬ k1_cond5 L = 1#1 := fun h => hb ((cond5_iff L).mp h)
  have k1_h6 : k1_cond6 L = 1#1 := (cond6_iff L).mpr hb
  have k1_h7 : k1_cond7 k = 1#1 := cond7_all k
  have k1_h8 : ¬ k1_cond8 k = 1#1 := fun h => by have := (cond8_iff k).mp h; omega
  have k1_h9 : ¬ k1_cond9 L = 1#1 := fun h => hb ((cond9_iff L).mp h)
  have k1_h10 : k1_cond10 L = 1#1 := (cond10_iff L).mpr hb
  unfold k1_t1_body
  simp only [k1_part1_eq_skeleton]; unfold k1_part1_skel
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have c6 : k1_off6 L k = chunkOff L (ch (2 * k.val + 1)).val := by rw [off6_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := xPc_spell m d L (2 * k.val + 1) c6 (k1_off6_inb L k k1_h4 k1_h6) (fun _ => rfl)
  rw [inv_open_last m d L fo O W k.val hk3]
  unfold rdFlight0 wrFlight1
  iintro ⟨#Hmw, Hrd, Hwr, Hs3, Hs4, HxA, ⟨Hx1, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  sl_exec
  sl_step
  have d0 : trip_last.sl.dma0 m d L k = xData m d L (ch (2 * k.val)) := rfl
  have d1 : trip_last.sl.dma0_1 m d L k k1_h4 k1_h6 = xData m d L (ch (2 * k.val + 1)) :=
    (xData_spell m d L (2 * k.val + 1) c6 (k1_off6_inb L k k1_h4 k1_h6) (fun _ => rfl)).symm
  have d2 : trip_last.sl.dma0_2 m d L k k1_h4 k1_h6 = xData m d L (ch (2 * k.val + 1)) := by
    unfold trip_last.sl.dma0_2
    simp only [Memref.view_whole, View.write_whole_univ, View.read_whole, ReadAs.apply_same]
    exact d1
  iapply (inv_close_last m d L fo O W _ k.val hk3 ?hW)
  rotate_left
  isplitl [Hmw]; · iexact Hmw
  isplitl [Hrd_dst Hrd]
  · isplitl [Hrd_dst]; · iexists _; iexact Hrd_dst
    iexact Hrd
  isplitl [Hwr]
  · iapply (wr_conv m d L fo (2 * k.val + 1) _ rfl _ _ d1 _
      (oDone_spell m d L fo (2 * k.val + 1) c1 (k1_off3_inb L k 1) (fun _ => rfl) _ d2).symm); iexact Hwr
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 Hwr_dst HoA]
  · isplitl [Ho0]
    · iapply (Entails.of_eq (oDone_spell m d L fo (2 * k.val) c0 (k1_off3_inb L k 0) (fun _ => rfl) _ d0).symm); iexact Ho0
    isplitl [Hwr_dst]; · iexact Hwr_dst
    iexact HoA
  isplitl [HoB]; · iexact HoB
  iexact HO
  intro p hp
  simp only [Finset.mem_insert] at hp
  rcases hp with rfl | rfl | rfl | rfl | hp
  · exact .inr rfl
  · exact .inr rfl
  · exact .inr rfl
  · exact .inr rfl
  · exact hW' p hp

/-! ## The invariant at the loop's entry and exit -/

theorem inv_init (fo : Buf (Elt F) (oLoc d)) (O : CellTallies nD τ sig (HIx 1)) (W : Waits sig (HIx 1)) :
    iprop(Transfers.MayWaits (Vt d L) (none : HIx 1) O
      ∗ rdFlight0 m d L 0 ∗ (∃ f, (b1).view.loc (Vt d L) ↦{fullShare} f) ∗ semVal (Vt d L, wsem1) 0
      ∗ semVal (Vt d L, rsem1) 0 ∗ semVal (Vt d L, wsem0) 0
      ∗ bigSep (Finset.Ico 1 8) (xPc m d L) ∗ bigSep (Finset.Ico 0 8) (oPc d L fun _ => fo)
      ∗ owes (Vt d L) O W)
    ⊢ invX m d L fo O W 0 ⟨⟩ := by
  unfold invX
  rw [if_pos (show 0 < 4 by omega), if_pos rfl]
  iintro ⟨Hmw, Hrd, Hb1, Hs5, Hs3, Hs4, HxB, HoB, HO⟩
  isplitl [Hmw]; · iexact Hmw
  isplitl [Hrd]; · iexact Hrd
  isplitl [Hb1 Hs5]
  · isplitl [Hb1]; · iexact Hb1
    iexact Hs5
  isplitl [Hs3]; · iexact Hs3
  isplitl [Hs4]; · iexact Hs4
  isplitr
  · rw [show Finset.Ico 0 (2 * 0) = (∅ : Finset ℕ) from rfl, bigSep_empty]; iempintro
  isplitl [HxB]; · iexact HxB
  isplitr
  · rw [show Finset.Ico 0 (2 * 0 - 1) = (∅ : Finset ℕ) from rfl, bigSep_empty]; iempintro
  isplitl [HoB]; · iexact HoB
  iexists W; isplitr
  · ipureintro; exact fun p hp => .inl hp
  · iexact HO

theorem inv_exit (fo : Buf (Elt F) (oLoc d)) (O : CellTallies nD τ sig (HIx 1)) (W : Waits sig (HIx 1)) (n : ℕ) (hn : n = 4) (acc : PUnit) :
    invX m d L fo O W n acc
    ⊢ iprop(((∃ f, (b0).view.loc (Vt d L) ↦{fullShare} f) ∗ semVal (Vt d L, rsem0) 0) ∗ wrFlight1 m d L fo 7
      ∗ semVal (Vt d L, rsem1) 0 ∗ semVal (Vt d L, wsem0) 0
      ∗ bigSep (Finset.Ico 0 8) (xPc m d L) ∗ bigSep (Finset.Ico 0 7) (oPc d L fun n => oNew m d L fo (ch n))
      ∗ ∃ W', ⌜∀ p ∈ W', p ∈ W ∨ p.2 = none⌝ ∗ owes (Vt d L) O W') := by
  subst hn
  unfold invX
  rw [if_neg (show ¬ 4 < 4 by omega), if_neg (show ¬ 4 = 0 by omega)]
  iintro ⟨-, Hb0, Hwr, Hs3, Hs4, HxA, -, HoA, -, HO⟩
  isplitl [Hb0]; · iexact Hb0
  isplitl [Hwr]; · iexact Hwr
  isplitl [Hs3]; · iexact Hs3
  isplitl [Hs4]; · iexact Hs4
  isplitl [HxA]; · iexact HxA
  isplitl [HoA]; · iexact HoA
  iexact HO

theorem done_all (fo : Buf (Elt F) (oLoc d)) :
    iprop(oPc d L (fun n => oNew m d L fo (ch n)) 7 ∗ bigSep (Finset.Ico 0 7) (oPc d L fun n => oNew m d L fo (ch n)))
      ⊢ (bigSep (Finset.Ico 0 8) (oPc d L fun n => oNew m d L fo (ch n)) : sProp 𝕄) := by
  exact Entails.of_eq (ico_push (a := 0) (b := 7) (Nat.zero_le _) (oPc d L fun n => oNew m d L fo (ch n))).symm

/-! ## The whole task, block ≠ 0 -/

/-- What the task starts from: its eight chunks of `x` at their launch contents, its eight chunks of the result at `fo`, the two
    staging buffers at anything, its four semaphores at zero; and what it ends with: the same, the result's chunks written. -/
def tilePreX (fo : Buf (Elt F) (oLoc d)) (O : CellTallies nD τ sig (HIx 1)) (W : Waits sig (HIx 1)) : sProp 𝕄 :=
  iprop(Transfers.MayWaits (Vt d L) (none : HIx 1) O
    ∗ bigSep (Finset.Ico 0 8) (xPc m d L) ∗ bigSep (Finset.Ico 0 8) (oPc d L fun _ => fo)
    ∗ (∃ f, (b0).view.loc (Vt d L) ↦{fullShare} f) ∗ (∃ f, (b1).view.loc (Vt d L) ↦{fullShare} f)
    ∗ semVal (Vt d L, rsem0) 0 ∗ semVal (Vt d L, rsem1) 0 ∗ semVal (Vt d L, wsem0) 0 ∗ semVal (Vt d L, wsem1) 0
    ∗ owes (Vt d L) O W)
def tilePostX (fo : Buf (Elt F) (oLoc d)) (O : CellTallies nD τ sig (HIx 1)) (W : Waits sig (HIx 1)) : sProp 𝕄 :=
  iprop(bigSep (Finset.Ico 0 8) (xPc m d L) ∗ bigSep (Finset.Ico 0 8) (oPc d L fun n => oNew m d L fo (ch n))
    ∗ (∃ f, (b0).view.loc (Vt d L) ↦{fullShare} f) ∗ (∃ f, (b1).view.loc (Vt d L) ↦{fullShare} f)
    ∗ semVal (Vt d L, rsem0) 0 ∗ semVal (Vt d L, rsem1) 0 ∗ semVal (Vt d L, wsem0) 0 ∗ semVal (Vt d L, wsem1) 0
    ∗ ∃ W', ⌜∀ p ∈ W', p ∈ W ∨ p.2 = none⌝ ∗ owes (Vt d L) O W')

theorem tile_body_x (hb : ¬ blk L = 0) (fo : Buf (Elt F) (oLoc d)) (O : CellTallies nD τ sig (HIx 1)) (W : Waits sig (HIx 1)) :
    tilePreX m d L fo O W
      ⊢ wp frame (wpE (defs₀ (F := F)) 𝒱₀ (Vt d L) none) Set.univ
          (cc1__sc_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5)
          fun _ => tilePostX m d L fo O W := by
  have k1_h1 : ¬ k1_cond1 L = 1#1 := fun h => hb ((cond1_iff L).mp h)
  have k1_h2 : k1_cond2 L = 1#1 := (cond2_iff L).mpr hb
  simp only [cc1__sc_body_eq_skeleton]; unfold cc1__sc_body_skel
  simp only [k1_part2_eq_skeleton]; unfold k1_part2_skel
  have c2 : k1_off2 L = chunkOff L (ch 0).val := by rw [off2_eq]
  have eX0 := xPc_spell m d L 0 c2 (k1_off2_inb L k1_h2) (fun _ => rfl)
  unfold tilePreX
  rw [ico_pop (show 0 < 8 by omega) (xPc m d L)]
  iintro ⟨#Hmw, ⟨Hx0, HxB⟩, HoB, ⟨%fb0, Hb0⟩, Hb1, Hs2, Hs3, Hs4, Hs5, HO⟩
  ihave Hx0 := (Entails.of_eq eX0) $$ Hx0
  sl_exec
  have d0 : tile_body_x.sl.dma0 m d L k1_h2 = xData m d L (ch 0) :=
    (xData_spell m d L 0 c2 (k1_off2_inb L k1_h2) (fun _ => rfl)).symm
  sl_for (invX m d L fo O W) $$ [Hmw Hs2 Hb1 Hs5 Hs3 Hs4 HxB HoB HO]
  case region =>
    intro k acc
    by_cases hk0 : k.val = 0
    · exact trip_first m d L hb fo O W k hk0 _ _
    · by_cases hk3 : k.val = 3
      · exact trip_last m d L hb fo O W k hk3 _ _
      · have hk4 : k.val < 4 := Nat.lt_of_lt_of_le k.isLt k1_t1_abs.2.1
        exact trip_mid m d L hb fo O W k (by omega) (by omega) _ _
  · iapply (inv_init m d L fo O W)
    isplitl [Hmw]; · iexact Hmw
    isplitl [Hs2]
    · iapply (rd_conv m d L 0 _ rfl _ _ d0 _ eX0.symm); iexact Hs2
    isplitl [Hb1]; · iexact Hb1
    isplitl [Hs5]; · iexact Hs5
    isplitl [Hs3]; · iexact Hs3
    isplitl [Hs4]; · iexact Hs4
    isplitl [HxB]; · iexact HxB
    isplitl [HoB]; · iexact HoB
    iexact HO
  iintro %acc HI
  ihave HI := (inv_exit m d L fo O W _ (by decide) acc) $$ HI
  icases HI with ⟨⟨⟨%fb0', Hb0⟩, Hs2⟩, Hwr, Hs3, Hs4, HxA, HoA, %W', %hW', HO⟩
  unfold wrFlight1
  sl_exec
  sl_step
  unfold tilePostX
  isplitl [HxA]; · iexact HxA
  isplitl [Hwr_dst HoA]
  · iapply (done_all m d L fo)
    isplitl [Hwr_dst]; · iexact Hwr_dst
    iexact HoA
  isplitl [Hb0]; · iexists _; iexact Hb0
  isplitl [Hwr_src]; · iexists _; iexact Hwr_src
  isplitl [Hs2]; · iexact Hs2
  isplitl [Hs3]; · iexact Hs3
  isplitl [Hs4]; · iexact Hs4
  isplitl [Hwr]; · iexact Hwr
  iexists (insert (wsem1, (default : HIx 1)) W'); isplitr
  · ipureintro
    intro p hp
    rcases Finset.mem_insert.mp hp with rfl | hp
    · exact .inr rfl
    · exact hW' p hp
  · iexact HO

/-! # The same task when its block is block 0: the chunks come from `src` -/

/-- What a staging buffer holds once chunk `ci` of the worker's stripe of `src` has landed in it, and the result's chunk once written. -/
abbrev sData (ci : Fin 8) : S256x128.Idx → Elt F .f32 := (sCh L ci).view.read (Elt F) (m (sLoc d))
abbrev oNewS (fo : Buf (Elt F) (oLoc d)) (ci : Fin 8) : Buf (Elt F) (oLoc d) := (oCh L ci).view.writes (Elt F) fo [⟨Rect.whole S256x128, sData m d L ci⟩]

/-- A chunk of `src` at its launch contents. -/
abbrev sPc (n : ℕ) : sProp 𝕄 := (sCh L (ch n)).view.loc (Vt d L) ↦[(sCh L (ch n)).view.set]{fullShare} m (sLoc d)

/-- Chunk `n` of `src` on its way into the first staging buffer; chunk `n` on its way out of the second. -/
def rdFlight0S (n : ℕ) : sProp 𝕄 :=
  Transfers.Flight countersEmb (Vt d L) rsem0 (default : HIx 1) NB
    iprop(((b0).view.loc (Vt d L) ↦{fullShare} sData m d L (ch n)) ∗ sPc m d L n)
def wrFlight1S (fo : Buf (Elt F) (oLoc d)) (n : ℕ) : sProp 𝕄 :=
  Transfers.Flight countersEmb (Vt d L) wsem1 (default : HIx 1) NB
    iprop(oPc d L (fun n => oNewS m d L fo (ch n)) n ∗ ((b1).view.loc (Vt d L) ↦{fullShare} sData m d L (ch n)))

/-- Before trip `k` of the chunk loop (block 0): chunk 2k of `src` is on its way into the first buffer (for k < 4), chunk 2k - 1 on
    its way out of the second (for k ≥ 1); the other chunks of `src` are held, the result's chunks below 2k - 1 are written and those
    from 2k on untouched. -/
def invS (fo : Buf (Elt F) (oLoc d)) (O : CellTallies nD τ sig (HIx 1)) (W : Waits sig (HIx 1)) (k : ℕ) (_ : PUnit) : sProp 𝕄 :=
  iprop(Transfers.MayWaits (Vt d L) (none : HIx 1) O
    ∗ (if k < 4 then rdFlight0S m d L (2 * k) else iprop((∃ f, (b0).view.loc (Vt d L) ↦{fullShare} f) ∗ semVal (Vt d L, rsem0) 0))
    ∗ (if k = 0 then iprop((∃ f, (b1).view.loc (Vt d L) ↦{fullShare} f) ∗ semVal (Vt d L, wsem1) 0) else wrFlight1S m d L fo (2 * k - 1))
    ∗ semVal (Vt d L, rsem1) 0 ∗ semVal (Vt d L, wsem0) 0
    ∗ bigSep (Finset.Ico 0 (2 * k)) (sPc m d L) ∗ bigSep (Finset.Ico (2 * k + 1) 8) (sPc m d L)
    ∗ bigSep (Finset.Ico 0 (2 * k - 1)) (oPc d L fun n => oNewS m d L fo (ch n)) ∗ bigSep (Finset.Ico (2 * k) 8) (oPc d L fun _ => fo)
    ∗ ∃ W', ⌜∀ p ∈ W', p ∈ W ∨ p.2 = none⌝ ∗ owes (Vt d L) O W')

/-- A chunk of `src` held under the canonical name is the same chunk held under the program's spelling of it. -/
theorem sPc_spell (n : ℕ) {off : Fin 2 → ℕ} (e : off = srcOff L (ch n).val) (p : ∀ a, off a + S256x128.size a ≤ S16384x128.size a)
    (hs : ∀ a, (Rect.unit (s := S16384x128) off S256x128.size p).stride a = 1) :
    sPc m d L n = ((((sW).slice (Rect.unit (s := S16384x128) off S256x128.size p) hs)).view.loc (Vt d L)
      ↦[(((sW).slice (Rect.unit (s := S16384x128) off S256x128.size p) hs)).view.set]{fullShare} m (sLoc d) : sProp 𝕄) := by
  subst e; rfl
theorem sData_spell (n : ℕ) {off : Fin 2 → ℕ} (e : off = srcOff L (ch n).val) (p : ∀ a, off a + S256x128.size a ≤ S16384x128.size a)
    (hs : ∀ a, (Rect.unit (s := S16384x128) off S256x128.size p).stride a = 1) :
    sData m d L (ch n) = (((sW).slice (Rect.unit (s := S16384x128) off S256x128.size p) hs)).view.read (Elt F) (m (sLoc d)) := by
  subst e; rfl

/-! ## Respelling contents, and a transfer in flight under any spelling as the invariant's -/

/-- A written chunk of the result, under the program's spelling of the chunk and any name of the data. -/
theorem oDoneS_spell (fo : Buf (Elt F) (oLoc d)) (n : ℕ) {off : Fin 3 → ℕ} (e : off = chunkOff L (ch n).val) (p : ∀ a, off a + S1x256x128.size a ≤ S32x16384x128.size a)
    (hs : ∀ a, (Rect.unit (s := S32x16384x128) off S1x256x128.size p).stride a = 1) (w : S256x128.Idx → Elt F .f32) (hw : w = sData m d L (ch n)) :
    oPc d L (fun n => oNewS m d L fo (ch n)) n
      = ((((oW).slice (Rect.unit (s := S32x16384x128) off S1x256x128.size p) hs).squeeze S256x128 squeezes_S1x256x128_S256x128).view.loc (Vt d L)
        ↦[(((oW).slice (Rect.unit (s := S32x16384x128) off S1x256x128.size p) hs).squeeze S256x128 squeezes_S1x256x128_S256x128).view.set]{fullShare}
          (((oW).slice (Rect.unit (s := S32x16384x128) off S1x256x128.size p) hs).squeeze S256x128 squeezes_S1x256x128_S256x128).view.writes (Elt F) fo [⟨Rect.whole S256x128, w⟩] : sProp 𝕄) := by
  subst e hw; rfl

/-- A read in flight into the first buffer — the buffer written whole with the chunk's data over whatever it held, the chunk lent under
    any spelling of it — is the invariant's. -/
theorem rd_convS (n : ℕ) (sm : SemLoc sig) (hsm : sm = rsem0) (fold : Buf (Elt F) ((b0).view.loc (Vt d L))) (w : S256x128.Idx → Elt F .f32) (hw : w = sData m d L (ch n))
    (P : sProp 𝕄) (hP : P = sPc m d L n) :
    (Transfers.Flight countersEmb (Vt d L) sm (default : HIx 1) NB
        iprop(((b0).view.loc (Vt d L) ↦{fullShare} (b0).view.write (Elt F) fold w Finset.univ) ∗ P) : sProp 𝕄)
      ⊢ rdFlight0S m d L n := by
  subst hw hP hsm
  unfold rdFlight0S
  refine Transfers.Flight_mono countersEmb (Vt d L) ?_
  simp only [Memref.view_whole, View.write_whole_univ]
  exact Entails.refl _

/-- A write in flight out of the second buffer — the result's chunk under any spelling, the buffer lent holding the chunk's data — is the
    invariant's. -/
theorem wr_convS (fo : Buf (Elt F) (oLoc d)) (n : ℕ) (sm : SemLoc sig) (hsm : sm = wsem1) (fold : Buf (Elt F) ((b1).view.loc (Vt d L))) (w : S256x128.Idx → Elt F .f32) (hw : w = sData m d L (ch n))
    (P : sProp 𝕄) (hP : P = oPc d L (fun n => oNewS m d L fo (ch n)) n) :
    (Transfers.Flight countersEmb (Vt d L) sm (default : HIx 1) NB
        iprop(P ∗ ((b1).view.loc (Vt d L) ↦[(b1).view.set]{fullShare} (b1).view.write (Elt F) fold w Finset.univ)) : sProp 𝕄)
      ⊢ wrFlight1S m d L fo n := by
  subst hw hP hsm
  unfold wrFlight1S
  refine Transfers.Flight_mono countersEmb (Vt d L) ?_
  simp only [Memref.view_whole, View.write_whole_univ, View.set_whole]
  exact Entails.refl _

/-! ## The invariant opened before a middle trip, and closed after it -/

theorem invS_open_mid (fo : Buf (Elt F) (oLoc d)) (O : CellTallies nD τ sig (HIx 1)) (W : Waits sig (HIx 1)) (k : ℕ) (hk1 : 1 ≤ k) (hk3 : k < 3) :
    invS m d L fo O W k ⟨⟩ = iprop(Transfers.MayWaits (Vt d L) (none : HIx 1) O
      ∗ rdFlight0S m d L (2 * k) ∗ wrFlight1S m d L fo (2 * k - 1)
      ∗ semVal (Vt d L, rsem1) 0 ∗ semVal (Vt d L, wsem0) 0
      ∗ bigSep (Finset.Ico 0 (2 * k)) (sPc m d L) ∗ (sPc m d L (2 * k + 1) ∗ sPc m d L (2 * k + 1 + 1) ∗ bigSep (Finset.Ico (2 * k + 1 + 1 + 1) 8) (sPc m d L))
      ∗ bigSep (Finset.Ico 0 (2 * k - 1)) (oPc d L fun n => oNewS m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invS
  rw [if_pos (show k < 4 by omega), if_neg (show ¬ k = 0 by omega), ico_pop (show 2 * k < 8 by omega) (oPc d L fun _ => fo),
    ico_pop (show 2 * k + 1 < 8 by omega) (oPc d L fun _ => fo),
    ico_pop (show 2 * k + 1 < 8 by omega) (sPc m d L), ico_pop (show 2 * k + 1 + 1 < 8 by omega) (sPc m d L)]

theorem invS_close_mid (fo : Buf (Elt F) (oLoc d)) (O : CellTallies nD τ sig (HIx 1)) (W W'' : Waits sig (HIx 1)) (k : ℕ) (hk1 : 1 ≤ k) (hk3 : k < 3)
    (hW'' : ∀ p ∈ W'', p ∈ W ∨ p.2 = none) :
    iprop(Transfers.MayWaits (Vt d L) (none : HIx 1) O
      ∗ rdFlight0S m d L (2 * k + 1 + 1) ∗ wrFlight1S m d L fo (2 * k + 1)
      ∗ semVal (Vt d L, rsem1) 0 ∗ semVal (Vt d L, wsem0) 0
      ∗ (sPc m d L (2 * k + 1) ∗ sPc m d L (2 * k) ∗ bigSep (Finset.Ico 0 (2 * k)) (sPc m d L)) ∗ bigSep (Finset.Ico (2 * k + 1 + 1 + 1) 8) (sPc m d L)
      ∗ (oPc d L (fun n => oNewS m d L fo (ch n)) (2 * k) ∗ oPc d L (fun n => oNewS m d L fo (ch n)) (2 * k - 1)
          ∗ bigSep (Finset.Ico 0 (2 * k - 1)) (oPc d L fun n => oNewS m d L fo (ch n)))
      ∗ bigSep (Finset.Ico (2 * k + 1 + 1) 8) (oPc d L fun _ => fo)
      ∗ owes (Vt d L) O W'')
    ⊢ invS m d L fo O W (k + 1) ⟨⟩ := by
  unfold invS
  have e2 : 2 * (k + 1) = 2 * k + 1 + 1 := by omega
  have e1 : 2 * k + 1 + 1 - 1 = 2 * k + 1 := by omega
  have e0 : 2 * k = 2 * k - 1 + 1 := by omega
  rw [if_pos (show k + 1 < 4 by omega), if_neg (show ¬ k + 1 = 0 by omega), e2, e1,
    ico_push (Nat.zero_le _) (sPc m d L), ico_push (Nat.zero_le _) (sPc m d L),
    ico_push (Nat.zero_le _) (oPc d L fun n => oNewS m d L fo (ch n))]
  conv => rhs; rw [e0, ico_push (Nat.zero_le _) (oPc d L fun n => oNewS m d L fo (ch n)), ← e0]
  iintro ⟨Hmw, Hrd, Hwr, Hs3, Hs4, Hx, HxB, Ho, HoB, HO⟩
  isplitl [Hmw]; · iexact Hmw
  isplitl [Hrd]; · iexact Hrd
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

/-! ## The invariant opened before the first and the last trip -/

theorem invS_open_first (fo : Buf (Elt F) (oLoc d)) (O : CellTallies nD τ sig (HIx 1)) (W : Waits sig (HIx 1)) (k : ℕ) (hk0 : k = 0) :
    invS m d L fo O W k ⟨⟩ = iprop(Transfers.MayWaits (Vt d L) (none : HIx 1) O
      ∗ rdFlight0S m d L (2 * k) ∗ ((∃ f, (b1).view.loc (Vt d L) ↦{fullShare} f) ∗ semVal (Vt d L, wsem1) 0)
      ∗ semVal (Vt d L, rsem1) 0 ∗ semVal (Vt d L, wsem0) 0
      ∗ bigSep (Finset.Ico 0 (2 * k)) (sPc m d L) ∗ (sPc m d L (2 * k + 1) ∗ sPc m d L (2 * k + 1 + 1) ∗ bigSep (Finset.Ico (2 * k + 1 + 1 + 1) 8) (sPc m d L))
      ∗ bigSep (Finset.Ico 0 (2 * k - 1)) (oPc d L fun n => oNewS m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invS
  rw [if_pos (show k < 4 by omega), if_pos hk0, ico_pop (show 2 * k < 8 by omega) (oPc d L fun _ => fo),
    ico_pop (show 2 * k + 1 < 8 by omega) (oPc d L fun _ => fo),
    ico_pop (show 2 * k + 1 < 8 by omega) (sPc m d L), ico_pop (show 2 * k + 1 + 1 < 8 by omega) (sPc m d L)]

theorem invS_open_last (fo : Buf (Elt F) (oLoc d)) (O : CellTallies nD τ sig (HIx 1)) (W : Waits sig (HIx 1)) (k : ℕ) (hk3 : k = 3) :
    invS m d L fo O W k ⟨⟩ = iprop(Transfers.MayWaits (Vt d L) (none : HIx 1) O
      ∗ rdFlight0S m d L (2 * k) ∗ wrFlight1S m d L fo (2 * k - 1)
      ∗ semVal (Vt d L, rsem1) 0 ∗ semVal (Vt d L, wsem0) 0
      ∗ bigSep (Finset.Ico 0 (2 * k)) (sPc m d L) ∗ (sPc m d L (2 * k + 1) ∗ bigSep (Finset.Ico (2 * k + 1 + 1) 8) (sPc m d L))
      ∗ bigSep (Finset.Ico 0 (2 * k - 1)) (oPc d L fun n => oNewS m d L fo (ch n))
      ∗ (oPc d L (fun _ => fo) (2 * k) ∗ oPc d L (fun _ => fo) (2 * k + 1) ∗ bigSep (Finset.Ico (2 * k + 1 + 1) 8) (oPc d L fun _ => fo))
      ∗ ∃ W', ⌜∀ p ∈ W', p ∈ W ∨ p.2 = none⌝ ∗ owes (Vt d L) O W') := by
  unfold invS
  rw [if_pos (show k < 4 by omega), if_neg (show ¬ k = 0 by omega), ico_pop (show 2 * k < 8 by omega) (oPc d L fun _ => fo),
    ico_pop (show 2 * k + 1 < 8 by omega) (oPc d L fun _ => fo),
    ico_pop (show 2 * k + 1 < 8 by omega) (sPc m d L)]

theorem invS_close_first (fo : Buf (Elt F) (oLoc d)) (O : CellTallies nD τ sig (HIx 1)) (W W'' : Waits sig (HIx 1)) (k : ℕ) (hk0 : k = 0)
    (hW'' : ∀ p ∈ W'', p ∈ W ∨ p.2 = none) :
    iprop(Transfers.MayWaits (Vt d L) (none : HIx 1) O
      ∗ rdFlight0S m d L (2 * k + 1 + 1) ∗ wrFlight1S m d L fo (2 * k + 1)
      ∗ semVal (Vt d L, rsem1) 0 ∗ semVal (Vt d L, wsem0) 0
      ∗ (sPc m d L (2 * k + 1) ∗ sPc m d L (2 * k) ∗ bigSep (Finset.Ico 0 (2 * k)) (sPc m d L)) ∗ bigSep (Finset.Ico (2 * k + 1 + 1 + 1) 8) (sPc m d L)
      ∗ (oPc d L (fun n => oNewS m d L fo (ch n)) (2 * k) ∗ bigSep (Finset.Ico 0 (2 * k - 1)) (oPc d L fun n => oNewS m d L fo (ch n)))
      ∗ bigSep (Finset.Ico (2 * k + 1 + 1) 8) (oPc d L fun _ => fo)
      ∗ owes (Vt d L) O W'')
    ⊢ invS m d L fo O W (k + 1) ⟨⟩ := by
  unfold invS
  have e2 : 2 * (k + 1) = 2 * k + 1 + 1 := by omega
  have e1 : 2 * k + 1 + 1 - 1 = 2 * k + 1 := by omega
  have e0 : 2 * k - 1 = 2 * k := by omega
  rw [if_pos (show k + 1 < 4 by omega), if_neg (show ¬ k + 1 = 0 by omega), e2, e1, e0,
    ico_push (Nat.zero_le _) (sPc m d L), ico_push (Nat.zero_le _) (sPc m d L),
    ico_push (Nat.zero_le _) (oPc d L fun n => oNewS m d L fo (ch n))]
  iintro ⟨Hmw, Hrd, Hwr, Hs3, Hs4, Hx, HxB, Ho, HoB, HO⟩
  isplitl [Hmw]; · iexact Hmw
  isplitl [Hrd]; · iexact Hrd
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

theorem invS_close_last (fo : Buf (Elt F) (oLoc d)) (O : CellTallies nD τ sig (HIx 1)) (W W'' : Waits sig (HIx 1)) (k : ℕ) (hk3 : k = 3)
    (hW'' : ∀ p ∈ W'', p ∈ W ∨ p.2 = none) :
    iprop(Transfers.MayWaits (Vt d L) (none : HIx 1) O
      ∗ ((∃ f, (b0).view.loc (Vt d L) ↦{fullShare} f) ∗ semVal (Vt d L, rsem0) 0) ∗ wrFlight1S m d L fo (2 * k + 1)
      ∗ semVal (Vt d L, rsem1) 0 ∗ semVal (Vt d L, wsem0) 0
      ∗ (sPc m d L (2 * k + 1) ∗ sPc m d L (2 * k) ∗ bigSep (Finset.Ico 0 (2 * k)) (sPc m d L)) ∗ bigSep (Finset.Ico (2 * k + 1 + 1) 8) (sPc m d L)
      ∗ (oPc d L (fun n => oNewS m d L fo (ch n)) (2 * k) ∗ oPc d L (fun n => oNewS m d L fo (ch n)) (2 * k - 1)
          ∗ bigSep (Finset.Ico 0 (2 * k - 1)) (oPc d L fun n => oNewS m d L fo (ch n)))
      ∗ bigSep (Finset.Ico (2 * k + 1 + 1) 8) (oPc d L fun _ => fo)
      ∗ owes (Vt d L) O W'')
    ⊢ invS m d L fo O W (k + 1) ⟨⟩ := by
  unfold invS
  have e2 : 2 * (k + 1) = 2 * k + 1 + 1 := by omega
  have e1 : 2 * k + 1 + 1 - 1 = 2 * k + 1 := by omega
  have e0 : 2 * k = 2 * k - 1 + 1 := by omega
  rw [if_neg (show ¬ k + 1 < 4 by omega), if_neg (show ¬ k + 1 = 0 by omega), e2, e1,
    ico_push (Nat.zero_le _) (sPc m d L), ico_push (Nat.zero_le _) (sPc m d L),
    ico_push (Nat.zero_le _) (oPc d L fun n => oNewS m d L fo (ch n)),
    Finset.Ico_eq_empty_of_le (show 8 ≤ 2 * k + 1 + 1 + 1 by omega), Finset.Ico_eq_empty_of_le (show 8 ≤ 2 * k + 1 + 1 by omega)]
  conv => rhs; rw [e0, ico_push (Nat.zero_le _) (oPc d L fun n => oNewS m d L fo (ch n)), ← e0]
  iintro ⟨Hmw, Hb0, Hwr, Hs3, Hs4, Hx, HxB, Ho, HoB, HO⟩
  isplitl [Hmw]; · iexact Hmw
  isplitl [Hb0]; · iexact Hb0
  isplitl [Hwr]; · iexact Hwr
  isplitl [Hs3]; · iexact Hs3
  isplitl [Hs4]; · iexact Hs4
  isplitl [Hx]; · iexact Hx
  isplitl [HxB]; · iexact HxB
  isplitl [Ho]; · iexact Ho
  isplitl [HoB]; · iexact HoB
  iexists W''; isplitr
  · ipureintro; exact hW''
  · iexact HO

/-- A middle trip (1 ≤ k < 3) of the chunk loop, block 0: the read of chunk 2k lands and is written out, the write of chunk
    2k - 1 completes and the second buffer takes chunk 2k + 1, which is written out in turn; the write of chunk 2k completes
    and the first buffer takes chunk 2k + 2. -/
theorem tripS_mid (hb : blk L = 0) (fo : Buf (Elt F) (oLoc d)) (O : CellTallies nD τ sig (HIx 1)) (W : Waits sig (HIx 1))
    (k : Fin k1_t1_loop.trips) (hk1 : 1 ≤ k.val) (hk3 : k.val < 3) (v18 v29 : BitVec 32) :
    invS m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invS m d L fo O W (k.val + 1)) := by
  have k1_h3 : k1_cond3 k = 1#1 := (cond3_iff k).mpr hk1
  have k1_h4 : k1_cond4 k = 1#1 := cond4_all k
  have k1_h5 : k1_cond5 L = 1#1 := (cond5_iff L).mpr hb
  have k1_h6 : ¬ k1_cond6 L = 1#1 := fun h => (cond6_iff L).mp h hb
  have k1_h7 : k1_cond7 k = 1#1 := cond7_all k
  have k1_h8 : k1_cond8 k = 1#1 := (cond8_iff k).mpr hk3
  have k1_h9 : k1_cond9 L = 1#1 := (cond9_iff L).mpr hb
  have k1_h10 : ¬ k1_cond10 L = 1#1 := fun h => (cond10_iff L).mp h hb
  unfold k1_t1_body
  simp only [k1_part1_eq_skeleton]; unfold k1_part1_skel
  -- the chunks this trip issues on, each as the program spells it at that site
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have q5 : k1_off5 L k = srcOff L (ch (2 * k.val + 1)).val := by rw [off5_eq, ch_val (by omega)]
  have q8 : k1_off8 L k = srcOff L (ch (2 * k.val + 1 + 1)).val := by rw [off8_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := sPc_spell m d L (2 * k.val + 1) q5 (k1_off5_inb L k k1_h4 k1_h5) (fun _ => rfl)
  have eX2 := sPc_spell m d L (2 * k.val + 1 + 1) q8 (k1_off8_inb L k k1_h8 k1_h9) (fun _ => rfl)
  rw [invS_open_mid m d L fo O W k.val hk1 hk3]
  unfold rdFlight0S wrFlight1S
  iintro ⟨#Hmw, Hrd, Hwr, Hs3, Hs4, HxA, ⟨Hx1, Hx2, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  ihave Hx2 := (Entails.of_eq eX2) $$ Hx2
  sl_exec
  sl_step
  -- the data each transfer carried, under its canonical name
  have d0 : tripS_mid.sl.dma0 m d L k = sData m d L (ch (2 * k.val)) := rfl
  have d1 : tripS_mid.sl.dma0_1 m d L k k1_h4 k1_h5 = sData m d L (ch (2 * k.val + 1)) :=
    (sData_spell m d L (2 * k.val + 1) q5 (k1_off5_inb L k k1_h4 k1_h5) (fun _ => rfl)).symm
  have d2 : tripS_mid.sl.dma0_2 m d L k k1_h4 k1_h5 = sData m d L (ch (2 * k.val + 1)) := by
    unfold tripS_mid.sl.dma0_2
    simp only [Memref.view_whole, View.write_whole_univ, View.read_whole, ReadAs.apply_same]
    exact d1
  have d3 : tripS_mid.sl.dma0_3 m d L k k1_h8 k1_h9 = sData m d L (ch (2 * k.val + 1 + 1)) :=
    (sData_spell m d L (2 * k.val + 1 + 1) q8 (k1_off8_inb L k k1_h8 k1_h9) (fun _ => rfl)).symm
  iapply (invS_close_mid m d L fo O W _ k.val hk1 hk3 ?hW)
  rotate_left
  isplitl [Hmw]; · iexact Hmw
  isplitl [Hrd]
  · iapply (rd_convS m d L (2 * k.val + 1 + 1) _ rfl _ _ d3 _ eX2.symm); iexact Hrd
  isplitl [Hwr]
  · iapply (wr_convS m d L fo (2 * k.val + 1) _ rfl _ _ d1 _
      (oDoneS_spell m d L fo (2 * k.val + 1) c1 (k1_off3_inb L k 1) (fun _ => rfl) _ d2).symm); iexact Hwr
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 Hwr_dst HoA]
  · isplitl [Ho0]
    · iapply (Entails.of_eq (oDoneS_spell m d L fo (2 * k.val) c0 (k1_off3_inb L k 0) (fun _ => rfl) _ d0).symm); iexact Ho0
    isplitl [Hwr_dst]; · iexact Hwr_dst
    iexact HoA
  isplitl [HoB]; · iexact HoB
  iexact HO
  case hW =>
    intro p hp
    simp only [Finset.mem_insert] at hp
    rcases hp with rfl | rfl | rfl | rfl | hp
    · exact .inr rfl
    · exact .inr rfl
    · exact .inr rfl
    · exact .inr rfl
    · exact hW' p hp

/-- The first trip (k = 0): as a middle trip, but no earlier write is waited for — the second buffer is idle. -/
theorem tripS_first (hb : blk L = 0) (fo : Buf (Elt F) (oLoc d)) (O : CellTallies nD τ sig (HIx 1)) (W : Waits sig (HIx 1))
    (k : Fin k1_t1_loop.trips) (hk0 : k.val = 0) (v18 v29 : BitVec 32) :
    invS m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invS m d L fo O W (k.val + 1)) := by
  have k1_h3 : ¬ k1_cond3 k = 1#1 := fun h => by have := (cond3_iff k).mp h; omega
  have k1_h4 : k1_cond4 k = 1#1 := cond4_all k
  have k1_h5 : k1_cond5 L = 1#1 := (cond5_iff L).mpr hb
  have k1_h6 : ¬ k1_cond6 L = 1#1 := fun h => (cond6_iff L).mp h hb
  have k1_h7 : k1_cond7 k = 1#1 := cond7_all k
  have k1_h8 : k1_cond8 k = 1#1 := (cond8_iff k).mpr (by omega)
  have k1_h9 : k1_cond9 L = 1#1 := (cond9_iff L).mpr hb
  have k1_h10 : ¬ k1_cond10 L = 1#1 := fun h => (cond10_iff L).mp h hb
  unfold k1_t1_body
  simp only [k1_part1_eq_skeleton]; unfold k1_part1_skel
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have q5 : k1_off5 L k = srcOff L (ch (2 * k.val + 1)).val := by rw [off5_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := sPc_spell m d L (2 * k.val + 1) q5 (k1_off5_inb L k k1_h4 k1_h5) (fun _ => rfl)
  have q8 : k1_off8 L k = srcOff L (ch (2 * k.val + 1 + 1)).val := by rw [off8_eq, ch_val (by omega)]
  have eX2 := sPc_spell m d L (2 * k.val + 1 + 1) q8 (k1_off8_inb L k k1_h8 k1_h9) (fun _ => rfl)
  rw [invS_open_first m d L fo O W k.val hk0]
  unfold rdFlight0S
  iintro ⟨#Hmw, Hrd, ⟨⟨%fb1, Hb1⟩, Hs5⟩, Hs3, Hs4, HxA, ⟨Hx1, Hx2, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  ihave Hx2 := (Entails.of_eq eX2) $$ Hx2
  sl_exec
  sl_step
  have d0 : tripS_first.sl.dma0 m d L k = sData m d L (ch (2 * k.val)) := rfl
  have d1 : tripS_first.sl.dma0_1 m d L k k1_h4 k1_h5 = sData m d L (ch (2 * k.val + 1)) :=
    (sData_spell m d L (2 * k.val + 1) q5 (k1_off5_inb L k k1_h4 k1_h5) (fun _ => rfl)).symm
  have d2 : tripS_first.sl.dma0_2 m d L k k1_h4 k1_h5 fb1 = sData m d L (ch (2 * k.val + 1)) := by
    unfold tripS_first.sl.dma0_2
    simp only [Memref.view_whole, View.write_whole_univ, View.read_whole, ReadAs.apply_same]
    exact d1
  have d3 : tripS_first.sl.dma0_3 m d L k k1_h8 k1_h9 = sData m d L (ch (2 * k.val + 1 + 1)) :=
    (sData_spell m d L (2 * k.val + 1 + 1) q8 (k1_off8_inb L k k1_h8 k1_h9) (fun _ => rfl)).symm
  iapply (invS_close_first m d L fo O W _ k.val hk0 ?hW)
  rotate_left
  isplitl [Hmw]; · iexact Hmw
  isplitl [Hrd]
  · iapply (rd_convS m d L (2 * k.val + 1 + 1) _ rfl _ _ d3 _ eX2.symm); iexact Hrd
  isplitl [Hs5]
  · iapply (wr_convS m d L fo (2 * k.val + 1) _ rfl _ _ d1 _
      (oDoneS_spell m d L fo (2 * k.val + 1) c1 (k1_off3_inb L k 1) (fun _ => rfl) _ d2).symm); iexact Hs5
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 HoA]
  · isplitl [Ho0]
    · iapply (Entails.of_eq (oDoneS_spell m d L fo (2 * k.val) c0 (k1_off3_inb L k 0) (fun _ => rfl) _ d0).symm); iexact Ho0
    iexact HoA
  isplitl [HoB]; · iexact HoB
  iexact HO
  intro p hp
  simp only [Finset.mem_insert] at hp
  rcases hp with rfl | rfl | rfl | hp
  · exact .inr rfl
  · exact .inr rfl
  · exact .inr rfl
  · exact hW' p hp

/-- The last trip (k = 3): as a middle trip, but no further read is started — the first buffer ends idle. -/
theorem tripS_last (hb : blk L = 0) (fo : Buf (Elt F) (oLoc d)) (O : CellTallies nD τ sig (HIx 1)) (W : Waits sig (HIx 1))
    (k : Fin k1_t1_loop.trips) (hk3 : k.val = 3) (v18 v29 : BitVec 32) :
    invS m d L fo O W k.val ⟨⟩
      ⊢ wp frame (wpE (defs₀ (F := F)) 𝒱₀ (Vt d L) none) Set.univ
          (k1_t1_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5 v18 v29 k ⟨⟩)
          (invS m d L fo O W (k.val + 1)) := by
  have k1_h3 : k1_cond3 k = 1#1 := (cond3_iff k).mpr (by omega)
  have k1_h4 : k1_cond4 k = 1#1 := cond4_all k
  have k1_h5 : k1_cond5 L = 1#1 := (cond5_iff L).mpr hb
  have k1_h6 : ¬ k1_cond6 L = 1#1 := fun h => (cond6_iff L).mp h hb
  have k1_h7 : k1_cond7 k = 1#1 := cond7_all k
  have k1_h8 : ¬ k1_cond8 k = 1#1 := fun h => by have := (cond8_iff k).mp h; omega
  have k1_h9 : k1_cond9 L = 1#1 := (cond9_iff L).mpr hb
  have k1_h10 : ¬ k1_cond10 L = 1#1 := fun h => (cond10_iff L).mp h hb
  unfold k1_t1_body
  simp only [k1_part1_eq_skeleton]; unfold k1_part1_skel
  have c0 : k1_off3 L k 0#32 = chunkOff L (ch (2 * k.val)).val := by rw [off3_eq0, ch_val (by omega)]
  have c1 : k1_off3 L k 1#32 = chunkOff L (ch (2 * k.val + 1)).val := by rw [off3_eq1, ch_val (by omega)]
  have q5 : k1_off5 L k = srcOff L (ch (2 * k.val + 1)).val := by rw [off5_eq, ch_val (by omega)]
  have eO0 := oPc_spell d L (fun _ => fo) (2 * k.val) c0 (k1_off3_inb L k 0) (fun _ => rfl)
  have eO1 := oPc_spell d L (fun _ => fo) (2 * k.val + 1) c1 (k1_off3_inb L k 1) (fun _ => rfl)
  have eX1 := sPc_spell m d L (2 * k.val + 1) q5 (k1_off5_inb L k k1_h4 k1_h5) (fun _ => rfl)
  rw [invS_open_last m d L fo O W k.val hk3]
  unfold rdFlight0S wrFlight1S
  iintro ⟨#Hmw, Hrd, Hwr, Hs3, Hs4, HxA, ⟨Hx1, HxB⟩, HoA, ⟨Ho0, Ho1, HoB⟩, %W', %hW', HO⟩
  ihave Ho0 := (Entails.of_eq eO0) $$ Ho0
  ihave Ho1 := (Entails.of_eq eO1) $$ Ho1
  ihave Hx1 := (Entails.of_eq eX1) $$ Hx1
  sl_exec
  sl_step
  have d0 : tripS_last.sl.dma0 m d L k = sData m d L (ch (2 * k.val)) := rfl
  have d1 : tripS_last.sl.dma0_1 m d L k k1_h4 k1_h5 = sData m d L (ch (2 * k.val + 1)) :=
    (sData_spell m d L (2 * k.val + 1) q5 (k1_off5_inb L k k1_h4 k1_h5) (fun _ => rfl)).symm
  have d2 : tripS_last.sl.dma0_2 m d L k k1_h4 k1_h5 = sData m d L (ch (2 * k.val + 1)) := by
    unfold tripS_last.sl.dma0_2
    simp only [Memref.view_whole, View.write_whole_univ, View.read_whole, ReadAs.apply_same]
    exact d1
  iapply (invS_close_last m d L fo O W _ k.val hk3 ?hW)
  rotate_left
  isplitl [Hmw]; · iexact Hmw
  isplitl [Hrd_dst Hrd]
  · isplitl [Hrd_dst]; · iexists _; iexact Hrd_dst
    iexact Hrd
  isplitl [Hwr]
  · iapply (wr_convS m d L fo (2 * k.val + 1) _ rfl _ _ d1 _
      (oDoneS_spell m d L fo (2 * k.val + 1) c1 (k1_off3_inb L k 1) (fun _ => rfl) _ d2).symm); iexact Hwr
  isplitl [Hs3]; · iexact Hs3
  isplitl [Hs4]; · iexact Hs4
  isplitl [Hx1 Hrd_src HxA]
  · isplitl [Hx1]; · iapply (Entails.of_eq eX1.symm); iexact Hx1
    isplitl [Hrd_src]; · iexact Hrd_src
    iexact HxA
  isplitl [HxB]; · iexact HxB
  isplitl [Ho0 Hwr_dst HoA]
  · isplitl [Ho0]
    · iapply (Entails.of_eq (oDoneS_spell m d L fo (2 * k.val) c0 (k1_off3_inb L k 0) (fun _ => rfl) _ d0).symm); iexact Ho0
    isplitl [Hwr_dst]; · iexact Hwr_dst
    iexact HoA
  isplitl [HoB]; · iexact HoB
  iexact HO
  intro p hp
  simp only [Finset.mem_insert] at hp
  rcases hp with rfl | rfl | rfl | rfl | hp
  · exact .inr rfl
  · exact .inr rfl
  · exact .inr rfl
  · exact .inr rfl
  · exact hW' p hp

/-! ## The invariant at the loop's entry and exit -/

theorem invS_init (fo : Buf (Elt F) (oLoc d)) (O : CellTallies nD τ sig (HIx 1)) (W : Waits sig (HIx 1)) :
    iprop(Transfers.MayWaits (Vt d L) (none : HIx 1) O
      ∗ rdFlight0S m d L 0 ∗ (∃ f, (b1).view.loc (Vt d L) ↦{fullShare} f) ∗ semVal (Vt d L, wsem1) 0
      ∗ semVal (Vt d L, rsem1) 0 ∗ semVal (Vt d L, wsem0) 0
      ∗ bigSep (Finset.Ico 1 8) (sPc m d L) ∗ bigSep (Finset.Ico 0 8) (oPc d L fun _ => fo)
      ∗ owes (Vt d L) O W)
    ⊢ invS m d L fo O W 0 ⟨⟩ := by
  unfold invS
  rw [if_pos (show 0 < 4 by omega), if_pos rfl]
  iintro ⟨Hmw, Hrd, Hb1, Hs5, Hs3, Hs4, HxB, HoB, HO⟩
  isplitl [Hmw]; · iexact Hmw
  isplitl [Hrd]; · iexact Hrd
  isplitl [Hb1 Hs5]
  · isplitl [Hb1]; · iexact Hb1
    iexact Hs5
  isplitl [Hs3]; · iexact Hs3
  isplitl [Hs4]; · iexact Hs4
  isplitr
  · rw [show Finset.Ico 0 (2 * 0) = (∅ : Finset ℕ) from rfl, bigSep_empty]; iempintro
  isplitl [HxB]; · iexact HxB
  isplitr
  · rw [show Finset.Ico 0 (2 * 0 - 1) = (∅ : Finset ℕ) from rfl, bigSep_empty]; iempintro
  isplitl [HoB]; · iexact HoB
  iexists W; isplitr
  · ipureintro; exact fun p hp => .inl hp
  · iexact HO

theorem invS_exit (fo : Buf (Elt F) (oLoc d)) (O : CellTallies nD τ sig (HIx 1)) (W : Waits sig (HIx 1)) (n : ℕ) (hn : n = 4) (acc : PUnit) :
    invS m d L fo O W n acc
    ⊢ iprop(((∃ f, (b0).view.loc (Vt d L) ↦{fullShare} f) ∗ semVal (Vt d L, rsem0) 0) ∗ wrFlight1S m d L fo 7
      ∗ semVal (Vt d L, rsem1) 0 ∗ semVal (Vt d L, wsem0) 0
      ∗ bigSep (Finset.Ico 0 8) (sPc m d L) ∗ bigSep (Finset.Ico 0 7) (oPc d L fun n => oNewS m d L fo (ch n))
      ∗ ∃ W', ⌜∀ p ∈ W', p ∈ W ∨ p.2 = none⌝ ∗ owes (Vt d L) O W') := by
  subst hn
  unfold invS
  rw [if_neg (show ¬ 4 < 4 by omega), if_neg (show ¬ 4 = 0 by omega)]
  iintro ⟨-, Hb0, Hwr, Hs3, Hs4, HxA, -, HoA, -, HO⟩
  isplitl [Hb0]; · iexact Hb0
  isplitl [Hwr]; · iexact Hwr
  isplitl [Hs3]; · iexact Hs3
  isplitl [Hs4]; · iexact Hs4
  isplitl [HxA]; · iexact HxA
  isplitl [HoA]; · iexact HoA
  iexact HO

theorem doneS_all (fo : Buf (Elt F) (oLoc d)) :
    iprop(oPc d L (fun n => oNewS m d L fo (ch n)) 7 ∗ bigSep (Finset.Ico 0 7) (oPc d L fun n => oNewS m d L fo (ch n)))
      ⊢ (bigSep (Finset.Ico 0 8) (oPc d L fun n => oNewS m d L fo (ch n)) : sProp 𝕄) := by
  exact Entails.of_eq (ico_push (a := 0) (b := 7) (Nat.zero_le _) (oPc d L fun n => oNewS m d L fo (ch n))).symm

/-! ## The whole task, block 0 -/

/-- What the task starts from: its eight chunks of `src` at their launch contents, its eight chunks of the result at `fo`, the two
    staging buffers at anything, its four semaphores at zero; and what it ends with: the same, the result's chunks written. -/
def tilePreS (fo : Buf (Elt F) (oLoc d)) (O : CellTallies nD τ sig (HIx 1)) (W : Waits sig (HIx 1)) : sProp 𝕄 :=
  iprop(Transfers.MayWaits (Vt d L) (none : HIx 1) O
    ∗ bigSep (Finset.Ico 0 8) (sPc m d L) ∗ bigSep (Finset.Ico 0 8) (oPc d L fun _ => fo)
    ∗ (∃ f, (b0).view.loc (Vt d L) ↦{fullShare} f) ∗ (∃ f, (b1).view.loc (Vt d L) ↦{fullShare} f)
    ∗ semVal (Vt d L, rsem0) 0 ∗ semVal (Vt d L, rsem1) 0 ∗ semVal (Vt d L, wsem0) 0 ∗ semVal (Vt d L, wsem1) 0
    ∗ owes (Vt d L) O W)
def tilePostS (fo : Buf (Elt F) (oLoc d)) (O : CellTallies nD τ sig (HIx 1)) (W : Waits sig (HIx 1)) : sProp 𝕄 :=
  iprop(bigSep (Finset.Ico 0 8) (sPc m d L) ∗ bigSep (Finset.Ico 0 8) (oPc d L fun n => oNewS m d L fo (ch n))
    ∗ (∃ f, (b0).view.loc (Vt d L) ↦{fullShare} f) ∗ (∃ f, (b1).view.loc (Vt d L) ↦{fullShare} f)
    ∗ semVal (Vt d L, rsem0) 0 ∗ semVal (Vt d L, rsem1) 0 ∗ semVal (Vt d L, wsem0) 0 ∗ semVal (Vt d L, wsem1) 0
    ∗ ∃ W', ⌜∀ p ∈ W', p ∈ W ∨ p.2 = none⌝ ∗ owes (Vt d L) O W')

theorem tile_body_s (hb : blk L = 0) (fo : Buf (Elt F) (oLoc d)) (O : CellTallies nD τ sig (HIx 1)) (W : Waits sig (HIx 1)) :
    tilePreS m d L fo O W
      ⊢ wp frame (wpE (defs₀ (F := F)) 𝒱₀ (Vt d L) none) Set.univ
          (cc1__sc_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5)
          fun _ => tilePostS m d L fo O W := by
  have k1_h1 : k1_cond1 L = 1#1 := (cond1_iff L).mpr hb
  have k1_h2 : ¬ k1_cond2 L = 1#1 := fun h => (cond2_iff L).mp h hb
  simp only [cc1__sc_body_eq_skeleton]; unfold cc1__sc_body_skel
  simp only [k1_part2_eq_skeleton]; unfold k1_part2_skel
  have q1 : k1_off1 L = srcOff L (ch 0).val := by rw [off1_eq]
  have eX0 := sPc_spell m d L 0 q1 (k1_off1_inb L k1_h1) (fun _ => rfl)
  unfold tilePreS
  rw [ico_pop (show 0 < 8 by omega) (sPc m d L)]
  iintro ⟨#Hmw, ⟨Hx0, HxB⟩, HoB, ⟨%fb0, Hb0⟩, Hb1, Hs2, Hs3, Hs4, Hs5, HO⟩
  ihave Hx0 := (Entails.of_eq eX0) $$ Hx0
  sl_exec
  have d0 : tile_body_s.sl.dma0 m d L k1_h1 = sData m d L (ch 0) :=
    (sData_spell m d L 0 q1 (k1_off1_inb L k1_h1) (fun _ => rfl)).symm
  sl_for (invS m d L fo O W) $$ [Hmw Hs2 Hb1 Hs5 Hs3 Hs4 HxB HoB HO]
  case region =>
    intro k acc
    by_cases hk0 : k.val = 0
    · exact tripS_first m d L hb fo O W k hk0 _ _
    · by_cases hk3 : k.val = 3
      · exact tripS_last m d L hb fo O W k hk3 _ _
      · have hk4 : k.val < 4 := Nat.lt_of_lt_of_le k.isLt k1_t1_abs.2.1
        exact tripS_mid m d L hb fo O W k (by omega) (by omega) _ _
  · iapply (invS_init m d L fo O W)
    isplitl [Hmw]; · iexact Hmw
    isplitl [Hs2]
    · iapply (rd_convS m d L 0 _ rfl _ _ d0 _ eX0.symm); iexact Hs2
    isplitl [Hb1]; · iexact Hb1
    isplitl [Hs5]; · iexact Hs5
    isplitl [Hs3]; · iexact Hs3
    isplitl [Hs4]; · iexact Hs4
    isplitl [HxB]; · iexact HxB
    isplitl [HoB]; · iexact HoB
    iexact HO
  iintro %acc HI
  ihave HI := (invS_exit m d L fo O W _ (by decide) acc) $$ HI
  icases HI with ⟨⟨⟨%fb0', Hb0⟩, Hs2⟩, Hwr, Hs3, Hs4, HxA, HoA, %W', %hW', HO⟩
  unfold wrFlight1S
  sl_exec
  sl_step
  unfold tilePostS
  isplitl [HxA]; · iexact HxA
  isplitl [Hwr_dst HoA]
  · iapply (doneS_all m d L fo)
    isplitl [Hwr_dst]; · iexact Hwr_dst
    iexact HoA
  isplitl [Hb0]; · iexists _; iexact Hb0
  isplitl [Hwr_src]; · iexists _; iexact Hwr_src
  isplitl [Hs2]; · iexact Hs2
  isplitl [Hs3]; · iexact Hs3
  isplitl [Hs4]; · iexact Hs4
  isplitl [Hwr]; · iexact Hwr
  iexists (insert (wsem1, (default : HIx 1)) W'); isplitr
  · ipureintro
    intro p hp
    rcases Finset.mem_insert.mp hp with rfl | hp
    · exact .inr rfl
    · exact hW' p hp
  · iexact HO

end Tile
end Cert.Proof.KB
end
-- ==== Proof.KBObl.lean ====
/-
  The launch theorem's obligations for the vector subcores. What the go handshake hands a subcore is its task's share — its
  eight chunks of `src` (block 0) or of `x` (blocks 1..3) and its eight chunks of the result —, what its taskDone hands back
  the same with the result's chunks written. A SparseCore is handed the sixteen shares of its subcores, so its split among
  them is the identity. The subcore's scoped storage, which travels with the handshakes, is its two staging buffers and
  its four transfer semaphores, and whatever else it owns.
-/
import proofs.«202537_g10033043603743_week1_w1_89_23_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_arg0_scv : Memref Cert.Kernel.sig Kind.scVector Space.hbm Cert.Kernel.S32x16384x128 EltTy.f32)
local notation "sW" => (Memref.whole Cert.Kernel.main_arg1_scv : Memref Cert.Kernel.sig Kind.scVector Space.hbm Cert.Kernel.S16384x128 EltTy.f32)
local notation "oW" => (Memref.whole Cert.Kernel.main_v1_scv : Memref Cert.Kernel.sig Kind.scVector Space.hbm Cert.Kernel.S32x16384x128 EltTy.f32)
local notation "b0" => (Memref.whole Cert.Kernel.cc1_scratch0 : Memref Cert.Kernel.sig Kind.scVector Space.vmem Cert.Kernel.S256x128 EltTy.f32)
local notation "b1" => (Memref.whole Cert.Kernel.cc1_scratch1 : Memref Cert.Kernel.sig Kind.scVector Space.vmem Cert.Kernel.S256x128 EltTy.f32)

section Obl

variable [FloatOps F] (m : (ℓ : Loc nD τ sig) → Buf (Elt F) ℓ) (fo : (d : Dev nD) → Buf (Elt F) (oLoc d))

/-- The grid point of subcore `s` of SparseCore `c`. -/
abbrev coordsV (c : Fin (grid1.bound 0)) (s : Fin (grid1.bound 1)) : grid1.Coords :=
  fun | 0 => c | 1 => s | ⟨_ + 2, h⟩ => absurd h (Nat.not_lt.2 (Nat.le_add_left _ _))

/-- A task's share at its start and at its end. -/
def tileGo (d : Dev nD) (L : grid1.Coords) : sProp 𝕄 :=
  iprop((if blk L = 0 then bigSep (Finset.Ico 0 8) (sPc m d L) else bigSep (Finset.Ico 0 8) (xPc m d L))
    ∗ bigSep (Finset.Ico 0 8) (oPc d L fun _ => fo d))
def tileTd (d : Dev nD) (L : grid1.Coords) : sProp 𝕄 :=
  iprop((if blk L = 0 then bigSep (Finset.Ico 0 8) (sPc m d L) else bigSep (Finset.Ico 0 8) (xPc m d L))
    ∗ (if blk L = 0 then bigSep (Finset.Ico 0 8) (oPc d L fun n => oNewS m d L (fo d) (ch n))
        else bigSep (Finset.Ico 0 8) (oPc d L fun n => oNew m d L (fo d) (ch n))))

/-! ## The subcore's scoped storage -/

abbrev g0 (d : Dev nD) (L : grid1.Coords) : GSem nD τ sig := (Vt d L, rsem0)
abbrev g1 (d : Dev nD) (L : grid1.Coords) : GSem nD τ sig := (Vt d L, rsem1)
abbrev g2 (d : Dev nD) (L : grid1.Coords) : GSem nD τ sig := (Vt d L, wsem0)
abbrev g3 (d : Dev nD) (L : grid1.Coords) : GSem nD τ sig := (Vt d L, wsem1)

omit [FloatOps F] in
theorem mem_own (d : Dev nD) (L : grid1.Coords) (sm : DmaSem sig) (h : (SemLoc.dma sm : SemLoc sig).isScoped .scVector = true) :
    ((Vt d L, SemLoc.dma sm) : GSem nD τ sig) ∈ ownCells (Vt d L) := (mem_ownCells (g := (Vt d L, SemLoc.dma sm))).mpr ⟨rfl, h⟩

omit [FloatOps F] in
theorem ownSems0_V (d : Dev nD) (L : grid1.Coords) :
    (ownSems0 (Vt d L) : sProp 𝕄)
      = iprop(semVal (g0 d L) 0 ∗ semVal (g1 d L) 0 ∗ semVal (g2 d L) 0 ∗ semVal (g3 d L) 0
          ∗ bigSep (((((ownCells (Vt d L)).erase (g0 d L)).erase (g1 d L)).erase (g2 d L)).erase (g3 d L)) fun g => semVal g 0) := by
  unfold SparseCore.Cfg.ownSems0
  have n10 : g1 d L ≠ g0 d L := by simp [g0, g1]; decide
  have n20 : g2 d L ≠ g0 d L := by simp [g0, g2]; decide
  have n21 : g2 d L ≠ g1 d L := by simp [g1, g2]; decide
  have n30 : g3 d L ≠ g0 d L := by simp [g0, g3]; decide
  have n31 : g3 d L ≠ g1 d L := by simp [g1, g3]; decide
  have n32 : g3 d L ≠ g2 d L := by simp [g2, g3]; decide
  rw [SparseCore.bigSep_erase' (mem_own d L cc1_scratch2.sem (by decide)),
    SparseCore.bigSep_erase' (Finset.mem_erase.mpr ⟨n10, mem_own d L cc1_scratch3.sem (by decide)⟩),
    SparseCore.bigSep_erase' (Finset.mem_erase.mpr ⟨n21, Finset.mem_erase.mpr ⟨n20, mem_own d L cc1_scratch4.sem (by decide)⟩⟩),
    SparseCore.bigSep_erase' (Finset.mem_erase.mpr ⟨n32, Finset.mem_erase.mpr ⟨n31, Finset.mem_erase.mpr ⟨n30, mem_own d L cc1_scratch5.sem (by decide)⟩⟩⟩)]

omit [FloatOps F] in
theorem ownBufs_V (d : Dev nD) (L : grid1.Coords) :
    (ownBufs (Vt d L) : sProp 𝕄)
      = iprop((∃ f, (Vt d L).loc cc1_scratch0 ↦{fullShare} f) ∗ (∃ f, (Vt d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The task from its share to its share -/

theorem tile_task (hF : (K (F := F)).Facts) (d : Dev nD) (L : grid1.Coords) (O : CellTallies nD τ sig (HIx 1)) (W : Waits sig (HIx 1)) (hO : ∀ g, O g none = 0) :
    (iprop(levAts (K (F := F)).L (K (F := F)).lev ∗ emp ∗ tileGo m fo d L ∗ scopedBufs (Vt d L) ∗ scopedSems0 (Vt d L) ∗ owes (Vt d L) O W) : sProp 𝕄)
      ⊢ wp frame (wpE (defs₀ (F := F)) 𝒱₀ (Vt d L) none) Set.univ
          (cc1__sc_body L xW (Memref.isWhole_whole _) sW (Memref.isWhole_whole _) oW (Memref.isWhole_whole _) oW (Memref.isWhole_whole _)
            b0 (Memref.isWhole_whole _) b1 (Memref.isWhole_whole _) cc1_scratch2 cc1_scratch3 cc1_scratch4 cc1_scratch5)
          fun _ => iprop(tileTd m fo d L ∗ scopedBufs (Vt d L) ∗ scopedSems0 (Vt d L)
            ∗ ∃ W', ⌜∀ p ∈ W', p ∈ W ∨ p.2 = none⌝ ∗ owes (Vt d L) O W') := by
  rw [(K (F := F)).scopedBufs_V hF d (cV L) (jV L), SparseCore.Cfg.scopedSems0_V (Val := Elt F) d (cV L) (jV L), ownSems0_V, ownBufs_V]
  unfold tileGo tileTd
  by_cases hb : blk L = 0
  · rw [if_pos hb, if_pos hb]
    iintro ⟨#Hlv, -, ⟨Hs, Ho⟩, ⟨Hb0, Hb1, Hbufs⟩, ⟨Hs2, Hs3, Hs4, Hs5, Hsems⟩, HO⟩
    ihave Hmw := ((K (F := F)).mayWaits_none (thr := Vt d L) hO) $$ Hlv
    iapply (wp_wand_r frame _ _)
    isplitl [Hmw Hs Ho Hb0 Hb1 Hs2 Hs3 Hs4 Hs5 HO]
    · iapply (tile_body_s m d L hb (fo d) O W)
      unfold tilePreS
      isplitl [Hmw]; · iexact Hmw
      isplitl [Hs]; · iexact Hs
      isplitl [Ho]; · iexact Ho
      isplitl [Hb0]; · iexact Hb0
      isplitl [Hb1]; · iexact Hb1
      isplitl [Hs2]; · iexact Hs2
      isplitl [Hs3]; · iexact Hs3
      isplitl [Hs4]; · iexact Hs4
      isplitl [Hs5]; · iexact Hs5
      iexact HO
    · iintro %_ Hpost
      unfold tilePostS
      icases Hpost with ⟨Hs, Ho, Hb0, Hb1, Hs2, Hs3, Hs4, Hs5, HO⟩
      isplitl [Hs Ho]
      · isplitl [Hs]; · iexact Hs
        iexact Ho
      isplitl [Hb0 Hb1 Hbufs]
      · isplitl [Hb0]; · iexact Hb0
        isplitl [Hb1]; · iexact Hb1
        iexact Hbufs
      isplitl [Hs2 Hs3 Hs4 Hs5 Hsems]
      · isplitl [Hs2]; · iexact Hs2
        isplitl [Hs3]; · iexact Hs3
        isplitl [Hs4]; · iexact Hs4
        isplitl [Hs5]; · iexact Hs5
        iexact Hsems
      iexact HO
  · rw [if_neg hb, if_neg hb]
    iintro ⟨#Hlv, -, ⟨Hs, Ho⟩, ⟨Hb0, Hb1, Hbufs⟩, ⟨Hs2, Hs3, Hs4, Hs5, Hsems⟩, HO⟩
    ihave Hmw := ((K (F := F)).mayWaits_none (thr := Vt d L) hO) $$ Hlv
    iapply (wp_wand_r frame _ _)
    isplitl [Hmw Hs Ho Hb0 Hb1 Hs2 Hs3 Hs4 Hs5 HO]
    · iapply (tile_body_x m d L hb (fo d) O W)
      unfold tilePreX
      isplitl [Hmw]; · iexact Hmw
      isplitl [Hs]; · iexact Hs
      isplitl [Ho]; · iexact Ho
      isplitl [Hb0]; · iexact Hb0
      isplitl [Hb1]; · iexact Hb1
      isplitl [Hs2]; · iexact Hs2
      isplitl [Hs3]; · iexact Hs3
      isplitl [Hs4]; · iexact Hs4
      isplitl [Hs5]; · iexact Hs5
      iexact HO
    · iintro %_ Hpost
      unfold tilePostX
      icases Hpost with ⟨Hs, Ho, Hb0, Hb1, Hs2, Hs3, Hs4, Hs5, HO⟩
      isplitl [Hs Ho]
      · isplitl [Hs]; · iexact Hs
        iexact Ho
      isplitl [Hb0 Hb1 Hbufs]
      · isplitl [Hb0]; · iexact Hb0
        isplitl [Hb1]; · iexact Hb1
        iexact Hbufs
      isplitl [Hs2 Hs3 Hs4 Hs5 Hsems]
      · isplitl [Hs2]; · iexact Hs2
        isplitl [Hs3]; · iexact Hs3
        isplitl [Hs4]; · iexact Hs4
        isplitl [Hs5]; · iexact Hs5
        iexact Hsems
      iexact HO

/-! ## The handshakes' payloads -/

/-- The grid point of a subcore of the device. -/
abbrev LQ (c : Fin τ.nSC) (s : Fin τ.nSub) : grid1.Coords := coordsV ⟨c.val, c.isLt⟩ ⟨s.val, s.isLt⟩

instance tileGo_storable (d : Dev nD) (L : grid1.Coords) : BI.Storable (upEmb : UEmb _ 𝕄) (tileGo m fo d L) := by
  unfold tileGo; split <;> infer_instance
instance tileTd_storable (d : Dev nD) (L : grid1.Coords) : BI.Storable (upEmb : UEmb _ 𝕄) (tileTd m fo d L) := by
  unfold tileTd; split <;> infer_instance

/-- The one call hands SparseCore `c` the shares of its sixteen tasks and takes them back written; a task gets its own. Nothing
    else is consumed: the kernel's transfers run on its subcores' own semaphores. -/
def P : (K (F := F)).Pay (nD := nD) (Val := Elt F) (Name := ℕ) (U := UU) where
  st := fun q d c => bigSep Finset.univ fun i : Fin ((K (F := F)).nSub q) => tileGo m fo d (LQ ((K (F := F)).core q c) ((K (F := F)).sub q i))
  dn := fun q d c => bigSep Finset.univ fun i : Fin ((K (F := F)).nSub q) => tileTd m fo d (LQ ((K (F := F)).core q c) ((K (F := F)).sub q i))
  go := fun q d c i => tileGo m fo d (LQ ((K (F := F)).core q c) ((K (F := F)).sub q i))
  td := fun q d c i => tileTd m fo d (LQ ((K (F := F)).core q c) ((K (F := F)).sub q i))
  x := fun _ _ => iprop(emp)

instance P_storable : (P (F := F) m fo).IsStorable where
  st _ d c := by unfold P; infer_instance
  dn _ d c := by unfold P; infer_instance
  go _ _ _ _ := by unfold P; infer_instance
  td _ _ _ _ := by unfold P; infer_instance

/-! ## The launch theorem's obligations -/

theorem defs₀_vector (c : Fin τ.nSC) (s : Fin τ.nSub) :
    defs₀ (F := F) (.scVector c s) 1 ⟨⟩
      = SparseCore.onTile hcore1 hsub1 (fun c s => cc1__sc_body (coordsV c s) xW (Memref.isWhole_whole _) sW (Memref.isWhole_whole _) oW (Memref.isWhole_whole _) oW (Memref.isWhole_whole _)
          b0 (Memref.isWhole_whole _) b1 (Memref.isWhole_whole _) cc1_scratch2 cc1_scratch3 cc1_scratch4 cc1_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's kernel body is the task lifted through the pipeline library's table, at the subcore's grid point. -/
theorem tileObl (hF : (K (F := F)).Facts) : (K (F := F)).TileObl (D (F := F)) 𝒱 (P m fo) v₀ 0 := by
  intro d c i O W hO _ _
  simp only [show (P m fo).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_task m fo hF d (coordsV ⟨_, hc.1⟩ ⟨_, hc.2⟩) O W hO).trans (wp_mono frame _ _ fun _ => obl_post)

/-- A SparseCore's operands are its tasks' shares: nothing to split. -/
theorem vecSplit : (K (F := F)).VecSplit' (P m fo) 0 := by
  intro d c
  show (bigSep Finset.univ fun i : Fin ((K (F := F)).nSub 0) => tileGo m fo d (LQ ((K (F := F)).core 0 c) ((K (F := F)).sub 0 i)))
    ⊢ |={Set.univ}=> iprop((bigSep Finset.univ fun i : Fin ((K (F := F)).nSub 0) => tileGo m fo d (LQ ((K (F := F)).core 0 c) ((K (F := F)).sub 0 i)))
      ∗ ((bigSep Finset.univ fun i : Fin ((K (F := F)).nSub 0) => tileTd m fo d (LQ ((K (F := F)).core 0 c) ((K (F := F)).sub 0 i)))
        -∗ (bigSep Finset.univ fun i : Fin ((K (F := F)).nSub 0) => tileTd m fo d (LQ ((K (F := F)).core 0 c) ((K (F := F)).sub 0 i)))))
  iintro H; imodintro
  isplitl [H]; · iexact H
  iintro H; iexact H

end Obl

end Cert.Proof.KB

end
-- ==== Proof.KBValue.lean ====
/-
  The value a vector subcore's task leaves, entry by entry. A chunk of the result written from the matching chunk of `x`
  holds, at each of the chunk's elements, the entry of `x` at the same index: the two chunks sit at the same offsets of two
  arrays of the same shape. On a block other than block 0 that is the specification's entry.
-/
import proofs.«202537_g10033043603743_week1_w1_89_23_alg».proof.Proof.KBTile
import proofs.«202537_g10033043603743_week1_w1_89_23_alg».proof.Proof.Spec

noncomputable section

namespace Cert.Proof.KB

open Cert.Kernel Cert.Kernel.Gen
open Idealize.ShloMosaic
open Idealize.ShloMosaic.SparseCore (S V T)

variable {F : FTy → Type} [FloatOps F] (m : (ℓ : Loc nD τ sig) → Buf (Elt F) ℓ) (d : Dev nD) (L : grid1.Coords)

/-- The elements of chunk `ci` of the result are those of its rectangle: block `blk L`, rows `base L + 256 ci` .. + 256, every column. -/
theorem mem_oCh_set (ci : Fin 8) (i : S32x16384x128.Idx) :
    i ∈ (oCh L ci).view.set ↔ ∀ a, chunkOff L ci.val a ≤ i a ∧ (i a : ℕ) < chunkOff L ci.val a + S1x256x128.size a := by
  show i ∈ (((View.whole main_v1_scv).slice (Rect.unit (s := S32x16384x128) (chunkOff L ci.val) S1x256x128.size (chunkOff_inb L ci))).reshape S256x128
    squeezes_S1x256x128_S256x128.numel_eq).set ↔ _
  rw [View.set_reshape, View.set_slice_whole, Rect.mem_set_unit]
  exact Iff.rfl

set_option maxHeartbeats 1000000 in
/-- At an element of the chunk, the written chunk holds the entry of `x` at the same index. -/
theorem oNew_apply (fo : Buf (Elt F) (oLoc d)) (ci : Fin 8) (i : S32x16384x128.Idx) (hi : i ∈ (oCh L ci).view.set) :
    oNew m d L fo ci i = m (xLoc d) i := by
  obtain ⟨j, -, rfl⟩ := Finset.mem_map.mp hi
  have e : (oCh L ci).view.emb j = ((oCh L ci).view.slice (Rect.whole S256x128)).emb j := by
    rw [View.emb_slice]
    show _ = (oCh L ci).view.emb ((Rect.whole S256x128).emb j)
    rw [Rect.emb_whole_apply]
  rw [e]
  show ((oCh L ci).view.slice (Rect.whole S256x128)).write (Elt F) fo (xData m d L ci) Finset.univ
    (((oCh L ci).view.slice (Rect.whole S256x128)).emb j) = _
  rw [View.write_emb_of_mem _ _ (Finset.mem_univ _)]
  show _root_.cast _ ((xCh L ci).view.read (Elt F) (m (xLoc d)) j) = _
  rw [View.read_apply, cast_cast, cast_eq]
  refine congrArg (m (xLoc d)) ?_
  rw [View.emb_slice]
  show (xCh L ci).view.emb j = (oCh L ci).view.emb ((Rect.whole S256x128).emb j)
  rw [Rect.emb_whole_apply]
  rfl

/-- On a block other than block 0 that is the specification's entry. -/
theorem oNew_spec (hb : ¬ blk L = 0) (fo : Buf (Elt F) (oLoc d)) (ci : Fin 8) (i : S32x16384x128.Idx) (hi : i ∈ (oCh L ci).view.set) :
    oNew m d L fo ci i = Cert.Spec.setBlock0 (m (xLoc d)) (m (sLoc d)) i := by
  rw [oNew_apply m d L fo ci i hi]
  have h0 := (mem_oCh_set L ci i).mp hi 0
  have : (i 0).val ≠ 0 := by
    have e : chunkOff L ci.val 0 = blk L := rfl
    have s : S1x256x128.size 0 = 1 := rfl
    rw [e, s] at h0
    omega
  exact (Cert.Spec.setBlock0_of_ne _ _ i this).symm

/-! ## Block 0: the chunks come from `src` -/

/-- Where entry `j` of chunk `ci` of the result sits in the stacked array: block `blk L`, row `base L + 256 ci + j₀`, column `j₁`. The chunk is
    the squeeze of a 1 × 256 × 128 slice, and the squeeze matches (r, c) with (0, r, c). -/
theorem oCh_emb (ci : Fin 8) (j : S256x128.Idx) :
    (((oCh L ci).view.emb j) 0 : ℕ) = blk L ∧ (((oCh L ci).view.emb j) 1 : ℕ) = base L + 256 * ci.val + (j 0).val
      ∧ (((oCh L ci).view.emb j) 2 : ℕ) = (j 1).val := by
  have e : (oCh L ci).view.emb j
      = (Rect.unit (s := S32x16384x128) (chunkOff L ci.val) S1x256x128.size (chunkOff_inb L ci)).emb
          (Shape.reshapeEquiv squeezes_S1x256x128_S256x128.numel_eq j) := rfl
  rw [e, Shape.reshapeEquiv_cons_one]
  refine ⟨?_, ?_, ?_⟩
  · show chunkOff L ci.val 0 + 1 * 0 = blk L
    simp
  · show chunkOff L ci.val 1 + 1 * (j 0).val = base L + 256 * ci.val + (j 0).val
    simp
  · show chunkOff L ci.val 2 + 1 * (j 1).val = (j 1).val
    simp

/-- Entry `j` of chunk `ci` of `src` sits at row `base L + 256 ci + j₀`, column `j₁`. -/
theorem sCh_emb (ci : Fin 8) (j : S256x128.Idx) :
    (((sCh L ci).view.emb j) 0 : ℕ) = base L + 256 * ci.val + (j 0).val ∧ (((sCh L ci).view.emb j) 1 : ℕ) = (j 1).val := by
  refine ⟨?_, ?_⟩
  · show srcOff L ci.val 0 + 1 * (j 0).val = base L + 256 * ci.val + (j 0).val
    simp
  · show srcOff L ci.val 1 + 1 * (j 1).val = (j 1).val
    simp

set_option maxHeartbeats 1000000 in
/-- At an element of the chunk, the chunk written from `src` holds the entry of `src` at the element's row and column. -/
theorem oNewS_apply (fo : Buf (Elt F) (oLoc d)) (ci : Fin 8) (i : S32x16384x128.Idx) (hi : i ∈ (oCh L ci).view.set) :
    oNewS m d L fo ci i = m (sLoc d) (Cert.Spec.within i) := by
  obtain ⟨j, -, rfl⟩ := Finset.mem_map.mp hi
  have e : (oCh L ci).view.emb j = ((oCh L ci).view.slice (Rect.whole S256x128)).emb j := by
    rw [View.emb_slice]
    show _ = (oCh L ci).view.emb ((Rect.whole S256x128).emb j)
    rw [Rect.emb_whole_apply]
  have hw : (sCh L ci).view.emb j = Cert.Spec.within ((oCh L ci).view.emb j) := by
    obtain ⟨-, o1, o2⟩ := oCh_emb L ci j
    obtain ⟨s0, s1⟩ := sCh_emb L ci j
    funext a
    match a with
    | ⟨0, _⟩ => exact Fin.ext (s0.trans o1.symm)
    | ⟨1, _⟩ => exact Fin.ext (s1.trans o2.symm)
  rw [← hw]
  conv_lhs => rw [e]
  show ((oCh L ci).view.slice (Rect.whole S256x128)).write (Elt F) fo (sData m d L ci) Finset.univ
    (((oCh L ci).view.slice (Rect.whole S256x128)).emb j) = _
  rw [View.write_emb_of_mem _ _ (Finset.mem_univ _)]
  show _root_.cast _ ((sCh L ci).view.read (Elt F) (m (sLoc d)) j) = _
  rw [View.read_apply, cast_cast, cast_eq]

/-- On block 0 that is the specification's entry. -/
theorem oNewS_spec (hb : blk L = 0) (fo : Buf (Elt F) (oLoc d)) (ci : Fin 8) (i : S32x16384x128.Idx) (hi : i ∈ (oCh L ci).view.set) :
    oNewS m d L fo ci i = Cert.Spec.setBlock0 (m (xLoc d)) (m (sLoc d)) i := by
  rw [oNewS_apply m d L fo ci i hi]
  have h0 := (mem_oCh_set L ci i).mp hi 0
  have : (i 0).val = 0 := by
    have e : chunkOff L ci.val 0 = blk L := rfl
    have s : S1x256x128.size 0 = 1 := rfl
    rw [e, s, hb] at h0
    omega
  unfold Cert.Spec.setBlock0
  rw [if_pos this]

end Cert.Proof.KB

end
-- ==== Proof.KBShare.lean ====
/-
  The three arrays cut into the tasks' shares, and joined back.

  The result's blocks 0..3 are the 2 × 16 × 8 chunks of the tasks: task (c, s) is worker w = 2 s + c, its block w / 8, its stripe
  rows 2048 (w mod 8) .. + 2048, its chunk n rows + 256 n .. + 256. Two different (worker, chunk) pairs give disjoint sets of
  elements, and every element of blocks 0..3 lies in exactly one. The chunks of `x` handed out are the same sets, for the workers
  of blocks 1..3; the chunks of `src` are the 8 × 8 chunks of its rows, for the workers of block 0. What comes back written —
  each chunk holding the specification's entries — with the untouched blocks 4..31, which hold `x`'s entries, is the
  specification.
-/
import proofs.«202537_g10033043603743_week1_w1_89_23_alg».proof.Proof.KBObl
import proofs.«202537_g10033043603743_week1_w1_89_23_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The chunks' elements, by coordinates -/

/-- The grid point of subcore `i` of SparseCore `c`, and a (task, chunk) pair. -/
abbrev Lt (c : Fin 2) (i : Fin 16) : grid1.Coords := coordsV ⟨c.val, c.isLt⟩ ⟨i.val, i.isLt⟩
abbrev TC : Type := (Fin 2 × Fin 16) × ℕ
abbrev tcs : Finset TC := (Finset.univ : Finset (Fin 2 × Fin 16)) ×ˢ Finset.Ico 0 8

/-- The elements of a task's chunk of the stacked arrays. -/
abbrev cSet (j : TC) : Finset S32x16384x128.Idx := (oCh (Lt j.1.1 j.1.2) (ch j.2)).view.set

theorem wk_Lt (c : Fin 2) (i : Fin 16) : wk (Lt c i) = 2 * i.val + c.val := rfl

theorem mem_cSet (j : TC) (hn : j.2 < 8) (x : S32x16384x128.Idx) :
    x ∈ cSet j ↔ (x 0).val = (2 * j.1.2.val + j.1.1.val) / 8
      ∧ 2048 * ((2 * j.1.2.val + j.1.1.val) % 8) + 256 * j.2 ≤ (x 1).val ∧ (x 1).val < 2048 * ((2 * j.1.2.val + j.1.1.val) % 8) + 256 * j.2 + 256 := by
  unfold cSet
  rw [mem_oCh_set]
  have hv : (ch j.2).val = j.2 := ch_val hn
  constructor
  · intro h
    have h0 := h 0; have h1 := h 1
    have e0 : chunkOff (Lt j.1.1 j.1.2) (ch j.2).val 0 = (2 * j.1.2.val + j.1.1.val) / 8 := rfl
    have e1 : chunkOff (Lt j.1.1 j.1.2) (ch j.2).val 1 = 2048 * ((2 * j.1.2.val + j.1.1.val) % 8) + 256 * (ch j.2).val := rfl
    have s0 : S1x256x128.size 0 = 1 := rfl
    have s1 : S1x256x128.size 1 = 256 := rfl
    rw [e0, s0] at h0; rw [e1, s1, hv] at h1
    omega
  · rintro ⟨h0, h1, h2⟩ a
    match a with
    | ⟨0, _⟩ =>
      show (2 * j.1.2.val + j.1.1.val) / 8 ≤ (x 0).val ∧ (x 0).val < (2 * j.1.2.val + j.1.1.val) / 8 + 1
      omega
    | ⟨1, _⟩ =>
      show 2048 * ((2 * j.1.2.val + j.1.1.val) % 8) + 256 * (ch j.2).val ≤ (x 1).val ∧ (x 1).val < 2048 * ((2 * j.1.2.val + j.1.1.val) % 8) + 256 * (ch j.2).val + 256
      rw [hv]; omega
    | ⟨2, _⟩ =>
      show 0 ≤ (x 2).val ∧ (x 2).val < 0 + 128
      have := (x 2).isLt
      exact ⟨Nat.zero_le _, by simpa using this⟩

/-- Two different (task, chunk) pairs have no element in common. -/
theorem cSet_disjoint : ∀ j ∈ tcs, ∀ j' ∈ tcs, j ≠ j' → Disjoint (cSet j) (cSet j') := by
  intro j hj j' hj' hne
  have hn : j.2 < 8 := (Finset.mem_Ico.mp (Finset.mem_product.mp hj).2).2
  have hn' : j'.2 < 8 := (Finset.mem_Ico.mp (Finset.mem_product.mp hj').2).2
  refine Finset.disjoint_left.mpr fun x hx hx' => hne ?_
  have h := (mem_cSet j hn x).mp hx
  have h' := (mem_cSet j' hn' x).mp hx'
  have c1 := j.1.1.isLt; have c2 := j'.1.1.isLt; have i1 := j.1.2.isLt; have i2 := j'.1.2.isLt
  have ec : j.1.1.val = j'.1.1.val := by omega
  have ei : j.1.2.val = j'.1.2.val := by omega
  have en : j.2 = j'.2 := by omega
  exact Prod.ext (Prod.ext (Fin.ext ec) (Fin.ext ei)) en

/-- The chunks cover exactly blocks 0..3. -/
theorem cSet_cover : tcs.biUnion cSet = (Finset.univ.filter fun x : S32x16384x128.Idx => (x 0).val < 4) := by
  ext x
  simp only [Finset.mem_biUnion, Finset.mem_filter, Finset.mem_univ, true_and]
  constructor
  · rintro ⟨j, hj, hx⟩
    have hn : j.2 < 8 := (Finset.mem_Ico.mp (Finset.mem_product.mp hj).2).2
    have h := (mem_cSet j hn x).mp hx
    have c1 := j.1.1.isLt; have i1 := j.1.2.isLt
    omega
  · intro h0
    have h1 : (x 1).val < 16384 := (x 1).isLt
    refine ⟨((⟨(8 * (x 0).val + (x 1).val / 2048) % 2, Nat.mod_lt _ (by decide)⟩, ⟨(8 * (x 0).val + (x 1).val / 2048) / 2, by omega⟩), ((x 1).val % 2048) / 256), ?_, ?_⟩
    · refine Finset.mem_product.mpr ⟨Finset.mem_univ _, Finset.mem_Ico.mpr ⟨Nat.zero_le _, ?_⟩⟩
      show ((x 1).val % 2048) / 256 < 8
      omega
    · refine (mem_cSet _ (by show ((x 1).val % 2048) / 256 < 8; omega) x).mpr ?_
      show (x 0).val = (2 * ((8 * (x 0).val + (x 1).val / 2048) / 2) + (8 * (x 0).val + (x 1).val / 2048) % 2) / 8
        ∧ 2048 * ((2 * ((8 * (x 0).val + (x 1).val / 2048) / 2) + (8 * (x 0).val + (x 1).val / 2048) % 2) % 8) + 256 * (((x 1).val % 2048) / 256) ≤ (x 1).val
        ∧ (x 1).val < 2048 * ((2 * ((8 * (x 0).val + (x 1).val / 2048) / 2) + (8 * (x 0).val + (x 1).val / 2048) % 2) % 8) + 256 * (((x 1).val % 2048) / 256) + 256
      omega

/-! ## The chunks of `src` -/

abbrev sSet (j : TC) : Finset S16384x128.Idx := (sCh (Lt j.1.1 j.1.2) (ch j.2)).view.set

theorem mem_sSet (j : TC) (hn : j.2 < 8) (y : S16384x128.Idx) :
    y ∈ sSet j ↔ 2048 * ((2 * j.1.2.val + j.1.1.val) % 8) + 256 * j.2 ≤ (y 0).val ∧ (y 0).val < 2048 * ((2 * j.1.2.val + j.1.1.val) % 8) + 256 * j.2 + 256 := by
  unfold sSet
  show y ∈ ((View.whole main_arg1_scv).slice (Rect.unit (s := S16384x128) (srcOff (Lt j.1.1 j.1.2) (ch j.2).val) S256x128.size (srcOff_inb (Lt j.1.1 j.1.2) (ch j.2)))).set ↔ _
  rw [View.set_slice_whole, Rect.mem_set_unit]
  have hv : (ch j.2).val = j.2 := ch_val hn
  constructor
  · intro h
    have h0 := h 0
    have e0 : srcOff (Lt j.1.1 j.1.2) (ch j.2).val 0 = 2048 * ((2 * j.1.2.val + j.1.1.val) % 8) + 256 * (ch j.2).val := rfl
    have s0 : S256x128.size 0 = 256 := rfl
    rw [e0, s0, hv] at h0
    exact h0
  · rintro ⟨h0, h1⟩ a
    match a with
    | ⟨0, _⟩ =>
      show 2048 * ((2 * j.1.2.val + j.1.1.val) % 8) + 256 * (ch j.2).val ≤ (y 0).val ∧ (y 0).val < 2048 * ((2 * j.1.2.val + j.1.1.val) % 8) + 256 * (ch j.2).val + 256
      rw [hv]; exact ⟨h0, h1⟩
    | ⟨1, _⟩ =>
      show 0 ≤ (y 1).val ∧ (y 1).val < 0 + 128
      have := (y 1).isLt
      exact ⟨Nat.zero_le _, by simpa using this⟩

/-! ## The source chunks handed out: of `src` to block 0's workers, of `x` to the others -/

abbrev blkOf (j : TC) : ℕ := (2 * j.1.2.val + j.1.1.val) / 8
theorem blk_Lt (j : TC) : blk (Lt j.1.1 j.1.2) = blkOf j := rfl

abbrev xSetG (j : TC) : Finset S32x16384x128.Idx := if blkOf j = 0 then ∅ else cSet j
abbrev sSetG (j : TC) : Finset S16384x128.Idx := if blkOf j = 0 then sSet j else ∅

theorem xSetG_disjoint : ∀ j ∈ tcs, ∀ j' ∈ tcs, j ≠ j' → Disjoint (xSetG j) (xSetG j') := by
  intro j hj j' hj' hne
  unfold xSetG
  split
  · exact Finset.disjoint_empty_left _
  · split
    · exact Finset.disjoint_empty_right _
    · exact cSet_disjoint j hj j' hj' hne

theorem sSetG_disjoint : ∀ j ∈ tcs, ∀ j' ∈ tcs, j ≠ j' → Disjoint (sSetG j) (sSetG j') := by
  intro j hj j' hj' hne
  unfold sSetG
  split
  · next hb =>
    split
    · next hb' =>
      have hn : j.2 < 8 := (Finset.mem_Ico.mp (Finset.mem_product.mp hj).2).2
      have hn' : j'.2 < 8 := (Finset.mem_Ico.mp (Finset.mem_product.mp hj').2).2
      refine Finset.disjoint_left.mpr fun y hy hy' => hne ?_
      have h := (mem_sSet j hn y).mp hy
      have h' := (mem_sSet j' hn' y).mp hy'
      have c1 := j.1.1.isLt; have c2 := j'.1.1.isLt; have i1 := j.1.2.isLt; have i2 := j'.1.2.isLt
      unfold blkOf at hb hb'
      have ec : j.1.1.val = j'.1.1.val := by omega
      have ei : j.1.2.val = j'.1.2.val := by omega
      have en : j.2 = j'.2 := by omega
      exact Prod.ext (Prod.ext (Fin.ext ec) (Fin.ext ei)) en
    · exact Finset.disjoint_empty_right _
  · exact Finset.disjoint_empty_left _

/-! ## Carving a family of disjoint sets of elements out of a whole array, and putting it back -/

omit F in
theorem carve {F : FTy → Type} {ℓ : Loc nD τ sig} (f : Buf (Elt F) ℓ) {T : Type} (S : Finset T) (Kf : T → Finset (Idx ℓ))
    (h : ∀ t ∈ S, ∀ t' ∈ S, t ≠ t' → Disjoint (Kf t) (Kf t')) :
    (ℓ ↦{fullShare} f : sProp (MT nD τ sig (HIx 1) (Elt F) ℕ UU ℕ))
      ⊢ iprop((bigSep S fun t => ℓ ↦[Kf t]{fullShare} f) ∗ ((bigSep S fun t => ℓ ↦[Kf t]{fullShare} f) -∗ ℓ ↦{fullShare} f)) := by
  have hs : (ℓ ↦{fullShare} f : sProp (MT nD τ sig (HIx 1) (Elt F) ℕ UU ℕ))
      ⊣⊢ iprop((ℓ ↦[S.biUnion Kf]{fullShare} f) ∗ ℓ ↦[Finset.univ \ S.biUnion Kf]{fullShare} f) :=
    pointsTo_split_subset (Finset.subset_univ (S.biUnion Kf))
  rw [pointsTo_biUnion S Kf h] at hs
  iintro H
  ihave H := hs.1 $$ H
  icases H with ⟨Hin, Hrest⟩
  isplitl [Hin]; · iexact Hin
  iintro Hin
  iapply hs.2
  isplitl [Hin]; · iexact Hin
  iexact Hrest

/-! ## A task's share from, and to, its chunks as sets of elements -/

section Share

variable [FloatOps F] (m : (ℓ : Loc nD τ sig) → Buf (Elt F) ℓ) (d : Dev nD)

/-- The region's result buffer after the ring copy: blocks 4..31 of `x`, blocks 0..3 as the launch left them. -/
def tcOut : Buf (Elt F) (pLoc d) := fun i => if 4 ≤ (i 0).val then m (xLoc d) i else m (pLoc d) i
/-- The same contents, in the result's buffer. -/
abbrev foT (d : Dev nD) : Buf (Elt F) (oLoc d) := tcOut m d
/-- The specification: `x` with block 0 replaced by `src`. -/
abbrev finalOut : Buf (Elt F) (oLoc d) := Cert.Spec.setBlock0 (m (xLoc d)) (m (sLoc d))

abbrev PP : (K (F := F)).Pay (nD := nD) (Val := Elt F) (Name := ℕ) (U := UU) := P m (foT m)

abbrev xPts : sProp 𝕄 := xLoc d ↦{fullShare} m (xLoc d)
abbrev sPts : sProp 𝕄 := sLoc d ↦{fullShare} m (sLoc d)

/-- The three pieces of a (task, chunk) pair, as sets of elements; the result's at contents `f`. -/
abbrev pcs (f : Buf (Elt F) (oLoc d)) (j : TC) : sProp 𝕄 :=
  iprop((xLoc d ↦[xSetG j]{fullShare} m (xLoc d)) ∗ (sLoc d ↦[sSetG j]{fullShare} m (sLoc d)) ∗ (oLoc d ↦[cSet j]{fullShare} f))

theorem pc_go_s (ci : Fin 2 × Fin 16) (n : ℕ) (hb : blk (Lt ci.1 ci.2) = 0) :
    pcs m d (foT m d) (ci, n) ⊢ iprop(sPc m d (Lt ci.1 ci.2) n ∗ oPc d (Lt ci.1 ci.2) (fun _ => foT m d) n) := by
  have e1 : xSetG (ci, n) = ∅ := if_pos hb
  have e2 : sSetG (ci, n) = sSet (ci, n) := if_pos hb
  unfold pcs; rw [e1, e2]
  iintro ⟨-, Hs, Ho⟩
  isplitl [Hs]; · iexact Hs
  iexact Ho
theorem pc_go_x (ci : Fin 2 × Fin 16) (n : ℕ) (hb : ¬ blk (Lt ci.1 ci.2) = 0) :
    pcs m d (foT m d) (ci, n) ⊢ iprop(xPc m d (Lt ci.1 ci.2) n ∗ oPc d (Lt ci.1 ci.2) (fun _ => foT m d) n) := by
  have e1 : xSetG (ci, n) = cSet (ci, n) := if_neg hb
  unfold pcs; rw [e1]
  iintro ⟨Hx, -, Ho⟩
  isplitl [Hx]; · iexact Hx
  iexact Ho
theorem pc_td_s (ci : Fin 2 × Fin 16) (n : ℕ) (hb : blk (Lt ci.1 ci.2) = 0) :
    iprop(sPc m d (Lt ci.1 ci.2) n ∗ oPc d (Lt ci.1 ci.2) (fun n => oNewS m d (Lt ci.1 ci.2) (foT m d) (ch n)) n) ⊢ pcs m d (finalOut m d) (ci, n) := by
  have e1 : xSetG (ci, n) = ∅ := if_pos hb
  have e2 : sSetG (ci, n) = sSet (ci, n) := if_pos hb
  unfold pcs; rw [e1, e2, pointsTo_empty]
  iintro ⟨Hs, Ho⟩
  isplitr; · iempintro
  isplitl [Hs]; · iexact Hs
  iapply (Entails.of_eq (pointsTo_congr (fun i hi => oNewS_spec m d (Lt ci.1 ci.2) hb (foT m d) (ch n) i hi)))
  iexact Ho
theorem pc_td_x (ci : Fin 2 × Fin 16) (n : ℕ) (hb : ¬ blk (Lt ci.1 ci.2) = 0) :
    iprop(xPc m d (Lt ci.1 ci.2) n ∗ oPc d (Lt ci.1 ci.2) (fun n => oNew m d (Lt ci.1 ci.2) (foT m d) (ch n)) n) ⊢ pcs m d (finalOut m d) (ci, n) := by
  have e1 : xSetG (ci, n) = cSet (ci, n) := if_neg hb
  have e2 : sSetG (ci, n) = ∅ := if_neg hb
  unfold pcs; rw [e1, e2, pointsTo_empty]
  iintro ⟨Hx, Ho⟩
  isplitl [Hx]; · iexact Hx
  isplitr; · iempintro
  iapply (Entails.of_eq (pointsTo_congr (fun i hi => oNew_spec m d (Lt ci.1 ci.2) hb (foT m d) (ch n) i hi)))
  iexact Ho

theorem tile_go_of (ci : Fin 2 × Fin 16) :
    (bigSep (Finset.Ico 0 8) fun n => pcs m d (foT m d) (ci, n)) ⊢ tileGo m (foT m) d (Lt ci.1 ci.2) := by
  unfold tileGo
  by_cases hb : blk (Lt ci.1 ci.2) = 0
  · rw [if_pos hb, ← bigSep_sep']
    exact bigSep_mono fun n _ => pc_go_s m d ci n hb
  · rw [if_neg hb, ← bigSep_sep']
    exact bigSep_mono fun n _ => pc_go_x m d ci n hb

theorem tile_td_to (ci : Fin 2 × Fin 16) :
    tileTd m (foT m) d (Lt ci.1 ci.2) ⊢ bigSep (Finset.Ico 0 8) fun n => pcs m d (finalOut m d) (ci, n) := by
  unfold tileTd
  by_cases hb : blk (Lt ci.1 ci.2) = 0
  · rw [if_pos hb, if_pos hb, ← bigSep_sep']
    exact bigSep_mono fun n _ => pc_td_s m d ci n hb
  · rw [if_neg hb, if_neg hb, ← bigSep_sep']
    exact bigSep_mono fun n _ => pc_td_x m d ci n hb

/-! ## All the tasks at once -/

theorem st_all : (bigSep Finset.univ fun c : Fin ((K (F := F)).nCore 0) => (PP m).st 0 d c)
    = bigSep (Finset.univ : Finset (Fin 2 × Fin 16)) fun ci => tileGo m (foT m) d (Lt ci.1 ci.2) := by
  rw [bigSep_univ_prod]; rfl
theorem dn_all : (bigSep Finset.univ fun c : Fin ((K (F := F)).nCore 0) => (PP m).dn 0 d c)
    = bigSep (Finset.univ : Finset (Fin 2 × Fin 16)) fun ci => tileTd m (foT m) d (Lt ci.1 ci.2) := by
  rw [bigSep_univ_prod]; rfl

theorem go_all : (bigSep tcs (pcs m d (foT m d)))
    ⊢ bigSep (Finset.univ : Finset (Fin 2 × Fin 16)) fun ci => tileGo m (foT m) d (Lt ci.1 ci.2) := by
  unfold tcs
  rw [SparseCore.bigSep_product]
  exact bigSep_mono fun ci _ => tile_go_of m d ci
theorem td_all : (bigSep (Finset.univ : Finset (Fin 2 × Fin 16)) fun ci => tileTd m (foT m) d (Lt ci.1 ci.2))
    ⊢ bigSep tcs (pcs m d (finalOut m d)) := by
  unfold tcs
  rw [SparseCore.bigSep_product]
  exact bigSep_mono fun ci _ => tile_td_to m d ci

theorem go_all' : iprop((bigSep tcs fun j => xLoc d ↦[xSetG j]{fullShare} m (xLoc d)) ∗ (bigSep tcs fun j => sLoc d ↦[sSetG j]{fullShare} m (sLoc d))
      ∗ (oLoc d ↦[tcs.biUnion cSet]{fullShare} foT m d))
    ⊢ bigSep (Finset.univ : Finset (Fin 2 × Fin 16)) fun ci => tileGo m (foT m) d (Lt ci.1 ci.2) := by
  rw [pointsTo_biUnion (ℓ := oLoc d) tcs cSet cSet_disjoint, ← bigSep_sep', ← bigSep_sep']
  exact go_all m d
theorem td_all' : (bigSep (Finset.univ : Finset (Fin 2 × Fin 16)) fun ci => tileTd m (foT m) d (Lt ci.1 ci.2))
    ⊢ iprop((bigSep tcs fun j => xLoc d ↦[xSetG j]{fullShare} m (xLoc d)) ∗ (bigSep tcs fun j => sLoc d ↦[sSetG j]{fullShare} m (sLoc d))
      ∗ (oLoc d ↦[tcs.biUnion cSet]{fullShare} finalOut m d)) := by
  rw [pointsTo_biUnion (ℓ := oLoc d) tcs cSet cSet_disjoint, ← bigSep_sep', ← bigSep_sep']
  exact td_all m d

/-- Off blocks 0..3 the region's result already holds the specification's entries. -/
theorem high_eq (i : S32x16384x128.Idx) (hi : i ∈ Finset.univ \ tcs.biUnion cSet) : foT m d i = finalOut m d i := by
  rw [cSet_cover] at hi
  have h4 : ¬ (i 0).val < 4 := fun h => (Finset.mem_sdiff.mp hi).2 (Finset.mem_filter.mpr ⟨Finset.mem_univ _, h⟩)
  show (if 4 ≤ (i 0).val then m (xLoc d) i else m (pLoc d) i) = _
  rw [if_pos (by omega)]
  exact (Cert.Spec.setBlock0_of_ne _ _ i (by omega)).symm

/-- The three arrays cut into the tasks' shares, and back. -/
theorem share_split :
    iprop(xPts m d ∗ sPts m d ∗ (oLoc d ↦{fullShare} foT m d))
      ⊢ iprop((bigSep Finset.univ fun c : Fin ((K (F := F)).nCore 0) => (PP m).st 0 d c)
        ∗ ((bigSep Finset.univ fun c : Fin ((K (F := F)).nCore 0) => (PP m).dn 0 d c)
            -∗ iprop(xPts m d ∗ sPts m d ∗ (oLoc d ↦{fullShare} finalOut m d)))) := by
  rw [st_all, dn_all]
  have ho : (oLoc d ↦{fullShare} foT m d : sProp 𝕄)
      ⊣⊢ iprop((oLoc d ↦[tcs.biUnion cSet]{fullShare} foT m d) ∗ oLoc d ↦[Finset.univ \ tcs.biUnion cSet]{fullShare} foT m d) :=
    pointsTo_split_subset (Finset.subset_univ _)
  have ho' : (oLoc d ↦{fullShare} finalOut m d : sProp 𝕄)
      ⊣⊢ iprop((oLoc d ↦[tcs.biUnion cSet]{fullShare} finalOut m d) ∗ oLoc d ↦[Finset.univ \ tcs.biUnion cSet]{fullShare} finalOut m d) :=
    pointsTo_split_subset (Finset.subset_univ _)
  iintro ⟨Hx, Hs, Ho⟩
  ihave Hx := (carve (m (xLoc d)) tcs xSetG xSetG_disjoint) $$ Hx
  icases Hx with ⟨HxT, HxB⟩
  ihave Hs := (carve (m (sLoc d)) tcs sSetG sSetG_disjoint) $$ Hs
  icases Hs with ⟨HsT, HsB⟩
  ihave Ho := ho.1 $$ Ho
  icases Ho with ⟨HoT, HoH⟩
  isplitl [HxT HsT HoT]
  · iapply (go_all' m d)
    isplitl [HxT]; · iexact HxT
    isplitl [HsT]; · iexact HsT
    iexact HoT
  iintro Hdn
  ihave H := (td_all' m d) $$ Hdn
  icases H with ⟨HxT, HsT, HoT⟩
  isplitl [HxT HxB]; · iapply HxB; iexact HxT
  isplitl [HsT HsB]; · iapply HsB; iexact HsT
  iapply ho'.2
  isplitl [HoT]; · iexact HoT
  iapply (Entails.of_eq (pointsTo_congr (high_eq m d)))
  iexact HoH

end Share

end Cert.Proof.KB

end
-- ==== Proof.KBTcRing.lean ====
/-
  The ring copy on the TensorCore. Chunk n (0 ≤ n < 112) is rows 4096 (n mod 4) .. + 4096 of block 4 + n / 4. Chunk n goes through
  staging buffer n mod 16: it is read from `x` into the buffer on the buffer's read semaphore and written from it to the same rows
  of the region's result on the buffer's write semaphore. Eight reads are started ahead; trip g of the loop (0 ≤ g < 7) handles chunks
  16 g .. 16 g + 15 in order — wait for the chunk's read, start its write, wait for the write of the chunk eight back (there is one
  from chunk 8 on), start the read of the chunk eight on (while there is one) —; the last eight writes are waited for after the loop.
-/
import proofs.«202537_g10033043603743_week1_w1_89_23_alg».proof.Proof.KBShare
import proofs.«202537_g10033043603743_week1_w1_89_23_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xT" => (Memref.whole Cert.Kernel.main_arg0 : Memref Cert.Kernel.sig Kind.tc Space.hbm Cert.Kernel.S32x16384x128 EltTy.f32)
local notation "pT" => (Memref.whole Cert.Kernel.main_v0 : Memref Cert.Kernel.sig Kind.tc Space.hbm Cert.Kernel.S32x16384x128 EltTy.f32)
local notation "sl0" => (Memref.whole Cert.Kernel.cc0_scratch0 : Memref Cert.Kernel.sig Kind.tc Space.vmem Cert.Kernel.S4096x128 EltTy.f32)
local notation "sl1" => (Memref.whole Cert.Kernel.cc0_scratch1 : Memref Cert.Kernel.sig Kind.tc Space.vmem Cert.Kernel.S4096x128 EltTy.f32)
local notation "sl2" => (Memref.whole Cert.Kernel.cc0_scratch2 : Memref Cert.Kernel.sig Kind.tc Space.vmem Cert.Kernel.S4096x128 EltTy.f32)
local notation "sl3" => (Memref.whole Cert.Kernel.cc0_scratch3 : Memref Cert.Kernel.sig Kind.tc Space.vmem Cert.Kernel.S4096x128 EltTy.f32)
local notation "sl4" => (Memref.whole Cert.Kernel.cc0_scratch4 : Memref Cert.Kernel.sig Kind.tc Space.vmem Cert.Kernel.S4096x128 EltTy.f32)
local notation "sl5" => (Memref.whole Cert.Kernel.cc0_scratch5 : Memref Cert.Kernel.sig Kind.tc Space.vmem Cert.Kernel.S4096x128 EltTy.f32)
local notation "sl6" => (Memref.whole Cert.Kernel.cc0_scratch6 : Memref Cert.Kernel.sig Kind.tc Space.vmem Cert.Kernel.S4096x128 EltTy.f32)
local notation "sl7" => (Memref.whole Cert.Kernel.cc0_scratch7 : Memref Cert.Kernel.sig Kind.tc Space.vmem Cert.Kernel.S4096x128 EltTy.f32)
local notation "sl8" => (Memref.whole Cert.Kernel.cc0_scratch8 : Memref Cert.Kernel.sig Kind.tc Space.vmem Cert.Kernel.S4096x128 EltTy.f32)
local notation "sl9" => (Memref.whole Cert.Kernel.cc0_scratch9 : Memref Cert.Kernel.sig Kind.tc Space.vmem Cert.Kernel.S4096x128 EltTy.f32)
local notation "sl10" => (Memref.whole Cert.Kernel.cc0_scratch10 : Memref Cert.Kernel.sig Kind.tc Space.vmem Cert.Kernel.S4096x128 EltTy.f32)
local notation "sl11" => (Memref.whole Cert.Kernel.cc0_scratch11 : Memref Cert.Kernel.sig Kind.tc Space.vmem Cert.Kernel.S4096x128 EltTy.f32)
local notation "sl12" => (Memref.whole Cert.Kernel.cc0_scratch12 : Memref Cert.Kernel.sig Kind.tc Space.vmem Cert.Kernel.S4096x128 EltTy.f32)
local notation "sl13" => (Memref.whole Cert.Kernel.cc0_scratch13 : Memref Cert.Kernel.sig Kind.tc Space.vmem Cert.Kernel.S4096x128 EltTy.f32)
local notation "sl14" => (Memref.whole Cert.Kernel.cc0_scratch14 : Memref Cert.Kernel.sig Kind.tc Space.vmem Cert.Kernel.S4096x128 EltTy.f32)
local notation "sl15" => (Memref.whole Cert.Kernel.cc0_scratch15 : Memref Cert.Kernel.sig Kind.tc Space.vmem Cert.Kernel.S4096x128 EltTy.f32)

/-! ## The chunks, and the printed offsets and guards in closed form -/

abbrev tOff (n : ℕ) : Fin 3 → ℕ := ![4 + n / 4, 4096 * (n % 4), 0]
theorem tOff_inb : ∀ (n : Fin 112), ∀ a, tOff n.val a + S1x4096x128.size a ≤ S32x16384x128.size a := by decide +kernel
abbrev chT (n : ℕ) : Fin 112 := ⟨n % 112, Nat.mod_lt _ (by decide)⟩
theorem chT_val {n : ℕ} (h : n < 112) : (chT n).val = n := Nat.mod_eq_of_lt h

abbrev xC (n : Fin 112) : Memref sig .tc .hbm S4096x128 .f32 :=
  ((xT).slice (Rect.unit (s := S32x16384x128) (tOff n.val) S1x4096x128.size (tOff_inb n)) (fun _ => rfl)).squeeze S4096x128 squeezes_S1x4096x128_S4096x128
abbrev pC (n : Fin 112) : Memref sig .tc .hbm S4096x128 .f32 :=
  ((pT).slice (Rect.unit (s := S32x16384x128) (tOff n.val) S1x4096x128.size (tOff_inb n)) (fun _ => rfl)).squeeze S4096x128 squeezes_S1x4096x128_S4096x128

theorem tcond1 : ∀ k : Fin k0_t1_loop.trips, k0_cond1 k = 1#1 := by decide +kernel
theorem tcond2 : ∀ k : Fin k0_t1_loop.trips, k0_cond2 k = 1#1 ↔ 1 ≤ k.val := by decide +kernel
theorem tcond3 : ∀ k : Fin k0_t1_loop.trips, k0_cond3 k = 1#1 := by decide +kernel
theorem toff1 : ∀ k : Fin k0_t1_loop.trips, k0_off1 k = tOff (16 * k.val + 0) := by decide +kernel
theorem toff3 : ∀ k : Fin k0_t1_loop.trips, k0_off3 k = tOff (16 * k.val + 0 + 8) := by decide +kernel
theorem tcond4 : ∀ k : Fin k0_t1_loop.trips, k0_cond4 k = 1#1 := by decide +kernel
theorem tcond5 : ∀ k : Fin k0_t1_loop.trips, k0_cond5 k = 1#1 ↔ 1 ≤ k.val := by decide +kernel
theorem tcond6 : ∀ k : Fin k0_t1_loop.trips, k0_cond6 k = 1#1 := by decide +kernel
theorem toff4 : ∀ k : Fin k0_t1_loop.trips, k0_off4 k = tOff (16 * k.val + 1) := by decide +kernel
theorem toff6 : ∀ k : Fin k0_t1_loop.trips, k0_off6 k = tOff (16 * k.val + 1 + 8) := by decide +kernel
theorem tcond7 : ∀ k : Fin k0_t1_loop.trips, k0_cond7 k = 1#1 := by decide +kernel
theorem tcond8 : ∀ k : Fin k0_t1_loop.trips, k0_cond8 k = 1#1 ↔ 1 ≤ k.val := by decide +kernel
theorem tcond9 : ∀ k : Fin k0_t1_loop.trips, k0_cond9 k = 1#1 := by decide +kernel
theorem toff7 : ∀ k : Fin k0_t1_loop.trips, k0_off7 k = tOff (16 * k.val + 2) := by decide +kernel
theorem toff9 : ∀ k : Fin k0_t1_loop.trips, k0_off9 k = tOff (16 * k.val + 2 + 8) := by decide +kernel
theorem tcond10 : ∀ k : Fin k0_t1_loop.trips, k0_cond10 k = 1#1 := by decide +kernel
theorem tcond11 : ∀ k : Fin k0_t1_loop.trips, k0_cond11 k = 1#1 ↔ 1 ≤ k.val := by decide +kernel
theorem tcond12 : ∀ k : Fin k0_t1_loop.trips, k0_cond12 k = 1#1 := by decide +kernel
theorem toff10 : ∀ k : Fin k0_t1_loop.trips, k0_off10 k = tOff (16 * k.val + 3) := by decide +kernel
theorem toff12 : ∀ k : Fin k0_t1_loop.trips, k0_off12 k = tOff (16 * k.val + 3 + 8) := by decide +kernel
theorem tcond13 : ∀ k : Fin k0_t1_loop.trips, k0_cond13 k = 1#1 := by decide +kernel
theorem tcond14 : ∀ k : Fin k0_t1_loop.trips, k0_cond14 k = 1#1 ↔ 1 ≤ k.val := by decide +kernel
theorem tcond15 : ∀ k : Fin k0_t1_loop.trips, k0_cond15 k = 1#1 := by decide +kernel
theorem toff13 : ∀ k : Fin k0_t1_loop.trips, k0_off13 k = tOff (16 * k.val + 4) := by decide +kernel
theorem toff15 : ∀ k : Fin k0_t1_loop.trips, k0_off15 k = tOff (16 * k.val + 4 + 8) := by decide +kernel
theorem tcond16 : ∀ k : Fin k0_t1_loop.trips, k0_cond16 k = 1#1 := by decide +kernel
theorem tcond17 : ∀ k : Fin k0_t1_loop.trips, k0_cond17 k = 1#1 ↔ 1 ≤ k.val := by decide +kernel
theorem tcond18 : ∀ k : Fin k0_t1_loop.trips, k0_cond18 k = 1#1 := by decide +kernel
theorem toff16 : ∀ k : Fin k0_t1_loop.trips, k0_off16 k = tOff (16 * k.val + 5) := by decide +kernel
theorem toff18 : ∀ k : Fin k0_t1_loop.trips, k0_off18 k = tOff (16 * k.val + 5 + 8) := by decide +kernel
theorem tcond19 : ∀ k : Fin k0_t1_loop.trips, k0_cond19 k = 1#1 := by decide +kernel
theorem tcond20 : ∀ k : Fin k0_t1_loop.trips, k0_cond20 k = 1#1 ↔ 1 ≤ k.val := by decide +kernel
theorem tcond21 : ∀ k : Fin k0_t1_loop.trips, k0_cond21 k = 1#1 := by decide +kernel
theorem toff19 : ∀ k : Fin k0_t1_loop.trips, k0_off19 k = tOff (16 * k.val + 6) := by decide +kernel
theorem toff21 : ∀ k : Fin k0_t1_loop.trips, k0_off21 k = tOff (16 * k.val + 6 + 8) := by decide +kernel
theorem tcond22 : ∀ k : Fin k0_t1_loop.trips, k0_cond22 k = 1#1 := by decide +kernel
theorem tcond23 : ∀ k : Fin k0_t1_loop.trips, k0_cond23 k = 1#1 ↔ 1 ≤ k.val := by decide +kernel
theorem tcond24 : ∀ k : Fin k0_t1_loop.trips, k0_cond24 k = 1#1 := by decide +kernel
theorem toff22 : ∀ k : Fin k0_t1_loop.trips, k0_off22 k = tOff (16 * k.val + 7) := by decide +kernel
theorem toff24 : ∀ k : Fin k0_t1_loop.trips, k0_off24 k = tOff (16 * k.val + 7 + 8) := by decide +kernel
theorem tcond25 : ∀ k : Fin k0_t1_loop.trips, k0_cond25 k = 1#1 := by decide +kernel
theorem tcond26 : ∀ k : Fin k0_t1_loop.trips, k0_cond26 k = 1#1 := by decide +kernel
theorem tcond27 : ∀ k : Fin k0_t1_loop.trips, k0_cond27 k = 1#1 ↔ k.val < 6 := by decide +kernel
theorem toff25 : ∀ k : Fin k0_t1_loop.trips, k0_off25 k = tOff (16 * k.val + 8) := by decide +kernel
theorem toff27 : ∀ k : Fin k0_t1_loop.trips, k0_off27 k = tOff (16 * k.val + 8 + 8) := by decide +kernel
theorem tcond28 : ∀ k : Fin k0_t1_loop.trips, k0_cond28 k = 1#1 := by decide +kernel
theorem tcond29 : ∀ k : Fin k0_t1_loop.trips, k0_cond29 k = 1#1 := by decide +kernel
theorem tcond30 : ∀ k : Fin k0_t1_loop.trips, k0_cond30 k = 1#1 ↔ k.val < 6 := by decide +kernel
theorem toff28 : ∀ k : Fin k0_t1_loop.trips, k0_off28 k = tOff (16 * k.val + 9) := by decide +kernel
theorem toff30 : ∀ k : Fin k0_t1_loop.trips, k0_off30 k = tOff (16 * k.val + 9 + 8) := by decide +kernel
theorem tcond31 : ∀ k : Fin k0_t1_loop.trips, k0_cond31 k = 1#1 := by decide +kernel
theorem tcond32 : ∀ k : Fin k0_t1_loop.trips, k0_cond32 k = 1#1 := by decide +kernel
theorem tcond33 : ∀ k : Fin k0_t1_loop.trips, k0_cond33 k = 1#1 ↔ k.val < 6 := by decide +kernel
theorem toff31 : ∀ k : Fin k0_t1_loop.trips, k0_off31 k = tOff (16 * k.val + 10) := by decide +kernel
theorem toff33 : ∀ k : Fin k0_t1_loop.trips, k0_off33 k = tOff (16 * k.val + 10 + 8) := by decide +kernel
theorem tcond34 : ∀ k : Fin k0_t1_loop.trips, k0_cond34 k = 1#1 := by decide +kernel
theorem tcond35 : ∀ k : Fin k0_t1_loop.trips, k0_cond35 k = 1#1 := by decide +kernel
theorem tcond36 : ∀ k : Fin k0_t1_loop.trips, k0_cond36 k = 1#1 ↔ k.val < 6 := by decide +kernel
theorem toff34 : ∀ k : Fin k0_t1_loop.trips, k0_off34 k = tOff (16 * k.val + 11) := by decide +kernel
theorem toff36 : ∀ k : Fin k0_t1_loop.trips, k0_off36 k = tOff (16 * k.val + 11 + 8) := by decide +kernel
theorem tcond37 : ∀ k : Fin k0_t1_loop.trips, k0_cond37 k = 1#1 := by decide +kernel
theorem tcond38 : ∀ k : Fin k0_t1_loop.trips, k0_cond38 k = 1#1 := by decide +kernel
theorem tcond39 : ∀ k : Fin k0_t1_loop.trips, k0_cond39 k = 1#1 ↔ k.val < 6 := by decide +kernel
theorem toff37 : ∀ k : Fin k0_t1_loop.trips, k0_off37 k = tOff (16 * k.val + 12) := by decide +kernel
theorem toff39 : ∀ k : Fin k0_t1_loop.trips, k0_off39 k = tOff (16 * k.val + 12 + 8) := by decide +kernel
theorem tcond40 : ∀ k : Fin k0_t1_loop.trips, k0_cond40 k = 1#1 := by decide +kernel
theorem tcond41 : ∀ k : Fin k0_t1_loop.trips, k0_cond41 k = 1#1 := by decide +kernel
theorem tcond42 : ∀ k : Fin k0_t1_loop.trips, k0_cond42 k = 1#1 ↔ k.val < 6 := by decide +kernel
theorem toff40 : ∀ k : Fin k0_t1_loop.trips, k0_off40 k = tOff (16 * k.val + 13) := by decide +kernel
theorem toff42 : ∀ k : Fin k0_t1_loop.trips, k0_off42 k = tOff (16 * k.val + 13 + 8) := by decide +kernel
theorem tcond43 : ∀ k : Fin k0_t1_loop.trips, k0_cond43 k = 1#1 := by decide +kernel
theorem tcond44 : ∀ k : Fin k0_t1_loop.trips, k0_cond44 k = 1#1 := by decide +kernel
theorem tcond45 : ∀ k : Fin k0_t1_loop.trips, k0_cond45 k = 1#1 ↔ k.val < 6 := by decide +kernel
theorem toff43 : ∀ k : Fin k0_t1_loop.trips, k0_off43 k = tOff (16 * k.val + 14) := by decide +kernel
theorem toff45 : ∀ k : Fin k0_t1_loop.trips, k0_off45 k = tOff (16 * k.val + 14 + 8) := by decide +kernel
theorem tcond46 : ∀ k : Fin k0_t1_loop.trips, k0_cond46 k = 1#1 := by decide +kernel
theorem tcond47 : ∀ k : Fin k0_t1_loop.trips, k0_cond47 k = 1#1 := by decide +kernel
theorem tcond48 : ∀ k : Fin k0_t1_loop.trips, k0_cond48 k = 1#1 ↔ k.val < 6 := by decide +kernel
theorem toff46 : ∀ k : Fin k0_t1_loop.trips, k0_off46 k = tOff (16 * k.val + 15) := by decide +kernel
theorem toff48 : ∀ k : Fin k0_t1_loop.trips, k0_off48 k = tOff (16 * k.val + 15 + 8) := by decide +kernel

/-! ## The TensorCore's scoped storage: sixteen staging buffers, thirty-two transfer semaphores -/

theorem dev_eq (d : Dev nD) : d = (0 : Dev nD) := Subsingleton.elim _ _

theorem scopedRefs_tc : scopedRefs sig (Proc.tc : Proc τ) = {Proc.devRef .tc (cc0_scratch0 : Ref sig .tc), Proc.devRef .tc (cc0_scratch1 : Ref sig .tc), Proc.devRef .tc (cc0_scratch2 : Ref sig .tc), Proc.devRef .tc (cc0_scratch3 : Ref sig .tc), Proc.devRef .tc (cc0_scratch4 : Ref sig .tc), Proc.devRef .tc (cc0_scratch5 : Ref sig .tc), Proc.devRef .tc (cc0_scratch6 : Ref sig .tc), Proc.devRef .tc (cc0_scratch7 : Ref sig .tc), Proc.devRef .tc (cc0_scratch8 : Ref sig .tc), Proc.devRef .tc (cc0_scratch9 : Ref sig .tc), Proc.devRef .tc (cc0_scratch10 : Ref sig .tc), Proc.devRef .tc (cc0_scratch11 : Ref sig .tc), Proc.devRef .tc (cc0_scratch12 : Ref sig .tc), Proc.devRef .tc (cc0_scratch13 : Ref sig .tc), Proc.devRef .tc (cc0_scratch14 : Ref sig .tc), Proc.devRef .tc (cc0_scratch15 : Ref sig .tc)} := by decide +kernel

theorem scopedCells_tc : scopedCells sig (SparseCore.T (0 : Dev nD) : Thread nD τ)
    = {((SparseCore.T (0 : Dev nD) : Thread nD τ), SemLoc.dma cc0_scratch16.sem), ((SparseCore.T (0 : Dev nD) : Thread nD τ), SemLoc.dma cc0_scratch17.sem), ((SparseCore.T (0 : Dev nD) : Thread nD τ), SemLoc.dma cc0_scratch18.sem), ((SparseCore.T (0 : Dev nD) : Thread nD τ), SemLoc.dma cc0_scratch19.sem), ((SparseCore.T (0 : Dev nD) : Thread nD τ), SemLoc.dma cc0_scratch20.sem), ((SparseCore.T (0 : Dev nD) : Thread nD τ), SemLoc.dma cc0_scratch21.sem), ((SparseCore.T (0 : Dev nD) : Thread nD τ), SemLoc.dma cc0_scratch22.sem), ((SparseCore.T (0 : Dev nD) : Thread nD τ), SemLoc.dma cc0_scratch23.sem), ((SparseCore.T (0 : Dev nD) : Thread nD τ), SemLoc.dma cc0_scratch24.sem), ((SparseCore.T (0 : Dev nD) : Thread nD τ), SemLoc.dma cc0_scratch25.sem), ((SparseCore.T (0 : Dev nD) : Thread nD τ), SemLoc.dma cc0_scratch26.sem), ((SparseCore.T (0 : Dev nD) : Thread nD τ), SemLoc.dma cc0_scratch27.sem), ((SparseCore.T (0 : Dev nD) : Thread nD τ), SemLoc.dma cc0_scratch28.sem), ((SparseCore.T (0 : Dev nD) : Thread nD τ), SemLoc.dma cc0_scratch29.sem), ((SparseCore.T (0 : Dev nD) : Thread nD τ), SemLoc.dma cc0_scratch30.sem), ((SparseCore.T (0 : Dev nD) : Thread nD τ), SemLoc.dma cc0_scratch31.sem), ((SparseCore.T (0 : Dev nD) : Thread nD τ), SemLoc.dma cc0_scratch32.sem), ((SparseCore.T (0 : Dev nD) : Thread nD τ), SemLoc.dma cc0_scratch33.sem), ((SparseCore.T (0 : Dev nD) : Thread nD τ), SemLoc.dma cc0_scratch34.sem), ((SparseCore.T (0 : Dev nD) : Thread nD τ), SemLoc.dma cc0_scratch35.sem), ((SparseCore.T (0 : Dev nD) : Thread nD τ), SemLoc.dma cc0_scratch36.sem), ((SparseCore.T (0 : Dev nD) : Thread nD τ), SemLoc.dma cc0_scratch37.sem), ((SparseCore.T (0 : Dev nD) : Thread nD τ), SemLoc.dma cc0_scratch38.sem), ((SparseCore.T (0 : Dev nD) : Thread nD τ), SemLoc.dma cc0_scratch39.sem), ((SparseCore.T (0 : Dev nD) : Thread nD τ), SemLoc.dma cc0_scratch40.sem), ((SparseCore.T (0 : Dev nD) : Thread nD τ), SemLoc.dma cc0_scratch41.sem), ((SparseCore.T (0 : Dev nD) : Thread nD τ), SemLoc.dma cc0_scratch42.sem), ((SparseCore.T (0 : Dev nD) : Thread nD τ), SemLoc.dma cc0_scratch43.sem), ((SparseCore.T (0 : Dev nD) : Thread nD τ), SemLoc.dma cc0_scratch44.sem), ((SparseCore.T (0 : Dev nD) : Thread nD τ), SemLoc.dma cc0_scratch45.sem), ((SparseCore.T (0 : Dev nD) : Thread nD τ), SemLoc.dma cc0_scratch46.sem), ((SparseCore.T (0 : Dev nD) : Thread nD τ), SemLoc.dma cc0_scratch47.sem)} := by decide +kernel

section TcBody

variable [FloatOps F] (m : (ℓ : Loc nD τ sig) → Buf (Elt F) ℓ) (d : Dev nD)

abbrev Tt : Thread nD τ := SparseCore.T d

/-- What a staging buffer holds once chunk `n` of `x` has landed in it, and the region result's chunk once written. -/
abbrev tData (n : Fin 112) : S4096x128.Idx → Elt F .f32 := (xC n).view.read (Elt F) (m (xLoc d))
abbrev pNew (fp : Buf (Elt F) (pLoc d)) (n : Fin 112) : Buf (Elt F) (pLoc d) := (pC n).view.writes (Elt F) fp [⟨Rect.whole S4096x128, tData m d n⟩]

abbrev xTp (n : ℕ) : sProp 𝕄 := (xC (chT n)).view.loc (Tt d) ↦[(xC (chT n)).view.set]{fullShare} m (xLoc d)
abbrev pTp (f : ℕ → Buf (Elt F) (pLoc d)) (n : ℕ) : sProp 𝕄 := (pC (chT n)).view.loc (Tt d) ↦[(pC (chT n)).view.set]{fullShare} f n

/-- The credit of one chunk's transfer. -/
abbrev NT : ℕ := 65536

abbrev rs0 : SemLoc sig := SemLoc.dma cc0_scratch16.sem
abbrev ws0 : SemLoc sig := SemLoc.dma cc0_scratch32.sem
abbrev rs1 : SemLoc sig := SemLoc.dma cc0_scratch17.sem
abbrev ws1 : SemLoc sig := SemLoc.dma cc0_scratch33.sem
abbrev rs2 : SemLoc sig := SemLoc.dma cc0_scratch18.sem
abbrev ws2 : SemLoc sig := SemLoc.dma cc0_scratch34.sem
abbrev rs3 : SemLoc sig := SemLoc.dma cc0_scratch19.sem
abbrev ws3 : SemLoc sig := SemLoc.dma cc0_scratch35.sem
abbrev rs4 : SemLoc sig := SemLoc.dma cc0_scratch20.sem
abbrev ws4 : SemLoc sig := SemLoc.dma cc0_scratch36.sem
abbrev rs5 : SemLoc sig := SemLoc.dma cc0_scratch21.sem
abbrev ws5 : SemLoc sig := SemLoc.dma cc0_scratch37.sem
abbrev rs6 : SemLoc sig := SemLoc.dma cc0_scratch22.sem
abbrev ws6 : SemLoc sig := SemLoc.dma cc0_scratch38.sem
abbrev rs7 : SemLoc sig := SemLoc.dma cc0_scratch23.sem
abbrev ws7 : SemLoc sig := SemLoc.dma cc0_scratch39.sem
abbrev rs8 : SemLoc sig := SemLoc.dma cc0_scratch24.sem
abbrev ws8 : SemLoc sig := SemLoc.dma cc0_scratch40.sem
abbrev rs9 : SemLoc sig := SemLoc.dma cc0_scratch25.sem
abbrev ws9 : SemLoc sig := SemLoc.dma cc0_scratch41.sem
abbrev rs10 : SemLoc sig := SemLoc.dma cc0_scratch26.sem
abbrev ws10 : SemLoc sig := SemLoc.dma cc0_scratch42.sem
abbrev rs11 : SemLoc sig := SemLoc.dma cc0_scratch27.sem
abbrev ws11 : SemLoc sig := SemLoc.dma cc0_scratch43.sem
abbrev rs12 : SemLoc sig := SemLoc.dma cc0_scratch28.sem
abbrev ws12 : SemLoc sig := SemLoc.dma cc0_scratch44.sem
abbrev rs13 : SemLoc sig := SemLoc.dma cc0_scratch29.sem
abbrev ws13 : SemLoc sig := SemLoc.dma cc0_scratch45.sem
abbrev rs14 : SemLoc sig := SemLoc.dma cc0_scratch30.sem
abbrev ws14 : SemLoc sig := SemLoc.dma cc0_scratch46.sem
abbrev rs15 : SemLoc sig := SemLoc.dma cc0_scratch31.sem
abbrev ws15 : SemLoc sig := SemLoc.dma cc0_scratch47.sem

/-- Chunk `n` on its way into a staging buffer; chunk `n` on its way out of it. -/
def rdF0 (n : ℕ) : sProp 𝕄 :=
  Transfers.Flight countersEmb (Tt d) rs0 (default : HIx 1) NT iprop(((sl0).view.loc (Tt d) ↦{fullShare} tData m d (chT n)) ∗ xTp m d n)
def wrF0 (fp : Buf (Elt F) (pLoc d)) (n : ℕ) : sProp 𝕄 :=
  Transfers.Flight countersEmb (Tt d) ws0 (default : HIx 1) NT
    iprop(pTp d (fun n => pNew m d fp (chT n)) n ∗ ((sl0).view.loc (Tt d) ↦{fullShare} tData m d (chT n)))
def rdF1 (n : ℕ) : sProp 𝕄 :=
  Transfers.Flight countersEmb (Tt d) rs1 (default : HIx 1) NT iprop(((sl1).view.loc (Tt d) ↦{fullShare} tData m d (chT n)) ∗ xTp m d n)
def wrF1 (fp : Buf (Elt F) (pLoc d)) (n : ℕ) : sProp 𝕄 :=
  Transfers.Flight countersEmb (Tt d) ws1 (default : HIx 1) NT
    iprop(pTp d (fun n => pNew m d fp (chT n)) n ∗ ((sl1).view.loc (Tt d) ↦{fullShare} tData m d (chT n)))
def rdF2 (n : ℕ) : sProp 𝕄 :=
  Transfers.Flight countersEmb (Tt d) rs2 (default : HIx 1) NT iprop(((sl2).view.loc (Tt d) ↦{fullShare} tData m d (chT n)) ∗ xTp m d n)
def wrF2 (fp : Buf (Elt F) (pLoc d)) (n : ℕ) : sProp 𝕄 :=
  Transfers.Flight countersEmb (Tt d) ws2 (default : HIx 1) NT
    iprop(pTp d (fun n => pNew m d fp (chT n)) n ∗ ((sl2).view.loc (Tt d) ↦{fullShare} tData m d (chT n)))
def rdF3 (n : ℕ) : sProp 𝕄 :=
  Transfers.Flight countersEmb (Tt d) rs3 (default : HIx 1) NT iprop(((sl3).view.loc (Tt d) ↦{fullShare} tData m d (chT n)) ∗ xTp m d n)
def wrF3 (fp : Buf (Elt F) (pLoc d)) (n : ℕ) : sProp 𝕄 :=
  Transfers.Flight countersEmb (Tt d) ws3 (default : HIx 1) NT
    iprop(pTp d (fun n => pNew m d fp (chT n)) n ∗ ((sl3).view.loc (Tt d) ↦{fullShare} tData m d (chT n)))
def rdF4 (n : ℕ) : sProp 𝕄 :=
  Transfers.Flight countersEmb (Tt d) rs4 (default : HIx 1) NT iprop(((sl4).view.loc (Tt d) ↦{fullShare} tData m d (chT n)) ∗ xTp m d n)
def wrF4 (fp : Buf (Elt F) (pLoc d)) (n : ℕ) : sProp 𝕄 :=
  Transfers.Flight countersEmb (Tt d) ws4 (default : HIx 1) NT
    iprop(pTp d (fun n => pNew m d fp (chT n)) n ∗ ((sl4).view.loc (Tt d) ↦{fullShare} tData m d (chT n)))
def rdF5 (n : ℕ) : sProp 𝕄 :=
  Transfers.Flight countersEmb (Tt d) rs5 (default : HIx 1) NT iprop(((sl5).view.loc (Tt d) ↦{fullShare} tData m d (chT n)) ∗ xTp m d n)
def wrF5 (fp : Buf (Elt F) (pLoc d)) (n : ℕ) : sProp 𝕄 :=
  Transfers.Flight countersEmb (Tt d) ws5 (default : HIx 1) NT
    iprop(pTp d (fun n => pNew m d fp (chT n)) n ∗ ((sl5).view.loc (Tt d) ↦{fullShare} tData m d (chT n)))
def rdF6 (n : ℕ) : sProp 𝕄 :=
  Transfers.Flight countersEmb (Tt d) rs6 (default : HIx 1) NT iprop(((sl6).view.loc (Tt d) ↦{fullShare} tData m d (chT n)) ∗ xTp m d n)
def wrF6 (fp : Buf (Elt F) (pLoc d)) (n : ℕ) : sProp 𝕄 :=
  Transfers.Flight countersEmb (Tt d) ws6 (default : HIx 1) NT
    iprop(pTp d (fun n => pNew m d fp (chT n)) n ∗ ((sl6).view.loc (Tt d) ↦{fullShare} tData m d (chT n)))
def rdF7 (n : ℕ) : sProp 𝕄 :=
  Transfers.Flight countersEmb (Tt d) rs7 (default : HIx 1) NT iprop(((sl7).view.loc (Tt d) ↦{fullShare} tData m d (chT n)) ∗ xTp m d n)
def wrF7 (fp : Buf (Elt F) (pLoc d)) (n : ℕ) : sProp 𝕄 :=
  Transfers.Flight countersEmb (Tt d) ws7 (default : HIx 1) NT
    iprop(pTp d (fun n => pNew m d fp (chT n)) n ∗ ((sl7).view.loc (Tt d) ↦{fullShare} tData m d (chT n)))
def rdF8 (n : ℕ) : sProp 𝕄 :=
  Transfers.Flight countersEmb (Tt d) rs8 (default : HIx 1) NT iprop(((sl8).view.loc (Tt d) ↦{fullShare} tData m d (chT n)) ∗ xTp m d n)
def wrF8 (fp : Buf (Elt F) (pLoc d)) (n : ℕ) : sProp 𝕄 :=
  Transfers.Flight countersEmb (Tt d) ws8 (default : HIx 1) NT
    iprop(pTp d (fun n => pNew m d fp (chT n)) n ∗ ((sl8).view.loc (Tt d) ↦{fullShare} tData m d (chT n)))
def rdF9 (n : ℕ) : sProp 𝕄 :=
  Transfers.Flight countersEmb (Tt d) rs9 (default : HIx 1) NT iprop(((sl9).view.loc (Tt d) ↦{fullShare} tData m d (chT n)) ∗ xTp m d n)
def wrF9 (fp : Buf (Elt F) (pLoc d)) (n : ℕ) : sProp 𝕄 :=
  Transfers.Flight countersEmb (Tt d) ws9 (default : HIx 1) NT
    iprop(pTp d (fun n => pNew m d fp (chT n)) n ∗ ((sl9).view.loc (Tt d) ↦{fullShare} tData m d (chT n)))
def rdF10 (n : ℕ) : sProp 𝕄 :=
  Transfers.Flight countersEmb (Tt d) rs10 (default : HIx 1) NT iprop(((sl10).view.loc (Tt d) ↦{fullShare} tData m d (chT n)) ∗ xTp m d n)
def wrF10 (fp : Buf (Elt F) (pLoc d)) (n : ℕ) : sProp 𝕄 :=
  Transfers.Flight countersEmb (Tt d) ws10 (default : HIx 1) NT
    iprop(pTp d (fun n => pNew m d fp (chT n)) n ∗ ((sl10).view.loc (Tt d) ↦{fullShare} tData m d (chT n)))
def rdF11 (n : ℕ) : sProp 𝕄 :=
  Transfers.Flight countersEmb (Tt d) rs11 (default : HIx 1) NT iprop(((sl11).view.loc (Tt d) ↦{fullShare} tData m d (chT n)) ∗ xTp m d n)
def wrF11 (fp : Buf (Elt F) (pLoc d)) (n : ℕ) : sProp 𝕄 :=
  Transfers.Flight countersEmb (Tt d) ws11 (default : HIx 1) NT
    iprop(pTp d (fun n => pNew m d fp (chT n)) n ∗ ((sl11).view.loc (Tt d) ↦{fullShare} tData m d (chT n)))
def rdF12 (n : ℕ) : sProp 𝕄 :=
  Transfers.Flight countersEmb (Tt d) rs12 (default : HIx 1) NT iprop(((sl12).view.loc (Tt d) ↦{fullShare} tData m d (chT n)) ∗ xTp m d n)
def wrF12 (fp : Buf (Elt F) (pLoc d)) (n : ℕ) : sProp 𝕄 :=
  Transfers.Flight countersEmb (Tt d) ws12 (default : HIx 1) NT
    iprop(pTp d (fun n => pNew m d fp (chT n)) n ∗ ((sl12).view.loc (Tt d) ↦{fullShare} tData m d (chT n)))
def rdF13 (n : ℕ) : sProp 𝕄 :=
  Transfers.Flight countersEmb (Tt d) rs13 (default : HIx 1) NT iprop(((sl13).view.loc (Tt d) ↦{fullShare} tData m d (chT n)) ∗ xTp m d n)
def wrF13 (fp : Buf (Elt F) (pLoc d)) (n : ℕ) : sProp 𝕄 :=
  Transfers.Flight countersEmb (Tt d) ws13 (default : HIx 1) NT
    iprop(pTp d (fun n => pNew m d fp (chT n)) n ∗ ((sl13).view.loc (Tt d) ↦{fullShare} tData m d (chT n)))
def rdF14 (n : ℕ) : sProp 𝕄 :=
  Transfers.Flight countersEmb (Tt d) rs14 (default : HIx 1) NT iprop(((sl14).view.loc (Tt d) ↦{fullShare} tData m d (chT n)) ∗ xTp m d n)
def wrF14 (fp : Buf (Elt F) (pLoc d)) (n : ℕ) : sProp 𝕄 :=
  Transfers.Flight countersEmb (Tt d) ws14 (default : HIx 1) NT
    iprop(pTp d (fun n => pNew m d fp (chT n)) n ∗ ((sl14).view.loc (Tt d) ↦{fullShare} tData m d (chT n)))
def rdF15 (n : ℕ) : sProp 𝕄 :=
  Transfers.Flight countersEmb (Tt d) rs15 (default : HIx 1) NT iprop(((sl15).view.loc (Tt d) ↦{fullShare} tData m d (chT n)) ∗ xTp m d n)
def wrF15 (fp : Buf (Elt F) (pLoc d)) (n : ℕ) : sProp 𝕄 :=
  Transfers.Flight countersEmb (Tt d) ws15 (default : HIx 1) NT
    iprop(pTp d (fun n => pNew m d fp (chT n)) n ∗ ((sl15).view.loc (Tt d) ↦{fullShare} tData m d (chT n)))

/-- Before trip `g` of the loop: chunks 16g .. 16g + 7 are on their way into buffers 0..7 (for g < 7), chunks 16g - 8 .. 16g - 1 on
    their way out of buffers 8..15 (for g ≥ 1); the other chunks of `x` are held, the result's chunks below 16g - 8 are written
    and those from 16g on untouched. -/
def invT (fp : Buf (Elt F) (pLoc d)) (O : CellTallies nD τ sig (HIx 1)) (W : Waits sig (HIx 1)) (g : ℕ) (_ : Unit) : sProp 𝕄 :=
  iprop(Transfers.MayWaits (Tt d) (none : HIx 1) O
    ∗ (if g < 7 then iprop(rdF0 m d (16 * g) ∗ rdF1 m d (16 * g + 1) ∗ rdF2 m d (16 * g + 2) ∗ rdF3 m d (16 * g + 3) ∗ rdF4 m d (16 * g + 4) ∗ rdF5 m d (16 * g + 5) ∗ rdF6 m d (16 * g + 6) ∗ rdF7 m d (16 * g + 7))
        else iprop((∃ f, (sl0).view.loc (Tt d) ↦{fullShare} f) ∗ (∃ f, (sl1).view.loc (Tt d) ↦{fullShare} f) ∗ (∃ f, (sl2).view.loc (Tt d) ↦{fullShare} f) ∗ (∃ f, (sl3).view.loc (Tt d) ↦{fullShare} f) ∗ (∃ f, (sl4).view.loc (Tt d) ↦{fullShare} f) ∗ (∃ f, (sl5).view.loc (Tt d) ↦{fullShare} f) ∗ (∃ f, (sl6).view.loc (Tt d) ↦{fullShare} f) ∗ (∃ f, (sl7).view.loc (Tt d) ↦{fullShare} f) ∗ semVal (Tt d, rs0) 0 ∗ semVal (Tt d, rs1) 0 ∗ semVal (Tt d, rs2) 0 ∗ semVal (Tt d, rs3) 0 ∗ semVal (Tt d, rs4) 0 ∗ semVal (Tt d, rs5) 0 ∗ semVal (Tt d, rs6) 0 ∗ semVal (Tt d, rs7) 0))
    ∗ (if g = 0 then iprop((∃ f, (sl8).view.loc (Tt d) ↦{fullShare} f) ∗ (∃ f, (sl9).view.loc (Tt d) ↦{fullShare} f) ∗ (∃ f, (sl10).view.loc (Tt d) ↦{fullShare} f) ∗ (∃ f, (sl11).view.loc (Tt d) ↦{fullShare} f) ∗ (∃ f, (sl12).view.loc (Tt d) ↦{fullShare} f) ∗ (∃ f, (sl13).view.loc (Tt d) ↦{fullShare} f) ∗ (∃ f, (sl14).view.loc (Tt d) ↦{fullShare} f) ∗ (∃ f, (sl15).view.loc (Tt d) ↦{fullShare} f) ∗ semVal (Tt d, ws8) 0 ∗ semVal (Tt d, ws9) 0 ∗ semVal (Tt d, ws10) 0 ∗ semVal (Tt d, ws11) 0 ∗ semVal (Tt d, ws12) 0 ∗ semVal (Tt d, ws13) 0 ∗ semVal (Tt d, ws14) 0 ∗ semVal (Tt d, ws15) 0)
        else iprop(wrF8 m d fp (16 * g - 8) ∗ wrF9 m d fp (16 * g - 8 + 1) ∗ wrF10 m d fp (16 * g - 8 + 2) ∗ wrF11 m d fp (16 * g - 8 + 3) ∗ wrF12 m d fp (16 * g - 8 + 4) ∗ wrF13 m d fp (16 * g - 8 + 5) ∗ wrF14 m d fp (16 * g - 8 + 6) ∗ wrF15 m d fp (16 * g - 8 + 7)))
    ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
    ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
    ∗ bigSep (Finset.Ico 0 (16 * g)) (xTp m d) ∗ bigSep (Finset.Ico (16 * g + 8) 112) (xTp m d)
    ∗ bigSep (Finset.Ico 0 (16 * g - 8)) (pTp d fun n => pNew m d fp (chT n)) ∗ bigSep (Finset.Ico (16 * g) 112) (pTp d fun _ => fp)
    ∗ ∃ W', ⌜∀ p ∈ W', p ∈ W ∨ p.2 = none⌝ ∗ owes (Tt d) O W')

/-! ## Families over an interval of chunk numbers, and the chunks as the program spells them -/

omit [FloatOps F] in
theorem icoT_pop {a b : ℕ} (h : a < b) (Ψ : ℕ → sProp 𝕄) : bigSep (Finset.Ico a b) Ψ = iprop(Ψ a ∗ bigSep (Finset.Ico (a + 1) b) Ψ) := by
  have e : Finset.Ico a b = insert a (Finset.Ico (a + 1) b) := by
    ext x; simp only [Finset.mem_insert, Finset.mem_Ico]; omega
  rw [e, bigSep_insert (by simp)]; rfl
omit [FloatOps F] in
theorem icoT_push {a b : ℕ} (h : a ≤ b) (Ψ : ℕ → sProp 𝕄) : bigSep (Finset.Ico a (b + 1)) Ψ = iprop(Ψ b ∗ bigSep (Finset.Ico a b) Ψ) := by
  have e : Finset.Ico a (b + 1) = insert b (Finset.Ico a b) := by
    ext x; simp only [Finset.mem_insert, Finset.mem_Ico]; omega
  rw [e, bigSep_insert (by simp)]; rfl

theorem xTp_spell (n : ℕ) {off : Fin 3 → ℕ} (e : off = tOff (chT n).val) (p : ∀ a, off a + S1x4096x128.size a ≤ S32x16384x128.size a)
    (hs : ∀ a, (Rect.unit (s := S32x16384x128) off S1x4096x128.size p).stride a = 1) :
    xTp m d n = ((((xT).slice (Rect.unit (s := S32x16384x128) off S1x4096x128.size p) hs).squeeze S4096x128 squeezes_S1x4096x128_S4096x128).view.loc (Tt d)
      ↦[(((xT).slice (Rect.unit (s := S32x16384x128) off S1x4096x128.size p) hs).squeeze S4096x128 squeezes_S1x4096x128_S4096x128).view.set]{fullShare} m (xLoc d) : sProp 𝕄) := by
  subst e; rfl
theorem pTp_spell (f : ℕ → Buf (Elt F) (pLoc d)) (n : ℕ) {off : Fin 3 → ℕ} (e : off = tOff (chT n).val) (p : ∀ a, off a + S1x4096x128.size a ≤ S32x16384x128.size a)
    (hs : ∀ a, (Rect.unit (s := S32x16384x128) off S1x4096x128.size p).stride a = 1) :
    pTp d f n = ((((pT).slice (Rect.unit (s := S32x16384x128) off S1x4096x128.size p) hs).squeeze S4096x128 squeezes_S1x4096x128_S4096x128).view.loc (Tt d)
      ↦[(((pT).slice (Rect.unit (s := S32x16384x128) off S1x4096x128.size p) hs).squeeze S4096x128 squeezes_S1x4096x128_S4096x128).view.set]{fullShare} f n : sProp 𝕄) := by
  subst e; rfl
theorem tData_spell (n : ℕ) {off : Fin 3 → ℕ} (e : off = tOff (chT n).val) (p : ∀ a, off a + S1x4096x128.size a ≤ S32x16384x128.size a)
    (hs : ∀ a, (Rect.unit (s := S32x16384x128) off S1x4096x128.size p).stride a = 1) :
    tData m d (chT n) = (((xT).slice (Rect.unit (s := S32x16384x128) off S1x4096x128.size p) hs).squeeze S4096x128 squeezes_S1x4096x128_S4096x128).view.read (Elt F) (m (xLoc d)) := by
  subst e; rfl
theorem pDone_spell (fp : Buf (Elt F) (pLoc d)) (n : ℕ) {off : Fin 3 → ℕ} (e : off = tOff (chT n).val) (p : ∀ a, off a + S1x4096x128.size a ≤ S32x16384x128.size a)
    (hs : ∀ a, (Rect.unit (s := S32x16384x128) off S1x4096x128.size p).stride a = 1) (w : S4096x128.Idx → Elt F .f32) (hw : w = tData m d (chT n)) :
    pTp d (fun n => pNew m d fp (chT n)) n
      = ((((pT).slice (Rect.unit (s := S32x16384x128) off S1x4096x128.size p) hs).squeeze S4096x128 squeezes_S1x4096x128_S4096x128).view.loc (Tt d)
        ↦[(((pT).slice (Rect.unit (s := S32x16384x128) off S1x4096x128.size p) hs).squeeze S4096x128 squeezes_S1x4096x128_S4096x128).view.set]{fullShare}
          (((pT).slice (Rect.unit (s := S32x16384x128) off S1x4096x128.size p) hs).squeeze S4096x128 squeezes_S1x4096x128_S4096x128).view.writes (Elt F) fp [⟨Rect.whole S4096x128, w⟩] : sProp 𝕄) := by
  subst e hw; rfl

/-! ## A transfer in flight under any spelling, as the invariant's -/

theorem rdT_conv0 (n : ℕ) (sm : SemLoc sig) (hsm : sm = rs0) (fold : Buf (Elt F) ((sl0).view.loc (Tt d))) (w : S4096x128.Idx → Elt F .f32) (hw : w = tData m d (chT n))
    (P : sProp 𝕄) (hP : P = xTp m d n) :
    (Transfers.Flight countersEmb (Tt d) sm (default : HIx 1) NT
        iprop(((sl0).view.loc (Tt d) ↦{fullShare} (sl0).view.write (Elt F) fold w Finset.univ) ∗ P) : sProp 𝕄)
      ⊢ rdF0 m d n := by
  subst hw hP hsm
  unfold rdF0
  refine Transfers.Flight_mono countersEmb (Tt d) ?_
  simp only [Memref.view_whole, View.write_whole_univ]
  exact Entails.refl _
theorem wrT_conv0 (fp : Buf (Elt F) (pLoc d)) (n : ℕ) (sm : SemLoc sig) (hsm : sm = ws0) (f : Buf (Elt F) ((sl0).view.loc (Tt d))) (hf : f = tData m d (chT n))
    (P : sProp 𝕄) (hP : P = pTp d (fun n => pNew m d fp (chT n)) n) :
    (Transfers.Flight countersEmb (Tt d) sm (default : HIx 1) NT
        iprop(P ∗ ((sl0).view.loc (Tt d) ↦[(sl0).view.set]{fullShare} f)) : sProp 𝕄)
      ⊢ wrF0 m d fp n := by
  subst hf hP hsm
  unfold wrF0
  refine Transfers.Flight_mono countersEmb (Tt d) ?_
  simp only [Memref.view_whole, View.set_whole]
  exact Entails.refl _

theorem rdT_conv1 (n : ℕ) (sm : SemLoc sig) (hsm : sm = rs1) (fold : Buf (Elt F) ((sl1).view.loc (Tt d))) (w : S4096x128.Idx → Elt F .f32) (hw : w = tData m d (chT n))
    (P : sProp 𝕄) (hP : P = xTp m d n) :
    (Transfers.Flight countersEmb (Tt d) sm (default : HIx 1) NT
        iprop(((sl1).view.loc (Tt d) ↦{fullShare} (sl1).view.write (Elt F) fold w Finset.univ) ∗ P) : sProp 𝕄)
      ⊢ rdF1 m d n := by
  subst hw hP hsm
  unfold rdF1
  refine Transfers.Flight_mono countersEmb (Tt d) ?_
  simp only [Memref.view_whole, View.write_whole_univ]
  exact Entails.refl _
theorem wrT_conv1 (fp : Buf (Elt F) (pLoc d)) (n : ℕ) (sm : SemLoc sig) (hsm : sm = ws1) (f : Buf (Elt F) ((sl1).view.loc (Tt d))) (hf : f = tData m d (chT n))
    (P : sProp 𝕄) (hP : P = pTp d (fun n => pNew m d fp (chT n)) n) :
    (Transfers.Flight countersEmb (Tt d) sm (default : HIx 1) NT
        iprop(P ∗ ((sl1).view.loc (Tt d) ↦[(sl1).view.set]{fullShare} f)) : sProp 𝕄)
      ⊢ wrF1 m d fp n := by
  subst hf hP hsm
  unfold wrF1
  refine Transfers.Flight_mono countersEmb (Tt d) ?_
  simp only [Memref.view_whole, View.set_whole]
  exact Entails.refl _

theorem rdT_conv2 (n : ℕ) (sm : SemLoc sig) (hsm : sm = rs2) (fold : Buf (Elt F) ((sl2).view.loc (Tt d))) (w : S4096x128.Idx → Elt F .f32) (hw : w = tData m d (chT n))
    (P : sProp 𝕄) (hP : P = xTp m d n) :
    (Transfers.Flight countersEmb (Tt d) sm (default : HIx 1) NT
        iprop(((sl2).view.loc (Tt d) ↦{fullShare} (sl2).view.write (Elt F) fold w Finset.univ) ∗ P) : sProp 𝕄)
      ⊢ rdF2 m d n := by
  subst hw hP hsm
  unfold rdF2
  refine Transfers.Flight_mono countersEmb (Tt d) ?_
  simp only [Memref.view_whole, View.write_whole_univ]
  exact Entails.refl _
theorem wrT_conv2 (fp : Buf (Elt F) (pLoc d)) (n : ℕ) (sm : SemLoc sig) (hsm : sm = ws2) (f : Buf (Elt F) ((sl2).view.loc (Tt d))) (hf : f = tData m d (chT n))
    (P : sProp 𝕄) (hP : P = pTp d (fun n => pNew m d fp (chT n)) n) :
    (Transfers.Flight countersEmb (Tt d) sm (default : HIx 1) NT
        iprop(P ∗ ((sl2).view.loc (Tt d) ↦[(sl2).view.set]{fullShare} f)) : sProp 𝕄)
      ⊢ wrF2 m d fp n := by
  subst hf hP hsm
  unfold wrF2
  refine Transfers.Flight_mono countersEmb (Tt d) ?_
  simp only [Memref.view_whole, View.set_whole]
  exact Entails.refl _

theorem rdT_conv3 (n : ℕ) (sm : SemLoc sig) (hsm : sm = rs3) (fold : Buf (Elt F) ((sl3).view.loc (Tt d))) (w : S4096x128.Idx → Elt F .f32) (hw : w = tData m d (chT n))
    (P : sProp 𝕄) (hP : P = xTp m d n) :
    (Transfers.Flight countersEmb (Tt d) sm (default : HIx 1) NT
        iprop(((sl3).view.loc (Tt d) ↦{fullShare} (sl3).view.write (Elt F) fold w Finset.univ) ∗ P) : sProp 𝕄)
      ⊢ rdF3 m d n := by
  subst hw hP hsm
  unfold rdF3
  refine Transfers.Flight_mono countersEmb (Tt d) ?_
  simp only [Memref.view_whole, View.write_whole_univ]
  exact Entails.refl _
theorem wrT_conv3 (fp : Buf (Elt F) (pLoc d)) (n : ℕ) (sm : SemLoc sig) (hsm : sm = ws3) (f : Buf (Elt F) ((sl3).view.loc (Tt d))) (hf : f = tData m d (chT n))
    (P : sProp 𝕄) (hP : P = pTp d (fun n => pNew m d fp (chT n)) n) :
    (Transfers.Flight countersEmb (Tt d) sm (default : HIx 1) NT
        iprop(P ∗ ((sl3).view.loc (Tt d) ↦[(sl3).view.set]{fullShare} f)) : sProp 𝕄)
      ⊢ wrF3 m d fp n := by
  subst hf hP hsm
  unfold wrF3
  refine Transfers.Flight_mono countersEmb (Tt d) ?_
  simp only [Memref.view_whole, View.set_whole]
  exact Entails.refl _

theorem rdT_conv4 (n : ℕ) (sm : SemLoc sig) (hsm : sm = rs4) (fold : Buf (Elt F) ((sl4).view.loc (Tt d))) (w : S4096x128.Idx → Elt F .f32) (hw : w = tData m d (chT n))
    (P : sProp 𝕄) (hP : P = xTp m d n) :
    (Transfers.Flight countersEmb (Tt d) sm (default : HIx 1) NT
        iprop(((sl4).view.loc (Tt d) ↦{fullShare} (sl4).view.write (Elt F) fold w Finset.univ) ∗ P) : sProp 𝕄)
      ⊢ rdF4 m d n := by
  subst hw hP hsm
  unfold rdF4
  refine Transfers.Flight_mono countersEmb (Tt d) ?_
  simp only [Memref.view_whole, View.write_whole_univ]
  exact Entails.refl _
theorem wrT_conv4 (fp : Buf (Elt F) (pLoc d)) (n : ℕ) (sm : SemLoc sig) (hsm : sm = ws4) (f : Buf (Elt F) ((sl4).view.loc (Tt d))) (hf : f = tData m d (chT n))
    (P : sProp 𝕄) (hP : P = pTp d (fun n => pNew m d fp (chT n)) n) :
    (Transfers.Flight countersEmb (Tt d) sm (default : HIx 1) NT
        iprop(P ∗ ((sl4).view.loc (Tt d) ↦[(sl4).view.set]{fullShare} f)) : sProp 𝕄)
      ⊢ wrF4 m d fp n := by
  subst hf hP hsm
  unfold wrF4
  refine Transfers.Flight_mono countersEmb (Tt d) ?_
  simp only [Memref.view_whole, View.set_whole]
  exact Entails.refl _

theorem rdT_conv5 (n : ℕ) (sm : SemLoc sig) (hsm : sm = rs5) (fold : Buf (Elt F) ((sl5).view.loc (Tt d))) (w : S4096x128.Idx → Elt F .f32) (hw : w = tData m d (chT n))
    (P : sProp 𝕄) (hP : P = xTp m d n) :
    (Transfers.Flight countersEmb (Tt d) sm (default : HIx 1) NT
        iprop(((sl5).view.loc (Tt d) ↦{fullShare} (sl5).view.write (Elt F) fold w Finset.univ) ∗ P) : sProp 𝕄)
      ⊢ rdF5 m d n := by
  subst hw hP hsm
  unfold rdF5
  refine Transfers.Flight_mono countersEmb (Tt d) ?_
  simp only [Memref.view_whole, View.write_whole_univ]
  exact Entails.refl _
theorem wrT_conv5 (fp : Buf (Elt F) (pLoc d)) (n : ℕ) (sm : SemLoc sig) (hsm : sm = ws5) (f : Buf (Elt F) ((sl5).view.loc (Tt d))) (hf : f = tData m d (chT n))
    (P : sProp 𝕄) (hP : P = pTp d (fun n => pNew m d fp (chT n)) n) :
    (Transfers.Flight countersEmb (Tt d) sm (default : HIx 1) NT
        iprop(P ∗ ((sl5).view.loc (Tt d) ↦[(sl5).view.set]{fullShare} f)) : sProp 𝕄)
      ⊢ wrF5 m d fp n := by
  subst hf hP hsm
  unfold wrF5
  refine Transfers.Flight_mono countersEmb (Tt d) ?_
  simp only [Memref.view_whole, View.set_whole]
  exact Entails.refl _

theorem rdT_conv6 (n : ℕ) (sm : SemLoc sig) (hsm : sm = rs6) (fold : Buf (Elt F) ((sl6).view.loc (Tt d))) (w : S4096x128.Idx → Elt F .f32) (hw : w = tData m d (chT n))
    (P : sProp 𝕄) (hP : P = xTp m d n) :
    (Transfers.Flight countersEmb (Tt d) sm (default : HIx 1) NT
        iprop(((sl6).view.loc (Tt d) ↦{fullShare} (sl6).view.write (Elt F) fold w Finset.univ) ∗ P) : sProp 𝕄)
      ⊢ rdF6 m d n := by
  subst hw hP hsm
  unfold rdF6
  refine Transfers.Flight_mono countersEmb (Tt d) ?_
  simp only [Memref.view_whole, View.write_whole_univ]
  exact Entails.refl _
theorem wrT_conv6 (fp : Buf (Elt F) (pLoc d)) (n : ℕ) (sm : SemLoc sig) (hsm : sm = ws6) (f : Buf (Elt F) ((sl6).view.loc (Tt d))) (hf : f = tData m d (chT n))
    (P : sProp 𝕄) (hP : P = pTp d (fun n => pNew m d fp (chT n)) n) :
    (Transfers.Flight countersEmb (Tt d) sm (default : HIx 1) NT
        iprop(P ∗ ((sl6).view.loc (Tt d) ↦[(sl6).view.set]{fullShare} f)) : sProp 𝕄)
      ⊢ wrF6 m d fp n := by
  subst hf hP hsm
  unfold wrF6
  refine Transfers.Flight_mono countersEmb (Tt d) ?_
  simp only [Memref.view_whole, View.set_whole]
  exact Entails.refl _

theorem rdT_conv7 (n : ℕ) (sm : SemLoc sig) (hsm : sm = rs7) (fold : Buf (Elt F) ((sl7).view.loc (Tt d))) (w : S4096x128.Idx → Elt F .f32) (hw : w = tData m d (chT n))
    (P : sProp 𝕄) (hP : P = xTp m d n) :
    (Transfers.Flight countersEmb (Tt d) sm (default : HIx 1) NT
        iprop(((sl7).view.loc (Tt d) ↦{fullShare} (sl7).view.write (Elt F) fold w Finset.univ) ∗ P) : sProp 𝕄)
      ⊢ rdF7 m d n := by
  subst hw hP hsm
  unfold rdF7
  refine Transfers.Flight_mono countersEmb (Tt d) ?_
  simp only [Memref.view_whole, View.write_whole_univ]
  exact Entails.refl _
theorem wrT_conv7 (fp : Buf (Elt F) (pLoc d)) (n : ℕ) (sm : SemLoc sig) (hsm : sm = ws7) (f : Buf (Elt F) ((sl7).view.loc (Tt d))) (hf : f = tData m d (chT n))
    (P : sProp 𝕄) (hP : P = pTp d (fun n => pNew m d fp (chT n)) n) :
    (Transfers.Flight countersEmb (Tt d) sm (default : HIx 1) NT
        iprop(P ∗ ((sl7).view.loc (Tt d) ↦[(sl7).view.set]{fullShare} f)) : sProp 𝕄)
      ⊢ wrF7 m d fp n := by
  subst hf hP hsm
  unfold wrF7
  refine Transfers.Flight_mono countersEmb (Tt d) ?_
  simp only [Memref.view_whole, View.set_whole]
  exact Entails.refl _

theorem rdT_conv8 (n : ℕ) (sm : SemLoc sig) (hsm : sm = rs8) (fold : Buf (Elt F) ((sl8).view.loc (Tt d))) (w : S4096x128.Idx → Elt F .f32) (hw : w = tData m d (chT n))
    (P : sProp 𝕄) (hP : P = xTp m d n) :
    (Transfers.Flight countersEmb (Tt d) sm (default : HIx 1) NT
        iprop(((sl8).view.loc (Tt d) ↦{fullShare} (sl8).view.write (Elt F) fold w Finset.univ) ∗ P) : sProp 𝕄)
      ⊢ rdF8 m d n := by
  subst hw hP hsm
  unfold rdF8
  refine Transfers.Flight_mono countersEmb (Tt d) ?_
  simp only [Memref.view_whole, View.write_whole_univ]
  exact Entails.refl _
theorem wrT_conv8 (fp : Buf (Elt F) (pLoc d)) (n : ℕ) (sm : SemLoc sig) (hsm : sm = ws8) (f : Buf (Elt F) ((sl8).view.loc (Tt d))) (hf : f = tData m d (chT n))
    (P : sProp 𝕄) (hP : P = pTp d (fun n => pNew m d fp (chT n)) n) :
    (Transfers.Flight countersEmb (Tt d) sm (default : HIx 1) NT
        iprop(P ∗ ((sl8).view.loc (Tt d) ↦[(sl8).view.set]{fullShare} f)) : sProp 𝕄)
      ⊢ wrF8 m d fp n := by
  subst hf hP hsm
  unfold wrF8
  refine Transfers.Flight_mono countersEmb (Tt d) ?_
  simp only [Memref.view_whole, View.set_whole]
  exact Entails.refl _

theorem rdT_conv9 (n : ℕ) (sm : SemLoc sig) (hsm : sm = rs9) (fold : Buf (Elt F) ((sl9).view.loc (Tt d))) (w : S4096x128.Idx → Elt F .f32) (hw : w = tData m d (chT n))
    (P : sProp 𝕄) (hP : P = xTp m d n) :
    (Transfers.Flight countersEmb (Tt d) sm (default : HIx 1) NT
        iprop(((sl9).view.loc (Tt d) ↦{fullShare} (sl9).view.write (Elt F) fold w Finset.univ) ∗ P) : sProp 𝕄)
      ⊢ rdF9 m d n := by
  subst hw hP hsm
  unfold rdF9
  refine Transfers.Flight_mono countersEmb (Tt d) ?_
  simp only [Memref.view_whole, View.write_whole_univ]
  exact Entails.refl _
theorem wrT_conv9 (fp : Buf (Elt F) (pLoc d)) (n : ℕ) (sm : SemLoc sig) (hsm : sm = ws9) (f : Buf (Elt F) ((sl9).view.loc (Tt d))) (hf : f = tData m d (chT n))
    (P : sProp 𝕄) (hP : P = pTp d (fun n => pNew m d fp (chT n)) n) :
    (Transfers.Flight countersEmb (Tt d) sm (default : HIx 1) NT
        iprop(P ∗ ((sl9).view.loc (Tt d) ↦[(sl9).view.set]{fullShare} f)) : sProp 𝕄)
      ⊢ wrF9 m d fp n := by
  subst hf hP hsm
  unfold wrF9
  refine Transfers.Flight_mono countersEmb (Tt d) ?_
  simp only [Memref.view_whole, View.set_whole]
  exact Entails.refl _

theorem rdT_conv10 (n : ℕ) (sm : SemLoc sig) (hsm : sm = rs10) (fold : Buf (Elt F) ((sl10).view.loc (Tt d))) (w : S4096x128.Idx → Elt F .f32) (hw : w = tData m d (chT n))
    (P : sProp 𝕄) (hP : P = xTp m d n) :
    (Transfers.Flight countersEmb (Tt d) sm (default : HIx 1) NT
        iprop(((sl10).view.loc (Tt d) ↦{fullShare} (sl10).view.write (Elt F) fold w Finset.univ) ∗ P) : sProp 𝕄)
      ⊢ rdF10 m d n := by
  subst hw hP hsm
  unfold rdF10
  refine Transfers.Flight_mono countersEmb (Tt d) ?_
  simp only [Memref.view_whole, View.write_whole_univ]
  exact Entails.refl _
theorem wrT_conv10 (fp : Buf (Elt F) (pLoc d)) (n : ℕ) (sm : SemLoc sig) (hsm : sm = ws10) (f : Buf (Elt F) ((sl10).view.loc (Tt d))) (hf : f = tData m d (chT n))
    (P : sProp 𝕄) (hP : P = pTp d (fun n => pNew m d fp (chT n)) n) :
    (Transfers.Flight countersEmb (Tt d) sm (default : HIx 1) NT
        iprop(P ∗ ((sl10).view.loc (Tt d) ↦[(sl10).view.set]{fullShare} f)) : sProp 𝕄)
      ⊢ wrF10 m d fp n := by
  subst hf hP hsm
  unfold wrF10
  refine Transfers.Flight_mono countersEmb (Tt d) ?_
  simp only [Memref.view_whole, View.set_whole]
  exact Entails.refl _

theorem rdT_conv11 (n : ℕ) (sm : SemLoc sig) (hsm : sm = rs11) (fold : Buf (Elt F) ((sl11).view.loc (Tt d))) (w : S4096x128.Idx → Elt F .f32) (hw : w = tData m d (chT n))
    (P : sProp 𝕄) (hP : P = xTp m d n) :
    (Transfers.Flight countersEmb (Tt d) sm (default : HIx 1) NT
        iprop(((sl11).view.loc (Tt d) ↦{fullShare} (sl11).view.write (Elt F) fold w Finset.univ) ∗ P) : sProp 𝕄)
      ⊢ rdF11 m d n := by
  subst hw hP hsm
  unfold rdF11
  refine Transfers.Flight_mono countersEmb (Tt d) ?_
  simp only [Memref.view_whole, View.write_whole_univ]
  exact Entails.refl _
theorem wrT_conv11 (fp : Buf (Elt F) (pLoc d)) (n : ℕ) (sm : SemLoc sig) (hsm : sm = ws11) (f : Buf (Elt F) ((sl11).view.loc (Tt d))) (hf : f = tData m d (chT n))
    (P : sProp 𝕄) (hP : P = pTp d (fun n => pNew m d fp (chT n)) n) :
    (Transfers.Flight countersEmb (Tt d) sm (default : HIx 1) NT
        iprop(P ∗ ((sl11).view.loc (Tt d) ↦[(sl11).view.set]{fullShare} f)) : sProp 𝕄)
      ⊢ wrF11 m d fp n := by
  subst hf hP hsm
  unfold wrF11
  refine Transfers.Flight_mono countersEmb (Tt d) ?_
  simp only [Memref.view_whole, View.set_whole]
  exact Entails.refl _

theorem rdT_conv12 (n : ℕ) (sm : SemLoc sig) (hsm : sm = rs12) (fold : Buf (Elt F) ((sl12).view.loc (Tt d))) (w : S4096x128.Idx → Elt F .f32) (hw : w = tData m d (chT n))
    (P : sProp 𝕄) (hP : P = xTp m d n) :
    (Transfers.Flight countersEmb (Tt d) sm (default : HIx 1) NT
        iprop(((sl12).view.loc (Tt d) ↦{fullShare} (sl12).view.write (Elt F) fold w Finset.univ) ∗ P) : sProp 𝕄)
      ⊢ rdF12 m d n := by
  subst hw hP hsm
  unfold rdF12
  refine Transfers.Flight_mono countersEmb (Tt d) ?_
  simp only [Memref.view_whole, View.write_whole_univ]
  exact Entails.refl _
theorem wrT_conv12 (fp : Buf (Elt F) (pLoc d)) (n : ℕ) (sm : SemLoc sig) (hsm : sm = ws12) (f : Buf (Elt F) ((sl12).view.loc (Tt d))) (hf : f = tData m d (chT n))
    (P : sProp 𝕄) (hP : P = pTp d (fun n => pNew m d fp (chT n)) n) :
    (Transfers.Flight countersEmb (Tt d) sm (default : HIx 1) NT
        iprop(P ∗ ((sl12).view.loc (Tt d) ↦[(sl12).view.set]{fullShare} f)) : sProp 𝕄)
      ⊢ wrF12 m d fp n := by
  subst hf hP hsm
  unfold wrF12
  refine Transfers.Flight_mono countersEmb (Tt d) ?_
  simp only [Memref.view_whole, View.set_whole]
  exact Entails.refl _

theorem rdT_conv13 (n : ℕ) (sm : SemLoc sig) (hsm : sm = rs13) (fold : Buf (Elt F) ((sl13).view.loc (Tt d))) (w : S4096x128.Idx → Elt F .f32) (hw : w = tData m d (chT n))
    (P : sProp 𝕄) (hP : P = xTp m d n) :
    (Transfers.Flight countersEmb (Tt d) sm (default : HIx 1) NT
        iprop(((sl13).view.loc (Tt d) ↦{fullShare} (sl13).view.write (Elt F) fold w Finset.univ) ∗ P) : sProp 𝕄)
      ⊢ rdF13 m d n := by
  subst hw hP hsm
  unfold rdF13
  refine Transfers.Flight_mono countersEmb (Tt d) ?_
  simp only [Memref.view_whole, View.write_whole_univ]
  exact Entails.refl _
theorem wrT_conv13 (fp : Buf (Elt F) (pLoc d)) (n : ℕ) (sm : SemLoc sig) (hsm : sm = ws13) (f : Buf (Elt F) ((sl13).view.loc (Tt d))) (hf : f = tData m d (chT n))
    (P : sProp 𝕄) (hP : P = pTp d (fun n => pNew m d fp (chT n)) n) :
    (Transfers.Flight countersEmb (Tt d) sm (default : HIx 1) NT
        iprop(P ∗ ((sl13).view.loc (Tt d) ↦[(sl13).view.set]{fullShare} f)) : sProp 𝕄)
      ⊢ wrF13 m d fp n := by
  subst hf hP hsm
  unfold wrF13
  refine Transfers.Flight_mono countersEmb (Tt d) ?_
  simp only [Memref.view_whole, View.set_whole]
  exact Entails.refl _

theorem rdT_conv14 (n : ℕ) (sm : SemLoc sig) (hsm : sm = rs14) (fold : Buf (Elt F) ((sl14).view.loc (Tt d))) (w : S4096x128.Idx → Elt F .f32) (hw : w = tData m d (chT n))
    (P : sProp 𝕄) (hP : P = xTp m d n) :
    (Transfers.Flight countersEmb (Tt d) sm (default : HIx 1) NT
        iprop(((sl14).view.loc (Tt d) ↦{fullShare} (sl14).view.write (Elt F) fold w Finset.univ) ∗ P) : sProp 𝕄)
      ⊢ rdF14 m d n := by
  subst hw hP hsm
  unfold rdF14
  refine Transfers.Flight_mono countersEmb (Tt d) ?_
  simp only [Memref.view_whole, View.write_whole_univ]
  exact Entails.refl _
theorem wrT_conv14 (fp : Buf (Elt F) (pLoc d)) (n : ℕ) (sm : SemLoc sig) (hsm : sm = ws14) (f : Buf (Elt F) ((sl14).view.loc (Tt d))) (hf : f = tData m d (chT n))
    (P : sProp 𝕄) (hP : P = pTp d (fun n => pNew m d fp (chT n)) n) :
    (Transfers.Flight countersEmb (Tt d) sm (default : HIx 1) NT
        iprop(P ∗ ((sl14).view.loc (Tt d) ↦[(sl14).view.set]{fullShare} f)) : sProp 𝕄)
      ⊢ wrF14 m d fp n := by
  subst hf hP hsm
  unfold wrF14
  refine Transfers.Flight_mono countersEmb (Tt d) ?_
  simp only [Memref.view_whole, View.set_whole]
  exact Entails.refl _

theorem rdT_conv15 (n : ℕ) (sm : SemLoc sig) (hsm : sm = rs15) (fold : Buf (Elt F) ((sl15).view.loc (Tt d))) (w : S4096x128.Idx → Elt F .f32) (hw : w = tData m d (chT n))
    (P : sProp 𝕄) (hP : P = xTp m d n) :
    (Transfers.Flight countersEmb (Tt d) sm (default : HIx 1) NT
        iprop(((sl15).view.loc (Tt d) ↦{fullShare} (sl15).view.write (Elt F) fold w Finset.univ) ∗ P) : sProp 𝕄)
      ⊢ rdF15 m d n := by
  subst hw hP hsm
  unfold rdF15
  refine Transfers.Flight_mono countersEmb (Tt d) ?_
  simp only [Memref.view_whole, View.write_whole_univ]
  exact Entails.refl _
theorem wrT_conv15 (fp : Buf (Elt F) (pLoc d)) (n : ℕ) (sm : SemLoc sig) (hsm : sm = ws15) (f : Buf (Elt F) ((sl15).view.loc (Tt d))) (hf : f = tData m d (chT n))
    (P : sProp 𝕄) (hP : P = pTp d (fun n => pNew m d fp (chT n)) n) :
    (Transfers.Flight countersEmb (Tt d) sm (default : HIx 1) NT
        iprop(P ∗ ((sl15).view.loc (Tt d) ↦[(sl15).view.set]{fullShare} f)) : sProp 𝕄)
      ⊢ wrF15 m d fp n := by
  subst hf hP hsm
  unfold wrF15
  refine Transfers.Flight_mono countersEmb (Tt d) ?_
  simp only [Memref.view_whole, View.set_whole]
  exact Entails.refl _

omit [FloatOps F] in
theorem icoT_split {a b c : ℕ} (hab : a ≤ b) (hbc : b ≤ c) (Ψ : ℕ → sProp 𝕄) :
    bigSep (Finset.Ico a c) Ψ = iprop(bigSep (Finset.Ico a b) Ψ ∗ bigSep (Finset.Ico b c) Ψ) := by
  rw [← Finset.Ico_union_Ico_eq_Ico hab hbc, bigSep_union (Finset.Ico_disjoint_Ico_consecutive a b c)]; rfl
omit [FloatOps F] in
theorem icoT_block8 (a : ℕ) (Ψ : ℕ → sProp 𝕄) :
    bigSep (Finset.Ico a (a + 8)) Ψ = iprop(Ψ (a) ∗ Ψ (a + 1) ∗ Ψ (a + 2) ∗ Ψ (a + 3) ∗ Ψ (a + 4) ∗ Ψ (a + 5) ∗ Ψ (a + 6) ∗ Ψ (a + 7) ∗ emp) := by
  rw [icoT_pop (show a < a + 8 by omega) Ψ, icoT_pop (show a + 1 < a + 8 by omega) Ψ, icoT_pop (show a + 2 < a + 8 by omega) Ψ, icoT_pop (show a + 3 < a + 8 by omega) Ψ, icoT_pop (show a + 4 < a + 8 by omega) Ψ, icoT_pop (show a + 5 < a + 8 by omega) Ψ, icoT_pop (show a + 6 < a + 8 by omega) Ψ, icoT_pop (show a + 7 < a + 8 by omega) Ψ, Finset.Ico_eq_empty_of_le (by omega), bigSep_empty]; rfl
omit [FloatOps F] in
theorem icoT_block8' (a : ℕ) (h : 8 ≤ a) (Ψ : ℕ → sProp 𝕄) :
    bigSep (Finset.Ico (a - 8) a) Ψ = iprop(Ψ (a - 8) ∗ Ψ (a - 8 + 1) ∗ Ψ (a - 8 + 2) ∗ Ψ (a - 8 + 3) ∗ Ψ (a - 8 + 4) ∗ Ψ (a - 8 + 5) ∗ Ψ (a - 8 + 6) ∗ Ψ (a - 8 + 7) ∗ emp) := by
  have e : Finset.Ico (a - 8) a = Finset.Ico (a - 8) (a - 8 + 8) := by rw [show a - 8 + 8 = a by omega]
  rw [e, icoT_block8]

set_option maxHeartbeats 4000000 in
theorem inv_open_firstT (fp : Buf (Elt F) (pLoc d)) (O : CellTallies nD τ sig (HIx 1)) (W : Waits sig (HIx 1)) (g : ℕ) (hg0 : g = 0) :
    invT m d fp O W g ⟨⟩ = iprop(Transfers.MayWaits (Tt d) (none : HIx 1) O
      ∗ (rdF0 m d (16 * g) ∗ rdF1 m d (16 * g + 1) ∗ rdF2 m d (16 * g + 2) ∗ rdF3 m d (16 * g + 3) ∗ rdF4 m d (16 * g + 4) ∗ rdF5 m d (16 * g + 5) ∗ rdF6 m d (16 * g + 6) ∗ rdF7 m d (16 * g + 7))
      ∗ ((∃ f, (sl8).view.loc (Tt d) ↦{fullShare} f) ∗ (∃ f, (sl9).view.loc (Tt d) ↦{fullShare} f) ∗ (∃ f, (sl10).view.loc (Tt d) ↦{fullShare} f) ∗ (∃ f, (sl11).view.loc (Tt d) ↦{fullShare} f) ∗ (∃ f, (sl12).view.loc (Tt d) ↦{fullShare} f) ∗ (∃ f, (sl13).view.loc (Tt d) ↦{fullShare} f) ∗ (∃ f, (sl14).view.loc (Tt d) ↦{fullShare} f) ∗ (∃ f, (sl15).view.loc (Tt d) ↦{fullShare} f) ∗ semVal (Tt d, ws8) 0 ∗ semVal (Tt d, ws9) 0 ∗ semVal (Tt d, ws10) 0 ∗ semVal (Tt d, ws11) 0 ∗ semVal (Tt d, ws12) 0 ∗ semVal (Tt d, ws13) 0 ∗ semVal (Tt d, ws14) 0 ∗ semVal (Tt d, ws15) 0)
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 0 (16 * g)) (xTp m d)
      ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ xTp m d (16 * g + 8 + 8) ∗ xTp m d (16 * g + 8 + 8 + 1) ∗ xTp m d (16 * g + 8 + 8 + 2) ∗ xTp m d (16 * g + 8 + 8 + 3) ∗ xTp m d (16 * g + 8 + 8 + 4) ∗ xTp m d (16 * g + 8 + 8 + 5) ∗ xTp m d (16 * g + 8 + 8 + 6) ∗ xTp m d (16 * g + 8 + 8 + 7) ∗ bigSep (Finset.Ico (16 * g + 8 + 8 + 8) 112) (xTp m d))
      ∗ bigSep (Finset.Ico 0 (16 * g - 8)) (pTp d fun n => pNew m d fp (chT n))
      ∗ (pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp))
      ∗ ∃ W', ⌜∀ p ∈ W', p ∈ W ∨ p.2 = none⌝ ∗ owes (Tt d) O W') := by
  unfold invT
  rw [if_pos (show g < 7 by omega), if_pos hg0]
  have hx : bigSep (Finset.Ico (16 * g + 8) 112) (xTp m d) = iprop(xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ xTp m d (16 * g + 8 + 8) ∗ xTp m d (16 * g + 8 + 8 + 1) ∗ xTp m d (16 * g + 8 + 8 + 2) ∗ xTp m d (16 * g + 8 + 8 + 3) ∗ xTp m d (16 * g + 8 + 8 + 4) ∗ xTp m d (16 * g + 8 + 8 + 5) ∗ xTp m d (16 * g + 8 + 8 + 6) ∗ xTp m d (16 * g + 8 + 8 + 7) ∗ bigSep (Finset.Ico (16 * g + 8 + 8 + 8) 112) (xTp m d)) := by
    rw [icoT_pop (show 16 * g + 8 < 112 by omega) (xTp m d), icoT_pop (show 16 * g + 8 + 1 < 112 by omega) (xTp m d), icoT_pop (show 16 * g + 8 + 2 < 112 by omega) (xTp m d), icoT_pop (show 16 * g + 8 + 3 < 112 by omega) (xTp m d), icoT_pop (show 16 * g + 8 + 4 < 112 by omega) (xTp m d), icoT_pop (show 16 * g + 8 + 5 < 112 by omega) (xTp m d), icoT_pop (show 16 * g + 8 + 6 < 112 by omega) (xTp m d), icoT_pop (show 16 * g + 8 + 7 < 112 by omega) (xTp m d), show 16 * g + 8 + 7 + 1 = 16 * g + 8 + 8 from by omega,
      icoT_pop (show 16 * g + 8 + 8 < 112 by omega) (xTp m d), icoT_pop (show 16 * g + 8 + 8 + 1 < 112 by omega) (xTp m d), icoT_pop (show 16 * g + 8 + 8 + 2 < 112 by omega) (xTp m d), icoT_pop (show 16 * g + 8 + 8 + 3 < 112 by omega) (xTp m d), icoT_pop (show 16 * g + 8 + 8 + 4 < 112 by omega) (xTp m d), icoT_pop (show 16 * g + 8 + 8 + 5 < 112 by omega) (xTp m d), icoT_pop (show 16 * g + 8 + 8 + 6 < 112 by omega) (xTp m d), icoT_pop (show 16 * g + 8 + 8 + 7 < 112 by omega) (xTp m d), show 16 * g + 8 + 8 + 7 + 1 = 16 * g + 8 + 8 + 8 from by omega]
  have hp : bigSep (Finset.Ico (16 * g) 112) (pTp d fun _ => fp) = iprop(pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp)) := by
    rw [icoT_pop (show 16 * g < 112 by omega) (pTp d fun _ => fp), icoT_pop (show 16 * g + 1 < 112 by omega) (pTp d fun _ => fp), icoT_pop (show 16 * g + 2 < 112 by omega) (pTp d fun _ => fp), icoT_pop (show 16 * g + 3 < 112 by omega) (pTp d fun _ => fp), icoT_pop (show 16 * g + 4 < 112 by omega) (pTp d fun _ => fp), icoT_pop (show 16 * g + 5 < 112 by omega) (pTp d fun _ => fp), icoT_pop (show 16 * g + 6 < 112 by omega) (pTp d fun _ => fp), icoT_pop (show 16 * g + 7 < 112 by omega) (pTp d fun _ => fp), show 16 * g + 7 + 1 = 16 * g + 8 from by omega,
      icoT_pop (show 16 * g + 8 < 112 by omega) (pTp d fun _ => fp), icoT_pop (show 16 * g + 8 + 1 < 112 by omega) (pTp d fun _ => fp), icoT_pop (show 16 * g + 8 + 2 < 112 by omega) (pTp d fun _ => fp), icoT_pop (show 16 * g + 8 + 3 < 112 by omega) (pTp d fun _ => fp), icoT_pop (show 16 * g + 8 + 4 < 112 by omega) (pTp d fun _ => fp), icoT_pop (show 16 * g + 8 + 5 < 112 by omega) (pTp d fun _ => fp), icoT_pop (show 16 * g + 8 + 6 < 112 by omega) (pTp d fun _ => fp), icoT_pop (show 16 * g + 8 + 7 < 112 by omega) (pTp d fun _ => fp), show 16 * g + 8 + 7 + 1 = 16 * g + 8 + 8 from by omega]
  rw [hx, hp]

set_option maxHeartbeats 4000000 in
theorem inv_close_firstT (fp : Buf (Elt F) (pLoc d)) (O : CellTallies nD τ sig (HIx 1)) (W W'' : Waits sig (HIx 1)) (g : ℕ) (hg0 : g = 0)
    (hW'' : ∀ p ∈ W'', p ∈ W ∨ p.2 = none) :
    iprop(Transfers.MayWaits (Tt d) (none : HIx 1) O
      ∗ (rdF0 m d (16 * g + 8 + 8) ∗ rdF1 m d (16 * g + 8 + 8 + 1) ∗ rdF2 m d (16 * g + 8 + 8 + 2) ∗ rdF3 m d (16 * g + 8 + 8 + 3) ∗ rdF4 m d (16 * g + 8 + 8 + 4) ∗ rdF5 m d (16 * g + 8 + 8 + 5) ∗ rdF6 m d (16 * g + 8 + 8 + 6) ∗ rdF7 m d (16 * g + 8 + 8 + 7))
      ∗ (wrF8 m d fp (16 * g + 8) ∗ wrF9 m d fp (16 * g + 8 + 1) ∗ wrF10 m d fp (16 * g + 8 + 2) ∗ wrF11 m d fp (16 * g + 8 + 3) ∗ wrF12 m d fp (16 * g + 8 + 4) ∗ wrF13 m d fp (16 * g + 8 + 5) ∗ wrF14 m d fp (16 * g + 8 + 6) ∗ wrF15 m d fp (16 * g + 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ (bigSep (Finset.Ico 0 (16 * g)) (xTp m d) ∗ (xTp m d (16 * g) ∗ xTp m d (16 * g + 1) ∗ xTp m d (16 * g + 2) ∗ xTp m d (16 * g + 3) ∗ xTp m d (16 * g + 4) ∗ xTp m d (16 * g + 5) ∗ xTp m d (16 * g + 6) ∗ xTp m d (16 * g + 7) ∗ emp) ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ emp))
      ∗ bigSep (Finset.Ico (16 * g + 8 + 8 + 8) 112) (xTp m d)
      ∗ (bigSep (Finset.Ico 0 (16 * g)) (pTp d fun n => pNew m d fp (chT n)) ∗ (pTp d (fun n => pNew m d fp (chT n)) (16 * g) ∗ pTp d (fun n => pNew m d fp (chT n)) (16 * g + 1) ∗ pTp d (fun n => pNew m d fp (chT n)) (16 * g + 2) ∗ pTp d (fun n => pNew m d fp (chT n)) (16 * g + 3) ∗ pTp d (fun n => pNew m d fp (chT n)) (16 * g + 4) ∗ pTp d (fun n => pNew m d fp (chT n)) (16 * g + 5) ∗ pTp d (fun n => pNew m d fp (chT n)) (16 * g + 6) ∗ pTp d (fun n => pNew m d fp (chT n)) (16 * g + 7) ∗ emp))
      ∗ bigSep (Finset.Ico (16 * g + 8 + 8) 112) (pTp d fun _ => fp)
      ∗ owes (Tt d) O W'')
    ⊢ invT m d fp O W (g + 1) ⟨⟩ := by
  unfold invT
  rw [if_pos (show g + 1 < 7 by omega), if_neg (show ¬ g + 1 = 0 by omega), show 16 * (g + 1) = 16 * g + 8 + 8 from by omega,
    show 16 * g + 8 + 8 - 8 = 16 * g + 8 from by omega,
    icoT_split (Nat.zero_le (16 * g)) (show 16 * g ≤ 16 * g + 8 + 8 by omega) (xTp m d),
    icoT_split (show 16 * g ≤ 16 * g + 8 by omega) (show 16 * g + 8 ≤ 16 * g + 8 + 8 by omega) (xTp m d),
    icoT_block8 (16 * g) (xTp m d), icoT_block8 (16 * g + 8) (xTp m d),
    icoT_split (Nat.zero_le (16 * g)) (show 16 * g ≤ 16 * g + 8 by omega) (pTp d fun n => pNew m d fp (chT n)), icoT_block8 (16 * g) (pTp d fun n => pNew m d fp (chT n))]
  iintro ⟨Hmw, Hrd, Hwr, Hr8, Hr9, Hr10, Hr11, Hr12, Hr13, Hr14, Hr15, Hw0, Hw1, Hw2, Hw3, Hw4, Hw5, Hw6, Hw7, ⟨HxA, Hx1, Hx2⟩, HxB, ⟨HpA, Hp1⟩, HpB, HO⟩
  isplitl [Hmw]; · iexact Hmw
  isplitl [Hrd]; · iexact Hrd
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hx1 Hx2]
  · isplitl [HxA]; · iexact HxA
    isplitl [Hx1]; · iexact Hx1
    iexact Hx2
  isplitl [HxB]; · iexact HxB
  isplitl [HpA Hp1]
  · isplitl [HpA]; · iexact HpA
    iexact Hp1
  isplitl [HpB]; · iexact HpB
  iexists W''; isplitr
  · ipureintro; exact hW''
  · iexact HO

set_option maxHeartbeats 4000000 in
theorem inv_open_midT (fp : Buf (Elt F) (pLoc d)) (O : CellTallies nD τ sig (HIx 1)) (W : Waits sig (HIx 1)) (g : ℕ) (hg1 : 1 ≤ g) (hg6 : g < 6) :
    invT m d fp O W g ⟨⟩ = iprop(Transfers.MayWaits (Tt d) (none : HIx 1) O
      ∗ (rdF0 m d (16 * g) ∗ rdF1 m d (16 * g + 1) ∗ rdF2 m d (16 * g + 2) ∗ rdF3 m d (16 * g + 3) ∗ rdF4 m d (16 * g + 4) ∗ rdF5 m d (16 * g + 5) ∗ rdF6 m d (16 * g + 6) ∗ rdF7 m d (16 * g + 7))
      ∗ (wrF8 m d fp (16 * g - 8) ∗ wrF9 m d fp (16 * g - 8 + 1) ∗ wrF10 m d fp (16 * g - 8 + 2) ∗ wrF11 m d fp (16 * g - 8 + 3) ∗ wrF12 m d fp (16 * g - 8 + 4) ∗ wrF13 m d fp (16 * g - 8 + 5) ∗ wrF14 m d fp (16 * g - 8 + 6) ∗ wrF15 m d fp (16 * g - 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 0 (16 * g)) (xTp m d)
      ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ xTp m d (16 * g + 8 + 8) ∗ xTp m d (16 * g + 8 + 8 + 1) ∗ xTp m d (16 * g + 8 + 8 + 2) ∗ xTp m d (16 * g + 8 + 8 + 3) ∗ xTp m d (16 * g + 8 + 8 + 4) ∗ xTp m d (16 * g + 8 + 8 + 5) ∗ xTp m d (16 * g + 8 + 8 + 6) ∗ xTp m d (16 * g + 8 + 8 + 7) ∗ bigSep (Finset.Ico (16 * g + 8 + 8 + 8) 112) (xTp m d))
      ∗ bigSep (Finset.Ico 0 (16 * g - 8)) (pTp d fun n => pNew m d fp (chT n))
      ∗ (pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp))
      ∗ ∃ W', ⌜∀ p ∈ W', p ∈ W ∨ p.2 = none⌝ ∗ owes (Tt d) O W') := by
  unfold invT
  rw [if_pos (show g < 7 by omega), if_neg (show ¬ g = 0 by omega)]
  have hx : bigSep (Finset.Ico (16 * g + 8) 112) (xTp m d) = iprop(xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ xTp m d (16 * g + 8 + 8) ∗ xTp m d (16 * g + 8 + 8 + 1) ∗ xTp m d (16 * g + 8 + 8 + 2) ∗ xTp m d (16 * g + 8 + 8 + 3) ∗ xTp m d (16 * g + 8 + 8 + 4) ∗ xTp m d (16 * g + 8 + 8 + 5) ∗ xTp m d (16 * g + 8 + 8 + 6) ∗ xTp m d (16 * g + 8 + 8 + 7) ∗ bigSep (Finset.Ico (16 * g + 8 + 8 + 8) 112) (xTp m d)) := by
    rw [icoT_pop (show 16 * g + 8 < 112 by omega) (xTp m d), icoT_pop (show 16 * g + 8 + 1 < 112 by omega) (xTp m d), icoT_pop (show 16 * g + 8 + 2 < 112 by omega) (xTp m d), icoT_pop (show 16 * g + 8 + 3 < 112 by omega) (xTp m d), icoT_pop (show 16 * g + 8 + 4 < 112 by omega) (xTp m d), icoT_pop (show 16 * g + 8 + 5 < 112 by omega) (xTp m d), icoT_pop (show 16 * g + 8 + 6 < 112 by omega) (xTp m d), icoT_pop (show 16 * g + 8 + 7 < 112 by omega) (xTp m d), show 16 * g + 8 + 7 + 1 = 16 * g + 8 + 8 from by omega,
      icoT_pop (show 16 * g + 8 + 8 < 112 by omega) (xTp m d), icoT_pop (show 16 * g + 8 + 8 + 1 < 112 by omega) (xTp m d), icoT_pop (show 16 * g + 8 + 8 + 2 < 112 by omega) (xTp m d), icoT_pop (show 16 * g + 8 + 8 + 3 < 112 by omega) (xTp m d), icoT_pop (show 16 * g + 8 + 8 + 4 < 112 by omega) (xTp m d), icoT_pop (show 16 * g + 8 + 8 + 5 < 112 by omega) (xTp m d), icoT_pop (show 16 * g + 8 + 8 + 6 < 112 by omega) (xTp m d), icoT_pop (show 16 * g + 8 + 8 + 7 < 112 by omega) (xTp m d), show 16 * g + 8 + 8 + 7 + 1 = 16 * g + 8 + 8 + 8 from by omega]
  have hp : bigSep (Finset.Ico (16 * g) 112) (pTp d fun _ => fp) = iprop(pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp)) := by
    rw [icoT_pop (show 16 * g < 112 by omega) (pTp d fun _ => fp), icoT_pop (show 16 * g + 1 < 112 by omega) (pTp d fun _ => fp), icoT_pop (show 16 * g + 2 < 112 by omega) (pTp d fun _ => fp), icoT_pop (show 16 * g + 3 < 112 by omega) (pTp d fun _ => fp), icoT_pop (show 16 * g + 4 < 112 by omega) (pTp d fun _ => fp), icoT_pop (show 16 * g + 5 < 112 by omega) (pTp d fun _ => fp), icoT_pop (show 16 * g + 6 < 112 by omega) (pTp d fun _ => fp), icoT_pop (show 16 * g + 7 < 112 by omega) (pTp d fun _ => fp), show 16 * g + 7 + 1 = 16 * g + 8 from by omega,
      icoT_pop (show 16 * g + 8 < 112 by omega) (pTp d fun _ => fp), icoT_pop (show 16 * g + 8 + 1 < 112 by omega) (pTp d fun _ => fp), icoT_pop (show 16 * g + 8 + 2 < 112 by omega) (pTp d fun _ => fp), icoT_pop (show 16 * g + 8 + 3 < 112 by omega) (pTp d fun _ => fp), icoT_pop (show 16 * g + 8 + 4 < 112 by omega) (pTp d fun _ => fp), icoT_pop (show 16 * g + 8 + 5 < 112 by omega) (pTp d fun _ => fp), icoT_pop (show 16 * g + 8 + 6 < 112 by omega) (pTp d fun _ => fp), icoT_pop (show 16 * g + 8 + 7 < 112 by omega) (pTp d fun _ => fp), show 16 * g + 8 + 7 + 1 = 16 * g + 8 + 8 from by omega]
  rw [hx, hp]

set_option maxHeartbeats 4000000 in
theorem inv_close_midT (fp : Buf (Elt F) (pLoc d)) (O : CellTallies nD τ sig (HIx 1)) (W W'' : Waits sig (HIx 1)) (g : ℕ) (hg1 : 1 ≤ g) (hg6 : g < 6)
    (hW'' : ∀ p ∈ W'', p ∈ W ∨ p.2 = none) :
    iprop(Transfers.MayWaits (Tt d) (none : HIx 1) O
      ∗ (rdF0 m d (16 * g + 8 + 8) ∗ rdF1 m d (16 * g + 8 + 8 + 1) ∗ rdF2 m d (16 * g + 8 + 8 + 2) ∗ rdF3 m d (16 * g + 8 + 8 + 3) ∗ rdF4 m d (16 * g + 8 + 8 + 4) ∗ rdF5 m d (16 * g + 8 + 8 + 5) ∗ rdF6 m d (16 * g + 8 + 8 + 6) ∗ rdF7 m d (16 * g + 8 + 8 + 7))
      ∗ (wrF8 m d fp (16 * g + 8) ∗ wrF9 m d fp (16 * g + 8 + 1) ∗ wrF10 m d fp (16 * g + 8 + 2) ∗ wrF11 m d fp (16 * g + 8 + 3) ∗ wrF12 m d fp (16 * g + 8 + 4) ∗ wrF13 m d fp (16 * g + 8 + 5) ∗ wrF14 m d fp (16 * g + 8 + 6) ∗ wrF15 m d fp (16 * g + 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ (bigSep (Finset.Ico 0 (16 * g)) (xTp m d) ∗ (xTp m d (16 * g) ∗ xTp m d (16 * g + 1) ∗ xTp m d (16 * g + 2) ∗ xTp m d (16 * g + 3) ∗ xTp m d (16 * g + 4) ∗ xTp m d (16 * g + 5) ∗ xTp m d (16 * g + 6) ∗ xTp m d (16 * g + 7) ∗ emp) ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ emp))
      ∗ bigSep (Finset.Ico (16 * g + 8 + 8 + 8) 112) (xTp m d)
      ∗ (bigSep (Finset.Ico 0 (16 * g - 8)) (pTp d fun n => pNew m d fp (chT n)) ∗ (pTp d (fun n => pNew m d fp (chT n)) (16 * g - 8) ∗ pTp d (fun n => pNew m d fp (chT n)) (16 * g - 8 + 1) ∗ pTp d (fun n => pNew m d fp (chT n)) (16 * g - 8 + 2) ∗ pTp d (fun n => pNew m d fp (chT n)) (16 * g - 8 + 3) ∗ pTp d (fun n => pNew m d fp (chT n)) (16 * g - 8 + 4) ∗ pTp d (fun n => pNew m d fp (chT n)) (16 * g - 8 + 5) ∗ pTp d (fun n => pNew m d fp (chT n)) (16 * g - 8 + 6) ∗ pTp d (fun n => pNew m d fp (chT n)) (16 * g - 8 + 7) ∗ emp)
          ∗ (pTp d (fun n => pNew m d fp (chT n)) (16 * g) ∗ pTp d (fun n => pNew m d fp (chT n)) (16 * g + 1) ∗ pTp d (fun n => pNew m d fp (chT n)) (16 * g + 2) ∗ pTp d (fun n => pNew m d fp (chT n)) (16 * g + 3) ∗ pTp d (fun n => pNew m d fp (chT n)) (16 * g + 4) ∗ pTp d (fun n => pNew m d fp (chT n)) (16 * g + 5) ∗ pTp d (fun n => pNew m d fp (chT n)) (16 * g + 6) ∗ pTp d (fun n => pNew m d fp (chT n)) (16 * g + 7) ∗ emp))
      ∗ bigSep (Finset.Ico (16 * g + 8 + 8) 112) (pTp d fun _ => fp)
      ∗ owes (Tt d) O W'')
    ⊢ invT m d fp O W (g + 1) ⟨⟩ := by
  unfold invT
  rw [if_pos (show g + 1 < 7 by omega), if_neg (show ¬ g + 1 = 0 by omega), show 16 * (g + 1) = 16 * g + 8 + 8 from by omega,
    show 16 * g + 8 + 8 - 8 = 16 * g + 8 from by omega,
    icoT_split (Nat.zero_le (16 * g)) (show 16 * g ≤ 16 * g + 8 + 8 by omega) (xTp m d),
    icoT_split (show 16 * g ≤ 16 * g + 8 by omega) (show 16 * g + 8 ≤ 16 * g + 8 + 8 by omega) (xTp m d),
    icoT_block8 (16 * g) (xTp m d), icoT_block8 (16 * g + 8) (xTp m d),
    icoT_split (Nat.zero_le (16 * g - 8)) (show 16 * g - 8 ≤ 16 * g + 8 by omega) (pTp d fun n => pNew m d fp (chT n)),
    icoT_split (show 16 * g - 8 ≤ 16 * g by omega) (show 16 * g ≤ 16 * g + 8 by omega) (pTp d fun n => pNew m d fp (chT n)),
    icoT_block8' (16 * g) (by omega) (pTp d fun n => pNew m d fp (chT n)), icoT_block8 (16 * g) (pTp d fun n => pNew m d fp (chT n))]
  iintro ⟨Hmw, Hrd, Hwr, Hr8, Hr9, Hr10, Hr11, Hr12, Hr13, Hr14, Hr15, Hw0, Hw1, Hw2, Hw3, Hw4, Hw5, Hw6, Hw7, ⟨HxA, Hx1, Hx2⟩, HxB, ⟨HpA, HpM, Hp1⟩, HpB, HO⟩
  isplitl [Hmw]; · iexact Hmw
  isplitl [Hrd]; · iexact Hrd
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hx1 Hx2]
  · isplitl [HxA]; · iexact HxA
    isplitl [Hx1]; · iexact Hx1
    iexact Hx2
  isplitl [HxB]; · iexact HxB
  isplitl [HpA HpM Hp1]
  · isplitl [HpA]; · iexact HpA
    isplitl [HpM]; · iexact HpM
    iexact Hp1
  isplitl [HpB]; · iexact HpB
  iexists W''; isplitr
  · ipureintro; exact hW''
  · iexact HO

set_option maxHeartbeats 4000000 in
theorem inv_open_lastT (fp : Buf (Elt F) (pLoc d)) (O : CellTallies nD τ sig (HIx 1)) (W : Waits sig (HIx 1)) (g : ℕ) (hg6 : g = 6) :
    invT m d fp O W g ⟨⟩ = iprop(Transfers.MayWaits (Tt d) (none : HIx 1) O
      ∗ (rdF0 m d (16 * g) ∗ rdF1 m d (16 * g + 1) ∗ rdF2 m d (16 * g + 2) ∗ rdF3 m d (16 * g + 3) ∗ rdF4 m d (16 * g + 4) ∗ rdF5 m d (16 * g + 5) ∗ rdF6 m d (16 * g + 6) ∗ rdF7 m d (16 * g + 7))
      ∗ (wrF8 m d fp (16 * g - 8) ∗ wrF9 m d fp (16 * g - 8 + 1) ∗ wrF10 m d fp (16 * g - 8 + 2) ∗ wrF11 m d fp (16 * g - 8 + 3) ∗ wrF12 m d fp (16 * g - 8 + 4) ∗ wrF13 m d fp (16 * g - 8 + 5) ∗ wrF14 m d fp (16 * g - 8 + 6) ∗ wrF15 m d fp (16 * g - 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 0 (16 * g)) (xTp m d)
      ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ bigSep (Finset.Ico (16 * g + 8 + 8) 112) (xTp m d))
      ∗ bigSep (Finset.Ico 0 (16 * g - 8)) (pTp d fun n => pNew m d fp (chT n))
      ∗ (pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp))
      ∗ ∃ W', ⌜∀ p ∈ W', p ∈ W ∨ p.2 = none⌝ ∗ owes (Tt d) O W') := by
  unfold invT
  rw [if_pos (show g < 7 by omega), if_neg (show ¬ g = 0 by omega)]
  have hx : bigSep (Finset.Ico (16 * g + 8) 112) (xTp m d) = iprop(xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ bigSep (Finset.Ico (16 * g + 8 + 8) 112) (xTp m d)) := by
    rw [icoT_pop (show 16 * g + 8 < 112 by omega) (xTp m d), icoT_pop (show 16 * g + 8 + 1 < 112 by omega) (xTp m d), icoT_pop (show 16 * g + 8 + 2 < 112 by omega) (xTp m d), icoT_pop (show 16 * g + 8 + 3 < 112 by omega) (xTp m d), icoT_pop (show 16 * g + 8 + 4 < 112 by omega) (xTp m d), icoT_pop (show 16 * g + 8 + 5 < 112 by omega) (xTp m d), icoT_pop (show 16 * g + 8 + 6 < 112 by omega) (xTp m d), icoT_pop (show 16 * g + 8 + 7 < 112 by omega) (xTp m d), show 16 * g + 8 + 7 + 1 = 16 * g + 8 + 8 from by omega]
  have hp : bigSep (Finset.Ico (16 * g) 112) (pTp d fun _ => fp) = iprop(pTp d (fun _ => fp) (16 * g) ∗ pTp d (fun _ => fp) (16 * g + 1) ∗ pTp d (fun _ => fp) (16 * g + 2) ∗ pTp d (fun _ => fp) (16 * g + 3) ∗ pTp d (fun _ => fp) (16 * g + 4) ∗ pTp d (fun _ => fp) (16 * g + 5) ∗ pTp d (fun _ => fp) (16 * g + 6) ∗ pTp d (fun _ => fp) (16 * g + 7) ∗ pTp d (fun _ => fp) (16 * g + 8) ∗ pTp d (fun _ => fp) (16 * g + 8 + 1) ∗ pTp d (fun _ => fp) (16 * g + 8 + 2) ∗ pTp d (fun _ => fp) (16 * g + 8 + 3) ∗ pTp d (fun _ => fp) (16 * g + 8 + 4) ∗ pTp d (fun _ => fp) (16 * g + 8 + 5) ∗ pTp d (fun _ => fp) (16 * g + 8 + 6) ∗ pTp d (fun _ => fp) (16 * g + 8 + 7) ∗ bigSep (Finset.Ico (16 * g + 8 + 8) 112) (pTp d fun _ => fp)) := by
    rw [icoT_pop (show 16 * g < 112 by omega) (pTp d fun _ => fp), icoT_pop (show 16 * g + 1 < 112 by omega) (pTp d fun _ => fp), icoT_pop (show 16 * g + 2 < 112 by omega) (pTp d fun _ => fp), icoT_pop (show 16 * g + 3 < 112 by omega) (pTp d fun _ => fp), icoT_pop (show 16 * g + 4 < 112 by omega) (pTp d fun _ => fp), icoT_pop (show 16 * g + 5 < 112 by omega) (pTp d fun _ => fp), icoT_pop (show 16 * g + 6 < 112 by omega) (pTp d fun _ => fp), icoT_pop (show 16 * g + 7 < 112 by omega) (pTp d fun _ => fp), show 16 * g + 7 + 1 = 16 * g + 8 from by omega,
      icoT_pop (show 16 * g + 8 < 112 by omega) (pTp d fun _ => fp), icoT_pop (show 16 * g + 8 + 1 < 112 by omega) (pTp d fun _ => fp), icoT_pop (show 16 * g + 8 + 2 < 112 by omega) (pTp d fun _ => fp), icoT_pop (show 16 * g + 8 + 3 < 112 by omega) (pTp d fun _ => fp), icoT_pop (show 16 * g + 8 + 4 < 112 by omega) (pTp d fun _ => fp), icoT_pop (show 16 * g + 8 + 5 < 112 by omega) (pTp d fun _ => fp), icoT_pop (show 16 * g + 8 + 6 < 112 by omega) (pTp d fun _ => fp), icoT_pop (show 16 * g + 8 + 7 < 112 by omega) (pTp d fun _ => fp), show 16 * g + 8 + 7 + 1 = 16 * g + 8 + 8 from by omega]
  rw [hx, hp]

set_option maxHeartbeats 4000000 in
theorem inv_close_lastT (fp : Buf (Elt F) (pLoc d)) (O : CellTallies nD τ sig (HIx 1)) (W W'' : Waits sig (HIx 1)) (g : ℕ) (hg6 : g = 6)
    (hW'' : ∀ p ∈ W'', p ∈ W ∨ p.2 = none) :
    iprop(Transfers.MayWaits (Tt d) (none : HIx 1) O
      ∗ ((∃ f, (sl0).view.loc (Tt d) ↦{fullShare} f) ∗ (∃ f, (sl1).view.loc (Tt d) ↦{fullShare} f) ∗ (∃ f, (sl2).view.loc (Tt d) ↦{fullShare} f) ∗ (∃ f, (sl3).view.loc (Tt d) ↦{fullShare} f) ∗ (∃ f, (sl4).view.loc (Tt d) ↦{fullShare} f) ∗ (∃ f, (sl5).view.loc (Tt d) ↦{fullShare} f) ∗ (∃ f, (sl6).view.loc (Tt d) ↦{fullShare} f) ∗ (∃ f, (sl7).view.loc (Tt d) ↦{fullShare} f) ∗ semVal (Tt d, rs0) 0 ∗ semVal (Tt d, rs1) 0 ∗ semVal (Tt d, rs2) 0 ∗ semVal (Tt d, rs3) 0 ∗ semVal (Tt d, rs4) 0 ∗ semVal (Tt d, rs5) 0 ∗ semVal (Tt d, rs6) 0 ∗ semVal (Tt d, rs7) 0)
      ∗ (wrF8 m d fp (16 * g + 8) ∗ wrF9 m d fp (16 * g + 8 + 1) ∗ wrF10 m d fp (16 * g + 8 + 2) ∗ wrF11 m d fp (16 * g + 8 + 3) ∗ wrF12 m d fp (16 * g + 8 + 4) ∗ wrF13 m d fp (16 * g + 8 + 5) ∗ wrF14 m d fp (16 * g + 8 + 6) ∗ wrF15 m d fp (16 * g + 8 + 7))
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ (bigSep (Finset.Ico 0 (16 * g)) (xTp m d) ∗ (xTp m d (16 * g) ∗ xTp m d (16 * g + 1) ∗ xTp m d (16 * g + 2) ∗ xTp m d (16 * g + 3) ∗ xTp m d (16 * g + 4) ∗ xTp m d (16 * g + 5) ∗ xTp m d (16 * g + 6) ∗ xTp m d (16 * g + 7) ∗ emp) ∗ (xTp m d (16 * g + 8) ∗ xTp m d (16 * g + 8 + 1) ∗ xTp m d (16 * g + 8 + 2) ∗ xTp m d (16 * g + 8 + 3) ∗ xTp m d (16 * g + 8 + 4) ∗ xTp m d (16 * g + 8 + 5) ∗ xTp m d (16 * g + 8 + 6) ∗ xTp m d (16 * g + 8 + 7) ∗ emp))
      ∗ bigSep (Finset.Ico (16 * g + 8 + 8 + 8) 112) (xTp m d)
      ∗ (bigSep (Finset.Ico 0 (16 * g - 8)) (pTp d fun n => pNew m d fp (chT n)) ∗ (pTp d (fun n => pNew m d fp (chT n)) (16 * g - 8) ∗ pTp d (fun n => pNew m d fp (chT n)) (16 * g - 8 + 1) ∗ pTp d (fun n => pNew m d fp (chT n)) (16 * g - 8 + 2) ∗ pTp d (fun n => pNew m d fp (chT n)) (16 * g - 8 + 3) ∗ pTp d (fun n => pNew m d fp (chT n)) (16 * g - 8 + 4) ∗ pTp d (fun n => pNew m d fp (chT n)) (16 * g - 8 + 5) ∗ pTp d (fun n => pNew m d fp (chT n)) (16 * g - 8 + 6) ∗ pTp d (fun n => pNew m d fp (chT n)) (16 * g - 8 + 7) ∗ emp)
          ∗ (pTp d (fun n => pNew m d fp (chT n)) (16 * g) ∗ pTp d (fun n => pNew m d fp (chT n)) (16 * g + 1) ∗ pTp d (fun n => pNew m d fp (chT n)) (16 * g + 2) ∗ pTp d (fun n => pNew m d fp (chT n)) (16 * g + 3) ∗ pTp d (fun n => pNew m d fp (chT n)) (16 * g + 4) ∗ pTp d (fun n => pNew m d fp (chT n)) (16 * g + 5) ∗ pTp d (fun n => pNew m d fp (chT n)) (16 * g + 6) ∗ pTp d (fun n => pNew m d fp (chT n)) (16 * g + 7) ∗ emp))
      ∗ bigSep (Finset.Ico (16 * g + 8 + 8) 112) (pTp d fun _ => fp)
      ∗ owes (Tt d) O W'')
    ⊢ invT m d fp O W (g + 1) ⟨⟩ := by
  unfold invT
  rw [if_neg (show ¬ g + 1 < 7 by omega), if_neg (show ¬ g + 1 = 0 by omega), show 16 * (g + 1) = 16 * g + 8 + 8 from by omega,
    show 16 * g + 8 + 8 - 8 = 16 * g + 8 from by omega,
    icoT_split (Nat.zero_le (16 * g)) (show 16 * g ≤ 16 * g + 8 + 8 by omega) (xTp m d),
    icoT_split (show 16 * g ≤ 16 * g + 8 by omega) (show 16 * g + 8 ≤ 16 * g + 8 + 8 by omega) (xTp m d),
    icoT_block8 (16 * g) (xTp m d), icoT_block8 (16 * g + 8) (xTp m d),
    icoT_split (Nat.zero_le (16 * g - 8)) (show 16 * g - 8 ≤ 16 * g + 8 by omega) (pTp d fun n => pNew m d fp (chT n)),
    icoT_split (show 16 * g - 8 ≤ 16 * g by omega) (show 16 * g ≤ 16 * g + 8 by omega) (pTp d fun n => pNew m d fp (chT n)),
    icoT_block8' (16 * g) (by omega) (pTp d fun n => pNew m d fp (chT n)), icoT_block8 (16 * g) (pTp d fun n => pNew m d fp (chT n))]
  iintro ⟨Hmw, Hrd, Hwr, Hr8, Hr9, Hr10, Hr11, Hr12, Hr13, Hr14, Hr15, Hw0, Hw1, Hw2, Hw3, Hw4, Hw5, Hw6, Hw7, ⟨HxA, Hx1, Hx2⟩, HxB, ⟨HpA, HpM, Hp1⟩, HpB, HO⟩
  isplitl [Hmw]; · iexact Hmw
  isplitl [Hrd]; · iexact Hrd
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hx1 Hx2]
  · isplitl [HxA]; · iexact HxA
    isplitl [Hx1]; · iexact Hx1
    iexact Hx2
  isplitl [HxB]; · iexact HxB
  isplitl [HpA HpM Hp1]
  · isplitl [HpA]; · iexact HpA
    isplitl [HpM]; · iexact HpM
    iexact Hp1
  isplitl [HpB]; · iexact HpB
  iexists W''; isplitr
  · ipureintro; exact hW''
  · iexact HO

set_option maxHeartbeats 16000000 in
/-- The first trip (g = 0): no earlier write is waited for — buffers 8..15 start idle. -/
theorem tripT_first (fp : Buf (Elt F) (pLoc d)) (O : CellTallies nD τ sig (HIx 1)) (W : Waits sig (HIx 1))
    (k : Fin k0_t1_loop.trips) (hk0 : k.val = 0) :
    invT m d fp O W k.val ⟨⟩
      ⊢ wp frame (wpE (defs₀ (F := F)) 𝒱₀ (Tt d) none) Set.univ
          (k0_t1_body xT (Memref.isWhole_whole _) pT (Memref.isWhole_whole _) sl0 (Memref.isWhole_whole _) sl1 (Memref.isWhole_whole _) sl2 (Memref.isWhole_whole _) sl3 (Memref.isWhole_whole _) sl4 (Memref.isWhole_whole _) sl5 (Memref.isWhole_whole _) sl6 (Memref.isWhole_whole _) sl7 (Memref.isWhole_whole _) sl8 (Memref.isWhole_whole _) sl9 (Memref.isWhole_whole _) sl10 (Memref.isWhole_whole _) sl11 (Memref.isWhole_whole _) sl12 (Memref.isWhole_whole _) sl13 (Memref.isWhole_whole _) sl14 (Memref.isWhole_whole _) sl15 (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41 cc0_scratch42 cc0_scratch43 cc0_scratch44 cc0_scratch45 cc0_scratch46 cc0_scratch47 k ⟨⟩)
          (invT m d fp O W (k.val + 1)) := by
  have k0_h1 : k0_cond1 k = 1#1 := tcond1 k
  have k0_h2 : ¬ k0_cond2 k = 1#1 := fun h => by have := (tcond2 k).mp h; omega
  have k0_h3 : k0_cond3 k = 1#1 := tcond3 k
  have k0_h4 : k0_cond4 k = 1#1 := tcond4 k
  have k0_h5 : ¬ k0_cond5 k = 1#1 := fun h => by have := (tcond5 k).mp h; omega
  have k0_h6 : k0_cond6 k = 1#1 := tcond6 k
  have k0_h7 : k0_cond7 k = 1#1 := tcond7 k
  have k0_h8 : ¬ k0_cond8 k = 1#1 := fun h => by have := (tcond8 k).mp h; omega
  have k0_h9 : k0_cond9 k = 1#1 := tcond9 k
  have k0_h10 : k0_cond10 k = 1#1 := tcond10 k
  have k0_h11 : ¬ k0_cond11 k = 1#1 := fun h => by have := (tcond11 k).mp h; omega
  have k0_h12 : k0_cond12 k = 1#1 := tcond12 k
  have k0_h13 : k0_cond13 k = 1#1 := tcond13 k
  have k0_h14 : ¬ k0_cond14 k = 1#1 := fun h => by have := (tcond14 k).mp h; omega
  have k0_h15 : k0_cond15 k = 1#1 := tcond15 k
  have k0_h16 : k0_cond16 k = 1#1 := tcond16 k
  have k0_h17 : ¬ k0_cond17 k = 1#1 := fun h => by have := (tcond17 k).mp h; omega
  have k0_h18 : k0_cond18 k = 1#1 := tcond18 k
  have k0_h19 : k0_cond19 k = 1#1 := tcond19 k
  have k0_h20 : ¬ k0_cond20 k = 1#1 := fun h => by have := (tcond20 k).mp h; omega
  have k0_h21 : k0_cond21 k = 1#1 := tcond21 k
  have k0_h22 : k0_cond22 k = 1#1 := tcond22 k
  have k0_h23 : ¬ k0_cond23 k = 1#1 := fun h => by have := (tcond23 k).mp h; omega
  have k0_h24 : k0_cond24 k = 1#1 := tcond24 k
  have k0_h25 : k0_cond25 k = 1#1 := tcond25 k
  have k0_h26 : k0_cond26 k = 1#1 := tcond26 k
  have k0_h27 : k0_cond27 k = 1#1 := (tcond27 k).mpr (by omega)
  have k0_h28 : k0_cond28 k = 1#1 := tcond28 k
  have k0_h29 : k0_cond29 k = 1#1 := tcond29 k
  have k0_h30 : k0_cond30 k = 1#1 := (tcond30 k).mpr (by omega)
  have k0_h31 : k0_cond31 k = 1#1 := tcond31 k
  have k0_h32 : k0_cond32 k = 1#1 := tcond32 k
  have k0_h33 : k0_cond33 k = 1#1 := (tcond33 k).mpr (by omega)
  have k0_h34 : k0_cond34 k = 1#1 := tcond34 k
  have k0_h35 : k0_cond35 k = 1#1 := tcond35 k
  have k0_h36 : k0_cond36 k = 1#1 := (tcond36 k).mpr (by omega)
  have k0_h37 : k0_cond37 k = 1#1 := tcond37 k
  have k0_h38 : k0_cond38 k = 1#1 := tcond38 k
  have k0_h39 : k0_cond39 k = 1#1 := (tcond39 k).mpr (by omega)
  have k0_h40 : k0_cond40 k = 1#1 := tcond40 k
  have k0_h41 : k0_cond41 k = 1#1 := tcond41 k
  have k0_h42 : k0_cond42 k = 1#1 := (tcond42 k).mpr (by omega)
  have k0_h43 : k0_cond43 k = 1#1 := tcond43 k
  have k0_h44 : k0_cond44 k = 1#1 := tcond44 k
  have k0_h45 : k0_cond45 k = 1#1 := (tcond45 k).mpr (by omega)
  have k0_h46 : k0_cond46 k = 1#1 := tcond46 k
  have k0_h47 : k0_cond47 k = 1#1 := tcond47 k
  have k0_h48 : k0_cond48 k = 1#1 := (tcond48 k).mpr (by omega)
  unfold k0_t1_body
  simp only [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  have cw0 : k0_off1 k = tOff (chT (16 * k.val)).val := by rw [toff1, chT_val (by omega)] <;> first | rfl | exact congrArg tOff (by omega)
  have eP0 := pTp_spell d (fun _ => fp) (16 * k.val) cw0 (k0_off1_inb k k0_h1) (fun _ => rfl)
  have cr0 : k0_off3 k = tOff (chT (16 * k.val + 8)).val := by rw [toff3, chT_val (by omega)] <;> first | rfl | exact congrArg tOff (by omega)
  have eX0 := xTp_spell m d (16 * k.val + 8) cr0 (k0_off3_inb k k0_h3) (fun _ => rfl)
  have cw1 : k0_off4 k = tOff (chT (16 * k.val + 1)).val := by rw [toff4, chT_val (by omega)] <;> first | rfl | exact congrArg tOff (by omega)
  have eP1 := pTp_spell d (fun _ => fp) (16 * k.val + 1) cw1 (k0_off4_inb k k0_h4) (fun _ => rfl)
  have cr1 : k0_off6 k = tOff (chT (16 * k.val + 8 + 1)).val := by rw [toff6, chT_val (by omega)] <;> first | rfl | exact congrArg tOff (by omega)
  have eX1 := xTp_spell m d (16 * k.val + 8 + 1) cr1 (k0_off6_inb k k0_h6) (fun _ => rfl)
  have cw2 : k0_off7 k = tOff (chT (16 * k.val + 2)).val := by rw [toff7, chT_val (by omega)] <;> first | rfl | exact congrArg tOff (by omega)
  have eP2 := pTp_spell d (fun _ => fp) (16 * k.val + 2) cw2 (k0_off7_inb k k0_h7) (fun _ => rfl)
  have cr2 : k0_off9 k = tOff (chT (16 * k.val + 8 + 2)).val := by rw [toff9, chT_val (by omega)] <;> first | rfl | exact congrArg tOff (by omega)
  have eX2 := xTp_spell m d (16 * k.val + 8 + 2) cr2 (k0_off9_inb k k0_h9) (fun _ => rfl)
  have cw3 : k0_off10 k = tOff (chT (16 * k.val + 3)).val := by rw [toff10, chT_val (by omega)] <;> first | rfl | exact congrArg tOff (by omega)
  have eP3 := pTp_spell d (fun _ => fp) (16 * k.val + 3) cw3 (k0_off10_inb k k0_h10) (fun _ => rfl)
  have cr3 : k0_off12 k = tOff (chT (16 * k.val + 8 + 3)).val := by rw [toff12, chT_val (by omega)] <;> first | rfl | exact congrArg tOff (by omega)
  have eX3 := xTp_spell m d (16 * k.val + 8 + 3) cr3 (k0_off12_inb k k0_h12) (fun _ => rfl)
  have cw4 : k0_off13 k = tOff (chT (16 * k.val + 4)).val := by rw [toff13, chT_val (by omega)] <;> first | rfl | exact congrArg tOff (by omega)
  have eP4 := pTp_spell d (fun _ => fp) (16 * k.val + 4) cw4 (k0_off13_inb k k0_h13) (fun _ => rfl)
  have cr4 : k0_off15 k = tOff (chT (16 * k.val + 8 + 4)).val := by rw [toff15, chT_val (by omega)] <;> first | rfl | exact congrArg tOff (by omega)
  have eX4 := xTp_spell m d (16 * k.val + 8 + 4) cr4 (k0_off15_inb k k0_h15) (fun _ => rfl)
  have cw5 : k0_off16 k = tOff (chT (16 * k.val + 5)).val := by rw [toff16, chT_val (by omega)] <;> first | rfl | exact congrArg tOff (by omega)
  have eP5 := pTp_spell d (fun _ => fp) (16 * k.val + 5) cw5 (k0_off16_inb k k0_h16) (fun _ => rfl)
  have cr5 : k0_off18 k = tOff (chT (16 * k.val + 8 + 5)).val := by rw [toff18, chT_val (by omega)] <;> first | rfl | exact congrArg tOff (by omega)
  have eX5 := xTp_spell m d (16 * k.val + 8 + 5) cr5 (k0_off18_inb k k0_h18) (fun _ => rfl)
  have cw6 : k0_off19 k = tOff (chT (16 * k.val + 6)).val := by rw [toff19, chT_val (by omega)] <;> first | rfl | exact congrArg tOff (by omega)
  have eP6 := pTp_spell d (fun _ => fp) (16 * k.val + 6) cw6 (k0_off19_inb k k0_h19) (fun _ => rfl)
  have cr6 : k0_off21 k = tOff (chT (16 * k.val + 8 + 6)).val := by rw [toff21, chT_val (by omega)] <;> first | rfl | exact congrArg tOff (by omega)
  have eX6 := xTp_spell m d (16 * k.val + 8 + 6) cr6 (k0_off21_inb k k0_h21) (fun _ => rfl)
  have cw7 : k0_off22 k = tOff (chT (16 * k.val + 7)).val := by rw [toff22, chT_val (by omega)] <;> first | rfl | exact congrArg tOff (by omega)
  have eP7 := pTp_spell d (fun _ => fp) (16 * k.val + 7) cw7 (k0_off22_inb k k0_h22) (fun _ => rfl)
  have cr7 : k0_off24 k = tOff (chT (16 * k.val + 8 + 7)).val := by rw [toff24, chT_val (by omega)] <;> first | rfl | exact congrArg tOff (by omega)
  have eX7 := xTp_spell m d (16 * k.val + 8 + 7) cr7 (k0_off24_inb k k0_h24) (fun _ => rfl)
  have cw8 : k0_off25 k = tOff (chT (16 * k.val + 8)).val := by rw [toff25, chT_val (by omega)] <;> first | rfl | exact congrArg tOff (by omega)
  have eP8 := pTp_spell d (fun _ => fp) (16 * k.val + 8) cw8 (k0_off25_inb k k0_h25) (fun _ => rfl)
  have cr8 : k0_off27 k = tOff (chT (16 * k.val + 8 + 8)).val := by rw [toff27, chT_val (by omega)] <;> first | rfl | exact congrArg tOff (by omega)
  have eX8 := xTp_spell m d (16 * k.val + 8 + 8) cr8 (k0_off27_inb k k0_h27) (fun _ => rfl)
  have cw9 : k0_off28 k = tOff (chT (16 * k.val + 8 + 1)).val := by rw [toff28, chT_val (by omega)] <;> first | rfl | exact congrArg tOff (by omega)
  have eP9 := pTp_spell d (fun _ => fp) (16 * k.val + 8 + 1) cw9 (k0_off28_inb k k0_h28) (fun _ => rfl)
  have cr9 : k0_off30 k = tOff (chT (16 * k.val + 8 + 8 + 1)).val := by rw [toff30, chT_val (by omega)] <;> first | rfl | exact congrArg tOff (by omega)
  have eX9 := xTp_spell m d (16 * k.val + 8 + 8 + 1) cr9 (k0_off30_inb k k0_h30) (fun _ => rfl)
  have cw10 : k0_off31 k = tOff (chT (16 * k.val + 8 + 2)).val := by rw [toff31, chT_val (by omega)] <;> first | rfl | exact congrArg tOff (by omega)
  have eP10 := pTp_spell d (fun _ => fp) (16 * k.val + 8 + 2) cw10 (k0_off31_inb k k0_h31) (fun _ => rfl)
  have cr10 : k0_off33 k = tOff (chT (16 * k.val + 8 + 8 + 2)).val := by rw [toff33, chT_val (by omega)] <;> first | rfl | exact congrArg tOff (by omega)
  have eX10 := xTp_spell m d (16 * k.val + 8 + 8 + 2) cr10 (k0_off33_inb k k0_h33) (fun _ => rfl)
  have cw11 : k0_off34 k = tOff (chT (16 * k.val + 8 + 3)).val := by rw [toff34, chT_val (by omega)] <;> first | rfl | exact congrArg tOff (by omega)
  have eP11 := pTp_spell d (fun _ => fp) (16 * k.val + 8 + 3) cw11 (k0_off34_inb k k0_h34) (fun _ => rfl)
  have cr11 : k0_off36 k = tOff (chT (16 * k.val + 8 + 8 + 3)).val := by rw [toff36, chT_val (by omega)] <;> first | rfl | exact congrArg tOff (by omega)
  have eX11 := xTp_spell m d (16 * k.val + 8 + 8 + 3) cr11 (k0_off36_inb k k0_h36) (fun _ => rfl)
  have cw12 : k0_off37 k = tOff (chT (16 * k.val + 8 + 4)).val := by rw [toff37, chT_val (by omega)] <;> first | rfl | exact congrArg tOff (by omega)
  have eP12 := pTp_spell d (fun _ => fp) (16 * k.val + 8 + 4) cw12 (k0_off37_inb k k0_h37) (fun _ => rfl)
  have cr12 : k0_off39 k = tOff (chT (16 * k.val + 8 + 8 + 4)).val := by rw [toff39, chT_val (by omega)] <;> first | rfl | exact congrArg tOff (by omega)
  have eX12 := xTp_spell m d (16 * k.val + 8 + 8 + 4) cr12 (k0_off39_inb k k0_h39) (fun _ => rfl)
  have cw13 : k0_off40 k = tOff (chT (16 * k.val + 8 + 5)).val := by rw [toff40, chT_val (by omega)] <;> first | rfl | exact congrArg tOff (by omega)
  have eP13 := pTp_spell d (fun _ => fp) (16 * k.val + 8 + 5) cw13 (k0_off40_inb k k0_h40) (fun _ => rfl)
  have cr13 : k0_off42 k = tOff (chT (16 * k.val + 8 + 8 + 5)).val := by rw [toff42, chT_val (by omega)] <;> first | rfl | exact congrArg tOff (by omega)
  have eX13 := xTp_spell m d (16 * k.val + 8 + 8 + 5) cr13 (k0_off42_inb k k0_h42) (fun _ => rfl)
  have cw14 : k0_off43 k = tOff (chT (16 * k.val + 8 + 6)).val := by rw [toff43, chT_val (by omega)] <;> first | rfl | exact congrArg tOff (by omega)
  have eP14 := pTp_spell d (fun _ => fp) (16 * k.val + 8 + 6) cw14 (k0_off43_inb k k0_h43) (fun _ => rfl)
  have cr14 : k0_off45 k = tOff (chT (16 * k.val + 8 + 8 + 6)).val := by rw [toff45, chT_val (by omega)] <;> first | rfl | exact congrArg tOff (by omega)
  have eX14 := xTp_spell m d (16 * k.val + 8 + 8 + 6) cr14 (k0_off45_inb k k0_h45) (fun _ => rfl)
  have cw15 : k0_off46 k = tOff (chT (16 * k.val + 8 + 7)).val := by rw [toff46, chT_val (by omega)] <;> first | rfl | exact congrArg tOff (by omega)
  have eP15 := pTp_spell d (fun _ => fp) (16 * k.val + 8 + 7) cw15 (k0_off46_inb k k0_h46) (fun _ => rfl)
  have cr15 : k0_off48 k = tOff (chT (16 * k.val + 8 + 8 + 7)).val := by rw [toff48, chT_val (by omega)] <;> first | rfl | exact congrArg tOff (by omega)
  have eX15 := xTp_spell m d (16 * k.val + 8 + 8 + 7) cr15 (k0_off48_inb k k0_h48) (fun _ => rfl)
  rw [inv_open_firstT m d fp O W k.val hk0]
  unfold rdF0 rdF1 rdF2 rdF3 rdF4 rdF5 rdF6 rdF7
  iintro ⟨#Hmw, ⟨Hr0, Hr1, Hr2, Hr3, Hr4, Hr5, Hr6, Hr7⟩, ⟨⟨%f8, Hb8⟩, ⟨%f9, Hb9⟩, ⟨%f10, Hb10⟩, ⟨%f11, Hb11⟩, ⟨%f12, Hb12⟩, ⟨%f13, Hb13⟩, ⟨%f14, Hb14⟩, ⟨%f15, Hb15⟩, Hw8, Hw9, Hw10, Hw11, Hw12, Hw13, Hw14, Hw15⟩, Hr8, Hr9, Hr10, Hr11, Hr12, Hr13, Hr14, Hr15, Hw0, Hw1, Hw2, Hw3, Hw4, Hw5, Hw6, Hw7, HxA, ⟨Hx0, Hx1, Hx2, Hx3, Hx4, Hx5, Hx6, Hx7, Hx8, Hx9, Hx10, Hx11, Hx12, Hx13, Hx14, Hx15, HxB⟩, HpA, ⟨Hp0, Hp1, Hp2, Hp3, Hp4, Hp5, Hp6, Hp7, Hp8, Hp9, Hp10, Hp11, Hp12, Hp13, Hp14, Hp15, HpB⟩, %W', %hW', HO⟩
  ihave Hp0 := (Entails.of_eq eP0) $$ Hp0
  ihave Hx0 := (Entails.of_eq eX0) $$ Hx0
  ihave Hp1 := (Entails.of_eq eP1) $$ Hp1
  ihave Hx1 := (Entails.of_eq eX1) $$ Hx1
  ihave Hp2 := (Entails.of_eq eP2) $$ Hp2
  ihave Hx2 := (Entails.of_eq eX2) $$ Hx2
  ihave Hp3 := (Entails.of_eq eP3) $$ Hp3
  ihave Hx3 := (Entails.of_eq eX3) $$ Hx3
  ihave Hp4 := (Entails.of_eq eP4) $$ Hp4
  ihave Hx4 := (Entails.of_eq eX4) $$ Hx4
  ihave Hp5 := (Entails.of_eq eP5) $$ Hp5
  ihave Hx5 := (Entails.of_eq eX5) $$ Hx5
  ihave Hp6 := (Entails.of_eq eP6) $$ Hp6
  ihave Hx6 := (Entails.of_eq eX6) $$ Hx6
  ihave Hp7 := (Entails.of_eq eP7) $$ Hp7
  ihave Hx7 := (Entails.of_eq eX7) $$ Hx7
  ihave Hp8 := (Entails.of_eq eP8) $$ Hp8
  ihave Hx8 := (Entails.of_eq eX8) $$ Hx8
  ihave Hp9 := (Entails.of_eq eP9) $$ Hp9
  ihave Hx9 := (Entails.of_eq eX9) $$ Hx9
  ihave Hp10 := (Entails.of_eq eP10) $$ Hp10
  ihave Hx10 := (Entails.of_eq eX10) $$ Hx10
  ihave Hp11 := (Entails.of_eq eP11) $$ Hp11
  ihave Hx11 := (Entails.of_eq eX11) $$ Hx11
  ihave Hp12 := (Entails.of_eq eP12) $$ Hp12
  ihave Hx12 := (Entails.of_eq eX12) $$ Hx12
  ihave Hp13 := (Entails.of_eq eP13) $$ Hp13
  ihave Hx13 := (Entails.of_eq eX13) $$ Hx13
  ihave Hp14 := (Entails.of_eq eP14) $$ Hp14
  ihave Hx14 := (Entails.of_eq eX14) $$ Hx14
  ihave Hp15 := (Entails.of_eq eP15) $$ Hp15
  ihave Hx15 := (Entails.of_eq eX15) $$ Hx15
  sl_exec
  sl_step
  have e0 : tripT_first.sl.dma0 m d k = tData m d (chT (16 * k.val)) := rfl
  have e1 : tripT_first.sl.dma0_1 m d k k0_h3 = tData m d (chT (16 * k.val + 8)) :=
    (tData_spell m d (16 * k.val + 8) cr0 (k0_off3_inb k k0_h3) (fun _ => rfl)).symm
  have e2 : tripT_first.sl.dma0_2 m d k = tData m d (chT (16 * k.val + 1)) := rfl
  have e3 : tripT_first.sl.dma0_3 m d k k0_h6 = tData m d (chT (16 * k.val + 8 + 1)) :=
    (tData_spell m d (16 * k.val + 8 + 1) cr1 (k0_off6_inb k k0_h6) (fun _ => rfl)).symm
  have e4 : tripT_first.sl.dma0_4 m d k = tData m d (chT (16 * k.val + 2)) := rfl
  have e5 : tripT_first.sl.dma0_5 m d k k0_h9 = tData m d (chT (16 * k.val + 8 + 2)) :=
    (tData_spell m d (16 * k.val + 8 + 2) cr2 (k0_off9_inb k k0_h9) (fun _ => rfl)).symm
  have e6 : tripT_first.sl.dma0_6 m d k = tData m d (chT (16 * k.val + 3)) := rfl
  have e7 : tripT_first.sl.dma0_7 m d k k0_h12 = tData m d (chT (16 * k.val + 8 + 3)) :=
    (tData_spell m d (16 * k.val + 8 + 3) cr3 (k0_off12_inb k k0_h12) (fun _ => rfl)).symm
  have e8 : tripT_first.sl.dma0_8 m d k = tData m d (chT (16 * k.val + 4)) := rfl
  have e9 : tripT_first.sl.dma0_9 m d k k0_h15 = tData m d (chT (16 * k.val + 8 + 4)) :=
    (tData_spell m d (16 * k.val + 8 + 4) cr4 (k0_off15_inb k k0_h15) (fun _ => rfl)).symm
  have e10 : tripT_first.sl.dma0_10 m d k = tData m d (chT (16 * k.val + 5)) := rfl
  have e11 : tripT_first.sl.dma0_11 m d k k0_h18 = tData m d (chT (16 * k.val + 8 + 5)) :=
    (tData_spell m d (16 * k.val + 8 + 5) cr5 (k0_off18_inb k k0_h18) (fun _ => rfl)).symm
  have e12 : tripT_first.sl.dma0_12 m d k = tData m d (chT (16 * k.val + 6)) := rfl
  have e13 : tripT_first.sl.dma0_13 m d k k0_h21 = tData m d (chT (16 * k.val + 8 + 6)) :=
    (tData_spell m d (16 * k.val + 8 + 6) cr6 (k0_off21_inb k k0_h21) (fun _ => rfl)).symm
  have e14 : tripT_first.sl.dma0_14 m d k = tData m d (chT (16 * k.val + 7)) := rfl
  have e15 : tripT_first.sl.dma0_15 m d k k0_h24 = tData m d (chT (16 * k.val + 8 + 7)) :=
    (tData_spell m d (16 * k.val + 8 + 7) cr7 (k0_off24_inb k k0_h24) (fun _ => rfl)).symm
  have e16 : tripT_first.sl.dma0_16 m d k k0_h3 f8 = tData m d (chT (16 * k.val + 8)) := by
    unfold tripT_first.sl.dma0_16
    simp only [Memref.view_whole, View.write_whole_univ, View.read_whole, ReadAs.apply_same]
    exact e1
  have e17 : tripT_first.sl.dma0_17 m d k k0_h27 = tData m d (chT (16 * k.val + 8 + 8)) :=
    (tData_spell m d (16 * k.val + 8 + 8) cr8 (k0_off27_inb k k0_h27) (fun _ => rfl)).symm
  have e18 : tripT_first.sl.dma0_18 m d k k0_h6 f9 = tData m d (chT (16 * k.val + 8 + 1)) := by
    unfold tripT_first.sl.dma0_18
    simp only [Memref.view_whole, View.write_whole_univ, View.read_whole, ReadAs.apply_same]
    exact e3
  have e19 : tripT_first.sl.dma0_19 m d k k0_h30 = tData m d (chT (16 * k.val + 8 + 8 + 1)) :=
    (tData_spell m d (16 * k.val + 8 + 8 + 1) cr9 (k0_off30_inb k k0_h30) (fun _ => rfl)).symm
  have e20 : tripT_first.sl.dma0_20 m d k k0_h9 f10 = tData m d (chT (16 * k.val + 8 + 2)) := by
    unfold tripT_first.sl.dma0_20
    simp only [Memref.view_whole, View.write_whole_univ, View.read_whole, ReadAs.apply_same]
    exact e5
  have e21 : tripT_first.sl.dma0_21 m d k k0_h33 = tData m d (chT (16 * k.val + 8 + 8 + 2)) :=
    (tData_spell m d (16 * k.val + 8 + 8 + 2) cr10 (k0_off33_inb k k0_h33) (fun _ => rfl)).symm
  have e22 : tripT_first.sl.dma0_22 m d k k0_h12 f11 = tData m d (chT (16 * k.val + 8 + 3)) := by
    unfold tripT_first.sl.dma0_22
    simp only [Memref.view_whole, View.write_whole_univ, View.read_whole, ReadAs.apply_same]
    exact e7
  have e23 : tripT_first.sl.dma0_23 m d k k0_h36 = tData m d (chT (16 * k.val + 8 + 8 + 3)) :=
    (tData_spell m d (16 * k.val + 8 + 8 + 3) cr11 (k0_off36_inb k k0_h36) (fun _ => rfl)).symm
  have e24 : tripT_first.sl.dma0_24 m d k k0_h15 f12 = tData m d (chT (16 * k.val + 8 + 4)) := by
    unfold tripT_first.sl.dma0_24
    simp only [Memref.view_whole, View.write_whole_univ, View.read_whole, ReadAs.apply_same]
    exact e9
  have e25 : tripT_first.sl.dma0_25 m d k k0_h39 = tData m d (chT (16 * k.val + 8 + 8 + 4)) :=
    (tData_spell m d (16 * k.val + 8 + 8 + 4) cr12 (k0_off39_inb k k0_h39) (fun _ => rfl)).symm
  have e26 : tripT_first.sl.dma0_26 m d k k0_h18 f13 = tData m d (chT (16 * k.val + 8 + 5)) := by
    unfold tripT_first.sl.dma0_26
    simp only [Memref.view_whole, View.write_whole_univ, View.read_whole, ReadAs.apply_same]
    exact e11
  have e27 : tripT_first.sl.dma0_27 m d k k0_h42 = tData m d (chT (16 * k.val + 8 + 8 + 5)) :=
    (tData_spell m d (16 * k.val + 8 + 8 + 5) cr13 (k0_off42_inb k k0_h42) (fun _ => rfl)).symm
  have e28 : tripT_first.sl.dma0_28 m d k k0_h21 f14 = tData m d (chT (16 * k.val + 8 + 6)) := by
    unfold tripT_first.sl.dma0_28
    simp only [Memref.view_whole, View.write_whole_univ, View.read_whole, ReadAs.apply_same]
    exact e13
  have e29 : tripT_first.sl.dma0_29 m d k k0_h45 = tData m d (chT (16 * k.val + 8 + 8 + 6)) :=
    (tData_spell m d (16 * k.val + 8 + 8 + 6) cr14 (k0_off45_inb k k0_h45) (fun _ => rfl)).symm
  have e30 : tripT_first.sl.dma0_30 m d k k0_h24 f15 = tData m d (chT (16 * k.val + 8 + 7)) := by
    unfold tripT_first.sl.dma0_30
    simp only [Memref.view_whole, View.write_whole_univ, View.read_whole, ReadAs.apply_same]
    exact e15
  have e31 : tripT_first.sl.dma0_31 m d k k0_h48 = tData m d (chT (16 * k.val + 8 + 8 + 7)) :=
    (tData_spell m d (16 * k.val + 8 + 8 + 7) cr15 (k0_off48_inb k k0_h48) (fun _ => rfl)).symm
  iapply (inv_close_firstT m d fp O W _ k.val hk0 ?hW)
  rotate_left
  isplitl [Hmw]; · iexact Hmw
  isplitl [Hr0 Hr1 Hr2 Hr3 Hr4 Hr5 Hr6 Hr7]
  · isplitl [Hr0]; · (iapply (rdT_conv0 m d (16 * k.val + 8 + 8) _ rfl _ _ e17 _ eX8.symm); iexact Hr0)
    isplitl [Hr1]; · (iapply (rdT_conv1 m d (16 * k.val + 8 + 8 + 1) _ rfl _ _ e19 _ eX9.symm); iexact Hr1)
    isplitl [Hr2]; · (iapply (rdT_conv2 m d (16 * k.val + 8 + 8 + 2) _ rfl _ _ e21 _ eX10.symm); iexact Hr2)
    isplitl [Hr3]; · (iapply (rdT_conv3 m d (16 * k.val + 8 + 8 + 3) _ rfl _ _ e23 _ eX11.symm); iexact Hr3)
    isplitl [Hr4]; · (iapply (rdT_conv4 m d (16 * k.val + 8 + 8 + 4) _ rfl _ _ e25 _ eX12.symm); iexact Hr4)
    isplitl [Hr5]; · (iapply (rdT_conv5 m d (16 * k.val + 8 + 8 + 5) _ rfl _ _ e27 _ eX13.symm); iexact Hr5)
    isplitl [Hr6]; · (iapply (rdT_conv6 m d (16 * k.val + 8 + 8 + 6) _ rfl _ _ e29 _ eX14.symm); iexact Hr6)
    (iapply (rdT_conv7 m d (16 * k.val + 8 + 8 + 7) _ rfl _ _ e31 _ eX15.symm); iexact Hr7)
  isplitl [Hw8 Hw9 Hw10 Hw11 Hw12 Hw13 Hw14 Hw15]
  · isplitl [Hw8]; · (iapply (wrT_conv8 m d fp (16 * k.val + 8) _ rfl _ ((View.write_whole_univ (Val := Elt F) cc0_scratch8 _ _).trans e1) _ (pDone_spell m d fp (16 * k.val + 8) cw8 (k0_off25_inb k k0_h25) (fun _ => rfl) _ e16).symm); iexact Hw8)
    isplitl [Hw9]; · (iapply (wrT_conv9 m d fp (16 * k.val + 8 + 1) _ rfl _ ((View.write_whole_univ (Val := Elt F) cc0_scratch9 _ _).trans e3) _ (pDone_spell m d fp (16 * k.val + 8 + 1) cw9 (k0_off28_inb k k0_h28) (fun _ => rfl) _ e18).symm); iexact Hw9)
    isplitl [Hw10]; · (iapply (wrT_conv10 m d fp (16 * k.val + 8 + 2) _ rfl _ ((View.write_whole_univ (Val := Elt F) cc0_scratch10 _ _).trans e5) _ (pDone_spell m d fp (16 * k.val + 8 + 2) cw10 (k0_off31_inb k k0_h31) (fun _ => rfl) _ e20).symm); iexact Hw10)
    isplitl [Hw11]; · (iapply (wrT_conv11 m d fp (16 * k.val + 8 + 3) _ rfl _ ((View.write_whole_univ (Val := Elt F) cc0_scratch11 _ _).trans e7) _ (pDone_spell m d fp (16 * k.val + 8 + 3) cw11 (k0_off34_inb k k0_h34) (fun _ => rfl) _ e22).symm); iexact Hw11)
    isplitl [Hw12]; · (iapply (wrT_conv12 m d fp (16 * k.val + 8 + 4) _ rfl _ ((View.write_whole_univ (Val := Elt F) cc0_scratch12 _ _).trans e9) _ (pDone_spell m d fp (16 * k.val + 8 + 4) cw12 (k0_off37_inb k k0_h37) (fun _ => rfl) _ e24).symm); iexact Hw12)
    isplitl [Hw13]; · (iapply (wrT_conv13 m d fp (16 * k.val + 8 + 5) _ rfl _ ((View.write_whole_univ (Val := Elt F) cc0_scratch13 _ _).trans e11) _ (pDone_spell m d fp (16 * k.val + 8 + 5) cw13 (k0_off40_inb k k0_h40) (fun _ => rfl) _ e26).symm); iexact Hw13)
    isplitl [Hw14]; · (iapply (wrT_conv14 m d fp (16 * k.val + 8 + 6) _ rfl _ ((View.write_whole_univ (Val := Elt F) cc0_scratch14 _ _).trans e13) _ (pDone_spell m d fp (16 * k.val + 8 + 6) cw14 (k0_off43_inb k k0_h43) (fun _ => rfl) _ e28).symm); iexact Hw14)
    (iapply (wrT_conv15 m d fp (16 * k.val + 8 + 7) _ rfl _ ((View.write_whole_univ (Val := Elt F) cc0_scratch15 _ _).trans e15) _ (pDone_spell m d fp (16 * k.val + 8 + 7) cw15 (k0_off46_inb k k0_h46) (fun _ => rfl) _ e30).symm); iexact Hw15)
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hr0_src Hr1_src Hr2_src Hr3_src Hr4_src Hr5_src Hr6_src Hr7_src Hx0 Hx1 Hx2 Hx3 Hx4 Hx5 Hx6 Hx7]
  · isplitl [HxA]; · iexact HxA
    isplitl [Hr0_src Hr1_src Hr2_src Hr3_src Hr4_src Hr5_src Hr6_src Hr7_src]
    · isplitl [Hr0_src]; · iexact Hr0_src
      isplitl [Hr1_src]; · iexact Hr1_src
      isplitl [Hr2_src]; · iexact Hr2_src
      isplitl [Hr3_src]; · iexact Hr3_src
      isplitl [Hr4_src]; · iexact Hr4_src
      isplitl [Hr5_src]; · iexact Hr5_src
      isplitl [Hr6_src]; · iexact Hr6_src
      isplitl [Hr7_src]; · iexact Hr7_src
      iempintro
    isplitl [Hx0]; · (iapply (Entails.of_eq eX0.symm); iexact Hx0)
    isplitl [Hx1]; · (iapply (Entails.of_eq eX1.symm); iexact Hx1)
    isplitl [Hx2]; · (iapply (Entails.of_eq eX2.symm); iexact Hx2)
    isplitl [Hx3]; · (iapply (Entails.of_eq eX3.symm); iexact Hx3)
    isplitl [Hx4]; · (iapply (Entails.of_eq eX4.symm); iexact Hx4)
    isplitl [Hx5]; · (iapply (Entails.of_eq eX5.symm); iexact Hx5)
    isplitl [Hx6]; · (iapply (Entails.of_eq eX6.symm); iexact Hx6)
    isplitl [Hx7]; · (iapply (Entails.of_eq eX7.symm); iexact Hx7)
    iempintro
  isplitl [HxB]; · iexact HxB
  isplitl [HpA Hp0 Hp1 Hp2 Hp3 Hp4 Hp5 Hp6 Hp7]
  · isplitl [HpA]
    · iapply (Entails.of_eq (show bigSep (Finset.Ico 0 (16 * k.val - 8)) (pTp d fun n => pNew m d fp (chT n)) = bigSep (Finset.Ico 0 (16 * k.val)) (pTp d fun n => pNew m d fp (chT n)) from by
        rw [show 16 * k.val - 8 = 16 * k.val from by omega]))
      iexact HpA
    isplitl [Hp0]; · (iapply (Entails.of_eq (pDone_spell m d fp (16 * k.val) cw0 (k0_off1_inb k k0_h1) (fun _ => rfl) _ e0).symm); iexact Hp0)
    isplitl [Hp1]; · (iapply (Entails.of_eq (pDone_spell m d fp (16 * k.val + 1) cw1 (k0_off4_inb k k0_h4) (fun _ => rfl) _ e2).symm); iexact Hp1)
    isplitl [Hp2]; · (iapply (Entails.of_eq (pDone_spell m d fp (16 * k.val + 2) cw2 (k0_off7_inb k k0_h7) (fun _ => rfl) _ e4).symm); iexact Hp2)
    isplitl [Hp3]; · (iapply (Entails.of_eq (pDone_spell m d fp (16 * k.val + 3) cw3 (k0_off10_inb k k0_h10) (fun _ => rfl) _ e6).symm); iexact Hp3)
    isplitl [Hp4]; · (iapply (Entails.of_eq (pDone_spell m d fp (16 * k.val + 4) cw4 (k0_off13_inb k k0_h13) (fun _ => rfl) _ e8).symm); iexact Hp4)
    isplitl [Hp5]; · (iapply (Entails.of_eq (pDone_spell m d fp (16 * k.val + 5) cw5 (k0_off16_inb k k0_h16) (fun _ => rfl) _ e10).symm); iexact Hp5)
    isplitl [Hp6]; · (iapply (Entails.of_eq (pDone_spell m d fp (16 * k.val + 6) cw6 (k0_off19_inb k k0_h19) (fun _ => rfl) _ e12).symm); iexact Hp6)
    isplitl [Hp7]; · (iapply (Entails.of_eq (pDone_spell m d fp (16 * k.val + 7) cw7 (k0_off22_inb k k0_h22) (fun _ => rfl) _ e14).symm); iexact Hp7)
    iempintro
  isplitl [HpB]; · iexact HpB
  iexact HO
  repeat (first | exact hW' | refine (Finset.forall_mem_insert _ _ _).mpr ⟨Or.inr rfl, ?_⟩)

set_option maxHeartbeats 16000000 in
/-- A middle trip (1 ≤ g < 6) of the ring copy's loop. -/
theorem tripT_mid (fp : Buf (Elt F) (pLoc d)) (O : CellTallies nD τ sig (HIx 1)) (W : Waits sig (HIx 1))
    (k : Fin k0_t1_loop.trips) (hk1 : 1 ≤ k.val) (hk6 : k.val < 6) :
    invT m d fp O W k.val ⟨⟩
      ⊢ wp frame (wpE (defs₀ (F := F)) 𝒱₀ (Tt d) none) Set.univ
          (k0_t1_body xT (Memref.isWhole_whole _) pT (Memref.isWhole_whole _) sl0 (Memref.isWhole_whole _) sl1 (Memref.isWhole_whole _) sl2 (Memref.isWhole_whole _) sl3 (Memref.isWhole_whole _) sl4 (Memref.isWhole_whole _) sl5 (Memref.isWhole_whole _) sl6 (Memref.isWhole_whole _) sl7 (Memref.isWhole_whole _) sl8 (Memref.isWhole_whole _) sl9 (Memref.isWhole_whole _) sl10 (Memref.isWhole_whole _) sl11 (Memref.isWhole_whole _) sl12 (Memref.isWhole_whole _) sl13 (Memref.isWhole_whole _) sl14 (Memref.isWhole_whole _) sl15 (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41 cc0_scratch42 cc0_scratch43 cc0_scratch44 cc0_scratch45 cc0_scratch46 cc0_scratch47 k ⟨⟩)
          (invT m d fp O W (k.val + 1)) := by
  have k0_h1 : k0_cond1 k = 1#1 := tcond1 k
  have k0_h2 : k0_cond2 k = 1#1 := (tcond2 k).mpr (by omega)
  have k0_h3 : k0_cond3 k = 1#1 := tcond3 k
  have k0_h4 : k0_cond4 k = 1#1 := tcond4 k
  have k0_h5 : k0_cond5 k = 1#1 := (tcond5 k).mpr (by omega)
  have k0_h6 : k0_cond6 k = 1#1 := tcond6 k
  have k0_h7 : k0_cond7 k = 1#1 := tcond7 k
  have k0_h8 : k0_cond8 k = 1#1 := (tcond8 k).mpr (by omega)
  have k0_h9 : k0_cond9 k = 1#1 := tcond9 k
  have k0_h10 : k0_cond10 k = 1#1 := tcond10 k
  have k0_h11 : k0_cond11 k = 1#1 := (tcond11 k).mpr (by omega)
  have k0_h12 : k0_cond12 k = 1#1 := tcond12 k
  have k0_h13 : k0_cond13 k = 1#1 := tcond13 k
  have k0_h14 : k0_cond14 k = 1#1 := (tcond14 k).mpr (by omega)
  have k0_h15 : k0_cond15 k = 1#1 := tcond15 k
  have k0_h16 : k0_cond16 k = 1#1 := tcond16 k
  have k0_h17 : k0_cond17 k = 1#1 := (tcond17 k).mpr (by omega)
  have k0_h18 : k0_cond18 k = 1#1 := tcond18 k
  have k0_h19 : k0_cond19 k = 1#1 := tcond19 k
  have k0_h20 : k0_cond20 k = 1#1 := (tcond20 k).mpr (by omega)
  have k0_h21 : k0_cond21 k = 1#1 := tcond21 k
  have k0_h22 : k0_cond22 k = 1#1 := tcond22 k
  have k0_h23 : k0_cond23 k = 1#1 := (tcond23 k).mpr (by omega)
  have k0_h24 : k0_cond24 k = 1#1 := tcond24 k
  have k0_h25 : k0_cond25 k = 1#1 := tcond25 k
  have k0_h26 : k0_cond26 k = 1#1 := tcond26 k
  have k0_h27 : k0_cond27 k = 1#1 := (tcond27 k).mpr (by omega)
  have k0_h28 : k0_cond28 k = 1#1 := tcond28 k
  have k0_h29 : k0_cond29 k = 1#1 := tcond29 k
  have k0_h30 : k0_cond30 k = 1#1 := (tcond30 k).mpr (by omega)
  have k0_h31 : k0_cond31 k = 1#1 := tcond31 k
  have k0_h32 : k0_cond32 k = 1#1 := tcond32 k
  have k0_h33 : k0_cond33 k = 1#1 := (tcond33 k).mpr (by omega)
  have k0_h34 : k0_cond34 k = 1#1 := tcond34 k
  have k0_h35 : k0_cond35 k = 1#1 := tcond35 k
  have k0_h36 : k0_cond36 k = 1#1 := (tcond36 k).mpr (by omega)
  have k0_h37 : k0_cond37 k = 1#1 := tcond37 k
  have k0_h38 : k0_cond38 k = 1#1 := tcond38 k
  have k0_h39 : k0_cond39 k = 1#1 := (tcond39 k).mpr (by omega)
  have k0_h40 : k0_cond40 k = 1#1 := tcond40 k
  have k0_h41 : k0_cond41 k = 1#1 := tcond41 k
  have k0_h42 : k0_cond42 k = 1#1 := (tcond42 k).mpr (by omega)
  have k0_h43 : k0_cond43 k = 1#1 := tcond43 k
  have k0_h44 : k0_cond44 k = 1#1 := tcond44 k
  have k0_h45 : k0_cond45 k = 1#1 := (tcond45 k).mpr (by omega)
  have k0_h46 : k0_cond46 k = 1#1 := tcond46 k
  have k0_h47 : k0_cond47 k = 1#1 := tcond47 k
  have k0_h48 : k0_cond48 k = 1#1 := (tcond48 k).mpr (by omega)
  unfold k0_t1_body
  simp only [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  have cw0 : k0_off1 k = tOff (chT (16 * k.val)).val := by rw [toff1, chT_val (by omega)] <;> first | rfl | exact congrArg tOff (by omega)
  have eP0 := pTp_spell d (fun _ => fp) (16 * k.val) cw0 (k0_off1_inb k k0_h1) (fun _ => rfl)
  have cr0 : k0_off3 k = tOff (chT (16 * k.val + 8)).val := by rw [toff3, chT_val (by omega)] <;> first | rfl | exact congrArg tOff (by omega)
  have eX0 := xTp_spell m d (16 * k.val + 8) cr0 (k0_off3_inb k k0_h3) (fun _ => rfl)
  have cw1 : k0_off4 k = tOff (chT (16 * k.val + 1)).val := by rw [toff4, chT_val (by omega)] <;> first | rfl | exact congrArg tOff (by omega)
  have eP1 := pTp_spell d (fun _ => fp) (16 * k.val + 1) cw1 (k0_off4_inb k k0_h4) (fun _ => rfl)
  have cr1 : k0_off6 k = tOff (chT (16 * k.val + 8 + 1)).val := by rw [toff6, chT_val (by omega)] <;> first | rfl | exact congrArg tOff (by omega)
  have eX1 := xTp_spell m d (16 * k.val + 8 + 1) cr1 (k0_off6_inb k k0_h6) (fun _ => rfl)
  have cw2 : k0_off7 k = tOff (chT (16 * k.val + 2)).val := by rw [toff7, chT_val (by omega)] <;> first | rfl | exact congrArg tOff (by omega)
  have eP2 := pTp_spell d (fun _ => fp) (16 * k.val + 2) cw2 (k0_off7_inb k k0_h7) (fun _ => rfl)
  have cr2 : k0_off9 k = tOff (chT (16 * k.val + 8 + 2)).val := by rw [toff9, chT_val (by omega)] <;> first | rfl | exact congrArg tOff (by omega)
  have eX2 := xTp_spell m d (16 * k.val + 8 + 2) cr2 (k0_off9_inb k k0_h9) (fun _ => rfl)
  have cw3 : k0_off10 k = tOff (chT (16 * k.val + 3)).val := by rw [toff10, chT_val (by omega)] <;> first | rfl | exact congrArg tOff (by omega)
  have eP3 := pTp_spell d (fun _ => fp) (16 * k.val + 3) cw3 (k0_off10_inb k k0_h10) (fun _ => rfl)
  have cr3 : k0_off12 k = tOff (chT (16 * k.val + 8 + 3)).val := by rw [toff12, chT_val (by omega)] <;> first | rfl | exact congrArg tOff (by omega)
  have eX3 := xTp_spell m d (16 * k.val + 8 + 3) cr3 (k0_off12_inb k k0_h12) (fun _ => rfl)
  have cw4 : k0_off13 k = tOff (chT (16 * k.val + 4)).val := by rw [toff13, chT_val (by omega)] <;> first | rfl | exact congrArg tOff (by omega)
  have eP4 := pTp_spell d (fun _ => fp) (16 * k.val + 4) cw4 (k0_off13_inb k k0_h13) (fun _ => rfl)
  have cr4 : k0_off15 k = tOff (chT (16 * k.val + 8 + 4)).val := by rw [toff15, chT_val (by omega)] <;> first | rfl | exact congrArg tOff (by omega)
  have eX4 := xTp_spell m d (16 * k.val + 8 + 4) cr4 (k0_off15_inb k k0_h15) (fun _ => rfl)
  have cw5 : k0_off16 k = tOff (chT (16 * k.val + 5)).val := by rw [toff16, chT_val (by omega)] <;> first | rfl | exact congrArg tOff (by omega)
  have eP5 := pTp_spell d (fun _ => fp) (16 * k.val + 5) cw5 (k0_off16_inb k k0_h16) (fun _ => rfl)
  have cr5 : k0_off18 k = tOff (chT (16 * k.val + 8 + 5)).val := by rw [toff18, chT_val (by omega)] <;> first | rfl | exact congrArg tOff (by omega)
  have eX5 := xTp_spell m d (16 * k.val + 8 + 5) cr5 (k0_off18_inb k k0_h18) (fun _ => rfl)
  have cw6 : k0_off19 k = tOff (chT (16 * k.val + 6)).val := by rw [toff19, chT_val (by omega)] <;> first | rfl | exact congrArg tOff (by omega)
  have eP6 := pTp_spell d (fun _ => fp) (16 * k.val + 6) cw6 (k0_off19_inb k k0_h19) (fun _ => rfl)
  have cr6 : k0_off21 k = tOff (chT (16 * k.val + 8 + 6)).val := by rw [toff21, chT_val (by omega)] <;> first | rfl | exact congrArg tOff (by omega)
  have eX6 := xTp_spell m d (16 * k.val + 8 + 6) cr6 (k0_off21_inb k k0_h21) (fun _ => rfl)
  have cw7 : k0_off22 k = tOff (chT (16 * k.val + 7)).val := by rw [toff22, chT_val (by omega)] <;> first | rfl | exact congrArg tOff (by omega)
  have eP7 := pTp_spell d (fun _ => fp) (16 * k.val + 7) cw7 (k0_off22_inb k k0_h22) (fun _ => rfl)
  have cr7 : k0_off24 k = tOff (chT (16 * k.val + 8 + 7)).val := by rw [toff24, chT_val (by omega)] <;> first | rfl | exact congrArg tOff (by omega)
  have eX7 := xTp_spell m d (16 * k.val + 8 + 7) cr7 (k0_off24_inb k k0_h24) (fun _ => rfl)
  have cw8 : k0_off25 k = tOff (chT (16 * k.val + 8)).val := by rw [toff25, chT_val (by omega)] <;> first | rfl | exact congrArg tOff (by omega)
  have eP8 := pTp_spell d (fun _ => fp) (16 * k.val + 8) cw8 (k0_off25_inb k k0_h25) (fun _ => rfl)
  have cr8 : k0_off27 k = tOff (chT (16 * k.val + 8 + 8)).val := by rw [toff27, chT_val (by omega)] <;> first | rfl | exact congrArg tOff (by omega)
  have eX8 := xTp_spell m d (16 * k.val + 8 + 8) cr8 (k0_off27_inb k k0_h27) (fun _ => rfl)
  have cw9 : k0_off28 k = tOff (chT (16 * k.val + 8 + 1)).val := by rw [toff28, chT_val (by omega)] <;> first | rfl | exact congrArg tOff (by omega)
  have eP9 := pTp_spell d (fun _ => fp) (16 * k.val + 8 + 1) cw9 (k0_off28_inb k k0_h28) (fun _ => rfl)
  have cr9 : k0_off30 k = tOff (chT (16 * k.val + 8 + 8 + 1)).val := by rw [toff30, chT_val (by omega)] <;> first | rfl | exact congrArg tOff (by omega)
  have eX9 := xTp_spell m d (16 * k.val + 8 + 8 + 1) cr9 (k0_off30_inb k k0_h30) (fun _ => rfl)
  have cw10 : k0_off31 k = tOff (chT (16 * k.val + 8 + 2)).val := by rw [toff31, chT_val (by omega)] <;> first | rfl | exact congrArg tOff (by omega)
  have eP10 := pTp_spell d (fun _ => fp) (16 * k.val + 8 + 2) cw10 (k0_off31_inb k k0_h31) (fun _ => rfl)
  have cr10 : k0_off33 k = tOff (chT (16 * k.val + 8 + 8 + 2)).val := by rw [toff33, chT_val (by omega)] <;> first | rfl | exact congrArg tOff (by omega)
  have eX10 := xTp_spell m d (16 * k.val + 8 + 8 + 2) cr10 (k0_off33_inb k k0_h33) (fun _ => rfl)
  have cw11 : k0_off34 k = tOff (chT (16 * k.val + 8 + 3)).val := by rw [toff34, chT_val (by omega)] <;> first | rfl | exact congrArg tOff (by omega)
  have eP11 := pTp_spell d (fun _ => fp) (16 * k.val + 8 + 3) cw11 (k0_off34_inb k k0_h34) (fun _ => rfl)
  have cr11 : k0_off36 k = tOff (chT (16 * k.val + 8 + 8 + 3)).val := by rw [toff36, chT_val (by omega)] <;> first | rfl | exact congrArg tOff (by omega)
  have eX11 := xTp_spell m d (16 * k.val + 8 + 8 + 3) cr11 (k0_off36_inb k k0_h36) (fun _ => rfl)
  have cw12 : k0_off37 k = tOff (chT (16 * k.val + 8 + 4)).val := by rw [toff37, chT_val (by omega)] <;> first | rfl | exact congrArg tOff (by omega)
  have eP12 := pTp_spell d (fun _ => fp) (16 * k.val + 8 + 4) cw12 (k0_off37_inb k k0_h37) (fun _ => rfl)
  have cr12 : k0_off39 k = tOff (chT (16 * k.val + 8 + 8 + 4)).val := by rw [toff39, chT_val (by omega)] <;> first | rfl | exact congrArg tOff (by omega)
  have eX12 := xTp_spell m d (16 * k.val + 8 + 8 + 4) cr12 (k0_off39_inb k k0_h39) (fun _ => rfl)
  have cw13 : k0_off40 k = tOff (chT (16 * k.val + 8 + 5)).val := by rw [toff40, chT_val (by omega)] <;> first | rfl | exact congrArg tOff (by omega)
  have eP13 := pTp_spell d (fun _ => fp) (16 * k.val + 8 + 5) cw13 (k0_off40_inb k k0_h40) (fun _ => rfl)
  have cr13 : k0_off42 k = tOff (chT (16 * k.val + 8 + 8 + 5)).val := by rw [toff42, chT_val (by omega)] <;> first | rfl | exact congrArg tOff (by omega)
  have eX13 := xTp_spell m d (16 * k.val + 8 + 8 + 5) cr13 (k0_off42_inb k k0_h42) (fun _ => rfl)
  have cw14 : k0_off43 k = tOff (chT (16 * k.val + 8 + 6)).val := by rw [toff43, chT_val (by omega)] <;> first | rfl | exact congrArg tOff (by omega)
  have eP14 := pTp_spell d (fun _ => fp) (16 * k.val + 8 + 6) cw14 (k0_off43_inb k k0_h43) (fun _ => rfl)
  have cr14 : k0_off45 k = tOff (chT (16 * k.val + 8 + 8 + 6)).val := by rw [toff45, chT_val (by omega)] <;> first | rfl | exact congrArg tOff (by omega)
  have eX14 := xTp_spell m d (16 * k.val + 8 + 8 + 6) cr14 (k0_off45_inb k k0_h45) (fun _ => rfl)
  have cw15 : k0_off46 k = tOff (chT (16 * k.val + 8 + 7)).val := by rw [toff46, chT_val (by omega)] <;> first | rfl | exact congrArg tOff (by omega)
  have eP15 := pTp_spell d (fun _ => fp) (16 * k.val + 8 + 7) cw15 (k0_off46_inb k k0_h46) (fun _ => rfl)
  have cr15 : k0_off48 k = tOff (chT (16 * k.val + 8 + 8 + 7)).val := by rw [toff48, chT_val (by omega)] <;> first | rfl | exact congrArg tOff (by omega)
  have eX15 := xTp_spell m d (16 * k.val + 8 + 8 + 7) cr15 (k0_off48_inb k k0_h48) (fun _ => rfl)
  rw [inv_open_midT m d fp O W k.val hk1 hk6]
  unfold rdF0 rdF1 rdF2 rdF3 rdF4 rdF5 rdF6 rdF7 wrF8 wrF9 wrF10 wrF11 wrF12 wrF13 wrF14 wrF15
  iintro ⟨#Hmw, ⟨Hr0, Hr1, Hr2, Hr3, Hr4, Hr5, Hr6, Hr7⟩, ⟨Hw8, Hw9, Hw10, Hw11, Hw12, Hw13, Hw14, Hw15⟩, Hr8, Hr9, Hr10, Hr11, Hr12, Hr13, Hr14, Hr15, Hw0, Hw1, Hw2, Hw3, Hw4, Hw5, Hw6, Hw7, HxA, ⟨Hx0, Hx1, Hx2, Hx3, Hx4, Hx5, Hx6, Hx7, Hx8, Hx9, Hx10, Hx11, Hx12, Hx13, Hx14, Hx15, HxB⟩, HpA, ⟨Hp0, Hp1, Hp2, Hp3, Hp4, Hp5, Hp6, Hp7, Hp8, Hp9, Hp10, Hp11, Hp12, Hp13, Hp14, Hp15, HpB⟩, %W', %hW', HO⟩
  ihave Hp0 := (Entails.of_eq eP0) $$ Hp0
  ihave Hx0 := (Entails.of_eq eX0) $$ Hx0
  ihave Hp1 := (Entails.of_eq eP1) $$ Hp1
  ihave Hx1 := (Entails.of_eq eX1) $$ Hx1
  ihave Hp2 := (Entails.of_eq eP2) $$ Hp2
  ihave Hx2 := (Entails.of_eq eX2) $$ Hx2
  ihave Hp3 := (Entails.of_eq eP3) $$ Hp3
  ihave Hx3 := (Entails.of_eq eX3) $$ Hx3
  ihave Hp4 := (Entails.of_eq eP4) $$ Hp4
  ihave Hx4 := (Entails.of_eq eX4) $$ Hx4
  ihave Hp5 := (Entails.of_eq eP5) $$ Hp5
  ihave Hx5 := (Entails.of_eq eX5) $$ Hx5
  ihave Hp6 := (Entails.of_eq eP6) $$ Hp6
  ihave Hx6 := (Entails.of_eq eX6) $$ Hx6
  ihave Hp7 := (Entails.of_eq eP7) $$ Hp7
  ihave Hx7 := (Entails.of_eq eX7) $$ Hx7
  ihave Hp8 := (Entails.of_eq eP8) $$ Hp8
  ihave Hx8 := (Entails.of_eq eX8) $$ Hx8
  ihave Hp9 := (Entails.of_eq eP9) $$ Hp9
  ihave Hx9 := (Entails.of_eq eX9) $$ Hx9
  ihave Hp10 := (Entails.of_eq eP10) $$ Hp10
  ihave Hx10 := (Entails.of_eq eX10) $$ Hx10
  ihave Hp11 := (Entails.of_eq eP11) $$ Hp11
  ihave Hx11 := (Entails.of_eq eX11) $$ Hx11
  ihave Hp12 := (Entails.of_eq eP12) $$ Hp12
  ihave Hx12 := (Entails.of_eq eX12) $$ Hx12
  ihave Hp13 := (Entails.of_eq eP13) $$ Hp13
  ihave Hx13 := (Entails.of_eq eX13) $$ Hx13
  ihave Hp14 := (Entails.of_eq eP14) $$ Hp14
  ihave Hx14 := (Entails.of_eq eX14) $$ Hx14
  ihave Hp15 := (Entails.of_eq eP15) $$ Hp15
  ihave Hx15 := (Entails.of_eq eX15) $$ Hx15
  sl_exec
  sl_step
  have e0 : tripT_mid.sl.dma0 m d k = tData m d (chT (16 * k.val)) := rfl
  have e1 : tripT_mid.sl.dma0_1 m d k k0_h3 = tData m d (chT (16 * k.val + 8)) :=
    (tData_spell m d (16 * k.val + 8) cr0 (k0_off3_inb k k0_h3) (fun _ => rfl)).symm
  have e2 : tripT_mid.sl.dma0_2 m d k = tData m d (chT (16 * k.val + 1)) := rfl
  have e3 : tripT_mid.sl.dma0_3 m d k k0_h6 = tData m d (chT (16 * k.val + 8 + 1)) :=
    (tData_spell m d (16 * k.val + 8 + 1) cr1 (k0_off6_inb k k0_h6) (fun _ => rfl)).symm
  have e4 : tripT_mid.sl.dma0_4 m d k = tData m d (chT (16 * k.val + 2)) := rfl
  have e5 : tripT_mid.sl.dma0_5 m d k k0_h9 = tData m d (chT (16 * k.val + 8 + 2)) :=
    (tData_spell m d (16 * k.val + 8 + 2) cr2 (k0_off9_inb k k0_h9) (fun _ => rfl)).symm
  have e6 : tripT_mid.sl.dma0_6 m d k = tData m d (chT (16 * k.val + 3)) := rfl
  have e7 : tripT_mid.sl.dma0_7 m d k k0_h12 = tData m d (chT (16 * k.val + 8 + 3)) :=
    (tData_spell m d (16 * k.val + 8 + 3) cr3 (k0_off12_inb k k0_h12) (fun _ => rfl)).symm
  have e8 : tripT_mid.sl.dma0_8 m d k = tData m d (chT (16 * k.val + 4)) := rfl
  have e9 : tripT_mid.sl.dma0_9 m d k k0_h15 = tData m d (chT (16 * k.val + 8 + 4)) :=
    (tData_spell m d (16 * k.val + 8 + 4) cr4 (k0_off15_inb k k0_h15) (fun _ => rfl)).symm
  have e10 : tripT_mid.sl.dma0_10 m d k = tData m d (chT (16 * k.val + 5)) := rfl
  have e11 : tripT_mid.sl.dma0_11 m d k k0_h18 = tData m d (chT (16 * k.val + 8 + 5)) :=
    (tData_spell m d (16 * k.val + 8 + 5) cr5 (k0_off18_inb k k0_h18) (fun _ => rfl)).symm
  have e12 : tripT_mid.sl.dma0_12 m d k = tData m d (chT (16 * k.val + 6)) := rfl
  have e13 : tripT_mid.sl.dma0_13 m d k k0_h21 = tData m d (chT (16 * k.val + 8 + 6)) :=
    (tData_spell m d (16 * k.val + 8 + 6) cr6 (k0_off21_inb k k0_h21) (fun _ => rfl)).symm
  have e14 : tripT_mid.sl.dma0_14 m d k = tData m d (chT (16 * k.val + 7)) := rfl
  have e15 : tripT_mid.sl.dma0_15 m d k k0_h24 = tData m d (chT (16 * k.val + 8 + 7)) :=
    (tData_spell m d (16 * k.val + 8 + 7) cr7 (k0_off24_inb k k0_h24) (fun _ => rfl)).symm
  have e16 : tripT_mid.sl.dma0_16 m d k k0_h3 = tData m d (chT (16 * k.val + 8)) := by
    unfold tripT_mid.sl.dma0_16
    simp only [Memref.view_whole, View.write_whole_univ, View.read_whole, ReadAs.apply_same]
    exact e1
  have e17 : tripT_mid.sl.dma0_17 m d k k0_h27 = tData m d (chT (16 * k.val + 8 + 8)) :=
    (tData_spell m d (16 * k.val + 8 + 8) cr8 (k0_off27_inb k k0_h27) (fun _ => rfl)).symm
  have e18 : tripT_mid.sl.dma0_18 m d k k0_h6 = tData m d (chT (16 * k.val + 8 + 1)) := by
    unfold tripT_mid.sl.dma0_18
    simp only [Memref.view_whole, View.write_whole_univ, View.read_whole, ReadAs.apply_same]
    exact e3
  have e19 : tripT_mid.sl.dma0_19 m d k k0_h30 = tData m d (chT (16 * k.val + 8 + 8 + 1)) :=
    (tData_spell m d (16 * k.val + 8 + 8 + 1) cr9 (k0_off30_inb k k0_h30) (fun _ => rfl)).symm
  have e20 : tripT_mid.sl.dma0_20 m d k k0_h9 = tData m d (chT (16 * k.val + 8 + 2)) := by
    unfold tripT_mid.sl.dma0_20
    simp only [Memref.view_whole, View.write_whole_univ, View.read_whole, ReadAs.apply_same]
    exact e5
  have e21 : tripT_mid.sl.dma0_21 m d k k0_h33 = tData m d (chT (16 * k.val + 8 + 8 + 2)) :=
    (tData_spell m d (16 * k.val + 8 + 8 + 2) cr10 (k0_off33_inb k k0_h33) (fun _ => rfl)).symm
  have e22 : tripT_mid.sl.dma0_22 m d k k0_h12 = tData m d (chT (16 * k.val + 8 + 3)) := by
    unfold tripT_mid.sl.dma0_22
    simp only [Memref.view_whole, View.write_whole_univ, View.read_whole, ReadAs.apply_same]
    exact e7
  have e23 : tripT_mid.sl.dma0_23 m d k k0_h36 = tData m d (chT (16 * k.val + 8 + 8 + 3)) :=
    (tData_spell m d (16 * k.val + 8 + 8 + 3) cr11 (k0_off36_inb k k0_h36) (fun _ => rfl)).symm
  have e24 : tripT_mid.sl.dma0_24 m d k k0_h15 = tData m d (chT (16 * k.val + 8 + 4)) := by
    unfold tripT_mid.sl.dma0_24
    simp only [Memref.view_whole, View.write_whole_univ, View.read_whole, ReadAs.apply_same]
    exact e9
  have e25 : tripT_mid.sl.dma0_25 m d k k0_h39 = tData m d (chT (16 * k.val + 8 + 8 + 4)) :=
    (tData_spell m d (16 * k.val + 8 + 8 + 4) cr12 (k0_off39_inb k k0_h39) (fun _ => rfl)).symm
  have e26 : tripT_mid.sl.dma0_26 m d k k0_h18 = tData m d (chT (16 * k.val + 8 + 5)) := by
    unfold tripT_mid.sl.dma0_26
    simp only [Memref.view_whole, View.write_whole_univ, View.read_whole, ReadAs.apply_same]
    exact e11
  have e27 : tripT_mid.sl.dma0_27 m d k k0_h42 = tData m d (chT (16 * k.val + 8 + 8 + 5)) :=
    (tData_spell m d (16 * k.val + 8 + 8 + 5) cr13 (k0_off42_inb k k0_h42) (fun _ => rfl)).symm
  have e28 : tripT_mid.sl.dma0_28 m d k k0_h21 = tData m d (chT (16 * k.val + 8 + 6)) := by
    unfold tripT_mid.sl.dma0_28
    simp only [Memref.view_whole, View.write_whole_univ, View.read_whole, ReadAs.apply_same]
    exact e13
  have e29 : tripT_mid.sl.dma0_29 m d k k0_h45 = tData m d (chT (16 * k.val + 8 + 8 + 6)) :=
    (tData_spell m d (16 * k.val + 8 + 8 + 6) cr14 (k0_off45_inb k k0_h45) (fun _ => rfl)).symm
  have e30 : tripT_mid.sl.dma0_30 m d k k0_h24 = tData m d (chT (16 * k.val + 8 + 7)) := by
    unfold tripT_mid.sl.dma0_30
    simp only [Memref.view_whole, View.write_whole_univ, View.read_whole, ReadAs.apply_same]
    exact e15
  have e31 : tripT_mid.sl.dma0_31 m d k k0_h48 = tData m d (chT (16 * k.val + 8 + 8 + 7)) :=
    (tData_spell m d (16 * k.val + 8 + 8 + 7) cr15 (k0_off48_inb k k0_h48) (fun _ => rfl)).symm
  iapply (inv_close_midT m d fp O W _ k.val hk1 hk6 ?hW)
  rotate_left
  isplitl [Hmw]; · iexact Hmw
  isplitl [Hr0 Hr1 Hr2 Hr3 Hr4 Hr5 Hr6 Hr7]
  · isplitl [Hr0]; · (iapply (rdT_conv0 m d (16 * k.val + 8 + 8) _ rfl _ _ e17 _ eX8.symm); iexact Hr0)
    isplitl [Hr1]; · (iapply (rdT_conv1 m d (16 * k.val + 8 + 8 + 1) _ rfl _ _ e19 _ eX9.symm); iexact Hr1)
    isplitl [Hr2]; · (iapply (rdT_conv2 m d (16 * k.val + 8 + 8 + 2) _ rfl _ _ e21 _ eX10.symm); iexact Hr2)
    isplitl [Hr3]; · (iapply (rdT_conv3 m d (16 * k.val + 8 + 8 + 3) _ rfl _ _ e23 _ eX11.symm); iexact Hr3)
    isplitl [Hr4]; · (iapply (rdT_conv4 m d (16 * k.val + 8 + 8 + 4) _ rfl _ _ e25 _ eX12.symm); iexact Hr4)
    isplitl [Hr5]; · (iapply (rdT_conv5 m d (16 * k.val + 8 + 8 + 5) _ rfl _ _ e27 _ eX13.symm); iexact Hr5)
    isplitl [Hr6]; · (iapply (rdT_conv6 m d (16 * k.val + 8 + 8 + 6) _ rfl _ _ e29 _ eX14.symm); iexact Hr6)
    (iapply (rdT_conv7 m d (16 * k.val + 8 + 8 + 7) _ rfl _ _ e31 _ eX15.symm); iexact Hr7)
  isplitl [Hw8 Hw9 Hw10 Hw11 Hw12 Hw13 Hw14 Hw15]
  · isplitl [Hw8]; · (iapply (wrT_conv8 m d fp (16 * k.val + 8) _ rfl _ ((View.write_whole_univ (Val := Elt F) cc0_scratch8 _ _).trans e1) _ (pDone_spell m d fp (16 * k.val + 8) cw8 (k0_off25_inb k k0_h25) (fun _ => rfl) _ e16).symm); iexact Hw8)
    isplitl [Hw9]; · (iapply (wrT_conv9 m d fp (16 * k.val + 8 + 1) _ rfl _ ((View.write_whole_univ (Val := Elt F) cc0_scratch9 _ _).trans e3) _ (pDone_spell m d fp (16 * k.val + 8 + 1) cw9 (k0_off28_inb k k0_h28) (fun _ => rfl) _ e18).symm); iexact Hw9)
    isplitl [Hw10]; · (iapply (wrT_conv10 m d fp (16 * k.val + 8 + 2) _ rfl _ ((View.write_whole_univ (Val := Elt F) cc0_scratch10 _ _).trans e5) _ (pDone_spell m d fp (16 * k.val + 8 + 2) cw10 (k0_off31_inb k k0_h31) (fun _ => rfl) _ e20).symm); iexact Hw10)
    isplitl [Hw11]; · (iapply (wrT_conv11 m d fp (16 * k.val + 8 + 3) _ rfl _ ((View.write_whole_univ (Val := Elt F) cc0_scratch11 _ _).trans e7) _ (pDone_spell m d fp (16 * k.val + 8 + 3) cw11 (k0_off34_inb k k0_h34) (fun _ => rfl) _ e22).symm); iexact Hw11)
    isplitl [Hw12]; · (iapply (wrT_conv12 m d fp (16 * k.val + 8 + 4) _ rfl _ ((View.write_whole_univ (Val := Elt F) cc0_scratch12 _ _).trans e9) _ (pDone_spell m d fp (16 * k.val + 8 + 4) cw12 (k0_off37_inb k k0_h37) (fun _ => rfl) _ e24).symm); iexact Hw12)
    isplitl [Hw13]; · (iapply (wrT_conv13 m d fp (16 * k.val + 8 + 5) _ rfl _ ((View.write_whole_univ (Val := Elt F) cc0_scratch13 _ _).trans e11) _ (pDone_spell m d fp (16 * k.val + 8 + 5) cw13 (k0_off40_inb k k0_h40) (fun _ => rfl) _ e26).symm); iexact Hw13)
    isplitl [Hw14]; · (iapply (wrT_conv14 m d fp (16 * k.val + 8 + 6) _ rfl _ ((View.write_whole_univ (Val := Elt F) cc0_scratch14 _ _).trans e13) _ (pDone_spell m d fp (16 * k.val + 8 + 6) cw14 (k0_off43_inb k k0_h43) (fun _ => rfl) _ e28).symm); iexact Hw14)
    (iapply (wrT_conv15 m d fp (16 * k.val + 8 + 7) _ rfl _ ((View.write_whole_univ (Val := Elt F) cc0_scratch15 _ _).trans e15) _ (pDone_spell m d fp (16 * k.val + 8 + 7) cw15 (k0_off46_inb k k0_h46) (fun _ => rfl) _ e30).symm); iexact Hw15)
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hr0_src Hr1_src Hr2_src Hr3_src Hr4_src Hr5_src Hr6_src Hr7_src Hx0 Hx1 Hx2 Hx3 Hx4 Hx5 Hx6 Hx7]
  · isplitl [HxA]; · iexact HxA
    isplitl [Hr0_src Hr1_src Hr2_src Hr3_src Hr4_src Hr5_src Hr6_src Hr7_src]
    · isplitl [Hr0_src]; · iexact Hr0_src
      isplitl [Hr1_src]; · iexact Hr1_src
      isplitl [Hr2_src]; · iexact Hr2_src
      isplitl [Hr3_src]; · iexact Hr3_src
      isplitl [Hr4_src]; · iexact Hr4_src
      isplitl [Hr5_src]; · iexact Hr5_src
      isplitl [Hr6_src]; · iexact Hr6_src
      isplitl [Hr7_src]; · iexact Hr7_src
      iempintro
    isplitl [Hx0]; · (iapply (Entails.of_eq eX0.symm); iexact Hx0)
    isplitl [Hx1]; · (iapply (Entails.of_eq eX1.symm); iexact Hx1)
    isplitl [Hx2]; · (iapply (Entails.of_eq eX2.symm); iexact Hx2)
    isplitl [Hx3]; · (iapply (Entails.of_eq eX3.symm); iexact Hx3)
    isplitl [Hx4]; · (iapply (Entails.of_eq eX4.symm); iexact Hx4)
    isplitl [Hx5]; · (iapply (Entails.of_eq eX5.symm); iexact Hx5)
    isplitl [Hx6]; · (iapply (Entails.of_eq eX6.symm); iexact Hx6)
    isplitl [Hx7]; · (iapply (Entails.of_eq eX7.symm); iexact Hx7)
    iempintro
  isplitl [HxB]; · iexact HxB
  isplitl [HpA Hw8_dst Hw9_dst Hw10_dst Hw11_dst Hw12_dst Hw13_dst Hw14_dst Hw15_dst Hp0 Hp1 Hp2 Hp3 Hp4 Hp5 Hp6 Hp7]
  · isplitl [HpA]; · iexact HpA
    isplitl [Hw8_dst Hw9_dst Hw10_dst Hw11_dst Hw12_dst Hw13_dst Hw14_dst Hw15_dst]
    · isplitl [Hw8_dst]; · iexact Hw8_dst
      isplitl [Hw9_dst]; · iexact Hw9_dst
      isplitl [Hw10_dst]; · iexact Hw10_dst
      isplitl [Hw11_dst]; · iexact Hw11_dst
      isplitl [Hw12_dst]; · iexact Hw12_dst
      isplitl [Hw13_dst]; · iexact Hw13_dst
      isplitl [Hw14_dst]; · iexact Hw14_dst
      isplitl [Hw15_dst]; · iexact Hw15_dst
      iempintro
    isplitl [Hp0]; · (iapply (Entails.of_eq (pDone_spell m d fp (16 * k.val) cw0 (k0_off1_inb k k0_h1) (fun _ => rfl) _ e0).symm); iexact Hp0)
    isplitl [Hp1]; · (iapply (Entails.of_eq (pDone_spell m d fp (16 * k.val + 1) cw1 (k0_off4_inb k k0_h4) (fun _ => rfl) _ e2).symm); iexact Hp1)
    isplitl [Hp2]; · (iapply (Entails.of_eq (pDone_spell m d fp (16 * k.val + 2) cw2 (k0_off7_inb k k0_h7) (fun _ => rfl) _ e4).symm); iexact Hp2)
    isplitl [Hp3]; · (iapply (Entails.of_eq (pDone_spell m d fp (16 * k.val + 3) cw3 (k0_off10_inb k k0_h10) (fun _ => rfl) _ e6).symm); iexact Hp3)
    isplitl [Hp4]; · (iapply (Entails.of_eq (pDone_spell m d fp (16 * k.val + 4) cw4 (k0_off13_inb k k0_h13) (fun _ => rfl) _ e8).symm); iexact Hp4)
    isplitl [Hp5]; · (iapply (Entails.of_eq (pDone_spell m d fp (16 * k.val + 5) cw5 (k0_off16_inb k k0_h16) (fun _ => rfl) _ e10).symm); iexact Hp5)
    isplitl [Hp6]; · (iapply (Entails.of_eq (pDone_spell m d fp (16 * k.val + 6) cw6 (k0_off19_inb k k0_h19) (fun _ => rfl) _ e12).symm); iexact Hp6)
    isplitl [Hp7]; · (iapply (Entails.of_eq (pDone_spell m d fp (16 * k.val + 7) cw7 (k0_off22_inb k k0_h22) (fun _ => rfl) _ e14).symm); iexact Hp7)
    iempintro
  isplitl [HpB]; · iexact HpB
  iexact HO
  repeat (first | exact hW' | refine (Finset.forall_mem_insert _ _ _).mpr ⟨Or.inr rfl, ?_⟩)

set_option maxHeartbeats 16000000 in
/-- The last trip (g = 6): no further read is started — buffers 0..7 end idle. -/
theorem tripT_last (fp : Buf (Elt F) (pLoc d)) (O : CellTallies nD τ sig (HIx 1)) (W : Waits sig (HIx 1))
    (k : Fin k0_t1_loop.trips) (hk6 : k.val = 6) :
    invT m d fp O W k.val ⟨⟩
      ⊢ wp frame (wpE (defs₀ (F := F)) 𝒱₀ (Tt d) none) Set.univ
          (k0_t1_body xT (Memref.isWhole_whole _) pT (Memref.isWhole_whole _) sl0 (Memref.isWhole_whole _) sl1 (Memref.isWhole_whole _) sl2 (Memref.isWhole_whole _) sl3 (Memref.isWhole_whole _) sl4 (Memref.isWhole_whole _) sl5 (Memref.isWhole_whole _) sl6 (Memref.isWhole_whole _) sl7 (Memref.isWhole_whole _) sl8 (Memref.isWhole_whole _) sl9 (Memref.isWhole_whole _) sl10 (Memref.isWhole_whole _) sl11 (Memref.isWhole_whole _) sl12 (Memref.isWhole_whole _) sl13 (Memref.isWhole_whole _) sl14 (Memref.isWhole_whole _) sl15 (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 cc0_scratch34 cc0_scratch35 cc0_scratch36 cc0_scratch37 cc0_scratch38 cc0_scratch39 cc0_scratch40 cc0_scratch41 cc0_scratch42 cc0_scratch43 cc0_scratch44 cc0_scratch45 cc0_scratch46 cc0_scratch47 k ⟨⟩)
          (invT m d fp O W (k.val + 1)) := by
  have k0_h1 : k0_cond1 k = 1#1 := tcond1 k
  have k0_h2 : k0_cond2 k = 1#1 := (tcond2 k).mpr (by omega)
  have k0_h3 : k0_cond3 k = 1#1 := tcond3 k
  have k0_h4 : k0_cond4 k = 1#1 := tcond4 k
  have k0_h5 : k0_cond5 k = 1#1 := (tcond5 k).mpr (by omega)
  have k0_h6 : k0_cond6 k = 1#1 := tcond6 k
  have k0_h7 : k0_cond7 k = 1#1 := tcond7 k
  have k0_h8 : k0_cond8 k = 1#1 := (tcond8 k).mpr (by omega)
  have k0_h9 : k0_cond9 k = 1#1 := tcond9 k
  have k0_h10 : k0_cond10 k = 1#1 := tcond10 k
  have k0_h11 : k0_cond11 k = 1#1 := (tcond11 k).mpr (by omega)
  have k0_h12 : k0_cond12 k = 1#1 := tcond12 k
  have k0_h13 : k0_cond13 k = 1#1 := tcond13 k
  have k0_h14 : k0_cond14 k = 1#1 := (tcond14 k).mpr (by omega)
  have k0_h15 : k0_cond15 k = 1#1 := tcond15 k
  have k0_h16 : k0_cond16 k = 1#1 := tcond16 k
  have k0_h17 : k0_cond17 k = 1#1 := (tcond17 k).mpr (by omega)
  have k0_h18 : k0_cond18 k = 1#1 := tcond18 k
  have k0_h19 : k0_cond19 k = 1#1 := tcond19 k
  have k0_h20 : k0_cond20 k = 1#1 := (tcond20 k).mpr (by omega)
  have k0_h21 : k0_cond21 k = 1#1 := tcond21 k
  have k0_h22 : k0_cond22 k = 1#1 := tcond22 k
  have k0_h23 : k0_cond23 k = 1#1 := (tcond23 k).mpr (by omega)
  have k0_h24 : k0_cond24 k = 1#1 := tcond24 k
  have k0_h25 : k0_cond25 k = 1#1 := tcond25 k
  have k0_h26 : k0_cond26 k = 1#1 := tcond26 k
  have k0_h27 : ¬ k0_cond27 k = 1#1 := fun h => by have := (tcond27 k).mp h; omega
  have k0_h28 : k0_cond28 k = 1#1 := tcond28 k
  have k0_h29 : k0_cond29 k = 1#1 := tcond29 k
  have k0_h30 : ¬ k0_cond30 k = 1#1 := fun h => by have := (tcond30 k).mp h; omega
  have k0_h31 : k0_cond31 k = 1#1 := tcond31 k
  have k0_h32 : k0_cond32 k = 1#1 := tcond32 k
  have k0_h33 : ¬ k0_cond33 k = 1#1 := fun h => by have := (tcond33 k).mp h; omega
  have k0_h34 : k0_cond34 k = 1#1 := tcond34 k
  have k0_h35 : k0_cond35 k = 1#1 := tcond35 k
  have k0_h36 : ¬ k0_cond36 k = 1#1 := fun h => by have := (tcond36 k).mp h; omega
  have k0_h37 : k0_cond37 k = 1#1 := tcond37 k
  have k0_h38 : k0_cond38 k = 1#1 := tcond38 k
  have k0_h39 : ¬ k0_cond39 k = 1#1 := fun h => by have := (tcond39 k).mp h; omega
  have k0_h40 : k0_cond40 k = 1#1 := tcond40 k
  have k0_h41 : k0_cond41 k = 1#1 := tcond41 k
  have k0_h42 : ¬ k0_cond42 k = 1#1 := fun h => by have := (tcond42 k).mp h; omega
  have k0_h43 : k0_cond43 k = 1#1 := tcond43 k
  have k0_h44 : k0_cond44 k = 1#1 := tcond44 k
  have k0_h45 : ¬ k0_cond45 k = 1#1 := fun h => by have := (tcond45 k).mp h; omega
  have k0_h46 : k0_cond46 k = 1#1 := tcond46 k
  have k0_h47 : k0_cond47 k = 1#1 := tcond47 k
  have k0_h48 : ¬ k0_cond48 k = 1#1 := fun h => by have := (tcond48 k).mp h; omega
  unfold k0_t1_body
  simp only [k0_part17_eq_skeleton, k0_part18_eq_skeleton, k0_part19_eq_skeleton, k0_part20_eq_skeleton, k0_part21_eq_skeleton, k0_part22_eq_skeleton]
  unfold k0_part17_skel k0_part18_skel k0_part19_skel k0_part20_skel k0_part21_skel k0_part22_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  have cw0 : k0_off1 k = tOff (chT (16 * k.val)).val := by rw [toff1, chT_val (by omega)] <;> first | rfl | exact congrArg tOff (by omega)
  have eP0 := pTp_spell d (fun _ => fp) (16 * k.val) cw0 (k0_off1_inb k k0_h1) (fun _ => rfl)
  have cr0 : k0_off3 k = tOff (chT (16 * k.val + 8)).val := by rw [toff3, chT_val (by omega)] <;> first | rfl | exact congrArg tOff (by omega)
  have eX0 := xTp_spell m d (16 * k.val + 8) cr0 (k0_off3_inb k k0_h3) (fun _ => rfl)
  have cw1 : k0_off4 k = tOff (chT (16 * k.val + 1)).val := by rw [toff4, chT_val (by omega)] <;> first | rfl | exact congrArg tOff (by omega)
  have eP1 := pTp_spell d (fun _ => fp) (16 * k.val + 1) cw1 (k0_off4_inb k k0_h4) (fun _ => rfl)
  have cr1 : k0_off6 k = tOff (chT (16 * k.val + 8 + 1)).val := by rw [toff6, chT_val (by omega)] <;> first | rfl | exact congrArg tOff (by omega)
  have eX1 := xTp_spell m d (16 * k.val + 8 + 1) cr1 (k0_off6_inb k k0_h6) (fun _ => rfl)
  have cw2 : k0_off7 k = tOff (chT (16 * k.val + 2)).val := by rw [toff7, chT_val (by omega)] <;> first | rfl | exact congrArg tOff (by omega)
  have eP2 := pTp_spell d (fun _ => fp) (16 * k.val + 2) cw2 (k0_off7_inb k k0_h7) (fun _ => rfl)
  have cr2 : k0_off9 k = tOff (chT (16 * k.val + 8 + 2)).val := by rw [toff9, chT_val (by omega)] <;> first | rfl | exact congrArg tOff (by omega)
  have eX2 := xTp_spell m d (16 * k.val + 8 + 2) cr2 (k0_off9_inb k k0_h9) (fun _ => rfl)
  have cw3 : k0_off10 k = tOff (chT (16 * k.val + 3)).val := by rw [toff10, chT_val (by omega)] <;> first | rfl | exact congrArg tOff (by omega)
  have eP3 := pTp_spell d (fun _ => fp) (16 * k.val + 3) cw3 (k0_off10_inb k k0_h10) (fun _ => rfl)
  have cr3 : k0_off12 k = tOff (chT (16 * k.val + 8 + 3)).val := by rw [toff12, chT_val (by omega)] <;> first | rfl | exact congrArg tOff (by omega)
  have eX3 := xTp_spell m d (16 * k.val + 8 + 3) cr3 (k0_off12_inb k k0_h12) (fun _ => rfl)
  have cw4 : k0_off13 k = tOff (chT (16 * k.val + 4)).val := by rw [toff13, chT_val (by omega)] <;> first | rfl | exact congrArg tOff (by omega)
  have eP4 := pTp_spell d (fun _ => fp) (16 * k.val + 4) cw4 (k0_off13_inb k k0_h13) (fun _ => rfl)
  have cr4 : k0_off15 k = tOff (chT (16 * k.val + 8 + 4)).val := by rw [toff15, chT_val (by omega)] <;> first | rfl | exact congrArg tOff (by omega)
  have eX4 := xTp_spell m d (16 * k.val + 8 + 4) cr4 (k0_off15_inb k k0_h15) (fun _ => rfl)
  have cw5 : k0_off16 k = tOff (chT (16 * k.val + 5)).val := by rw [toff16, chT_val (by omega)] <;> first | rfl | exact congrArg tOff (by omega)
  have eP5 := pTp_spell d (fun _ => fp) (16 * k.val + 5) cw5 (k0_off16_inb k k0_h16) (fun _ => rfl)
  have cr5 : k0_off18 k = tOff (chT (16 * k.val + 8 + 5)).val := by rw [toff18, chT_val (by omega)] <;> first | rfl | exact congrArg tOff (by omega)
  have eX5 := xTp_spell m d (16 * k.val + 8 + 5) cr5 (k0_off18_inb k k0_h18) (fun _ => rfl)
  have cw6 : k0_off19 k = tOff (chT (16 * k.val + 6)).val := by rw [toff19, chT_val (by omega)] <;> first | rfl | exact congrArg tOff (by omega)
  have eP6 := pTp_spell d (fun _ => fp) (16 * k.val + 6) cw6 (k0_off19_inb k k0_h19) (fun _ => rfl)
  have cr6 : k0_off21 k = tOff (chT (16 * k.val + 8 + 6)).val := by rw [toff21, chT_val (by omega)] <;> first | rfl | exact congrArg tOff (by omega)
  have eX6 := xTp_spell m d (16 * k.val + 8 + 6) cr6 (k0_off21_inb k k0_h21) (fun _ => rfl)
  have cw7 : k0_off22 k = tOff (chT (16 * k.val + 7)).val := by rw [toff22, chT_val (by omega)] <;> first | rfl | exact congrArg tOff (by omega)
  have eP7 := pTp_spell d (fun _ => fp) (16 * k.val + 7) cw7 (k0_off22_inb k k0_h22) (fun _ => rfl)
  have cr7 : k0_off24 k = tOff (chT (16 * k.val + 8 + 7)).val := by rw [toff24, chT_val (by omega)] <;> first | rfl | exact congrArg tOff (by omega)
  have eX7 := xTp_spell m d (16 * k.val + 8 + 7) cr7 (k0_off24_inb k k0_h24) (fun _ => rfl)
  have cw8 : k0_off25 k = tOff (chT (16 * k.val + 8)).val := by rw [toff25, chT_val (by omega)] <;> first | rfl | exact congrArg tOff (by omega)
  have eP8 := pTp_spell d (fun _ => fp) (16 * k.val + 8) cw8 (k0_off25_inb k k0_h25) (fun _ => rfl)
  have cw9 : k0_off28 k = tOff (chT (16 * k.val + 8 + 1)).val := by rw [toff28, chT_val (by omega)] <;> first | rfl | exact congrArg tOff (by omega)
  have eP9 := pTp_spell d (fun _ => fp) (16 * k.val + 8 + 1) cw9 (k0_off28_inb k k0_h28) (fun _ => rfl)
  have cw10 : k0_off31 k = tOff (chT (16 * k.val + 8 + 2)).val := by rw [toff31, chT_val (by omega)] <;> first | rfl | exact congrArg tOff (by omega)
  have eP10 := pTp_spell d (fun _ => fp) (16 * k.val + 8 + 2) cw10 (k0_off31_inb k k0_h31) (fun _ => rfl)
  have cw11 : k0_off34 k = tOff (chT (16 * k.val + 8 + 3)).val := by rw [toff34, chT_val (by omega)] <;> first | rfl | exact congrArg tOff (by omega)
  have eP11 := pTp_spell d (fun _ => fp) (16 * k.val + 8 + 3) cw11 (k0_off34_inb k k0_h34) (fun _ => rfl)
  have cw12 : k0_off37 k = tOff (chT (16 * k.val + 8 + 4)).val := by rw [toff37, chT_val (by omega)] <;> first | rfl | exact congrArg tOff (by omega)
  have eP12 := pTp_spell d (fun _ => fp) (16 * k.val + 8 + 4) cw12 (k0_off37_inb k k0_h37) (fun _ => rfl)
  have cw13 : k0_off40 k = tOff (chT (16 * k.val + 8 + 5)).val := by rw [toff40, chT_val (by omega)] <;> first | rfl | exact congrArg tOff (by omega)
  have eP13 := pTp_spell d (fun _ => fp) (16 * k.val + 8 + 5) cw13 (k0_off40_inb k k0_h40) (fun _ => rfl)
  have cw14 : k0_off43 k = tOff (chT (16 * k.val + 8 + 6)).val := by rw [toff43, chT_val (by omega)] <;> first | rfl | exact congrArg tOff (by omega)
  have eP14 := pTp_spell d (fun _ => fp) (16 * k.val + 8 + 6) cw14 (k0_off43_inb k k0_h43) (fun _ => rfl)
  have cw15 : k0_off46 k = tOff (chT (16 * k.val + 8 + 7)).val := by rw [toff46, chT_val (by omega)] <;> first | rfl | exact congrArg tOff (by omega)
  have eP15 := pTp_spell d (fun _ => fp) (16 * k.val + 8 + 7) cw15 (k0_off46_inb k k0_h46) (fun _ => rfl)
  rw [inv_open_lastT m d fp O W k.val hk6]
  unfold rdF0 rdF1 rdF2 rdF3 rdF4 rdF5 rdF6 rdF7 wrF8 wrF9 wrF10 wrF11 wrF12 wrF13 wrF14 wrF15
  iintro ⟨#Hmw, ⟨Hr0, Hr1, Hr2, Hr3, Hr4, Hr5, Hr6, Hr7⟩, ⟨Hw8, Hw9, Hw10, Hw11, Hw12, Hw13, Hw14, Hw15⟩, Hr8, Hr9, Hr10, Hr11, Hr12, Hr13, Hr14, Hr15, Hw0, Hw1, Hw2, Hw3, Hw4, Hw5, Hw6, Hw7, HxA, ⟨Hx0, Hx1, Hx2, Hx3, Hx4, Hx5, Hx6, Hx7, HxB⟩, HpA, ⟨Hp0, Hp1, Hp2, Hp3, Hp4, Hp5, Hp6, Hp7, Hp8, Hp9, Hp10, Hp11, Hp12, Hp13, Hp14, Hp15, HpB⟩, %W', %hW', HO⟩
  ihave Hp0 := (Entails.of_eq eP0) $$ Hp0
  ihave Hx0 := (Entails.of_eq eX0) $$ Hx0
  ihave Hp1 := (Entails.of_eq eP1) $$ Hp1
  ihave Hx1 := (Entails.of_eq eX1) $$ Hx1
  ihave Hp2 := (Entails.of_eq eP2) $$ Hp2
  ihave Hx2 := (Entails.of_eq eX2) $$ Hx2
  ihave Hp3 := (Entails.of_eq eP3) $$ Hp3
  ihave Hx3 := (Entails.of_eq eX3) $$ Hx3
  ihave Hp4 := (Entails.of_eq eP4) $$ Hp4
  ihave Hx4 := (Entails.of_eq eX4) $$ Hx4
  ihave Hp5 := (Entails.of_eq eP5) $$ Hp5
  ihave Hx5 := (Entails.of_eq eX5) $$ Hx5
  ihave Hp6 := (Entails.of_eq eP6) $$ Hp6
  ihave Hx6 := (Entails.of_eq eX6) $$ Hx6
  ihave Hp7 := (Entails.of_eq eP7) $$ Hp7
  ihave Hx7 := (Entails.of_eq eX7) $$ Hx7
  ihave Hp8 := (Entails.of_eq eP8) $$ Hp8
  ihave Hp9 := (Entails.of_eq eP9) $$ Hp9
  ihave Hp10 := (Entails.of_eq eP10) $$ Hp10
  ihave Hp11 := (Entails.of_eq eP11) $$ Hp11
  ihave Hp12 := (Entails.of_eq eP12) $$ Hp12
  ihave Hp13 := (Entails.of_eq eP13) $$ Hp13
  ihave Hp14 := (Entails.of_eq eP14) $$ Hp14
  ihave Hp15 := (Entails.of_eq eP15) $$ Hp15
  sl_exec
  sl_step
  have e0 : tripT_last.sl.dma0 m d k = tData m d (chT (16 * k.val)) := rfl
  have e1 : tripT_last.sl.dma0_1 m d k k0_h3 = tData m d (chT (16 * k.val + 8)) :=
    (tData_spell m d (16 * k.val + 8) cr0 (k0_off3_inb k k0_h3) (fun _ => rfl)).symm
  have e2 : tripT_last.sl.dma0_2 m d k = tData m d (chT (16 * k.val + 1)) := rfl
  have e3 : tripT_last.sl.dma0_3 m d k k0_h6 = tData m d (chT (16 * k.val + 8 + 1)) :=
    (tData_spell m d (16 * k.val + 8 + 1) cr1 (k0_off6_inb k k0_h6) (fun _ => rfl)).symm
  have e4 : tripT_last.sl.dma0_4 m d k = tData m d (chT (16 * k.val + 2)) := rfl
  have e5 : tripT_last.sl.dma0_5 m d k k0_h9 = tData m d (chT (16 * k.val + 8 + 2)) :=
    (tData_spell m d (16 * k.val + 8 + 2) cr2 (k0_off9_inb k k0_h9) (fun _ => rfl)).symm
  have e6 : tripT_last.sl.dma0_6 m d k = tData m d (chT (16 * k.val + 3)) := rfl
  have e7 : tripT_last.sl.dma0_7 m d k k0_h12 = tData m d (chT (16 * k.val + 8 + 3)) :=
    (tData_spell m d (16 * k.val + 8 + 3) cr3 (k0_off12_inb k k0_h12) (fun _ => rfl)).symm
  have e8 : tripT_last.sl.dma0_8 m d k = tData m d (chT (16 * k.val + 4)) := rfl
  have e9 : tripT_last.sl.dma0_9 m d k k0_h15 = tData m d (chT (16 * k.val + 8 + 4)) :=
    (tData_spell m d (16 * k.val + 8 + 4) cr4 (k0_off15_inb k k0_h15) (fun _ => rfl)).symm
  have e10 : tripT_last.sl.dma0_10 m d k = tData m d (chT (16 * k.val + 5)) := rfl
  have e11 : tripT_last.sl.dma0_11 m d k k0_h18 = tData m d (chT (16 * k.val + 8 + 5)) :=
    (tData_spell m d (16 * k.val + 8 + 5) cr5 (k0_off18_inb k k0_h18) (fun _ => rfl)).symm
  have e12 : tripT_last.sl.dma0_12 m d k = tData m d (chT (16 * k.val + 6)) := rfl
  have e13 : tripT_last.sl.dma0_13 m d k k0_h21 = tData m d (chT (16 * k.val + 8 + 6)) :=
    (tData_spell m d (16 * k.val + 8 + 6) cr6 (k0_off21_inb k k0_h21) (fun _ => rfl)).symm
  have e14 : tripT_last.sl.dma0_14 m d k = tData m d (chT (16 * k.val + 7)) := rfl
  have e15 : tripT_last.sl.dma0_15 m d k k0_h24 = tData m d (chT (16 * k.val + 8 + 7)) :=
    (tData_spell m d (16 * k.val + 8 + 7) cr7 (k0_off24_inb k k0_h24) (fun _ => rfl)).symm
  have e16 : tripT_last.sl.dma0_16 m d k k0_h3 = tData m d (chT (16 * k.val + 8)) := by
    unfold tripT_last.sl.dma0_16
    simp only [Memref.view_whole, View.write_whole_univ, View.read_whole, ReadAs.apply_same]
    exact e1
  have e18 : tripT_last.sl.dma0_17 m d k k0_h6 = tData m d (chT (16 * k.val + 8 + 1)) := by
    unfold tripT_last.sl.dma0_17
    simp only [Memref.view_whole, View.write_whole_univ, View.read_whole, ReadAs.apply_same]
    exact e3
  have e20 : tripT_last.sl.dma0_18 m d k k0_h9 = tData m d (chT (16 * k.val + 8 + 2)) := by
    unfold tripT_last.sl.dma0_18
    simp only [Memref.view_whole, View.write_whole_univ, View.read_whole, ReadAs.apply_same]
    exact e5
  have e22 : tripT_last.sl.dma0_19 m d k k0_h12 = tData m d (chT (16 * k.val + 8 + 3)) := by
    unfold tripT_last.sl.dma0_19
    simp only [Memref.view_whole, View.write_whole_univ, View.read_whole, ReadAs.apply_same]
    exact e7
  have e24 : tripT_last.sl.dma0_20 m d k k0_h15 = tData m d (chT (16 * k.val + 8 + 4)) := by
    unfold tripT_last.sl.dma0_20
    simp only [Memref.view_whole, View.write_whole_univ, View.read_whole, ReadAs.apply_same]
    exact e9
  have e26 : tripT_last.sl.dma0_21 m d k k0_h18 = tData m d (chT (16 * k.val + 8 + 5)) := by
    unfold tripT_last.sl.dma0_21
    simp only [Memref.view_whole, View.write_whole_univ, View.read_whole, ReadAs.apply_same]
    exact e11
  have e28 : tripT_last.sl.dma0_22 m d k k0_h21 = tData m d (chT (16 * k.val + 8 + 6)) := by
    unfold tripT_last.sl.dma0_22
    simp only [Memref.view_whole, View.write_whole_univ, View.read_whole, ReadAs.apply_same]
    exact e13
  have e30 : tripT_last.sl.dma0_23 m d k k0_h24 = tData m d (chT (16 * k.val + 8 + 7)) := by
    unfold tripT_last.sl.dma0_23
    simp only [Memref.view_whole, View.write_whole_univ, View.read_whole, ReadAs.apply_same]
    exact e15
  iapply (inv_close_lastT m d fp O W _ k.val hk6 ?hW)
  rotate_left
  isplitl [Hmw]; · iexact Hmw
  isplitl [Hr0_dst Hr1_dst Hr2_dst Hr3_dst Hr4_dst Hr5_dst Hr6_dst Hr7_dst Hr0 Hr1 Hr2 Hr3 Hr4 Hr5 Hr6 Hr7]
  · isplitl [Hr0_dst]; · (iexists _; iexact Hr0_dst)
    isplitl [Hr1_dst]; · (iexists _; iexact Hr1_dst)
    isplitl [Hr2_dst]; · (iexists _; iexact Hr2_dst)
    isplitl [Hr3_dst]; · (iexists _; iexact Hr3_dst)
    isplitl [Hr4_dst]; · (iexists _; iexact Hr4_dst)
    isplitl [Hr5_dst]; · (iexists _; iexact Hr5_dst)
    isplitl [Hr6_dst]; · (iexists _; iexact Hr6_dst)
    isplitl [Hr7_dst]; · (iexists _; iexact Hr7_dst)
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hw8 Hw9 Hw10 Hw11 Hw12 Hw13 Hw14 Hw15]
  · isplitl [Hw8]; · (iapply (wrT_conv8 m d fp (16 * k.val + 8) _ rfl _ ((View.write_whole_univ (Val := Elt F) cc0_scratch8 _ _).trans e1) _ (pDone_spell m d fp (16 * k.val + 8) cw8 (k0_off25_inb k k0_h25) (fun _ => rfl) _ e16).symm); iexact Hw8)
    isplitl [Hw9]; · (iapply (wrT_conv9 m d fp (16 * k.val + 8 + 1) _ rfl _ ((View.write_whole_univ (Val := Elt F) cc0_scratch9 _ _).trans e3) _ (pDone_spell m d fp (16 * k.val + 8 + 1) cw9 (k0_off28_inb k k0_h28) (fun _ => rfl) _ e18).symm); iexact Hw9)
    isplitl [Hw10]; · (iapply (wrT_conv10 m d fp (16 * k.val + 8 + 2) _ rfl _ ((View.write_whole_univ (Val := Elt F) cc0_scratch10 _ _).trans e5) _ (pDone_spell m d fp (16 * k.val + 8 + 2) cw10 (k0_off31_inb k k0_h31) (fun _ => rfl) _ e20).symm); iexact Hw10)
    isplitl [Hw11]; · (iapply (wrT_conv11 m d fp (16 * k.val + 8 + 3) _ rfl _ ((View.write_whole_univ (Val := Elt F) cc0_scratch11 _ _).trans e7) _ (pDone_spell m d fp (16 * k.val + 8 + 3) cw11 (k0_off34_inb k k0_h34) (fun _ => rfl) _ e22).symm); iexact Hw11)
    isplitl [Hw12]; · (iapply (wrT_conv12 m d fp (16 * k.val + 8 + 4) _ rfl _ ((View.write_whole_univ (Val := Elt F) cc0_scratch12 _ _).trans e9) _ (pDone_spell m d fp (16 * k.val + 8 + 4) cw12 (k0_off37_inb k k0_h37) (fun _ => rfl) _ e24).symm); iexact Hw12)
    isplitl [Hw13]; · (iapply (wrT_conv13 m d fp (16 * k.val + 8 + 5) _ rfl _ ((View.write_whole_univ (Val := Elt F) cc0_scratch13 _ _).trans e11) _ (pDone_spell m d fp (16 * k.val + 8 + 5) cw13 (k0_off40_inb k k0_h40) (fun _ => rfl) _ e26).symm); iexact Hw13)
    isplitl [Hw14]; · (iapply (wrT_conv14 m d fp (16 * k.val + 8 + 6) _ rfl _ ((View.write_whole_univ (Val := Elt F) cc0_scratch14 _ _).trans e13) _ (pDone_spell m d fp (16 * k.val + 8 + 6) cw14 (k0_off43_inb k k0_h43) (fun _ => rfl) _ e28).symm); iexact Hw14)
    (iapply (wrT_conv15 m d fp (16 * k.val + 8 + 7) _ rfl _ ((View.write_whole_univ (Val := Elt F) cc0_scratch15 _ _).trans e15) _ (pDone_spell m d fp (16 * k.val + 8 + 7) cw15 (k0_off46_inb k k0_h46) (fun _ => rfl) _ e30).symm); iexact Hw15)
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA Hr0_src Hr1_src Hr2_src Hr3_src Hr4_src Hr5_src Hr6_src Hr7_src Hx0 Hx1 Hx2 Hx3 Hx4 Hx5 Hx6 Hx7]
  · isplitl [HxA]; · iexact HxA
    isplitl [Hr0_src Hr1_src Hr2_src Hr3_src Hr4_src Hr5_src Hr6_src Hr7_src]
    · isplitl [Hr0_src]; · iexact Hr0_src
      isplitl [Hr1_src]; · iexact Hr1_src
      isplitl [Hr2_src]; · iexact Hr2_src
      isplitl [Hr3_src]; · iexact Hr3_src
      isplitl [Hr4_src]; · iexact Hr4_src
      isplitl [Hr5_src]; · iexact Hr5_src
      isplitl [Hr6_src]; · iexact Hr6_src
      isplitl [Hr7_src]; · iexact Hr7_src
      iempintro
    isplitl [Hx0]; · (iapply (Entails.of_eq eX0.symm); iexact Hx0)
    isplitl [Hx1]; · (iapply (Entails.of_eq eX1.symm); iexact Hx1)
    isplitl [Hx2]; · (iapply (Entails.of_eq eX2.symm); iexact Hx2)
    isplitl [Hx3]; · (iapply (Entails.of_eq eX3.symm); iexact Hx3)
    isplitl [Hx4]; · (iapply (Entails.of_eq eX4.symm); iexact Hx4)
    isplitl [Hx5]; · (iapply (Entails.of_eq eX5.symm); iexact Hx5)
    isplitl [Hx6]; · (iapply (Entails.of_eq eX6.symm); iexact Hx6)
    isplitl [Hx7]; · (iapply (Entails.of_eq eX7.symm); iexact Hx7)
    iempintro
  isplitl [HxB]
  · iapply (Entails.of_eq (show bigSep (Finset.Ico (16 * k.val + 8 + 8) 112) (xTp m d) = bigSep (Finset.Ico (16 * k.val + 8 + 8 + 8) 112) (xTp m d) from by
      rw [Finset.Ico_eq_empty_of_le (show 112 ≤ 16 * k.val + 8 + 8 by omega), Finset.Ico_eq_empty_of_le (show 112 ≤ 16 * k.val + 8 + 8 + 8 by omega)]))
    iexact HxB
  isplitl [HpA Hw8_dst Hw9_dst Hw10_dst Hw11_dst Hw12_dst Hw13_dst Hw14_dst Hw15_dst Hp0 Hp1 Hp2 Hp3 Hp4 Hp5 Hp6 Hp7]
  · isplitl [HpA]; · iexact HpA
    isplitl [Hw8_dst Hw9_dst Hw10_dst Hw11_dst Hw12_dst Hw13_dst Hw14_dst Hw15_dst]
    · isplitl [Hw8_dst]; · iexact Hw8_dst
      isplitl [Hw9_dst]; · iexact Hw9_dst
      isplitl [Hw10_dst]; · iexact Hw10_dst
      isplitl [Hw11_dst]; · iexact Hw11_dst
      isplitl [Hw12_dst]; · iexact Hw12_dst
      isplitl [Hw13_dst]; · iexact Hw13_dst
      isplitl [Hw14_dst]; · iexact Hw14_dst
      isplitl [Hw15_dst]; · iexact Hw15_dst
      iempintro
    isplitl [Hp0]; · (iapply (Entails.of_eq (pDone_spell m d fp (16 * k.val) cw0 (k0_off1_inb k k0_h1) (fun _ => rfl) _ e0).symm); iexact Hp0)
    isplitl [Hp1]; · (iapply (Entails.of_eq (pDone_spell m d fp (16 * k.val + 1) cw1 (k0_off4_inb k k0_h4) (fun _ => rfl) _ e2).symm); iexact Hp1)
    isplitl [Hp2]; · (iapply (Entails.of_eq (pDone_spell m d fp (16 * k.val + 2) cw2 (k0_off7_inb k k0_h7) (fun _ => rfl) _ e4).symm); iexact Hp2)
    isplitl [Hp3]; · (iapply (Entails.of_eq (pDone_spell m d fp (16 * k.val + 3) cw3 (k0_off10_inb k k0_h10) (fun _ => rfl) _ e6).symm); iexact Hp3)
    isplitl [Hp4]; · (iapply (Entails.of_eq (pDone_spell m d fp (16 * k.val + 4) cw4 (k0_off13_inb k k0_h13) (fun _ => rfl) _ e8).symm); iexact Hp4)
    isplitl [Hp5]; · (iapply (Entails.of_eq (pDone_spell m d fp (16 * k.val + 5) cw5 (k0_off16_inb k k0_h16) (fun _ => rfl) _ e10).symm); iexact Hp5)
    isplitl [Hp6]; · (iapply (Entails.of_eq (pDone_spell m d fp (16 * k.val + 6) cw6 (k0_off19_inb k k0_h19) (fun _ => rfl) _ e12).symm); iexact Hp6)
    isplitl [Hp7]; · (iapply (Entails.of_eq (pDone_spell m d fp (16 * k.val + 7) cw7 (k0_off22_inb k k0_h22) (fun _ => rfl) _ e14).symm); iexact Hp7)
    iempintro
  isplitl [HpB]; · iexact HpB
  iexact HO
  repeat (first | exact hW' | refine (Finset.forall_mem_insert _ _ _).mpr ⟨Or.inr rfl, ?_⟩)

end TcBody

end Cert.Proof.KB

end
-- ==== Proof.KBTcBody.lean ====
/-
  The ring copy's body as a whole: from the TensorCore's scoped storage, `x` and the region's result buffer to the same with the
  result buffer holding blocks 4..31 of `x` — the loop's invariant (Proof/KBTcRing.lean) entered after the eight reads ahead,
  left before the last eight waits. The 112 chunks are pairwise disjoint and cover exactly blocks 4..31; a written chunk holds
  the entries of `x` at the same indices.
-/
import proofs.«202537_g10033043603743_week1_w1_89_23_alg».proof.Proof.KBTcRing

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xT" => (Memref.whole Cert.Kernel.main_arg0 : Memref Cert.Kernel.sig Kind.tc Space.hbm Cert.Kernel.S32x16384x128 EltTy.f32)
local notation "pT" => (Memref.whole Cert.Kernel.main_v0 : Memref Cert.Kernel.sig Kind.tc Space.hbm Cert.Kernel.S32x16384x128 EltTy.f32)
local notation "sl0" => (Memref.whole Cert.Kernel.cc0_scratch0 : Memref Cert.Kernel.sig Kind.tc Space.vmem Cert.Kernel.S4096x128 EltTy.f32)
local notation "sl1" => (Memref.whole Cert.Kernel.cc0_scratch1 : Memref Cert.Kernel.sig Kind.tc Space.vmem Cert.Kernel.S4096x128 EltTy.f32)
local notation "sl2" => (Memref.whole Cert.Kernel.cc0_scratch2 : Memref Cert.Kernel.sig Kind.tc Space.vmem Cert.Kernel.S4096x128 EltTy.f32)
local notation "sl3" => (Memref.whole Cert.Kernel.cc0_scratch3 : Memref Cert.Kernel.sig Kind.tc Space.vmem Cert.Kernel.S4096x128 EltTy.f32)
local notation "sl4" => (Memref.whole Cert.Kernel.cc0_scratch4 : Memref Cert.Kernel.sig Kind.tc Space.vmem Cert.Kernel.S4096x128 EltTy.f32)
local notation "sl5" => (Memref.whole Cert.Kernel.cc0_scratch5 : Memref Cert.Kernel.sig Kind.tc Space.vmem Cert.Kernel.S4096x128 EltTy.f32)
local notation "sl6" => (Memref.whole Cert.Kernel.cc0_scratch6 : Memref Cert.Kernel.sig Kind.tc Space.vmem Cert.Kernel.S4096x128 EltTy.f32)
local notation "sl7" => (Memref.whole Cert.Kernel.cc0_scratch7 : Memref Cert.Kernel.sig Kind.tc Space.vmem Cert.Kernel.S4096x128 EltTy.f32)
local notation "sl8" => (Memref.whole Cert.Kernel.cc0_scratch8 : Memref Cert.Kernel.sig Kind.tc Space.vmem Cert.Kernel.S4096x128 EltTy.f32)
local notation "sl9" => (Memref.whole Cert.Kernel.cc0_scratch9 : Memref Cert.Kernel.sig Kind.tc Space.vmem Cert.Kernel.S4096x128 EltTy.f32)
local notation "sl10" => (Memref.whole Cert.Kernel.cc0_scratch10 : Memref Cert.Kernel.sig Kind.tc Space.vmem Cert.Kernel.S4096x128 EltTy.f32)
local notation "sl11" => (Memref.whole Cert.Kernel.cc0_scratch11 : Memref Cert.Kernel.sig Kind.tc Space.vmem Cert.Kernel.S4096x128 EltTy.f32)
local notation "sl12" => (Memref.whole Cert.Kernel.cc0_scratch12 : Memref Cert.Kernel.sig Kind.tc Space.vmem Cert.Kernel.S4096x128 EltTy.f32)
local notation "sl13" => (Memref.whole Cert.Kernel.cc0_scratch13 : Memref Cert.Kernel.sig Kind.tc Space.vmem Cert.Kernel.S4096x128 EltTy.f32)
local notation "sl14" => (Memref.whole Cert.Kernel.cc0_scratch14 : Memref Cert.Kernel.sig Kind.tc Space.vmem Cert.Kernel.S4096x128 EltTy.f32)
local notation "sl15" => (Memref.whole Cert.Kernel.cc0_scratch15 : Memref Cert.Kernel.sig Kind.tc Space.vmem Cert.Kernel.S4096x128 EltTy.f32)

/-! ## The chunks' elements, by coordinates -/

theorem mem_xC_set (n : Fin 112) (x : S32x16384x128.Idx) :
    x ∈ (xC n).view.set ↔ (x 0).val = 4 + n.val / 4 ∧ 4096 * (n.val % 4) ≤ (x 1).val ∧ (x 1).val < 4096 * (n.val % 4) + 4096 := by
  show x ∈ (((View.whole main_arg0).slice (Rect.unit (s := S32x16384x128) (tOff n.val) S1x4096x128.size (tOff_inb n))).reshape S4096x128
    squeezes_S1x4096x128_S4096x128.numel_eq).set ↔ _
  rw [View.set_reshape, View.set_slice_whole, Rect.mem_set_unit]
  constructor
  · intro h
    have h0 := h 0; have h1 := h 1
    have e0 : tOff n.val 0 = 4 + n.val / 4 := rfl
    have e1 : tOff n.val 1 = 4096 * (n.val % 4) := rfl
    have s0 : S1x4096x128.size 0 = 1 := rfl
    have s1 : S1x4096x128.size 1 = 4096 := rfl
    rw [e0, s0] at h0; rw [e1, s1] at h1
    omega
  · rintro ⟨h0, h1, h2⟩ a
    match a with
    | ⟨0, _⟩ =>
      show 4 + n.val / 4 ≤ (x 0).val ∧ (x 0).val < 4 + n.val / 4 + 1
      omega
    | ⟨1, _⟩ =>
      show 4096 * (n.val % 4) ≤ (x 1).val ∧ (x 1).val < 4096 * (n.val % 4) + 4096
      exact ⟨h1, h2⟩
    | ⟨2, _⟩ =>
      show 0 ≤ (x 2).val ∧ (x 2).val < 0 + 128
      have := (x 2).isLt
      exact ⟨Nat.zero_le _, by simpa using this⟩

/-- A chunk of the region's result is the same set of elements as the chunk of `x`. -/
theorem pC_set_eq (n : Fin 112) : (pC n).view.set = (xC n).view.set := rfl

abbrev tSet (n : ℕ) : Finset S32x16384x128.Idx := (xC (chT n)).view.set

theorem mem_tSet (n : ℕ) (hn : n < 112) (x : S32x16384x128.Idx) :
    x ∈ tSet n ↔ (x 0).val = 4 + n / 4 ∧ 4096 * (n % 4) ≤ (x 1).val ∧ (x 1).val < 4096 * (n % 4) + 4096 := by
  unfold tSet; rw [mem_xC_set, chT_val hn]

theorem tSet_disjoint : ∀ n ∈ Finset.Ico 0 112, ∀ n' ∈ Finset.Ico 0 112, n ≠ n' → Disjoint (tSet n) (tSet n') := by
  intro n hn n' hn' hne
  have h1 := (Finset.mem_Ico.mp hn).2; have h2 := (Finset.mem_Ico.mp hn').2
  refine Finset.disjoint_left.mpr fun x hx hx' => hne ?_
  have a := (mem_tSet n h1 x).mp hx
  have b := (mem_tSet n' h2 x).mp hx'
  omega

theorem tSet_cover : (Finset.Ico 0 112).biUnion tSet = (Finset.univ.filter fun x : S32x16384x128.Idx => 4 ≤ (x 0).val) := by
  ext x
  simp only [Finset.mem_biUnion, Finset.mem_filter, Finset.mem_univ, true_and]
  constructor
  · rintro ⟨n, hn, hx⟩
    have := (mem_tSet n (Finset.mem_Ico.mp hn).2 x).mp hx
    omega
  · intro h4
    have h0 : (x 0).val < 32 := (x 0).isLt
    have h1 : (x 1).val < 16384 := (x 1).isLt
    refine ⟨4 * ((x 0).val - 4) + (x 1).val / 4096, Finset.mem_Ico.mpr ⟨Nat.zero_le _, by omega⟩, (mem_tSet _ (by omega) x).mpr ?_⟩
    omega

section Body

variable [FloatOps F] (m : (ℓ : Loc nD τ sig) → Buf (Elt F) ℓ) (d : Dev nD)

set_option maxHeartbeats 1000000 in
/-- At an element of the chunk, the written chunk holds the entry of `x` at the same index. -/
theorem pNew_apply (fp : Buf (Elt F) (pLoc d)) (n : Fin 112) (i : S32x16384x128.Idx) (hi : i ∈ (pC n).view.set) :
    pNew m d fp n i = m (xLoc d) i := by
  obtain ⟨j, -, rfl⟩ := Finset.mem_map.mp hi
  have e : (pC n).view.emb j = ((pC n).view.slice (Rect.whole S4096x128)).emb j := by
    rw [View.emb_slice]
    show _ = (pC n).view.emb ((Rect.whole S4096x128).emb j)
    rw [Rect.emb_whole_apply]
  rw [e]
  show ((pC n).view.slice (Rect.whole S4096x128)).write (Elt F) fp (tData m d n) Finset.univ
    (((pC n).view.slice (Rect.whole S4096x128)).emb j) = _
  rw [View.write_emb_of_mem _ _ (Finset.mem_univ _)]
  show _root_.cast _ ((xC n).view.read (Elt F) (m (xLoc d)) j) = _
  rw [View.read_apply, cast_cast, cast_eq]
  refine congrArg (m (xLoc d)) ?_
  rw [View.emb_slice]
  show (xC n).view.emb j = (pC n).view.emb ((Rect.whole S4096x128).emb j)
  rw [Rect.emb_whole_apply]
  rfl

/-- So on its elements a written chunk holds what `tcOut` says; and off blocks 4..31 `tcOut` is what the buffer held. -/
theorem pNew_tcOut (fp : Buf (Elt F) (pLoc d)) (n : ℕ) (hn : n < 112) (i : S32x16384x128.Idx) (hi : i ∈ (pC (chT n)).view.set) :
    pNew m d fp (chT n) i = tcOut m d i := by
  rw [pNew_apply m d fp (chT n) i hi]
  have h := (mem_tSet n hn i).mp hi
  show _ = (if 4 ≤ (i 0).val then m (xLoc d) i else m (pLoc d) i)
  rw [if_pos (by omega)]
theorem low_tcOut (i : S32x16384x128.Idx) (hi : i ∈ Finset.univ \ (Finset.Ico 0 112).biUnion tSet) : m (pLoc d) i = tcOut m d i := by
  rw [tSet_cover] at hi
  have h4 : ¬ 4 ≤ (i 0).val := fun h => (Finset.mem_sdiff.mp hi).2 (Finset.mem_filter.mpr ⟨Finset.mem_univ _, h⟩)
  show _ = (if 4 ≤ (i 0).val then m (xLoc d) i else m (pLoc d) i)
  rw [if_neg h4]

/-! ## The TensorCore's scoped storage, opened -/

set_option maxHeartbeats 8000000 in
theorem scopedBufs_T : (scopedBufs (Tt d) : sProp 𝕄) = iprop((∃ f, (sl0).view.loc (Tt d) ↦{fullShare} f) ∗ (∃ f, (sl1).view.loc (Tt d) ↦{fullShare} f) ∗ (∃ f, (sl2).view.loc (Tt d) ↦{fullShare} f) ∗ (∃ f, (sl3).view.loc (Tt d) ↦{fullShare} f) ∗ (∃ f, (sl4).view.loc (Tt d) ↦{fullShare} f) ∗ (∃ f, (sl5).view.loc (Tt d) ↦{fullShare} f) ∗ (∃ f, (sl6).view.loc (Tt d) ↦{fullShare} f) ∗ (∃ f, (sl7).view.loc (Tt d) ↦{fullShare} f) ∗ (∃ f, (sl8).view.loc (Tt d) ↦{fullShare} f) ∗ (∃ f, (sl9).view.loc (Tt d) ↦{fullShare} f) ∗ (∃ f, (sl10).view.loc (Tt d) ↦{fullShare} f) ∗ (∃ f, (sl11).view.loc (Tt d) ↦{fullShare} f) ∗ (∃ f, (sl12).view.loc (Tt d) ↦{fullShare} f) ∗ (∃ f, (sl13).view.loc (Tt d) ↦{fullShare} f) ∗ (∃ f, (sl14).view.loc (Tt d) ↦{fullShare} f) ∗ (∃ f, (sl15).view.loc (Tt d) ↦{fullShare} f)) := by
  unfold scopedBufs
  show (bigSep (scopedRefs sig (Proc.tc : Proc τ)) _ : sProp 𝕄) = _
  rw [scopedRefs_tc, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  try rfl

set_option maxHeartbeats 8000000 in
theorem scopedSems0_T : (scopedSems0 (Tt d) : sProp 𝕄) = iprop(semVal (Tt d, rs0) 0 ∗ semVal (Tt d, rs1) 0 ∗ semVal (Tt d, rs2) 0 ∗ semVal (Tt d, rs3) 0 ∗ semVal (Tt d, rs4) 0 ∗ semVal (Tt d, rs5) 0 ∗ semVal (Tt d, rs6) 0 ∗ semVal (Tt d, rs7) 0 ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0 ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0 ∗ semVal (Tt d, ws8) 0 ∗ semVal (Tt d, ws9) 0 ∗ semVal (Tt d, ws10) 0 ∗ semVal (Tt d, ws11) 0 ∗ semVal (Tt d, ws12) 0 ∗ semVal (Tt d, ws13) 0 ∗ semVal (Tt d, ws14) 0 ∗ semVal (Tt d, ws15) 0) := by
  obtain rfl := dev_eq d
  unfold scopedSems0
  rw [scopedCells_tc, SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), bigSep_singleton]
  try rfl

/-! ## The invariant at the loop's entry and exit -/

set_option maxHeartbeats 4000000 in
theorem inv_initT (fp : Buf (Elt F) (pLoc d)) (O : CellTallies nD τ sig (HIx 1)) (W : Waits sig (HIx 1)) :
    iprop(Transfers.MayWaits (Tt d) (none : HIx 1) O
      ∗ (rdF0 m d 0 ∗ rdF1 m d 1 ∗ rdF2 m d 2 ∗ rdF3 m d 3 ∗ rdF4 m d 4 ∗ rdF5 m d 5 ∗ rdF6 m d 6 ∗ rdF7 m d 7)
      ∗ ((∃ f, (sl8).view.loc (Tt d) ↦{fullShare} f) ∗ (∃ f, (sl9).view.loc (Tt d) ↦{fullShare} f) ∗ (∃ f, (sl10).view.loc (Tt d) ↦{fullShare} f) ∗ (∃ f, (sl11).view.loc (Tt d) ↦{fullShare} f) ∗ (∃ f, (sl12).view.loc (Tt d) ↦{fullShare} f) ∗ (∃ f, (sl13).view.loc (Tt d) ↦{fullShare} f) ∗ (∃ f, (sl14).view.loc (Tt d) ↦{fullShare} f) ∗ (∃ f, (sl15).view.loc (Tt d) ↦{fullShare} f) ∗ semVal (Tt d, ws8) 0 ∗ semVal (Tt d, ws9) 0 ∗ semVal (Tt d, ws10) 0 ∗ semVal (Tt d, ws11) 0 ∗ semVal (Tt d, ws12) 0 ∗ semVal (Tt d, ws13) 0 ∗ semVal (Tt d, ws14) 0 ∗ semVal (Tt d, ws15) 0)
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 8 112) (xTp m d) ∗ bigSep (Finset.Ico 0 112) (pTp d fun _ => fp)
      ∗ owes (Tt d) O W)
    ⊢ invT m d fp O W 0 ⟨⟩ := by
  unfold invT
  rw [if_pos (show 0 < 7 by omega), if_pos rfl, show Finset.Ico 0 (16 * 0) = (∅ : Finset ℕ) from rfl, bigSep_empty]
  try rw [show Finset.Ico 0 (16 * 0 - 8) = (∅ : Finset ℕ) from rfl, bigSep_empty]
  iintro ⟨Hmw, Hrd, Hwr, Hr8, Hr9, Hr10, Hr11, Hr12, Hr13, Hr14, Hr15, Hw0, Hw1, Hw2, Hw3, Hw4, Hw5, Hw6, Hw7, HxB, HpB, HO⟩
  isplitl [Hmw]; · iexact Hmw
  isplitl [Hrd]; · iexact Hrd
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitr; · iempintro
  isplitl [HxB]; · iexact HxB
  isplitr; · iempintro
  isplitl [HpB]; · iexact HpB
  iexists W; isplitr
  · ipureintro; exact fun p hp => .inl hp
  · iexact HO

set_option maxHeartbeats 4000000 in
theorem inv_exitT (fp : Buf (Elt F) (pLoc d)) (O : CellTallies nD τ sig (HIx 1)) (W : Waits sig (HIx 1)) (n : ℕ) (hn : n = 7) (acc : Unit) :
    invT m d fp O W n acc
    ⊢ iprop(((∃ f, (sl0).view.loc (Tt d) ↦{fullShare} f) ∗ (∃ f, (sl1).view.loc (Tt d) ↦{fullShare} f) ∗ (∃ f, (sl2).view.loc (Tt d) ↦{fullShare} f) ∗ (∃ f, (sl3).view.loc (Tt d) ↦{fullShare} f) ∗ (∃ f, (sl4).view.loc (Tt d) ↦{fullShare} f) ∗ (∃ f, (sl5).view.loc (Tt d) ↦{fullShare} f) ∗ (∃ f, (sl6).view.loc (Tt d) ↦{fullShare} f) ∗ (∃ f, (sl7).view.loc (Tt d) ↦{fullShare} f) ∗ semVal (Tt d, rs0) 0 ∗ semVal (Tt d, rs1) 0 ∗ semVal (Tt d, rs2) 0 ∗ semVal (Tt d, rs3) 0 ∗ semVal (Tt d, rs4) 0 ∗ semVal (Tt d, rs5) 0 ∗ semVal (Tt d, rs6) 0 ∗ semVal (Tt d, rs7) 0)
      ∗ (wrF8 m d fp 104 ∗ wrF9 m d fp 105 ∗ wrF10 m d fp 106 ∗ wrF11 m d fp 107 ∗ wrF12 m d fp 108 ∗ wrF13 m d fp 109 ∗ wrF14 m d fp 110 ∗ wrF15 m d fp 111)
      ∗ semVal (Tt d, rs8) 0 ∗ semVal (Tt d, rs9) 0 ∗ semVal (Tt d, rs10) 0 ∗ semVal (Tt d, rs11) 0 ∗ semVal (Tt d, rs12) 0 ∗ semVal (Tt d, rs13) 0 ∗ semVal (Tt d, rs14) 0 ∗ semVal (Tt d, rs15) 0
      ∗ semVal (Tt d, ws0) 0 ∗ semVal (Tt d, ws1) 0 ∗ semVal (Tt d, ws2) 0 ∗ semVal (Tt d, ws3) 0 ∗ semVal (Tt d, ws4) 0 ∗ semVal (Tt d, ws5) 0 ∗ semVal (Tt d, ws6) 0 ∗ semVal (Tt d, ws7) 0
      ∗ bigSep (Finset.Ico 0 112) (xTp m d) ∗ bigSep (Finset.Ico 0 104) (pTp d fun n => pNew m d fp (chT n))
      ∗ ∃ W', ⌜∀ p ∈ W', p ∈ W ∨ p.2 = none⌝ ∗ owes (Tt d) O W') := by
  subst hn
  unfold invT
  rw [if_neg (show ¬ 7 < 7 by omega), if_neg (show ¬ 7 = 0 by omega)]
  iintro ⟨-, Hidle, Hwr, Hr8, Hr9, Hr10, Hr11, Hr12, Hr13, Hr14, Hr15, Hw0, Hw1, Hw2, Hw3, Hw4, Hw5, Hw6, Hw7, HxA, -, HpA, -, HO⟩
  isplitl [Hidle]; · iexact Hidle
  isplitl [Hwr]; · iexact Hwr
  isplitl [Hr8]; · iexact Hr8
  isplitl [Hr9]; · iexact Hr9
  isplitl [Hr10]; · iexact Hr10
  isplitl [Hr11]; · iexact Hr11
  isplitl [Hr12]; · iexact Hr12
  isplitl [Hr13]; · iexact Hr13
  isplitl [Hr14]; · iexact Hr14
  isplitl [Hr15]; · iexact Hr15
  isplitl [Hw0]; · iexact Hw0
  isplitl [Hw1]; · iexact Hw1
  isplitl [Hw2]; · iexact Hw2
  isplitl [Hw3]; · iexact Hw3
  isplitl [Hw4]; · iexact Hw4
  isplitl [Hw5]; · iexact Hw5
  isplitl [Hw6]; · iexact Hw6
  isplitl [Hw7]; · iexact Hw7
  isplitl [HxA]; · iexact HxA
  isplitl [HpA]; · iexact HpA
  iexact HO

theorem x_pop8 : bigSep (Finset.Ico 0 112) (xTp m d) = iprop(xTp m d (0) ∗ xTp m d (0 + 1) ∗ xTp m d (0 + 1 + 1) ∗ xTp m d (0 + 1 + 1 + 1) ∗ xTp m d (0 + 1 + 1 + 1 + 1) ∗ xTp m d (0 + 1 + 1 + 1 + 1 + 1) ∗ xTp m d (0 + 1 + 1 + 1 + 1 + 1 + 1) ∗ xTp m d (0 + 1 + 1 + 1 + 1 + 1 + 1 + 1) ∗ bigSep (Finset.Ico (0 + 1 + 1 + 1 + 1 + 1 + 1 + 1 + 1) 112) (xTp m d)) := by
  rw [icoT_pop (show 0 < 112 by omega) (xTp m d), icoT_pop (show 0 + 1 < 112 by omega) (xTp m d), icoT_pop (show 0 + 1 + 1 < 112 by omega) (xTp m d), icoT_pop (show 0 + 1 + 1 + 1 < 112 by omega) (xTp m d), icoT_pop (show 0 + 1 + 1 + 1 + 1 < 112 by omega) (xTp m d), icoT_pop (show 0 + 1 + 1 + 1 + 1 + 1 < 112 by omega) (xTp m d), icoT_pop (show 0 + 1 + 1 + 1 + 1 + 1 + 1 < 112 by omega) (xTp m d), icoT_pop (show 0 + 1 + 1 + 1 + 1 + 1 + 1 + 1 < 112 by omega) (xTp m d)]

theorem x_pop8' : (bigSep (Finset.Ico 0 112) fun t => xLoc d ↦[tSet t]{fullShare} m (xLoc d) : sProp 𝕄)
    = iprop(xTp m d (0) ∗ xTp m d (0 + 1) ∗ xTp m d (0 + 1 + 1) ∗ xTp m d (0 + 1 + 1 + 1) ∗ xTp m d (0 + 1 + 1 + 1 + 1) ∗ xTp m d (0 + 1 + 1 + 1 + 1 + 1) ∗ xTp m d (0 + 1 + 1 + 1 + 1 + 1 + 1) ∗ xTp m d (0 + 1 + 1 + 1 + 1 + 1 + 1 + 1) ∗ bigSep (Finset.Ico (0 + 1 + 1 + 1 + 1 + 1 + 1 + 1 + 1) 112) (xTp m d)) := x_pop8 m d

theorem done_allT (fp : Buf (Elt F) (pLoc d)) :
    iprop(bigSep (Finset.Ico 0 104) (pTp d fun n => pNew m d fp (chT n)) ∗ (pTp d (fun n => pNew m d fp (chT n)) (104) ∗ pTp d (fun n => pNew m d fp (chT n)) (104 + 1) ∗ pTp d (fun n => pNew m d fp (chT n)) (104 + 2) ∗ pTp d (fun n => pNew m d fp (chT n)) (104 + 3) ∗ pTp d (fun n => pNew m d fp (chT n)) (104 + 4) ∗ pTp d (fun n => pNew m d fp (chT n)) (104 + 5) ∗ pTp d (fun n => pNew m d fp (chT n)) (104 + 6) ∗ pTp d (fun n => pNew m d fp (chT n)) (104 + 7) ∗ emp))
      ⊢ (bigSep (Finset.Ico 0 112) (pTp d fun n => pNew m d fp (chT n)) : sProp 𝕄) := by
  have e : Finset.Ico 0 112 = Finset.Ico 0 (104 + 8) := rfl
  rw [e, icoT_split (Nat.zero_le 104) (show 104 ≤ 104 + 8 by omega) (pTp d fun n => pNew m d fp (chT n)), icoT_block8 104 (pTp d fun n => pNew m d fp (chT n))]

set_option maxHeartbeats 4000000 in
/-- A written chunk, read as a set of elements at `tcOut`. -/
theorem done_piece (fp : Buf (Elt F) (pLoc d)) (n : ℕ) (hn : n < 112) :
    pTp d (fun n => pNew m d fp (chT n)) n ⊢ (pLoc d ↦[tSet n]{fullShare} tcOut m d : sProp 𝕄) := by
  show ((pLoc d) ↦[(pC (chT n)).view.set]{fullShare} pNew m d fp (chT n) : sProp 𝕄) ⊢ (pLoc d ↦[(pC (chT n)).view.set]{fullShare} tcOut m d)
  exact Entails.of_eq (pointsTo_congr (fun i hi => pNew_tcOut m d fp n hn i hi))
/-- Every written chunk so. -/
theorem done_to_out (fp : Buf (Elt F) (pLoc d)) :
    (bigSep (Finset.Ico 0 112) (pTp d fun n => pNew m d fp (chT n)) : sProp 𝕄) ⊢ bigSep (Finset.Ico 0 112) fun n => pLoc d ↦[tSet n]{fullShare} tcOut m d :=
  bigSep_mono fun n hn => done_piece m d fp n (Finset.mem_Ico.mp hn).2

/-! ## The body -/

/-- What the ring copy's body starts from and ends with: the TensorCore's scoped buffers and semaphores, `x`, and the region's
    result buffer — at its launch contents before, at `tcOut` after. -/
def Φ0 : sProp 𝕄 :=
  iprop(Transfers.MayWaits (SparseCore.T d) (none : HIx 1) ((K (F := F)).Otc d 0) ∗ scopedBufs (SparseCore.T d) ∗ scopedSems0 (SparseCore.T d) ∗ xPts m d ∗ (pLoc d ↦{fullShare} m (pLoc d)))
def Φ1 : sProp 𝕄 :=
  iprop(scopedBufs (SparseCore.T d) ∗ scopedSems0 (SparseCore.T d) ∗ xPts m d ∗ (pLoc d ↦{fullShare} tcOut m d))

set_option maxHeartbeats 16000000 in
theorem tc_body (B : Set (SemLoc sig × HIx 1)) (hB : ∀ sm : SemLoc sig, (sm, (none : HIx 1)) ∈ B) :
    iprop(Φ0 m d ∗ Pipeline.owesWithin d ((K (F := F)).Otc d 0) B)
      ⊢ wp frame (wpE (defs₀ (F := F)) 𝒱₀ (SparseCore.T d) none) Set.univ (bodyAt0 (F := F) ⟨0, by decide⟩)
          fun _ => iprop(Φ1 m d ∗ Pipeline.owesWithin d ((K (F := F)).Otc d 0) B) := by
  unfold bodyAt0
  simp only [cc0__tc_body_eq_skeleton]; unfold cc0__tc_body_skel
  simp only [k0_part23_eq_skeleton]; unfold k0_part23_skel
  unfold Φ0 Φ1
  rw [scopedBufs_T d, scopedSems0_T d]
  have hxs := carve (m (xLoc d)) (Finset.Ico 0 112) tSet tSet_disjoint
  have hps : (pLoc d ↦{fullShare} m (pLoc d) : sProp 𝕄)
      ⊣⊢ iprop((pLoc d ↦[(Finset.Ico 0 112).biUnion tSet]{fullShare} m (pLoc d)) ∗ pLoc d ↦[Finset.univ \ (Finset.Ico 0 112).biUnion tSet]{fullShare} m (pLoc d)) :=
    pointsTo_split_subset (Finset.subset_univ _)
  have hpo : (pLoc d ↦{fullShare} tcOut m d : sProp 𝕄)
      ⊣⊢ iprop((pLoc d ↦[(Finset.Ico 0 112).biUnion tSet]{fullShare} tcOut m d) ∗ pLoc d ↦[Finset.univ \ (Finset.Ico 0 112).biUnion tSet]{fullShare} tcOut m d) :=
    pointsTo_split_subset (Finset.subset_univ _)
  rw [pointsTo_biUnion (ℓ := pLoc d) (Finset.Ico 0 112) tSet tSet_disjoint] at hps hpo
  have eL0 := xTp_spell m d (0) (off := ![4, 0, 0]) (by decide) inb_S32x16384x128_S1x4096x128_4_0_0 (fun _ => rfl)
  have eL1 := xTp_spell m d (0 + 1) (off := ![4, 4096, 0]) (by decide) inb_S32x16384x128_S1x4096x128_4_4096_0 (fun _ => rfl)
  have eL2 := xTp_spell m d (0 + 1 + 1) (off := ![4, 8192, 0]) (by decide) inb_S32x16384x128_S1x4096x128_4_8192_0 (fun _ => rfl)
  have eL3 := xTp_spell m d (0 + 1 + 1 + 1) (off := ![4, 12288, 0]) (by decide) inb_S32x16384x128_S1x4096x128_4_12288_0 (fun _ => rfl)
  have eL4 := xTp_spell m d (0 + 1 + 1 + 1 + 1) (off := ![5, 0, 0]) (by decide) inb_S32x16384x128_S1x4096x128_5_0_0 (fun _ => rfl)
  have eL5 := xTp_spell m d (0 + 1 + 1 + 1 + 1 + 1) (off := ![5, 4096, 0]) (by decide) inb_S32x16384x128_S1x4096x128_5_4096_0 (fun _ => rfl)
  have eL6 := xTp_spell m d (0 + 1 + 1 + 1 + 1 + 1 + 1) (off := ![5, 8192, 0]) (by decide) inb_S32x16384x128_S1x4096x128_5_8192_0 (fun _ => rfl)
  have eL7 := xTp_spell m d (0 + 1 + 1 + 1 + 1 + 1 + 1 + 1) (off := ![5, 12288, 0]) (by decide) inb_S32x16384x128_S1x4096x128_5_12288_0 (fun _ => rfl)
  iintro ⟨⟨#Hmw, ⟨Hb0, Hb1, Hb2, Hb3, Hb4, Hb5, Hb6, Hb7, Hb8, Hb9, Hb10, Hb11, Hb12, Hb13, Hb14, Hb15⟩, ⟨Hr0, Hr1, Hr2, Hr3, Hr4, Hr5, Hr6, Hr7, Hr8, Hr9, Hr10, Hr11, Hr12, Hr13, Hr14, Hr15, Hw0, Hw1, Hw2, Hw3, Hw4, Hw5, Hw6, Hw7, Hw8, Hw9, Hw10, Hw11, Hw12, Hw13, Hw14, Hw15⟩, Hx, Hp⟩, ⟨%W₀, %hW₀, HO⟩⟩
  ihave Hx := hxs $$ Hx
  icases Hx with ⟨HxT, HxBack⟩
  ihave Hp := hps.1 $$ Hp
  icases Hp with ⟨HpT, HpRest⟩
  ihave HxT := (Entails.of_eq (x_pop8' m d)) $$ HxT
  icases HxT with ⟨Hx0, Hx1, Hx2, Hx3, Hx4, Hx5, Hx6, Hx7, HxB⟩
  ihave Hx0 := (Entails.of_eq eL0) $$ Hx0
  ihave Hx1 := (Entails.of_eq eL1) $$ Hx1
  ihave Hx2 := (Entails.of_eq eL2) $$ Hx2
  ihave Hx3 := (Entails.of_eq eL3) $$ Hx3
  ihave Hx4 := (Entails.of_eq eL4) $$ Hx4
  ihave Hx5 := (Entails.of_eq eL5) $$ Hx5
  ihave Hx6 := (Entails.of_eq eL6) $$ Hx6
  ihave Hx7 := (Entails.of_eq eL7) $$ Hx7
  icases Hb0 with ⟨%f0, Hb0⟩
  icases Hb1 with ⟨%f1, Hb1⟩
  icases Hb2 with ⟨%f2, Hb2⟩
  icases Hb3 with ⟨%f3, Hb3⟩
  icases Hb4 with ⟨%f4, Hb4⟩
  icases Hb5 with ⟨%f5, Hb5⟩
  icases Hb6 with ⟨%f6, Hb6⟩
  icases Hb7 with ⟨%f7, Hb7⟩
  sl_exec
  sl_rw [bind_assoc]
  sl_for (invT m d (m (pLoc d)) ((K (F := F)).Otc d 0) W₀) $$ [Hmw Hr0 Hr1 Hr2 Hr3 Hr4 Hr5 Hr6 Hr7 Hb8 Hb9 Hb10 Hb11 Hb12 Hb13 Hb14 Hb15 Hw8 Hw9 Hw10 Hw11 Hw12 Hw13 Hw14 Hw15 Hr8 Hr9 Hr10 Hr11 Hr12 Hr13 Hr14 Hr15 Hw0 Hw1 Hw2 Hw3 Hw4 Hw5 Hw6 Hw7 HxB HpT HO]
  case region =>
    intro k acc
    obtain ⟨⟩ := acc
    by_cases hk0 : k.val = 0
    · exact tripT_first m d _ _ _ k hk0
    · by_cases hk6 : k.val = 6
      · exact tripT_last m d _ _ _ k hk6
      · have hk7 : k.val < 7 := Nat.lt_of_lt_of_le k.isLt k0_t1_abs.2.1
        exact tripT_mid m d _ _ _ k (by omega) (by omega)
  · iapply (inv_initT m d (m (pLoc d)) _ W₀)
    isplitl [Hmw]; · iexact Hmw
    isplitl [Hr0 Hr1 Hr2 Hr3 Hr4 Hr5 Hr6 Hr7]
    · isplitl [Hr0]; · (iapply (rdT_conv0 m d (0) _ rfl _ _ (tData_spell m d (0) (off := ![4, 0, 0]) (by decide) inb_S32x16384x128_S1x4096x128_4_0_0 (fun _ => rfl)).symm _ eL0.symm); iexact Hr0)
      isplitl [Hr1]; · (iapply (rdT_conv1 m d (0 + 1) _ rfl _ _ (tData_spell m d (0 + 1) (off := ![4, 4096, 0]) (by decide) inb_S32x16384x128_S1x4096x128_4_4096_0 (fun _ => rfl)).symm _ eL1.symm); iexact Hr1)
      isplitl [Hr2]; · (iapply (rdT_conv2 m d (0 + 1 + 1) _ rfl _ _ (tData_spell m d (0 + 1 + 1) (off := ![4, 8192, 0]) (by decide) inb_S32x16384x128_S1x4096x128_4_8192_0 (fun _ => rfl)).symm _ eL2.symm); iexact Hr2)
      isplitl [Hr3]; · (iapply (rdT_conv3 m d (0 + 1 + 1 + 1) _ rfl _ _ (tData_spell m d (0 + 1 + 1 + 1) (off := ![4, 12288, 0]) (by decide) inb_S32x16384x128_S1x4096x128_4_12288_0 (fun _ => rfl)).symm _ eL3.symm); iexact Hr3)
      isplitl [Hr4]; · (iapply (rdT_conv4 m d (0 + 1 + 1 + 1 + 1) _ rfl _ _ (tData_spell m d (0 + 1 + 1 + 1 + 1) (off := ![5, 0, 0]) (by decide) inb_S32x16384x128_S1x4096x128_5_0_0 (fun _ => rfl)).symm _ eL4.symm); iexact Hr4)
      isplitl [Hr5]; · (iapply (rdT_conv5 m d (0 + 1 + 1 + 1 + 1 + 1) _ rfl _ _ (tData_spell m d (0 + 1 + 1 + 1 + 1 + 1) (off := ![5, 4096, 0]) (by decide) inb_S32x16384x128_S1x4096x128_5_4096_0 (fun _ => rfl)).symm _ eL5.symm); iexact Hr5)
      isplitl [Hr6]; · (iapply (rdT_conv6 m d (0 + 1 + 1 + 1 + 1 + 1 + 1) _ rfl _ _ (tData_spell m d (0 + 1 + 1 + 1 + 1 + 1 + 1) (off := ![5, 8192, 0]) (by decide) inb_S32x16384x128_S1x4096x128_5_8192_0 (fun _ => rfl)).symm _ eL6.symm); iexact Hr6)
      (iapply (rdT_conv7 m d (0 + 1 + 1 + 1 + 1 + 1 + 1 + 1) _ rfl _ _ (tData_spell m d (0 + 1 + 1 + 1 + 1 + 1 + 1 + 1) (off := ![5, 12288, 0]) (by decide) inb_S32x16384x128_S1x4096x128_5_12288_0 (fun _ => rfl)).symm _ eL7.symm); iexact Hr7)
    isplitl [Hb8 Hb9 Hb10 Hb11 Hb12 Hb13 Hb14 Hb15 Hw8 Hw9 Hw10 Hw11 Hw12 Hw13 Hw14 Hw15]
    · isplitl [Hb8]; · iexact Hb8
      isplitl [Hb9]; · iexact Hb9
      isplitl [Hb10]; · iexact Hb10
      isplitl [Hb11]; · iexact Hb11
      isplitl [Hb12]; · iexact Hb12
      isplitl [Hb13]; · iexact Hb13
      isplitl [Hb14]; · iexact Hb14
      isplitl [Hb15]; · iexact Hb15
      isplitl [Hw8]; · iexact Hw8
      isplitl [Hw9]; · iexact Hw9
      isplitl [Hw10]; · iexact Hw10
      isplitl [Hw11]; · iexact Hw11
      isplitl [Hw12]; · iexact Hw12
      isplitl [Hw13]; · iexact Hw13
      isplitl [Hw14]; · iexact Hw14
      iexact Hw15
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [HxB]; · iexact HxB
    isplitl [HpT]; · iexact HpT
    iexact HO
  iintro %acc HI
  ihave HI := (inv_exitT m d (m (pLoc d)) _ W₀ _ (by decide) acc) $$ HI
  icases HI with ⟨⟨⟨%g0, Hb0⟩, ⟨%g1, Hb1⟩, ⟨%g2, Hb2⟩, ⟨%g3, Hb3⟩, ⟨%g4, Hb4⟩, ⟨%g5, Hb5⟩, ⟨%g6, Hb6⟩, ⟨%g7, Hb7⟩, Hr0, Hr1, Hr2, Hr3, Hr4, Hr5, Hr6, Hr7⟩, ⟨Hw8, Hw9, Hw10, Hw11, Hw12, Hw13, Hw14, Hw15⟩, Hr8, Hr9, Hr10, Hr11, Hr12, Hr13, Hr14, Hr15, Hw0, Hw1, Hw2, Hw3, Hw4, Hw5, Hw6, Hw7, HxA, HpA, %W', %hW', HO⟩
  unfold wrF8 wrF9 wrF10 wrF11 wrF12 wrF13 wrF14 wrF15
  sl_exec
  sl_step
  isplitl [Hb0 Hb1 Hb2 Hb3 Hb4 Hb5 Hb6 Hb7 Hw8_src Hw9_src Hw10_src Hw11_src Hw12_src Hw13_src Hw14_src Hw15_src Hr0 Hr1 Hr2 Hr3 Hr4 Hr5 Hr6 Hr7 Hr8 Hr9 Hr10 Hr11 Hr12 Hr13 Hr14 Hr15 Hw0 Hw1 Hw2 Hw3 Hw4 Hw5 Hw6 Hw7 Hw8 Hw9 Hw10 Hw11 Hw12 Hw13 Hw14 Hw15 HxBack HxA HpA HpRest Hw8_dst Hw9_dst Hw10_dst Hw11_dst Hw12_dst Hw13_dst Hw14_dst Hw15_dst]
  · isplitl [Hb0 Hb1 Hb2 Hb3 Hb4 Hb5 Hb6 Hb7 Hw8_src Hw9_src Hw10_src Hw11_src Hw12_src Hw13_src Hw14_src Hw15_src]
    · isplitl [Hb0]; · (iexists _; iexact Hb0)
      isplitl [Hb1]; · (iexists _; iexact Hb1)
      isplitl [Hb2]; · (iexists _; iexact Hb2)
      isplitl [Hb3]; · (iexists _; iexact Hb3)
      isplitl [Hb4]; · (iexists _; iexact Hb4)
      isplitl [Hb5]; · (iexists _; iexact Hb5)
      isplitl [Hb6]; · (iexists _; iexact Hb6)
      isplitl [Hb7]; · (iexists _; iexact Hb7)
      isplitl [Hw8_src]; · (iexists _; iexact Hw8_src)
      isplitl [Hw9_src]; · (iexists _; iexact Hw9_src)
      isplitl [Hw10_src]; · (iexists _; iexact Hw10_src)
      isplitl [Hw11_src]; · (iexists _; iexact Hw11_src)
      isplitl [Hw12_src]; · (iexists _; iexact Hw12_src)
      isplitl [Hw13_src]; · (iexists _; iexact Hw13_src)
      isplitl [Hw14_src]; · (iexists _; iexact Hw14_src)
      (iexists _; iexact Hw15_src)
    isplitl [Hr0 Hr1 Hr2 Hr3 Hr4 Hr5 Hr6 Hr7 Hr8 Hr9 Hr10 Hr11 Hr12 Hr13 Hr14 Hr15 Hw0 Hw1 Hw2 Hw3 Hw4 Hw5 Hw6 Hw7 Hw8 Hw9 Hw10 Hw11 Hw12 Hw13 Hw14 Hw15]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      isplitl [Hr12]; · iexact Hr12
      isplitl [Hr13]; · iexact Hr13
      isplitl [Hr14]; · iexact Hr14
      isplitl [Hr15]; · iexact Hr15
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hw7]; · iexact Hw7
      isplitl [Hw8]; · iexact Hw8
      isplitl [Hw9]; · iexact Hw9
      isplitl [Hw10]; · iexact Hw10
      isplitl [Hw11]; · iexact Hw11
      isplitl [Hw12]; · iexact Hw12
      isplitl [Hw13]; · iexact Hw13
      isplitl [Hw14]; · iexact Hw14
      iexact Hw15
    isplitl [HxBack HxA]
    · iapply HxBack; iexact HxA
    iapply hpo.2
    isplitl [HpA Hw8_dst Hw9_dst Hw10_dst Hw11_dst Hw12_dst Hw13_dst Hw14_dst Hw15_dst]
    · iapply (done_to_out m d (m (pLoc d)))
      iapply (done_allT m d (m (pLoc d)))
      isplitl [HpA]; · iexact HpA
      isplitl [Hw8_dst]; · iexact Hw8_dst
      isplitl [Hw9_dst]; · iexact Hw9_dst
      isplitl [Hw10_dst]; · iexact Hw10_dst
      isplitl [Hw11_dst]; · iexact Hw11_dst
      isplitl [Hw12_dst]; · iexact Hw12_dst
      isplitl [Hw13_dst]; · iexact Hw13_dst
      isplitl [Hw14_dst]; · iexact Hw14_dst
      isplitl [Hw15_dst]; · iexact Hw15_dst
      iempintro
    · iapply (Entails.of_eq (pointsTo_congr (low_tcOut m d)))
      iexact HpRest
  · iexists _; isplitr
    rotate_left
    · iexact HO
    · ipureintro
      have hall : ∀ q ∈ W', q ∈ B := fun q hq => by
        rcases hW' q hq with h | h
        · exact hW₀ (Finset.mem_coe.mpr h)
        · obtain ⟨a, b⟩ := q
          cases h
          exact hB a
      intro p hp
      rw [Finset.mem_coe] at hp
      simp only [Finset.mem_insert] at hp
      rcases hp with rfl | rfl | rfl | rfl | rfl | rfl | rfl | rfl | hp
      · exact hB _
      · exact hB _
      · exact hB _
      · exact hB _
      · exact hB _
      · exact hB _
      · exact hB _
      · exact hB _
      · exact hall p hp

end Body

end Cert.Proof.KB

end
-- ==== Proof.KBRegion.lean ====
/-
  The TensorCore region: the entry and exit of the windowless pallas_call around the ring copy's body (Proof/KBTcBody.lean).
-/
import proofs.«202537_g10033043603743_week1_w1_89_23_alg».proof.Proof.KBTcBody
import proofs.«202537_g10033043603743_week1_w1_89_23_alg».proof.Proof.Gen.Kernel.Launch
import proofs.«202537_g10033043603743_week1_w1_89_23_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-- The region's proof data: no window; the body's invariant before and after its one point; the TensorCore owes the
    SparseCores' start signals throughout; its recorded waits are those from before and its own at index `none`. -/
def tcDat (d : Dev nD) (W₀ : Waits sig (HIx 1)) : Pipeline.Dat τ (Elt F) (HIx 1) ℕ UU ℕ cfg0 d where
  A := fun w => w.elim0
  after := fun w => w.elim0
  Φ := fun t => if t.val = 0 then Φ0 m d else Φ1 m d
  q := fun w => w.elim0
  owed := fun _ => (K (F := F)).Otc d 0
  recorded := fun _ => {p | p ∈ W₀ ∨ p.2 = none}

/-- A family over an empty range of windows is nothing. -/
theorem bigSep_fin0 {n : ℕ} (h : n = 0) (Ψ : Fin n → sProp 𝕄) : bigSep Finset.univ Ψ = (iprop(emp) : sProp 𝕄) := by
  subst h
  rw [Finset.univ_eq_empty, bigSep_empty]
  rfl

/-- The TensorCore owes nothing at index `none`: all it owes are the start signals, at the calls' own indices. -/
theorem Otc_none (d : Dev nD) (g : GSem nD τ sig) : (K (F := F)).Otc d 0 g none = 0 := by
  by_contra h
  have := (K (F := F)).lev_of_Otc_pos (Nat.pos_of_ne_zero h)
  rw [(K (F := F)).lev_none] at this
  omega

omit [FloatOps F] in
theorem drop_emp (A B : sProp 𝕄) : iprop(A ∗ B ∗ emp) ⊢ iprop(A ∗ B) := by
  iintro ⟨HA, HB, -⟩
  isplitl [HA]; · iexact HA
  iexact HB
omit [FloatOps F] in
theorem add_emp (A B : sProp 𝕄) : iprop(A ∗ B) ⊢ iprop(A ∗ B ∗ emp) := by
  iintro ⟨HA, HB⟩
  isplitl [HA]; · iexact HA
  isplitl [HB]; · iexact HB
  iempintro

/-- The pipeline's body obligation at its one point is the ring copy's body. -/
theorem tc_body_obl (d : Dev nD) (W₀ : Waits sig (HIx 1)) :
    Pipeline.BodyObligationLoose (tcDat m d W₀) (defs₀ (F := F)) 𝒱₀ (none : HIx 1) Set.univ := by
  intro t
  have ht : t = ⟨0, by decide⟩ := Fin.ext (by have := t.isLt; have : cfg0.N = 1 := by decide
                                              omega)
  subst ht
  rw [bigSep_fin0 rfl, bigSep_fin0 rfl]
  show iprop(Φ0 m d ∗ Pipeline.owesWithin d ((K (F := F)).Otc d 0) _ ∗ emp) ⊢ wp frame _ Set.univ (bodyAt0 ⟨0, by decide⟩) fun _ => iprop(Φ1 m d ∗ Pipeline.owesWithin d ((K (F := F)).Otc d 0) _ ∗ emp)
  exact BI.Entails.trans (drop_emp _ _) (BI.Entails.trans (tc_body m d ((tcDat m d W₀).bound none 0) (fun sm => Or.inl (Or.inr rfl))) (wp_mono frame _ _ fun _ => add_emp _ _))

theorem tc_region [∀ e, Nonempty (Elt F e)] (κ : GSem nD τ sig → ℕ) (d : Dev nD) {Φ : PUnit → sProp 𝕄} :
    iprop((K (F := F)).ctx EH (PP m) κ ∗ (K (F := F)).tcSt EH d 0 ∗ boundary (SparseCore.T d) ∗ xPts m d ∗ (pLoc d ↦{fullShare} m (pLoc d)))
      ⊢ iprop((((K (F := F)).tcSt EH d 0 ∗ boundary (SparseCore.T d) ∗ xPts m d ∗ (pLoc d ↦{fullShare} tcOut m d))
            -∗ Φ ⟨⟩)
        -∗ wp frame (wpE ((K (F := F)).defs (D (F := F))) 𝒱 (SparseCore.T d) none) Set.univ
            (Prog.lift (.customCall (SparseCore.inner (Pipeline.entry 0)) ())) Φ) := by
  unfold SparseCore.Cfg.tcSt boundary
  iintro ⟨#Hctx, ⟨⟨%W₀, %hW₀, HO⟩, Hrest⟩, ⟨Hsb, Hss, Hop⟩, Hx, Hp⟩ Hk
  iapply ((K (F := F)).wp_liftProg (D (F := F)) 𝒱 (SparseCore.T d) Set.univ none (Prog.lift (.customCall (Pipeline.entry 0) ())) Φ)
  iapply (Pipeline.wp_customCall_entry (pcfgs (F := F)) (fun p => (cfgs p).toPCfg_adm) (fun _ c => tcDat m c W₀) (none : HIx 1) ER κ
      Gen.cellOf_inj 0 (defs₀ (F := F)) 𝒱₀ (fun i => i.elim0) d Set.univ ?hE (tc_body_obl m d W₀) ?hne none ?hv
      (X := iprop(Transfers.MayWaits (SparseCore.T d) (none : HIx 1) ((K (F := F)).Otc d 0) ∗ scopedSems0 (SparseCore.T d) ∗ xPts m d ∗ (pLoc d ↦{fullShare} m (pLoc d))))
      (Y := iprop(xPts m d ∗ (pLoc d ↦{fullShare} tcOut m d))) (R := scopedBufs (SparseCore.T d)) ?hbufs ?hin ?hout) $$ [HO Hss Hx Hp Hsb]
  case hE => exact fun w => w.elim0
  case hne => exact fun w => w.elim0
  case hv => exact fun u hu => nomatch hu
  case hbufs =>
    unfold Pipeline.Dat.staging
    rw [bigSep_fin0 rfl]
    iintro H
    isplitr; · iempintro
    iexact H
  case hin =>
    show _ ⊢ Φ0 m d
    unfold Φ0
    iintro ⟨⟨Hmw, Hss, Hx, Hp⟩, -, Hsb⟩
    isplitl [Hmw]; · iexact Hmw
    isplitl [Hsb]; · iexact Hsb
    isplitl [Hss]; · iexact Hss
    isplitl [Hx]; · iexact Hx
    iexact Hp
  case hout =>
    show iprop(Φ1 m d ∗ _ ∗ _) ⊢ _
    unfold Φ1
    iintro ⟨⟨Hsb, Hss, Hx, Hp⟩, -, -⟩
    isplitl [Hx Hp]
    · isplitl [Hx]; · iexact Hx
      iexact Hp
    isplitl [Hss]; · iexact Hss
    iexact Hsb
  · isplitl [HO]
    · unfold Pipeline.EntryPre Pipeline.PerCore.EntryPre
      isplitr
      · unfold Pipeline.Dat.arrays; rw [bigSep_fin0 rfl]; iempintro
      isplitl [HO]
      · iexists W₀; isplitr
        · ipureintro; exact fun p hp => Or.inl (Or.inl (Finset.mem_coe.mp hp))
        · iexact HO
      isplitr
      · unfold Pipeline.PerCore.cellsWaits Pipeline.PerCore.RDat.cellsWaits; rw [bigSep_fin0 rfl]; iempintro
      isplitr
      · unfold Pipeline.PerCore.cellsInit Pipeline.PerCore.RDat.cellsInit; rw [bigSep_fin0 rfl]; iempintro
      unfold Pipeline.PerCore.toksInit; rw [bigSep_fin0 rfl]; iempintro
    isplitr
    · unfold Pipeline.prefHeld
      rw [bigSep_fin0 rfl]; iempintro
    isplitl [Hss Hx Hp]
    · isplitr
      · ihave Hlev := (SparseCore.Cfg.ctx_levAts κ) $$ Hctx
        iapply ((K (F := F)).mayWaits_none (thr := SparseCore.T d) (Otc_none d)); iexact Hlev
      isplitl [Hss]; · iexact Hss
      isplitl [Hx]; · iexact Hx
      iexact Hp
    iexact Hsb
  · unfold Pipeline.EntryPost Pipeline.PerCore.EntryPost
    iintro ⟨⟨-, ⟨%W', %hW', HO⟩⟩, ⟨Hx, Hp⟩, Hss, Hsb⟩
    rw [wp_ret]; imodintro
    iapply Hk
    isplitl [HO Hrest]
    · isplitl [HO]
      · iexists W'; isplitr
        · ipureintro
          intro p hp
          rcases hW' (Finset.mem_coe.mpr hp) with (h | h) | ⟨w, _⟩
          · exact hW₀ p h
          · have e : (K (F := F)).lev (SparseCore.T d, p.1) p.2 = 0 := by rw [h]; rfl
            rw [e]
          · exact w.elim0
        · iexact HO
      iexact Hrest
    isplitl [Hsb Hss Hop]
    · isplitl [Hsb]; · iexact Hsb
      isplitl [Hss]; · iexact Hss
      iexact Hop
    isplitl [Hx]; · iexact Hx
    iexact Hp

end Cert.Proof.KB

end
-- ==== Proof.KBMain.lean ====
/-
  The launch: the host program on the TensorCore, the launch element of the ghost state, and the program's run.

  The host program runs the ring copy of blocks 4..31 into a result buffer of its own (its blocks 0..3 are left as they were),
  copies that buffer into the result, and calls the SparseCores, handing each the shares of its sixteen tasks — the result's
  blocks 0..3 cut into 32 stripes of eight chunks, with the matching chunks of `src` (block 0) or `x` (blocks 1..3) — and
  taking them back written. What comes back, with the untouched blocks 4..31, is `x` with block 0 replaced by `src`.

  The TensorCore region is Proof/KBRegion.lean's (its entry and exit around the ring copy's body, Proof/KBTcBody.lean); the
  cutting of the arrays into the tasks' shares and back is Proof/KBShare.lean's.
-/
import proofs.«202537_g10033043603743_week1_w1_89_23_alg».proof.Proof.KBRegion

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair _ _) $$ Hu
  icases H with ⟨HH, -⟩
  imodintro
  isplitl [HH]; · iexact HH
  isplitr; · rw [bigSep_emp']; iempintro
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev p' : DevRef τ sig := Proc.devRef .tc (main_v0 : Ref sig .tc)
abbrev o' : DevRef τ sig := Proc.devRef .tc (main_v1 : Ref sig .tc)
abbrev opCopy : HloOp τ sig (Elt F) := StableHlo.unary main_v0 main_v1 id
abbrev S2 : Finset (DevRef τ sig) := {p', o'}

omit [FloatOps F] in
theorem held_S2 (d : Dev nD) (W : Valuation τ sig (Elt F)) :
    (held (T d) S2 W : sProp 𝕄) = iprop((pLoc d ↦{fullShare} W p') ∗ (oLoc d ↦{fullShare} W o')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (sLoc d ↦{fullShare} W main_arg1) ∗ (pLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The valuation at the copy: the region's result buffer at `tcOut`. -/
def V1 (d : Dev nD) : Valuation τ sig (Elt F) := Function.update (fun b => m (d, b)) p' (tcOut m d)
theorem V1_p (d : Dev nD) : V1 m d p' = tcOut m d := Function.update_self _ _ _
theorem V1_o (d : Dev nD) : V1 m d o' = m (oLoc d) := Function.update_of_ne (show o' ≠ p' by decide) _ _

theorem hCopy : (opCopy (F := F)).bufs ⊆ S2 := show ({p', o'} : Finset (DevRef τ sig)) ⊆ S2 from Finset.Subset.refl _

/-- After the copy the result's buffer holds the region's result. -/
theorem copy_result (d : Dev nD) : (opCopy (F := F)).result (V1 m d) o' = foT m d :=
  (StableHlo.unary_result' (x := main_v0) (y := main_v1) id _ _ (V1 m d)).trans (V1_p m d)

/-- What @main leaves the claim: the arguments at their launch contents, the result at the specification. -/
abbrev FIN (d : Dev nD) : sProp 𝕄 := iprop(xPts m d ∗ sPts m d ∗ (oLoc d ↦{fullShare} finalOut m d))

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hs, Hp, Ho⟩, -, -⟩, -⟩
  -- the ring copy on the TensorCore
  iapply (tc_region m κ d) $$ [Hst Hb Hx Hp]
  · isplitr; · iexact Hctx
    isplitl [Hst]; · iexact Hst
    isplitl [Hb]; · iexact Hb
    isplitl [Hx]; · iexact Hx
    iexact Hp
  iintro ⟨Hst, Hb, Hx, Hp⟩
  -- the copy of the region's result into the result's buffer
  iapply (wp_hlo_within 𝒱 (SparseCore.T d) none Set.univ (op := opCopy) (S := S2) hCopy (V := V1 m d)) $$ [Hb Hp Ho]
  · isplitl [Hb]; · iexact Hb
    rw [held_S2, V1_p, V1_o]
    isplitl [Hp]; · iexact Hp
    iexact Ho
  iintro ⟨Hb, Hheld⟩
  ihave Hh := (Entails.of_eq (held_S2 (F := F) d _)) $$ Hheld
  icases Hh with ⟨Hp, Ho⟩
  rw [wp_ret]; imodintro
  ihave Ho := (Entails.of_eq (congrArg (fun f => (oLoc d ↦{fullShare} f : sProp 𝕄)) (copy_result m d))) $$ Ho
  -- the arrays cut into the tasks' shares, the call, and the shares joined back
  ihave Hsp := (share_split m d) $$ [Hx Hs Ho]
  · isplitl [Hx]; · iexact Hx
    isplitl [Hs]; · iexact Hs
    iexact Ho
  icases Hsp with ⟨Hst0, Hjoin⟩
  iapply ((K (F := F)).wp_run (D (F := F)) 𝒱 (EH := EH) (P := PP m) κ d 0) $$ [Hst Hst0 Hjoin]
  isplitr; · iexact Hctx
  isplitl [Hst]; · iexact Hst
  isplitl [Hst0]; · iexact Hst0
  iintro ⟨Hst, Hdn⟩
  imodintro
  isplitl [Hst]; · iexact Hst
  iapply Hjoin; iexact Hdn

/-! ## The final memory read, and the program's run -/

def fq (d : Dev nD) (s' : Phys nD τ sig (Elt F)) : Prop :=
  s'.mem.mem (oLoc d) = finalOut m d ∧ s'.mem.mem (xLoc d) = m (xLoc d) ∧ s'.mem.mem (sLoc d) = m (sLoc d)

theorem hfin (d : Dev nD) (s' : Phys nD τ sig (Elt F)) : iprop(FIN m d ∗ SI s') ⊢ (⌜fq m d s'⌝ : sProp 𝕄) := by
  iintro ⟨⟨Hx, Hs, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h2, HSI, -⟩
  ihave H := (SI_pointsTo_agree (st := s') (ℓ := oLoc d) (I := Finset.univ) (q := fullShare) (f := finalOut m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What the run leaves: the result is the specification of the launch contents of the arguments, which are unchanged. -/
def QC : PUnit × MemSt nD τ sig (Elt F) → Prop := fun r => ∀ c : Dev nD,
  r.2.mem (oLoc c) = Cert.Spec.setBlock0 (m (xLoc c)) (m (sLoc c)) ∧ r.2.mem (xLoc c) = m (xLoc c) ∧ r.2.mem (sLoc c) = m (sLoc c)

/-- The program's run, by the launch theorem: no scalar-subcore kernel; the one vector-subcore kernel's task and split; the host
    program; the launch element; the final memory. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl m (foT m) facts)
    (fun q _ => match q with | 0 => SparseCore.Cfg.VecSplit.of_plain (vecSplit m (foT m)))
    m ρ main (fun _ => iprop(emp)) (FIN m) (u₀ (F := F)) (sep_elim_left.trans (hu₀ m)) (hmain m ρ) (fq m) (hfin m) (QC m) (fun _ h => h)

end Cert.Proof.KB

end
-- ==== Proof.lean ====
/-
  The claim: the kernel copies `x` into the result with block 0 replaced by `src` — blocks 4..31 by a ring copy on the
  TensorCore, blocks 0..3 stripe by stripe on the 32 vector subcores, block 0's stripes from `src` — and the reference writes
  `src` over block 0 of `x` by one scatter. Both results are `Spec.setBlock0 x src`, entry by entry; no arithmetic is done
  on the entries, so nothing is asked of the precondition.

  The reference's frame is its generated run; the idealization's conjunct is trivial (the ledger is empty); the reference's
  result is the specification by Proof/RefValue.lean (over Proof/LibScatterSet.lean). The kernel's frames and its value come
  from its run (Proof/KIMain.lean at the ideal instance, Proof/KBMain.lean at the word level), by the launch theorem from the
  vector subcores' task (Proof/KITile.lean, KIObl.lean), the cutting of the arrays into the tasks' shares (KIShare.lean), and
  the host program: the TensorCore region (KIRegion.lean around the ring copy's body, KITcRing.lean and KITcBody.lean), the
  copy into the result's buffer, and the call. The KB… modules are the same over the word-level program.
-/
import proofs.«202537_g10033043603743_week1_w1_89_23_alg».proof.Defs
import proofs.«202537_g10033043603743_week1_w1_89_23_alg».proof.Proof.Gen.Kernel
import proofs.«202537_g10033043603743_week1_w1_89_23_alg».proof.Proof.Gen.Kernel.Skeleton
import proofs.«202537_g10033043603743_week1_w1_89_23_alg».proof.Proof.Gen.Kernel.Loops
import proofs.«202537_g10033043603743_week1_w1_89_23_alg».proof.Proof.Gen.Kernel.Launch
import proofs.«202537_g10033043603743_week1_w1_89_23_alg».proof.Proof.Gen.Kernel.Points
import proofs.«202537_g10033043603743_week1_w1_89_23_alg».proof.Proof.Gen.KernelIdeal
import proofs.«202537_g10033043603743_week1_w1_89_23_alg».proof.Proof.Gen.KernelIdeal.Skeleton
import proofs.«202537_g10033043603743_week1_w1_89_23_alg».proof.Proof.Gen.KernelIdeal.Loops
import proofs.«202537_g10033043603743_week1_w1_89_23_alg».proof.Proof.Gen.KernelIdeal.Launch
import proofs.«202537_g10033043603743_week1_w1_89_23_alg».proof.Proof.Gen.KernelIdeal.Points
import proofs.«202537_g10033043603743_week1_w1_89_23_alg».proof.Proof.Gen.ReferenceIdeal
import proofs.«202537_g10033043603743_week1_w1_89_23_alg».proof.Proof.Gen.Pre_finite_inputs
import proofs.«202537_g10033043603743_week1_w1_89_23_alg».proof.Proof.Gen.ReferenceIdeal.Run
import proofs.«202537_g10033043603743_week1_w1_89_23_alg».proof.Proof.Gen.ReferenceIdeal.Read
import proofs.«202537_g10033043603743_week1_w1_89_23_alg».proof.Proof.RefValue
import proofs.«202537_g10033043603743_week1_w1_89_23_alg».proof.Proof.KIMain
import proofs.«202537_g10033043603743_week1_w1_89_23_alg».proof.Proof.KBMain
import Idealize.ShloMosaic.Adequacy
import Idealize.ShloMosaic.Init

noncomputable section

namespace Cert.Proof

open Idealize.ShloMosaic Idealize.SL.Sem

/-- The word-level kernel runs and keeps its arguments: its run, the value dropped. -/
theorem frame_k : @Cert.frame_Kernel Cert.Kernel.Gen.facts Cert.Pre_finite_inputs.Gen.facts := fun m ρ _ =>
  (θ_run Cert.Kernel.defs _ _).mono (fun _ h c => ⟨(h c).2.1, (h c).2.2⟩) (Cert.Proof.KB.run_main (F := Bits) m ρ)

/-- The idealized kernel runs and keeps its arguments. -/
theorem frame_ki : @Cert.frame_KernelIdeal Cert.KernelIdeal.Gen.facts Cert.Pre_finite_inputs.Gen.facts := fun m ρ _ =>
  (θ_run Cert.KernelIdeal.defs _ _).mono (fun _ h c => ⟨(h c).2.1, (h c).2.2⟩) (Cert.Proof.KI.run_main (F := Ideal) m ρ)

/-- The reference runs and keeps its arguments: its generated run, the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both programs end with `x` with block 0 replaced by `src`: the kernel by its run, the reference by its scatter read entry
    by entry, from arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.setBlock0 (m (Cert.Proof.KI.xLoc c)) (m (Cert.Proof.KI.sLoc c)), Cert.Proof.KI.run_main (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.RefValue.ref_eq_setBlock0 (F := Ideal) _ _).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
